-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000000 : Shape := ⟨2, ![2, 1000000]⟩
abbrev S8192 : Shape := ⟨1, ![8192]⟩
abbrev S20000x64 : Shape := ⟨2, ![20000, 64]⟩
abbrev S40000x64 : Shape := ⟨2, ![40000, 64]⟩
abbrev S20000x128 : Shape := ⟨2, ![20000, 128]⟩
abbrev S40000x2048 : Shape := ⟨2, ![40000, 2048]⟩
abbrev S40000x768 : Shape := ⟨2, ![40000, 768]⟩
abbrev S128x2048 : Shape := ⟨2, ![128, 2048]⟩
abbrev S128 : Shape := ⟨1, ![128]⟩
abbrev S128x768 : Shape := ⟨2, ![128, 768]⟩
abbrev S128x128 : Shape := ⟨2, ![128, 128]⟩
abbrev S64x64 : Shape := ⟨2, ![64, 64]⟩
abbrev S64x128 : Shape := ⟨2, ![64, 128]⟩
abbrev S64 : Shape := ⟨1, ![64]⟩
abbrev S64x192 : Shape := ⟨2, ![64, 192]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S40000x64 : S_.BroadcastsInDim S40000x64 (![] : Fin 0 → Fin S40000x64.rank)
  reducesTo_S40000x64_S_d0_1 : S40000x64.ReducesTo [0, 1] S_
  bcast_S_S20000x128 : S_.BroadcastsInDim S20000x128 (![] : Fin 0 → Fin S20000x128.rank)
  reducesTo_S20000x128_S_d0_1 : S20000x128.ReducesTo [0, 1] S_
  bcast_S_S40000x2048 : S_.BroadcastsInDim S40000x2048 (![] : Fin 0 → Fin S40000x2048.rank)
  reducesTo_S40000x2048_S_d0_1 : S40000x2048.ReducesTo [0, 1] S_
  bcast_S_S40000x768 : S_.BroadcastsInDim S40000x768 (![] : Fin 0 → Fin S40000x768.rank)
  reducesTo_S40000x768_S_d0_1 : S40000x768.ReducesTo [0, 1] S_
  bcast_S_S128x2048 : S_.BroadcastsInDim S128x2048 (![] : Fin 0 → Fin S128x2048.rank)
  reducesTo_S128x2048_S_d0_1 : S128x2048.ReducesTo [0, 1] S_
  bcast_S_S128 : S_.BroadcastsInDim S128 (![] : Fin 0 → Fin S128.rank)
  reducesTo_S128_S_d0 : S128.ReducesTo [0] S_
  bcast_S_S128x768 : S_.BroadcastsInDim S128x768 (![] : Fin 0 → Fin S128x768.rank)
  reducesTo_S128x768_S_d0_1 : S128x768.ReducesTo [0, 1] S_
  bcast_S_S128x128 : S_.BroadcastsInDim S128x128 (![] : Fin 0 → Fin S128x128.rank)
  reducesTo_S128x128_S_d0_1 : S128x128.ReducesTo [0, 1] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x192 : S_.BroadcastsInDim S64x192 (![] : Fin 0 → Fin S64x192.rank)
  reducesTo_S64x192_S_d0_1 : S64x192.ReducesTo [0, 1] S_

variable [Facts]

def fn_part8 {F : FTy → Type} [FloatOps F] (main_arg31 : FVec F S64x128 .f32) (main_arg32 : FVec F S64 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64x128 .f32 := Host.absf main_arg31
  let main_cst_54 : FVec F S_ .f32 := constant S_ .f32 0x7F800000#32
  let main_v140 : FVec F S64x128 .f32 := broadcastInDim S64x128 ![] bcast_S_S64x128 main_cst_54
  let main_v141 : IVec S64x128 1 := cmpf .olt main_v139 main_v140
  let main_c_55 : IVec S_ 1 := constantI S_ 1 1#1
  let main_v142 : IVec S_ 1 := (fun x v => Host.reduce IntOp.andi x v reducesTo_S64x128_S_d0_1 h_S_) main_v141 main_c_55
  let main_v143 : IVec S_ 1 := andi main_v138 main_v142
  let main_v144 : FVec F S64 .f32 := Host.absf main_arg32
  let main_cst_56 : FVec F S_ .f32 := constant S_ .f32 0x7F800000#32
  let main_v145 : FVec F S64 .f32 := broadcastInDim S64 ![] bcast_S_S64 main_cst_56
  let main_v146 : IVec S64 1 := cmpf .olt main_v144 main_v145
  let main_c_57 : IVec S_ 1 := constantI S_ 1 1#1
  let main_v147 : IVec S_ 1 := (fun x v => Host.reduce IntOp.andi x v reducesTo_S64_S_d0 h_S_) main_v146 main_c_57
  let main_v148 : IVec S_ 1 := andi main_v143 main_v147
  main_v148

def fn_part7 {F : FTy → Type} [FloatOps F] (main_arg28 : FVec F S64 .f32) (main_arg29 : FVec F S64x192 .f32) (main_arg30 : FVec F S64 .f32) (main_arg31 : FVec F S64x128 .f32) (main_arg32 : FVec F S64 .f32) (main_v118 : IVec S_ 1) (main_v119 : FVec F S64x128 .f32) : IVec S_ 1 :=
  let main_cst_46 : FVec F S_ .f32 := constant S_ .f32 0x7F800000#32
  let main_v120 : FVec F S64x128 .f32 := broadcastInDim S64x128 ![] bcast_S_S64x128 main_cst_46
  let main_v121 : IVec S64x128 1 := cmpf .olt main_v119 main_v120
  let main_c_47 : IVec S_ 1 := constantI S_ 1 1#1
  let main_v122 : IVec S_ 1 := (fun x v => Host.reduce IntOp.andi x v reducesTo_S64x128_S_d0_1 h_S_) main_v121 main_c_47
  let main_v123 : IVec S_ 1 := andi main_v118 main_v122
  let main_v124 : FVec F S64 .f32 := Host.absf main_arg28
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64x192 .f32 := Host.absf main_arg29
  let main_cst_50 : FVec F S_ .f32 := constant S_ .f32 0x7F800000#32
  let main_v130 : FVec F S64x192 .f32 := broadcastInDim S64x192 ![] bcast_S_S64x192 main_cst_50
  let main_v131 : IVec S64x192 1 := cmpf .olt main_v129 main_v130
  let main_c_51 : IVec S_ 1 := constantI S_ 1 1#1
  let main_v132 : IVec S_ 1 := (fun x v => Host.reduce IntOp.andi x v reducesTo_S64x192_S_d0_1 h_S_) main_v131 main_c_51
  let main_v133 : IVec S_ 1 := andi main_v128 main_v132
  let main_v134 : FVec F S64 .f32 := Host.absf main_arg30
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg31 main_arg32 main_v133 main_v136

def fn_part6 {F : FTy → Type} [FloatOps F] (main_arg24 : FVec F S64 .f32) (main_arg25 : FVec F S64x192 .f32) (main_arg26 : FVec F S64 .f32) (main_arg27 : FVec F S64x128 .f32) (main_arg28 : FVec F S64 .f32) (main_arg29 : FVec F S64x192 .f32) (main_arg30 : FVec F S64 .f32) (main_arg31 : FVec F S64x128 .f32) (main_arg32 : FVec F S64 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64 .f32 := Host.absf main_arg24
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x192 .f32 := Host.absf main_arg25
  let main_cst_42 : FVec F S_ .f32 := constant S_ .f32 0x7F800000#32
  let main_v110 : FVec F S64x192 .f32 := broadcastInDim S64x192 ![] bcast_S_S64x192 main_cst_42
  let main_v111 : IVec S64x192 1 := cmpf .olt main_v109 main_v110
  let main_c_43 : IVec S_ 1 := constantI S_ 1 1#1
  let main_v112 : IVec S_ 1 := (fun x v => Host.reduce IntOp.andi x v reducesTo_S64x192_S_d0_1 h_S_) main_v111 main_c_43
  let main_v113 : IVec S_ 1 := andi main_v108 main_v112
  let main_v114 : FVec F S64 .f32 := Host.absf main_arg26
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64x128 .f32 := Host.absf main_arg27
  fn_part7 (F := F) main_arg28 main_arg29 main_arg30 main_arg31 main_arg32 main_v118 main_v119

def fn_part5 {F : FTy → Type} [FloatOps F] (main_arg21 : FVec F S64x128 .f32) (main_arg22 : FVec F S64 .f32) (main_arg23 : FVec F S64x64 .f32) (main_arg24 : FVec F S64 .f32) (main_arg25 : FVec F S64x192 .f32) (main_arg26 : FVec F S64 .f32) (main_arg27 : FVec F S64x128 .f32) (main_arg28 : FVec F S64 .f32) (main_arg29 : FVec F S64x192 .f32) (main_arg30 : FVec F S64 .f32) (main_arg31 : FVec F S64x128 .f32) (main_arg32 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x128 .f32 := Host.absf main_arg21
  let main_cst_34 : FVec F S_ .f32 := constant S_ .f32 0x7F800000#32
  let main_v90 : FVec F S64x128 .f32 := broadcastInDim S64x128 ![] bcast_S_S64x128 main_cst_34
  let main_v91 : IVec S64x128 1 := cmpf .olt main_v89 main_v90
  let main_c_35 : IVec S_ 1 := constantI S_ 1 1#1
  let main_v92 : IVec S_ 1 := (fun x v => Host.reduce IntOp.andi x v reducesTo_S64x128_S_d0_1 h_S_) main_v91 main_c_35
  let main_v93 : IVec S_ 1 := andi main_v88 main_v92
  let main_v94 : FVec F S64 .f32 := Host.absf main_arg22
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x64 .f32 := Host.absf main_arg23
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg24 main_arg25 main_arg26 main_arg27 main_arg28 main_arg29 main_arg30 main_arg31 main_arg32 main_v98 main_v101 main_c_39

def fn_part4 {F : FTy → Type} [FloatOps F] (main_arg17 : FVec F S64x128 .f32) (main_arg18 : FVec F S64 .f32) (main_arg19 : FVec F S64x64 .f32) (main_arg20 : FVec F S64 .f32) (main_arg21 : FVec F S64x128 .f32) (main_arg22 : FVec F S64 .f32) (main_arg23 : FVec F S64x64 .f32) (main_arg24 : FVec F S64 .f32) (main_arg25 : FVec F S64x192 .f32) (main_arg26 : FVec F S64 .f32) (main_arg27 : FVec F S64x128 .f32) (main_arg28 : FVec F S64 .f32) (main_arg29 : FVec F S64x192 .f32) (main_arg30 : FVec F S64 .f32) (main_arg31 : FVec F S64x128 .f32) (main_arg32 : FVec F S64 .f32) (main_v63 : IVec S_ 1) (main_v67 : IVec S_ 1) : IVec S_ 1 :=
  let main_v68 : IVec S_ 1 := andi main_v63 main_v67
  let main_v69 : FVec F S64x128 .f32 := Host.absf main_arg17
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S64 .f32 := Host.absf main_arg18
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg19
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg20
  let main_cst_32 : FVec F S_ .f32 := constant S_ .f32 0x7F800000#32
  fn_part5 (F := F) main_arg21 main_arg22 main_arg23 main_arg24 main_arg25 main_arg26 main_arg27 main_arg28 main_arg29 main_arg30 main_arg31 main_arg32 main_v83 main_v84 main_cst_32

def fn_part3 {F : FTy → Type} [FloatOps F] (main_arg14 : FVec F S64x64 .f32) (main_arg15 : FVec F S128x128 .f32) (main_arg16 : FVec F S64x64 .f32) (main_arg17 : FVec F S64x128 .f32) (main_arg18 : FVec F S64 .f32) (main_arg19 : FVec F S64x64 .f32) (main_arg20 : FVec F S64 .f32) (main_arg21 : FVec F S64x128 .f32) (main_arg22 : FVec F S64 .f32) (main_arg23 : FVec F S64x64 .f32) (main_arg24 : FVec F S64 .f32) (main_arg25 : FVec F S64x192 .f32) (main_arg26 : FVec F S64 .f32) (main_arg27 : FVec F S64x128 .f32) (main_arg28 : FVec F S64 .f32) (main_arg29 : FVec F S64x192 .f32) (main_arg30 : FVec F S64 .f32) (main_arg31 : FVec F S64x128 .f32) (main_arg32 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S64x64 .f32 := Host.absf main_arg14
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S64x64 .f32 := Host.absf main_arg16
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg17 main_arg18 main_arg19 main_arg20 main_arg21 main_arg22 main_arg23 main_arg24 main_arg25 main_arg26 main_arg27 main_arg28 main_arg29 main_arg30 main_arg31 main_arg32 main_v63 main_v67

def fn_part2 {F : FTy → Type} [FloatOps F] (main_arg10 : FVec F S128 .f32) (main_arg11 : FVec F S128x768 .f32) (main_arg12 : FVec F S128 .f32) (main_arg13 : FVec F S128x128 .f32) (main_arg14 : FVec F S64x64 .f32) (main_arg15 : FVec F S128x128 .f32) (main_arg16 : FVec F S64x64 .f32) (main_arg17 : FVec F S64x128 .f32) (main_arg18 : FVec F S64 .f32) (main_arg19 : FVec F S64x64 .f32) (main_arg20 : FVec F S64 .f32) (main_arg21 : FVec F S64x128 .f32) (main_arg22 : FVec F S64 .f32) (main_arg23 : FVec F S64x64 .f32) (main_arg24 : FVec F S64 .f32) (main_arg25 : FVec F S64x192 .f32) (main_arg26 : FVec F S64 .f32) (main_arg27 : FVec F S64x128 .f32) (main_arg28 : FVec F S64 .f32) (main_arg29 : FVec F S64x192 .f32) (main_arg30 : FVec F S64 .f32) (main_arg31 : FVec F S64x128 .f32) (main_arg32 : FVec F S64 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x768 .f32 := Host.absf main_arg11
  let main_cst_14 : FVec F S_ .f32 := constant S_ .f32 0x7F800000#32
  let main_v40 : FVec F S128x768 .f32 := broadcastInDim S128x768 ![] bcast_S_S128x768 main_cst_14
  let main_v41 : IVec S128x768 1 := cmpf .olt main_v39 main_v40
  let main_c_15 : IVec S_ 1 := constantI S_ 1 1#1
  let main_v42 : IVec S_ 1 := (fun x v => Host.reduce IntOp.andi x v reducesTo_S128x768_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_arg18 main_arg19 main_arg20 main_arg21 main_arg22 main_arg23 main_arg24 main_arg25 main_arg26 main_arg27 main_arg28 main_arg29 main_arg30 main_arg31 main_arg32 main_v48 main_v49 main_v50

def fn_part1 {F : FTy → Type} [FloatOps F] (main_arg7 : FVec F S40000x2048 .f32) (main_arg8 : FVec F S40000x768 .f32) (main_arg9 : FVec F S128x2048 .f32) (main_arg10 : FVec F S128 .f32) (main_arg11 : FVec F S128x768 .f32) (main_arg12 : FVec F S128 .f32) (main_arg13 : FVec F S128x128 .f32) (main_arg14 : FVec F S64x64 .f32) (main_arg15 : FVec F S128x128 .f32) (main_arg16 : FVec F S64x64 .f32) (main_arg17 : FVec F S64x128 .f32) (main_arg18 : FVec F S64 .f32) (main_arg19 : FVec F S64x64 .f32) (main_arg20 : FVec F S64 .f32) (main_arg21 : FVec F S64x128 .f32) (main_arg22 : FVec F S64 .f32) (main_arg23 : FVec F S64x64 .f32) (main_arg24 : FVec F S64 .f32) (main_arg25 : FVec F S64x192 .f32) (main_arg26 : FVec F S64 .f32) (main_arg27 : FVec F S64x128 .f32) (main_arg28 : FVec F S64 .f32) (main_arg29 : FVec F S64x192 .f32) (main_arg30 : FVec F S64 .f32) (main_arg31 : FVec F S64x128 .f32) (main_arg32 : FVec F S64 .f32) (main_v13 : IVec S_ 1) (main_v16 : IVec S20000x128 1) : IVec S_ 1 :=
  let main_c_5 : IVec S_ 1 := constantI S_ 1 1#1
  let main_v17 : IVec S_ 1 := (fun x v => Host.reduce IntOp.andi x v reducesTo_S20000x128_S_d0_1 h_S_) main_v16 main_c_5
  let main_v18 : IVec S_ 1 := andi main_v13 main_v17
  let main_v19 : FVec F S40000x2048 .f32 := Host.absf main_arg7
  let main_cst_6 : FVec F S_ .f32 := constant S_ .f32 0x7F800000#32
  let main_v20 : FVec F S40000x2048 .f32 := broadcastInDim S40000x2048 ![] bcast_S_S40000x2048 main_cst_6
  let main_v21 : IVec S40000x2048 1 := cmpf .olt main_v19 main_v20
  let main_c_7 : IVec S_ 1 := constantI S_ 1 1#1
  let main_v22 : IVec S_ 1 := (fun x v => Host.reduce IntOp.andi x v reducesTo_S40000x2048_S_d0_1 h_S_) main_v21 main_c_7
  let main_v23 : IVec S_ 1 := andi main_v18 main_v22
  let main_v24 : FVec F S40000x768 .f32 := Host.absf main_arg8
  let main_cst_8 : FVec F S_ .f32 := constant S_ .f32 0x7F800000#32
  let main_v25 : FVec F S40000x768 .f32 := broadcastInDim S40000x768 ![] bcast_S_S40000x768 main_cst_8
  let main_v26 : IVec S40000x768 1 := cmpf .olt main_v24 main_v25
  let main_c_9 : IVec S_ 1 := constantI S_ 1 1#1
  let main_v27 : IVec S_ 1 := (fun x v => Host.reduce IntOp.andi x v reducesTo_S40000x768_S_d0_1 h_S_) main_v26 main_c_9
  let main_v28 : IVec S_ 1 := andi main_v23 main_v27
  let main_v29 : FVec F S128x2048 .f32 := Host.absf main_arg9
  let main_cst_10 : FVec F S_ .f32 := constant S_ .f32 0x7F800000#32
  let main_v30 : FVec F S128x2048 .f32 := broadcastInDim S128x2048 ![] bcast_S_S128x2048 main_cst_10
  let main_v31 : IVec S128x2048 1 := cmpf .olt main_v29 main_v30
  let main_c_11 : IVec S_ 1 := constantI S_ 1 1#1
  let main_v32 : IVec S_ 1 := (fun x v => Host.reduce IntOp.andi x v reducesTo_S128x2048_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v33

def fn {F : FTy → Type} [FloatOps F] (main_arg0 : IVec S2x1000000 32) (main_arg1 : IVec S8192 32) (main_arg2 : IVec S8192 32) (main_arg3 : FVec F S20000x64 .f32) (main_arg4 : FVec F S40000x64 .f32) (main_arg5 : FVec F S20000x128 .f32) (main_arg6 : FVec F S20000x128 .f32) (main_arg7 : FVec F S40000x2048 .f32) (main_arg8 : FVec F S40000x768 .f32) (main_arg9 : FVec F S128x2048 .f32) (main_arg10 : FVec F S128 .f32) (main_arg11 : FVec F S128x768 .f32) (main_arg12 : FVec F S128 .f32) (main_arg13 : FVec F S128x128 .f32) (main_arg14 : FVec F S64x64 .f32) (main_arg15 : FVec F S128x128 .f32) (main_arg16 : FVec F S64x64 .f32) (main_arg17 : FVec F S64x128 .f32) (main_arg18 : FVec F S64 .f32) (main_arg19 : FVec F S64x64 .f32) (main_arg20 : FVec F S64 .f32) (main_arg21 : FVec F S64x128 .f32) (main_arg22 : FVec F S64 .f32) (main_arg23 : FVec F S64x64 .f32) (main_arg24 : FVec F S64 .f32) (main_arg25 : FVec F S64x192 .f32) (main_arg26 : FVec F S64 .f32) (main_arg27 : FVec F S64x128 .f32) (main_arg28 : FVec F S64 .f32) (main_arg29 : FVec F S64x192 .f32) (main_arg30 : FVec F S64 .f32) (main_arg31 : FVec F S64x128 .f32) (main_arg32 : FVec F S64 .f32) : IVec S_ 1 :=
  let main_v0 : FVec F S20000x64 .f32 := Host.absf main_arg3
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S40000x64 .f32 := Host.absf main_arg4
  let main_cst_0 : FVec F S_ .f32 := constant S_ .f32 0x7F800000#32
  let main_v5 : FVec F S40000x64 .f32 := broadcastInDim S40000x64 ![] bcast_S_S40000x64 main_cst_0
  let main_v6 : IVec S40000x64 1 := cmpf .olt main_v4 main_v5
  let main_c_1 : IVec S_ 1 := constantI S_ 1 1#1
  let main_v7 : IVec S_ 1 := (fun x v => Host.reduce IntOp.andi x v reducesTo_S40000x64_S_d0_1 h_S_) main_v6 main_c_1
  let main_v8 : IVec S_ 1 := andi main_v3 main_v7
  let main_v9 : FVec F S20000x128 .f32 := Host.absf main_arg5
  let main_cst_2 : FVec F S_ .f32 := constant S_ .f32 0x7F800000#32
  let main_v10 : FVec F S20000x128 .f32 := broadcastInDim S20000x128 ![] bcast_S_S20000x128 main_cst_2
  let main_v11 : IVec S20000x128 1 := cmpf .olt main_v9 main_v10
  let main_c_3 : IVec S_ 1 := constantI S_ 1 1#1
  let main_v12 : IVec S_ 1 := (fun x v => Host.reduce IntOp.andi x v reducesTo_S20000x128_S_d0_1 h_S_) main_v11 main_c_3
  let main_v13 : IVec S_ 1 := andi main_v8 main_v12
  let main_v14 : FVec F S20000x128 .f32 := Host.absf main_arg6
  let main_cst_4 : FVec F S_ .f32 := constant S_ .f32 0x7F800000#32
  let main_v15 : FVec F S20000x128 .f32 := broadcastInDim S20000x128 ![] bcast_S_S20000x128 main_cst_4
  let main_v16 : IVec S20000x128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v13 main_v16
-- ==== Kernel.lean ====
abbrev S2x1000000 : Shape := ⟨2, ![2, 1000000]⟩
abbrev S8192 : Shape := ⟨1, ![8192]⟩
abbrev S20000x64 : Shape := ⟨2, ![20000, 64]⟩
abbrev S40000x64 : Shape := ⟨2, ![40000, 64]⟩
abbrev S20000x128 : Shape := ⟨2, ![20000, 128]⟩
abbrev S40000x2048 : Shape := ⟨2, ![40000, 2048]⟩
abbrev S40000x768 : Shape := ⟨2, ![40000, 768]⟩
abbrev S128x2048 : Shape := ⟨2, ![128, 2048]⟩
abbrev S128 : Shape := ⟨1, ![128]⟩
abbrev S128x768 : Shape := ⟨2, ![128, 768]⟩
abbrev S128x128 : Shape := ⟨2, ![128, 128]⟩
abbrev S64x64 : Shape := ⟨2, ![64, 64]⟩
abbrev S64x128 : Shape := ⟨2, ![64, 128]⟩
abbrev S64 : Shape := ⟨1, ![64]⟩
abbrev S64x192 : Shape := ⟨2, ![64, 192]⟩
abbrev S1x1000000 : Shape := ⟨2, ![1, 1000000]⟩
abbrev S1000000 : Shape := ⟨1, ![1000000]⟩
abbrev S_ : Shape := ⟨0, ![]⟩
abbrev S60000 : Shape := ⟨1, ![60000]⟩
abbrev S1000000x1 : Shape := ⟨2, ![1000000, 1]⟩
abbrev S60000x1 : Shape := ⟨2, ![60000, 1]⟩
abbrev S60000x64 : Shape := ⟨2, ![60000, 64]⟩
abbrev S40000x128 : Shape := ⟨2, ![40000, 128]⟩
abbrev S1000x2048 : Shape := ⟨2, ![1000, 2048]⟩
abbrev S1000x128 : Shape := ⟨2, ![1000, 128]⟩
abbrev S2048x128 : Shape := ⟨2, ![2048, 128]⟩
abbrev S1x128 : Shape := ⟨2, ![1, 128]⟩
abbrev S1000x768 : Shape := ⟨2, ![1000, 768]⟩
abbrev S768x128 : Shape := ⟨2, ![768, 128]⟩
abbrev S60000x128 : Shape := ⟨2, ![60000, 128]⟩
abbrev S6000x128 : Shape := ⟨2, ![6000, 128]⟩
abbrev S6000 : Shape := ⟨1, ![6000]⟩
abbrev S6000x1 : Shape := ⟨2, ![6000, 1]⟩
abbrev S1000000x128 : Shape := ⟨2, ![1000000, 128]⟩
abbrev S6000x64 : Shape := ⟨2, ![6000, 64]⟩
abbrev S128x64 : Shape := ⟨2, ![128, 64]⟩
abbrev S1x64 : Shape := ⟨2, ![1, 64]⟩
abbrev S1000000x64 : Shape := ⟨2, ![1000000, 64]⟩
abbrev S8192x1 : Shape := ⟨2, ![8192, 1]⟩
abbrev S8192x64 : Shape := ⟨2, ![8192, 64]⟩

abbrev nBuf : Space → Nat
  | .hbm => 160
  | .vmem => 84
  | .smem => 0
  | _ => 0

abbrev hbmTy0_0 (i : Nat) : BufTy := match i % 128 with
  | 0 => ⟨S2x1000000, .i32⟩
  | 1 => ⟨S8192, .i32⟩
  | 2 => ⟨S8192, .i32⟩
  | 3 => ⟨S20000x64, .f32⟩
  | 4 => ⟨S40000x64, .f32⟩
  | 5 => ⟨S20000x128, .f32⟩
  | 6 => ⟨S20000x128, .f32⟩
  | 7 => ⟨S40000x2048, .f32⟩
  | 8 => ⟨S40000x768, .f32⟩
  | 9 => ⟨S128x2048, .f32⟩
  | 10 => ⟨S128, .f32⟩
  | 11 => ⟨S128x768, .f32⟩
  | 12 => ⟨S128, .f32⟩
  | 13 => ⟨S128x128, .f32⟩
  | 14 => ⟨S64x64, .f32⟩
  | 15 => ⟨S128x128, .f32⟩
  | 16 => ⟨S64x64, .f32⟩
  | 17 => ⟨S64x128, .f32⟩
  | 18 => ⟨S64, .f32⟩
  | 19 => ⟨S64x64, .f32⟩
  | 20 => ⟨S64, .f32⟩
  | 21 => ⟨S64x128, .f32⟩
  | 22 => ⟨S64, .f32⟩
  | 23 => ⟨S64x64, .f32⟩
  | 24 => ⟨S64, .f32⟩
  | 25 => ⟨S64x192, .f32⟩
  | 26 => ⟨S64, .f32⟩
  | 27 => ⟨S64x128, .f32⟩
  | 28 => ⟨S64, .f32⟩
  | 29 => ⟨S64x192, .f32⟩
  | 30 => ⟨S64, .f32⟩
  | 31 => ⟨S64x128, .f32⟩
  | 32 => ⟨S64, .f32⟩
  | 33 => ⟨S1x1000000, .i32⟩
  | 34 => ⟨S1000000, .i32⟩
  | 35 => ⟨S1x1000000, .i32⟩
  | 36 => ⟨S1000000, .i32⟩
  | 37 => ⟨S_, .f32⟩
  | 38 => ⟨S1000000, .f32⟩
  | 39 => ⟨S_, .f32⟩
  | 40 => ⟨S60000, .f32⟩
  | 41 => ⟨S1000000x1, .i32⟩
  | 42 => ⟨S60000, .f32⟩
  | 43 => ⟨S_, .f32⟩
  | 44 => ⟨S60000, .f32⟩
  | 45 => ⟨S60000, .f32⟩
  | 46 => ⟨S_, .f32⟩
  | 47 => ⟨S60000, .f32⟩
  | 48 => ⟨S60000, .f32⟩
  | 49 => ⟨S60000x1, .f32⟩
  | 50 => ⟨S60000x64, .f32⟩
  | 51 => ⟨S40000x128, .f32⟩
  | 52 => ⟨S40000x128, .f32⟩
  | 53 => ⟨S60000x128, .f32⟩
  | 54 => ⟨S60000x128, .f32⟩
  | 55 => ⟨S60000x128, .f32⟩
  | 56 => ⟨S60000x128, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000x128, .f32⟩
  | 66 => ⟨S_, .f32⟩
  | 67 => ⟨S60000x128, .f32⟩
  | 68 => ⟨S1000000x1, .i32⟩
  | 69 => ⟨S60000x128, .f32⟩
  | 70 => ⟨S60000x128, .f32⟩
  | 71 => ⟨S60000x128, .f32⟩
  | 72 => ⟨S64x128, .f32⟩
  | 73 => ⟨S64x64, .f32⟩
  | 74 => ⟨S60000x64, .f32⟩
  | 75 => ⟨S60000x64, .f32⟩
  | 76 => ⟨S_, .i32⟩
  | 77 => ⟨S1000000, .i32⟩
  | 78 => ⟨S1000000, .i1⟩
  | 79 => ⟨S_, .i32⟩
  | 80 => ⟨S1000000, .i32⟩
  | 81 => ⟨S1000000, .i32⟩
  | 82 => ⟨S1000000, .i32⟩
  | 83 => ⟨S1000000x1, .i32⟩
  | 84 => ⟨S1000000x64, .f32⟩
  | 85 => ⟨S_, .f32⟩
  | 86 => ⟨S60000x64, .f32⟩
  | 87 => ⟨S1000000x1, .i32⟩
  | 88 => ⟨S60000x64, .f32⟩
  | 89 => ⟨S60000x64, .f32⟩
  | 90 => ⟨S60000x64, .f32⟩
  | 91 => ⟨S64x64, .f32⟩
  | 92 => ⟨S64x64, .f32⟩
  | 93 => ⟨S60000x64, .f32⟩
  | 94 => ⟨S60000x128, .f32⟩
  | 95 => ⟨S60000x128, .f32⟩
  | 96 => ⟨S_, .i32⟩
  | 97 => ⟨S1000000, .i32⟩
  | 98 => ⟨S1000000, .i1⟩
  | 99 => ⟨S_, .i32⟩
  | 100 => ⟨S1000000, .i32⟩
  | 101 => ⟨S1000000, .i32⟩
  | 102 => ⟨S1000000, .i32⟩
  | 103 => ⟨S1000000x1, .i32⟩
  | 104 => ⟨S1000000x128, .f32⟩
  | 105 => ⟨S_, .f32⟩
  | 106 => ⟨S60000x128, .f32⟩
  | 107 => ⟨S1000000x1, .i32⟩
  | 108 => ⟨S60000x128, .f32⟩
  | 109 => ⟨S60000x128, .f32⟩
  | 110 => ⟨S60000x128, .f32⟩
  | 111 => ⟨S64x128, .f32⟩
  | 112 => ⟨S64x64, .f32⟩
  | 113 => ⟨S60000x64, .f32⟩
  | 114 => ⟨S60000x64, .f32⟩
  | 115 => ⟨S_, .i32⟩
  | 116 => ⟨S1000000, .i32⟩
  | 117 => ⟨S1000000, .i1⟩
  | 118 => ⟨S_, .i32⟩
  | 119 => ⟨S1000000, .i32⟩
  | 120 => ⟨S1000000, .i32⟩
  | 121 => ⟨S1000000, .i32⟩
  | 122 => ⟨S1000000x1, .i32⟩
  | 123 => ⟨S1000000x64, .f32⟩
  | 124 => ⟨S_, .f32⟩
  | 125 => ⟨S60000x64, .f32⟩
  | 126 => ⟨S1000000x1, .i32⟩
  | 127 => ⟨S60000x64, .f32⟩
  | _ => ⟨S2x1000000, .i32⟩

abbrev hbmTy0_1 (i : Nat) : BufTy := match i % 128 with
  | 0 => ⟨S60000x64, .f32⟩
  | 1 => ⟨S60000x64, .f32⟩
  | 2 => ⟨S64x64, .f32⟩
  | 3 => ⟨S64x64, .f32⟩
  | 4 => ⟨S60000x64, .f32⟩
  | 5 => ⟨S60000x64, .f32⟩
  | 6 => ⟨S_, .f32⟩
  | 7 => ⟨S60000x64, .f32⟩
  | 8 => ⟨S60000x64, .f32⟩
  | 9 => ⟨S20000x64, .f32⟩
  | 10 => ⟨S40000x64, .f32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S8192x64, .f32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192x64, .f32⟩
  | 29 => ⟨S8192x64, .f32⟩
  | 30 => ⟨S_, .f32⟩
  | 31 => ⟨S8192, .f32⟩
  | _ => ⟨S2x1000000, .i32⟩

abbrev hbmTy (i : Nat) : BufTy := match i / 128 with
  | 0 => hbmTy0_0 i
  | 1 => hbmTy0_1 i
  | _ => ⟨S2x1000000, .i32⟩

abbrev bufTy : (tb : Table) → Fin (tcTables nBuf tb) → BufTy
  | .hbm, ⟨i, _⟩ => hbmTy i
  | .local _ .vmem, ⟨0, _⟩ => ⟨S1000x2048, .f32⟩
  | .local _ .vmem, ⟨1, _⟩ => ⟨S1000x2048, .f32⟩
  | .local _ .vmem, ⟨2, _⟩ => ⟨S128x2048, .f32⟩
  | .local _ .vmem, ⟨3, _⟩ => ⟨S128, .f32⟩
  | .local _ .vmem, ⟨4, _⟩ => ⟨S1000x128, .f32⟩
  | .local _ .vmem, ⟨5, _⟩ => ⟨S1000x128, .f32⟩
  | .local _ .vmem, ⟨6, _⟩ => ⟨S1000x768, .f32⟩
  | .local _ .vmem, ⟨7, _⟩ => ⟨S1000x768, .f32⟩
  | .local _ .vmem, ⟨8, _⟩ => ⟨S128x768, .f32⟩
  | .local _ .vmem, ⟨9, _⟩ => ⟨S128, .f32⟩
  | .local _ .vmem, ⟨10, _⟩ => ⟨S1000x128, .f32⟩
  | .local _ .vmem, ⟨11, _⟩ => ⟨S1000x128, .f32⟩
  | .local _ .vmem, ⟨12, _⟩ => ⟨S6000x128, .f32⟩
  | .local _ .vmem, ⟨13, _⟩ => ⟨S6000x128, .f32⟩
  | .local _ .vmem, ⟨14, _⟩ => ⟨S128x128, .f32⟩
  | .local _ .vmem, ⟨15, _⟩ => ⟨S6000x128, .f32⟩
  | .local _ .vmem, ⟨16, _⟩ => ⟨S6000x128, .f32⟩
  | .local _ .vmem, ⟨17, _⟩ => ⟨S6000x128, .f32⟩
  | .local _ .vmem, ⟨18, _⟩ => ⟨S6000x128, .f32⟩
  | .local _ .vmem, ⟨19, _⟩ => ⟨S6000x128, .f32⟩
  | .local _ .vmem, ⟨20, _⟩ => ⟨S6000x128, .f32⟩
  | .local _ .vmem, ⟨21, _⟩ => ⟨S6000x128, .f32⟩
  | .local _ .vmem, ⟨22, _⟩ => ⟨S6000x128, .f32⟩
  | .local _ .vmem, ⟨23, _⟩ => ⟨S6000x64, .f32⟩
  | .local _ .vmem, ⟨24, _⟩ => ⟨S6000x64, .f32⟩
  | .local _ .vmem, ⟨25, _⟩ => ⟨S64x128, .f32⟩
  | .local _ .vmem, ⟨26, _⟩ => ⟨S64, .f32⟩
  | .local _ .vmem, ⟨27, _⟩ => ⟨S64x128, .f32⟩
  | .local _ .vmem, ⟨28, _⟩ => ⟨S64x64, .f32⟩
  | .local _ .vmem, ⟨29, _⟩ => ⟨S64, .f32⟩
  | .local _ .vmem, ⟨30, _⟩ => ⟨S64x64, .f32⟩
  | .local _ .vmem, ⟨31, _⟩ => ⟨S6000x64, .f32⟩
  | .local _ .vmem, ⟨32, _⟩ => ⟨S6000x64, .f32⟩
  | .local _ .vmem, ⟨33, _⟩ => ⟨S6000x64, .f32⟩
  | .local _ .vmem, ⟨34, _⟩ => ⟨S6000x64, .f32⟩
  | .local _ .vmem, ⟨35, _⟩ => ⟨S6000x64, .f32⟩
  | .local _ .vmem, ⟨36, _⟩ => ⟨S6000x64, .f32⟩
  | .local _ .vmem, ⟨37, _⟩ => ⟨S6000x64, .f32⟩
  | .local _ .vmem, ⟨38, _⟩ => ⟨S6000x64, .f32⟩
  | .local _ .vmem, ⟨39, _⟩ => ⟨S6000x64, .f32⟩
  | .local _ .vmem, ⟨40, _⟩ => ⟨S6000x64, .f32⟩
  | .local _ .vmem, ⟨41, _⟩ => ⟨S64x64, .f32⟩
  | .local _ .vmem, ⟨42, _⟩ => ⟨S64, .f32⟩
  | .local _ .vmem, ⟨43, _⟩ => ⟨S64x64, .f32⟩
  | .local _ .vmem, ⟨44, _⟩ => ⟨S64x64, .f32⟩
  | .local _ .vmem, ⟨45, _⟩ => ⟨S64, .f32⟩
  | .local _ .vmem, ⟨46, _⟩ => ⟨S6000x64, .f32⟩
  | .local _ .vmem, ⟨47, _⟩ => ⟨S6000x64, .f32⟩
  | .local _ .vmem, ⟨48, _⟩ => ⟨S6000x128, .f32⟩
  | .local _ .vmem, ⟨49, _⟩ => ⟨S6000x128, .f32⟩
  | .local _ .vmem, ⟨50, _⟩ => ⟨S128x128, .f32⟩
  | .local _ .vmem, ⟨51, _⟩ => ⟨S6000x128, .f32⟩
  | .local _ .vmem, ⟨52, _⟩ => ⟨S6000x128, .f32⟩
  | .local _ .vmem, ⟨53, _⟩ => ⟨S6000x128, .f32⟩
  | .local _ .vmem, ⟨54, _⟩ => ⟨S6000x128, .f32⟩
  | .local _ .vmem, ⟨55, _⟩ => ⟨S6000x128, .f32⟩
  | .local _ .vmem, ⟨56, _⟩ => ⟨S6000x128, .f32⟩
  | .local _ .vmem, ⟨57, _⟩ => ⟨S6000x128, .f32⟩
  | .local _ .vmem, ⟨58, _⟩ => ⟨S6000x128, .f32⟩
  | .local _ .vmem, ⟨59, _⟩ => ⟨S6000x64, .f32⟩
  | .local _ .vmem, ⟨60, _⟩ => ⟨S6000x64, .f32⟩
  | .local _ .vmem, ⟨61, _⟩ => ⟨S64x128, .f32⟩
  | .local _ .vmem, ⟨62, _⟩ => ⟨S64, .f32⟩
  | .local _ .vmem, ⟨63, _⟩ => ⟨S64x128, .f32⟩
  | .local _ .vmem, ⟨64, _⟩ => ⟨S64x64, .f32⟩
  | .local _ .vmem, ⟨65, _⟩ => ⟨S64, .f32⟩
  | .local _ .vmem, ⟨66, _⟩ => ⟨S64x64, .f32⟩
  | .local _ .vmem, ⟨67, _⟩ => ⟨S6000x64, .f32⟩
  | .local _ .vmem, ⟨68, _⟩ => ⟨S6000x64, .f32⟩
  | .local _ .vmem, ⟨69, _⟩ => ⟨S6000x64, .f32⟩
  | .local _ .vmem, ⟨70, _⟩ => ⟨S6000x64, .f32⟩
  | .local _ .vmem, ⟨71, _⟩ => ⟨S6000x64, .f32⟩
  | .local _ .vmem, ⟨72, _⟩ => ⟨S6000x64, .f32⟩
  | .local _ .vmem, ⟨73, _⟩ => ⟨S6000x64, .f32⟩
  | .local _ .vmem, ⟨74, _⟩ => ⟨S6000x64, .f32⟩
  | .local _ .vmem, ⟨75, _⟩ => ⟨S6000x64, .f32⟩
  | .local _ .vmem, ⟨76, _⟩ => ⟨S6000x64, .f32⟩
  | .local _ .vmem, ⟨77, _⟩ => ⟨S64x64, .f32⟩
  | .local _ .vmem, ⟨78, _⟩ => ⟨S64, .f32⟩
  | .local _ .vmem, ⟨79, _⟩ => ⟨S64x64, .f32⟩
  | .local _ .vmem, ⟨80, _⟩ => ⟨S64x64, .f32⟩
  | .local _ .vmem, ⟨81, _⟩ => ⟨S64, .f32⟩
  | .local _ .vmem, ⟨82, _⟩ => ⟨S6000x64, .f32⟩
  | .local _ .vmem, ⟨83, _⟩ => ⟨S6000x64, .f32⟩
  | _, _ => ⟨S2x1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_cst : Ref sig .tc := ⟨.hbm, 37, rfl⟩
abbrev main_v4 : Ref sig .tc := ⟨.hbm, 38, rfl⟩
abbrev main_cst_0 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_1 : Ref sig .tc := ⟨.hbm, 43, rfl⟩
abbrev main_v8 : Ref sig .tc := ⟨.hbm, 44, rfl⟩
abbrev main_v9 : Ref sig .tc := ⟨.hbm, 45, rfl⟩
abbrev main_cst_2 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18_0 : Ref sig .tc := ⟨.hbm, 55, rfl⟩
abbrev main_v18_1 : Ref sig .tc := ⟨.hbm, 56, rfl⟩
abbrev main_c : Ref sig .tc := ⟨.hbm, 57, rfl⟩
abbrev main_v19 : Ref sig .tc := ⟨.hbm, 58, rfl⟩
abbrev main_v20 : Ref sig .tc := ⟨.hbm, 59, rfl⟩
abbrev main_c_3 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_4 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33_0 : Ref sig .tc := ⟨.hbm, 74, rfl⟩
abbrev main_v33_1 : Ref sig .tc := ⟨.hbm, 75, rfl⟩
abbrev main_c_5 : Ref sig .tc := ⟨.hbm, 76, rfl⟩
abbrev main_v34 : Ref sig .tc := ⟨.hbm, 77, rfl⟩
abbrev main_v35 : Ref sig .tc := ⟨.hbm, 78, rfl⟩
abbrev main_c_6 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_7 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49_0 : Ref sig .tc := ⟨.hbm, 94, rfl⟩
abbrev main_v49_1 : Ref sig .tc := ⟨.hbm, 95, rfl⟩
abbrev main_c_8 : Ref sig .tc := ⟨.hbm, 96, rfl⟩
abbrev main_v50 : Ref sig .tc := ⟨.hbm, 97, rfl⟩
abbrev main_v51 : Ref sig .tc := ⟨.hbm, 98, rfl⟩
abbrev main_c_9 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_10 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64_0 : Ref sig .tc := ⟨.hbm, 113, rfl⟩
abbrev main_v64_1 : Ref sig .tc := ⟨.hbm, 114, rfl⟩
abbrev main_c_11 : Ref sig .tc := ⟨.hbm, 115, rfl⟩
abbrev main_v65 : Ref sig .tc := ⟨.hbm, 116, rfl⟩
abbrev main_v66 : Ref sig .tc := ⟨.hbm, 117, rfl⟩
abbrev main_c_12 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_13 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_14 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_c_15 : Ref sig .tc := ⟨.hbm, 139, rfl⟩
abbrev main_v85 : Ref sig .tc := ⟨.hbm, 140, rfl⟩
abbrev main_v86 : Ref sig .tc := ⟨.hbm, 141, rfl⟩
abbrev main_c_16 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_c_17 : Ref sig .tc := ⟨.hbm, 148, rfl⟩
abbrev main_v92 : Ref sig .tc := ⟨.hbm, 149, rfl⟩
abbrev main_v93 : Ref sig .tc := ⟨.hbm, 150, rfl⟩
abbrev main_c_18 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_cst_19 : Ref sig .tc := ⟨.hbm, 158, rfl⟩
abbrev main_v100 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg8_0 : Ref sig .tc := ⟨.vmem, 30, rfl⟩
abbrev cc3_stg9_0 : Ref sig .tc := ⟨.vmem, 31, rfl⟩
abbrev cc3_stg9_1 : Ref sig .tc := ⟨.vmem, 32, rfl⟩
abbrev cc3_stg10_0 : Ref sig .tc := ⟨.vmem, 33, rfl⟩
abbrev cc3_stg10_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg7_0 : Ref sig .tc := ⟨.vmem, 45, rfl⟩
abbrev cc4_stg8_0 : Ref sig .tc := ⟨.vmem, 46, rfl⟩
abbrev cc4_stg8_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg2_1 : Ref sig .tc := ⟨.vmem, 52, rfl⟩
abbrev cc5_stg3_0 : Ref sig .tc := ⟨.vmem, 53, rfl⟩
abbrev cc5_stg3_1 : Ref sig .tc := ⟨.vmem, 54, rfl⟩
abbrev cc6_stg0_0 : Ref sig .tc := ⟨.vmem, 55, rfl⟩
abbrev cc6_stg0_1 : Ref sig .tc := ⟨.vmem, 56, rfl⟩
abbrev cc6_stg1_0 : Ref sig .tc := ⟨.vmem, 57, rfl⟩
abbrev cc6_stg1_1 : Ref sig .tc := ⟨.vmem, 58, rfl⟩
abbrev cc6_stg2_0 : Ref sig .tc := ⟨.vmem, 59, rfl⟩
abbrev cc6_stg2_1 : Ref sig .tc := ⟨.vmem, 60, rfl⟩
abbrev cc6_stg3_0 : Ref sig .tc := ⟨.vmem, 61, rfl⟩
abbrev cc6_stg4_0 : Ref sig .tc := ⟨.vmem, 62, rfl⟩
abbrev cc6_stg5_0 : Ref sig .tc := ⟨.vmem, 63, rfl⟩
abbrev cc6_stg6_0 : Ref sig .tc := ⟨.vmem, 64, rfl⟩
abbrev cc6_stg7_0 : Ref sig .tc := ⟨.vmem, 65, rfl⟩
abbrev cc6_stg8_0 : Ref sig .tc := ⟨.vmem, 66, rfl⟩
abbrev cc6_stg9_0 : Ref sig .tc := ⟨.vmem, 67, rfl⟩
abbrev cc6_stg9_1 : Ref sig .tc := ⟨.vmem, 68, rfl⟩
abbrev cc6_stg10_0 : Ref sig .tc := ⟨.vmem, 69, rfl⟩
abbrev cc6_stg10_1 : Ref sig .tc := ⟨.vmem, 70, rfl⟩
abbrev cc7_stg0_0 : Ref sig .tc := ⟨.vmem, 71, rfl⟩
abbrev cc7_stg0_1 : Ref sig .tc := ⟨.vmem, 72, rfl⟩
abbrev cc7_stg1_0 : Ref sig .tc := ⟨.vmem, 73, rfl⟩
abbrev cc7_stg1_1 : Ref sig .tc := ⟨.vmem, 74, rfl⟩
abbrev cc7_stg2_0 : Ref sig .tc := ⟨.vmem, 75, rfl⟩
abbrev cc7_stg2_1 : Ref sig .tc := ⟨.vmem, 76, rfl⟩
abbrev cc7_stg3_0 : Ref sig .tc := ⟨.vmem, 77, rfl⟩
abbrev cc7_stg4_0 : Ref sig .tc := ⟨.vmem, 78, rfl⟩
abbrev cc7_stg5_0 : Ref sig .tc := ⟨.vmem, 79, rfl⟩
abbrev cc7_stg6_0 : Ref sig .tc := ⟨.vmem, 80, rfl⟩
abbrev cc7_stg7_0 : Ref sig .tc := ⟨.vmem, 81, rfl⟩
abbrev cc7_stg8_0 : Ref sig .tc := ⟨.vmem, 82, rfl⟩
abbrev cc7_stg8_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem8_0 : DmaSem sig := 30
abbrev cc3_sem9_0 : DmaSem sig := 31
abbrev cc3_sem9_1 : DmaSem sig := 32
abbrev cc3_sem10_0 : DmaSem sig := 33
abbrev cc3_sem10_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem8_0 : DmaSem sig := 46
abbrev cc4_sem8_1 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem2_1 : DmaSem sig := 52
abbrev cc5_sem3_0 : DmaSem sig := 53
abbrev cc5_sem3_1 : DmaSem sig := 54
abbrev cc6_sem0_0 : DmaSem sig := 55
abbrev cc6_sem0_1 : DmaSem sig := 56
abbrev cc6_sem1_0 : DmaSem sig := 57
abbrev cc6_sem1_1 : DmaSem sig := 58
abbrev cc6_sem2_0 : DmaSem sig := 59
abbrev cc6_sem2_1 : DmaSem sig := 60
abbrev cc6_sem3_0 : DmaSem sig := 61
abbrev cc6_sem4_0 : DmaSem sig := 62
abbrev cc6_sem5_0 : DmaSem sig := 63
abbrev cc6_sem6_0 : DmaSem sig := 64
abbrev cc6_sem7_0 : DmaSem sig := 65
abbrev cc6_sem8_0 : DmaSem sig := 66
abbrev cc6_sem9_0 : DmaSem sig := 67
abbrev cc6_sem9_1 : DmaSem sig := 68
abbrev cc6_sem10_0 : DmaSem sig := 69
abbrev cc6_sem10_1 : DmaSem sig := 70
abbrev cc7_sem0_0 : DmaSem sig := 71
abbrev cc7_sem0_1 : DmaSem sig := 72
abbrev cc7_sem1_0 : DmaSem sig := 73
abbrev cc7_sem1_1 : DmaSem sig := 74
abbrev cc7_sem2_0 : DmaSem sig := 75
abbrev cc7_sem2_1 : DmaSem sig := 76
abbrev cc7_sem3_0 : DmaSem sig := 77
abbrev cc7_sem4_0 : DmaSem sig := 78
abbrev cc7_sem5_0 : DmaSem sig := 79
abbrev cc7_sem6_0 : DmaSem sig := 80
abbrev cc7_sem7_0 : DmaSem sig := 81
abbrev cc7_sem8_0 : DmaSem sig := 82
abbrev cc7_sem8_1 : DmaSem sig := 83

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S6000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S6000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S6000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S6000x64 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S6000x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S6000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S6000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S6000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S6000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S6000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S64x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S64x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S64x64 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S6000x64 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 2 → Memref sig .tc .vmem S6000x64 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S6000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S6000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S6000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S64x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 2 → Memref sig .tc .vmem S6000x64 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S60000 : S_.BroadcastsInDim S60000 (![] : Fin 0 → Fin S60000.rank)
  bcast_S1000000_S1000000x1_0 : S1000000.BroadcastsInDim S1000000x1 (![0] : Fin 1 → Fin S1000000x1.rank)
  bcast_S60000_S60000x1_0 : S60000.BroadcastsInDim S60000x1 (![0] : Fin 1 → Fin S60000x1.rank)
  concatenates_S20000x64_S40000x64_S60000x64_d0 : Shape.Concatenates [S20000x64, S40000x64] S60000x64 0
  inb_S1000x2048_S1000x2048_0_0 : ∀ a, (![0, 0] : Fin 2 → Nat) a + S1000x2048.size a ≤ S1000x2048.size a
  h_S1000x2048 : 0 < S1000x2048.numel
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  transposes_S128x2048_p1_0_S2048x128 : S128x2048.Transposes [1, 0] S2048x128
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  inb_S1000x768_S1000x768_0_0 : ∀ a, (![0, 0] : Fin 2 → Nat) a + S1000x768.size a ≤ S1000x768.size a
  h_S1000x768 : 0 < S1000x768.numel
  inb_S128x768_S128x768_0_0 : ∀ a, (![0, 0] : Fin 2 → Nat) a + S128x768.size a ≤ S128x768.size a
  h_S128x768 : 0 < S128x768.numel
  transposes_S128x768_p1_0_S768x128 : S128x768.Transposes [1, 0] S768x128
  concatenates_S20000x128_S40000x128_S60000x128_d0 : Shape.Concatenates [S20000x128, S40000x128] S60000x128 0
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  reduces_S6000x128_S6000 : S6000x128.Reduces [1] S6000
  shapeCasts_S6000_S6000x1 : S6000.ShapeCasts S6000x1
  broadcasts_S6000x1_S6000x128 : S6000x1.Broadcasts S6000x128
  inb_S128x128_S128x128_0_0 : ∀ a, (![0, 0] : Fin 2 → Nat) a + S128x128.size a ≤ S128x128.size a
  h_S128x128 : 0 < S128x128.numel
  bcast_S_S60000x128 : S_.BroadcastsInDim S60000x128 (![] : Fin 0 → Fin S60000x128.rank)
  bcast_S60000x1_S60000x128_0_1 : S60000x1.BroadcastsInDim S60000x128 (![0, 1] : Fin 2 → Fin S60000x128.rank)
  slices_S64x192_S64x128_0_0 : S64x192.Slices ![0, 0] S64x128
  slices_S64x192_S64x64_0_128 : S64x192.Slices ![0, 128] S64x64
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S6000x64 : S1x64.Broadcasts S6000x64
  shapeCasts_S64x128_S64x128 : S64x128.ShapeCasts S64x128
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x64_p1_0_S64x64 : S64x64.Transposes [1, 0] S64x64
  bcast_S_S60000x64 : S_.BroadcastsInDim S60000x64 (![] : Fin 0 → Fin S60000x64.rank)
  bcast_S60000x1_S60000x64_0_1 : S60000x1.BroadcastsInDim S60000x64 (![0, 1] : Fin 2 → Fin S60000x64.rank)
  slices_S64x128_S64x64_0_0 : S64x128.Slices ![0, 0] S64x64
  slices_S64x128_S64x64_0_64 : S64x128.Slices ![0, 64] S64x64
  slices_S60000x64_S20000x64_0_0 : S60000x64.Slices ![0, 0] S20000x64
  slices_S60000x64_S40000x64_20000_0 : S60000x64.Slices ![20000, 0] S40000x64
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  h_S_ : 0 < S_.numel
  scatter_S60000_S1000000x1_S1000000_n_0_0_1_wf : ScatterDims.WF S60000 S1000000x1 S1000000 [] [0] [0] 1
  dot_S1000x2048_S2048x128_S1000x128_1_0_0_1_n_n_wf : DotDims.WF S1000x2048 S2048x128 S1000x128 [1] [0] [0] [1] [] []
  dot_S1000x768_S768x128_S1000x128_1_0_0_1_n_n_wf : DotDims.WF S1000x768 S768x128 S1000x128 [1] [0] [0] [1] [] []
  dot_S6000x128_S128x128_S6000x128_1_0_0_1_n_n_wf : DotDims.WF S6000x128 S128x128 S6000x128 [1] [0] [0] [1] [] []
  gather_S60000x128_S1000000x1_S1000000x128_1_0_n_n_0_1_1128_wf : GatherDims.WF S60000x128 S1000000x1 S1000000x128 [1] [0] [] [0] [] 1 ![1, 128]
  scatter_S60000x128_S1000000x1_S1000000x128_1_0_0_1_wf : ScatterDims.WF S60000x128 S1000000x1 S1000000x128 [1] [0] [0] 1
  dot_S6000x128_S128x64_S6000x64_1_0_0_1_n_n_wf : DotDims.WF S6000x128 S128x64 S6000x64 [1] [0] [0] [1] [] []
  dot_S6000x64_S64x64_S6000x64_1_0_0_1_n_n_wf : DotDims.WF S6000x64 S64x64 S6000x64 [1] [0] [0] [1] [] []
  gather_S60000x64_S1000000x1_S1000000x64_1_0_n_n_0_1_164_wf : GatherDims.WF S60000x64 S1000000x1 S1000000x64 [1] [0] [] [0] [] 1 ![1, 64]
  scatter_S60000x64_S1000000x1_S1000000x64_1_0_0_1_wf : ScatterDims.WF S60000x64 S1000000x1 S1000000x64 [1] [0] [0] 1
  gather_S20000x64_S8192x1_S8192x64_1_0_n_n_0_1_164_wf : GatherDims.WF S20000x64 S8192x1 S8192x64 [1] [0] [] [0] [] 1 ![1, 64]
  gather_S40000x64_S8192x1_S8192x64_1_0_n_n_0_1_164_wf : GatherDims.WF S40000x64 S8192x1 S8192x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S40000x2048.size a
  hwx0_0 : ∀ i : grid0.Coords, EltTy.bits .f32 = 32 ∨ (Rect.block (s := S40000x2048) S1000x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x2048.size a
  hwx0_1 : ∀ i : grid0.Coords, EltTy.bits .f32 = 32 ∨ (Rect.block (s := S128x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S40000x128.size a
  hwx0_3 : ∀ i : grid0.Coords, EltTy.bits .f32 = 32 ∨ (Rect.block (s := S40000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x768.size a ≤ S40000x768.size a
  hwx1_0 : ∀ i : grid1.Coords, EltTy.bits .f32 = 32 ∨ (Rect.block (s := S40000x768) S1000x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x768.size a ≤ S128x768.size a
  hwx1_1 : ∀ i : grid1.Coords, EltTy.bits .f32 = 32 ∨ (Rect.block (s := S128x768) S128x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S40000x128.size a
  hwx1_3 : ∀ i : grid1.Coords, EltTy.bits .f32 = 32 ∨ (Rect.block (s := S40000x128) S1000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x128.size a ≤ S60000x128.size a
  hwx2_0 : ∀ i : grid2.Coords, EltTy.bits .f32 = 32 ∨ (Rect.block (s := S60000x128) S6000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x128.size a ≤ S60000x128.size a
  hwx2_2 : ∀ i : grid2.Coords, EltTy.bits .f32 = 32 ∨ (Rect.block (s := S60000x128) S6000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S6000x128.size a ≤ S60000x128.size a
  hwx2_3 : ∀ i : grid2.Coords, EltTy.bits .f32 = 32 ∨ (Rect.block (s := S60000x128) S6000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x128.size a ≤ S60000x128.size a
  hwx3_0 : ∀ i : grid3.Coords, EltTy.bits .f32 = 32 ∨ (Rect.block (s := S60000x128) S6000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6000x128.size a ≤ S60000x128.size a
  hwx3_1 : ∀ i : grid3.Coords, EltTy.bits .f32 = 32 ∨ (Rect.block (s := S60000x128) S6000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6000x64.size a ≤ S60000x64.size a
  hwx3_2 : ∀ i : grid3.Coords, EltTy.bits .f32 = 32 ∨ (Rect.block (s := S60000x64) S6000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x128.size a ≤ S64x128.size a
  hwx3_5 : ∀ i : grid3.Coords, EltTy.bits .f32 = 32 ∨ (Rect.block (s := S64x128) S64x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x64.size a ≤ S64x64.size a
  hwx3_6 : ∀ i : grid3.Coords, EltTy.bits .f32 = 32 ∨ (Rect.block (s := S64x64) S64x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64.size a ≤ S64.size a
  hwx3_7 : ∀ i : grid3.Coords, EltTy.bits .f32 = 32 ∨ (Rect.block (s := S64) S64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x64.size a ≤ S64x64.size a
  hwx3_8 : ∀ i : grid3.Coords, EltTy.bits .f32 = 32 ∨ (Rect.block (s := S64x64) S64x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S6000x64.size a ≤ S60000x64.size a
  hwx3_9 : ∀ i : grid3.Coords, EltTy.bits .f32 = 32 ∨ (Rect.block (s := S60000x64) S6000x64.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S6000x64.size a ≤ S60000x64.size a
  hwx3_10 : ∀ i : grid3.Coords, EltTy.bits .f32 = 32 ∨ (Rect.block (s := S60000x64) S6000x64.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x64.size a ≤ S60000x64.size a
  hwx4_0 : ∀ i : grid4.Coords, EltTy.bits .f32 = 32 ∨ (Rect.block (s := S60000x64) S6000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6000x64.size a ≤ S60000x64.size a
  hwx4_1 : ∀ i : grid4.Coords, EltTy.bits .f32 = 32 ∨ (Rect.block (s := S60000x64) S6000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6000x64.size a ≤ S60000x64.size a
  hwx4_2 : ∀ i : grid4.Coords, EltTy.bits .f32 = 32 ∨ (Rect.block (s := S60000x64) S6000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x64.size a ≤ S64x64.size a
  hwx4_6 : ∀ i : grid4.Coords, EltTy.bits .f32 = 32 ∨ (Rect.block (s := S64x64) S64x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64.size a ≤ S64.size a
  hwx4_7 : ∀ i : grid4.Coords, EltTy.bits .f32 = 32 ∨ (Rect.block (s := S64) S64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S6000x64.size a ≤ S60000x64.size a
  hwx4_8 : ∀ i : grid4.Coords, EltTy.bits .f32 = 32 ∨ (Rect.block (s := S60000x64) S6000x64.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6000x128.size a ≤ S60000x128.size a
  hwx5_0 : ∀ i : grid5.Coords, EltTy.bits .f32 = 32 ∨ (Rect.block (s := S60000x128) S6000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S6000x128.size a ≤ S60000x128.size a
  hwx5_2 : ∀ i : grid5.Coords, EltTy.bits .f32 = 32 ∨ (Rect.block (s := S60000x128) S6000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S6000x128.size a ≤ S60000x128.size a
  hwx5_3 : ∀ i : grid5.Coords, EltTy.bits .f32 = 32 ∨ (Rect.block (s := S60000x128) S6000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6000x128.size a ≤ S60000x128.size a
  hwx6_0 : ∀ i : grid6.Coords, EltTy.bits .f32 = 32 ∨ (Rect.block (s := S60000x128) S6000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S6000x128.size a ≤ S60000x128.size a
  hwx6_1 : ∀ i : grid6.Coords, EltTy.bits .f32 = 32 ∨ (Rect.block (s := S60000x128) S6000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S6000x64.size a ≤ S60000x64.size a
  hwx6_2 : ∀ i : grid6.Coords, EltTy.bits .f32 = 32 ∨ (Rect.block (s := S60000x64) S6000x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x128.size a ≤ S64x128.size a
  hwx6_3 : ∀ i : grid6.Coords, EltTy.bits .f32 = 32 ∨ (Rect.block (s := S64x128) S64x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64.size a ≤ S64.size a
  hwx6_4 : ∀ i : grid6.Coords, EltTy.bits .f32 = 32 ∨ (Rect.block (s := S64) S64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x128.size a ≤ S64x128.size a
  hwx6_5 : ∀ i : grid6.Coords, EltTy.bits .f32 = 32 ∨ (Rect.block (s := S64x128) S64x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64x64.size a ≤ S64x64.size a
  hwx6_6 : ∀ i : grid6.Coords, EltTy.bits .f32 = 32 ∨ (Rect.block (s := S64x64) S64x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64.size a ≤ S64.size a
  hwx6_7 : ∀ i : grid6.Coords, EltTy.bits .f32 = 32 ∨ (Rect.block (s := S64) S64.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S64x64.size a ≤ S64x64.size a
  hwx6_8 : ∀ i : grid6.Coords, EltTy.bits .f32 = 32 ∨ (Rect.block (s := S64x64) S64x64.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S6000x64.size a ≤ S60000x64.size a
  hwx6_9 : ∀ i : grid6.Coords, EltTy.bits .f32 = 32 ∨ (Rect.block (s := S60000x64) S6000x64.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S6000x64.size a ≤ S60000x64.size a
  hwx6_10 : ∀ i : grid6.Coords, EltTy.bits .f32 = 32 ∨ (Rect.block (s := S60000x64) S6000x64.size (cc6_transform_10 i) (hinb6_10 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S6000x64.size a ≤ S60000x64.size a
  hwx7_0 : ∀ i : grid7.Coords, EltTy.bits .f32 = 32 ∨ (Rect.block (s := S60000x64) S6000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S6000x64.size a ≤ S60000x64.size a
  hwx7_1 : ∀ i : grid7.Coords, EltTy.bits .f32 = 32 ∨ (Rect.block (s := S60000x64) S6000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S6000x64.size a ≤ S60000x64.size a
  hwx7_2 : ∀ i : grid7.Coords, EltTy.bits .f32 = 32 ∨ (Rect.block (s := S60000x64) S6000x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64.size a ≤ S64.size a
  hwx7_4 : ∀ i : grid7.Coords, EltTy.bits .f32 = 32 ∨ (Rect.block (s := S64) S64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x64.size a ≤ S64x64.size a
  hwx7_5 : ∀ i : grid7.Coords, EltTy.bits .f32 = 32 ∨ (Rect.block (s := S64x64) S64x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S64x64.size a ≤ S64x64.size a
  hwx7_6 : ∀ i : grid7.Coords, EltTy.bits .f32 = 32 ∨ (Rect.block (s := S64x64) S64x64.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S64.size a ≤ S64.size a
  hwx7_7 : ∀ i : grid7.Coords, EltTy.bits .f32 = 32 ∨ (Rect.block (s := S64) S64.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S6000x64.size a ≤ S60000x64.size a
  hwx7_8 : ∀ i : grid7.Coords, EltTy.bits .f32 = 32 ∨ (Rect.block (s := S60000x64) S6000x64.size (cc7_transform_8 i) (hinb7_8 i)).WholeWords (EltTy.packing .f32)

variable [Facts₀]

def scatter_S60000_S1000000x1_S1000000_n_0_0_1 : ScatterDims S60000 S1000000x1 S1000000 where
  updateWindowDims := []
  insertedWindowDims := [0]
  scatterDimsToOperandDims := [0]
  indexVectorDim := 1
  wf := scatter_S60000_S1000000x1_S1000000_n_0_0_1_wf
def dot_S1000x2048_S2048x128_S1000x128_1_0_0_1_n_n : DotDims S1000x2048 S2048x128 S1000x128 where
  lhsContracting := [1]
  rhsContracting := [0]
  lhsNonContracting := [0]
  rhsNonContracting := [1]
  lhsBatch := []
  rhsBatch := []
  wf := dot_S1000x2048_S2048x128_S1000x128_1_0_0_1_n_n_wf
def dot_S1000x768_S768x128_S1000x128_1_0_0_1_n_n : DotDims S1000x768 S768x128 S1000x128 where
  lhsContracting := [1]
  rhsContracting := [0]
  lhsNonContracting := [0]
  rhsNonContracting := [1]
  lhsBatch := []
  rhsBatch := []
  wf := dot_S1000x768_S768x128_S1000x128_1_0_0_1_n_n_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def gather_S60000x128_S1000000x1_S1000000x128_1_0_n_n_0_1_1128 : GatherDims S60000x128 S1000000x1 S1000000x128 where
  offsetDims := [1]
  collapsedSliceDims := [0]
  operandBatchingDims := []
  startIndicesBatchingDims := []
  startIndexMap := [0]
  indexVectorDim := 1
  sliceSizes := ![1, 128]
  wf := gather_S60000x128_S1000000x1_S1000000x128_1_0_n_n_0_1_1128_wf
def scatter_S60000x128_S1000000x1_S1000000x128_1_0_0_1 : ScatterDims S60000x128 S1000000x1 S1000000x128 where
  updateWindowDims := [1]
  insertedWindowDims := [0]
  scatterDimsToOperandDims := [0]
  indexVectorDim := 1
  wf := scatter_S60000x128_S1000000x1_S1000000x128_1_0_0_1_wf
def dot_S6000x128_S128x64_S6000x64_1_0_0_1_n_n : DotDims S6000x128 S128x64 S6000x64 where
  lhsContracting := [1]
  rhsContracting := [0]
  lhsNonContracting := [0]
  rhsNonContracting := [1]
  lhsBatch := []
  rhsBatch := []
  wf := dot_S6000x128_S128x64_S6000x64_1_0_0_1_n_n_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def gather_S60000x64_S1000000x1_S1000000x64_1_0_n_n_0_1_164 : GatherDims S60000x64 S1000000x1 S1000000x64 where
  offsetDims := [1]
  collapsedSliceDims := [0]
  operandBatchingDims := []
  startIndicesBatchingDims := []
  startIndexMap := [0]
  indexVectorDim := 1
  sliceSizes := ![1, 64]
  wf := gather_S60000x64_S1000000x1_S1000000x64_1_0_n_n_0_1_164_wf
def scatter_S60000x64_S1000000x1_S1000000x64_1_0_0_1 : ScatterDims S60000x64 S1000000x1 S1000000x64 where
  updateWindowDims := [1]
  insertedWindowDims := [0]
  scatterDimsToOperandDims := [0]
  indexVectorDim := 1
  wf := scatter_S60000x64_S1000000x1_S1000000x64_1_0_0_1_wf
def gather_S20000x64_S8192x1_S8192x64_1_0_n_n_0_1_164 : GatherDims S20000x64 S8192x1 S8192x64 where
  offsetDims := [1]
  collapsedSliceDims := [0]
  operandBatchingDims := []
  startIndicesBatchingDims := []
  startIndexMap := [0]
  indexVectorDim := 1
  sliceSizes := ![1, 64]
  wf := gather_S20000x64_S8192x1_S8192x64_1_0_n_n_0_1_164_wf
def gather_S40000x64_S8192x1_S8192x64_1_0_n_n_0_1_164 : GatherDims S40000x64 S8192x1 S8192x64 where
  offsetDims := [1]
  collapsedSliceDims := [0]
  operandBatchingDims := []
  startIndicesBatchingDims := []
  startIndexMap := [0]
  indexVectorDim := 1
  sliceSizes := ![1, 64]
  wf := gather_S40000x64_S8192x1_S8192x64_1_0_n_n_0_1_164_wf

abbrev win0_0 : Pipeline.Window sig grid0 :=
  Pipeline.Window.ofSpec (Memref.whole main_arg7) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S128x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg8) S1000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S128x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S6000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18_0) S6000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18_1) S6000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v18_0) S6000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S6000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S6000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg17) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg18) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v31) S64x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v32) S64x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg26) S64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg14) S64x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v33_0) S6000x64.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v33_1) S6000x64.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v33_0) S6000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S6000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S6000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg19) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg20) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v46) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v47) S64x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg28) S64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v48) S6000x64.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v17) S6000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg15) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v49_0) S6000x128.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v49_1) S6000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v49_0) S6000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v61) S6000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v13) S6000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg21) S64x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg22) S64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v62) S64x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v63) S64x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg30) S64.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_arg16) S64x64.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v64_0) S6000x64.size cc6_transform_9 reads6_9 true false 2 stage6_9 sem6_9
    hrank6 hreads6_9 hinb6_9 nbuf6_9 (Memref.isWhole_whole _) hwx6_9 hstage6_9

abbrev win6_10 : Pipeline.Window sig grid6 :=
  Pipeline.Window.ofSpec (Memref.whole main_v64_1) S6000x64.size cc6_transform_10 reads6_10 true false 2 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

abbrev win7_0 : Pipeline.Window sig grid7 :=
  Pipeline.Window.ofSpec (Memref.whole main_v64_0) S6000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v76) S6000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v13) S6000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_arg23) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg24) S64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v77) S64x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v78) S64x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_arg32) S64.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v79) S6000x64.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

class Facts : Prop extends Facts₀ where

variable [Facts]
-- ==== ReferenceIdeal.lean ====
abbrev S2x1000000 : Shape := ⟨2, ![2, 1000000]⟩
abbrev S8192 : Shape := ⟨1, ![8192]⟩
abbrev S20000x64 : Shape := ⟨2, ![20000, 64]⟩
abbrev S40000x64 : Shape := ⟨2, ![40000, 64]⟩
abbrev S20000x128 : Shape := ⟨2, ![20000, 128]⟩
abbrev S40000x2048 : Shape := ⟨2, ![40000, 2048]⟩
abbrev S40000x768 : Shape := ⟨2, ![40000, 768]⟩
abbrev S128x2048 : Shape := ⟨2, ![128, 2048]⟩
abbrev S128 : Shape := ⟨1, ![128]⟩
abbrev S128x768 : Shape := ⟨2, ![128, 768]⟩
abbrev S128x128 : Shape := ⟨2, ![128, 128]⟩
abbrev S64x64 : Shape := ⟨2, ![64, 64]⟩
abbrev S64x128 : Shape := ⟨2, ![64, 128]⟩
abbrev S64 : Shape := ⟨1, ![64]⟩
abbrev S64x192 : Shape := ⟨2, ![64, 192]⟩
abbrev S1x1000000 : Shape := ⟨2, ![1, 1000000]⟩
abbrev S1000000 : Shape := ⟨1, ![1000000]⟩
abbrev S_ : Shape := ⟨0, ![]⟩
abbrev S60000 : Shape := ⟨1, ![60000]⟩
abbrev S1000000x1 : Shape := ⟨2, ![1000000, 1]⟩
abbrev S60000x1 : Shape := ⟨2, ![60000, 1]⟩
abbrev S60000x64 : Shape := ⟨2, ![60000, 64]⟩
abbrev S2048x128 : Shape := ⟨2, ![2048, 128]⟩
abbrev S40000x128 : Shape := ⟨2, ![40000, 128]⟩
abbrev S1x128 : Shape := ⟨2, ![1, 128]⟩
abbrev S60000x128 : Shape := ⟨2, ![60000, 128]⟩
abbrev S768x128 : Shape := ⟨2, ![768, 128]⟩
abbrev S1000000x128 : Shape := ⟨2, ![1000000, 128]⟩
abbrev S128x64 : Shape := ⟨2, ![128, 64]⟩
abbrev S1x64 : Shape := ⟨2, ![1, 64]⟩
abbrev S60000x192 : Shape := ⟨2, ![60000, 192]⟩
abbrev S192x64 : Shape := ⟨2, ![192, 64]⟩
abbrev S1000000x64 : Shape := ⟨2, ![1000000, 64]⟩
abbrev S8192x1 : Shape := ⟨2, ![8192, 1]⟩
abbrev S8192x64 : Shape := ⟨2, ![8192, 64]⟩

abbrev nBuf : Space → Nat
  | .hbm => 222
  | .vmem => 0
  | .smem => 0
  | _ => 0

abbrev hbmTy0_0 (i : Nat) : BufTy := match i % 128 with
  | 0 => ⟨S2x1000000, .i32⟩
  | 1 => ⟨S8192, .i32⟩
  | 2 => ⟨S8192, .i32⟩
  | 3 => ⟨S20000x64, .f32⟩
  | 4 => ⟨S40000x64, .f32⟩
  | 5 => ⟨S20000x128, .f32⟩
  | 6 => ⟨S20000x128, .f32⟩
  | 7 => ⟨S40000x2048, .f32⟩
  | 8 => ⟨S40000x768, .f32⟩
  | 9 => ⟨S128x2048, .f32⟩
  | 10 => ⟨S128, .f32⟩
  | 11 => ⟨S128x768, .f32⟩
  | 12 => ⟨S128, .f32⟩
  | 13 => ⟨S128x128, .f32⟩
  | 14 => ⟨S64x64, .f32⟩
  | 15 => ⟨S128x128, .f32⟩
  | 16 => ⟨S64x64, .f32⟩
  | 17 => ⟨S64x128, .f32⟩
  | 18 => ⟨S64, .f32⟩
  | 19 => ⟨S64x64, .f32⟩
  | 20 => ⟨S64, .f32⟩
  | 21 => ⟨S64x128, .f32⟩
  | 22 => ⟨S64, .f32⟩
  | 23 => ⟨S64x64, .f32⟩
  | 24 => ⟨S64, .f32⟩
  | 25 => ⟨S64x192, .f32⟩
  | 26 => ⟨S64, .f32⟩
  | 27 => ⟨S64x128, .f32⟩
  | 28 => ⟨S64, .f32⟩
  | 29 => ⟨S64x192, .f32⟩
  | 30 => ⟨S64, .f32⟩
  | 31 => ⟨S64x128, .f32⟩
  | 32 => ⟨S64, .f32⟩
  | 33 => ⟨S1x1000000, .i32⟩
  | 34 => ⟨S1000000, .i32⟩
  | 35 => ⟨S1x1000000, .i32⟩
  | 36 => ⟨S1000000, .i32⟩
  | 37 => ⟨S_, .f32⟩
  | 38 => ⟨S1000000, .f32⟩
  | 39 => ⟨S_, .f32⟩
  | 40 => ⟨S60000, .f32⟩
  | 41 => ⟨S1000000x1, .i32⟩
  | 42 => ⟨S60000, .f32⟩
  | 43 => ⟨S_, .f32⟩
  | 44 => ⟨S60000, .f32⟩
  | 45 => ⟨S60000, .f32⟩
  | 46 => ⟨S_, .f32⟩
  | 47 => ⟨S60000, .f32⟩
  | 48 => ⟨S60000, .f32⟩
  | 49 => ⟨S60000x1, .f32⟩
  | 50 => ⟨S60000x64, .f32⟩
  | 51 => ⟨S2048x128, .f32⟩
  | 52 => ⟨S40000x128, .f32⟩
  | 53 => ⟨S1x128, .f32⟩
  | 54 => ⟨S40000x128, .f32⟩
  | 55 => ⟨S40000x128, .f32⟩
  | 56 => ⟨S60000x128, .f32⟩
  | 57 => ⟨S768x128, .f32⟩
  | 58 => ⟨S40000x128, .f32⟩
  | 59 => ⟨S1x128, .f32⟩
  | 60 => ⟨S40000x128, .f32⟩
  | 61 => ⟨S40000x128, .f32⟩
  | 62 => ⟨S60000x128, .f32⟩
  | 63 => ⟨S60000x128, .f32⟩
  | 64 => ⟨S_, .f32⟩
  | 65 => ⟨S60000, .f32⟩
  | 66 => ⟨S60000x1, .f32⟩
  | 67 => ⟨S60000x1, .f32⟩
  | 68 => ⟨S_, .f32⟩
  | 69 => ⟨S60000x1, .f32⟩
  | 70 => ⟨S60000x1, .f32⟩
  | 71 => ⟨S60000x128, .f32⟩
  | 72 => ⟨S60000x128, .f32⟩
  | 73 => ⟨S60000x128, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i32⟩
  | 80 => ⟨S1000000, .i32⟩
  | 81 => ⟨S1000000x1, .i32⟩
  | 82 => ⟨S1000000x128, .f32⟩
  | 83 => ⟨S_, .f32⟩
  | 84 => ⟨S60000x128, .f32⟩
  | 85 => ⟨S1000000x1, .i32⟩
  | 86 => ⟨S60000x128, .f32⟩
  | 87 => ⟨S60000x128, .f32⟩
  | 88 => ⟨S60000x128, .f32⟩
  | 89 => ⟨S128x64, .f32⟩
  | 90 => ⟨S60000x64, .f32⟩
  | 91 => ⟨S1x64, .f32⟩
  | 92 => ⟨S60000x64, .f32⟩
  | 93 => ⟨S60000x64, .f32⟩
  | 94 => ⟨S60000x64, .f32⟩
  | 95 => ⟨S60000x192, .f32⟩
  | 96 => ⟨S192x64, .f32⟩
  | 97 => ⟨S60000x64, .f32⟩
  | 98 => ⟨S1x64, .f32⟩
  | 99 => ⟨S60000x64, .f32⟩
  | 100 => ⟨S60000x64, .f32⟩
  | 101 => ⟨S60000x64, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x64, .f32⟩
  | 111 => ⟨S_, .f32⟩
  | 112 => ⟨S60000x64, .f32⟩
  | 113 => ⟨S1000000x1, .i32⟩
  | 114 => ⟨S60000x64, .f32⟩
  | 115 => ⟨S60000x64, .f32⟩
  | 116 => ⟨S60000x64, .f32⟩
  | 117 => ⟨S64x64, .f32⟩
  | 118 => ⟨S60000x64, .f32⟩
  | 119 => ⟨S1x64, .f32⟩
  | 120 => ⟨S60000x64, .f32⟩
  | 121 => ⟨S60000x64, .f32⟩
  | 122 => ⟨S60000x64, .f32⟩
  | 123 => ⟨S60000x128, .f32⟩
  | 124 => ⟨S128x64, .f32⟩
  | 125 => ⟨S60000x64, .f32⟩
  | 126 => ⟨S1x64, .f32⟩
  | 127 => ⟨S60000x64, .f32⟩
  | _ => ⟨S2x1000000, .i32⟩

abbrev hbmTy0_1 (i : Nat) : BufTy := match i % 128 with
  | 0 => ⟨S60000x64, .f32⟩
  | 1 => ⟨S60000x128, .f32⟩
  | 2 => ⟨S_, .f32⟩
  | 3 => ⟨S60000, .f32⟩
  | 4 => ⟨S60000x1, .f32⟩
  | 5 => ⟨S60000x1, .f32⟩
  | 6 => ⟨S_, .f32⟩
  | 7 => ⟨S60000x1, .f32⟩
  | 8 => ⟨S60000x1, .f32⟩
  | 9 => ⟨S60000x128, .f32⟩
  | 10 => ⟨S60000x128, .f32⟩
  | 11 => ⟨S60000x128, .f32⟩
  | 12 => ⟨S_, .i32⟩
  | 13 => ⟨S1000000, .i32⟩
  | 14 => ⟨S1000000, .i1⟩
  | 15 => ⟨S_, .i32⟩
  | 16 => ⟨S1000000, .i32⟩
  | 17 => ⟨S1000000, .i32⟩
  | 18 => ⟨S1000000, .i32⟩
  | 19 => ⟨S1000000x1, .i32⟩
  | 20 => ⟨S1000000x128, .f32⟩
  | 21 => ⟨S_, .f32⟩
  | 22 => ⟨S60000x128, .f32⟩
  | 23 => ⟨S1000000x1, .i32⟩
  | 24 => ⟨S60000x128, .f32⟩
  | 25 => ⟨S60000x128, .f32⟩
  | 26 => ⟨S60000x128, .f32⟩
  | 27 => ⟨S128x64, .f32⟩
  | 28 => ⟨S60000x64, .f32⟩
  | 29 => ⟨S1x64, .f32⟩
  | 30 => ⟨S60000x64, .f32⟩
  | 31 => ⟨S60000x64, .f32⟩
  | 32 => ⟨S60000x64, .f32⟩
  | 33 => ⟨S60000x192, .f32⟩
  | 34 => ⟨S192x64, .f32⟩
  | 35 => ⟨S60000x64, .f32⟩
  | 36 => ⟨S1x64, .f32⟩
  | 37 => ⟨S60000x64, .f32⟩
  | 38 => ⟨S60000x64, .f32⟩
  | 39 => ⟨S60000x64, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000x64, .f32⟩
  | 49 => ⟨S_, .f32⟩
  | 50 => ⟨S60000x64, .f32⟩
  | 51 => ⟨S1000000x1, .i32⟩
  | 52 => ⟨S60000x64, .f32⟩
  | 53 => ⟨S60000x64, .f32⟩
  | 54 => ⟨S60000x64, .f32⟩
  | 55 => ⟨S64x64, .f32⟩
  | 56 => ⟨S60000x64, .f32⟩
  | 57 => ⟨S1x64, .f32⟩
  | 58 => ⟨S60000x64, .f32⟩
  | 59 => ⟨S60000x64, .f32⟩
  | 60 => ⟨S60000x64, .f32⟩
  | 61 => ⟨S60000x128, .f32⟩
  | 62 => ⟨S128x64, .f32⟩
  | 63 => ⟨S60000x64, .f32⟩
  | 64 => ⟨S1x64, .f32⟩
  | 65 => ⟨S60000x64, .f32⟩
  | 66 => ⟨S60000x64, .f32⟩
  | 67 => ⟨S60000x64, .f32⟩
  | 68 => ⟨S_, .f32⟩
  | 69 => ⟨S60000x64, .f32⟩
  | 70 => ⟨S60000x64, .f32⟩
  | 71 => ⟨S20000x64, .f32⟩
  | 72 => ⟨S40000x64, .f32⟩
  | 73 => ⟨S_, .i32⟩
  | 74 => ⟨S8192, .i32⟩
  | 75 => ⟨S8192, .i1⟩
  | 76 => ⟨S_, .i32⟩
  | 77 => ⟨S8192, .i32⟩
  | 78 => ⟨S8192, .i32⟩
  | 79 => ⟨S8192, .i32⟩
  | 80 => ⟨S8192x1, .i32⟩
  | 81 => ⟨S8192x64, .f32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S8192x64, .f32⟩
  | 91 => ⟨S8192x64, .f32⟩
  | 92 => ⟨S_, .f32⟩
  | 93 => ⟨S8192, .f32⟩
  | _ => ⟨S2x1000000, .i32⟩

abbrev hbmTy (i : Nat) : BufTy := match i / 128 with
  | 0 => hbmTy0_0 i
  | 1 => hbmTy0_1 i
  | _ => ⟨S2x1000000, .i32⟩

abbrev bufTy : (tb : Table) → Fin (tcTables nBuf tb) → BufTy
  | .hbm, ⟨i, _⟩ => hbmTy i
  | _, _ => ⟨S2x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_cst : Ref sig .tc := ⟨.hbm, 37, rfl⟩
abbrev main_v4 : Ref sig .tc := ⟨.hbm, 38, rfl⟩
abbrev main_cst_0 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_1 : Ref sig .tc := ⟨.hbm, 43, rfl⟩
abbrev main_v8 : Ref sig .tc := ⟨.hbm, 44, rfl⟩
abbrev main_v9 : Ref sig .tc := ⟨.hbm, 45, rfl⟩
abbrev main_cst_2 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_call0_v0 : Ref sig .tc := ⟨.hbm, 63, rfl⟩
abbrev main_call0_cst : Ref sig .tc := ⟨.hbm, 64, rfl⟩
abbrev main_call0_v1 : Ref sig .tc := ⟨.hbm, 65, rfl⟩
abbrev main_call0_v2 : Ref sig .tc := ⟨.hbm, 66, rfl⟩
abbrev main_v26 : Ref sig .tc := ⟨.hbm, 67, rfl⟩
abbrev main_cst_3 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_c : Ref sig .tc := ⟨.hbm, 74, rfl⟩
abbrev main_v32 : Ref sig .tc := ⟨.hbm, 75, rfl⟩
abbrev main_v33 : Ref sig .tc := ⟨.hbm, 76, rfl⟩
abbrev main_c_4 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_5 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_c_6 : Ref sig .tc := ⟨.hbm, 102, rfl⟩
abbrev main_v57 : Ref sig .tc := ⟨.hbm, 103, rfl⟩
abbrev main_v58 : Ref sig .tc := ⟨.hbm, 104, rfl⟩
abbrev main_c_7 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_cst_8 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_call1_v0 : Ref sig .tc := ⟨.hbm, 129, rfl⟩
abbrev main_call1_cst : Ref sig .tc := ⟨.hbm, 130, rfl⟩
abbrev main_call1_v1 : Ref sig .tc := ⟨.hbm, 131, rfl⟩
abbrev main_call1_v2 : Ref sig .tc := ⟨.hbm, 132, rfl⟩
abbrev main_v81 : Ref sig .tc := ⟨.hbm, 133, rfl⟩
abbrev main_cst_9 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_c_10 : Ref sig .tc := ⟨.hbm, 140, rfl⟩
abbrev main_v87 : Ref sig .tc := ⟨.hbm, 141, rfl⟩
abbrev main_v88 : Ref sig .tc := ⟨.hbm, 142, rfl⟩
abbrev main_c_11 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_12 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_c_13 : Ref sig .tc := ⟨.hbm, 168, rfl⟩
abbrev main_v112 : Ref sig .tc := ⟨.hbm, 169, rfl⟩
abbrev main_v113 : Ref sig .tc := ⟨.hbm, 170, rfl⟩
abbrev main_c_14 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_cst_15 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_cst_16 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_c_17 : Ref sig .tc := ⟨.hbm, 201, rfl⟩
abbrev main_v141 : Ref sig .tc := ⟨.hbm, 202, rfl⟩
abbrev main_v142 : Ref sig .tc := ⟨.hbm, 203, rfl⟩
abbrev main_c_18 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_c_19 : Ref sig .tc := ⟨.hbm, 210, rfl⟩
abbrev main_v148 : Ref sig .tc := ⟨.hbm, 211, rfl⟩
abbrev main_v149 : Ref sig .tc := ⟨.hbm, 212, rfl⟩
abbrev main_c_20 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_cst_21 : Ref sig .tc := ⟨.hbm, 220, rfl⟩
abbrev main_v156 : Ref sig .tc := ⟨.hbm, 221, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S60000 : S_.BroadcastsInDim S60000 (![] : Fin 0 → Fin S60000.rank)
  bcast_S1000000_S1000000x1_0 : S1000000.BroadcastsInDim S1000000x1 (![0] : Fin 1 → Fin S1000000x1.rank)
  bcast_S60000_S60000x1_0 : S60000.BroadcastsInDim S60000x1 (![0] : Fin 1 → Fin S60000x1.rank)
  concatenates_S20000x64_S40000x64_S60000x64_d0 : Shape.Concatenates [S20000x64, S40000x64] S60000x64 0
  transposes_S128x2048_S2048x128_1_0 : S128x2048.Transposes [1, 0] S2048x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  concatenates_S20000x128_S40000x128_S60000x128_d0 : Shape.Concatenates [S20000x128, S40000x128] S60000x128 0
  transposes_S128x768_S768x128_1_0 : S128x768.Transposes [1, 0] S768x128
  reducesTo_S60000x128_S60000_d1 : S60000x128.ReducesTo [1] S60000
  h_S_ : 0 < S_.numel
  bcast_S_S60000x1 : S_.BroadcastsInDim S60000x1 (![] : Fin 0 → Fin S60000x1.rank)
  bcast_S60000x1_S60000x128_0_1 : S60000x1.BroadcastsInDim S60000x128 (![0, 1] : Fin 2 → Fin S60000x128.rank)
  bcast_S_S60000x128 : S_.BroadcastsInDim S60000x128 (![] : Fin 0 → Fin S60000x128.rank)
  transposes_S64x128_S128x64_1_0 : S64x128.Transposes [1, 0] S128x64
  bcast_S64_S1x64_1 : S64.BroadcastsInDim S1x64 (![1] : Fin 1 → Fin S1x64.rank)
  bcast_S1x64_S60000x64_0_1 : S1x64.BroadcastsInDim S60000x64 (![0, 1] : Fin 2 → Fin S60000x64.rank)
  concatenates_S60000x128_S60000x64_S60000x192_d1 : Shape.Concatenates [S60000x128, S60000x64] S60000x192 1
  transposes_S64x192_S192x64_1_0 : S64x192.Transposes [1, 0] S192x64
  bcast_S_S60000x64 : S_.BroadcastsInDim S60000x64 (![] : Fin 0 → Fin S60000x64.rank)
  bcast_S60000x1_S60000x64_0_1 : S60000x1.BroadcastsInDim S60000x64 (![0, 1] : Fin 2 → Fin S60000x64.rank)
  transposes_S64x64_S64x64_1_0 : S64x64.Transposes [1, 0] S64x64
  concatenates_S60000x64_S60000x64_S60000x128_d1 : Shape.Concatenates [S60000x64, S60000x64] S60000x128 1
  slices_S60000x64_S20000x64_0_0 : S60000x64.Slices ![0, 0] S20000x64
  slices_S60000x64_S40000x64_20000_0 : S60000x64.Slices ![20000, 0] S40000x64
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  scatter_S60000_S1000000x1_S1000000_n_0_0_1_wf : ScatterDims.WF S60000 S1000000x1 S1000000 [] [0] [0] 1
  dot_S40000x2048_S2048x128_S40000x128_1_0_0_1_n_n_wf : DotDims.WF S40000x2048 S2048x128 S40000x128 [1] [0] [0] [1] [] []
  dot_S40000x768_S768x128_S40000x128_1_0_0_1_n_n_wf : DotDims.WF S40000x768 S768x128 S40000x128 [1] [0] [0] [1] [] []
  dot_S60000x128_S128x128_S60000x128_1_0_0_1_n_n_wf : DotDims.WF S60000x128 S128x128 S60000x128 [1] [0] [0] [1] [] []
  gather_S60000x128_S1000000x1_S1000000x128_1_0_n_n_0_1_1128_wf : GatherDims.WF S60000x128 S1000000x1 S1000000x128 [1] [0] [] [0] [] 1 ![1, 128]
  scatter_S60000x128_S1000000x1_S1000000x128_1_0_0_1_wf : ScatterDims.WF S60000x128 S1000000x1 S1000000x128 [1] [0] [0] 1
  dot_S60000x128_S128x64_S60000x64_1_0_0_1_n_n_wf : DotDims.WF S60000x128 S128x64 S60000x64 [1] [0] [0] [1] [] []
  dot_S60000x192_S192x64_S60000x64_1_0_0_1_n_n_wf : DotDims.WF S60000x192 S192x64 S60000x64 [1] [0] [0] [1] [] []
  dot_S60000x64_S64x64_S60000x64_1_0_0_1_n_n_wf : DotDims.WF S60000x64 S64x64 S60000x64 [1] [0] [0] [1] [] []
  gather_S60000x64_S1000000x1_S1000000x64_1_0_n_n_0_1_164_wf : GatherDims.WF S60000x64 S1000000x1 S1000000x64 [1] [0] [] [0] [] 1 ![1, 64]
  scatter_S60000x64_S1000000x1_S1000000x64_1_0_0_1_wf : ScatterDims.WF S60000x64 S1000000x1 S1000000x64 [1] [0] [0] 1
  gather_S20000x64_S8192x1_S8192x64_1_0_n_n_0_1_164_wf : GatherDims.WF S20000x64 S8192x1 S8192x64 [1] [0] [] [0] [] 1 ![1, 64]
  gather_S40000x64_S8192x1_S8192x64_1_0_n_n_0_1_164_wf : GatherDims.WF S40000x64 S8192x1 S8192x64 [1] [0] [] [0] [] 1 ![1, 64]

variable [Facts₀]

def scatter_S60000_S1000000x1_S1000000_n_0_0_1 : ScatterDims S60000 S1000000x1 S1000000 where
  updateWindowDims := []
  insertedWindowDims := [0]
  scatterDimsToOperandDims := [0]
  indexVectorDim := 1
  wf := scatter_S60000_S1000000x1_S1000000_n_0_0_1_wf
def dot_S40000x2048_S2048x128_S40000x128_1_0_0_1_n_n : DotDims S40000x2048 S2048x128 S40000x128 where
  lhsContracting := [1]
  rhsContracting := [0]
  lhsNonContracting := [0]
  rhsNonContracting := [1]
  lhsBatch := []
  rhsBatch := []
  wf := dot_S40000x2048_S2048x128_S40000x128_1_0_0_1_n_n_wf
def dot_S40000x768_S768x128_S40000x128_1_0_0_1_n_n : DotDims S40000x768 S768x128 S40000x128 where
  lhsContracting := [1]
  rhsContracting := [0]
  lhsNonContracting := [0]
  rhsNonContracting := [1]
  lhsBatch := []
  rhsBatch := []
  wf := dot_S40000x768_S768x128_S40000x128_1_0_0_1_n_n_wf
def dot_S60000x128_S128x128_S60000x128_1_0_0_1_n_n : DotDims S60000x128 S128x128 S60000x128 where
  lhsContracting := [1]
  rhsContracting := [0]
  lhsNonContracting := [0]
  rhsNonContracting := [1]
  lhsBatch := []
  rhsBatch := []
  wf := dot_S60000x128_S128x128_S60000x128_1_0_0_1_n_n_wf
def gather_S60000x128_S1000000x1_S1000000x128_1_0_n_n_0_1_1128 : GatherDims S60000x128 S1000000x1 S1000000x128 where
  offsetDims := [1]
  collapsedSliceDims := [0]
  operandBatchingDims := []
  startIndicesBatchingDims := []
  startIndexMap := [0]
  indexVectorDim := 1
  sliceSizes := ![1, 128]
  wf := gather_S60000x128_S1000000x1_S1000000x128_1_0_n_n_0_1_1128_wf
def scatter_S60000x128_S1000000x1_S1000000x128_1_0_0_1 : ScatterDims S60000x128 S1000000x1 S1000000x128 where
  updateWindowDims := [1]
  insertedWindowDims := [0]
  scatterDimsToOperandDims := [0]
  indexVectorDim := 1
  wf := scatter_S60000x128_S1000000x1_S1000000x128_1_0_0_1_wf
def dot_S60000x128_S128x64_S60000x64_1_0_0_1_n_n : DotDims S60000x128 S128x64 S60000x64 where
  lhsContracting := [1]
  rhsContracting := [0]
  lhsNonContracting := [0]
  rhsNonContracting := [1]
  lhsBatch := []
  rhsBatch := []
  wf := dot_S60000x128_S128x64_S60000x64_1_0_0_1_n_n_wf
def dot_S60000x192_S192x64_S60000x64_1_0_0_1_n_n : DotDims S60000x192 S192x64 S60000x64 where
  lhsContracting := [1]
  rhsContracting := [0]
  lhsNonContracting := [0]
  rhsNonContracting := [1]
  lhsBatch := []
  rhsBatch := []
  wf := dot_S60000x192_S192x64_S60000x64_1_0_0_1_n_n_wf
def dot_S60000x64_S64x64_S60000x64_1_0_0_1_n_n : DotDims S60000x64 S64x64 S60000x64 where
  lhsContracting := [1]
  rhsContracting := [0]
  lhsNonContracting := [0]
  rhsNonContracting := [1]
  lhsBatch := []
  rhsBatch := []
  wf := dot_S60000x64_S64x64_S60000x64_1_0_0_1_n_n_wf
def gather_S60000x64_S1000000x1_S1000000x64_1_0_n_n_0_1_164 : GatherDims S60000x64 S1000000x1 S1000000x64 where
  offsetDims := [1]
  collapsedSliceDims := [0]
  operandBatchingDims := []
  startIndicesBatchingDims := []
  startIndexMap := [0]
  indexVectorDim := 1
  sliceSizes := ![1, 64]
  wf := gather_S60000x64_S1000000x1_S1000000x64_1_0_n_n_0_1_164_wf
def scatter_S60000x64_S1000000x1_S1000000x64_1_0_0_1 : ScatterDims S60000x64 S1000000x1 S1000000x64 where
  updateWindowDims := [1]
  insertedWindowDims := [0]
  scatterDimsToOperandDims := [0]
  indexVectorDim := 1
  wf := scatter_S60000x64_S1000000x1_S1000000x64_1_0_0_1_wf
def gather_S20000x64_S8192x1_S8192x64_1_0_n_n_0_1_164 : GatherDims S20000x64 S8192x1 S8192x64 where
  offsetDims := [1]
  collapsedSliceDims := [0]
  operandBatchingDims := []
  startIndicesBatchingDims := []
  startIndexMap := [0]
  indexVectorDim := 1
  sliceSizes := ![1, 64]
  wf := gather_S20000x64_S8192x1_S8192x64_1_0_n_n_0_1_164_wf
def gather_S40000x64_S8192x1_S8192x64_1_0_n_n_0_1_164 : GatherDims S40000x64 S8192x1 S8192x64 where
  offsetDims := [1]
  collapsedSliceDims := [0]
  operandBatchingDims := []
  startIndicesBatchingDims := []
  startIndexMap := [0]
  indexVectorDim := 1
  sliceSizes := ![1, 64]
  wf := gather_S40000x64_S8192x1_S8192x64_1_0_n_n_0_1_164_wf

class Facts : Prop extends Facts₀ where

variable [Facts]
-- ==== Proof.RefDefs.lean ====
/-
  The reference program as a list of host operations cut into eight stretches, the buffer contents at each cut, and
  every buffer's pure term of the launch memory: an argument is what the launch memory holds, an operation's result the
  operation's function of its operands' terms.
-/
import proofs.«159630_j86646670230227_1_alg».proof.Proof.Gen.ReferenceIdeal
import Idealize.ShloMosaic.Lib.StableHlo.Run

set_option maxRecDepth 16384

noncomputable section

namespace Cert.ReferenceIdeal.RefTrace

open Cert.ReferenceIdeal Cert.ReferenceIdeal.Gen Idealize.ShloMosaic Idealize.ShloMosaic.TcCoe Idealize.SL.Sem Idealize.ShloMosaic.StableHlo

variable {F : FTy → Type} [FloatOps F]

/-- @main's operations, in order (a called function's operations stand in its call's place). -/
abbrev ops : List (HloOp τ sig (Elt F)) :=
  [ unary main_arg0 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg0 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    nullary main_cst (constant S_ .f32 0x3F800000#32),
    unary main_cst main_v4 (broadcastInDim S1000000 ![] bcast_S_S1000000 : (⟨S_, .f32⟩ : BufTy).Contents (Elt F) → (⟨S1000000, .f32⟩ : BufTy).Contents (Elt F)),
    nullary main_cst_0 (constant S_ .f32 0x00000000#32),
    unary main_cst_0 main_v5 (broadcastInDim S60000 ![] bcast_S_S60000 : (⟨S_, .f32⟩ : BufTy).Contents (Elt F) → (⟨S60000, .f32⟩ : BufTy).Contents (Elt F)),
    unary main_v3 main_v6 (broadcastInDim S1000000x1 ![0] bcast_S1000000_S1000000x1_0 : (⟨S1000000, .i32⟩ : BufTy).Contents (Elt F) → (⟨S1000000x1, .i32⟩ : BufTy).Contents (Elt F)),
    ternary main_v5 main_v6 main_v4 main_v7 ((fun x i u => Host.scatterAdd scatter_S60000_S1000000x1_S1000000_n_0_0_1 x i u) : (⟨S60000, .f32⟩ : BufTy).Contents (Elt F) → (⟨S1000000x1, .i32⟩ : BufTy).Contents (Elt F) → (⟨S1000000, .f32⟩ : BufTy).Contents (Elt F) → (⟨S60000, .f32⟩ : BufTy).Contents (Elt F)),
    nullary main_cst_1 (constant S_ .f32 0x3F800000#32),
    unary main_cst_1 main_v8 (broadcastInDim S60000 ![] bcast_S_S60000 : (⟨S_, .f32⟩ : BufTy).Contents (Elt F) → (⟨S60000, .f32⟩ : BufTy).Contents (Elt F)),
    binary main_v7 main_v8 main_v9 (maximumf : (⟨S60000, .f32⟩ : BufTy).Contents (Elt F) → (⟨S60000, .f32⟩ : BufTy).Contents (Elt F) → (⟨S60000, .f32⟩ : BufTy).Contents (Elt F)),
    nullary main_cst_2 (constant S_ .f32 0x3F800000#32),
    unary main_cst_2 main_v10 (broadcastInDim S60000 ![] bcast_S_S60000 : (⟨S_, .f32⟩ : BufTy).Contents (Elt F) → (⟨S60000, .f32⟩ : BufTy).Contents (Elt F)),
    binary main_v10 main_v9 main_v11 (Host.divf : (⟨S60000, .f32⟩ : BufTy).Contents (Elt F) → (⟨S60000, .f32⟩ : BufTy).Contents (Elt F) → (⟨S60000, .f32⟩ : BufTy).Contents (Elt F)),
    unary main_v11 main_v12 (broadcastInDim S60000x1 ![0] bcast_S60000_S60000x1_0 : (⟨S60000, .f32⟩ : BufTy).Contents (Elt F) → (⟨S60000x1, .f32⟩ : BufTy).Contents (Elt F)),
    binary main_arg3 main_arg4 main_v13 ((fun a b => concatenate S60000x64 0 [⟨S20000x64, a⟩, ⟨S40000x64, b⟩] concatenates_S20000x64_S40000x64_S60000x64_d0) : (⟨S20000x64, .f32⟩ : BufTy).Contents (Elt F) → (⟨S40000x64, .f32⟩ : BufTy).Contents (Elt F) → (⟨S60000x64, .f32⟩ : BufTy).Contents (Elt F)),
    unary main_arg9 main_v14 ((transpose S2048x128 [1, 0] · transposes_S128x2048_S2048x128_1_0) : (⟨S128x2048, .f32⟩ : BufTy).Contents (Elt F) → (⟨S2048x128, .f32⟩ : BufTy).Contents (Elt F)),
    binary main_arg7 main_v14 main_v15 ((fun l r => Host.dotGeneral dot_S40000x2048_S2048x128_S40000x128_1_0_0_1_n_n none l r) : (⟨S40000x2048, .f32⟩ : BufTy).Contents (Elt F) → (⟨S2048x128, .f32⟩ : BufTy).Contents (Elt F) → (⟨S40000x128, .f32⟩ : BufTy).Contents (Elt F)),
    unary main_arg10 main_v16 (broadcastInDim S1x128 ![1] bcast_S128_S1x128_1 : (⟨S128, .f32⟩ : BufTy).Contents (Elt F) → (⟨S1x128, .f32⟩ : BufTy).Contents (Elt F)),
    unary main_v16 main_v17 (broadcastInDim S40000x128 ![0, 1] bcast_S1x128_S40000x128_0_1 : (⟨S1x128, .f32⟩ : BufTy).Contents (Elt F) → (⟨S40000x128, .f32⟩ : BufTy).Contents (Elt F)),
    binary main_v15 main_v17 main_v18 (addf : (⟨S40000x128, .f32⟩ : BufTy).Contents (Elt F) → (⟨S40000x128, .f32⟩ : BufTy).Contents (Elt F) → (⟨S40000x128, .f32⟩ : BufTy).Contents (Elt F)),
    binary main_arg5 main_v18 main_v19 ((fun a b => concatenate S60000x128 0 [⟨S20000x128, a⟩, ⟨S40000x128, b⟩] concatenates_S20000x128_S40000x128_S60000x128_d0) : (⟨S20000x128, .f32⟩ : BufTy).Contents (Elt F) → (⟨S40000x128, .f32⟩ : BufTy).Contents (Elt F) → (⟨S60000x128, .f32⟩ : BufTy).Contents (Elt F)),
    unary main_arg11 main_v20 ((transpose S768x128 [1, 0] · transposes_S128x768_S768x128_1_0) : (⟨S128x768, .f32⟩ : BufTy).Contents (Elt F) → (⟨S768x128, .f32⟩ : BufTy).Contents (Elt F)),
    binary main_arg8 main_v20 main_v21 ((fun l r => Host.dotGeneral dot_S40000x768_S768x128_S40000x128_1_0_0_1_n_n none l r) : (⟨S40000x768, .f32⟩ : BufTy).Contents (Elt F) → (⟨S768x128, .f32⟩ : BufTy).Contents (Elt F) → (⟨S40000x128, .f32⟩ : BufTy).Contents (Elt F)),
    unary main_arg12 main_v22 (broadcastInDim S1x128 ![1] bcast_S128_S1x128_1 : (⟨S128, .f32⟩ : BufTy).Contents (Elt F) → (⟨S1x128, .f32⟩ : BufTy).Contents (Elt F)),
    unary main_v22 main_v23 (broadcastInDim S40000x128 ![0, 1] bcast_S1x128_S40000x128_0_1 : (⟨S1x128, .f32⟩ : BufTy).Contents (Elt F) → (⟨S40000x128, .f32⟩ : BufTy).Contents (Elt F)),
    binary main_v21 main_v23 main_v24 (addf : (⟨S40000x128, .f32⟩ : BufTy).Contents (Elt F) → (⟨S40000x128, .f32⟩ : BufTy).Contents (Elt F) → (⟨S40000x128, .f32⟩ : BufTy).Contents (Elt F)),
    binary main_arg6 main_v24 main_v25 ((fun a b => concatenate S60000x128 0 [⟨S20000x128, a⟩, ⟨S40000x128, b⟩] concatenates_S20000x128_S40000x128_S60000x128_d0) : (⟨S20000x128, .f32⟩ : BufTy).Contents (Elt F) → (⟨S40000x128, .f32⟩ : BufTy).Contents (Elt F) → (⟨S60000x128, .f32⟩ : BufTy).Contents (Elt F)),
    TRef.binary (TRef.of (T := ⟨S60000x128, .f32⟩) main_v19) (TRef.of (T := ⟨S60000x128, .f32⟩) main_v19) (TRef.of (T := ⟨S60000x128, .f32⟩) main_call0_v0) mulf,
    TRef.nullary (TRef.of (T := ⟨S_, .f32⟩) main_call0_cst) (constant S_ .f32 0x00000000#32),
    TRef.binary (TRef.of (T := ⟨S60000x128, .f32⟩) main_call0_v0) (TRef.of (T := ⟨S_, .f32⟩) main_call0_cst) (TRef.of (T := ⟨S60000, .f32⟩) main_call0_v1) (fun x v => Host.reduceAdd x v reducesTo_S60000x128_S60000_d1 h_S_),
    TRef.unary (TRef.of (T := ⟨S60000, .f32⟩) main_call0_v1) (TRef.of (T := ⟨S60000x1, .f32⟩) main_call0_v2) (broadcastInDim S60000x1 ![0] bcast_S60000_S60000x1_0),
    TRef.unary (TRef.of (T := ⟨S60000x1, .f32⟩) main_call0_v2) (TRef.of (T := ⟨S60000x1, .f32⟩) main_v26) Host.sqrt,
    nullary main_cst_3 (constant S_ .f32 0x2B8CBCCC#32),
    unary main_cst_3 main_v27 (broadcastInDim S60000x1 ![] bcast_S_S60000x1 : (⟨S_, .f32⟩ : BufTy).Contents (Elt F) → (⟨S60000x1, .f32⟩ : BufTy).Contents (Elt F)),
    binary main_v26 main_v27 main_v28 (maximumf : (⟨S60000x1, .f32⟩ : BufTy).Contents (Elt F) → (⟨S60000x1, .f32⟩ : BufTy).Contents (Elt F) → (⟨S60000x1, .f32⟩ : BufTy).Contents (Elt F)),
    unary main_v28 main_v29 (broadcastInDim S60000x128 ![0, 1] bcast_S60000x1_S60000x128_0_1 : (⟨S60000x1, .f32⟩ : BufTy).Contents (Elt F) → (⟨S60000x128, .f32⟩ : BufTy).Contents (Elt F)),
    binary main_v19 main_v29 main_v30 (Host.divf : (⟨S60000x128, .f32⟩ : BufTy).Contents (Elt F) → (⟨S60000x128, .f32⟩ : BufTy).Contents (Elt F) → (⟨S60000x128, .f32⟩ : BufTy).Contents (Elt F)),
    binary main_v30 main_arg13 main_v31 ((fun l r => Host.dotGeneral dot_S60000x128_S128x128_S60000x128_1_0_0_1_n_n none l r) : (⟨S60000x128, .f32⟩ : BufTy).Contents (Elt F) → (⟨S128x128, .f32⟩ : BufTy).Contents (Elt F) → (⟨S60000x128, .f32⟩ : BufTy).Contents (Elt F)),
    nullary main_c (constantI S_ 32 0#32),
    unary main_c main_v32 (broadcastInDim S1000000 ![] bcast_S_S1000000 : (⟨S_, .i32⟩ : BufTy).Contents (Elt F) → (⟨S1000000, .i32⟩ : BufTy).Contents (Elt F)),
    binary main_v1 main_v32 main_v33 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 60000#32),
    unary main_c_4 main_v34 (broadcastInDim S1000000 ![] bcast_S_S1000000 : (⟨S_, .i32⟩ : BufTy).Contents (Elt F) → (⟨S1000000, .i32⟩ : BufTy).Contents (Elt F)),
    binary main_v1 main_v34 main_v35 (addi : (⟨S1000000, .i32⟩ : BufTy).Contents (Elt F) → (⟨S1000000, .i32⟩ : BufTy).Contents (Elt F) → (⟨S1000000, .i32⟩ : BufTy).Contents (Elt F)),
    ternary main_v33 main_v35 main_v1 main_v36 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v36 main_v37 (broadcastInDim S1000000x1 ![0] bcast_S1000000_S1000000x1_0 : (⟨S1000000, .i32⟩ : BufTy).Contents (Elt F) → (⟨S1000000x1, .i32⟩ : BufTy).Contents (Elt F)),
    binary main_v31 main_v37 main_v38 ((fun x i => Host.gather gather_S60000x128_S1000000x1_S1000000x128_1_0_n_n_0_1_1128 x i) : (⟨S60000x128, .f32⟩ : BufTy).Contents (Elt F) → (⟨S1000000x1, .i32⟩ : BufTy).Contents (Elt F) → (⟨S1000000x128, .f32⟩ : BufTy).Contents (Elt F)),
    nullary main_cst_5 (constant S_ .f32 0x00000000#32),
    unary main_cst_5 main_v39 (broadcastInDim S60000x128 ![] bcast_S_S60000x128 : (⟨S_, .f32⟩ : BufTy).Contents (Elt F) → (⟨S60000x128, .f32⟩ : BufTy).Contents (Elt F)),
    unary main_v3 main_v40 (broadcastInDim S1000000x1 ![0] bcast_S1000000_S1000000x1_0 : (⟨S1000000, .i32⟩ : BufTy).Contents (Elt F) → (⟨S1000000x1, .i32⟩ : BufTy).Contents (Elt F)),
    ternary main_v39 main_v40 main_v38 main_v41 ((fun x i u => Host.scatterAdd scatter_S60000x128_S1000000x1_S1000000x128_1_0_0_1 x i u) : (⟨S60000x128, .f32⟩ : BufTy).Contents (Elt F) → (⟨S1000000x1, .i32⟩ : BufTy).Contents (Elt F) → (⟨S1000000x128, .f32⟩ : BufTy).Contents (Elt F) → (⟨S60000x128, .f32⟩ : BufTy).Contents (Elt F)),
    unary main_v12 main_v42 (broadcastInDim S60000x128 ![0, 1] bcast_S60000x1_S60000x128_0_1 : (⟨S60000x1, .f32⟩ : BufTy).Contents (Elt F) → (⟨S60000x128, .f32⟩ : BufTy).Contents (Elt F)),
    binary main_v41 main_v42 main_v43 (mulf : (⟨S60000x128, .f32⟩ : BufTy).Contents (Elt F) → (⟨S60000x128, .f32⟩ : BufTy).Contents (Elt F) → (⟨S60000x128, .f32⟩ : BufTy).Contents (Elt F)),
    unary main_arg17 main_v44 ((transpose S128x64 [1, 0] · transposes_S64x128_S128x64_1_0) : (⟨S64x128, .f32⟩ : BufTy).Contents (Elt F) → (⟨S128x64, .f32⟩ : BufTy).Contents (Elt F)),
    binary main_v30 main_v44 main_v45 ((fun l r => Host.dotGeneral dot_S60000x128_S128x64_S60000x64_1_0_0_1_n_n none l r) : (⟨S60000x128, .f32⟩ : BufTy).Contents (Elt F) → (⟨S128x64, .f32⟩ : BufTy).Contents (Elt F) → (⟨S60000x64, .f32⟩ : BufTy).Contents (Elt F)),
    unary main_arg18 main_v46 (broadcastInDim S1x64 ![1] bcast_S64_S1x64_1 : (⟨S64, .f32⟩ : BufTy).Contents (Elt F) → (⟨S1x64, .f32⟩ : BufTy).Contents (Elt F)),
    unary main_v46 main_v47 (broadcastInDim S60000x64 ![0, 1] bcast_S1x64_S60000x64_0_1 : (⟨S1x64, .f32⟩ : BufTy).Contents (Elt F) → (⟨S60000x64, .f32⟩ : BufTy).Contents (Elt F)),
    binary main_v45 main_v47 main_v48 (addf : (⟨S60000x64, .f32⟩ : BufTy).Contents (Elt F) → (⟨S60000x64, .f32⟩ : BufTy).Contents (Elt F) → (⟨S60000x64, .f32⟩ : BufTy).Contents (Elt F)),
    binary main_v48 main_v13 main_v49 (addf : (⟨S60000x64, .f32⟩ : BufTy).Contents (Elt F) → (⟨S60000x64, .f32⟩ : BufTy).Contents (Elt F) → (⟨S60000x64, .f32⟩ : BufTy).Contents (Elt F)),
    binary main_v43 main_v49 main_v50 ((fun a b => concatenate S60000x192 1 [⟨S60000x128, a⟩, ⟨S60000x64, b⟩] concatenates_S60000x128_S60000x64_S60000x192_d1) : (⟨S60000x128, .f32⟩ : BufTy).Contents (Elt F) → (⟨S60000x64, .f32⟩ : BufTy).Contents (Elt F) → (⟨S60000x192, .f32⟩ : BufTy).Contents (Elt F)),
    unary main_arg25 main_v51 ((transpose S192x64 [1, 0] · transposes_S64x192_S192x64_1_0) : (⟨S64x192, .f32⟩ : BufTy).Contents (Elt F) → (⟨S192x64, .f32⟩ : BufTy).Contents (Elt F)),
    binary main_v50 main_v51 main_v52 ((fun l r => Host.dotGeneral dot_S60000x192_S192x64_S60000x64_1_0_0_1_n_n none l r) : (⟨S60000x192, .f32⟩ : BufTy).Contents (Elt F) → (⟨S192x64, .f32⟩ : BufTy).Contents (Elt F) → (⟨S60000x64, .f32⟩ : BufTy).Contents (Elt F)),
    unary main_arg26 main_v53 (broadcastInDim S1x64 ![1] bcast_S64_S1x64_1 : (⟨S64, .f32⟩ : BufTy).Contents (Elt F) → (⟨S1x64, .f32⟩ : BufTy).Contents (Elt F)),
    unary main_v53 main_v54 (broadcastInDim S60000x64 ![0, 1] bcast_S1x64_S60000x64_0_1 : (⟨S1x64, .f32⟩ : BufTy).Contents (Elt F) → (⟨S60000x64, .f32⟩ : BufTy).Contents (Elt F)),
    binary main_v52 main_v54 main_v55 (addf : (⟨S60000x64, .f32⟩ : BufTy).Contents (Elt F) → (⟨S60000x64, .f32⟩ : BufTy).Contents (Elt F) → (⟨S60000x64, .f32⟩ : BufTy).Contents (Elt F)),
    binary main_v55 main_arg14 main_v56 ((fun l r => Host.dotGeneral dot_S60000x64_S64x64_S60000x64_1_0_0_1_n_n none l r) : (⟨S60000x64, .f32⟩ : BufTy).Contents (Elt F) → (⟨S64x64, .f32⟩ : BufTy).Contents (Elt F) → (⟨S60000x64, .f32⟩ : BufTy).Contents (Elt F)),
    nullary main_c_6 (constantI S_ 32 0#32),
    unary main_c_6 main_v57 (broadcastInDim S1000000 ![] bcast_S_S1000000 : (⟨S_, .i32⟩ : BufTy).Contents (Elt F) → (⟨S1000000, .i32⟩ : BufTy).Contents (Elt F)),
    binary main_v1 main_v57 main_v58 (cmpi .slt : (⟨S1000000, .i32⟩ : BufTy).Contents (Elt F) → (⟨S1000000, .i32⟩ : BufTy).Contents (Elt F) → (⟨S1000000, .i1⟩ : BufTy).Contents (Elt F)),
    nullary main_c_7 (constantI S_ 32 60000#32),
    unary main_c_7 main_v59 (broadcastInDim S1000000 ![] bcast_S_S1000000 : (⟨S_, .i32⟩ : BufTy).Contents (Elt F) → (⟨S1000000, .i32⟩ : BufTy).Contents (Elt F)),
    binary main_v1 main_v59 main_v60 (addi : (⟨S1000000, .i32⟩ : BufTy).Contents (Elt F) → (⟨S1000000, .i32⟩ : BufTy).Contents (Elt F) → (⟨S1000000, .i32⟩ : BufTy).Contents (Elt F)),
    ternary main_v58 main_v60 main_v1 main_v61 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v61 main_v62 (broadcastInDim S1000000x1 ![0] bcast_S1000000_S1000000x1_0 : (⟨S1000000, .i32⟩ : BufTy).Contents (Elt F) → (⟨S1000000x1, .i32⟩ : BufTy).Contents (Elt F)),
    binary main_v56 main_v62 main_v63 ((fun x i => Host.gather gather_S60000x64_S1000000x1_S1000000x64_1_0_n_n_0_1_164 x i) : (⟨S60000x64, .f32⟩ : BufTy).Contents (Elt F) → (⟨S1000000x1, .i32⟩ : BufTy).Contents (Elt F) → (⟨S1000000x64, .f32⟩ : BufTy).Contents (Elt F)),
    nullary main_cst_8 (constant S_ .f32 0x00000000#32),
    unary main_cst_8 main_v64 (broadcastInDim S60000x64 ![] bcast_S_S60000x64 : (⟨S_, .f32⟩ : BufTy).Contents (Elt F) → (⟨S60000x64, .f32⟩ : BufTy).Contents (Elt F)),
    unary main_v3 main_v65 (broadcastInDim S1000000x1 ![0] bcast_S1000000_S1000000x1_0 : (⟨S1000000, .i32⟩ : BufTy).Contents (Elt F) → (⟨S1000000x1, .i32⟩ : BufTy).Contents (Elt F)),
    ternary main_v64 main_v65 main_v63 main_v66 ((fun x i u => Host.scatterAdd scatter_S60000x64_S1000000x1_S1000000x64_1_0_0_1 x i u) : (⟨S60000x64, .f32⟩ : BufTy).Contents (Elt F) → (⟨S1000000x1, .i32⟩ : BufTy).Contents (Elt F) → (⟨S1000000x64, .f32⟩ : BufTy).Contents (Elt F) → (⟨S60000x64, .f32⟩ : BufTy).Contents (Elt F)),
    unary main_v12 main_v67 (broadcastInDim S60000x64 ![0, 1] bcast_S60000x1_S60000x64_0_1 : (⟨S60000x1, .f32⟩ : BufTy).Contents (Elt F) → (⟨S60000x64, .f32⟩ : BufTy).Contents (Elt F)),
    binary main_v66 main_v67 main_v68 (mulf : (⟨S60000x64, .f32⟩ : BufTy).Contents (Elt F) → (⟨S60000x64, .f32⟩ : BufTy).Contents (Elt F) → (⟨S60000x64, .f32⟩ : BufTy).Contents (Elt F)),
    unary main_arg19 main_v69 ((transpose S64x64 [1, 0] · transposes_S64x64_S64x64_1_0) : (⟨S64x64, .f32⟩ : BufTy).Contents (Elt F) → (⟨S64x64, .f32⟩ : BufTy).Contents (Elt F)),
    binary main_v55 main_v69 main_v70 ((fun l r => Host.dotGeneral dot_S60000x64_S64x64_S60000x64_1_0_0_1_n_n none l r) : (⟨S60000x64, .f32⟩ : BufTy).Contents (Elt F) → (⟨S64x64, .f32⟩ : BufTy).Contents (Elt F) → (⟨S60000x64, .f32⟩ : BufTy).Contents (Elt F)),
    unary main_arg20 main_v71 (broadcastInDim S1x64 ![1] bcast_S64_S1x64_1 : (⟨S64, .f32⟩ : BufTy).Contents (Elt F) → (⟨S1x64, .f32⟩ : BufTy).Contents (Elt F)),
    unary main_v71 main_v72 (broadcastInDim S60000x64 ![0, 1] bcast_S1x64_S60000x64_0_1 : (⟨S1x64, .f32⟩ : BufTy).Contents (Elt F) → (⟨S60000x64, .f32⟩ : BufTy).Contents (Elt F)),
    binary main_v70 main_v72 main_v73 (addf : (⟨S60000x64, .f32⟩ : BufTy).Contents (Elt F) → (⟨S60000x64, .f32⟩ : BufTy).Contents (Elt F) → (⟨S60000x64, .f32⟩ : BufTy).Contents (Elt F)),
    binary main_v73 main_v13 main_v74 (addf : (⟨S60000x64, .f32⟩ : BufTy).Contents (Elt F) → (⟨S60000x64, .f32⟩ : BufTy).Contents (Elt F) → (⟨S60000x64, .f32⟩ : BufTy).Contents (Elt F)),
    binary main_v68 main_v74 main_v75 ((fun a b => concatenate S60000x128 1 [⟨S60000x64, a⟩, ⟨S60000x64, b⟩] concatenates_S60000x64_S60000x64_S60000x128_d1) : (⟨S60000x64, .f32⟩ : BufTy).Contents (Elt F) → (⟨S60000x64, .f32⟩ : BufTy).Contents (Elt F) → (⟨S60000x128, .f32⟩ : BufTy).Contents (Elt F)),
    unary main_arg27 main_v76 ((transpose S128x64 [1, 0] · transposes_S64x128_S128x64_1_0) : (⟨S64x128, .f32⟩ : BufTy).Contents (Elt F) → (⟨S128x64, .f32⟩ : BufTy).Contents (Elt F)),
    binary main_v75 main_v76 main_v77 ((fun l r => Host.dotGeneral dot_S60000x128_S128x64_S60000x64_1_0_0_1_n_n none l r) : (⟨S60000x128, .f32⟩ : BufTy).Contents (Elt F) → (⟨S128x64, .f32⟩ : BufTy).Contents (Elt F) → (⟨S60000x64, .f32⟩ : BufTy).Contents (Elt F)),
    unary main_arg28 main_v78 (broadcastInDim S1x64 ![1] bcast_S64_S1x64_1 : (⟨S64, .f32⟩ : BufTy).Contents (Elt F) → (⟨S1x64, .f32⟩ : BufTy).Contents (Elt F)),
    unary main_v78 main_v79 (broadcastInDim S60000x64 ![0, 1] bcast_S1x64_S60000x64_0_1 : (⟨S1x64, .f32⟩ : BufTy).Contents (Elt F) → (⟨S60000x64, .f32⟩ : BufTy).Contents (Elt F)),
    binary main_v77 main_v79 main_v80 (addf : (⟨S60000x64, .f32⟩ : BufTy).Contents (Elt F) → (⟨S60000x64, .f32⟩ : BufTy).Contents (Elt F) → (⟨S60000x64, .f32⟩ : BufTy).Contents (Elt F)),
    TRef.binary (TRef.of (T := ⟨S60000x128, .f32⟩) main_v25) (TRef.of (T := ⟨S60000x128, .f32⟩) main_v25) (TRef.of (T := ⟨S60000x128, .f32⟩) main_call1_v0) mulf,
    TRef.nullary (TRef.of (T := ⟨S_, .f32⟩) main_call1_cst) (constant S_ .f32 0x00000000#32),
    TRef.binary (TRef.of (T := ⟨S60000x128, .f32⟩) main_call1_v0) (TRef.of (T := ⟨S_, .f32⟩) main_call1_cst) (TRef.of (T := ⟨S60000, .f32⟩) main_call1_v1) (fun x v => Host.reduceAdd x v reducesTo_S60000x128_S60000_d1 h_S_),
    TRef.unary (TRef.of (T := ⟨S60000, .f32⟩) main_call1_v1) (TRef.of (T := ⟨S60000x1, .f32⟩) main_call1_v2) (broadcastInDim S60000x1 ![0] bcast_S60000_S60000x1_0),
    TRef.unary (TRef.of (T := ⟨S60000x1, .f32⟩) main_call1_v2) (TRef.of (T := ⟨S60000x1, .f32⟩) main_v81) Host.sqrt,
    nullary main_cst_9 (constant S_ .f32 0x2B8CBCCC#32),
    unary main_cst_9 main_v82 (broadcastInDim S60000x1 ![] bcast_S_S60000x1 : (⟨S_, .f32⟩ : BufTy).Contents (Elt F) → (⟨S60000x1, .f32⟩ : BufTy).Contents (Elt F)),
    binary main_v81 main_v82 main_v83 (maximumf : (⟨S60000x1, .f32⟩ : BufTy).Contents (Elt F) → (⟨S60000x1, .f32⟩ : BufTy).Contents (Elt F) → (⟨S60000x1, .f32⟩ : BufTy).Contents (Elt F)),
    unary main_v83 main_v84 (broadcastInDim S60000x128 ![0, 1] bcast_S60000x1_S60000x128_0_1 : (⟨S60000x1, .f32⟩ : BufTy).Contents (Elt F) → (⟨S60000x128, .f32⟩ : BufTy).Contents (Elt F)),
    binary main_v25 main_v84 main_v85 (Host.divf : (⟨S60000x128, .f32⟩ : BufTy).Contents (Elt F) → (⟨S60000x128, .f32⟩ : BufTy).Contents (Elt F) → (⟨S60000x128, .f32⟩ : BufTy).Contents (Elt F)),
    binary main_v85 main_arg15 main_v86 ((fun l r => Host.dotGeneral dot_S60000x128_S128x128_S60000x128_1_0_0_1_n_n none l r) : (⟨S60000x128, .f32⟩ : BufTy).Contents (Elt F) → (⟨S128x128, .f32⟩ : BufTy).Contents (Elt F) → (⟨S60000x128, .f32⟩ : BufTy).Contents (Elt F)),
    nullary main_c_10 (constantI S_ 32 0#32),
    unary main_c_10 main_v87 (broadcastInDim S1000000 ![] bcast_S_S1000000 : (⟨S_, .i32⟩ : BufTy).Contents (Elt F) → (⟨S1000000, .i32⟩ : BufTy).Contents (Elt F)),
    binary main_v1 main_v87 main_v88 (cmpi .slt : (⟨S1000000, .i32⟩ : BufTy).Contents (Elt F) → (⟨S1000000, .i32⟩ : BufTy).Contents (Elt F) → (⟨S1000000, .i1⟩ : BufTy).Contents (Elt F)),
    nullary main_c_11 (constantI S_ 32 60000#32),
    unary main_c_11 main_v89 (broadcastInDim S1000000 ![] bcast_S_S1000000 : (⟨S_, .i32⟩ : BufTy).Contents (Elt F) → (⟨S1000000, .i32⟩ : BufTy).Contents (Elt F)),
    binary main_v1 main_v89 main_v90 (addi : (⟨S1000000, .i32⟩ : BufTy).Contents (Elt F) → (⟨S1000000, .i32⟩ : BufTy).Contents (Elt F) → (⟨S1000000, .i32⟩ : BufTy).Contents (Elt F)),
    ternary main_v88 main_v90 main_v1 main_v91 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v91 main_v92 (broadcastInDim S1000000x1 ![0] bcast_S1000000_S1000000x1_0 : (⟨S1000000, .i32⟩ : BufTy).Contents (Elt F) → (⟨S1000000x1, .i32⟩ : BufTy).Contents (Elt F)),
    binary main_v86 main_v92 main_v93 ((fun x i => Host.gather gather_S60000x128_S1000000x1_S1000000x128_1_0_n_n_0_1_1128 x i) : (⟨S60000x128, .f32⟩ : BufTy).Contents (Elt F) → (⟨S1000000x1, .i32⟩ : BufTy).Contents (Elt F) → (⟨S1000000x128, .f32⟩ : BufTy).Contents (Elt F)),
    nullary main_cst_12 (constant S_ .f32 0x00000000#32),
    unary main_cst_12 main_v94 (broadcastInDim S60000x128 ![] bcast_S_S60000x128 : (⟨S_, .f32⟩ : BufTy).Contents (Elt F) → (⟨S60000x128, .f32⟩ : BufTy).Contents (Elt F)),
    unary main_v3 main_v95 (broadcastInDim S1000000x1 ![0] bcast_S1000000_S1000000x1_0 : (⟨S1000000, .i32⟩ : BufTy).Contents (Elt F) → (⟨S1000000x1, .i32⟩ : BufTy).Contents (Elt F)),
    ternary main_v94 main_v95 main_v93 main_v96 ((fun x i u => Host.scatterAdd scatter_S60000x128_S1000000x1_S1000000x128_1_0_0_1 x i u) : (⟨S60000x128, .f32⟩ : BufTy).Contents (Elt F) → (⟨S1000000x1, .i32⟩ : BufTy).Contents (Elt F) → (⟨S1000000x128, .f32⟩ : BufTy).Contents (Elt F) → (⟨S60000x128, .f32⟩ : BufTy).Contents (Elt F)),
    unary main_v12 main_v97 (broadcastInDim S60000x128 ![0, 1] bcast_S60000x1_S60000x128_0_1 : (⟨S60000x1, .f32⟩ : BufTy).Contents (Elt F) → (⟨S60000x128, .f32⟩ : BufTy).Contents (Elt F)),
    binary main_v96 main_v97 main_v98 (mulf : (⟨S60000x128, .f32⟩ : BufTy).Contents (Elt F) → (⟨S60000x128, .f32⟩ : BufTy).Contents (Elt F) → (⟨S60000x128, .f32⟩ : BufTy).Contents (Elt F)),
    unary main_arg21 main_v99 ((transpose S128x64 [1, 0] · transposes_S64x128_S128x64_1_0) : (⟨S64x128, .f32⟩ : BufTy).Contents (Elt F) → (⟨S128x64, .f32⟩ : BufTy).Contents (Elt F)),
    binary main_v85 main_v99 main_v100 ((fun l r => Host.dotGeneral dot_S60000x128_S128x64_S60000x64_1_0_0_1_n_n none l r) : (⟨S60000x128, .f32⟩ : BufTy).Contents (Elt F) → (⟨S128x64, .f32⟩ : BufTy).Contents (Elt F) → (⟨S60000x64, .f32⟩ : BufTy).Contents (Elt F)),
    unary main_arg22 main_v101 (broadcastInDim S1x64 ![1] bcast_S64_S1x64_1 : (⟨S64, .f32⟩ : BufTy).Contents (Elt F) → (⟨S1x64, .f32⟩ : BufTy).Contents (Elt F)),
    unary main_v101 main_v102 (broadcastInDim S60000x64 ![0, 1] bcast_S1x64_S60000x64_0_1 : (⟨S1x64, .f32⟩ : BufTy).Contents (Elt F) → (⟨S60000x64, .f32⟩ : BufTy).Contents (Elt F)),
    binary main_v100 main_v102 main_v103 (addf : (⟨S60000x64, .f32⟩ : BufTy).Contents (Elt F) → (⟨S60000x64, .f32⟩ : BufTy).Contents (Elt F) → (⟨S60000x64, .f32⟩ : BufTy).Contents (Elt F)),
    binary main_v103 main_v13 main_v104 (addf : (⟨S60000x64, .f32⟩ : BufTy).Contents (Elt F) → (⟨S60000x64, .f32⟩ : BufTy).Contents (Elt F) → (⟨S60000x64, .f32⟩ : BufTy).Contents (Elt F)),
    binary main_v98 main_v104 main_v105 ((fun a b => concatenate S60000x192 1 [⟨S60000x128, a⟩, ⟨S60000x64, b⟩] concatenates_S60000x128_S60000x64_S60000x192_d1) : (⟨S60000x128, .f32⟩ : BufTy).Contents (Elt F) → (⟨S60000x64, .f32⟩ : BufTy).Contents (Elt F) → (⟨S60000x192, .f32⟩ : BufTy).Contents (Elt F)),
    unary main_arg29 main_v106 ((transpose S192x64 [1, 0] · transposes_S64x192_S192x64_1_0) : (⟨S64x192, .f32⟩ : BufTy).Contents (Elt F) → (⟨S192x64, .f32⟩ : BufTy).Contents (Elt F)),
    binary main_v105 main_v106 main_v107 ((fun l r => Host.dotGeneral dot_S60000x192_S192x64_S60000x64_1_0_0_1_n_n none l r) : (⟨S60000x192, .f32⟩ : BufTy).Contents (Elt F) → (⟨S192x64, .f32⟩ : BufTy).Contents (Elt F) → (⟨S60000x64, .f32⟩ : BufTy).Contents (Elt F)),
    unary main_arg30 main_v108 (broadcastInDim S1x64 ![1] bcast_S64_S1x64_1 : (⟨S64, .f32⟩ : BufTy).Contents (Elt F) → (⟨S1x64, .f32⟩ : BufTy).Contents (Elt F)),
    unary main_v108 main_v109 (broadcastInDim S60000x64 ![0, 1] bcast_S1x64_S60000x64_0_1 : (⟨S1x64, .f32⟩ : BufTy).Contents (Elt F) → (⟨S60000x64, .f32⟩ : BufTy).Contents (Elt F)),
    binary main_v107 main_v109 main_v110 (addf : (⟨S60000x64, .f32⟩ : BufTy).Contents (Elt F) → (⟨S60000x64, .f32⟩ : BufTy).Contents (Elt F) → (⟨S60000x64, .f32⟩ : BufTy).Contents (Elt F)),
    binary main_v110 main_arg16 main_v111 ((fun l r => Host.dotGeneral dot_S60000x64_S64x64_S60000x64_1_0_0_1_n_n none l r) : (⟨S60000x64, .f32⟩ : BufTy).Contents (Elt F) → (⟨S64x64, .f32⟩ : BufTy).Contents (Elt F) → (⟨S60000x64, .f32⟩ : BufTy).Contents (Elt F)),
    nullary main_c_13 (constantI S_ 32 0#32),
    unary main_c_13 main_v112 (broadcastInDim S1000000 ![] bcast_S_S1000000 : (⟨S_, .i32⟩ : BufTy).Contents (Elt F) → (⟨S1000000, .i32⟩ : BufTy).Contents (Elt F)),
    binary main_v1 main_v112 main_v113 (cmpi .slt : (⟨S1000000, .i32⟩ : BufTy).Contents (Elt F) → (⟨S1000000, .i32⟩ : BufTy).Contents (Elt F) → (⟨S1000000, .i1⟩ : BufTy).Contents (Elt F)),
    nullary main_c_14 (constantI S_ 32 60000#32),
    unary main_c_14 main_v114 (broadcastInDim S1000000 ![] bcast_S_S1000000 : (⟨S_, .i32⟩ : BufTy).Contents (Elt F) → (⟨S1000000, .i32⟩ : BufTy).Contents (Elt F)),
    binary main_v1 main_v114 main_v115 (addi : (⟨S1000000, .i32⟩ : BufTy).Contents (Elt F) → (⟨S1000000, .i32⟩ : BufTy).Contents (Elt F) → (⟨S1000000, .i32⟩ : BufTy).Contents (Elt F)),
    ternary main_v113 main_v115 main_v1 main_v116 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v116 main_v117 (broadcastInDim S1000000x1 ![0] bcast_S1000000_S1000000x1_0 : (⟨S1000000, .i32⟩ : BufTy).Contents (Elt F) → (⟨S1000000x1, .i32⟩ : BufTy).Contents (Elt F)),
    binary main_v111 main_v117 main_v118 ((fun x i => Host.gather gather_S60000x64_S1000000x1_S1000000x64_1_0_n_n_0_1_164 x i) : (⟨S60000x64, .f32⟩ : BufTy).Contents (Elt F) → (⟨S1000000x1, .i32⟩ : BufTy).Contents (Elt F) → (⟨S1000000x64, .f32⟩ : BufTy).Contents (Elt F)),
    nullary main_cst_15 (constant S_ .f32 0x00000000#32),
    unary main_cst_15 main_v119 (broadcastInDim S60000x64 ![] bcast_S_S60000x64 : (⟨S_, .f32⟩ : BufTy).Contents (Elt F) → (⟨S60000x64, .f32⟩ : BufTy).Contents (Elt F)),
    unary main_v3 main_v120 (broadcastInDim S1000000x1 ![0] bcast_S1000000_S1000000x1_0 : (⟨S1000000, .i32⟩ : BufTy).Contents (Elt F) → (⟨S1000000x1, .i32⟩ : BufTy).Contents (Elt F)),
    ternary main_v119 main_v120 main_v118 main_v121 ((fun x i u => Host.scatterAdd scatter_S60000x64_S1000000x1_S1000000x64_1_0_0_1 x i u) : (⟨S60000x64, .f32⟩ : BufTy).Contents (Elt F) → (⟨S1000000x1, .i32⟩ : BufTy).Contents (Elt F) → (⟨S1000000x64, .f32⟩ : BufTy).Contents (Elt F) → (⟨S60000x64, .f32⟩ : BufTy).Contents (Elt F)),
    unary main_v12 main_v122 (broadcastInDim S60000x64 ![0, 1] bcast_S60000x1_S60000x64_0_1 : (⟨S60000x1, .f32⟩ : BufTy).Contents (Elt F) → (⟨S60000x64, .f32⟩ : BufTy).Contents (Elt F)),
    binary main_v121 main_v122 main_v123 (mulf : (⟨S60000x64, .f32⟩ : BufTy).Contents (Elt F) → (⟨S60000x64, .f32⟩ : BufTy).Contents (Elt F) → (⟨S60000x64, .f32⟩ : BufTy).Contents (Elt F)),
    unary main_arg23 main_v124 ((transpose S64x64 [1, 0] · transposes_S64x64_S64x64_1_0) : (⟨S64x64, .f32⟩ : BufTy).Contents (Elt F) → (⟨S64x64, .f32⟩ : BufTy).Contents (Elt F)),
    binary main_v110 main_v124 main_v125 ((fun l r => Host.dotGeneral dot_S60000x64_S64x64_S60000x64_1_0_0_1_n_n none l r) : (⟨S60000x64, .f32⟩ : BufTy).Contents (Elt F) → (⟨S64x64, .f32⟩ : BufTy).Contents (Elt F) → (⟨S60000x64, .f32⟩ : BufTy).Contents (Elt F)),
    unary main_arg24 main_v126 (broadcastInDim S1x64 ![1] bcast_S64_S1x64_1 : (⟨S64, .f32⟩ : BufTy).Contents (Elt F) → (⟨S1x64, .f32⟩ : BufTy).Contents (Elt F)),
    unary main_v126 main_v127 (broadcastInDim S60000x64 ![0, 1] bcast_S1x64_S60000x64_0_1 : (⟨S1x64, .f32⟩ : BufTy).Contents (Elt F) → (⟨S60000x64, .f32⟩ : BufTy).Contents (Elt F)),
    binary main_v125 main_v127 main_v128 (addf : (⟨S60000x64, .f32⟩ : BufTy).Contents (Elt F) → (⟨S60000x64, .f32⟩ : BufTy).Contents (Elt F) → (⟨S60000x64, .f32⟩ : BufTy).Contents (Elt F)),
    binary main_v128 main_v13 main_v129 (addf : (⟨S60000x64, .f32⟩ : BufTy).Contents (Elt F) → (⟨S60000x64, .f32⟩ : BufTy).Contents (Elt F) → (⟨S60000x64, .f32⟩ : BufTy).Contents (Elt F)),
    binary main_v123 main_v129 main_v130 ((fun a b => concatenate S60000x128 1 [⟨S60000x64, a⟩, ⟨S60000x64, b⟩] concatenates_S60000x64_S60000x64_S60000x128_d1) : (⟨S60000x64, .f32⟩ : BufTy).Contents (Elt F) → (⟨S60000x64, .f32⟩ : BufTy).Contents (Elt F) → (⟨S60000x128, .f32⟩ : BufTy).Contents (Elt F)),
    unary main_arg31 main_v131 ((transpose S128x64 [1, 0] · transposes_S64x128_S128x64_1_0) : (⟨S64x128, .f32⟩ : BufTy).Contents (Elt F) → (⟨S128x64, .f32⟩ : BufTy).Contents (Elt F)),
    binary main_v130 main_v131 main_v132 ((fun l r => Host.dotGeneral dot_S60000x128_S128x64_S60000x64_1_0_0_1_n_n none l r) : (⟨S60000x128, .f32⟩ : BufTy).Contents (Elt F) → (⟨S128x64, .f32⟩ : BufTy).Contents (Elt F) → (⟨S60000x64, .f32⟩ : BufTy).Contents (Elt F)),
    unary main_arg32 main_v133 (broadcastInDim S1x64 ![1] bcast_S64_S1x64_1 : (⟨S64, .f32⟩ : BufTy).Contents (Elt F) → (⟨S1x64, .f32⟩ : BufTy).Contents (Elt F)),
    unary main_v133 main_v134 (broadcastInDim S60000x64 ![0, 1] bcast_S1x64_S60000x64_0_1 : (⟨S1x64, .f32⟩ : BufTy).Contents (Elt F) → (⟨S60000x64, .f32⟩ : BufTy).Contents (Elt F)),
    binary main_v132 main_v134 main_v135 (addf : (⟨S60000x64, .f32⟩ : BufTy).Contents (Elt F) → (⟨S60000x64, .f32⟩ : BufTy).Contents (Elt F) → (⟨S60000x64, .f32⟩ : BufTy).Contents (Elt F)),
    binary main_v80 main_v135 main_v136 (addf : (⟨S60000x64, .f32⟩ : BufTy).Contents (Elt F) → (⟨S60000x64, .f32⟩ : BufTy).Contents (Elt F) → (⟨S60000x64, .f32⟩ : BufTy).Contents (Elt F)),
    nullary main_cst_16 (constant S_ .f32 0x40000000#32),
    unary main_cst_16 main_v137 (broadcastInDim S60000x64 ![] bcast_S_S60000x64 : (⟨S_, .f32⟩ : BufTy).Contents (Elt F) → (⟨S60000x64, .f32⟩ : BufTy).Contents (Elt F)),
    binary main_v136 main_v137 main_v138 (Host.divf : (⟨S60000x64, .f32⟩ : BufTy).Contents (Elt F) → (⟨S60000x64, .f32⟩ : BufTy).Contents (Elt F) → (⟨S60000x64, .f32⟩ : BufTy).Contents (Elt F)),
    unary main_v138 main_v139 ((extractStridedSlice S20000x64 ![0, 0] · slices_S60000x64_S20000x64_0_0) : (⟨S60000x64, .f32⟩ : BufTy).Contents (Elt F) → (⟨S20000x64, .f32⟩ : BufTy).Contents (Elt F)),
    unary main_v138 main_v140 ((extractStridedSlice S40000x64 ![20000, 0] · slices_S60000x64_S40000x64_20000_0) : (⟨S60000x64, .f32⟩ : BufTy).Contents (Elt F) → (⟨S40000x64, .f32⟩ : BufTy).Contents (Elt F)),
    nullary main_c_17 (constantI S_ 32 0#32),
    unary main_c_17 main_v141 (broadcastInDim S8192 ![] bcast_S_S8192 : (⟨S_, .i32⟩ : BufTy).Contents (Elt F) → (⟨S8192, .i32⟩ : BufTy).Contents (Elt F)),
    binary main_arg1 main_v141 main_v142 (cmpi .slt : (⟨S8192, .i32⟩ : BufTy).Contents (Elt F) → (⟨S8192, .i32⟩ : BufTy).Contents (Elt F) → (⟨S8192, .i1⟩ : BufTy).Contents (Elt F)),
    nullary main_c_18 (constantI S_ 32 20000#32),
    unary main_c_18 main_v143 (broadcastInDim S8192 ![] bcast_S_S8192 : (⟨S_, .i32⟩ : BufTy).Contents (Elt F) → (⟨S8192, .i32⟩ : BufTy).Contents (Elt F)),
    binary main_arg1 main_v143 main_v144 (addi : (⟨S8192, .i32⟩ : BufTy).Contents (Elt F) → (⟨S8192, .i32⟩ : BufTy).Contents (Elt F) → (⟨S8192, .i32⟩ : BufTy).Contents (Elt F)),
    ternary main_v142 main_v144 main_arg1 main_v145 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v145 main_v146 (broadcastInDim S8192x1 ![0] bcast_S8192_S8192x1_0 : (⟨S8192, .i32⟩ : BufTy).Contents (Elt F) → (⟨S8192x1, .i32⟩ : BufTy).Contents (Elt F)),
    binary main_v139 main_v146 main_v147 ((fun x i => Host.gather gather_S20000x64_S8192x1_S8192x64_1_0_n_n_0_1_164 x i) : (⟨S20000x64, .f32⟩ : BufTy).Contents (Elt F) → (⟨S8192x1, .i32⟩ : BufTy).Contents (Elt F) → (⟨S8192x64, .f32⟩ : BufTy).Contents (Elt F)),
    nullary main_c_19 (constantI S_ 32 0#32),
    unary main_c_19 main_v148 (broadcastInDim S8192 ![] bcast_S_S8192 : (⟨S_, .i32⟩ : BufTy).Contents (Elt F) → (⟨S8192, .i32⟩ : BufTy).Contents (Elt F)),
    binary main_arg2 main_v148 main_v149 (cmpi .slt : (⟨S8192, .i32⟩ : BufTy).Contents (Elt F) → (⟨S8192, .i32⟩ : BufTy).Contents (Elt F) → (⟨S8192, .i1⟩ : BufTy).Contents (Elt F)),
    nullary main_c_20 (constantI S_ 32 40000#32),
    unary main_c_20 main_v150 (broadcastInDim S8192 ![] bcast_S_S8192 : (⟨S_, .i32⟩ : BufTy).Contents (Elt F) → (⟨S8192, .i32⟩ : BufTy).Contents (Elt F)),
    binary main_arg2 main_v150 main_v151 (addi : (⟨S8192, .i32⟩ : BufTy).Contents (Elt F) → (⟨S8192, .i32⟩ : BufTy).Contents (Elt F) → (⟨S8192, .i32⟩ : BufTy).Contents (Elt F)),
    ternary main_v149 main_v151 main_arg2 main_v152 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v152 main_v153 (broadcastInDim S8192x1 ![0] bcast_S8192_S8192x1_0 : (⟨S8192, .i32⟩ : BufTy).Contents (Elt F) → (⟨S8192x1, .i32⟩ : BufTy).Contents (Elt F)),
    binary main_v140 main_v153 main_v154 ((fun x i => Host.gather gather_S40000x64_S8192x1_S8192x64_1_0_n_n_0_1_164 x i) : (⟨S40000x64, .f32⟩ : BufTy).Contents (Elt F) → (⟨S8192x1, .i32⟩ : BufTy).Contents (Elt F) → (⟨S8192x64, .f32⟩ : BufTy).Contents (Elt F)),
    binary main_v147 main_v154 main_v155 (mulf : (⟨S8192x64, .f32⟩ : BufTy).Contents (Elt F) → (⟨S8192x64, .f32⟩ : BufTy).Contents (Elt F) → (⟨S8192x64, .f32⟩ : BufTy).Contents (Elt F)),
    nullary main_cst_21 (constant S_ .f32 0x00000000#32),
    binary main_v155 main_cst_21 main_v156 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)) ]

/-- Stretch 1 of the operations. -/
abbrev c1 : List (HloOp τ sig (Elt F)) :=
  [ unary main_arg0 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg0 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    nullary main_cst (constant S_ .f32 0x3F800000#32),
    unary main_cst main_v4 (broadcastInDim S1000000 ![] bcast_S_S1000000 : (⟨S_, .f32⟩ : BufTy).Contents (Elt F) → (⟨S1000000, .f32⟩ : BufTy).Contents (Elt F)),
    nullary main_cst_0 (constant S_ .f32 0x00000000#32),
    unary main_cst_0 main_v5 (broadcastInDim S60000 ![] bcast_S_S60000 : (⟨S_, .f32⟩ : BufTy).Contents (Elt F) → (⟨S60000, .f32⟩ : BufTy).Contents (Elt F)),
    unary main_v3 main_v6 (broadcastInDim S1000000x1 ![0] bcast_S1000000_S1000000x1_0 : (⟨S1000000, .i32⟩ : BufTy).Contents (Elt F) → (⟨S1000000x1, .i32⟩ : BufTy).Contents (Elt F)),
    ternary main_v5 main_v6 main_v4 main_v7 ((fun x i u => Host.scatterAdd scatter_S60000_S1000000x1_S1000000_n_0_0_1 x i u) : (⟨S60000, .f32⟩ : BufTy).Contents (Elt F) → (⟨S1000000x1, .i32⟩ : BufTy).Contents (Elt F) → (⟨S1000000, .f32⟩ : BufTy).Contents (Elt F) → (⟨S60000, .f32⟩ : BufTy).Contents (Elt F)),
    nullary main_cst_1 (constant S_ .f32 0x3F800000#32),
    unary main_cst_1 main_v8 (broadcastInDim S60000 ![] bcast_S_S60000 : (⟨S_, .f32⟩ : BufTy).Contents (Elt F) → (⟨S60000, .f32⟩ : BufTy).Contents (Elt F)),
    binary main_v7 main_v8 main_v9 (maximumf : (⟨S60000, .f32⟩ : BufTy).Contents (Elt F) → (⟨S60000, .f32⟩ : BufTy).Contents (Elt F) → (⟨S60000, .f32⟩ : BufTy).Contents (Elt F)),
    nullary main_cst_2 (constant S_ .f32 0x3F800000#32),
    unary main_cst_2 main_v10 (broadcastInDim S60000 ![] bcast_S_S60000 : (⟨S_, .f32⟩ : BufTy).Contents (Elt F) → (⟨S60000, .f32⟩ : BufTy).Contents (Elt F)),
    binary main_v10 main_v9 main_v11 (Host.divf : (⟨S60000, .f32⟩ : BufTy).Contents (Elt F) → (⟨S60000, .f32⟩ : BufTy).Contents (Elt F) → (⟨S60000, .f32⟩ : BufTy).Contents (Elt F)),
    unary main_v11 main_v12 (broadcastInDim S60000x1 ![0] bcast_S60000_S60000x1_0 : (⟨S60000, .f32⟩ : BufTy).Contents (Elt F) → (⟨S60000x1, .f32⟩ : BufTy).Contents (Elt F)),
    binary main_arg3 main_arg4 main_v13 ((fun a b => concatenate S60000x64 0 [⟨S20000x64, a⟩, ⟨S40000x64, b⟩] concatenates_S20000x64_S40000x64_S60000x64_d0) : (⟨S20000x64, .f32⟩ : BufTy).Contents (Elt F) → (⟨S40000x64, .f32⟩ : BufTy).Contents (Elt F) → (⟨S60000x64, .f32⟩ : BufTy).Contents (Elt F)),
    unary main_arg9 main_v14 ((transpose S2048x128 [1, 0] · transposes_S128x2048_S2048x128_1_0) : (⟨S128x2048, .f32⟩ : BufTy).Contents (Elt F) → (⟨S2048x128, .f32⟩ : BufTy).Contents (Elt F)),
    binary main_arg7 main_v14 main_v15 ((fun l r => Host.dotGeneral dot_S40000x2048_S2048x128_S40000x128_1_0_0_1_n_n none l r) : (⟨S40000x2048, .f32⟩ : BufTy).Contents (Elt F) → (⟨S2048x128, .f32⟩ : BufTy).Contents (Elt F) → (⟨S40000x128, .f32⟩ : BufTy).Contents (Elt F)),
    unary main_arg10 main_v16 (broadcastInDim S1x128 ![1] bcast_S128_S1x128_1 : (⟨S128, .f32⟩ : BufTy).Contents (Elt F) → (⟨S1x128, .f32⟩ : BufTy).Contents (Elt F)),
    unary main_v16 main_v17 (broadcastInDim S40000x128 ![0, 1] bcast_S1x128_S40000x128_0_1 : (⟨S1x128, .f32⟩ : BufTy).Contents (Elt F) → (⟨S40000x128, .f32⟩ : BufTy).Contents (Elt F)),
    binary main_v15 main_v17 main_v18 (addf : (⟨S40000x128, .f32⟩ : BufTy).Contents (Elt F) → (⟨S40000x128, .f32⟩ : BufTy).Contents (Elt F) → (⟨S40000x128, .f32⟩ : BufTy).Contents (Elt F)),
    binary main_arg5 main_v18 main_v19 ((fun a b => concatenate S60000x128 0 [⟨S20000x128, a⟩, ⟨S40000x128, b⟩] concatenates_S20000x128_S40000x128_S60000x128_d0) : (⟨S20000x128, .f32⟩ : BufTy).Contents (Elt F) → (⟨S40000x128, .f32⟩ : BufTy).Contents (Elt F) → (⟨S60000x128, .f32⟩ : BufTy).Contents (Elt F)) ]

/-- Stretch 2 of the operations. -/
abbrev c2 : List (HloOp τ sig (Elt F)) :=
  [ unary main_arg11 main_v20 ((transpose S768x128 [1, 0] · transposes_S128x768_S768x128_1_0) : (⟨S128x768, .f32⟩ : BufTy).Contents (Elt F) → (⟨S768x128, .f32⟩ : BufTy).Contents (Elt F)),
    binary main_arg8 main_v20 main_v21 ((fun l r => Host.dotGeneral dot_S40000x768_S768x128_S40000x128_1_0_0_1_n_n none l r) : (⟨S40000x768, .f32⟩ : BufTy).Contents (Elt F) → (⟨S768x128, .f32⟩ : BufTy).Contents (Elt F) → (⟨S40000x128, .f32⟩ : BufTy).Contents (Elt F)),
    unary main_arg12 main_v22 (broadcastInDim S1x128 ![1] bcast_S128_S1x128_1 : (⟨S128, .f32⟩ : BufTy).Contents (Elt F) → (⟨S1x128, .f32⟩ : BufTy).Contents (Elt F)),
    unary main_v22 main_v23 (broadcastInDim S40000x128 ![0, 1] bcast_S1x128_S40000x128_0_1 : (⟨S1x128, .f32⟩ : BufTy).Contents (Elt F) → (⟨S40000x128, .f32⟩ : BufTy).Contents (Elt F)),
    binary main_v21 main_v23 main_v24 (addf : (⟨S40000x128, .f32⟩ : BufTy).Contents (Elt F) → (⟨S40000x128, .f32⟩ : BufTy).Contents (Elt F) → (⟨S40000x128, .f32⟩ : BufTy).Contents (Elt F)),
    binary main_arg6 main_v24 main_v25 ((fun a b => concatenate S60000x128 0 [⟨S20000x128, a⟩, ⟨S40000x128, b⟩] concatenates_S20000x128_S40000x128_S60000x128_d0) : (⟨S20000x128, .f32⟩ : BufTy).Contents (Elt F) → (⟨S40000x128, .f32⟩ : BufTy).Contents (Elt F) → (⟨S60000x128, .f32⟩ : BufTy).Contents (Elt F)),
    TRef.binary (TRef.of (T := ⟨S60000x128, .f32⟩) main_v19) (TRef.of (T := ⟨S60000x128, .f32⟩) main_v19) (TRef.of (T := ⟨S60000x128, .f32⟩) main_call0_v0) mulf,
    TRef.nullary (TRef.of (T := ⟨S_, .f32⟩) main_call0_cst) (constant S_ .f32 0x00000000#32),
    TRef.binary (TRef.of (T := ⟨S60000x128, .f32⟩) main_call0_v0) (TRef.of (T := ⟨S_, .f32⟩) main_call0_cst) (TRef.of (T := ⟨S60000, .f32⟩) main_call0_v1) (fun x v => Host.reduceAdd x v reducesTo_S60000x128_S60000_d1 h_S_),
    TRef.unary (TRef.of (T := ⟨S60000, .f32⟩) main_call0_v1) (TRef.of (T := ⟨S60000x1, .f32⟩) main_call0_v2) (broadcastInDim S60000x1 ![0] bcast_S60000_S60000x1_0),
    TRef.unary (TRef.of (T := ⟨S60000x1, .f32⟩) main_call0_v2) (TRef.of (T := ⟨S60000x1, .f32⟩) main_v26) Host.sqrt,
    nullary main_cst_3 (constant S_ .f32 0x2B8CBCCC#32),
    unary main_cst_3 main_v27 (broadcastInDim S60000x1 ![] bcast_S_S60000x1 : (⟨S_, .f32⟩ : BufTy).Contents (Elt F) → (⟨S60000x1, .f32⟩ : BufTy).Contents (Elt F)),
    binary main_v26 main_v27 main_v28 (maximumf : (⟨S60000x1, .f32⟩ : BufTy).Contents (Elt F) → (⟨S60000x1, .f32⟩ : BufTy).Contents (Elt F) → (⟨S60000x1, .f32⟩ : BufTy).Contents (Elt F)),
    unary main_v28 main_v29 (broadcastInDim S60000x128 ![0, 1] bcast_S60000x1_S60000x128_0_1 : (⟨S60000x1, .f32⟩ : BufTy).Contents (Elt F) → (⟨S60000x128, .f32⟩ : BufTy).Contents (Elt F)),
    binary main_v19 main_v29 main_v30 (Host.divf : (⟨S60000x128, .f32⟩ : BufTy).Contents (Elt F) → (⟨S60000x128, .f32⟩ : BufTy).Contents (Elt F) → (⟨S60000x128, .f32⟩ : BufTy).Contents (Elt F)),
    binary main_v30 main_arg13 main_v31 ((fun l r => Host.dotGeneral dot_S60000x128_S128x128_S60000x128_1_0_0_1_n_n none l r) : (⟨S60000x128, .f32⟩ : BufTy).Contents (Elt F) → (⟨S128x128, .f32⟩ : BufTy).Contents (Elt F) → (⟨S60000x128, .f32⟩ : BufTy).Contents (Elt F)),
    nullary main_c (constantI S_ 32 0#32),
    unary main_c main_v32 (broadcastInDim S1000000 ![] bcast_S_S1000000 : (⟨S_, .i32⟩ : BufTy).Contents (Elt F) → (⟨S1000000, .i32⟩ : BufTy).Contents (Elt F)),
    binary main_v1 main_v32 main_v33 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 60000#32),
    unary main_c_4 main_v34 (broadcastInDim S1000000 ![] bcast_S_S1000000 : (⟨S_, .i32⟩ : BufTy).Contents (Elt F) → (⟨S1000000, .i32⟩ : BufTy).Contents (Elt F)),
    binary main_v1 main_v34 main_v35 (addi : (⟨S1000000, .i32⟩ : BufTy).Contents (Elt F) → (⟨S1000000, .i32⟩ : BufTy).Contents (Elt F) → (⟨S1000000, .i32⟩ : BufTy).Contents (Elt F)),
    ternary main_v33 main_v35 main_v1 main_v36 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ]

/-- Stretch 3 of the operations. -/
abbrev c3 : List (HloOp τ sig (Elt F)) :=
  [ unary main_v36 main_v37 (broadcastInDim S1000000x1 ![0] bcast_S1000000_S1000000x1_0 : (⟨S1000000, .i32⟩ : BufTy).Contents (Elt F) → (⟨S1000000x1, .i32⟩ : BufTy).Contents (Elt F)),
    binary main_v31 main_v37 main_v38 ((fun x i => Host.gather gather_S60000x128_S1000000x1_S1000000x128_1_0_n_n_0_1_1128 x i) : (⟨S60000x128, .f32⟩ : BufTy).Contents (Elt F) → (⟨S1000000x1, .i32⟩ : BufTy).Contents (Elt F) → (⟨S1000000x128, .f32⟩ : BufTy).Contents (Elt F)),
    nullary main_cst_5 (constant S_ .f32 0x00000000#32),
    unary main_cst_5 main_v39 (broadcastInDim S60000x128 ![] bcast_S_S60000x128 : (⟨S_, .f32⟩ : BufTy).Contents (Elt F) → (⟨S60000x128, .f32⟩ : BufTy).Contents (Elt F)),
    unary main_v3 main_v40 (broadcastInDim S1000000x1 ![0] bcast_S1000000_S1000000x1_0 : (⟨S1000000, .i32⟩ : BufTy).Contents (Elt F) → (⟨S1000000x1, .i32⟩ : BufTy).Contents (Elt F)),
    ternary main_v39 main_v40 main_v38 main_v41 ((fun x i u => Host.scatterAdd scatter_S60000x128_S1000000x1_S1000000x128_1_0_0_1 x i u) : (⟨S60000x128, .f32⟩ : BufTy).Contents (Elt F) → (⟨S1000000x1, .i32⟩ : BufTy).Contents (Elt F) → (⟨S1000000x128, .f32⟩ : BufTy).Contents (Elt F) → (⟨S60000x128, .f32⟩ : BufTy).Contents (Elt F)),
    unary main_v12 main_v42 (broadcastInDim S60000x128 ![0, 1] bcast_S60000x1_S60000x128_0_1 : (⟨S60000x1, .f32⟩ : BufTy).Contents (Elt F) → (⟨S60000x128, .f32⟩ : BufTy).Contents (Elt F)),
    binary main_v41 main_v42 main_v43 (mulf : (⟨S60000x128, .f32⟩ : BufTy).Contents (Elt F) → (⟨S60000x128, .f32⟩ : BufTy).Contents (Elt F) → (⟨S60000x128, .f32⟩ : BufTy).Contents (Elt F)),
    unary main_arg17 main_v44 ((transpose S128x64 [1, 0] · transposes_S64x128_S128x64_1_0) : (⟨S64x128, .f32⟩ : BufTy).Contents (Elt F) → (⟨S128x64, .f32⟩ : BufTy).Contents (Elt F)),
    binary main_v30 main_v44 main_v45 ((fun l r => Host.dotGeneral dot_S60000x128_S128x64_S60000x64_1_0_0_1_n_n none l r) : (⟨S60000x128, .f32⟩ : BufTy).Contents (Elt F) → (⟨S128x64, .f32⟩ : BufTy).Contents (Elt F) → (⟨S60000x64, .f32⟩ : BufTy).Contents (Elt F)),
    unary main_arg18 main_v46 (broadcastInDim S1x64 ![1] bcast_S64_S1x64_1 : (⟨S64, .f32⟩ : BufTy).Contents (Elt F) → (⟨S1x64, .f32⟩ : BufTy).Contents (Elt F)),
    unary main_v46 main_v47 (broadcastInDim S60000x64 ![0, 1] bcast_S1x64_S60000x64_0_1 : (⟨S1x64, .f32⟩ : BufTy).Contents (Elt F) → (⟨S60000x64, .f32⟩ : BufTy).Contents (Elt F)),
    binary main_v45 main_v47 main_v48 (addf : (⟨S60000x64, .f32⟩ : BufTy).Contents (Elt F) → (⟨S60000x64, .f32⟩ : BufTy).Contents (Elt F) → (⟨S60000x64, .f32⟩ : BufTy).Contents (Elt F)),
    binary main_v48 main_v13 main_v49 (addf : (⟨S60000x64, .f32⟩ : BufTy).Contents (Elt F) → (⟨S60000x64, .f32⟩ : BufTy).Contents (Elt F) → (⟨S60000x64, .f32⟩ : BufTy).Contents (Elt F)),
    binary main_v43 main_v49 main_v50 ((fun a b => concatenate S60000x192 1 [⟨S60000x128, a⟩, ⟨S60000x64, b⟩] concatenates_S60000x128_S60000x64_S60000x192_d1) : (⟨S60000x128, .f32⟩ : BufTy).Contents (Elt F) → (⟨S60000x64, .f32⟩ : BufTy).Contents (Elt F) → (⟨S60000x192, .f32⟩ : BufTy).Contents (Elt F)),
    unary main_arg25 main_v51 ((transpose S192x64 [1, 0] · transposes_S64x192_S192x64_1_0) : (⟨S64x192, .f32⟩ : BufTy).Contents (Elt F) → (⟨S192x64, .f32⟩ : BufTy).Contents (Elt F)),
    binary main_v50 main_v51 main_v52 ((fun l r => Host.dotGeneral dot_S60000x192_S192x64_S60000x64_1_0_0_1_n_n none l r) : (⟨S60000x192, .f32⟩ : BufTy).Contents (Elt F) → (⟨S192x64, .f32⟩ : BufTy).Contents (Elt F) → (⟨S60000x64, .f32⟩ : BufTy).Contents (Elt F)),
    unary main_arg26 main_v53 (broadcastInDim S1x64 ![1] bcast_S64_S1x64_1 : (⟨S64, .f32⟩ : BufTy).Contents (Elt F) → (⟨S1x64, .f32⟩ : BufTy).Contents (Elt F)),
    unary main_v53 main_v54 (broadcastInDim S60000x64 ![0, 1] bcast_S1x64_S60000x64_0_1 : (⟨S1x64, .f32⟩ : BufTy).Contents (Elt F) → (⟨S60000x64, .f32⟩ : BufTy).Contents (Elt F)),
    binary main_v52 main_v54 main_v55 (addf : (⟨S60000x64, .f32⟩ : BufTy).Contents (Elt F) → (⟨S60000x64, .f32⟩ : BufTy).Contents (Elt F) → (⟨S60000x64, .f32⟩ : BufTy).Contents (Elt F)),
    binary main_v55 main_arg14 main_v56 ((fun l r => Host.dotGeneral dot_S60000x64_S64x64_S60000x64_1_0_0_1_n_n none l r) : (⟨S60000x64, .f32⟩ : BufTy).Contents (Elt F) → (⟨S64x64, .f32⟩ : BufTy).Contents (Elt F) → (⟨S60000x64, .f32⟩ : BufTy).Contents (Elt F)),
    nullary main_c_6 (constantI S_ 32 0#32),
    unary main_c_6 main_v57 (broadcastInDim S1000000 ![] bcast_S_S1000000 : (⟨S_, .i32⟩ : BufTy).Contents (Elt F) → (⟨S1000000, .i32⟩ : BufTy).Contents (Elt F)),
    binary main_v1 main_v57 main_v58 (cmpi .slt : (⟨S1000000, .i32⟩ : BufTy).Contents (Elt F) → (⟨S1000000, .i32⟩ : BufTy).Contents (Elt F) → (⟨S1000000, .i1⟩ : BufTy).Contents (Elt F)) ]

/-- Stretch 4 of the operations. -/
abbrev c4 : List (HloOp τ sig (Elt F)) :=
  [ nullary main_c_7 (constantI S_ 32 60000#32),
    unary main_c_7 main_v59 (broadcastInDim S1000000 ![] bcast_S_S1000000 : (⟨S_, .i32⟩ : BufTy).Contents (Elt F) → (⟨S1000000, .i32⟩ : BufTy).Contents (Elt F)),
    binary main_v1 main_v59 main_v60 (addi : (⟨S1000000, .i32⟩ : BufTy).Contents (Elt F) → (⟨S1000000, .i32⟩ : BufTy).Contents (Elt F) → (⟨S1000000, .i32⟩ : BufTy).Contents (Elt F)),
    ternary main_v58 main_v60 main_v1 main_v61 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v61 main_v62 (broadcastInDim S1000000x1 ![0] bcast_S1000000_S1000000x1_0 : (⟨S1000000, .i32⟩ : BufTy).Contents (Elt F) → (⟨S1000000x1, .i32⟩ : BufTy).Contents (Elt F)),
    binary main_v56 main_v62 main_v63 ((fun x i => Host.gather gather_S60000x64_S1000000x1_S1000000x64_1_0_n_n_0_1_164 x i) : (⟨S60000x64, .f32⟩ : BufTy).Contents (Elt F) → (⟨S1000000x1, .i32⟩ : BufTy).Contents (Elt F) → (⟨S1000000x64, .f32⟩ : BufTy).Contents (Elt F)),
    nullary main_cst_8 (constant S_ .f32 0x00000000#32),
    unary main_cst_8 main_v64 (broadcastInDim S60000x64 ![] bcast_S_S60000x64 : (⟨S_, .f32⟩ : BufTy).Contents (Elt F) → (⟨S60000x64, .f32⟩ : BufTy).Contents (Elt F)),
    unary main_v3 main_v65 (broadcastInDim S1000000x1 ![0] bcast_S1000000_S1000000x1_0 : (⟨S1000000, .i32⟩ : BufTy).Contents (Elt F) → (⟨S1000000x1, .i32⟩ : BufTy).Contents (Elt F)),
    ternary main_v64 main_v65 main_v63 main_v66 ((fun x i u => Host.scatterAdd scatter_S60000x64_S1000000x1_S1000000x64_1_0_0_1 x i u) : (⟨S60000x64, .f32⟩ : BufTy).Contents (Elt F) → (⟨S1000000x1, .i32⟩ : BufTy).Contents (Elt F) → (⟨S1000000x64, .f32⟩ : BufTy).Contents (Elt F) → (⟨S60000x64, .f32⟩ : BufTy).Contents (Elt F)),
    unary main_v12 main_v67 (broadcastInDim S60000x64 ![0, 1] bcast_S60000x1_S60000x64_0_1 : (⟨S60000x1, .f32⟩ : BufTy).Contents (Elt F) → (⟨S60000x64, .f32⟩ : BufTy).Contents (Elt F)),
    binary main_v66 main_v67 main_v68 (mulf : (⟨S60000x64, .f32⟩ : BufTy).Contents (Elt F) → (⟨S60000x64, .f32⟩ : BufTy).Contents (Elt F) → (⟨S60000x64, .f32⟩ : BufTy).Contents (Elt F)),
    unary main_arg19 main_v69 ((transpose S64x64 [1, 0] · transposes_S64x64_S64x64_1_0) : (⟨S64x64, .f32⟩ : BufTy).Contents (Elt F) → (⟨S64x64, .f32⟩ : BufTy).Contents (Elt F)),
    binary main_v55 main_v69 main_v70 ((fun l r => Host.dotGeneral dot_S60000x64_S64x64_S60000x64_1_0_0_1_n_n none l r) : (⟨S60000x64, .f32⟩ : BufTy).Contents (Elt F) → (⟨S64x64, .f32⟩ : BufTy).Contents (Elt F) → (⟨S60000x64, .f32⟩ : BufTy).Contents (Elt F)),
    unary main_arg20 main_v71 (broadcastInDim S1x64 ![1] bcast_S64_S1x64_1 : (⟨S64, .f32⟩ : BufTy).Contents (Elt F) → (⟨S1x64, .f32⟩ : BufTy).Contents (Elt F)),
    unary main_v71 main_v72 (broadcastInDim S60000x64 ![0, 1] bcast_S1x64_S60000x64_0_1 : (⟨S1x64, .f32⟩ : BufTy).Contents (Elt F) → (⟨S60000x64, .f32⟩ : BufTy).Contents (Elt F)),
    binary main_v70 main_v72 main_v73 (addf : (⟨S60000x64, .f32⟩ : BufTy).Contents (Elt F) → (⟨S60000x64, .f32⟩ : BufTy).Contents (Elt F) → (⟨S60000x64, .f32⟩ : BufTy).Contents (Elt F)),
    binary main_v73 main_v13 main_v74 (addf : (⟨S60000x64, .f32⟩ : BufTy).Contents (Elt F) → (⟨S60000x64, .f32⟩ : BufTy).Contents (Elt F) → (⟨S60000x64, .f32⟩ : BufTy).Contents (Elt F)),
    binary main_v68 main_v74 main_v75 ((fun a b => concatenate S60000x128 1 [⟨S60000x64, a⟩, ⟨S60000x64, b⟩] concatenates_S60000x64_S60000x64_S60000x128_d1) : (⟨S60000x64, .f32⟩ : BufTy).Contents (Elt F) → (⟨S60000x64, .f32⟩ : BufTy).Contents (Elt F) → (⟨S60000x128, .f32⟩ : BufTy).Contents (Elt F)),
    unary main_arg27 main_v76 ((transpose S128x64 [1, 0] · transposes_S64x128_S128x64_1_0) : (⟨S64x128, .f32⟩ : BufTy).Contents (Elt F) → (⟨S128x64, .f32⟩ : BufTy).Contents (Elt F)),
    binary main_v75 main_v76 main_v77 ((fun l r => Host.dotGeneral dot_S60000x128_S128x64_S60000x64_1_0_0_1_n_n none l r) : (⟨S60000x128, .f32⟩ : BufTy).Contents (Elt F) → (⟨S128x64, .f32⟩ : BufTy).Contents (Elt F) → (⟨S60000x64, .f32⟩ : BufTy).Contents (Elt F)),
    unary main_arg28 main_v78 (broadcastInDim S1x64 ![1] bcast_S64_S1x64_1 : (⟨S64, .f32⟩ : BufTy).Contents (Elt F) → (⟨S1x64, .f32⟩ : BufTy).Contents (Elt F)),
    unary main_v78 main_v79 (broadcastInDim S60000x64 ![0, 1] bcast_S1x64_S60000x64_0_1 : (⟨S1x64, .f32⟩ : BufTy).Contents (Elt F) → (⟨S60000x64, .f32⟩ : BufTy).Contents (Elt F)),
    binary main_v77 main_v79 main_v80 (addf : (⟨S60000x64, .f32⟩ : BufTy).Contents (Elt F) → (⟨S60000x64, .f32⟩ : BufTy).Contents (Elt F) → (⟨S60000x64, .f32⟩ : BufTy).Contents (Elt F)) ]

/-- Stretch 5 of the operations. -/
abbrev c5 : List (HloOp τ sig (Elt F)) :=
  [ TRef.binary (TRef.of (T := ⟨S60000x128, .f32⟩) main_v25) (TRef.of (T := ⟨S60000x128, .f32⟩) main_v25) (TRef.of (T := ⟨S60000x128, .f32⟩) main_call1_v0) mulf,
    TRef.nullary (TRef.of (T := ⟨S_, .f32⟩) main_call1_cst) (constant S_ .f32 0x00000000#32),
    TRef.binary (TRef.of (T := ⟨S60000x128, .f32⟩) main_call1_v0) (TRef.of (T := ⟨S_, .f32⟩) main_call1_cst) (TRef.of (T := ⟨S60000, .f32⟩) main_call1_v1) (fun x v => Host.reduceAdd x v reducesTo_S60000x128_S60000_d1 h_S_),
    TRef.unary (TRef.of (T := ⟨S60000, .f32⟩) main_call1_v1) (TRef.of (T := ⟨S60000x1, .f32⟩) main_call1_v2) (broadcastInDim S60000x1 ![0] bcast_S60000_S60000x1_0),
    TRef.unary (TRef.of (T := ⟨S60000x1, .f32⟩) main_call1_v2) (TRef.of (T := ⟨S60000x1, .f32⟩) main_v81) Host.sqrt,
    nullary main_cst_9 (constant S_ .f32 0x2B8CBCCC#32),
    unary main_cst_9 main_v82 (broadcastInDim S60000x1 ![] bcast_S_S60000x1 : (⟨S_, .f32⟩ : BufTy).Contents (Elt F) → (⟨S60000x1, .f32⟩ : BufTy).Contents (Elt F)),
    binary main_v81 main_v82 main_v83 (maximumf : (⟨S60000x1, .f32⟩ : BufTy).Contents (Elt F) → (⟨S60000x1, .f32⟩ : BufTy).Contents (Elt F) → (⟨S60000x1, .f32⟩ : BufTy).Contents (Elt F)),
    unary main_v83 main_v84 (broadcastInDim S60000x128 ![0, 1] bcast_S60000x1_S60000x128_0_1 : (⟨S60000x1, .f32⟩ : BufTy).Contents (Elt F) → (⟨S60000x128, .f32⟩ : BufTy).Contents (Elt F)),
    binary main_v25 main_v84 main_v85 (Host.divf : (⟨S60000x128, .f32⟩ : BufTy).Contents (Elt F) → (⟨S60000x128, .f32⟩ : BufTy).Contents (Elt F) → (⟨S60000x128, .f32⟩ : BufTy).Contents (Elt F)),
    binary main_v85 main_arg15 main_v86 ((fun l r => Host.dotGeneral dot_S60000x128_S128x128_S60000x128_1_0_0_1_n_n none l r) : (⟨S60000x128, .f32⟩ : BufTy).Contents (Elt F) → (⟨S128x128, .f32⟩ : BufTy).Contents (Elt F) → (⟨S60000x128, .f32⟩ : BufTy).Contents (Elt F)),
    nullary main_c_10 (constantI S_ 32 0#32),
    unary main_c_10 main_v87 (broadcastInDim S1000000 ![] bcast_S_S1000000 : (⟨S_, .i32⟩ : BufTy).Contents (Elt F) → (⟨S1000000, .i32⟩ : BufTy).Contents (Elt F)),
    binary main_v1 main_v87 main_v88 (cmpi .slt : (⟨S1000000, .i32⟩ : BufTy).Contents (Elt F) → (⟨S1000000, .i32⟩ : BufTy).Contents (Elt F) → (⟨S1000000, .i1⟩ : BufTy).Contents (Elt F)),
    nullary main_c_11 (constantI S_ 32 60000#32),
    unary main_c_11 main_v89 (broadcastInDim S1000000 ![] bcast_S_S1000000 : (⟨S_, .i32⟩ : BufTy).Contents (Elt F) → (⟨S1000000, .i32⟩ : BufTy).Contents (Elt F)),
    binary main_v1 main_v89 main_v90 (addi : (⟨S1000000, .i32⟩ : BufTy).Contents (Elt F) → (⟨S1000000, .i32⟩ : BufTy).Contents (Elt F) → (⟨S1000000, .i32⟩ : BufTy).Contents (Elt F)),
    ternary main_v88 main_v90 main_v1 main_v91 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v91 main_v92 (broadcastInDim S1000000x1 ![0] bcast_S1000000_S1000000x1_0 : (⟨S1000000, .i32⟩ : BufTy).Contents (Elt F) → (⟨S1000000x1, .i32⟩ : BufTy).Contents (Elt F)),
    binary main_v86 main_v92 main_v93 ((fun x i => Host.gather gather_S60000x128_S1000000x1_S1000000x128_1_0_n_n_0_1_1128 x i) : (⟨S60000x128, .f32⟩ : BufTy).Contents (Elt F) → (⟨S1000000x1, .i32⟩ : BufTy).Contents (Elt F) → (⟨S1000000x128, .f32⟩ : BufTy).Contents (Elt F)),
    nullary main_cst_12 (constant S_ .f32 0x00000000#32),
    unary main_cst_12 main_v94 (broadcastInDim S60000x128 ![] bcast_S_S60000x128 : (⟨S_, .f32⟩ : BufTy).Contents (Elt F) → (⟨S60000x128, .f32⟩ : BufTy).Contents (Elt F)),
    unary main_v3 main_v95 (broadcastInDim S1000000x1 ![0] bcast_S1000000_S1000000x1_0 : (⟨S1000000, .i32⟩ : BufTy).Contents (Elt F) → (⟨S1000000x1, .i32⟩ : BufTy).Contents (Elt F)),
    ternary main_v94 main_v95 main_v93 main_v96 ((fun x i u => Host.scatterAdd scatter_S60000x128_S1000000x1_S1000000x128_1_0_0_1 x i u) : (⟨S60000x128, .f32⟩ : BufTy).Contents (Elt F) → (⟨S1000000x1, .i32⟩ : BufTy).Contents (Elt F) → (⟨S1000000x128, .f32⟩ : BufTy).Contents (Elt F) → (⟨S60000x128, .f32⟩ : BufTy).Contents (Elt F)) ]

/-- Stretch 6 of the operations. -/
abbrev c6 : List (HloOp τ sig (Elt F)) :=
  [ unary main_v12 main_v97 (broadcastInDim S60000x128 ![0, 1] bcast_S60000x1_S60000x128_0_1 : (⟨S60000x1, .f32⟩ : BufTy).Contents (Elt F) → (⟨S60000x128, .f32⟩ : BufTy).Contents (Elt F)),
    binary main_v96 main_v97 main_v98 (mulf : (⟨S60000x128, .f32⟩ : BufTy).Contents (Elt F) → (⟨S60000x128, .f32⟩ : BufTy).Contents (Elt F) → (⟨S60000x128, .f32⟩ : BufTy).Contents (Elt F)),
    unary main_arg21 main_v99 ((transpose S128x64 [1, 0] · transposes_S64x128_S128x64_1_0) : (⟨S64x128, .f32⟩ : BufTy).Contents (Elt F) → (⟨S128x64, .f32⟩ : BufTy).Contents (Elt F)),
    binary main_v85 main_v99 main_v100 ((fun l r => Host.dotGeneral dot_S60000x128_S128x64_S60000x64_1_0_0_1_n_n none l r) : (⟨S60000x128, .f32⟩ : BufTy).Contents (Elt F) → (⟨S128x64, .f32⟩ : BufTy).Contents (Elt F) → (⟨S60000x64, .f32⟩ : BufTy).Contents (Elt F)),
    unary main_arg22 main_v101 (broadcastInDim S1x64 ![1] bcast_S64_S1x64_1 : (⟨S64, .f32⟩ : BufTy).Contents (Elt F) → (⟨S1x64, .f32⟩ : BufTy).Contents (Elt F)),
    unary main_v101 main_v102 (broadcastInDim S60000x64 ![0, 1] bcast_S1x64_S60000x64_0_1 : (⟨S1x64, .f32⟩ : BufTy).Contents (Elt F) → (⟨S60000x64, .f32⟩ : BufTy).Contents (Elt F)),
    binary main_v100 main_v102 main_v103 (addf : (⟨S60000x64, .f32⟩ : BufTy).Contents (Elt F) → (⟨S60000x64, .f32⟩ : BufTy).Contents (Elt F) → (⟨S60000x64, .f32⟩ : BufTy).Contents (Elt F)),
    binary main_v103 main_v13 main_v104 (addf : (⟨S60000x64, .f32⟩ : BufTy).Contents (Elt F) → (⟨S60000x64, .f32⟩ : BufTy).Contents (Elt F) → (⟨S60000x64, .f32⟩ : BufTy).Contents (Elt F)),
    binary main_v98 main_v104 main_v105 ((fun a b => concatenate S60000x192 1 [⟨S60000x128, a⟩, ⟨S60000x64, b⟩] concatenates_S60000x128_S60000x64_S60000x192_d1) : (⟨S60000x128, .f32⟩ : BufTy).Contents (Elt F) → (⟨S60000x64, .f32⟩ : BufTy).Contents (Elt F) → (⟨S60000x192, .f32⟩ : BufTy).Contents (Elt F)),
    unary main_arg29 main_v106 ((transpose S192x64 [1, 0] · transposes_S64x192_S192x64_1_0) : (⟨S64x192, .f32⟩ : BufTy).Contents (Elt F) → (⟨S192x64, .f32⟩ : BufTy).Contents (Elt F)),
    binary main_v105 main_v106 main_v107 ((fun l r => Host.dotGeneral dot_S60000x192_S192x64_S60000x64_1_0_0_1_n_n none l r) : (⟨S60000x192, .f32⟩ : BufTy).Contents (Elt F) → (⟨S192x64, .f32⟩ : BufTy).Contents (Elt F) → (⟨S60000x64, .f32⟩ : BufTy).Contents (Elt F)),
    unary main_arg30 main_v108 (broadcastInDim S1x64 ![1] bcast_S64_S1x64_1 : (⟨S64, .f32⟩ : BufTy).Contents (Elt F) → (⟨S1x64, .f32⟩ : BufTy).Contents (Elt F)),
    unary main_v108 main_v109 (broadcastInDim S60000x64 ![0, 1] bcast_S1x64_S60000x64_0_1 : (⟨S1x64, .f32⟩ : BufTy).Contents (Elt F) → (⟨S60000x64, .f32⟩ : BufTy).Contents (Elt F)),
    binary main_v107 main_v109 main_v110 (addf : (⟨S60000x64, .f32⟩ : BufTy).Contents (Elt F) → (⟨S60000x64, .f32⟩ : BufTy).Contents (Elt F) → (⟨S60000x64, .f32⟩ : BufTy).Contents (Elt F)),
    binary main_v110 main_arg16 main_v111 ((fun l r => Host.dotGeneral dot_S60000x64_S64x64_S60000x64_1_0_0_1_n_n none l r) : (⟨S60000x64, .f32⟩ : BufTy).Contents (Elt F) → (⟨S64x64, .f32⟩ : BufTy).Contents (Elt F) → (⟨S60000x64, .f32⟩ : BufTy).Contents (Elt F)),
    nullary main_c_13 (constantI S_ 32 0#32),
    unary main_c_13 main_v112 (broadcastInDim S1000000 ![] bcast_S_S1000000 : (⟨S_, .i32⟩ : BufTy).Contents (Elt F) → (⟨S1000000, .i32⟩ : BufTy).Contents (Elt F)),
    binary main_v1 main_v112 main_v113 (cmpi .slt : (⟨S1000000, .i32⟩ : BufTy).Contents (Elt F) → (⟨S1000000, .i32⟩ : BufTy).Contents (Elt F) → (⟨S1000000, .i1⟩ : BufTy).Contents (Elt F)),
    nullary main_c_14 (constantI S_ 32 60000#32),
    unary main_c_14 main_v114 (broadcastInDim S1000000 ![] bcast_S_S1000000 : (⟨S_, .i32⟩ : BufTy).Contents (Elt F) → (⟨S1000000, .i32⟩ : BufTy).Contents (Elt F)),
    binary main_v1 main_v114 main_v115 (addi : (⟨S1000000, .i32⟩ : BufTy).Contents (Elt F) → (⟨S1000000, .i32⟩ : BufTy).Contents (Elt F) → (⟨S1000000, .i32⟩ : BufTy).Contents (Elt F)),
    ternary main_v113 main_v115 main_v1 main_v116 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v116 main_v117 (broadcastInDim S1000000x1 ![0] bcast_S1000000_S1000000x1_0 : (⟨S1000000, .i32⟩ : BufTy).Contents (Elt F) → (⟨S1000000x1, .i32⟩ : BufTy).Contents (Elt F)),
    binary main_v111 main_v117 main_v118 ((fun x i => Host.gather gather_S60000x64_S1000000x1_S1000000x64_1_0_n_n_0_1_164 x i) : (⟨S60000x64, .f32⟩ : BufTy).Contents (Elt F) → (⟨S1000000x1, .i32⟩ : BufTy).Contents (Elt F) → (⟨S1000000x64, .f32⟩ : BufTy).Contents (Elt F)) ]

/-- Stretch 7 of the operations. -/
abbrev c7 : List (HloOp τ sig (Elt F)) :=
  [ nullary main_cst_15 (constant S_ .f32 0x00000000#32),
    unary main_cst_15 main_v119 (broadcastInDim S60000x64 ![] bcast_S_S60000x64 : (⟨S_, .f32⟩ : BufTy).Contents (Elt F) → (⟨S60000x64, .f32⟩ : BufTy).Contents (Elt F)),
    unary main_v3 main_v120 (broadcastInDim S1000000x1 ![0] bcast_S1000000_S1000000x1_0 : (⟨S1000000, .i32⟩ : BufTy).Contents (Elt F) → (⟨S1000000x1, .i32⟩ : BufTy).Contents (Elt F)),
    ternary main_v119 main_v120 main_v118 main_v121 ((fun x i u => Host.scatterAdd scatter_S60000x64_S1000000x1_S1000000x64_1_0_0_1 x i u) : (⟨S60000x64, .f32⟩ : BufTy).Contents (Elt F) → (⟨S1000000x1, .i32⟩ : BufTy).Contents (Elt F) → (⟨S1000000x64, .f32⟩ : BufTy).Contents (Elt F) → (⟨S60000x64, .f32⟩ : BufTy).Contents (Elt F)),
    unary main_v12 main_v122 (broadcastInDim S60000x64 ![0, 1] bcast_S60000x1_S60000x64_0_1 : (⟨S60000x1, .f32⟩ : BufTy).Contents (Elt F) → (⟨S60000x64, .f32⟩ : BufTy).Contents (Elt F)),
    binary main_v121 main_v122 main_v123 (mulf : (⟨S60000x64, .f32⟩ : BufTy).Contents (Elt F) → (⟨S60000x64, .f32⟩ : BufTy).Contents (Elt F) → (⟨S60000x64, .f32⟩ : BufTy).Contents (Elt F)),
    unary main_arg23 main_v124 ((transpose S64x64 [1, 0] · transposes_S64x64_S64x64_1_0) : (⟨S64x64, .f32⟩ : BufTy).Contents (Elt F) → (⟨S64x64, .f32⟩ : BufTy).Contents (Elt F)),
    binary main_v110 main_v124 main_v125 ((fun l r => Host.dotGeneral dot_S60000x64_S64x64_S60000x64_1_0_0_1_n_n none l r) : (⟨S60000x64, .f32⟩ : BufTy).Contents (Elt F) → (⟨S64x64, .f32⟩ : BufTy).Contents (Elt F) → (⟨S60000x64, .f32⟩ : BufTy).Contents (Elt F)),
    unary main_arg24 main_v126 (broadcastInDim S1x64 ![1] bcast_S64_S1x64_1 : (⟨S64, .f32⟩ : BufTy).Contents (Elt F) → (⟨S1x64, .f32⟩ : BufTy).Contents (Elt F)),
    unary main_v126 main_v127 (broadcastInDim S60000x64 ![0, 1] bcast_S1x64_S60000x64_0_1 : (⟨S1x64, .f32⟩ : BufTy).Contents (Elt F) → (⟨S60000x64, .f32⟩ : BufTy).Contents (Elt F)),
    binary main_v125 main_v127 main_v128 (addf : (⟨S60000x64, .f32⟩ : BufTy).Contents (Elt F) → (⟨S60000x64, .f32⟩ : BufTy).Contents (Elt F) → (⟨S60000x64, .f32⟩ : BufTy).Contents (Elt F)),
    binary main_v128 main_v13 main_v129 (addf : (⟨S60000x64, .f32⟩ : BufTy).Contents (Elt F) → (⟨S60000x64, .f32⟩ : BufTy).Contents (Elt F) → (⟨S60000x64, .f32⟩ : BufTy).Contents (Elt F)),
    binary main_v123 main_v129 main_v130 ((fun a b => concatenate S60000x128 1 [⟨S60000x64, a⟩, ⟨S60000x64, b⟩] concatenates_S60000x64_S60000x64_S60000x128_d1) : (⟨S60000x64, .f32⟩ : BufTy).Contents (Elt F) → (⟨S60000x64, .f32⟩ : BufTy).Contents (Elt F) → (⟨S60000x128, .f32⟩ : BufTy).Contents (Elt F)),
    unary main_arg31 main_v131 ((transpose S128x64 [1, 0] · transposes_S64x128_S128x64_1_0) : (⟨S64x128, .f32⟩ : BufTy).Contents (Elt F) → (⟨S128x64, .f32⟩ : BufTy).Contents (Elt F)),
    binary main_v130 main_v131 main_v132 ((fun l r => Host.dotGeneral dot_S60000x128_S128x64_S60000x64_1_0_0_1_n_n none l r) : (⟨S60000x128, .f32⟩ : BufTy).Contents (Elt F) → (⟨S128x64, .f32⟩ : BufTy).Contents (Elt F) → (⟨S60000x64, .f32⟩ : BufTy).Contents (Elt F)),
    unary main_arg32 main_v133 (broadcastInDim S1x64 ![1] bcast_S64_S1x64_1 : (⟨S64, .f32⟩ : BufTy).Contents (Elt F) → (⟨S1x64, .f32⟩ : BufTy).Contents (Elt F)),
    unary main_v133 main_v134 (broadcastInDim S60000x64 ![0, 1] bcast_S1x64_S60000x64_0_1 : (⟨S1x64, .f32⟩ : BufTy).Contents (Elt F) → (⟨S60000x64, .f32⟩ : BufTy).Contents (Elt F)),
    binary main_v132 main_v134 main_v135 (addf : (⟨S60000x64, .f32⟩ : BufTy).Contents (Elt F) → (⟨S60000x64, .f32⟩ : BufTy).Contents (Elt F) → (⟨S60000x64, .f32⟩ : BufTy).Contents (Elt F)),
    binary main_v80 main_v135 main_v136 (addf : (⟨S60000x64, .f32⟩ : BufTy).Contents (Elt F) → (⟨S60000x64, .f32⟩ : BufTy).Contents (Elt F) → (⟨S60000x64, .f32⟩ : BufTy).Contents (Elt F)),
    nullary main_cst_16 (constant S_ .f32 0x40000000#32),
    unary main_cst_16 main_v137 (broadcastInDim S60000x64 ![] bcast_S_S60000x64 : (⟨S_, .f32⟩ : BufTy).Contents (Elt F) → (⟨S60000x64, .f32⟩ : BufTy).Contents (Elt F)),
    binary main_v136 main_v137 main_v138 (Host.divf : (⟨S60000x64, .f32⟩ : BufTy).Contents (Elt F) → (⟨S60000x64, .f32⟩ : BufTy).Contents (Elt F) → (⟨S60000x64, .f32⟩ : BufTy).Contents (Elt F)),
    unary main_v138 main_v139 ((extractStridedSlice S20000x64 ![0, 0] · slices_S60000x64_S20000x64_0_0) : (⟨S60000x64, .f32⟩ : BufTy).Contents (Elt F) → (⟨S20000x64, .f32⟩ : BufTy).Contents (Elt F)),
    unary main_v138 main_v140 ((extractStridedSlice S40000x64 ![20000, 0] · slices_S60000x64_S40000x64_20000_0) : (⟨S60000x64, .f32⟩ : BufTy).Contents (Elt F) → (⟨S40000x64, .f32⟩ : BufTy).Contents (Elt F)) ]

/-- Stretch 8 of the operations. -/
abbrev c8 : List (HloOp τ sig (Elt F)) :=
  [ nullary main_c_17 (constantI S_ 32 0#32),
    unary main_c_17 main_v141 (broadcastInDim S8192 ![] bcast_S_S8192 : (⟨S_, .i32⟩ : BufTy).Contents (Elt F) → (⟨S8192, .i32⟩ : BufTy).Contents (Elt F)),
    binary main_arg1 main_v141 main_v142 (cmpi .slt : (⟨S8192, .i32⟩ : BufTy).Contents (Elt F) → (⟨S8192, .i32⟩ : BufTy).Contents (Elt F) → (⟨S8192, .i1⟩ : BufTy).Contents (Elt F)),
    nullary main_c_18 (constantI S_ 32 20000#32),
    unary main_c_18 main_v143 (broadcastInDim S8192 ![] bcast_S_S8192 : (⟨S_, .i32⟩ : BufTy).Contents (Elt F) → (⟨S8192, .i32⟩ : BufTy).Contents (Elt F)),
    binary main_arg1 main_v143 main_v144 (addi : (⟨S8192, .i32⟩ : BufTy).Contents (Elt F) → (⟨S8192, .i32⟩ : BufTy).Contents (Elt F) → (⟨S8192, .i32⟩ : BufTy).Contents (Elt F)),
    ternary main_v142 main_v144 main_arg1 main_v145 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v145 main_v146 (broadcastInDim S8192x1 ![0] bcast_S8192_S8192x1_0 : (⟨S8192, .i32⟩ : BufTy).Contents (Elt F) → (⟨S8192x1, .i32⟩ : BufTy).Contents (Elt F)),
    binary main_v139 main_v146 main_v147 ((fun x i => Host.gather gather_S20000x64_S8192x1_S8192x64_1_0_n_n_0_1_164 x i) : (⟨S20000x64, .f32⟩ : BufTy).Contents (Elt F) → (⟨S8192x1, .i32⟩ : BufTy).Contents (Elt F) → (⟨S8192x64, .f32⟩ : BufTy).Contents (Elt F)),
    nullary main_c_19 (constantI S_ 32 0#32),
    unary main_c_19 main_v148 (broadcastInDim S8192 ![] bcast_S_S8192 : (⟨S_, .i32⟩ : BufTy).Contents (Elt F) → (⟨S8192, .i32⟩ : BufTy).Contents (Elt F)),
    binary main_arg2 main_v148 main_v149 (cmpi .slt : (⟨S8192, .i32⟩ : BufTy).Contents (Elt F) → (⟨S8192, .i32⟩ : BufTy).Contents (Elt F) → (⟨S8192, .i1⟩ : BufTy).Contents (Elt F)),
    nullary main_c_20 (constantI S_ 32 40000#32),
    unary main_c_20 main_v150 (broadcastInDim S8192 ![] bcast_S_S8192 : (⟨S_, .i32⟩ : BufTy).Contents (Elt F) → (⟨S8192, .i32⟩ : BufTy).Contents (Elt F)),
    binary main_arg2 main_v150 main_v151 (addi : (⟨S8192, .i32⟩ : BufTy).Contents (Elt F) → (⟨S8192, .i32⟩ : BufTy).Contents (Elt F) → (⟨S8192, .i32⟩ : BufTy).Contents (Elt F)),
    ternary main_v149 main_v151 main_arg2 main_v152 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v152 main_v153 (broadcastInDim S8192x1 ![0] bcast_S8192_S8192x1_0 : (⟨S8192, .i32⟩ : BufTy).Contents (Elt F) → (⟨S8192x1, .i32⟩ : BufTy).Contents (Elt F)),
    binary main_v140 main_v153 main_v154 ((fun x i => Host.gather gather_S40000x64_S8192x1_S8192x64_1_0_n_n_0_1_164 x i) : (⟨S40000x64, .f32⟩ : BufTy).Contents (Elt F) → (⟨S8192x1, .i32⟩ : BufTy).Contents (Elt F) → (⟨S8192x64, .f32⟩ : BufTy).Contents (Elt F)),
    binary main_v147 main_v154 main_v155 (mulf : (⟨S8192x64, .f32⟩ : BufTy).Contents (Elt F) → (⟨S8192x64, .f32⟩ : BufTy).Contents (Elt F) → (⟨S8192x64, .f32⟩ : BufTy).Contents (Elt F)),
    nullary main_cst_21 (constant S_ .f32 0x00000000#32),
    binary main_v155 main_cst_21 main_v156 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)) ]

theorem ops_split : (ops : List (HloOp τ sig (Elt F))) = c1 ++ c2 ++ c3 ++ c4 ++ c5 ++ c6 ++ c7 ++ c8 := rfl

/-- The contents after two stretches run one after the other: the second run from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The buffer contents at the launch and after each stretch. -/
abbrev S0 (m : (ℓ : Loc nD τ sig) → Buf (Elt F) ℓ) (c : Dev nD) : Valuation τ sig (Elt F) := launchContents m c
def S1 (m : (ℓ : Loc nD τ sig) → Buf (Elt F) ℓ) (c : Dev nD) : Valuation τ sig (Elt F) := after c1 (S0 m c)
def S2 (m : (ℓ : Loc nD τ sig) → Buf (Elt F) ℓ) (c : Dev nD) : Valuation τ sig (Elt F) := after c2 (S1 m c)
def S3 (m : (ℓ : Loc nD τ sig) → Buf (Elt F) ℓ) (c : Dev nD) : Valuation τ sig (Elt F) := after c3 (S2 m c)
def S4 (m : (ℓ : Loc nD τ sig) → Buf (Elt F) ℓ) (c : Dev nD) : Valuation τ sig (Elt F) := after c4 (S3 m c)
def S5 (m : (ℓ : Loc nD τ sig) → Buf (Elt F) ℓ) (c : Dev nD) : Valuation τ sig (Elt F) := after c5 (S4 m c)
def S6 (m : (ℓ : Loc nD τ sig) → Buf (Elt F) ℓ) (c : Dev nD) : Valuation τ sig (Elt F) := after c6 (S5 m c)
def S7 (m : (ℓ : Loc nD τ sig) → Buf (Elt F) ℓ) (c : Dev nD) : Valuation τ sig (Elt F) := after c7 (S6 m c)
def S8 (m : (ℓ : Loc nD τ sig) → Buf (Elt F) ℓ) (c : Dev nD) : Valuation τ sig (Elt F) := after c8 (S7 m c)

theorem after_ops (m : (ℓ : Loc nD τ sig) → Buf (Elt F) ℓ) (c : Dev nD) : after ops (launchContents m c) = S8 m c := by
  rw [ops_split]; simp only [after_append]; rfl

def R_main_arg0 (m : (ℓ : Loc nD τ sig) → Buf (Elt F) ℓ) (c : Dev nD) : Buf (Elt F) ((c.tc : Thread nD τ).loc main_arg0) := m ((c.tc : Thread nD τ).loc main_arg0)
def R_main_arg1 (m : (ℓ : Loc nD τ sig) → Buf (Elt F) ℓ) (c : Dev nD) : Buf (Elt F) ((c.tc : Thread nD τ).loc main_arg1) := m ((c.tc : Thread nD τ).loc main_arg1)
def R_main_arg2 (m : (ℓ : Loc nD τ sig) → Buf (Elt F) ℓ) (c : Dev nD) : Buf (Elt F) ((c.tc : Thread nD τ).loc main_arg2) := m ((c.tc : Thread nD τ).loc main_arg2)
def R_main_arg3 (m : (ℓ : Loc nD τ sig) → Buf (Elt F) ℓ) (c : Dev nD) : Buf (Elt F) ((c.tc : Thread nD τ).loc main_arg3) := m ((c.tc : Thread nD τ).loc main_arg3)
def R_main_arg4 (m : (ℓ : Loc nD τ sig) → Buf (Elt F) ℓ) (c : Dev nD) : Buf (Elt F) ((c.tc : Thread nD τ).loc main_arg4) := m ((c.tc : Thread nD τ).loc main_arg4)
def R_main_arg5 (m : (ℓ : Loc nD τ sig) → Buf (Elt F) ℓ) (c : Dev nD) : Buf (Elt F) ((c.tc : Thread nD τ).loc main_arg5) := m ((c.tc : Thread nD τ).loc main_arg5)
def R_main_arg6 (m : (ℓ : Loc nD τ sig) → Buf (Elt F) ℓ) (c : Dev nD) : Buf (Elt F) ((c.tc : Thread nD τ).loc main_arg6) := m ((c.tc : Thread nD τ).loc main_arg6)
def R_main_arg7 (m : (ℓ : Loc nD τ sig) → Buf (Elt F) ℓ) (c : Dev nD) : Buf (Elt F) ((c.tc : Thread nD τ).loc main_arg7) := m ((c.tc : Thread nD τ).loc main_arg7)
def R_main_arg8 (m : (ℓ : Loc nD τ sig) → Buf (Elt F) ℓ) (c : Dev nD) : Buf (Elt F) ((c.tc : Thread nD τ).loc main_arg8) := m ((c.tc : Thread nD τ).loc main_arg8)
def R_main_arg9 (m : (ℓ : Loc nD τ sig) → Buf (Elt F) ℓ) (c : Dev nD) : Buf (Elt F) ((c.tc : Thread nD τ).loc main_arg9) := m ((c.tc : Thread nD τ).loc main_arg9)
def R_main_arg10 (m : (ℓ : Loc nD τ sig) → Buf (Elt F) ℓ) (c : Dev nD) : Buf (Elt F) ((c.tc : Thread nD τ).loc main_arg10) := m ((c.tc : Thread nD τ).loc main_arg10)
def R_main_arg11 (m : (ℓ : Loc nD τ sig) → Buf (Elt F) ℓ) (c : Dev nD) : Buf (Elt F) ((c.tc : Thread nD τ).loc main_arg11) := m ((c.tc : Thread nD τ).loc main_arg11)
def R_main_arg12 (m : (ℓ : Loc nD τ sig) → Buf (Elt F) ℓ) (c : Dev nD) : Buf (Elt F) ((c.tc : Thread nD τ).loc main_arg12) := m ((c.tc : Thread nD τ).loc main_arg12)
def R_main_arg13 (m : (ℓ : Loc nD τ sig) → Buf (Elt F) ℓ) (c : Dev nD) : Buf (Elt F) ((c.tc : Thread nD τ).loc main_arg13) := m ((c.tc : Thread nD τ).loc main_arg13)
def R_main_arg14 (m : (ℓ : Loc nD τ sig) → Buf (Elt F) ℓ) (c : Dev nD) : Buf (Elt F) ((c.tc : Thread nD τ).loc main_arg14) := m ((c.tc : Thread nD τ).loc main_arg14)
def R_main_arg15 (m : (ℓ : Loc nD τ sig) → Buf (Elt F) ℓ) (c : Dev nD) : Buf (Elt F) ((c.tc : Thread nD τ).loc main_arg15) := m ((c.tc : Thread nD τ).loc main_arg15)
def R_main_arg16 (m : (ℓ : Loc nD τ sig) → Buf (Elt F) ℓ) (c : Dev nD) : Buf (Elt F) ((c.tc : Thread nD τ).loc main_arg16) := m ((c.tc : Thread nD τ).loc main_arg16)
def R_main_arg17 (m : (ℓ : Loc nD τ sig) → Buf (Elt F) ℓ) (c : Dev nD) : Buf (Elt F) ((c.tc : Thread nD τ).loc main_arg17) := m ((c.tc : Thread nD τ).loc main_arg17)
def R_main_arg18 (m : (ℓ : Loc nD τ sig) → Buf (Elt F) ℓ) (c : Dev nD) : Buf (Elt F) ((c.tc : Thread nD τ).loc main_arg18) := m ((c.tc : Thread nD τ).loc main_arg18)
def R_main_arg19 (m : (ℓ : Loc nD τ sig) → Buf (Elt F) ℓ) (c : Dev nD) : Buf (Elt F) ((c.tc : Thread nD τ).loc main_arg19) := m ((c.tc : Thread nD τ).loc main_arg19)
def R_main_arg20 (m : (ℓ : Loc nD τ sig) → Buf (Elt F) ℓ) (c : Dev nD) : Buf (Elt F) ((c.tc : Thread nD τ).loc main_arg20) := m ((c.tc : Thread nD τ).loc main_arg20)
def R_main_arg21 (m : (ℓ : Loc nD τ sig) → Buf (Elt F) ℓ) (c : Dev nD) : Buf (Elt F) ((c.tc : Thread nD τ).loc main_arg21) := m ((c.tc : Thread nD τ).loc main_arg21)
def R_main_arg22 (m : (ℓ : Loc nD τ sig) → Buf (Elt F) ℓ) (c : Dev nD) : Buf (Elt F) ((c.tc : Thread nD τ).loc main_arg22) := m ((c.tc : Thread nD τ).loc main_arg22)
def R_main_arg23 (m : (ℓ : Loc nD τ sig) → Buf (Elt F) ℓ) (c : Dev nD) : Buf (Elt F) ((c.tc : Thread nD τ).loc main_arg23) := m ((c.tc : Thread nD τ).loc main_arg23)
def R_main_arg24 (m : (ℓ : Loc nD τ sig) → Buf (Elt F) ℓ) (c : Dev nD) : Buf (Elt F) ((c.tc : Thread nD τ).loc main_arg24) := m ((c.tc : Thread nD τ).loc main_arg24)
def R_main_arg25 (m : (ℓ : Loc nD τ sig) → Buf (Elt F) ℓ) (c : Dev nD) : Buf (Elt F) ((c.tc : Thread nD τ).loc main_arg25) := m ((c.tc : Thread nD τ).loc main_arg25)
def R_main_arg26 (m : (ℓ : Loc nD τ sig) → Buf (Elt F) ℓ) (c : Dev nD) : Buf (Elt F) ((c.tc : Thread nD τ).loc main_arg26) := m ((c.tc : Thread nD τ).loc main_arg26)
def R_main_arg27 (m : (ℓ : Loc nD τ sig) → Buf (Elt F) ℓ) (c : Dev nD) : Buf (Elt F) ((c.tc : Thread nD τ).loc main_arg27) := m ((c.tc : Thread nD τ).loc main_arg27)
def R_main_arg28 (m : (ℓ : Loc nD τ sig) → Buf (Elt F) ℓ) (c : Dev nD) : Buf (Elt F) ((c.tc : Thread nD τ).loc main_arg28) := m ((c.tc : Thread nD τ).loc main_arg28)
def R_main_arg29 (m : (ℓ : Loc nD τ sig) → Buf (Elt F) ℓ) (c : Dev nD) : Buf (Elt F) ((c.tc : Thread nD τ).loc main_arg29) := m ((c.tc : Thread nD τ).loc main_arg29)
def R_main_arg30 (m : (ℓ : Loc nD τ sig) → Buf (Elt F) ℓ) (c : Dev nD) : Buf (Elt F) ((c.tc : Thread nD τ).loc main_arg30) := m ((c.tc : Thread nD τ).loc main_arg30)
def R_main_arg31 (m : (ℓ : Loc nD τ sig) → Buf (Elt F) ℓ) (c : Dev nD) : Buf (Elt F) ((c.tc : Thread nD τ).loc main_arg31) := m ((c.tc : Thread nD τ).loc main_arg31)
def R_main_arg32 (m : (ℓ : Loc nD τ sig) → Buf (Elt F) ℓ) (c : Dev nD) : Buf (Elt F) ((c.tc : Thread nD τ).loc main_arg32) := m ((c.tc : Thread nD τ).loc main_arg32)
def R_main_v0 (m : (ℓ : Loc nD τ sig) → Buf (Elt F) ℓ) (c : Dev nD) : Buf (Elt F) ((c.tc : Thread nD τ).loc main_v0) := ((extractStridedSlice S1x1000000 ![0, 0] · slices_S2x1000000_S1x1000000_0_0) : (⟨S2x1000000, .i32⟩ : BufTy).Contents (Elt F) → (⟨S1x1000000, .i32⟩ : BufTy).Contents (Elt F)) (R_main_arg0 m c)
def R_main_v1 (m : (ℓ : Loc nD τ sig) → Buf (Elt F) ℓ) (c : Dev nD) : Buf (Elt F) ((c.tc : Thread nD τ).loc main_v1) := shapeCast _ (R_main_v0 m c) shapeCasts_S1x1000000_S1000000
def R_main_v2 (m : (ℓ : Loc nD τ sig) → Buf (Elt F) ℓ) (c : Dev nD) : Buf (Elt F) ((c.tc : Thread nD τ).loc main_v2) := ((extractStridedSlice S1x1000000 ![1, 0] · slices_S2x1000000_S1x1000000_1_0) : (⟨S2x1000000, .i32⟩ : BufTy).Contents (Elt F) → (⟨S1x1000000, .i32⟩ : BufTy).Contents (Elt F)) (R_main_arg0 m c)
def R_main_v3 (m : (ℓ : Loc nD τ sig) → Buf (Elt F) ℓ) (c : Dev nD) : Buf (Elt F) ((c.tc : Thread nD τ).loc main_v3) := shapeCast _ (R_main_v2 m c) shapeCasts_S1x1000000_S1000000
def R_main_cst (m : (ℓ : Loc nD τ sig) → Buf (Elt F) ℓ) (c : Dev nD) : Buf (Elt F) ((c.tc : Thread nD τ).loc main_cst) := (constant S_ .f32 0x3F800000#32)
def R_main_v4 (m : (ℓ : Loc nD τ sig) → Buf (Elt F) ℓ) (c : Dev nD) : Buf (Elt F) ((c.tc : Thread nD τ).loc main_v4) := (broadcastInDim S1000000 ![] bcast_S_S1000000 : (⟨S_, .f32⟩ : BufTy).Contents (Elt F) → (⟨S1000000, .f32⟩ : BufTy).Contents (Elt F)) (R_main_cst m c)
def R_main_cst_0 (m : (ℓ : Loc nD τ sig) → Buf (Elt F) ℓ) (c : Dev nD) : Buf (Elt F) ((c.tc : Thread nD τ).loc main_cst_0) := (constant S_ .f32 0x00000000#32)
def R_main_v5 (m : (ℓ : Loc nD τ sig) → Buf (Elt F) ℓ) (c : Dev nD) : Buf (Elt F) ((c.tc : Thread nD τ).loc main_v5) := (broadcastInDim S60000 ![] bcast_S_S60000 : (⟨S_, .f32⟩ : BufTy).Contents (Elt F) → (⟨S60000, .f32⟩ : BufTy).Contents (Elt F)) (R_main_cst_0 m c)
def R_main_v6 (m : (ℓ : Loc nD τ sig) → Buf (Elt F) ℓ) (c : Dev nD) : Buf (Elt F) ((c.tc : Thread nD τ).loc main_v6) := (broadcastInDim S1000000x1 ![0] bcast_S1000000_S1000000x1_0 : (⟨S1000000, .i32⟩ : BufTy).Contents (Elt F) → (⟨S1000000x1, .i32⟩ : BufTy).Contents (Elt F)) (R_main_v3 m c)
def R_main_v7 (m : (ℓ : Loc nD τ sig) → Buf (Elt F) ℓ) (c : Dev nD) : Buf (Elt F) ((c.tc : Thread nD τ).loc main_v7) := ((fun x i u => Host.scatterAdd scatter_S60000_S1000000x1_S1000000_n_0_0_1 x i u) : (⟨S60000, .f32⟩ : BufTy).Contents (Elt F) → (⟨S1000000x1, .i32⟩ : BufTy).Contents (Elt F) → (⟨S1000000, .f32⟩ : BufTy).Contents (Elt F) → (⟨S60000, .f32⟩ : BufTy).Contents (Elt F)) (R_main_v5 m c) (R_main_v6 m c) (R_main_v4 m c)
def R_main_cst_1 (m : (ℓ : Loc nD τ sig) → Buf (Elt F) ℓ) (c : Dev nD) : Buf (Elt F) ((c.tc : Thread nD τ).loc main_cst_1) := (constant S_ .f32 0x3F800000#32)
def R_main_v8 (m : (ℓ : Loc nD τ sig) → Buf (Elt F) ℓ) (c : Dev nD) : Buf (Elt F) ((c.tc : Thread nD τ).loc main_v8) := (broadcastInDim S60000 ![] bcast_S_S60000 : (⟨S_, .f32⟩ : BufTy).Contents (Elt F) → (⟨S60000, .f32⟩ : BufTy).Contents (Elt F)) (R_main_cst_1 m c)
def R_main_v9 (m : (ℓ : Loc nD τ sig) → Buf (Elt F) ℓ) (c : Dev nD) : Buf (Elt F) ((c.tc : Thread nD τ).loc main_v9) := (maximumf : (⟨S60000, .f32⟩ : BufTy).Contents (Elt F) → (⟨S60000, .f32⟩ : BufTy).Contents (Elt F) → (⟨S60000, .f32⟩ : BufTy).Contents (Elt F)) (R_main_v7 m c) (R_main_v8 m c)
def R_main_cst_2 (m : (ℓ : Loc nD τ sig) → Buf (Elt F) ℓ) (c : Dev nD) : Buf (Elt F) ((c.tc : Thread nD τ).loc main_cst_2) := (constant S_ .f32 0x3F800000#32)
def R_main_v10 (m : (ℓ : Loc nD τ sig) → Buf (Elt F) ℓ) (c : Dev nD) : Buf (Elt F) ((c.tc : Thread nD τ).loc main_v10) := (broadcastInDim S60000 ![] bcast_S_S60000 : (⟨S_, .f32⟩ : BufTy).Contents (Elt F) → (⟨S60000, .f32⟩ : BufTy).Contents (Elt F)) (R_main_cst_2 m c)
def R_main_v11 (m : (ℓ : Loc nD τ sig) → Buf (Elt F) ℓ) (c : Dev nD) : Buf (Elt F) ((c.tc : Thread nD τ).loc main_v11) := (Host.divf : (⟨S60000, .f32⟩ : BufTy).Contents (Elt F) → (⟨S60000, .f32⟩ : BufTy).Contents (Elt F) → (⟨S60000, .f32⟩ : BufTy).Contents (Elt F)) (R_main_v10 m c) (R_main_v9 m c)
def R_main_v12 (m : (ℓ : Loc nD τ sig) → Buf (Elt F) ℓ) (c : Dev nD) : Buf (Elt F) ((c.tc : Thread nD τ).loc main_v12) := (broadcastInDim S60000x1 ![0] bcast_S60000_S60000x1_0 : (⟨S60000, .f32⟩ : BufTy).Contents (Elt F) → (⟨S60000x1, .f32⟩ : BufTy).Contents (Elt F)) (R_main_v11 m c)
def R_main_v13 (m : (ℓ : Loc nD τ sig) → Buf (Elt F) ℓ) (c : Dev nD) : Buf (Elt F) ((c.tc : Thread nD τ).loc main_v13) := ((fun a b => concatenate S60000x64 0 [⟨S20000x64, a⟩, ⟨S40000x64, b⟩] concatenates_S20000x64_S40000x64_S60000x64_d0) : (⟨S20000x64, .f32⟩ : BufTy).Contents (Elt F) → (⟨S40000x64, .f32⟩ : BufTy).Contents (Elt F) → (⟨S60000x64, .f32⟩ : BufTy).Contents (Elt F)) (R_main_arg3 m c) (R_main_arg4 m c)
def R_main_v14 (m : (ℓ : Loc nD τ sig) → Buf (Elt F) ℓ) (c : Dev nD) : Buf (Elt F) ((c.tc : Thread nD τ).loc main_v14) := ((transpose S2048x128 [1, 0] · transposes_S128x2048_S2048x128_1_0) : (⟨S128x2048, .f32⟩ : BufTy).Contents (Elt F) → (⟨S2048x128, .f32⟩ : BufTy).Contents (Elt F)) (R_main_arg9 m c)
def R_main_v15 (m : (ℓ : Loc nD τ sig) → Buf (Elt F) ℓ) (c : Dev nD) : Buf (Elt F) ((c.tc : Thread nD τ).loc main_v15) := ((fun l r => Host.dotGeneral dot_S40000x2048_S2048x128_S40000x128_1_0_0_1_n_n none l r) : (⟨S40000x2048, .f32⟩ : BufTy).Contents (Elt F) → (⟨S2048x128, .f32⟩ : BufTy).Contents (Elt F) → (⟨S40000x128, .f32⟩ : BufTy).Contents (Elt F)) (R_main_arg7 m c) (R_main_v14 m c)
def R_main_v16 (m : (ℓ : Loc nD τ sig) → Buf (Elt F) ℓ) (c : Dev nD) : Buf (Elt F) ((c.tc : Thread nD τ).loc main_v16) := (broadcastInDim S1x128 ![1] bcast_S128_S1x128_1 : (⟨S128, .f32⟩ : BufTy).Contents (Elt F) → (⟨S1x128, .f32⟩ : BufTy).Contents (Elt F)) (R_main_arg10 m c)
def R_main_v17 (m : (ℓ : Loc nD τ sig) → Buf (Elt F) ℓ) (c : Dev nD) : Buf (Elt F) ((c.tc : Thread nD τ).loc main_v17) := (broadcastInDim S40000x128 ![0, 1] bcast_S1x128_S40000x128_0_1 : (⟨S1x128, .f32⟩ : BufTy).Contents (Elt F) → (⟨S40000x128, .f32⟩ : BufTy).Contents (Elt F)) (R_main_v16 m c)
def R_main_v18 (m : (ℓ : Loc nD τ sig) → Buf (Elt F) ℓ) (c : Dev nD) : Buf (Elt F) ((c.tc : Thread nD τ).loc main_v18) := (addf : (⟨S40000x128, .f32⟩ : BufTy).Contents (Elt F) → (⟨S40000x128, .f32⟩ : BufTy).Contents (Elt F) → (⟨S40000x128, .f32⟩ : BufTy).Contents (Elt F)) (R_main_v15 m c) (R_main_v17 m c)
def R_main_v19 (m : (ℓ : Loc nD τ sig) → Buf (Elt F) ℓ) (c : Dev nD) : Buf (Elt F) ((c.tc : Thread nD τ).loc main_v19) := ((fun a b => concatenate S60000x128 0 [⟨S20000x128, a⟩, ⟨S40000x128, b⟩] concatenates_S20000x128_S40000x128_S60000x128_d0) : (⟨S20000x128, .f32⟩ : BufTy).Contents (Elt F) → (⟨S40000x128, .f32⟩ : BufTy).Contents (Elt F) → (⟨S60000x128, .f32⟩ : BufTy).Contents (Elt F)) (R_main_arg5 m c) (R_main_v18 m c)
def R_main_v20 (m : (ℓ : Loc nD τ sig) → Buf (Elt F) ℓ) (c : Dev nD) : Buf (Elt F) ((c.tc : Thread nD τ).loc main_v20) := ((transpose S768x128 [1, 0] · transposes_S128x768_S768x128_1_0) : (⟨S128x768, .f32⟩ : BufTy).Contents (Elt F) → (⟨S768x128, .f32⟩ : BufTy).Contents (Elt F)) (R_main_arg11 m c)
def R_main_v21 (m : (ℓ : Loc nD τ sig) → Buf (Elt F) ℓ) (c : Dev nD) : Buf (Elt F) ((c.tc : Thread nD τ).loc main_v21) := ((fun l r => Host.dotGeneral dot_S40000x768_S768x128_S40000x128_1_0_0_1_n_n none l r) : (⟨S40000x768, .f32⟩ : BufTy).Contents (Elt F) → (⟨S768x128, .f32⟩ : BufTy).Contents (Elt F) → (⟨S40000x128, .f32⟩ : BufTy).Contents (Elt F)) (R_main_arg8 m c) (R_main_v20 m c)
def R_main_v22 (m : (ℓ : Loc nD τ sig) → Buf (Elt F) ℓ) (c : Dev nD) : Buf (Elt F) ((c.tc : Thread nD τ).loc main_v22) := (broadcastInDim S1x128 ![1] bcast_S128_S1x128_1 : (⟨S128, .f32⟩ : BufTy).Contents (Elt F) → (⟨S1x128, .f32⟩ : BufTy).Contents (Elt F)) (R_main_arg12 m c)
def R_main_v23 (m : (ℓ : Loc nD τ sig) → Buf (Elt F) ℓ) (c : Dev nD) : Buf (Elt F) ((c.tc : Thread nD τ).loc main_v23) := (broadcastInDim S40000x128 ![0, 1] bcast_S1x128_S40000x128_0_1 : (⟨S1x128, .f32⟩ : BufTy).Contents (Elt F) → (⟨S40000x128, .f32⟩ : BufTy).Contents (Elt F)) (R_main_v22 m c)
def R_main_v24 (m : (ℓ : Loc nD τ sig) → Buf (Elt F) ℓ) (c : Dev nD) : Buf (Elt F) ((c.tc : Thread nD τ).loc main_v24) := (addf : (⟨S40000x128, .f32⟩ : BufTy).Contents (Elt F) → (⟨S40000x128, .f32⟩ : BufTy).Contents (Elt F) → (⟨S40000x128, .f32⟩ : BufTy).Contents (Elt F)) (R_main_v21 m c) (R_main_v23 m c)
def R_main_v25 (m : (ℓ : Loc nD τ sig) → Buf (Elt F) ℓ) (c : Dev nD) : Buf (Elt F) ((c.tc : Thread nD τ).loc main_v25) := ((fun a b => concatenate S60000x128 0 [⟨S20000x128, a⟩, ⟨S40000x128, b⟩] concatenates_S20000x128_S40000x128_S60000x128_d0) : (⟨S20000x128, .f32⟩ : BufTy).Contents (Elt F) → (⟨S40000x128, .f32⟩ : BufTy).Contents (Elt F) → (⟨S60000x128, .f32⟩ : BufTy).Contents (Elt F)) (R_main_arg6 m c) (R_main_v24 m c)
def R_main_call0_v0 (m : (ℓ : Loc nD τ sig) → Buf (Elt F) ℓ) (c : Dev nD) : Buf (Elt F) ((c.tc : Thread nD τ).loc main_call0_v0) := (mulf : (⟨S60000x128, .f32⟩ : BufTy).Contents (Elt F) → (⟨S60000x128, .f32⟩ : BufTy).Contents (Elt F) → (⟨S60000x128, .f32⟩ : BufTy).Contents (Elt F)) (R_main_v19 m c) (R_main_v19 m c)
def R_main_call0_cst (m : (ℓ : Loc nD τ sig) → Buf (Elt F) ℓ) (c : Dev nD) : Buf (Elt F) ((c.tc : Thread nD τ).loc main_call0_cst) := (constant S_ .f32 0x00000000#32 : (⟨S_, .f32⟩ : BufTy).Contents (Elt F))
def R_main_call0_v1 (m : (ℓ : Loc nD τ sig) → Buf (Elt F) ℓ) (c : Dev nD) : Buf (Elt F) ((c.tc : Thread nD τ).loc main_call0_v1) := ((fun x v => Host.reduceAdd x v reducesTo_S60000x128_S60000_d1 h_S_) : (⟨S60000x128, .f32⟩ : BufTy).Contents (Elt F) → (⟨S_, .f32⟩ : BufTy).Contents (Elt F) → (⟨S60000, .f32⟩ : BufTy).Contents (Elt F)) (R_main_call0_v0 m c) (R_main_call0_cst m c)
def R_main_call0_v2 (m : (ℓ : Loc nD τ sig) → Buf (Elt F) ℓ) (c : Dev nD) : Buf (Elt F) ((c.tc : Thread nD τ).loc main_call0_v2) := (broadcastInDim S60000x1 ![0] bcast_S60000_S60000x1_0 : (⟨S60000, .f32⟩ : BufTy).Contents (Elt F) → (⟨S60000x1, .f32⟩ : BufTy).Contents (Elt F)) (R_main_call0_v1 m c)
def R_main_v26 (m : (ℓ : Loc nD τ sig) → Buf (Elt F) ℓ) (c : Dev nD) : Buf (Elt F) ((c.tc : Thread nD τ).loc main_v26) := (Host.sqrt : (⟨S60000x1, .f32⟩ : BufTy).Contents (Elt F) → (⟨S60000x1, .f32⟩ : BufTy).Contents (Elt F)) (R_main_call0_v2 m c)
def R_main_cst_3 (m : (ℓ : Loc nD τ sig) → Buf (Elt F) ℓ) (c : Dev nD) : Buf (Elt F) ((c.tc : Thread nD τ).loc main_cst_3) := (constant S_ .f32 0x2B8CBCCC#32)
def R_main_v27 (m : (ℓ : Loc nD τ sig) → Buf (Elt F) ℓ) (c : Dev nD) : Buf (Elt F) ((c.tc : Thread nD τ).loc main_v27) := (broadcastInDim S60000x1 ![] bcast_S_S60000x1 : (⟨S_, .f32⟩ : BufTy).Contents (Elt F) → (⟨S60000x1, .f32⟩ : BufTy).Contents (Elt F)) (R_main_cst_3 m c)
def R_main_v28 (m : (ℓ : Loc nD τ sig) → Buf (Elt F) ℓ) (c : Dev nD) : Buf (Elt F) ((c.tc : Thread nD τ).loc main_v28) := (maximumf : (⟨S60000x1, .f32⟩ : BufTy).Contents (Elt F) → (⟨S60000x1, .f32⟩ : BufTy).Contents (Elt F) → (⟨S60000x1, .f32⟩ : BufTy).Contents (Elt F)) (R_main_v26 m c) (R_main_v27 m c)
def R_main_v29 (m : (ℓ : Loc nD τ sig) → Buf (Elt F) ℓ) (c : Dev nD) : Buf (Elt F) ((c.tc : Thread nD τ).loc main_v29) := (broadcastInDim S60000x128 ![0, 1] bcast_S60000x1_S60000x128_0_1 : (⟨S60000x1, .f32⟩ : BufTy).Contents (Elt F) → (⟨S60000x128, .f32⟩ : BufTy).Contents (Elt F)) (R_main_v28 m c)
def R_main_v30 (m : (ℓ : Loc nD τ sig) → Buf (Elt F) ℓ) (c : Dev nD) : Buf (Elt F) ((c.tc : Thread nD τ).loc main_v30) := (Host.divf : (⟨S60000x128, .f32⟩ : BufTy).Contents (Elt F) → (⟨S60000x128, .f32⟩ : BufTy).Contents (Elt F) → (⟨S60000x128, .f32⟩ : BufTy).Contents (Elt F)) (R_main_v19 m c) (R_main_v29 m c)
def R_main_v31 (m : (ℓ : Loc nD τ sig) → Buf (Elt F) ℓ) (c : Dev nD) : Buf (Elt F) ((c.tc : Thread nD τ).loc main_v31) := ((fun l r => Host.dotGeneral dot_S60000x128_S128x128_S60000x128_1_0_0_1_n_n none l r) : (⟨S60000x128, .f32⟩ : BufTy).Contents (Elt F) → (⟨S128x128, .f32⟩ : BufTy).Contents (Elt F) → (⟨S60000x128, .f32⟩ : BufTy).Contents (Elt F)) (R_main_v30 m c) (R_main_arg13 m c)
def R_main_c (m : (ℓ : Loc nD τ sig) → Buf (Elt F) ℓ) (c : Dev nD) : Buf (Elt F) ((c.tc : Thread nD τ).loc main_c) := (constantI S_ 32 0#32)
def R_main_v32 (m : (ℓ : Loc nD τ sig) → Buf (Elt F) ℓ) (c : Dev nD) : Buf (Elt F) ((c.tc : Thread nD τ).loc main_v32) := (broadcastInDim S1000000 ![] bcast_S_S1000000 : (⟨S_, .i32⟩ : BufTy).Contents (Elt F) → (⟨S1000000, .i32⟩ : BufTy).Contents (Elt F)) (R_main_c m c)
def R_main_v33 (m : (ℓ : Loc nD τ sig) → Buf (Elt F) ℓ) (c : Dev nD) : Buf (Elt F) ((c.tc : Thread nD τ).loc main_v33) := (cmpi .slt : (⟨S1000000, .i32⟩ : BufTy).Contents (Elt F) → (⟨S1000000, .i32⟩ : BufTy).Contents (Elt F) → (⟨S1000000, .i1⟩ : BufTy).Contents (Elt F)) (R_main_v1 m c) (R_main_v32 m c)
def R_main_c_4 (m : (ℓ : Loc nD τ sig) → Buf (Elt F) ℓ) (c : Dev nD) : Buf (Elt F) ((c.tc : Thread nD τ).loc main_c_4) := (constantI S_ 32 60000#32)
def R_main_v34 (m : (ℓ : Loc nD τ sig) → Buf (Elt F) ℓ) (c : Dev nD) : Buf (Elt F) ((c.tc : Thread nD τ).loc main_v34) := (broadcastInDim S1000000 ![] bcast_S_S1000000 : (⟨S_, .i32⟩ : BufTy).Contents (Elt F) → (⟨S1000000, .i32⟩ : BufTy).Contents (Elt F)) (R_main_c_4 m c)
def R_main_v35 (m : (ℓ : Loc nD τ sig) → Buf (Elt F) ℓ) (c : Dev nD) : Buf (Elt F) ((c.tc : Thread nD τ).loc main_v35) := (addi : (⟨S1000000, .i32⟩ : BufTy).Contents (Elt F) → (⟨S1000000, .i32⟩ : BufTy).Contents (Elt F) → (⟨S1000000, .i32⟩ : BufTy).Contents (Elt F)) (R_main_v1 m c) (R_main_v34 m c)
def R_main_v36 (m : (ℓ : Loc nD τ sig) → Buf (Elt F) ℓ) (c : Dev nD) : Buf (Elt F) ((c.tc : Thread nD τ).loc main_v36) := (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (R_main_v33 m c) (R_main_v35 m c) (R_main_v1 m c)
def R_main_v37 (m : (ℓ : Loc nD τ sig) → Buf (Elt F) ℓ) (c : Dev nD) : Buf (Elt F) ((c.tc : Thread nD τ).loc main_v37) := (broadcastInDim S1000000x1 ![0] bcast_S1000000_S1000000x1_0 : (⟨S1000000, .i32⟩ : BufTy).Contents (Elt F) → (⟨S1000000x1, .i32⟩ : BufTy).Contents (Elt F)) (R_main_v36 m c)
def R_main_v38 (m : (ℓ : Loc nD τ sig) → Buf (Elt F) ℓ) (c : Dev nD) : Buf (Elt F) ((c.tc : Thread nD τ).loc main_v38) := ((fun x i => Host.gather gather_S60000x128_S1000000x1_S1000000x128_1_0_n_n_0_1_1128 x i) : (⟨S60000x128, .f32⟩ : BufTy).Contents (Elt F) → (⟨S1000000x1, .i32⟩ : BufTy).Contents (Elt F) → (⟨S1000000x128, .f32⟩ : BufTy).Contents (Elt F)) (R_main_v31 m c) (R_main_v37 m c)
def R_main_cst_5 (m : (ℓ : Loc nD τ sig) → Buf (Elt F) ℓ) (c : Dev nD) : Buf (Elt F) ((c.tc : Thread nD τ).loc main_cst_5) := (constant S_ .f32 0x00000000#32)
def R_main_v39 (m : (ℓ : Loc nD τ sig) → Buf (Elt F) ℓ) (c : Dev nD) : Buf (Elt F) ((c.tc : Thread nD τ).loc main_v39) := (broadcastInDim S60000x128 ![] bcast_S_S60000x128 : (⟨S_, .f32⟩ : BufTy).Contents (Elt F) → (⟨S60000x128, .f32⟩ : BufTy).Contents (Elt F)) (R_main_cst_5 m c)
def R_main_v40 (m : (ℓ : Loc nD τ sig) → Buf (Elt F) ℓ) (c : Dev nD) : Buf (Elt F) ((c.tc : Thread nD τ).loc main_v40) := (broadcastInDim S1000000x1 ![0] bcast_S1000000_S1000000x1_0 : (⟨S1000000, .i32⟩ : BufTy).Contents (Elt F) → (⟨S1000000x1, .i32⟩ : BufTy).Contents (Elt F)) (R_main_v3 m c)
def R_main_v41 (m : (ℓ : Loc nD τ sig) → Buf (Elt F) ℓ) (c : Dev nD) : Buf (Elt F) ((c.tc : Thread nD τ).loc main_v41) := ((fun x i u => Host.scatterAdd scatter_S60000x128_S1000000x1_S1000000x128_1_0_0_1 x i u) : (⟨S60000x128, .f32⟩ : BufTy).Contents (Elt F) → (⟨S1000000x1, .i32⟩ : BufTy).Contents (Elt F) → (⟨S1000000x128, .f32⟩ : BufTy).Contents (Elt F) → (⟨S60000x128, .f32⟩ : BufTy).Contents (Elt F)) (R_main_v39 m c) (R_main_v40 m c) (R_main_v38 m c)
def R_main_v42 (m : (ℓ : Loc nD τ sig) → Buf (Elt F) ℓ) (c : Dev nD) : Buf (Elt F) ((c.tc : Thread nD τ).loc main_v42) := (broadcastInDim S60000x128 ![0, 1] bcast_S60000x1_S60000x128_0_1 : (⟨S60000x1, .f32⟩ : BufTy).Contents (Elt F) → (⟨S60000x128, .f32⟩ : BufTy).Contents (Elt F)) (R_main_v12 m c)
def R_main_v43 (m : (ℓ : Loc nD τ sig) → Buf (Elt F) ℓ) (c : Dev nD) : Buf (Elt F) ((c.tc : Thread nD τ).loc main_v43) := (mulf : (⟨S60000x128, .f32⟩ : BufTy).Contents (Elt F) → (⟨S60000x128, .f32⟩ : BufTy).Contents (Elt F) → (⟨S60000x128, .f32⟩ : BufTy).Contents (Elt F)) (R_main_v41 m c) (R_main_v42 m c)
def R_main_v44 (m : (ℓ : Loc nD τ sig) → Buf (Elt F) ℓ) (c : Dev nD) : Buf (Elt F) ((c.tc : Thread nD τ).loc main_v44) := ((transpose S128x64 [1, 0] · transposes_S64x128_S128x64_1_0) : (⟨S64x128, .f32⟩ : BufTy).Contents (Elt F) → (⟨S128x64, .f32⟩ : BufTy).Contents (Elt F)) (R_main_arg17 m c)
def R_main_v45 (m : (ℓ : Loc nD τ sig) → Buf (Elt F) ℓ) (c : Dev nD) : Buf (Elt F) ((c.tc : Thread nD τ).loc main_v45) := ((fun l r => Host.dotGeneral dot_S60000x128_S128x64_S60000x64_1_0_0_1_n_n none l r) : (⟨S60000x128, .f32⟩ : BufTy).Contents (Elt F) → (⟨S128x64, .f32⟩ : BufTy).Contents (Elt F) → (⟨S60000x64, .f32⟩ : BufTy).Contents (Elt F)) (R_main_v30 m c) (R_main_v44 m c)
def R_main_v46 (m : (ℓ : Loc nD τ sig) → Buf (Elt F) ℓ) (c : Dev nD) : Buf (Elt F) ((c.tc : Thread nD τ).loc main_v46) := (broadcastInDim S1x64 ![1] bcast_S64_S1x64_1 : (⟨S64, .f32⟩ : BufTy).Contents (Elt F) → (⟨S1x64, .f32⟩ : BufTy).Contents (Elt F)) (R_main_arg18 m c)
def R_main_v47 (m : (ℓ : Loc nD τ sig) → Buf (Elt F) ℓ) (c : Dev nD) : Buf (Elt F) ((c.tc : Thread nD τ).loc main_v47) := (broadcastInDim S60000x64 ![0, 1] bcast_S1x64_S60000x64_0_1 : (⟨S1x64, .f32⟩ : BufTy).Contents (Elt F) → (⟨S60000x64, .f32⟩ : BufTy).Contents (Elt F)) (R_main_v46 m c)
def R_main_v48 (m : (ℓ : Loc nD τ sig) → Buf (Elt F) ℓ) (c : Dev nD) : Buf (Elt F) ((c.tc : Thread nD τ).loc main_v48) := (addf : (⟨S60000x64, .f32⟩ : BufTy).Contents (Elt F) → (⟨S60000x64, .f32⟩ : BufTy).Contents (Elt F) → (⟨S60000x64, .f32⟩ : BufTy).Contents (Elt F)) (R_main_v45 m c) (R_main_v47 m c)
def R_main_v49 (m : (ℓ : Loc nD τ sig) → Buf (Elt F) ℓ) (c : Dev nD) : Buf (Elt F) ((c.tc : Thread nD τ).loc main_v49) := (addf : (⟨S60000x64, .f32⟩ : BufTy).Contents (Elt F) → (⟨S60000x64, .f32⟩ : BufTy).Contents (Elt F) → (⟨S60000x64, .f32⟩ : BufTy).Contents (Elt F)) (R_main_v48 m c) (R_main_v13 m c)
def R_main_v50 (m : (ℓ : Loc nD τ sig) → Buf (Elt F) ℓ) (c : Dev nD) : Buf (Elt F) ((c.tc : Thread nD τ).loc main_v50) := ((fun a b => concatenate S60000x192 1 [⟨S60000x128, a⟩, ⟨S60000x64, b⟩] concatenates_S60000x128_S60000x64_S60000x192_d1) : (⟨S60000x128, .f32⟩ : BufTy).Contents (Elt F) → (⟨S60000x64, .f32⟩ : BufTy).Contents (Elt F) → (⟨S60000x192, .f32⟩ : BufTy).Contents (Elt F)) (R_main_v43 m c) (R_main_v49 m c)
def R_main_v51 (m : (ℓ : Loc nD τ sig) → Buf (Elt F) ℓ) (c : Dev nD) : Buf (Elt F) ((c.tc : Thread nD τ).loc main_v51) := ((transpose S192x64 [1, 0] · transposes_S64x192_S192x64_1_0) : (⟨S64x192, .f32⟩ : BufTy).Contents (Elt F) → (⟨S192x64, .f32⟩ : BufTy).Contents (Elt F)) (R_main_arg25 m c)
def R_main_v52 (m : (ℓ : Loc nD τ sig) → Buf (Elt F) ℓ) (c : Dev nD) : Buf (Elt F) ((c.tc : Thread nD τ).loc main_v52) := ((fun l r => Host.dotGeneral dot_S60000x192_S192x64_S60000x64_1_0_0_1_n_n none l r) : (⟨S60000x192, .f32⟩ : BufTy).Contents (Elt F) → (⟨S192x64, .f32⟩ : BufTy).Contents (Elt F) → (⟨S60000x64, .f32⟩ : BufTy).Contents (Elt F)) (R_main_v50 m c) (R_main_v51 m c)
def R_main_v53 (m : (ℓ : Loc nD τ sig) → Buf (Elt F) ℓ) (c : Dev nD) : Buf (Elt F) ((c.tc : Thread nD τ).loc main_v53) := (broadcastInDim S1x64 ![1] bcast_S64_S1x64_1 : (⟨S64, .f32⟩ : BufTy).Contents (Elt F) → (⟨S1x64, .f32⟩ : BufTy).Contents (Elt F)) (R_main_arg26 m c)
def R_main_v54 (m : (ℓ : Loc nD τ sig) → Buf (Elt F) ℓ) (c : Dev nD) : Buf (Elt F) ((c.tc : Thread nD τ).loc main_v54) := (broadcastInDim S60000x64 ![0, 1] bcast_S1x64_S60000x64_0_1 : (⟨S1x64, .f32⟩ : BufTy).Contents (Elt F) → (⟨S60000x64, .f32⟩ : BufTy).Contents (Elt F)) (R_main_v53 m c)
def R_main_v55 (m : (ℓ : Loc nD τ sig) → Buf (Elt F) ℓ) (c : Dev nD) : Buf (Elt F) ((c.tc : Thread nD τ).loc main_v55) := (addf : (⟨S60000x64, .f32⟩ : BufTy).Contents (Elt F) → (⟨S60000x64, .f32⟩ : BufTy).Contents (Elt F) → (⟨S60000x64, .f32⟩ : BufTy).Contents (Elt F)) (R_main_v52 m c) (R_main_v54 m c)
def R_main_v56 (m : (ℓ : Loc nD τ sig) → Buf (Elt F) ℓ) (c : Dev nD) : Buf (Elt F) ((c.tc : Thread nD τ).loc main_v56) := ((fun l r => Host.dotGeneral dot_S60000x64_S64x64_S60000x64_1_0_0_1_n_n none l r) : (⟨S60000x64, .f32⟩ : BufTy).Contents (Elt F) → (⟨S64x64, .f32⟩ : BufTy).Contents (Elt F) → (⟨S60000x64, .f32⟩ : BufTy).Contents (Elt F)) (R_main_v55 m c) (R_main_arg14 m c)
def R_main_c_6 (m : (ℓ : Loc nD τ sig) → Buf (Elt F) ℓ) (c : Dev nD) : Buf (Elt F) ((c.tc : Thread nD τ).loc main_c_6) := (constantI S_ 32 0#32)
def R_main_v57 (m : (ℓ : Loc nD τ sig) → Buf (Elt F) ℓ) (c : Dev nD) : Buf (Elt F) ((c.tc : Thread nD τ).loc main_v57) := (broadcastInDim S1000000 ![] bcast_S_S1000000 : (⟨S_, .i32⟩ : BufTy).Contents (Elt F) → (⟨S1000000, .i32⟩ : BufTy).Contents (Elt F)) (R_main_c_6 m c)
def R_main_v58 (m : (ℓ : Loc nD τ sig) → Buf (Elt F) ℓ) (c : Dev nD) : Buf (Elt F) ((c.tc : Thread nD τ).loc main_v58) := (cmpi .slt : (⟨S1000000, .i32⟩ : BufTy).Contents (Elt F) → (⟨S1000000, .i32⟩ : BufTy).Contents (Elt F) → (⟨S1000000, .i1⟩ : BufTy).Contents (Elt F)) (R_main_v1 m c) (R_main_v57 m c)
def R_main_c_7 (m : (ℓ : Loc nD τ sig) → Buf (Elt F) ℓ) (c : Dev nD) : Buf (Elt F) ((c.tc : Thread nD τ).loc main_c_7) := (constantI S_ 32 60000#32)
def R_main_v59 (m : (ℓ : Loc nD τ sig) → Buf (Elt F) ℓ) (c : Dev nD) : Buf (Elt F) ((c.tc : Thread nD τ).loc main_v59) := (broadcastInDim S1000000 ![] bcast_S_S1000000 : (⟨S_, .i32⟩ : BufTy).Contents (Elt F) → (⟨S1000000, .i32⟩ : BufTy).Contents (Elt F)) (R_main_c_7 m c)
def R_main_v60 (m : (ℓ : Loc nD τ sig) → Buf (Elt F) ℓ) (c : Dev nD) : Buf (Elt F) ((c.tc : Thread nD τ).loc main_v60) := (addi : (⟨S1000000, .i32⟩ : BufTy).Contents (Elt F) → (⟨S1000000, .i32⟩ : BufTy).Contents (Elt F) → (⟨S1000000, .i32⟩ : BufTy).Contents (Elt F)) (R_main_v1 m c) (R_main_v59 m c)
def R_main_v61 (m : (ℓ : Loc nD τ sig) → Buf (Elt F) ℓ) (c : Dev nD) : Buf (Elt F) ((c.tc : Thread nD τ).loc main_v61) := (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (R_main_v58 m c) (R_main_v60 m c) (R_main_v1 m c)
def R_main_v62 (m : (ℓ : Loc nD τ sig) → Buf (Elt F) ℓ) (c : Dev nD) : Buf (Elt F) ((c.tc : Thread nD τ).loc main_v62) := (broadcastInDim S1000000x1 ![0] bcast_S1000000_S1000000x1_0 : (⟨S1000000, .i32⟩ : BufTy).Contents (Elt F) → (⟨S1000000x1, .i32⟩ : BufTy).Contents (Elt F)) (R_main_v61 m c)
def R_main_v63 (m : (ℓ : Loc nD τ sig) → Buf (Elt F) ℓ) (c : Dev nD) : Buf (Elt F) ((c.tc : Thread nD τ).loc main_v63) := ((fun x i => Host.gather gather_S60000x64_S1000000x1_S1000000x64_1_0_n_n_0_1_164 x i) : (⟨S60000x64, .f32⟩ : BufTy).Contents (Elt F) → (⟨S1000000x1, .i32⟩ : BufTy).Contents (Elt F) → (⟨S1000000x64, .f32⟩ : BufTy).Contents (Elt F)) (R_main_v56 m c) (R_main_v62 m c)
def R_main_cst_8 (m : (ℓ : Loc nD τ sig) → Buf (Elt F) ℓ) (c : Dev nD) : Buf (Elt F) ((c.tc : Thread nD τ).loc main_cst_8) := (constant S_ .f32 0x00000000#32)
def R_main_v64 (m : (ℓ : Loc nD τ sig) → Buf (Elt F) ℓ) (c : Dev nD) : Buf (Elt F) ((c.tc : Thread nD τ).loc main_v64) := (broadcastInDim S60000x64 ![] bcast_S_S60000x64 : (⟨S_, .f32⟩ : BufTy).Contents (Elt F) → (⟨S60000x64, .f32⟩ : BufTy).Contents (Elt F)) (R_main_cst_8 m c)
def R_main_v65 (m : (ℓ : Loc nD τ sig) → Buf (Elt F) ℓ) (c : Dev nD) : Buf (Elt F) ((c.tc : Thread nD τ).loc main_v65) := (broadcastInDim S1000000x1 ![0] bcast_S1000000_S1000000x1_0 : (⟨S1000000, .i32⟩ : BufTy).Contents (Elt F) → (⟨S1000000x1, .i32⟩ : BufTy).Contents (Elt F)) (R_main_v3 m c)
def R_main_v66 (m : (ℓ : Loc nD τ sig) → Buf (Elt F) ℓ) (c : Dev nD) : Buf (Elt F) ((c.tc : Thread nD τ).loc main_v66) := ((fun x i u => Host.scatterAdd scatter_S60000x64_S1000000x1_S1000000x64_1_0_0_1 x i u) : (⟨S60000x64, .f32⟩ : BufTy).Contents (Elt F) → (⟨S1000000x1, .i32⟩ : BufTy).Contents (Elt F) → (⟨S1000000x64, .f32⟩ : BufTy).Contents (Elt F) → (⟨S60000x64, .f32⟩ : BufTy).Contents (Elt F)) (R_main_v64 m c) (R_main_v65 m c) (R_main_v63 m c)
def R_main_v67 (m : (ℓ : Loc nD τ sig) → Buf (Elt F) ℓ) (c : Dev nD) : Buf (Elt F) ((c.tc : Thread nD τ).loc main_v67) := (broadcastInDim S60000x64 ![0, 1] bcast_S60000x1_S60000x64_0_1 : (⟨S60000x1, .f32⟩ : BufTy).Contents (Elt F) → (⟨S60000x64, .f32⟩ : BufTy).Contents (Elt F)) (R_main_v12 m c)
def R_main_v68 (m : (ℓ : Loc nD τ sig) → Buf (Elt F) ℓ) (c : Dev nD) : Buf (Elt F) ((c.tc : Thread nD τ).loc main_v68) := (mulf : (⟨S60000x64, .f32⟩ : BufTy).Contents (Elt F) → (⟨S60000x64, .f32⟩ : BufTy).Contents (Elt F) → (⟨S60000x64, .f32⟩ : BufTy).Contents (Elt F)) (R_main_v66 m c) (R_main_v67 m c)
def R_main_v69 (m : (ℓ : Loc nD τ sig) → Buf (Elt F) ℓ) (c : Dev nD) : Buf (Elt F) ((c.tc : Thread nD τ).loc main_v69) := ((transpose S64x64 [1, 0] · transposes_S64x64_S64x64_1_0) : (⟨S64x64, .f32⟩ : BufTy).Contents (Elt F) → (⟨S64x64, .f32⟩ : BufTy).Contents (Elt F)) (R_main_arg19 m c)
def R_main_v70 (m : (ℓ : Loc nD τ sig) → Buf (Elt F) ℓ) (c : Dev nD) : Buf (Elt F) ((c.tc : Thread nD τ).loc main_v70) := ((fun l r => Host.dotGeneral dot_S60000x64_S64x64_S60000x64_1_0_0_1_n_n none l r) : (⟨S60000x64, .f32⟩ : BufTy).Contents (Elt F) → (⟨S64x64, .f32⟩ : BufTy).Contents (Elt F) → (⟨S60000x64, .f32⟩ : BufTy).Contents (Elt F)) (R_main_v55 m c) (R_main_v69 m c)
def R_main_v71 (m : (ℓ : Loc nD τ sig) → Buf (Elt F) ℓ) (c : Dev nD) : Buf (Elt F) ((c.tc : Thread nD τ).loc main_v71) := (broadcastInDim S1x64 ![1] bcast_S64_S1x64_1 : (⟨S64, .f32⟩ : BufTy).Contents (Elt F) → (⟨S1x64, .f32⟩ : BufTy).Contents (Elt F)) (R_main_arg20 m c)
def R_main_v72 (m : (ℓ : Loc nD τ sig) → Buf (Elt F) ℓ) (c : Dev nD) : Buf (Elt F) ((c.tc : Thread nD τ).loc main_v72) := (broadcastInDim S60000x64 ![0, 1] bcast_S1x64_S60000x64_0_1 : (⟨S1x64, .f32⟩ : BufTy).Contents (Elt F) → (⟨S60000x64, .f32⟩ : BufTy).Contents (Elt F)) (R_main_v71 m c)
def R_main_v73 (m : (ℓ : Loc nD τ sig) → Buf (Elt F) ℓ) (c : Dev nD) : Buf (Elt F) ((c.tc : Thread nD τ).loc main_v73) := (addf : (⟨S60000x64, .f32⟩ : BufTy).Contents (Elt F) → (⟨S60000x64, .f32⟩ : BufTy).Contents (Elt F) → (⟨S60000x64, .f32⟩ : BufTy).Contents (Elt F)) (R_main_v70 m c) (R_main_v72 m c)
def R_main_v74 (m : (ℓ : Loc nD τ sig) → Buf (Elt F) ℓ) (c : Dev nD) : Buf (Elt F) ((c.tc : Thread nD τ).loc main_v74) := (addf : (⟨S60000x64, .f32⟩ : BufTy).Contents (Elt F) → (⟨S60000x64, .f32⟩ : BufTy).Contents (Elt F) → (⟨S60000x64, .f32⟩ : BufTy).Contents (Elt F)) (R_main_v73 m c) (R_main_v13 m c)
def R_main_v75 (m : (ℓ : Loc nD τ sig) → Buf (Elt F) ℓ) (c : Dev nD) : Buf (Elt F) ((c.tc : Thread nD τ).loc main_v75) := ((fun a b => concatenate S60000x128 1 [⟨S60000x64, a⟩, ⟨S60000x64, b⟩] concatenates_S60000x64_S60000x64_S60000x128_d1) : (⟨S60000x64, .f32⟩ : BufTy).Contents (Elt F) → (⟨S60000x64, .f32⟩ : BufTy).Contents (Elt F) → (⟨S60000x128, .f32⟩ : BufTy).Contents (Elt F)) (R_main_v68 m c) (R_main_v74 m c)
def R_main_v76 (m : (ℓ : Loc nD τ sig) → Buf (Elt F) ℓ) (c : Dev nD) : Buf (Elt F) ((c.tc : Thread nD τ).loc main_v76) := ((transpose S128x64 [1, 0] · transposes_S64x128_S128x64_1_0) : (⟨S64x128, .f32⟩ : BufTy).Contents (Elt F) → (⟨S128x64, .f32⟩ : BufTy).Contents (Elt F)) (R_main_arg27 m c)
def R_main_v77 (m : (ℓ : Loc nD τ sig) → Buf (Elt F) ℓ) (c : Dev nD) : Buf (Elt F) ((c.tc : Thread nD τ).loc main_v77) := ((fun l r => Host.dotGeneral dot_S60000x128_S128x64_S60000x64_1_0_0_1_n_n none l r) : (⟨S60000x128, .f32⟩ : BufTy).Contents (Elt F) → (⟨S128x64, .f32⟩ : BufTy).Contents (Elt F) → (⟨S60000x64, .f32⟩ : BufTy).Contents (Elt F)) (R_main_v75 m c) (R_main_v76 m c)
def R_main_v78 (m : (ℓ : Loc nD τ sig) → Buf (Elt F) ℓ) (c : Dev nD) : Buf (Elt F) ((c.tc : Thread nD τ).loc main_v78) := (broadcastInDim S1x64 ![1] bcast_S64_S1x64_1 : (⟨S64, .f32⟩ : BufTy).Contents (Elt F) → (⟨S1x64, .f32⟩ : BufTy).Contents (Elt F)) (R_main_arg28 m c)
def R_main_v79 (m : (ℓ : Loc nD τ sig) → Buf (Elt F) ℓ) (c : Dev nD) : Buf (Elt F) ((c.tc : Thread nD τ).loc main_v79) := (broadcastInDim S60000x64 ![0, 1] bcast_S1x64_S60000x64_0_1 : (⟨S1x64, .f32⟩ : BufTy).Contents (Elt F) → (⟨S60000x64, .f32⟩ : BufTy).Contents (Elt F)) (R_main_v78 m c)
def R_main_v80 (m : (ℓ : Loc nD τ sig) → Buf (Elt F) ℓ) (c : Dev nD) : Buf (Elt F) ((c.tc : Thread nD τ).loc main_v80) := (addf : (⟨S60000x64, .f32⟩ : BufTy).Contents (Elt F) → (⟨S60000x64, .f32⟩ : BufTy).Contents (Elt F) → (⟨S60000x64, .f32⟩ : BufTy).Contents (Elt F)) (R_main_v77 m c) (R_main_v79 m c)
def R_main_call1_v0 (m : (ℓ : Loc nD τ sig) → Buf (Elt F) ℓ) (c : Dev nD) : Buf (Elt F) ((c.tc : Thread nD τ).loc main_call1_v0) := (mulf : (⟨S60000x128, .f32⟩ : BufTy).Contents (Elt F) → (⟨S60000x128, .f32⟩ : BufTy).Contents (Elt F) → (⟨S60000x128, .f32⟩ : BufTy).Contents (Elt F)) (R_main_v25 m c) (R_main_v25 m c)
def R_main_call1_cst (m : (ℓ : Loc nD τ sig) → Buf (Elt F) ℓ) (c : Dev nD) : Buf (Elt F) ((c.tc : Thread nD τ).loc main_call1_cst) := (constant S_ .f32 0x00000000#32 : (⟨S_, .f32⟩ : BufTy).Contents (Elt F))
def R_main_call1_v1 (m : (ℓ : Loc nD τ sig) → Buf (Elt F) ℓ) (c : Dev nD) : Buf (Elt F) ((c.tc : Thread nD τ).loc main_call1_v1) := ((fun x v => Host.reduceAdd x v reducesTo_S60000x128_S60000_d1 h_S_) : (⟨S60000x128, .f32⟩ : BufTy).Contents (Elt F) → (⟨S_, .f32⟩ : BufTy).Contents (Elt F) → (⟨S60000, .f32⟩ : BufTy).Contents (Elt F)) (R_main_call1_v0 m c) (R_main_call1_cst m c)
def R_main_call1_v2 (m : (ℓ : Loc nD τ sig) → Buf (Elt F) ℓ) (c : Dev nD) : Buf (Elt F) ((c.tc : Thread nD τ).loc main_call1_v2) := (broadcastInDim S60000x1 ![0] bcast_S60000_S60000x1_0 : (⟨S60000, .f32⟩ : BufTy).Contents (Elt F) → (⟨S60000x1, .f32⟩ : BufTy).Contents (Elt F)) (R_main_call1_v1 m c)
def R_main_v81 (m : (ℓ : Loc nD τ sig) → Buf (Elt F) ℓ) (c : Dev nD) : Buf (Elt F) ((c.tc : Thread nD τ).loc main_v81) := (Host.sqrt : (⟨S60000x1, .f32⟩ : BufTy).Contents (Elt F) → (⟨S60000x1, .f32⟩ : BufTy).Contents (Elt F)) (R_main_call1_v2 m c)
def R_main_cst_9 (m : (ℓ : Loc nD τ sig) → Buf (Elt F) ℓ) (c : Dev nD) : Buf (Elt F) ((c.tc : Thread nD τ).loc main_cst_9) := (constant S_ .f32 0x2B8CBCCC#32)
def R_main_v82 (m : (ℓ : Loc nD τ sig) → Buf (Elt F) ℓ) (c : Dev nD) : Buf (Elt F) ((c.tc : Thread nD τ).loc main_v82) := (broadcastInDim S60000x1 ![] bcast_S_S60000x1 : (⟨S_, .f32⟩ : BufTy).Contents (Elt F) → (⟨S60000x1, .f32⟩ : BufTy).Contents (Elt F)) (R_main_cst_9 m c)
def R_main_v83 (m : (ℓ : Loc nD τ sig) → Buf (Elt F) ℓ) (c : Dev nD) : Buf (Elt F) ((c.tc : Thread nD τ).loc main_v83) := (maximumf : (⟨S60000x1, .f32⟩ : BufTy).Contents (Elt F) → (⟨S60000x1, .f32⟩ : BufTy).Contents (Elt F) → (⟨S60000x1, .f32⟩ : BufTy).Contents (Elt F)) (R_main_v81 m c) (R_main_v82 m c)
def R_main_v84 (m : (ℓ : Loc nD τ sig) → Buf (Elt F) ℓ) (c : Dev nD) : Buf (Elt F) ((c.tc : Thread nD τ).loc main_v84) := (broadcastInDim S60000x128 ![0, 1] bcast_S60000x1_S60000x128_0_1 : (⟨S60000x1, .f32⟩ : BufTy).Contents (Elt F) → (⟨S60000x128, .f32⟩ : BufTy).Contents (Elt F)) (R_main_v83 m c)
def R_main_v85 (m : (ℓ : Loc nD τ sig) → Buf (Elt F) ℓ) (c : Dev nD) : Buf (Elt F) ((c.tc : Thread nD τ).loc main_v85) := (Host.divf : (⟨S60000x128, .f32⟩ : BufTy).Contents (Elt F) → (⟨S60000x128, .f32⟩ : BufTy).Contents (Elt F) → (⟨S60000x128, .f32⟩ : BufTy).Contents (Elt F)) (R_main_v25 m c) (R_main_v84 m c)
def R_main_v86 (m : (ℓ : Loc nD τ sig) → Buf (Elt F) ℓ) (c : Dev nD) : Buf (Elt F) ((c.tc : Thread nD τ).loc main_v86) := ((fun l r => Host.dotGeneral dot_S60000x128_S128x128_S60000x128_1_0_0_1_n_n none l r) : (⟨S60000x128, .f32⟩ : BufTy).Contents (Elt F) → (⟨S128x128, .f32⟩ : BufTy).Contents (Elt F) → (⟨S60000x128, .f32⟩ : BufTy).Contents (Elt F)) (R_main_v85 m c) (R_main_arg15 m c)
def R_main_c_10 (m : (ℓ : Loc nD τ sig) → Buf (Elt F) ℓ) (c : Dev nD) : Buf (Elt F) ((c.tc : Thread nD τ).loc main_c_10) := (constantI S_ 32 0#32)
def R_main_v87 (m : (ℓ : Loc nD τ sig) → Buf (Elt F) ℓ) (c : Dev nD) : Buf (Elt F) ((c.tc : Thread nD τ).loc main_v87) := (broadcastInDim S1000000 ![] bcast_S_S1000000 : (⟨S_, .i32⟩ : BufTy).Contents (Elt F) → (⟨S1000000, .i32⟩ : BufTy).Contents (Elt F)) (R_main_c_10 m c)
def R_main_v88 (m : (ℓ : Loc nD τ sig) → Buf (Elt F) ℓ) (c : Dev nD) : Buf (Elt F) ((c.tc : Thread nD τ).loc main_v88) := (cmpi .slt : (⟨S1000000, .i32⟩ : BufTy).Contents (Elt F) → (⟨S1000000, .i32⟩ : BufTy).Contents (Elt F) → (⟨S1000000, .i1⟩ : BufTy).Contents (Elt F)) (R_main_v1 m c) (R_main_v87 m c)
def R_main_c_11 (m : (ℓ : Loc nD τ sig) → Buf (Elt F) ℓ) (c : Dev nD) : Buf (Elt F) ((c.tc : Thread nD τ).loc main_c_11) := (constantI S_ 32 60000#32)
def R_main_v89 (m : (ℓ : Loc nD τ sig) → Buf (Elt F) ℓ) (c : Dev nD) : Buf (Elt F) ((c.tc : Thread nD τ).loc main_v89) := (broadcastInDim S1000000 ![] bcast_S_S1000000 : (⟨S_, .i32⟩ : BufTy).Contents (Elt F) → (⟨S1000000, .i32⟩ : BufTy).Contents (Elt F)) (R_main_c_11 m c)
def R_main_v90 (m : (ℓ : Loc nD τ sig) → Buf (Elt F) ℓ) (c : Dev nD) : Buf (Elt F) ((c.tc : Thread nD τ).loc main_v90) := (addi : (⟨S1000000, .i32⟩ : BufTy).Contents (Elt F) → (⟨S1000000, .i32⟩ : BufTy).Contents (Elt F) → (⟨S1000000, .i32⟩ : BufTy).Contents (Elt F)) (R_main_v1 m c) (R_main_v89 m c)
def R_main_v91 (m : (ℓ : Loc nD τ sig) → Buf (Elt F) ℓ) (c : Dev nD) : Buf (Elt F) ((c.tc : Thread nD τ).loc main_v91) := (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (R_main_v88 m c) (R_main_v90 m c) (R_main_v1 m c)
def R_main_v92 (m : (ℓ : Loc nD τ sig) → Buf (Elt F) ℓ) (c : Dev nD) : Buf (Elt F) ((c.tc : Thread nD τ).loc main_v92) := (broadcastInDim S1000000x1 ![0] bcast_S1000000_S1000000x1_0 : (⟨S1000000, .i32⟩ : BufTy).Contents (Elt F) → (⟨S1000000x1, .i32⟩ : BufTy).Contents (Elt F)) (R_main_v91 m c)
def R_main_v93 (m : (ℓ : Loc nD τ sig) → Buf (Elt F) ℓ) (c : Dev nD) : Buf (Elt F) ((c.tc : Thread nD τ).loc main_v93) := ((fun x i => Host.gather gather_S60000x128_S1000000x1_S1000000x128_1_0_n_n_0_1_1128 x i) : (⟨S60000x128, .f32⟩ : BufTy).Contents (Elt F) → (⟨S1000000x1, .i32⟩ : BufTy).Contents (Elt F) → (⟨S1000000x128, .f32⟩ : BufTy).Contents (Elt F)) (R_main_v86 m c) (R_main_v92 m c)
def R_main_cst_12 (m : (ℓ : Loc nD τ sig) → Buf (Elt F) ℓ) (c : Dev nD) : Buf (Elt F) ((c.tc : Thread nD τ).loc main_cst_12) := (constant S_ .f32 0x00000000#32)
def R_main_v94 (m : (ℓ : Loc nD τ sig) → Buf (Elt F) ℓ) (c : Dev nD) : Buf (Elt F) ((c.tc : Thread nD τ).loc main_v94) := (broadcastInDim S60000x128 ![] bcast_S_S60000x128 : (⟨S_, .f32⟩ : BufTy).Contents (Elt F) → (⟨S60000x128, .f32⟩ : BufTy).Contents (Elt F)) (R_main_cst_12 m c)
def R_main_v95 (m : (ℓ : Loc nD τ sig) → Buf (Elt F) ℓ) (c : Dev nD) : Buf (Elt F) ((c.tc : Thread nD τ).loc main_v95) := (broadcastInDim S1000000x1 ![0] bcast_S1000000_S1000000x1_0 : (⟨S1000000, .i32⟩ : BufTy).Contents (Elt F) → (⟨S1000000x1, .i32⟩ : BufTy).Contents (Elt F)) (R_main_v3 m c)
def R_main_v96 (m : (ℓ : Loc nD τ sig) → Buf (Elt F) ℓ) (c : Dev nD) : Buf (Elt F) ((c.tc : Thread nD τ).loc main_v96) := ((fun x i u => Host.scatterAdd scatter_S60000x128_S1000000x1_S1000000x128_1_0_0_1 x i u) : (⟨S60000x128, .f32⟩ : BufTy).Contents (Elt F) → (⟨S1000000x1, .i32⟩ : BufTy).Contents (Elt F) → (⟨S1000000x128, .f32⟩ : BufTy).Contents (Elt F) → (⟨S60000x128, .f32⟩ : BufTy).Contents (Elt F)) (R_main_v94 m c) (R_main_v95 m c) (R_main_v93 m c)
def R_main_v97 (m : (ℓ : Loc nD τ sig) → Buf (Elt F) ℓ) (c : Dev nD) : Buf (Elt F) ((c.tc : Thread nD τ).loc main_v97) := (broadcastInDim S60000x128 ![0, 1] bcast_S60000x1_S60000x128_0_1 : (⟨S60000x1, .f32⟩ : BufTy).Contents (Elt F) → (⟨S60000x128, .f32⟩ : BufTy).Contents (Elt F)) (R_main_v12 m c)
def R_main_v98 (m : (ℓ : Loc nD τ sig) → Buf (Elt F) ℓ) (c : Dev nD) : Buf (Elt F) ((c.tc : Thread nD τ).loc main_v98) := (mulf : (⟨S60000x128, .f32⟩ : BufTy).Contents (Elt F) → (⟨S60000x128, .f32⟩ : BufTy).Contents (Elt F) → (⟨S60000x128, .f32⟩ : BufTy).Contents (Elt F)) (R_main_v96 m c) (R_main_v97 m c)
def R_main_v99 (m : (ℓ : Loc nD τ sig) → Buf (Elt F) ℓ) (c : Dev nD) : Buf (Elt F) ((c.tc : Thread nD τ).loc main_v99) := ((transpose S128x64 [1, 0] · transposes_S64x128_S128x64_1_0) : (⟨S64x128, .f32⟩ : BufTy).Contents (Elt F) → (⟨S128x64, .f32⟩ : BufTy).Contents (Elt F)) (R_main_arg21 m c)
def R_main_v100 (m : (ℓ : Loc nD τ sig) → Buf (Elt F) ℓ) (c : Dev nD) : Buf (Elt F) ((c.tc : Thread nD τ).loc main_v100) := ((fun l r => Host.dotGeneral dot_S60000x128_S128x64_S60000x64_1_0_0_1_n_n none l r) : (⟨S60000x128, .f32⟩ : BufTy).Contents (Elt F) → (⟨S128x64, .f32⟩ : BufTy).Contents (Elt F) → (⟨S60000x64, .f32⟩ : BufTy).Contents (Elt F)) (R_main_v85 m c) (R_main_v99 m c)
def R_main_v101 (m : (ℓ : Loc nD τ sig) → Buf (Elt F) ℓ) (c : Dev nD) : Buf (Elt F) ((c.tc : Thread nD τ).loc main_v101) := (broadcastInDim S1x64 ![1] bcast_S64_S1x64_1 : (⟨S64, .f32⟩ : BufTy).Contents (Elt F) → (⟨S1x64, .f32⟩ : BufTy).Contents (Elt F)) (R_main_arg22 m c)
def R_main_v102 (m : (ℓ : Loc nD τ sig) → Buf (Elt F) ℓ) (c : Dev nD) : Buf (Elt F) ((c.tc : Thread nD τ).loc main_v102) := (broadcastInDim S60000x64 ![0, 1] bcast_S1x64_S60000x64_0_1 : (⟨S1x64, .f32⟩ : BufTy).Contents (Elt F) → (⟨S60000x64, .f32⟩ : BufTy).Contents (Elt F)) (R_main_v101 m c)
def R_main_v103 (m : (ℓ : Loc nD τ sig) → Buf (Elt F) ℓ) (c : Dev nD) : Buf (Elt F) ((c.tc : Thread nD τ).loc main_v103) := (addf : (⟨S60000x64, .f32⟩ : BufTy).Contents (Elt F) → (⟨S60000x64, .f32⟩ : BufTy).Contents (Elt F) → (⟨S60000x64, .f32⟩ : BufTy).Contents (Elt F)) (R_main_v100 m c) (R_main_v102 m c)
def R_main_v104 (m : (ℓ : Loc nD τ sig) → Buf (Elt F) ℓ) (c : Dev nD) : Buf (Elt F) ((c.tc : Thread nD τ).loc main_v104) := (addf : (⟨S60000x64, .f32⟩ : BufTy).Contents (Elt F) → (⟨S60000x64, .f32⟩ : BufTy).Contents (Elt F) → (⟨S60000x64, .f32⟩ : BufTy).Contents (Elt F)) (R_main_v103 m c) (R_main_v13 m c)
def R_main_v105 (m : (ℓ : Loc nD τ sig) → Buf (Elt F) ℓ) (c : Dev nD) : Buf (Elt F) ((c.tc : Thread nD τ).loc main_v105) := ((fun a b => concatenate S60000x192 1 [⟨S60000x128, a⟩, ⟨S60000x64, b⟩] concatenates_S60000x128_S60000x64_S60000x192_d1) : (⟨S60000x128, .f32⟩ : BufTy).Contents (Elt F) → (⟨S60000x64, .f32⟩ : BufTy).Contents (Elt F) → (⟨S60000x192, .f32⟩ : BufTy).Contents (Elt F)) (R_main_v98 m c) (R_main_v104 m c)
def R_main_v106 (m : (ℓ : Loc nD τ sig) → Buf (Elt F) ℓ) (c : Dev nD) : Buf (Elt F) ((c.tc : Thread nD τ).loc main_v106) := ((transpose S192x64 [1, 0] · transposes_S64x192_S192x64_1_0) : (⟨S64x192, .f32⟩ : BufTy).Contents (Elt F) → (⟨S192x64, .f32⟩ : BufTy).Contents (Elt F)) (R_main_arg29 m c)
def R_main_v107 (m : (ℓ : Loc nD τ sig) → Buf (Elt F) ℓ) (c : Dev nD) : Buf (Elt F) ((c.tc : Thread nD τ).loc main_v107) := ((fun l r => Host.dotGeneral dot_S60000x192_S192x64_S60000x64_1_0_0_1_n_n none l r) : (⟨S60000x192, .f32⟩ : BufTy).Contents (Elt F) → (⟨S192x64, .f32⟩ : BufTy).Contents (Elt F) → (⟨S60000x64, .f32⟩ : BufTy).Contents (Elt F)) (R_main_v105 m c) (R_main_v106 m c)
def R_main_v108 (m : (ℓ : Loc nD τ sig) → Buf (Elt F) ℓ) (c : Dev nD) : Buf (Elt F) ((c.tc : Thread nD τ).loc main_v108) := (broadcastInDim S1x64 ![1] bcast_S64_S1x64_1 : (⟨S64, .f32⟩ : BufTy).Contents (Elt F) → (⟨S1x64, .f32⟩ : BufTy).Contents (Elt F)) (R_main_arg30 m c)
def R_main_v109 (m : (ℓ : Loc nD τ sig) → Buf (Elt F) ℓ) (c : Dev nD) : Buf (Elt F) ((c.tc : Thread nD τ).loc main_v109) := (broadcastInDim S60000x64 ![0, 1] bcast_S1x64_S60000x64_0_1 : (⟨S1x64, .f32⟩ : BufTy).Contents (Elt F) → (⟨S60000x64, .f32⟩ : BufTy).Contents (Elt F)) (R_main_v108 m c)
def R_main_v110 (m : (ℓ : Loc nD τ sig) → Buf (Elt F) ℓ) (c : Dev nD) : Buf (Elt F) ((c.tc : Thread nD τ).loc main_v110) := (addf : (⟨S60000x64, .f32⟩ : BufTy).Contents (Elt F) → (⟨S60000x64, .f32⟩ : BufTy).Contents (Elt F) → (⟨S60000x64, .f32⟩ : BufTy).Contents (Elt F)) (R_main_v107 m c) (R_main_v109 m c)
def R_main_v111 (m : (ℓ : Loc nD τ sig) → Buf (Elt F) ℓ) (c : Dev nD) : Buf (Elt F) ((c.tc : Thread nD τ).loc main_v111) := ((fun l r => Host.dotGeneral dot_S60000x64_S64x64_S60000x64_1_0_0_1_n_n none l r) : (⟨S60000x64, .f32⟩ : BufTy).Contents (Elt F) → (⟨S64x64, .f32⟩ : BufTy).Contents (Elt F) → (⟨S60000x64, .f32⟩ : BufTy).Contents (Elt F)) (R_main_v110 m c) (R_main_arg16 m c)
def R_main_c_13 (m : (ℓ : Loc nD τ sig) → Buf (Elt F) ℓ) (c : Dev nD) : Buf (Elt F) ((c.tc : Thread nD τ).loc main_c_13) := (constantI S_ 32 0#32)
def R_main_v112 (m : (ℓ : Loc nD τ sig) → Buf (Elt F) ℓ) (c : Dev nD) : Buf (Elt F) ((c.tc : Thread nD τ).loc main_v112) := (broadcastInDim S1000000 ![] bcast_S_S1000000 : (⟨S_, .i32⟩ : BufTy).Contents (Elt F) → (⟨S1000000, .i32⟩ : BufTy).Contents (Elt F)) (R_main_c_13 m c)
def R_main_v113 (m : (ℓ : Loc nD τ sig) → Buf (Elt F) ℓ) (c : Dev nD) : Buf (Elt F) ((c.tc : Thread nD τ).loc main_v113) := (cmpi .slt : (⟨S1000000, .i32⟩ : BufTy).Contents (Elt F) → (⟨S1000000, .i32⟩ : BufTy).Contents (Elt F) → (⟨S1000000, .i1⟩ : BufTy).Contents (Elt F)) (R_main_v1 m c) (R_main_v112 m c)
def R_main_c_14 (m : (ℓ : Loc nD τ sig) → Buf (Elt F) ℓ) (c : Dev nD) : Buf (Elt F) ((c.tc : Thread nD τ).loc main_c_14) := (constantI S_ 32 60000#32)
def R_main_v114 (m : (ℓ : Loc nD τ sig) → Buf (Elt F) ℓ) (c : Dev nD) : Buf (Elt F) ((c.tc : Thread nD τ).loc main_v114) := (broadcastInDim S1000000 ![] bcast_S_S1000000 : (⟨S_, .i32⟩ : BufTy).Contents (Elt F) → (⟨S1000000, .i32⟩ : BufTy).Contents (Elt F)) (R_main_c_14 m c)
def R_main_v115 (m : (ℓ : Loc nD τ sig) → Buf (Elt F) ℓ) (c : Dev nD) : Buf (Elt F) ((c.tc : Thread nD τ).loc main_v115) := (addi : (⟨S1000000, .i32⟩ : BufTy).Contents (Elt F) → (⟨S1000000, .i32⟩ : BufTy).Contents (Elt F) → (⟨S1000000, .i32⟩ : BufTy).Contents (Elt F)) (R_main_v1 m c) (R_main_v114 m c)
def R_main_v116 (m : (ℓ : Loc nD τ sig) → Buf (Elt F) ℓ) (c : Dev nD) : Buf (Elt F) ((c.tc : Thread nD τ).loc main_v116) := (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (R_main_v113 m c) (R_main_v115 m c) (R_main_v1 m c)
def R_main_v117 (m : (ℓ : Loc nD τ sig) → Buf (Elt F) ℓ) (c : Dev nD) : Buf (Elt F) ((c.tc : Thread nD τ).loc main_v117) := (broadcastInDim S1000000x1 ![0] bcast_S1000000_S1000000x1_0 : (⟨S1000000, .i32⟩ : BufTy).Contents (Elt F) → (⟨S1000000x1, .i32⟩ : BufTy).Contents (Elt F)) (R_main_v116 m c)
def R_main_v118 (m : (ℓ : Loc nD τ sig) → Buf (Elt F) ℓ) (c : Dev nD) : Buf (Elt F) ((c.tc : Thread nD τ).loc main_v118) := ((fun x i => Host.gather gather_S60000x64_S1000000x1_S1000000x64_1_0_n_n_0_1_164 x i) : (⟨S60000x64, .f32⟩ : BufTy).Contents (Elt F) → (⟨S1000000x1, .i32⟩ : BufTy).Contents (Elt F) → (⟨S1000000x64, .f32⟩ : BufTy).Contents (Elt F)) (R_main_v111 m c) (R_main_v117 m c)
def R_main_cst_15 (m : (ℓ : Loc nD τ sig) → Buf (Elt F) ℓ) (c : Dev nD) : Buf (Elt F) ((c.tc : Thread nD τ).loc main_cst_15) := (constant S_ .f32 0x00000000#32)
def R_main_v119 (m : (ℓ : Loc nD τ sig) → Buf (Elt F) ℓ) (c : Dev nD) : Buf (Elt F) ((c.tc : Thread nD τ).loc main_v119) := (broadcastInDim S60000x64 ![] bcast_S_S60000x64 : (⟨S_, .f32⟩ : BufTy).Contents (Elt F) → (⟨S60000x64, .f32⟩ : BufTy).Contents (Elt F)) (R_main_cst_15 m c)
def R_main_v120 (m : (ℓ : Loc nD τ sig) → Buf (Elt F) ℓ) (c : Dev nD) : Buf (Elt F) ((c.tc : Thread nD τ).loc main_v120) := (broadcastInDim S1000000x1 ![0] bcast_S1000000_S1000000x1_0 : (⟨S1000000, .i32⟩ : BufTy).Contents (Elt F) → (⟨S1000000x1, .i32⟩ : BufTy).Contents (Elt F)) (R_main_v3 m c)
def R_main_v121 (m : (ℓ : Loc nD τ sig) → Buf (Elt F) ℓ) (c : Dev nD) : Buf (Elt F) ((c.tc : Thread nD τ).loc main_v121) := ((fun x i u => Host.scatterAdd scatter_S60000x64_S1000000x1_S1000000x64_1_0_0_1 x i u) : (⟨S60000x64, .f32⟩ : BufTy).Contents (Elt F) → (⟨S1000000x1, .i32⟩ : BufTy).Contents (Elt F) → (⟨S1000000x64, .f32⟩ : BufTy).Contents (Elt F) → (⟨S60000x64, .f32⟩ : BufTy).Contents (Elt F)) (R_main_v119 m c) (R_main_v120 m c) (R_main_v118 m c)
def R_main_v122 (m : (ℓ : Loc nD τ sig) → Buf (Elt F) ℓ) (c : Dev nD) : Buf (Elt F) ((c.tc : Thread nD τ).loc main_v122) := (broadcastInDim S60000x64 ![0, 1] bcast_S60000x1_S60000x64_0_1 : (⟨S60000x1, .f32⟩ : BufTy).Contents (Elt F) → (⟨S60000x64, .f32⟩ : BufTy).Contents (Elt F)) (R_main_v12 m c)
def R_main_v123 (m : (ℓ : Loc nD τ sig) → Buf (Elt F) ℓ) (c : Dev nD) : Buf (Elt F) ((c.tc : Thread nD τ).loc main_v123) := (mulf : (⟨S60000x64, .f32⟩ : BufTy).Contents (Elt F) → (⟨S60000x64, .f32⟩ : BufTy).Contents (Elt F) → (⟨S60000x64, .f32⟩ : BufTy).Contents (Elt F)) (R_main_v121 m c) (R_main_v122 m c)
def R_main_v124 (m : (ℓ : Loc nD τ sig) → Buf (Elt F) ℓ) (c : Dev nD) : Buf (Elt F) ((c.tc : Thread nD τ).loc main_v124) := ((transpose S64x64 [1, 0] · transposes_S64x64_S64x64_1_0) : (⟨S64x64, .f32⟩ : BufTy).Contents (Elt F) → (⟨S64x64, .f32⟩ : BufTy).Contents (Elt F)) (R_main_arg23 m c)
def R_main_v125 (m : (ℓ : Loc nD τ sig) → Buf (Elt F) ℓ) (c : Dev nD) : Buf (Elt F) ((c.tc : Thread nD τ).loc main_v125) := ((fun l r => Host.dotGeneral dot_S60000x64_S64x64_S60000x64_1_0_0_1_n_n none l r) : (⟨S60000x64, .f32⟩ : BufTy).Contents (Elt F) → (⟨S64x64, .f32⟩ : BufTy).Contents (Elt F) → (⟨S60000x64, .f32⟩ : BufTy).Contents (Elt F)) (R_main_v110 m c) (R_main_v124 m c)
def R_main_v126 (m : (ℓ : Loc nD τ sig) → Buf (Elt F) ℓ) (c : Dev nD) : Buf (Elt F) ((c.tc : Thread nD τ).loc main_v126) := (broadcastInDim S1x64 ![1] bcast_S64_S1x64_1 : (⟨S64, .f32⟩ : BufTy).Contents (Elt F) → (⟨S1x64, .f32⟩ : BufTy).Contents (Elt F)) (R_main_arg24 m c)
def R_main_v127 (m : (ℓ : Loc nD τ sig) → Buf (Elt F) ℓ) (c : Dev nD) : Buf (Elt F) ((c.tc : Thread nD τ).loc main_v127) := (broadcastInDim S60000x64 ![0, 1] bcast_S1x64_S60000x64_0_1 : (⟨S1x64, .f32⟩ : BufTy).Contents (Elt F) → (⟨S60000x64, .f32⟩ : BufTy).Contents (Elt F)) (R_main_v126 m c)
def R_main_v128 (m : (ℓ : Loc nD τ sig) → Buf (Elt F) ℓ) (c : Dev nD) : Buf (Elt F) ((c.tc : Thread nD τ).loc main_v128) := (addf : (⟨S60000x64, .f32⟩ : BufTy).Contents (Elt F) → (⟨S60000x64, .f32⟩ : BufTy).Contents (Elt F) → (⟨S60000x64, .f32⟩ : BufTy).Contents (Elt F)) (R_main_v125 m c) (R_main_v127 m c)
def R_main_v129 (m : (ℓ : Loc nD τ sig) → Buf (Elt F) ℓ) (c : Dev nD) : Buf (Elt F) ((c.tc : Thread nD τ).loc main_v129) := (addf : (⟨S60000x64, .f32⟩ : BufTy).Contents (Elt F) → (⟨S60000x64, .f32⟩ : BufTy).Contents (Elt F) → (⟨S60000x64, .f32⟩ : BufTy).Contents (Elt F)) (R_main_v128 m c) (R_main_v13 m c)
def R_main_v130 (m : (ℓ : Loc nD τ sig) → Buf (Elt F) ℓ) (c : Dev nD) : Buf (Elt F) ((c.tc : Thread nD τ).loc main_v130) := ((fun a b => concatenate S60000x128 1 [⟨S60000x64, a⟩, ⟨S60000x64, b⟩] concatenates_S60000x64_S60000x64_S60000x128_d1) : (⟨S60000x64, .f32⟩ : BufTy).Contents (Elt F) → (⟨S60000x64, .f32⟩ : BufTy).Contents (Elt F) → (⟨S60000x128, .f32⟩ : BufTy).Contents (Elt F)) (R_main_v123 m c) (R_main_v129 m c)
def R_main_v131 (m : (ℓ : Loc nD τ sig) → Buf (Elt F) ℓ) (c : Dev nD) : Buf (Elt F) ((c.tc : Thread nD τ).loc main_v131) := ((transpose S128x64 [1, 0] · transposes_S64x128_S128x64_1_0) : (⟨S64x128, .f32⟩ : BufTy).Contents (Elt F) → (⟨S128x64, .f32⟩ : BufTy).Contents (Elt F)) (R_main_arg31 m c)
def R_main_v132 (m : (ℓ : Loc nD τ sig) → Buf (Elt F) ℓ) (c : Dev nD) : Buf (Elt F) ((c.tc : Thread nD τ).loc main_v132) := ((fun l r => Host.dotGeneral dot_S60000x128_S128x64_S60000x64_1_0_0_1_n_n none l r) : (⟨S60000x128, .f32⟩ : BufTy).Contents (Elt F) → (⟨S128x64, .f32⟩ : BufTy).Contents (Elt F) → (⟨S60000x64, .f32⟩ : BufTy).Contents (Elt F)) (R_main_v130 m c) (R_main_v131 m c)
def R_main_v133 (m : (ℓ : Loc nD τ sig) → Buf (Elt F) ℓ) (c : Dev nD) : Buf (Elt F) ((c.tc : Thread nD τ).loc main_v133) := (broadcastInDim S1x64 ![1] bcast_S64_S1x64_1 : (⟨S64, .f32⟩ : BufTy).Contents (Elt F) → (⟨S1x64, .f32⟩ : BufTy).Contents (Elt F)) (R_main_arg32 m c)
def R_main_v134 (m : (ℓ : Loc nD τ sig) → Buf (Elt F) ℓ) (c : Dev nD) : Buf (Elt F) ((c.tc : Thread nD τ).loc main_v134) := (broadcastInDim S60000x64 ![0, 1] bcast_S1x64_S60000x64_0_1 : (⟨S1x64, .f32⟩ : BufTy).Contents (Elt F) → (⟨S60000x64, .f32⟩ : BufTy).Contents (Elt F)) (R_main_v133 m c)
def R_main_v135 (m : (ℓ : Loc nD τ sig) → Buf (Elt F) ℓ) (c : Dev nD) : Buf (Elt F) ((c.tc : Thread nD τ).loc main_v135) := (addf : (⟨S60000x64, .f32⟩ : BufTy).Contents (Elt F) → (⟨S60000x64, .f32⟩ : BufTy).Contents (Elt F) → (⟨S60000x64, .f32⟩ : BufTy).Contents (Elt F)) (R_main_v132 m c) (R_main_v134 m c)
def R_main_v136 (m : (ℓ : Loc nD τ sig) → Buf (Elt F) ℓ) (c : Dev nD) : Buf (Elt F) ((c.tc : Thread nD τ).loc main_v136) := (addf : (⟨S60000x64, .f32⟩ : BufTy).Contents (Elt F) → (⟨S60000x64, .f32⟩ : BufTy).Contents (Elt F) → (⟨S60000x64, .f32⟩ : BufTy).Contents (Elt F)) (R_main_v80 m c) (R_main_v135 m c)
def R_main_cst_16 (m : (ℓ : Loc nD τ sig) → Buf (Elt F) ℓ) (c : Dev nD) : Buf (Elt F) ((c.tc : Thread nD τ).loc main_cst_16) := (constant S_ .f32 0x40000000#32)
def R_main_v137 (m : (ℓ : Loc nD τ sig) → Buf (Elt F) ℓ) (c : Dev nD) : Buf (Elt F) ((c.tc : Thread nD τ).loc main_v137) := (broadcastInDim S60000x64 ![] bcast_S_S60000x64 : (⟨S_, .f32⟩ : BufTy).Contents (Elt F) → (⟨S60000x64, .f32⟩ : BufTy).Contents (Elt F)) (R_main_cst_16 m c)
def R_main_v138 (m : (ℓ : Loc nD τ sig) → Buf (Elt F) ℓ) (c : Dev nD) : Buf (Elt F) ((c.tc : Thread nD τ).loc main_v138) := (Host.divf : (⟨S60000x64, .f32⟩ : BufTy).Contents (Elt F) → (⟨S60000x64, .f32⟩ : BufTy).Contents (Elt F) → (⟨S60000x64, .f32⟩ : BufTy).Contents (Elt F)) (R_main_v136 m c) (R_main_v137 m c)
def R_main_v139 (m : (ℓ : Loc nD τ sig) → Buf (Elt F) ℓ) (c : Dev nD) : Buf (Elt F) ((c.tc : Thread nD τ).loc main_v139) := ((extractStridedSlice S20000x64 ![0, 0] · slices_S60000x64_S20000x64_0_0) : (⟨S60000x64, .f32⟩ : BufTy).Contents (Elt F) → (⟨S20000x64, .f32⟩ : BufTy).Contents (Elt F)) (R_main_v138 m c)
def R_main_v140 (m : (ℓ : Loc nD τ sig) → Buf (Elt F) ℓ) (c : Dev nD) : Buf (Elt F) ((c.tc : Thread nD τ).loc main_v140) := ((extractStridedSlice S40000x64 ![20000, 0] · slices_S60000x64_S40000x64_20000_0) : (⟨S60000x64, .f32⟩ : BufTy).Contents (Elt F) → (⟨S40000x64, .f32⟩ : BufTy).Contents (Elt F)) (R_main_v138 m c)
def R_main_c_17 (m : (ℓ : Loc nD τ sig) → Buf (Elt F) ℓ) (c : Dev nD) : Buf (Elt F) ((c.tc : Thread nD τ).loc main_c_17) := (constantI S_ 32 0#32)
def R_main_v141 (m : (ℓ : Loc nD τ sig) → Buf (Elt F) ℓ) (c : Dev nD) : Buf (Elt F) ((c.tc : Thread nD τ).loc main_v141) := (broadcastInDim S8192 ![] bcast_S_S8192 : (⟨S_, .i32⟩ : BufTy).Contents (Elt F) → (⟨S8192, .i32⟩ : BufTy).Contents (Elt F)) (R_main_c_17 m c)
def R_main_v142 (m : (ℓ : Loc nD τ sig) → Buf (Elt F) ℓ) (c : Dev nD) : Buf (Elt F) ((c.tc : Thread nD τ).loc main_v142) := (cmpi .slt : (⟨S8192, .i32⟩ : BufTy).Contents (Elt F) → (⟨S8192, .i32⟩ : BufTy).Contents (Elt F) → (⟨S8192, .i1⟩ : BufTy).Contents (Elt F)) (R_main_arg1 m c) (R_main_v141 m c)
def R_main_c_18 (m : (ℓ : Loc nD τ sig) → Buf (Elt F) ℓ) (c : Dev nD) : Buf (Elt F) ((c.tc : Thread nD τ).loc main_c_18) := (constantI S_ 32 20000#32)
def R_main_v143 (m : (ℓ : Loc nD τ sig) → Buf (Elt F) ℓ) (c : Dev nD) : Buf (Elt F) ((c.tc : Thread nD τ).loc main_v143) := (broadcastInDim S8192 ![] bcast_S_S8192 : (⟨S_, .i32⟩ : BufTy).Contents (Elt F) → (⟨S8192, .i32⟩ : BufTy).Contents (Elt F)) (R_main_c_18 m c)
def R_main_v144 (m : (ℓ : Loc nD τ sig) → Buf (Elt F) ℓ) (c : Dev nD) : Buf (Elt F) ((c.tc : Thread nD τ).loc main_v144) := (addi : (⟨S8192, .i32⟩ : BufTy).Contents (Elt F) → (⟨S8192, .i32⟩ : BufTy).Contents (Elt F) → (⟨S8192, .i32⟩ : BufTy).Contents (Elt F)) (R_main_arg1 m c) (R_main_v143 m c)
def R_main_v145 (m : (ℓ : Loc nD τ sig) → Buf (Elt F) ℓ) (c : Dev nD) : Buf (Elt F) ((c.tc : Thread nD τ).loc main_v145) := (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (R_main_v142 m c) (R_main_v144 m c) (R_main_arg1 m c)
def R_main_v146 (m : (ℓ : Loc nD τ sig) → Buf (Elt F) ℓ) (c : Dev nD) : Buf (Elt F) ((c.tc : Thread nD τ).loc main_v146) := (broadcastInDim S8192x1 ![0] bcast_S8192_S8192x1_0 : (⟨S8192, .i32⟩ : BufTy).Contents (Elt F) → (⟨S8192x1, .i32⟩ : BufTy).Contents (Elt F)) (R_main_v145 m c)
def R_main_v147 (m : (ℓ : Loc nD τ sig) → Buf (Elt F) ℓ) (c : Dev nD) : Buf (Elt F) ((c.tc : Thread nD τ).loc main_v147) := ((fun x i => Host.gather gather_S20000x64_S8192x1_S8192x64_1_0_n_n_0_1_164 x i) : (⟨S20000x64, .f32⟩ : BufTy).Contents (Elt F) → (⟨S8192x1, .i32⟩ : BufTy).Contents (Elt F) → (⟨S8192x64, .f32⟩ : BufTy).Contents (Elt F)) (R_main_v139 m c) (R_main_v146 m c)
def R_main_c_19 (m : (ℓ : Loc nD τ sig) → Buf (Elt F) ℓ) (c : Dev nD) : Buf (Elt F) ((c.tc : Thread nD τ).loc main_c_19) := (constantI S_ 32 0#32)
def R_main_v148 (m : (ℓ : Loc nD τ sig) → Buf (Elt F) ℓ) (c : Dev nD) : Buf (Elt F) ((c.tc : Thread nD τ).loc main_v148) := (broadcastInDim S8192 ![] bcast_S_S8192 : (⟨S_, .i32⟩ : BufTy).Contents (Elt F) → (⟨S8192, .i32⟩ : BufTy).Contents (Elt F)) (R_main_c_19 m c)
def R_main_v149 (m : (ℓ : Loc nD τ sig) → Buf (Elt F) ℓ) (c : Dev nD) : Buf (Elt F) ((c.tc : Thread nD τ).loc main_v149) := (cmpi .slt : (⟨S8192, .i32⟩ : BufTy).Contents (Elt F) → (⟨S8192, .i32⟩ : BufTy).Contents (Elt F) → (⟨S8192, .i1⟩ : BufTy).Contents (Elt F)) (R_main_arg2 m c) (R_main_v148 m c)
def R_main_c_20 (m : (ℓ : Loc nD τ sig) → Buf (Elt F) ℓ) (c : Dev nD) : Buf (Elt F) ((c.tc : Thread nD τ).loc main_c_20) := (constantI S_ 32 40000#32)
def R_main_v150 (m : (ℓ : Loc nD τ sig) → Buf (Elt F) ℓ) (c : Dev nD) : Buf (Elt F) ((c.tc : Thread nD τ).loc main_v150) := (broadcastInDim S8192 ![] bcast_S_S8192 : (⟨S_, .i32⟩ : BufTy).Contents (Elt F) → (⟨S8192, .i32⟩ : BufTy).Contents (Elt F)) (R_main_c_20 m c)
def R_main_v151 (m : (ℓ : Loc nD τ sig) → Buf (Elt F) ℓ) (c : Dev nD) : Buf (Elt F) ((c.tc : Thread nD τ).loc main_v151) := (addi : (⟨S8192, .i32⟩ : BufTy).Contents (Elt F) → (⟨S8192, .i32⟩ : BufTy).Contents (Elt F) → (⟨S8192, .i32⟩ : BufTy).Contents (Elt F)) (R_main_arg2 m c) (R_main_v150 m c)
def R_main_v152 (m : (ℓ : Loc nD τ sig) → Buf (Elt F) ℓ) (c : Dev nD) : Buf (Elt F) ((c.tc : Thread nD τ).loc main_v152) := (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (R_main_v149 m c) (R_main_v151 m c) (R_main_arg2 m c)
def R_main_v153 (m : (ℓ : Loc nD τ sig) → Buf (Elt F) ℓ) (c : Dev nD) : Buf (Elt F) ((c.tc : Thread nD τ).loc main_v153) := (broadcastInDim S8192x1 ![0] bcast_S8192_S8192x1_0 : (⟨S8192, .i32⟩ : BufTy).Contents (Elt F) → (⟨S8192x1, .i32⟩ : BufTy).Contents (Elt F)) (R_main_v152 m c)
def R_main_v154 (m : (ℓ : Loc nD τ sig) → Buf (Elt F) ℓ) (c : Dev nD) : Buf (Elt F) ((c.tc : Thread nD τ).loc main_v154) := ((fun x i => Host.gather gather_S40000x64_S8192x1_S8192x64_1_0_n_n_0_1_164 x i) : (⟨S40000x64, .f32⟩ : BufTy).Contents (Elt F) → (⟨S8192x1, .i32⟩ : BufTy).Contents (Elt F) → (⟨S8192x64, .f32⟩ : BufTy).Contents (Elt F)) (R_main_v140 m c) (R_main_v153 m c)
def R_main_v155 (m : (ℓ : Loc nD τ sig) → Buf (Elt F) ℓ) (c : Dev nD) : Buf (Elt F) ((c.tc : Thread nD τ).loc main_v155) := (mulf : (⟨S8192x64, .f32⟩ : BufTy).Contents (Elt F) → (⟨S8192x64, .f32⟩ : BufTy).Contents (Elt F) → (⟨S8192x64, .f32⟩ : BufTy).Contents (Elt F)) (R_main_v147 m c) (R_main_v154 m c)
def R_main_cst_21 (m : (ℓ : Loc nD τ sig) → Buf (Elt F) ℓ) (c : Dev nD) : Buf (Elt F) ((c.tc : Thread nD τ).loc main_cst_21) := (constant S_ .f32 0x00000000#32)
def R_main_v156 (m : (ℓ : Loc nD τ sig) → Buf (Elt F) ℓ) (c : Dev nD) : Buf (Elt F) ((c.tc : Thread nD τ).loc main_v156) := ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)) (R_main_v155 m c) (R_main_cst_21 m c)

set_option maxRecDepth 8192 in
/-- `main_v156`'s composed term of the arguments (named: it is long). -/
def resTree (m : (ℓ : Loc nD τ sig) → Buf (Elt F) ℓ) (c : Dev nD) : Buf (Elt F) ((c.tc : Thread nD τ).loc main_v156) :=
  Host.reduceAdd (mulf (Host.gather gather_S20000x64_S8192x1_S8192x64_1_0_n_n_0_1_164 (extractStridedSlice S20000x64 ![0, 0] (Host.divf (addf (addf (Host.dotGeneral dot_S60000x128_S128x64_S60000x64_1_0_0_1_n_n none (concatenate S60000x128 1 [⟨S60000x64, (mulf (Host.scatterAdd scatter_S60000x64_S1000000x1_S1000000x64_1_0_0_1 (broadcastInDim S60000x64 ![] bcast_S_S60000x64 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (Host.gather gather_S60000x64_S1000000x1_S1000000x64_1_0_n_n_0_1_164 (Host.dotGeneral dot_S60000x64_S64x64_S60000x64_1_0_0_1_n_n none (addf (Host.dotGeneral dot_S60000x192_S192x64_S60000x64_1_0_0_1_n_n none (concatenate S60000x192 1 [⟨S60000x128, (mulf (Host.scatterAdd scatter_S60000x128_S1000000x1_S1000000x128_1_0_0_1 (broadcastInDim S60000x128 ![] bcast_S_S60000x128 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (Host.gather gather_S60000x128_S1000000x1_S1000000x128_1_0_n_n_0_1_1128 (Host.dotGeneral dot_S60000x128_S128x128_S60000x128_1_0_0_1_n_n none (Host.divf (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0) (broadcastInDim S60000x128 ![0, 1] bcast_S60000x1_S60000x128_0_1 (maximumf (Host.sqrt (broadcastInDim S60000x1 ![0] bcast_S60000_S60000x1_0 (Host.reduceAdd (mulf (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0) (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0)) (constant S_ .f32 0x00000000#32) reducesTo_S60000x128_S60000_d1 h_S_))) (broadcastInDim S60000x1 ![] bcast_S_S60000x1 (constant S_ .f32 0x2B8CBCCC#32))))) (m ((c.tc : Thread nD τ).loc main_arg13))) (broadcastInDim S1000000x1 ![0] bcast_S1000000_S1000000x1_0 (select (cmpi .slt (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 60000#32))) (shapeCast _ (extractStridedSlice S1x1000000 ![0, 0] (m ((c.tc : Thread nD τ).loc main_arg0)) slices_S2x1000000_S1x1000000_0_0) shapeCasts_S1x1000000_S1000000))))) (broadcastInDim S60000x128 ![0, 1] bcast_S60000x1_S60000x128_0_1 (broadcastInDim S60000x1 ![0] bcast_S60000_S60000x1_0 (Host.divf (broadcastInDim S60000 ![] bcast_S_S60000 (constant S_ .f32 0x3F800000#32)) (maximumf (Host.scatterAdd scatter_S60000_S1000000x1_S1000000_n_0_0_1 (broadcastInDim S60000 ![] bcast_S_S60000 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (broadcastInDim S1000000 ![] bcast_S_S1000000 (constant S_ .f32 0x3F800000#32))) (broadcastInDim S60000 ![] bcast_S_S60000 (constant S_ .f32 0x3F800000#32)))))))⟩, ⟨S60000x64, (addf (addf (Host.dotGeneral dot_S60000x128_S128x64_S60000x64_1_0_0_1_n_n none (Host.divf (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0) (broadcastInDim S60000x128 ![0, 1] bcast_S60000x1_S60000x128_0_1 (maximumf (Host.sqrt (broadcastInDim S60000x1 ![0] bcast_S60000_S60000x1_0 (Host.reduceAdd (mulf (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0) (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0)) (constant S_ .f32 0x00000000#32) reducesTo_S60000x128_S60000_d1 h_S_))) (broadcastInDim S60000x1 ![] bcast_S_S60000x1 (constant S_ .f32 0x2B8CBCCC#32))))) (transpose S128x64 [1, 0] (m ((c.tc : Thread nD τ).loc main_arg17)) transposes_S64x128_S128x64_1_0)) (broadcastInDim S60000x64 ![0, 1] bcast_S1x64_S60000x64_0_1 (broadcastInDim S1x64 ![1] bcast_S64_S1x64_1 (m ((c.tc : Thread nD τ).loc main_arg18))))) (concatenate S60000x64 0 [⟨S20000x64, (m ((c.tc : Thread nD τ).loc main_arg3))⟩, ⟨S40000x64, (m ((c.tc : Thread nD τ).loc main_arg4))⟩] concatenates_S20000x64_S40000x64_S60000x64_d0))⟩] concatenates_S60000x128_S60000x64_S60000x192_d1) (transpose S192x64 [1, 0] (m ((c.tc : Thread nD τ).loc main_arg25)) transposes_S64x192_S192x64_1_0)) (broadcastInDim S60000x64 ![0, 1] bcast_S1x64_S60000x64_0_1 (broadcastInDim S1x64 ![1] bcast_S64_S1x64_1 (m ((c.tc : Thread nD τ).loc main_arg26))))) (m ((c.tc : Thread nD τ).loc main_arg14))) (broadcastInDim S1000000x1 ![0] bcast_S1000000_S1000000x1_0 (select (cmpi .slt (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 60000#32))) (shapeCast _ (extractStridedSlice S1x1000000 ![0, 0] (m ((c.tc : Thread nD τ).loc main_arg0)) slices_S2x1000000_S1x1000000_0_0) shapeCasts_S1x1000000_S1000000))))) (broadcastInDim S60000x64 ![0, 1] bcast_S60000x1_S60000x64_0_1 (broadcastInDim S60000x1 ![0] bcast_S60000_S60000x1_0 (Host.divf (broadcastInDim S60000 ![] bcast_S_S60000 (constant S_ .f32 0x3F800000#32)) (maximumf (Host.scatterAdd scatter_S60000_S1000000x1_S1000000_n_0_0_1 (broadcastInDim S60000 ![] bcast_S_S60000 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (broadcastInDim S1000000 ![] bcast_S_S1000000 (constant S_ .f32 0x3F800000#32))) (broadcastInDim S60000 ![] bcast_S_S60000 (constant S_ .f32 0x3F800000#32)))))))⟩, ⟨S60000x64, (addf (addf (Host.dotGeneral dot_S60000x64_S64x64_S60000x64_1_0_0_1_n_n none (addf (Host.dotGeneral dot_S60000x192_S192x64_S60000x64_1_0_0_1_n_n none (concatenate S60000x192 1 [⟨S60000x128, (mulf (Host.scatterAdd scatter_S60000x128_S1000000x1_S1000000x128_1_0_0_1 (broadcastInDim S60000x128 ![] bcast_S_S60000x128 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (Host.gather gather_S60000x128_S1000000x1_S1000000x128_1_0_n_n_0_1_1128 (Host.dotGeneral dot_S60000x128_S128x128_S60000x128_1_0_0_1_n_n none (Host.divf (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0) (broadcastInDim S60000x128 ![0, 1] bcast_S60000x1_S60000x128_0_1 (maximumf (Host.sqrt (broadcastInDim S60000x1 ![0] bcast_S60000_S60000x1_0 (Host.reduceAdd (mulf (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0) (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0)) (constant S_ .f32 0x00000000#32) reducesTo_S60000x128_S60000_d1 h_S_))) (broadcastInDim S60000x1 ![] bcast_S_S60000x1 (constant S_ .f32 0x2B8CBCCC#32))))) (m ((c.tc : Thread nD τ).loc main_arg13))) (broadcastInDim S1000000x1 ![0] bcast_S1000000_S1000000x1_0 (select (cmpi .slt (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 60000#32))) (shapeCast _ (extractStridedSlice S1x1000000 ![0, 0] (m ((c.tc : Thread nD τ).loc main_arg0)) slices_S2x1000000_S1x1000000_0_0) shapeCasts_S1x1000000_S1000000))))) (broadcastInDim S60000x128 ![0, 1] bcast_S60000x1_S60000x128_0_1 (broadcastInDim S60000x1 ![0] bcast_S60000_S60000x1_0 (Host.divf (broadcastInDim S60000 ![] bcast_S_S60000 (constant S_ .f32 0x3F800000#32)) (maximumf (Host.scatterAdd scatter_S60000_S1000000x1_S1000000_n_0_0_1 (broadcastInDim S60000 ![] bcast_S_S60000 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (broadcastInDim S1000000 ![] bcast_S_S1000000 (constant S_ .f32 0x3F800000#32))) (broadcastInDim S60000 ![] bcast_S_S60000 (constant S_ .f32 0x3F800000#32)))))))⟩, ⟨S60000x64, (addf (addf (Host.dotGeneral dot_S60000x128_S128x64_S60000x64_1_0_0_1_n_n none (Host.divf (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0) (broadcastInDim S60000x128 ![0, 1] bcast_S60000x1_S60000x128_0_1 (maximumf (Host.sqrt (broadcastInDim S60000x1 ![0] bcast_S60000_S60000x1_0 (Host.reduceAdd (mulf (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0) (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0)) (constant S_ .f32 0x00000000#32) reducesTo_S60000x128_S60000_d1 h_S_))) (broadcastInDim S60000x1 ![] bcast_S_S60000x1 (constant S_ .f32 0x2B8CBCCC#32))))) (transpose S128x64 [1, 0] (m ((c.tc : Thread nD τ).loc main_arg17)) transposes_S64x128_S128x64_1_0)) (broadcastInDim S60000x64 ![0, 1] bcast_S1x64_S60000x64_0_1 (broadcastInDim S1x64 ![1] bcast_S64_S1x64_1 (m ((c.tc : Thread nD τ).loc main_arg18))))) (concatenate S60000x64 0 [⟨S20000x64, (m ((c.tc : Thread nD τ).loc main_arg3))⟩, ⟨S40000x64, (m ((c.tc : Thread nD τ).loc main_arg4))⟩] concatenates_S20000x64_S40000x64_S60000x64_d0))⟩] concatenates_S60000x128_S60000x64_S60000x192_d1) (transpose S192x64 [1, 0] (m ((c.tc : Thread nD τ).loc main_arg25)) transposes_S64x192_S192x64_1_0)) (broadcastInDim S60000x64 ![0, 1] bcast_S1x64_S60000x64_0_1 (broadcastInDim S1x64 ![1] bcast_S64_S1x64_1 (m ((c.tc : Thread nD τ).loc main_arg26))))) (transpose S64x64 [1, 0] (m ((c.tc : Thread nD τ).loc main_arg19)) transposes_S64x64_S64x64_1_0)) (broadcastInDim S60000x64 ![0, 1] bcast_S1x64_S60000x64_0_1 (broadcastInDim S1x64 ![1] bcast_S64_S1x64_1 (m ((c.tc : Thread nD τ).loc main_arg20))))) (concatenate S60000x64 0 [⟨S20000x64, (m ((c.tc : Thread nD τ).loc main_arg3))⟩, ⟨S40000x64, (m ((c.tc : Thread nD τ).loc main_arg4))⟩] concatenates_S20000x64_S40000x64_S60000x64_d0))⟩] concatenates_S60000x64_S60000x64_S60000x128_d1) (transpose S128x64 [1, 0] (m ((c.tc : Thread nD τ).loc main_arg27)) transposes_S64x128_S128x64_1_0)) (broadcastInDim S60000x64 ![0, 1] bcast_S1x64_S60000x64_0_1 (broadcastInDim S1x64 ![1] bcast_S64_S1x64_1 (m ((c.tc : Thread nD τ).loc main_arg28))))) (addf (Host.dotGeneral dot_S60000x128_S128x64_S60000x64_1_0_0_1_n_n none (concatenate S60000x128 1 [⟨S60000x64, (mulf (Host.scatterAdd scatter_S60000x64_S1000000x1_S1000000x64_1_0_0_1 (broadcastInDim S60000x64 ![] bcast_S_S60000x64 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (Host.gather gather_S60000x64_S1000000x1_S1000000x64_1_0_n_n_0_1_164 (Host.dotGeneral dot_S60000x64_S64x64_S60000x64_1_0_0_1_n_n none (addf (Host.dotGeneral dot_S60000x192_S192x64_S60000x64_1_0_0_1_n_n none (concatenate S60000x192 1 [⟨S60000x128, (mulf (Host.scatterAdd scatter_S60000x128_S1000000x1_S1000000x128_1_0_0_1 (broadcastInDim S60000x128 ![] bcast_S_S60000x128 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (Host.gather gather_S60000x128_S1000000x1_S1000000x128_1_0_n_n_0_1_1128 (Host.dotGeneral dot_S60000x128_S128x128_S60000x128_1_0_0_1_n_n none (Host.divf (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0) (broadcastInDim S60000x128 ![0, 1] bcast_S60000x1_S60000x128_0_1 (maximumf (Host.sqrt (broadcastInDim S60000x1 ![0] bcast_S60000_S60000x1_0 (Host.reduceAdd (mulf (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0) (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0)) (constant S_ .f32 0x00000000#32) reducesTo_S60000x128_S60000_d1 h_S_))) (broadcastInDim S60000x1 ![] bcast_S_S60000x1 (constant S_ .f32 0x2B8CBCCC#32))))) (m ((c.tc : Thread nD τ).loc main_arg15))) (broadcastInDim S1000000x1 ![0] bcast_S1000000_S1000000x1_0 (select (cmpi .slt (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 60000#32))) (shapeCast _ (extractStridedSlice S1x1000000 ![0, 0] (m ((c.tc : Thread nD τ).loc main_arg0)) slices_S2x1000000_S1x1000000_0_0) shapeCasts_S1x1000000_S1000000))))) (broadcastInDim S60000x128 ![0, 1] bcast_S60000x1_S60000x128_0_1 (broadcastInDim S60000x1 ![0] bcast_S60000_S60000x1_0 (Host.divf (broadcastInDim S60000 ![] bcast_S_S60000 (constant S_ .f32 0x3F800000#32)) (maximumf (Host.scatterAdd scatter_S60000_S1000000x1_S1000000_n_0_0_1 (broadcastInDim S60000 ![] bcast_S_S60000 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (broadcastInDim S1000000 ![] bcast_S_S1000000 (constant S_ .f32 0x3F800000#32))) (broadcastInDim S60000 ![] bcast_S_S60000 (constant S_ .f32 0x3F800000#32)))))))⟩, ⟨S60000x64, (addf (addf (Host.dotGeneral dot_S60000x128_S128x64_S60000x64_1_0_0_1_n_n none (Host.divf (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0) (broadcastInDim S60000x128 ![0, 1] bcast_S60000x1_S60000x128_0_1 (maximumf (Host.sqrt (broadcastInDim S60000x1 ![0] bcast_S60000_S60000x1_0 (Host.reduceAdd (mulf (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0) (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0)) (constant S_ .f32 0x00000000#32) reducesTo_S60000x128_S60000_d1 h_S_))) (broadcastInDim S60000x1 ![] bcast_S_S60000x1 (constant S_ .f32 0x2B8CBCCC#32))))) (transpose S128x64 [1, 0] (m ((c.tc : Thread nD τ).loc main_arg21)) transposes_S64x128_S128x64_1_0)) (broadcastInDim S60000x64 ![0, 1] bcast_S1x64_S60000x64_0_1 (broadcastInDim S1x64 ![1] bcast_S64_S1x64_1 (m ((c.tc : Thread nD τ).loc main_arg22))))) (concatenate S60000x64 0 [⟨S20000x64, (m ((c.tc : Thread nD τ).loc main_arg3))⟩, ⟨S40000x64, (m ((c.tc : Thread nD τ).loc main_arg4))⟩] concatenates_S20000x64_S40000x64_S60000x64_d0))⟩] concatenates_S60000x128_S60000x64_S60000x192_d1) (transpose S192x64 [1, 0] (m ((c.tc : Thread nD τ).loc main_arg29)) transposes_S64x192_S192x64_1_0)) (broadcastInDim S60000x64 ![0, 1] bcast_S1x64_S60000x64_0_1 (broadcastInDim S1x64 ![1] bcast_S64_S1x64_1 (m ((c.tc : Thread nD τ).loc main_arg30))))) (m ((c.tc : Thread nD τ).loc main_arg16))) (broadcastInDim S1000000x1 ![0] bcast_S1000000_S1000000x1_0 (select (cmpi .slt (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 60000#32))) (shapeCast _ (extractStridedSlice S1x1000000 ![0, 0] (m ((c.tc : Thread nD τ).loc main_arg0)) slices_S2x1000000_S1x1000000_0_0) shapeCasts_S1x1000000_S1000000))))) (broadcastInDim S60000x64 ![0, 1] bcast_S60000x1_S60000x64_0_1 (broadcastInDim S60000x1 ![0] bcast_S60000_S60000x1_0 (Host.divf (broadcastInDim S60000 ![] bcast_S_S60000 (constant S_ .f32 0x3F800000#32)) (maximumf (Host.scatterAdd scatter_S60000_S1000000x1_S1000000_n_0_0_1 (broadcastInDim S60000 ![] bcast_S_S60000 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (broadcastInDim S1000000 ![] bcast_S_S1000000 (constant S_ .f32 0x3F800000#32))) (broadcastInDim S60000 ![] bcast_S_S60000 (constant S_ .f32 0x3F800000#32)))))))⟩, ⟨S60000x64, (addf (addf (Host.dotGeneral dot_S60000x64_S64x64_S60000x64_1_0_0_1_n_n none (addf (Host.dotGeneral dot_S60000x192_S192x64_S60000x64_1_0_0_1_n_n none (concatenate S60000x192 1 [⟨S60000x128, (mulf (Host.scatterAdd scatter_S60000x128_S1000000x1_S1000000x128_1_0_0_1 (broadcastInDim S60000x128 ![] bcast_S_S60000x128 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (Host.gather gather_S60000x128_S1000000x1_S1000000x128_1_0_n_n_0_1_1128 (Host.dotGeneral dot_S60000x128_S128x128_S60000x128_1_0_0_1_n_n none (Host.divf (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0) (broadcastInDim S60000x128 ![0, 1] bcast_S60000x1_S60000x128_0_1 (maximumf (Host.sqrt (broadcastInDim S60000x1 ![0] bcast_S60000_S60000x1_0 (Host.reduceAdd (mulf (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0) (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0)) (constant S_ .f32 0x00000000#32) reducesTo_S60000x128_S60000_d1 h_S_))) (broadcastInDim S60000x1 ![] bcast_S_S60000x1 (constant S_ .f32 0x2B8CBCCC#32))))) (m ((c.tc : Thread nD τ).loc main_arg15))) (broadcastInDim S1000000x1 ![0] bcast_S1000000_S1000000x1_0 (select (cmpi .slt (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 60000#32))) (shapeCast _ (extractStridedSlice S1x1000000 ![0, 0] (m ((c.tc : Thread nD τ).loc main_arg0)) slices_S2x1000000_S1x1000000_0_0) shapeCasts_S1x1000000_S1000000))))) (broadcastInDim S60000x128 ![0, 1] bcast_S60000x1_S60000x128_0_1 (broadcastInDim S60000x1 ![0] bcast_S60000_S60000x1_0 (Host.divf (broadcastInDim S60000 ![] bcast_S_S60000 (constant S_ .f32 0x3F800000#32)) (maximumf (Host.scatterAdd scatter_S60000_S1000000x1_S1000000_n_0_0_1 (broadcastInDim S60000 ![] bcast_S_S60000 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (broadcastInDim S1000000 ![] bcast_S_S1000000 (constant S_ .f32 0x3F800000#32))) (broadcastInDim S60000 ![] bcast_S_S60000 (constant S_ .f32 0x3F800000#32)))))))⟩, ⟨S60000x64, (addf (addf (Host.dotGeneral dot_S60000x128_S128x64_S60000x64_1_0_0_1_n_n none (Host.divf (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0) (broadcastInDim S60000x128 ![0, 1] bcast_S60000x1_S60000x128_0_1 (maximumf (Host.sqrt (broadcastInDim S60000x1 ![0] bcast_S60000_S60000x1_0 (Host.reduceAdd (mulf (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0) (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0)) (constant S_ .f32 0x00000000#32) reducesTo_S60000x128_S60000_d1 h_S_))) (broadcastInDim S60000x1 ![] bcast_S_S60000x1 (constant S_ .f32 0x2B8CBCCC#32))))) (transpose S128x64 [1, 0] (m ((c.tc : Thread nD τ).loc main_arg21)) transposes_S64x128_S128x64_1_0)) (broadcastInDim S60000x64 ![0, 1] bcast_S1x64_S60000x64_0_1 (broadcastInDim S1x64 ![1] bcast_S64_S1x64_1 (m ((c.tc : Thread nD τ).loc main_arg22))))) (concatenate S60000x64 0 [⟨S20000x64, (m ((c.tc : Thread nD τ).loc main_arg3))⟩, ⟨S40000x64, (m ((c.tc : Thread nD τ).loc main_arg4))⟩] concatenates_S20000x64_S40000x64_S60000x64_d0))⟩] concatenates_S60000x128_S60000x64_S60000x192_d1) (transpose S192x64 [1, 0] (m ((c.tc : Thread nD τ).loc main_arg29)) transposes_S64x192_S192x64_1_0)) (broadcastInDim S60000x64 ![0, 1] bcast_S1x64_S60000x64_0_1 (broadcastInDim S1x64 ![1] bcast_S64_S1x64_1 (m ((c.tc : Thread nD τ).loc main_arg30))))) (transpose S64x64 [1, 0] (m ((c.tc : Thread nD τ).loc main_arg23)) transposes_S64x64_S64x64_1_0)) (broadcastInDim S60000x64 ![0, 1] bcast_S1x64_S60000x64_0_1 (broadcastInDim S1x64 ![1] bcast_S64_S1x64_1 (m ((c.tc : Thread nD τ).loc main_arg24))))) (concatenate S60000x64 0 [⟨S20000x64, (m ((c.tc : Thread nD τ).loc main_arg3))⟩, ⟨S40000x64, (m ((c.tc : Thread nD τ).loc main_arg4))⟩] concatenates_S20000x64_S40000x64_S60000x64_d0))⟩] concatenates_S60000x64_S60000x64_S60000x128_d1) (transpose S128x64 [1, 0] (m ((c.tc : Thread nD τ).loc main_arg31)) transposes_S64x128_S128x64_1_0)) (broadcastInDim S60000x64 ![0, 1] bcast_S1x64_S60000x64_0_1 (broadcastInDim S1x64 ![1] bcast_S64_S1x64_1 (m ((c.tc : Thread nD τ).loc main_arg32)))))) (broadcastInDim S60000x64 ![] bcast_S_S60000x64 (constant S_ .f32 0x40000000#32))) slices_S60000x64_S20000x64_0_0) (broadcastInDim S8192x1 ![0] bcast_S8192_S8192x1_0 (select (cmpi .slt (m ((c.tc : Thread nD τ).loc main_arg1)) (broadcastInDim S8192 ![] bcast_S_S8192 (constantI S_ 32 0#32))) (addi (m ((c.tc : Thread nD τ).loc main_arg1)) (broadcastInDim S8192 ![] bcast_S_S8192 (constantI S_ 32 20000#32))) (m ((c.tc : Thread nD τ).loc main_arg1))))) (Host.gather gather_S40000x64_S8192x1_S8192x64_1_0_n_n_0_1_164 (extractStridedSlice S40000x64 ![20000, 0] (Host.divf (addf (addf (Host.dotGeneral dot_S60000x128_S128x64_S60000x64_1_0_0_1_n_n none (concatenate S60000x128 1 [⟨S60000x64, (mulf (Host.scatterAdd scatter_S60000x64_S1000000x1_S1000000x64_1_0_0_1 (broadcastInDim S60000x64 ![] bcast_S_S60000x64 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (Host.gather gather_S60000x64_S1000000x1_S1000000x64_1_0_n_n_0_1_164 (Host.dotGeneral dot_S60000x64_S64x64_S60000x64_1_0_0_1_n_n none (addf (Host.dotGeneral dot_S60000x192_S192x64_S60000x64_1_0_0_1_n_n none (concatenate S60000x192 1 [⟨S60000x128, (mulf (Host.scatterAdd scatter_S60000x128_S1000000x1_S1000000x128_1_0_0_1 (broadcastInDim S60000x128 ![] bcast_S_S60000x128 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (Host.gather gather_S60000x128_S1000000x1_S1000000x128_1_0_n_n_0_1_1128 (Host.dotGeneral dot_S60000x128_S128x128_S60000x128_1_0_0_1_n_n none (Host.divf (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0) (broadcastInDim S60000x128 ![0, 1] bcast_S60000x1_S60000x128_0_1 (maximumf (Host.sqrt (broadcastInDim S60000x1 ![0] bcast_S60000_S60000x1_0 (Host.reduceAdd (mulf (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0) (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0)) (constant S_ .f32 0x00000000#32) reducesTo_S60000x128_S60000_d1 h_S_))) (broadcastInDim S60000x1 ![] bcast_S_S60000x1 (constant S_ .f32 0x2B8CBCCC#32))))) (m ((c.tc : Thread nD τ).loc main_arg13))) (broadcastInDim S1000000x1 ![0] bcast_S1000000_S1000000x1_0 (select (cmpi .slt (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 60000#32))) (shapeCast _ (extractStridedSlice S1x1000000 ![0, 0] (m ((c.tc : Thread nD τ).loc main_arg0)) slices_S2x1000000_S1x1000000_0_0) shapeCasts_S1x1000000_S1000000))))) (broadcastInDim S60000x128 ![0, 1] bcast_S60000x1_S60000x128_0_1 (broadcastInDim S60000x1 ![0] bcast_S60000_S60000x1_0 (Host.divf (broadcastInDim S60000 ![] bcast_S_S60000 (constant S_ .f32 0x3F800000#32)) (maximumf (Host.scatterAdd scatter_S60000_S1000000x1_S1000000_n_0_0_1 (broadcastInDim S60000 ![] bcast_S_S60000 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (broadcastInDim S1000000 ![] bcast_S_S1000000 (constant S_ .f32 0x3F800000#32))) (broadcastInDim S60000 ![] bcast_S_S60000 (constant S_ .f32 0x3F800000#32)))))))⟩, ⟨S60000x64, (addf (addf (Host.dotGeneral dot_S60000x128_S128x64_S60000x64_1_0_0_1_n_n none (Host.divf (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0) (broadcastInDim S60000x128 ![0, 1] bcast_S60000x1_S60000x128_0_1 (maximumf (Host.sqrt (broadcastInDim S60000x1 ![0] bcast_S60000_S60000x1_0 (Host.reduceAdd (mulf (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0) (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0)) (constant S_ .f32 0x00000000#32) reducesTo_S60000x128_S60000_d1 h_S_))) (broadcastInDim S60000x1 ![] bcast_S_S60000x1 (constant S_ .f32 0x2B8CBCCC#32))))) (transpose S128x64 [1, 0] (m ((c.tc : Thread nD τ).loc main_arg17)) transposes_S64x128_S128x64_1_0)) (broadcastInDim S60000x64 ![0, 1] bcast_S1x64_S60000x64_0_1 (broadcastInDim S1x64 ![1] bcast_S64_S1x64_1 (m ((c.tc : Thread nD τ).loc main_arg18))))) (concatenate S60000x64 0 [⟨S20000x64, (m ((c.tc : Thread nD τ).loc main_arg3))⟩, ⟨S40000x64, (m ((c.tc : Thread nD τ).loc main_arg4))⟩] concatenates_S20000x64_S40000x64_S60000x64_d0))⟩] concatenates_S60000x128_S60000x64_S60000x192_d1) (transpose S192x64 [1, 0] (m ((c.tc : Thread nD τ).loc main_arg25)) transposes_S64x192_S192x64_1_0)) (broadcastInDim S60000x64 ![0, 1] bcast_S1x64_S60000x64_0_1 (broadcastInDim S1x64 ![1] bcast_S64_S1x64_1 (m ((c.tc : Thread nD τ).loc main_arg26))))) (m ((c.tc : Thread nD τ).loc main_arg14))) (broadcastInDim S1000000x1 ![0] bcast_S1000000_S1000000x1_0 (select (cmpi .slt (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 60000#32))) (shapeCast _ (extractStridedSlice S1x1000000 ![0, 0] (m ((c.tc : Thread nD τ).loc main_arg0)) slices_S2x1000000_S1x1000000_0_0) shapeCasts_S1x1000000_S1000000))))) (broadcastInDim S60000x64 ![0, 1] bcast_S60000x1_S60000x64_0_1 (broadcastInDim S60000x1 ![0] bcast_S60000_S60000x1_0 (Host.divf (broadcastInDim S60000 ![] bcast_S_S60000 (constant S_ .f32 0x3F800000#32)) (maximumf (Host.scatterAdd scatter_S60000_S1000000x1_S1000000_n_0_0_1 (broadcastInDim S60000 ![] bcast_S_S60000 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (broadcastInDim S1000000 ![] bcast_S_S1000000 (constant S_ .f32 0x3F800000#32))) (broadcastInDim S60000 ![] bcast_S_S60000 (constant S_ .f32 0x3F800000#32)))))))⟩, ⟨S60000x64, (addf (addf (Host.dotGeneral dot_S60000x64_S64x64_S60000x64_1_0_0_1_n_n none (addf (Host.dotGeneral dot_S60000x192_S192x64_S60000x64_1_0_0_1_n_n none (concatenate S60000x192 1 [⟨S60000x128, (mulf (Host.scatterAdd scatter_S60000x128_S1000000x1_S1000000x128_1_0_0_1 (broadcastInDim S60000x128 ![] bcast_S_S60000x128 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (Host.gather gather_S60000x128_S1000000x1_S1000000x128_1_0_n_n_0_1_1128 (Host.dotGeneral dot_S60000x128_S128x128_S60000x128_1_0_0_1_n_n none (Host.divf (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0) (broadcastInDim S60000x128 ![0, 1] bcast_S60000x1_S60000x128_0_1 (maximumf (Host.sqrt (broadcastInDim S60000x1 ![0] bcast_S60000_S60000x1_0 (Host.reduceAdd (mulf (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0) (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0)) (constant S_ .f32 0x00000000#32) reducesTo_S60000x128_S60000_d1 h_S_))) (broadcastInDim S60000x1 ![] bcast_S_S60000x1 (constant S_ .f32 0x2B8CBCCC#32))))) (m ((c.tc : Thread nD τ).loc main_arg13))) (broadcastInDim S1000000x1 ![0] bcast_S1000000_S1000000x1_0 (select (cmpi .slt (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 60000#32))) (shapeCast _ (extractStridedSlice S1x1000000 ![0, 0] (m ((c.tc : Thread nD τ).loc main_arg0)) slices_S2x1000000_S1x1000000_0_0) shapeCasts_S1x1000000_S1000000))))) (broadcastInDim S60000x128 ![0, 1] bcast_S60000x1_S60000x128_0_1 (broadcastInDim S60000x1 ![0] bcast_S60000_S60000x1_0 (Host.divf (broadcastInDim S60000 ![] bcast_S_S60000 (constant S_ .f32 0x3F800000#32)) (maximumf (Host.scatterAdd scatter_S60000_S1000000x1_S1000000_n_0_0_1 (broadcastInDim S60000 ![] bcast_S_S60000 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (broadcastInDim S1000000 ![] bcast_S_S1000000 (constant S_ .f32 0x3F800000#32))) (broadcastInDim S60000 ![] bcast_S_S60000 (constant S_ .f32 0x3F800000#32)))))))⟩, ⟨S60000x64, (addf (addf (Host.dotGeneral dot_S60000x128_S128x64_S60000x64_1_0_0_1_n_n none (Host.divf (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0) (broadcastInDim S60000x128 ![0, 1] bcast_S60000x1_S60000x128_0_1 (maximumf (Host.sqrt (broadcastInDim S60000x1 ![0] bcast_S60000_S60000x1_0 (Host.reduceAdd (mulf (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0) (concatenate S60000x128 0 [⟨S20000x128, (m ((c.tc : Thread nD τ).loc main_arg5))⟩, ⟨S40000x128, (addf (Host.dotGeneral dot_S40000x2048_S2048x128_S40000x128_1_0_0_1_n_n none (m ((c.tc : Thread nD τ).loc main_arg7)) (transpose S2048x128 [1, 0] (m ((c.tc : Thread nD τ).loc main_arg9)) transposes_S128x2048_S2048x128_1_0)) (broadcastInDim S40000x128 ![0, 1] bcast_S1x128_S40000x128_0_1 (broadcastInDim S1x128 ![1] bcast_S128_S1x128_1 (m ((c.tc : Thread nD τ).loc main_arg10)))))⟩] concatenates_S20000x128_S40000x128_S60000x128_d0)) (constant S_ .f32 0x00000000#32) reducesTo_S60000x128_S60000_d1 h_S_))) (broadcastInDim S60000x1 ![] bcast_S_S60000x1 (constant S_ .f32 0x2B8CBCCC#32))))) (transpose S128x64 [1, 0] (m ((c.tc : Thread nD τ).loc main_arg17)) transposes_S64x128_S128x64_1_0)) (broadcastInDim S60000x64 ![0, 1] bcast_S1x64_S60000x64_0_1 (broadcastInDim S1x64 ![1] bcast_S64_S1x64_1 (m ((c.tc : Thread nD τ).loc main_arg18))))) (concatenate S60000x64 0 [⟨S20000x64, (m ((c.tc : Thread nD τ).loc main_arg3))⟩, ⟨S40000x64, (m ((c.tc : Thread nD τ).loc main_arg4))⟩] concatenates_S20000x64_S40000x64_S60000x64_d0))⟩] concatenates_S60000x128_S60000x64_S60000x192_d1) (transpose S192x64 [1, 0] (m ((c.tc : Thread nD τ).loc main_arg25)) transposes_S64x192_S192x64_1_0)) (broadcastInDim S60000x64 ![0, 1] bcast_S1x64_S60000x64_0_1 (broadcastInDim S1x64 ![1] bcast_S64_S1x64_1 (m ((c.tc : Thread nD τ).loc main_arg26))))) (transpose S64x64 [1, 0] (m ((c.tc : Thread nD τ).loc main_arg19)) transposes_S64x64_S64x64_1_0)) (broadcastInDim S60000x64 ![0, 1] bcast_S1x64_S60000x64_0_1 (broadcastInDim S1x64 ![1] bcast_S64_S1x64_1 (m ((c.tc : Thread nD τ).loc main_arg20))))) (concatenate S60000x64 0 [⟨S20000x64, (m ((c.tc : Thread nD τ).loc main_arg3))⟩, ⟨S40000x64, (m ((c.tc : Thread nD τ).loc main_arg4))⟩] concatenates_S20000x64_S40000x64_S60000x64_d0))⟩] concatenates_S60000x64_S60000x64_S60000x128_d1) (transpose S128x64 [1, 0] (m ((c.tc : Thread nD τ).loc main_arg27)) transposes_S64x128_S128x64_1_0)) (broadcastInDim S60000x64 ![0, 1] bcast_S1x64_S60000x64_0_1 (broadcastInDim S1x64 ![1] bcast_S64_S1x64_1 (m ((c.tc : Thread nD τ).loc main_arg28))))) (addf (Host.dotGeneral dot_S60000x128_S128x64_S60000x64_1_0_0_1_n_n none (concatenate S60000x128 1 [⟨S60000x64, (mulf (Host.scatterAdd scatter_S60000x64_S1000000x1_S1000000x64_1_0_0_1 (broadcastInDim S60000x64 ![] bcast_S_S60000x64 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (Host.gather gather_S60000x64_S1000000x1_S1000000x64_1_0_n_n_0_1_164 (Host.dotGeneral dot_S60000x64_S64x64_S60000x64_1_0_0_1_n_n none (addf (Host.dotGeneral dot_S60000x192_S192x64_S60000x64_1_0_0_1_n_n none (concatenate S60000x192 1 [⟨S60000x128, (mulf (Host.scatterAdd scatter_S60000x128_S1000000x1_S1000000x128_1_0_0_1 (broadcastInDim S60000x128 ![] bcast_S_S60000x128 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (Host.gather gather_S60000x128_S1000000x1_S1000000x128_1_0_n_n_0_1_1128 (Host.dotGeneral dot_S60000x128_S128x128_S60000x128_1_0_0_1_n_n none (Host.divf (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0) (broadcastInDim S60000x128 ![0, 1] bcast_S60000x1_S60000x128_0_1 (maximumf (Host.sqrt (broadcastInDim S60000x1 ![0] bcast_S60000_S60000x1_0 (Host.reduceAdd (mulf (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0) (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0)) (constant S_ .f32 0x00000000#32) reducesTo_S60000x128_S60000_d1 h_S_))) (broadcastInDim S60000x1 ![] bcast_S_S60000x1 (constant S_ .f32 0x2B8CBCCC#32))))) (m ((c.tc : Thread nD τ).loc main_arg15))) (broadcastInDim S1000000x1 ![0] bcast_S1000000_S1000000x1_0 (select (cmpi .slt (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 60000#32))) (shapeCast _ (extractStridedSlice S1x1000000 ![0, 0] (m ((c.tc : Thread nD τ).loc main_arg0)) slices_S2x1000000_S1x1000000_0_0) shapeCasts_S1x1000000_S1000000))))) (broadcastInDim S60000x128 ![0, 1] bcast_S60000x1_S60000x128_0_1 (broadcastInDim S60000x1 ![0] bcast_S60000_S60000x1_0 (Host.divf (broadcastInDim S60000 ![] bcast_S_S60000 (constant S_ .f32 0x3F800000#32)) (maximumf (Host.scatterAdd scatter_S60000_S1000000x1_S1000000_n_0_0_1 (broadcastInDim S60000 ![] bcast_S_S60000 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (broadcastInDim S1000000 ![] bcast_S_S1000000 (constant S_ .f32 0x3F800000#32))) (broadcastInDim S60000 ![] bcast_S_S60000 (constant S_ .f32 0x3F800000#32)))))))⟩, ⟨S60000x64, (addf (addf (Host.dotGeneral dot_S60000x128_S128x64_S60000x64_1_0_0_1_n_n none (Host.divf (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0) (broadcastInDim S60000x128 ![0, 1] bcast_S60000x1_S60000x128_0_1 (maximumf (Host.sqrt (broadcastInDim S60000x1 ![0] bcast_S60000_S60000x1_0 (Host.reduceAdd (mulf (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0) (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0)) (constant S_ .f32 0x00000000#32) reducesTo_S60000x128_S60000_d1 h_S_))) (broadcastInDim S60000x1 ![] bcast_S_S60000x1 (constant S_ .f32 0x2B8CBCCC#32))))) (transpose S128x64 [1, 0] (m ((c.tc : Thread nD τ).loc main_arg21)) transposes_S64x128_S128x64_1_0)) (broadcastInDim S60000x64 ![0, 1] bcast_S1x64_S60000x64_0_1 (broadcastInDim S1x64 ![1] bcast_S64_S1x64_1 (m ((c.tc : Thread nD τ).loc main_arg22))))) (concatenate S60000x64 0 [⟨S20000x64, (m ((c.tc : Thread nD τ).loc main_arg3))⟩, ⟨S40000x64, (m ((c.tc : Thread nD τ).loc main_arg4))⟩] concatenates_S20000x64_S40000x64_S60000x64_d0))⟩] concatenates_S60000x128_S60000x64_S60000x192_d1) (transpose S192x64 [1, 0] (m ((c.tc : Thread nD τ).loc main_arg29)) transposes_S64x192_S192x64_1_0)) (broadcastInDim S60000x64 ![0, 1] bcast_S1x64_S60000x64_0_1 (broadcastInDim S1x64 ![1] bcast_S64_S1x64_1 (m ((c.tc : Thread nD τ).loc main_arg30))))) (m ((c.tc : Thread nD τ).loc main_arg16))) (broadcastInDim S1000000x1 ![0] bcast_S1000000_S1000000x1_0 (select (cmpi .slt (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 60000#32))) (shapeCast _ (extractStridedSlice S1x1000000 ![0, 0] (m ((c.tc : Thread nD τ).loc main_arg0)) slices_S2x1000000_S1x1000000_0_0) shapeCasts_S1x1000000_S1000000))))) (broadcastInDim S60000x64 ![0, 1] bcast_S60000x1_S60000x64_0_1 (broadcastInDim S60000x1 ![0] bcast_S60000_S60000x1_0 (Host.divf (broadcastInDim S60000 ![] bcast_S_S60000 (constant S_ .f32 0x3F800000#32)) (maximumf (Host.scatterAdd scatter_S60000_S1000000x1_S1000000_n_0_0_1 (broadcastInDim S60000 ![] bcast_S_S60000 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (broadcastInDim S1000000 ![] bcast_S_S1000000 (constant S_ .f32 0x3F800000#32))) (broadcastInDim S60000 ![] bcast_S_S60000 (constant S_ .f32 0x3F800000#32)))))))⟩, ⟨S60000x64, (addf (addf (Host.dotGeneral dot_S60000x64_S64x64_S60000x64_1_0_0_1_n_n none (addf (Host.dotGeneral dot_S60000x192_S192x64_S60000x64_1_0_0_1_n_n none (concatenate S60000x192 1 [⟨S60000x128, (mulf (Host.scatterAdd scatter_S60000x128_S1000000x1_S1000000x128_1_0_0_1 (broadcastInDim S60000x128 ![] bcast_S_S60000x128 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (Host.gather gather_S60000x128_S1000000x1_S1000000x128_1_0_n_n_0_1_1128 (Host.dotGeneral dot_S60000x128_S128x128_S60000x128_1_0_0_1_n_n none (Host.divf (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0) (broadcastInDim S60000x128 ![0, 1] bcast_S60000x1_S60000x128_0_1 (maximumf (Host.sqrt (broadcastInDim S60000x1 ![0] bcast_S60000_S60000x1_0 (Host.reduceAdd (mulf (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0) (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0)) (constant S_ .f32 0x00000000#32) reducesTo_S60000x128_S60000_d1 h_S_))) (broadcastInDim S60000x1 ![] bcast_S_S60000x1 (constant S_ .f32 0x2B8CBCCC#32))))) (m ((c.tc : Thread nD τ).loc main_arg15))) (broadcastInDim S1000000x1 ![0] bcast_S1000000_S1000000x1_0 (select (cmpi .slt (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 0#32))) (addi (shapeCast _ (extractStridedSlice S1x1000000 ![0, 0] (m ((c.tc : Thread nD τ).loc main_arg0)) slices_S2x1000000_S1x1000000_0_0) shapeCasts_S1x1000000_S1000000) (broadcastInDim S1000000 ![] bcast_S_S1000000 (constantI S_ 32 60000#32))) (shapeCast _ (extractStridedSlice S1x1000000 ![0, 0] (m ((c.tc : Thread nD τ).loc main_arg0)) slices_S2x1000000_S1x1000000_0_0) shapeCasts_S1x1000000_S1000000))))) (broadcastInDim S60000x128 ![0, 1] bcast_S60000x1_S60000x128_0_1 (broadcastInDim S60000x1 ![0] bcast_S60000_S60000x1_0 (Host.divf (broadcastInDim S60000 ![] bcast_S_S60000 (constant S_ .f32 0x3F800000#32)) (maximumf (Host.scatterAdd scatter_S60000_S1000000x1_S1000000_n_0_0_1 (broadcastInDim S60000 ![] bcast_S_S60000 (constant S_ .f32 0x00000000#32)) (broadcastInDim S1000000x1 ![0] bcast_S1000000_S1000000x1_0 (shapeCast _ (extractStridedSlice S1x1000000 ![1, 0] (m ((c.tc : Thread nD τ).loc main_arg0)) slices_S2x1000000_S1x1000000_1_0) shapeCasts_S1x1000000_S1000000)) (broadcastInDim S1000000 ![] bcast_S_S1000000 (constant S_ .f32 0x3F800000#32))) (broadcastInDim S60000 ![] bcast_S_S60000 (constant S_ .f32 0x3F800000#32)))))))⟩, ⟨S60000x64, (addf (addf (Host.dotGeneral dot_S60000x128_S128x64_S60000x64_1_0_0_1_n_n none (Host.divf (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0) (broadcastInDim S60000x128 ![0, 1] bcast_S60000x1_S60000x128_0_1 (maximumf (Host.sqrt (broadcastInDim S60000x1 ![0] bcast_S60000_S60000x1_0 (Host.reduceAdd (mulf (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0) (concatenate S60000x128 0 [⟨S20000x128, (m ((c.tc : Thread nD τ).loc main_arg6))⟩, ⟨S40000x128, (addf (Host.dotGeneral dot_S40000x768_S768x128_S40000x128_1_0_0_1_n_n none (m ((c.tc : Thread nD τ).loc main_arg8)) (transpose S768x128 [1, 0] (m ((c.tc : Thread nD τ).loc main_arg11)) transposes_S128x768_S768x128_1_0)) (broadcastInDim S40000x128 ![0, 1] bcast_S1x128_S40000x128_0_1 (broadcastInDim S1x128 ![1] bcast_S128_S1x128_1 (m ((c.tc : Thread nD τ).loc main_arg12)))))⟩] concatenates_S20000x128_S40000x128_S60000x128_d0)) (constant S_ .f32 0x00000000#32) reducesTo_S60000x128_S60000_d1 h_S_))) (broadcastInDim S60000x1 ![] bcast_S_S60000x1 (constant S_ .f32 0x2B8CBCCC#32))))) (transpose S128x64 [1, 0] (m ((c.tc : Thread nD τ).loc main_arg21)) transposes_S64x128_S128x64_1_0)) (broadcastInDim S60000x64 ![0, 1] bcast_S1x64_S60000x64_0_1 (broadcastInDim S1x64 ![1] bcast_S64_S1x64_1 (m ((c.tc : Thread nD τ).loc main_arg22))))) (concatenate S60000x64 0 [⟨S20000x64, (m ((c.tc : Thread nD τ).loc main_arg3))⟩, ⟨S40000x64, (m ((c.tc : Thread nD τ).loc main_arg4))⟩] concatenates_S20000x64_S40000x64_S60000x64_d0))⟩] concatenates_S60000x128_S60000x64_S60000x192_d1) (transpose S192x64 [1, 0] (m ((c.tc : Thread nD τ).loc main_arg29)) transposes_S64x192_S192x64_1_0)) (broadcastInDim S60000x64 ![0, 1] bcast_S1x64_S60000x64_0_1 (broadcastInDim S1x64 ![1] bcast_S64_S1x64_1 (m ((c.tc : Thread nD τ).loc main_arg30))))) (transpose S64x64 [1, 0] (m ((c.tc : Thread nD τ).loc main_arg23)) transposes_S64x64_S64x64_1_0)) (broadcastInDim S60000x64 ![0, 1] bcast_S1x64_S60000x64_0_1 (broadcastInDim S1x64 ![1] bcast_S64_S1x64_1 (m ((c.tc : Thread nD τ).loc main_arg24))))) (concatenate S60000x64 0 [⟨S20000x64, (m ((c.tc : Thread nD τ).loc main_arg3))⟩, ⟨S40000x64, (m ((c.tc : Thread nD τ).loc main_arg4))⟩] concatenates_S20000x64_S40000x64_S60000x64_d0))⟩] concatenates_S60000x64_S60000x64_S60000x128_d1) (transpose S128x64 [1, 0] (m ((c.tc : Thread nD τ).loc main_arg31)) transposes_S64x128_S128x64_1_0)) (broadcastInDim S60000x64 ![0, 1] bcast_S1x64_S60000x64_0_1 (broadcastInDim S1x64 ![1] bcast_S64_S1x64_1 (m ((c.tc : Thread nD τ).loc main_arg32)))))) (broadcastInDim S60000x64 ![] bcast_S_S60000x64 (constant S_ .f32 0x40000000#32))) slices_S60000x64_S40000x64_20000_0) (broadcastInDim S8192x1 ![0] bcast_S8192_S8192x1_0 (select (cmpi .slt (m ((c.tc : Thread nD τ).loc main_arg2)) (broadcastInDim S8192 ![] bcast_S_S8192 (constantI S_ 32 0#32))) (addi (m ((c.tc : Thread nD τ).loc main_arg2)) (broadcastInDim S8192 ![] bcast_S_S8192 (constantI S_ 32 40000#32))) (m ((c.tc : Thread nD τ).loc main_arg2)))))) (constant S_ .f32 0x00000000#32) reducesTo_S8192x64_S8192_d1 h_S_

end Cert.ReferenceIdeal.RefTrace

end
-- ==== Proof.RefTrace1.lean ====
/-
  The reference program's buffer contents after each stretch of its operations: every buffer a later stretch reads, the
  result and the arguments hold their pure terms of the launch memory; a stretch gives a buffer it computes the
  operation's function of its operands and leaves every other buffer.
-/
import proofs.«159630_j86646670230227_1_alg».proof.Proof.RefDefs

set_option maxRecDepth 16384

noncomputable section

namespace Cert.ReferenceIdeal.RefTrace

open Cert.ReferenceIdeal Cert.ReferenceIdeal.Gen Idealize.ShloMosaic Idealize.ShloMosaic.TcCoe Idealize.SL.Sem Idealize.ShloMosaic.StableHlo

variable {F : FTy → Type} [FloatOps F]

/-- What one pass leaves of the operations' results under a concatenation's operands: each remaining operation's
    result at its own buffer is its function's value, at any other buffer what was there. -/
macro "finish_results" : tactic => `(tactic| repeat (first
  | rw [nullary_result] | rw [unary_result] | rw [binary_result] | rw [ternary_result] | rw [reshape_result]
  | (rw [nullary_result_ne]; rotate_left; decide)
  | (rw [unary_result_ne]; rotate_left; decide)
  | (rw [binary_result_ne]; rotate_left; decide)
  | (rw [ternary_result_ne]; rotate_left; decide)
  | (rw [reshape_result_ne]; rotate_left; decide)))

variable (m : (ℓ : Loc nD τ sig) → Buf (Elt F) ℓ) (c : Dev nD)

theorem rs0_main_arg0 : S0 m c (Proc.devRef .tc main_arg0) = R_main_arg0 m c := rfl
theorem rs0_main_arg3 : S0 m c (Proc.devRef .tc main_arg3) = R_main_arg3 m c := rfl
theorem rs0_main_arg4 : S0 m c (Proc.devRef .tc main_arg4) = R_main_arg4 m c := rfl
theorem rs0_main_arg9 : S0 m c (Proc.devRef .tc main_arg9) = R_main_arg9 m c := rfl
theorem rs0_main_arg7 : S0 m c (Proc.devRef .tc main_arg7) = R_main_arg7 m c := rfl
theorem rs0_main_arg10 : S0 m c (Proc.devRef .tc main_arg10) = R_main_arg10 m c := rfl
theorem rs0_main_arg5 : S0 m c (Proc.devRef .tc main_arg5) = R_main_arg5 m c := rfl
theorem rs0_main_arg11 : S0 m c (Proc.devRef .tc main_arg11) = R_main_arg11 m c := rfl
theorem rs0_main_arg8 : S0 m c (Proc.devRef .tc main_arg8) = R_main_arg8 m c := rfl
theorem rs0_main_arg12 : S0 m c (Proc.devRef .tc main_arg12) = R_main_arg12 m c := rfl
theorem rs0_main_arg6 : S0 m c (Proc.devRef .tc main_arg6) = R_main_arg6 m c := rfl
theorem rs0_main_arg13 : S0 m c (Proc.devRef .tc main_arg13) = R_main_arg13 m c := rfl
theorem rs0_main_arg17 : S0 m c (Proc.devRef .tc main_arg17) = R_main_arg17 m c := rfl
theorem rs0_main_arg18 : S0 m c (Proc.devRef .tc main_arg18) = R_main_arg18 m c := rfl
theorem rs0_main_arg25 : S0 m c (Proc.devRef .tc main_arg25) = R_main_arg25 m c := rfl
theorem rs0_main_arg26 : S0 m c (Proc.devRef .tc main_arg26) = R_main_arg26 m c := rfl
theorem rs0_main_arg14 : S0 m c (Proc.devRef .tc main_arg14) = R_main_arg14 m c := rfl
theorem rs0_main_arg19 : S0 m c (Proc.devRef .tc main_arg19) = R_main_arg19 m c := rfl
theorem rs0_main_arg20 : S0 m c (Proc.devRef .tc main_arg20) = R_main_arg20 m c := rfl
theorem rs0_main_arg27 : S0 m c (Proc.devRef .tc main_arg27) = R_main_arg27 m c := rfl
theorem rs0_main_arg28 : S0 m c (Proc.devRef .tc main_arg28) = R_main_arg28 m c := rfl
theorem rs0_main_arg15 : S0 m c (Proc.devRef .tc main_arg15) = R_main_arg15 m c := rfl
theorem rs0_main_arg21 : S0 m c (Proc.devRef .tc main_arg21) = R_main_arg21 m c := rfl
theorem rs0_main_arg22 : S0 m c (Proc.devRef .tc main_arg22) = R_main_arg22 m c := rfl
theorem rs0_main_arg29 : S0 m c (Proc.devRef .tc main_arg29) = R_main_arg29 m c := rfl
theorem rs0_main_arg30 : S0 m c (Proc.devRef .tc main_arg30) = R_main_arg30 m c := rfl
theorem rs0_main_arg16 : S0 m c (Proc.devRef .tc main_arg16) = R_main_arg16 m c := rfl
theorem rs0_main_arg23 : S0 m c (Proc.devRef .tc main_arg23) = R_main_arg23 m c := rfl
theorem rs0_main_arg24 : S0 m c (Proc.devRef .tc main_arg24) = R_main_arg24 m c := rfl
theorem rs0_main_arg31 : S0 m c (Proc.devRef .tc main_arg31) = R_main_arg31 m c := rfl
theorem rs0_main_arg32 : S0 m c (Proc.devRef .tc main_arg32) = R_main_arg32 m c := rfl
theorem rs0_main_arg1 : S0 m c (Proc.devRef .tc main_arg1) = R_main_arg1 m c := rfl
theorem rs0_main_arg2 : S0 m c (Proc.devRef .tc main_arg2) = R_main_arg2 m c := rfl
set_option maxHeartbeats 4000000 in
theorem rs1_main_arg0 : S1 m c (Proc.devRef .tc main_arg0) = R_main_arg0 m c := by
  show after c1 (S0 m c) (Proc.devRef .tc main_arg0) = _
  after_results_simp
  exact rs0_main_arg0 m c
set_option maxHeartbeats 4000000 in
theorem rs1_main_arg3 : S1 m c (Proc.devRef .tc main_arg3) = R_main_arg3 m c := by
  show after c1 (S0 m c) (Proc.devRef .tc main_arg3) = _
  after_results_simp
  exact rs0_main_arg3 m c
set_option maxHeartbeats 4000000 in
theorem rs1_main_arg4 : S1 m c (Proc.devRef .tc main_arg4) = R_main_arg4 m c := by
  show after c1 (S0 m c) (Proc.devRef .tc main_arg4) = _
  after_results_simp
  exact rs0_main_arg4 m c
set_option maxHeartbeats 4000000 in
theorem rs1_main_arg9 : S1 m c (Proc.devRef .tc main_arg9) = R_main_arg9 m c := by
  show after c1 (S0 m c) (Proc.devRef .tc main_arg9) = _
  after_results_simp
  exact rs0_main_arg9 m c
set_option maxHeartbeats 4000000 in
theorem rs1_main_arg7 : S1 m c (Proc.devRef .tc main_arg7) = R_main_arg7 m c := by
  show after c1 (S0 m c) (Proc.devRef .tc main_arg7) = _
  after_results_simp
  exact rs0_main_arg7 m c
set_option maxHeartbeats 4000000 in
theorem rs1_main_arg10 : S1 m c (Proc.devRef .tc main_arg10) = R_main_arg10 m c := by
  show after c1 (S0 m c) (Proc.devRef .tc main_arg10) = _
  after_results_simp
  exact rs0_main_arg10 m c
set_option maxHeartbeats 4000000 in
theorem rs1_main_arg5 : S1 m c (Proc.devRef .tc main_arg5) = R_main_arg5 m c := by
  show after c1 (S0 m c) (Proc.devRef .tc main_arg5) = _
  after_results_simp
  exact rs0_main_arg5 m c
set_option maxHeartbeats 4000000 in
theorem rs1_main_arg11 : S1 m c (Proc.devRef .tc main_arg11) = R_main_arg11 m c := by
  show after c1 (S0 m c) (Proc.devRef .tc main_arg11) = _
  after_results_simp
  exact rs0_main_arg11 m c
set_option maxHeartbeats 4000000 in
theorem rs1_main_arg8 : S1 m c (Proc.devRef .tc main_arg8) = R_main_arg8 m c := by
  show after c1 (S0 m c) (Proc.devRef .tc main_arg8) = _
  after_results_simp
  exact rs0_main_arg8 m c
set_option maxHeartbeats 4000000 in
theorem rs1_main_arg12 : S1 m c (Proc.devRef .tc main_arg12) = R_main_arg12 m c := by
  show after c1 (S0 m c) (Proc.devRef .tc main_arg12) = _
  after_results_simp
  exact rs0_main_arg12 m c
set_option maxHeartbeats 4000000 in
theorem rs1_main_arg6 : S1 m c (Proc.devRef .tc main_arg6) = R_main_arg6 m c := by
  show after c1 (S0 m c) (Proc.devRef .tc main_arg6) = _
  after_results_simp
  exact rs0_main_arg6 m c
set_option maxHeartbeats 4000000 in
theorem rs1_main_v19 : S1 m c (Proc.devRef .tc main_v19) = R_main_v19 m c := by
  show after c1 (S0 m c) (Proc.devRef .tc main_v19) = _
  after_results_simp
  finish_results
  rw [rs0_main_arg5 m c, rs0_main_arg7 m c, rs0_main_arg9 m c, rs0_main_arg10 m c]
  rfl
set_option maxHeartbeats 4000000 in
theorem rs1_main_arg13 : S1 m c (Proc.devRef .tc main_arg13) = R_main_arg13 m c := by
  show after c1 (S0 m c) (Proc.devRef .tc main_arg13) = _
  after_results_simp
  exact rs0_main_arg13 m c
set_option maxHeartbeats 4000000 in
theorem rs1_main_v1 : S1 m c (Proc.devRef .tc main_v1) = R_main_v1 m c := by
  show after c1 (S0 m c) (Proc.devRef .tc main_v1) = _
  after_results_simp
  finish_results
  rw [rs0_main_arg0 m c]
  rfl
set_option maxHeartbeats 4000000 in
theorem rs1_main_v3 : S1 m c (Proc.devRef .tc main_v3) = R_main_v3 m c := by
  show after c1 (S0 m c) (Proc.devRef .tc main_v3) = _
  after_results_simp
  finish_results
  rw [rs0_main_arg0 m c]
  rfl
set_option maxHeartbeats 4000000 in
theorem rs1_main_v12 : S1 m c (Proc.devRef .tc main_v12) = R_main_v12 m c := by
  show after c1 (S0 m c) (Proc.devRef .tc main_v12) = _
  after_results_simp
  finish_results
  rw [rs0_main_arg0 m c]
  rfl
set_option maxHeartbeats 4000000 in
theorem rs1_main_arg17 : S1 m c (Proc.devRef .tc main_arg17) = R_main_arg17 m c := by
  show after c1 (S0 m c) (Proc.devRef .tc main_arg17) = _
  after_results_simp
  exact rs0_main_arg17 m c
set_option maxHeartbeats 4000000 in
theorem rs1_main_arg18 : S1 m c (Proc.devRef .tc main_arg18) = R_main_arg18 m c := by
  show after c1 (S0 m c) (Proc.devRef .tc main_arg18) = _
  after_results_simp
  exact rs0_main_arg18 m c
set_option maxHeartbeats 4000000 in
theorem rs1_main_v13 : S1 m c (Proc.devRef .tc main_v13) = R_main_v13 m c := by
  show after c1 (S0 m c) (Proc.devRef .tc main_v13) = _
  after_results_simp
  finish_results
  rw [rs0_main_arg3 m c, rs0_main_arg4 m c]
  rfl
set_option maxHeartbeats 4000000 in
theorem rs1_main_arg25 : S1 m c (Proc.devRef .tc main_arg25) = R_main_arg25 m c := by
  show after c1 (S0 m c) (Proc.devRef .tc main_arg25) = _
  after_results_simp
  exact rs0_main_arg25 m c
set_option maxHeartbeats 4000000 in
theorem rs1_main_arg26 : S1 m c (Proc.devRef .tc main_arg26) = R_main_arg26 m c := by
  show after c1 (S0 m c) (Proc.devRef .tc main_arg26) = _
  after_results_simp
  exact rs0_main_arg26 m c
set_option maxHeartbeats 4000000 in
theorem rs1_main_arg14 : S1 m c (Proc.devRef .tc main_arg14) = R_main_arg14 m c := by
  show after c1 (S0 m c) (Proc.devRef .tc main_arg14) = _
  after_results_simp
  exact rs0_main_arg14 m c
set_option maxHeartbeats 4000000 in
theorem rs1_main_arg19 : S1 m c (Proc.devRef .tc main_arg19) = R_main_arg19 m c := by
  show after c1 (S0 m c) (Proc.devRef .tc main_arg19) = _
  after_results_simp
  exact rs0_main_arg19 m c
set_option maxHeartbeats 4000000 in
theorem rs1_main_arg20 : S1 m c (Proc.devRef .tc main_arg20) = R_main_arg20 m c := by
  show after c1 (S0 m c) (Proc.devRef .tc main_arg20) = _
  after_results_simp
  exact rs0_main_arg20 m c
set_option maxHeartbeats 4000000 in
theorem rs1_main_arg27 : S1 m c (Proc.devRef .tc main_arg27) = R_main_arg27 m c := by
  show after c1 (S0 m c) (Proc.devRef .tc main_arg27) = _
  after_results_simp
  exact rs0_main_arg27 m c
set_option maxHeartbeats 4000000 in
theorem rs1_main_arg28 : S1 m c (Proc.devRef .tc main_arg28) = R_main_arg28 m c := by
  show after c1 (S0 m c) (Proc.devRef .tc main_arg28) = _
  after_results_simp
  exact rs0_main_arg28 m c
set_option maxHeartbeats 4000000 in
theorem rs1_main_arg15 : S1 m c (Proc.devRef .tc main_arg15) = R_main_arg15 m c := by
  show after c1 (S0 m c) (Proc.devRef .tc main_arg15) = _
  after_results_simp
  exact rs0_main_arg15 m c
set_option maxHeartbeats 4000000 in
theorem rs1_main_arg21 : S1 m c (Proc.devRef .tc main_arg21) = R_main_arg21 m c := by
  show after c1 (S0 m c) (Proc.devRef .tc main_arg21) = _
  after_results_simp
  exact rs0_main_arg21 m c
set_option maxHeartbeats 4000000 in
theorem rs1_main_arg22 : S1 m c (Proc.devRef .tc main_arg22) = R_main_arg22 m c := by
  show after c1 (S0 m c) (Proc.devRef .tc main_arg22) = _
  after_results_simp
  exact rs0_main_arg22 m c
set_option maxHeartbeats 4000000 in
theorem rs1_main_arg29 : S1 m c (Proc.devRef .tc main_arg29) = R_main_arg29 m c := by
  show after c1 (S0 m c) (Proc.devRef .tc main_arg29) = _
  after_results_simp
  exact rs0_main_arg29 m c
set_option maxHeartbeats 4000000 in
theorem rs1_main_arg30 : S1 m c (Proc.devRef .tc main_arg30) = R_main_arg30 m c := by
  show after c1 (S0 m c) (Proc.devRef .tc main_arg30) = _
  after_results_simp
  exact rs0_main_arg30 m c
set_option maxHeartbeats 4000000 in
theorem rs1_main_arg16 : S1 m c (Proc.devRef .tc main_arg16) = R_main_arg16 m c := by
  show after c1 (S0 m c) (Proc.devRef .tc main_arg16) = _
  after_results_simp
  exact rs0_main_arg16 m c
set_option maxHeartbeats 4000000 in
theorem rs1_main_arg23 : S1 m c (Proc.devRef .tc main_arg23) = R_main_arg23 m c := by
  show after c1 (S0 m c) (Proc.devRef .tc main_arg23) = _
  after_results_simp
  exact rs0_main_arg23 m c
set_option maxHeartbeats 4000000 in
theorem rs1_main_arg24 : S1 m c (Proc.devRef .tc main_arg24) = R_main_arg24 m c := by
  show after c1 (S0 m c) (Proc.devRef .tc main_arg24) = _
  after_results_simp
  exact rs0_main_arg24 m c
set_option maxHeartbeats 4000000 in
theorem rs1_main_arg31 : S1 m c (Proc.devRef .tc main_arg31) = R_main_arg31 m c := by
  show after c1 (S0 m c) (Proc.devRef .tc main_arg31) = _
  after_results_simp
  exact rs0_main_arg31 m c
set_option maxHeartbeats 4000000 in
theorem rs1_main_arg32 : S1 m c (Proc.devRef .tc main_arg32) = R_main_arg32 m c := by
  show after c1 (S0 m c) (Proc.devRef .tc main_arg32) = _
  after_results_simp
  exact rs0_main_arg32 m c
set_option maxHeartbeats 4000000 in
theorem rs1_main_arg1 : S1 m c (Proc.devRef .tc main_arg1) = R_main_arg1 m c := by
  show after c1 (S0 m c) (Proc.devRef .tc main_arg1) = _
  after_results_simp
  exact rs0_main_arg1 m c
set_option maxHeartbeats 4000000 in
theorem rs1_main_arg2 : S1 m c (Proc.devRef .tc main_arg2) = R_main_arg2 m c := by
  show after c1 (S0 m c) (Proc.devRef .tc main_arg2) = _
  after_results_simp
  exact rs0_main_arg2 m c
set_option maxHeartbeats 4000000 in
theorem rs2_main_arg0 : S2 m c (Proc.devRef .tc main_arg0) = R_main_arg0 m c := by
  show after c2 (S1 m c) (Proc.devRef .tc main_arg0) = _
  after_results_simp
  exact rs1_main_arg0 m c
set_option maxHeartbeats 4000000 in
theorem rs2_main_arg3 : S2 m c (Proc.devRef .tc main_arg3) = R_main_arg3 m c := by
  show after c2 (S1 m c) (Proc.devRef .tc main_arg3) = _
  after_results_simp
  exact rs1_main_arg3 m c
set_option maxHeartbeats 4000000 in
theorem rs2_main_arg4 : S2 m c (Proc.devRef .tc main_arg4) = R_main_arg4 m c := by
  show after c2 (S1 m c) (Proc.devRef .tc main_arg4) = _
  after_results_simp
  exact rs1_main_arg4 m c
set_option maxHeartbeats 4000000 in
theorem rs2_main_arg9 : S2 m c (Proc.devRef .tc main_arg9) = R_main_arg9 m c := by
  show after c2 (S1 m c) (Proc.devRef .tc main_arg9) = _
  after_results_simp
  exact rs1_main_arg9 m c
set_option maxHeartbeats 4000000 in
theorem rs2_main_arg7 : S2 m c (Proc.devRef .tc main_arg7) = R_main_arg7 m c := by
  show after c2 (S1 m c) (Proc.devRef .tc main_arg7) = _
  after_results_simp
  exact rs1_main_arg7 m c
set_option maxHeartbeats 4000000 in
theorem rs2_main_arg10 : S2 m c (Proc.devRef .tc main_arg10) = R_main_arg10 m c := by
  show after c2 (S1 m c) (Proc.devRef .tc main_arg10) = _
  after_results_simp
  exact rs1_main_arg10 m c
set_option maxHeartbeats 4000000 in
theorem rs2_main_arg5 : S2 m c (Proc.devRef .tc main_arg5) = R_main_arg5 m c := by
  show after c2 (S1 m c) (Proc.devRef .tc main_arg5) = _
  after_results_simp
  exact rs1_main_arg5 m c
set_option maxHeartbeats 4000000 in
theorem rs2_main_arg11 : S2 m c (Proc.devRef .tc main_arg11) = R_main_arg11 m c := by
  show after c2 (S1 m c) (Proc.devRef .tc main_arg11) = _
  after_results_simp
  exact rs1_main_arg11 m c
set_option maxHeartbeats 4000000 in
theorem rs2_main_arg8 : S2 m c (Proc.devRef .tc main_arg8) = R_main_arg8 m c := by
  show after c2 (S1 m c) (Proc.devRef .tc main_arg8) = _
  after_results_simp
  exact rs1_main_arg8 m c
set_option maxHeartbeats 4000000 in
theorem rs2_main_arg12 : S2 m c (Proc.devRef .tc main_arg12) = R_main_arg12 m c := by
  show after c2 (S1 m c) (Proc.devRef .tc main_arg12) = _
  after_results_simp
  exact rs1_main_arg12 m c
set_option maxHeartbeats 4000000 in
theorem rs2_main_arg6 : S2 m c (Proc.devRef .tc main_arg6) = R_main_arg6 m c := by
  show after c2 (S1 m c) (Proc.devRef .tc main_arg6) = _
  after_results_simp
  exact rs1_main_arg6 m c
set_option maxHeartbeats 4000000 in
theorem rs2_main_arg13 : S2 m c (Proc.devRef .tc main_arg13) = R_main_arg13 m c := by
  show after c2 (S1 m c) (Proc.devRef .tc main_arg13) = _
  after_results_simp
  exact rs1_main_arg13 m c
set_option maxHeartbeats 4000000 in
theorem rs2_main_v1 : S2 m c (Proc.devRef .tc main_v1) = R_main_v1 m c := by
  show after c2 (S1 m c) (Proc.devRef .tc main_v1) = _
  after_results_simp
  exact rs1_main_v1 m c
set_option maxHeartbeats 4000000 in
theorem rs2_main_v36 : S2 m c (Proc.devRef .tc main_v36) = R_main_v36 m c := by
  show after c2 (S1 m c) (Proc.devRef .tc main_v36) = _
  after_results_simp
  finish_results
  rw [rs1_main_v1 m c]
  rfl
set_option maxHeartbeats 4000000 in
theorem rs2_main_v31 : S2 m c (Proc.devRef .tc main_v31) = R_main_v31 m c := by
  show after c2 (S1 m c) (Proc.devRef .tc main_v31) = _
  after_results_simp
  finish_results
  rw [rs1_main_v19 m c, rs1_main_arg13 m c]
  rfl
set_option maxHeartbeats 4000000 in
theorem rs2_main_v3 : S2 m c (Proc.devRef .tc main_v3) = R_main_v3 m c := by
  show after c2 (S1 m c) (Proc.devRef .tc main_v3) = _
  after_results_simp
  exact rs1_main_v3 m c
set_option maxHeartbeats 4000000 in
theorem rs2_main_v12 : S2 m c (Proc.devRef .tc main_v12) = R_main_v12 m c := by
  show after c2 (S1 m c) (Proc.devRef .tc main_v12) = _
  after_results_simp
  exact rs1_main_v12 m c
set_option maxHeartbeats 4000000 in
theorem rs2_main_arg17 : S2 m c (Proc.devRef .tc main_arg17) = R_main_arg17 m c := by
  show after c2 (S1 m c) (Proc.devRef .tc main_arg17) = _
  after_results_simp
  exact rs1_main_arg17 m c
set_option maxHeartbeats 4000000 in
theorem rs2_main_v30 : S2 m c (Proc.devRef .tc main_v30) = R_main_v30 m c := by
  show after c2 (S1 m c) (Proc.devRef .tc main_v30) = _
  after_results_simp
  finish_results
  rw [rs1_main_v19 m c]
  rfl
set_option maxHeartbeats 4000000 in
theorem rs2_main_arg18 : S2 m c (Proc.devRef .tc main_arg18) = R_main_arg18 m c := by
  show after c2 (S1 m c) (Proc.devRef .tc main_arg18) = _
  after_results_simp
  exact rs1_main_arg18 m c
set_option maxHeartbeats 4000000 in
theorem rs2_main_v13 : S2 m c (Proc.devRef .tc main_v13) = R_main_v13 m c := by
  show after c2 (S1 m c) (Proc.devRef .tc main_v13) = _
  after_results_simp
  exact rs1_main_v13 m c
set_option maxHeartbeats 4000000 in
theorem rs2_main_arg25 : S2 m c (Proc.devRef .tc main_arg25) = R_main_arg25 m c := by
  show after c2 (S1 m c) (Proc.devRef .tc main_arg25) = _
  after_results_simp
  exact rs1_main_arg25 m c
set_option maxHeartbeats 4000000 in
theorem rs2_main_arg26 : S2 m c (Proc.devRef .tc main_arg26) = R_main_arg26 m c := by
  show after c2 (S1 m c) (Proc.devRef .tc main_arg26) = _
  after_results_simp
  exact rs1_main_arg26 m c
set_option maxHeartbeats 4000000 in
theorem rs2_main_arg14 : S2 m c (Proc.devRef .tc main_arg14) = R_main_arg14 m c := by
  show after c2 (S1 m c) (Proc.devRef .tc main_arg14) = _
  after_results_simp
  exact rs1_main_arg14 m c
set_option maxHeartbeats 4000000 in
theorem rs2_main_arg19 : S2 m c (Proc.devRef .tc main_arg19) = R_main_arg19 m c := by
  show after c2 (S1 m c) (Proc.devRef .tc main_arg19) = _
  after_results_simp
  exact rs1_main_arg19 m c
set_option maxHeartbeats 4000000 in
theorem rs2_main_arg20 : S2 m c (Proc.devRef .tc main_arg20) = R_main_arg20 m c := by
  show after c2 (S1 m c) (Proc.devRef .tc main_arg20) = _
  after_results_simp
  exact rs1_main_arg20 m c
set_option maxHeartbeats 4000000 in
theorem rs2_main_arg27 : S2 m c (Proc.devRef .tc main_arg27) = R_main_arg27 m c := by
  show after c2 (S1 m c) (Proc.devRef .tc main_arg27) = _
  after_results_simp
  exact rs1_main_arg27 m c
set_option maxHeartbeats 4000000 in
theorem rs2_main_arg28 : S2 m c (Proc.devRef .tc main_arg28) = R_main_arg28 m c := by
  show after c2 (S1 m c) (Proc.devRef .tc main_arg28) = _
  after_results_simp
  exact rs1_main_arg28 m c
set_option maxHeartbeats 4000000 in
theorem rs2_main_v25 : S2 m c (Proc.devRef .tc main_v25) = R_main_v25 m c := by
  show after c2 (S1 m c) (Proc.devRef .tc main_v25) = _
  after_results_simp
  finish_results
  rw [rs1_main_arg6 m c, rs1_main_arg8 m c, rs1_main_arg11 m c, rs1_main_arg12 m c]
  rfl
set_option maxHeartbeats 4000000 in
theorem rs2_main_arg15 : S2 m c (Proc.devRef .tc main_arg15) = R_main_arg15 m c := by
  show after c2 (S1 m c) (Proc.devRef .tc main_arg15) = _
  after_results_simp
  exact rs1_main_arg15 m c
set_option maxHeartbeats 4000000 in
theorem rs2_main_arg21 : S2 m c (Proc.devRef .tc main_arg21) = R_main_arg21 m c := by
  show after c2 (S1 m c) (Proc.devRef .tc main_arg21) = _
  after_results_simp
  exact rs1_main_arg21 m c
set_option maxHeartbeats 4000000 in
theorem rs2_main_arg22 : S2 m c (Proc.devRef .tc main_arg22) = R_main_arg22 m c := by
  show after c2 (S1 m c) (Proc.devRef .tc main_arg22) = _
  after_results_simp
  exact rs1_main_arg22 m c
set_option maxHeartbeats 4000000 in
theorem rs2_main_arg29 : S2 m c (Proc.devRef .tc main_arg29) = R_main_arg29 m c := by
  show after c2 (S1 m c) (Proc.devRef .tc main_arg29) = _
  after_results_simp
  exact rs1_main_arg29 m c
set_option maxHeartbeats 4000000 in
theorem rs2_main_arg30 : S2 m c (Proc.devRef .tc main_arg30) = R_main_arg30 m c := by
  show after c2 (S1 m c) (Proc.devRef .tc main_arg30) = _
  after_results_simp
  exact rs1_main_arg30 m c
set_option maxHeartbeats 4000000 in
theorem rs2_main_arg16 : S2 m c (Proc.devRef .tc main_arg16) = R_main_arg16 m c := by
  show after c2 (S1 m c) (Proc.devRef .tc main_arg16) = _
  after_results_simp
  exact rs1_main_arg16 m c
set_option maxHeartbeats 4000000 in
theorem rs2_main_arg23 : S2 m c (Proc.devRef .tc main_arg23) = R_main_arg23 m c := by
  show after c2 (S1 m c) (Proc.devRef .tc main_arg23) = _
  after_results_simp
  exact rs1_main_arg23 m c
set_option maxHeartbeats 4000000 in
theorem rs2_main_arg24 : S2 m c (Proc.devRef .tc main_arg24) = R_main_arg24 m c := by
  show after c2 (S1 m c) (Proc.devRef .tc main_arg24) = _
  after_results_simp
  exact rs1_main_arg24 m c
set_option maxHeartbeats 4000000 in
theorem rs2_main_arg31 : S2 m c (Proc.devRef .tc main_arg31) = R_main_arg31 m c := by
  show after c2 (S1 m c) (Proc.devRef .tc main_arg31) = _
  after_results_simp
  exact rs1_main_arg31 m c
set_option maxHeartbeats 4000000 in
theorem rs2_main_arg32 : S2 m c (Proc.devRef .tc main_arg32) = R_main_arg32 m c := by
  show after c2 (S1 m c) (Proc.devRef .tc main_arg32) = _
  after_results_simp
  exact rs1_main_arg32 m c
set_option maxHeartbeats 4000000 in
theorem rs2_main_arg1 : S2 m c (Proc.devRef .tc main_arg1) = R_main_arg1 m c := by
  show after c2 (S1 m c) (Proc.devRef .tc main_arg1) = _
  after_results_simp
  exact rs1_main_arg1 m c
set_option maxHeartbeats 4000000 in
theorem rs2_main_arg2 : S2 m c (Proc.devRef .tc main_arg2) = R_main_arg2 m c := by
  show after c2 (S1 m c) (Proc.devRef .tc main_arg2) = _
  after_results_simp
  exact rs1_main_arg2 m c

end Cert.ReferenceIdeal.RefTrace

end
-- ==== Proof.RefTrace2.lean ====
/-
  The reference program's buffer contents after each stretch of its operations: every buffer a later stretch reads, the
  result and the arguments hold their pure terms of the launch memory; a stretch gives a buffer it computes the
  operation's function of its operands and leaves every other buffer.
-/
import proofs.«159630_j86646670230227_1_alg».proof.Proof.RefTrace1

set_option maxRecDepth 16384

noncomputable section

namespace Cert.ReferenceIdeal.RefTrace

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

set_option maxHeartbeats 4000000 in
theorem rs3_main_arg0 : S3 m c (Proc.devRef .tc main_arg0) = R_main_arg0 m c := by
  show after c3 (S2 m c) (Proc.devRef .tc main_arg0) = _
  after_results_simp
  exact rs2_main_arg0 m c
set_option maxHeartbeats 4000000 in
theorem rs3_main_arg3 : S3 m c (Proc.devRef .tc main_arg3) = R_main_arg3 m c := by
  show after c3 (S2 m c) (Proc.devRef .tc main_arg3) = _
  after_results_simp
  exact rs2_main_arg3 m c
set_option maxHeartbeats 4000000 in
theorem rs3_main_arg4 : S3 m c (Proc.devRef .tc main_arg4) = R_main_arg4 m c := by
  show after c3 (S2 m c) (Proc.devRef .tc main_arg4) = _
  after_results_simp
  exact rs2_main_arg4 m c
set_option maxHeartbeats 4000000 in
theorem rs3_main_arg9 : S3 m c (Proc.devRef .tc main_arg9) = R_main_arg9 m c := by
  show after c3 (S2 m c) (Proc.devRef .tc main_arg9) = _
  after_results_simp
  exact rs2_main_arg9 m c
set_option maxHeartbeats 4000000 in
theorem rs3_main_arg7 : S3 m c (Proc.devRef .tc main_arg7) = R_main_arg7 m c := by
  show after c3 (S2 m c) (Proc.devRef .tc main_arg7) = _
  after_results_simp
  exact rs2_main_arg7 m c
set_option maxHeartbeats 4000000 in
theorem rs3_main_arg10 : S3 m c (Proc.devRef .tc main_arg10) = R_main_arg10 m c := by
  show after c3 (S2 m c) (Proc.devRef .tc main_arg10) = _
  after_results_simp
  exact rs2_main_arg10 m c
set_option maxHeartbeats 4000000 in
theorem rs3_main_arg5 : S3 m c (Proc.devRef .tc main_arg5) = R_main_arg5 m c := by
  show after c3 (S2 m c) (Proc.devRef .tc main_arg5) = _
  after_results_simp
  exact rs2_main_arg5 m c
set_option maxHeartbeats 4000000 in
theorem rs3_main_arg11 : S3 m c (Proc.devRef .tc main_arg11) = R_main_arg11 m c := by
  show after c3 (S2 m c) (Proc.devRef .tc main_arg11) = _
  after_results_simp
  exact rs2_main_arg11 m c
set_option maxHeartbeats 4000000 in
theorem rs3_main_arg8 : S3 m c (Proc.devRef .tc main_arg8) = R_main_arg8 m c := by
  show after c3 (S2 m c) (Proc.devRef .tc main_arg8) = _
  after_results_simp
  exact rs2_main_arg8 m c
set_option maxHeartbeats 4000000 in
theorem rs3_main_arg12 : S3 m c (Proc.devRef .tc main_arg12) = R_main_arg12 m c := by
  show after c3 (S2 m c) (Proc.devRef .tc main_arg12) = _
  after_results_simp
  exact rs2_main_arg12 m c
set_option maxHeartbeats 4000000 in
theorem rs3_main_arg6 : S3 m c (Proc.devRef .tc main_arg6) = R_main_arg6 m c := by
  show after c3 (S2 m c) (Proc.devRef .tc main_arg6) = _
  after_results_simp
  exact rs2_main_arg6 m c
set_option maxHeartbeats 4000000 in
theorem rs3_main_arg13 : S3 m c (Proc.devRef .tc main_arg13) = R_main_arg13 m c := by
  show after c3 (S2 m c) (Proc.devRef .tc main_arg13) = _
  after_results_simp
  exact rs2_main_arg13 m c
set_option maxHeartbeats 4000000 in
theorem rs3_main_v1 : S3 m c (Proc.devRef .tc main_v1) = R_main_v1 m c := by
  show after c3 (S2 m c) (Proc.devRef .tc main_v1) = _
  after_results_simp
  exact rs2_main_v1 m c
set_option maxHeartbeats 4000000 in
theorem rs3_main_v3 : S3 m c (Proc.devRef .tc main_v3) = R_main_v3 m c := by
  show after c3 (S2 m c) (Proc.devRef .tc main_v3) = _
  after_results_simp
  exact rs2_main_v3 m c
set_option maxHeartbeats 4000000 in
theorem rs3_main_v12 : S3 m c (Proc.devRef .tc main_v12) = R_main_v12 m c := by
  show after c3 (S2 m c) (Proc.devRef .tc main_v12) = _
  after_results_simp
  exact rs2_main_v12 m c
set_option maxHeartbeats 4000000 in
theorem rs3_main_arg17 : S3 m c (Proc.devRef .tc main_arg17) = R_main_arg17 m c := by
  show after c3 (S2 m c) (Proc.devRef .tc main_arg17) = _
  after_results_simp
  exact rs2_main_arg17 m c
set_option maxHeartbeats 4000000 in
theorem rs3_main_arg18 : S3 m c (Proc.devRef .tc main_arg18) = R_main_arg18 m c := by
  show after c3 (S2 m c) (Proc.devRef .tc main_arg18) = _
  after_results_simp
  exact rs2_main_arg18 m c
set_option maxHeartbeats 4000000 in
theorem rs3_main_v13 : S3 m c (Proc.devRef .tc main_v13) = R_main_v13 m c := by
  show after c3 (S2 m c) (Proc.devRef .tc main_v13) = _
  after_results_simp
  exact rs2_main_v13 m c
set_option maxHeartbeats 4000000 in
theorem rs3_main_arg25 : S3 m c (Proc.devRef .tc main_arg25) = R_main_arg25 m c := by
  show after c3 (S2 m c) (Proc.devRef .tc main_arg25) = _
  after_results_simp
  exact rs2_main_arg25 m c
set_option maxHeartbeats 4000000 in
theorem rs3_main_arg26 : S3 m c (Proc.devRef .tc main_arg26) = R_main_arg26 m c := by
  show after c3 (S2 m c) (Proc.devRef .tc main_arg26) = _
  after_results_simp
  exact rs2_main_arg26 m c
set_option maxHeartbeats 4000000 in
theorem rs3_main_arg14 : S3 m c (Proc.devRef .tc main_arg14) = R_main_arg14 m c := by
  show after c3 (S2 m c) (Proc.devRef .tc main_arg14) = _
  after_results_simp
  exact rs2_main_arg14 m c
set_option maxHeartbeats 4000000 in
theorem rs3_main_v58 : S3 m c (Proc.devRef .tc main_v58) = R_main_v58 m c := by
  show after c3 (S2 m c) (Proc.devRef .tc main_v58) = _
  after_results_simp
  finish_results
  rw [rs2_main_v1 m c]
  rfl
set_option maxHeartbeats 4000000 in
theorem rs3_main_v56 : S3 m c (Proc.devRef .tc main_v56) = R_main_v56 m c := by
  show after c3 (S2 m c) (Proc.devRef .tc main_v56) = _
  after_results_simp
  finish_results
  rw [rs2_main_v3 m c, rs2_main_v31 m c, rs2_main_v36 m c, rs2_main_v12 m c, rs2_main_v30 m c, rs2_main_arg17 m c, rs2_main_arg18 m c, rs2_main_v13 m c, rs2_main_arg25 m c, rs2_main_arg26 m c, rs2_main_arg14 m c]
  rfl
set_option maxHeartbeats 4000000 in
theorem rs3_main_arg19 : S3 m c (Proc.devRef .tc main_arg19) = R_main_arg19 m c := by
  show after c3 (S2 m c) (Proc.devRef .tc main_arg19) = _
  after_results_simp
  exact rs2_main_arg19 m c
set_option maxHeartbeats 4000000 in
theorem rs3_main_v55 : S3 m c (Proc.devRef .tc main_v55) = R_main_v55 m c := by
  show after c3 (S2 m c) (Proc.devRef .tc main_v55) = _
  after_results_simp
  finish_results
  rw [rs2_main_v3 m c, rs2_main_v31 m c, rs2_main_v36 m c, rs2_main_v12 m c, rs2_main_v30 m c, rs2_main_arg17 m c, rs2_main_arg18 m c, rs2_main_v13 m c, rs2_main_arg25 m c, rs2_main_arg26 m c]
  rfl
set_option maxHeartbeats 4000000 in
theorem rs3_main_arg20 : S3 m c (Proc.devRef .tc main_arg20) = R_main_arg20 m c := by
  show after c3 (S2 m c) (Proc.devRef .tc main_arg20) = _
  after_results_simp
  exact rs2_main_arg20 m c
set_option maxHeartbeats 4000000 in
theorem rs3_main_arg27 : S3 m c (Proc.devRef .tc main_arg27) = R_main_arg27 m c := by
  show after c3 (S2 m c) (Proc.devRef .tc main_arg27) = _
  after_results_simp
  exact rs2_main_arg27 m c
set_option maxHeartbeats 4000000 in
theorem rs3_main_arg28 : S3 m c (Proc.devRef .tc main_arg28) = R_main_arg28 m c := by
  show after c3 (S2 m c) (Proc.devRef .tc main_arg28) = _
  after_results_simp
  exact rs2_main_arg28 m c
set_option maxHeartbeats 4000000 in
theorem rs3_main_v25 : S3 m c (Proc.devRef .tc main_v25) = R_main_v25 m c := by
  show after c3 (S2 m c) (Proc.devRef .tc main_v25) = _
  after_results_simp
  exact rs2_main_v25 m c
set_option maxHeartbeats 4000000 in
theorem rs3_main_arg15 : S3 m c (Proc.devRef .tc main_arg15) = R_main_arg15 m c := by
  show after c3 (S2 m c) (Proc.devRef .tc main_arg15) = _
  after_results_simp
  exact rs2_main_arg15 m c
set_option maxHeartbeats 4000000 in
theorem rs3_main_arg21 : S3 m c (Proc.devRef .tc main_arg21) = R_main_arg21 m c := by
  show after c3 (S2 m c) (Proc.devRef .tc main_arg21) = _
  after_results_simp
  exact rs2_main_arg21 m c
set_option maxHeartbeats 4000000 in
theorem rs3_main_arg22 : S3 m c (Proc.devRef .tc main_arg22) = R_main_arg22 m c := by
  show after c3 (S2 m c) (Proc.devRef .tc main_arg22) = _
  after_results_simp
  exact rs2_main_arg22 m c
set_option maxHeartbeats 4000000 in
theorem rs3_main_arg29 : S3 m c (Proc.devRef .tc main_arg29) = R_main_arg29 m c := by
  show after c3 (S2 m c) (Proc.devRef .tc main_arg29) = _
  after_results_simp
  exact rs2_main_arg29 m c
set_option maxHeartbeats 4000000 in
theorem rs3_main_arg30 : S3 m c (Proc.devRef .tc main_arg30) = R_main_arg30 m c := by
  show after c3 (S2 m c) (Proc.devRef .tc main_arg30) = _
  after_results_simp
  exact rs2_main_arg30 m c
set_option maxHeartbeats 4000000 in
theorem rs3_main_arg16 : S3 m c (Proc.devRef .tc main_arg16) = R_main_arg16 m c := by
  show after c3 (S2 m c) (Proc.devRef .tc main_arg16) = _
  after_results_simp
  exact rs2_main_arg16 m c
set_option maxHeartbeats 4000000 in
theorem rs3_main_arg23 : S3 m c (Proc.devRef .tc main_arg23) = R_main_arg23 m c := by
  show after c3 (S2 m c) (Proc.devRef .tc main_arg23) = _
  after_results_simp
  exact rs2_main_arg23 m c
set_option maxHeartbeats 4000000 in
theorem rs3_main_arg24 : S3 m c (Proc.devRef .tc main_arg24) = R_main_arg24 m c := by
  show after c3 (S2 m c) (Proc.devRef .tc main_arg24) = _
  after_results_simp
  exact rs2_main_arg24 m c
set_option maxHeartbeats 4000000 in
theorem rs3_main_arg31 : S3 m c (Proc.devRef .tc main_arg31) = R_main_arg31 m c := by
  show after c3 (S2 m c) (Proc.devRef .tc main_arg31) = _
  after_results_simp
  exact rs2_main_arg31 m c
set_option maxHeartbeats 4000000 in
theorem rs3_main_arg32 : S3 m c (Proc.devRef .tc main_arg32) = R_main_arg32 m c := by
  show after c3 (S2 m c) (Proc.devRef .tc main_arg32) = _
  after_results_simp
  exact rs2_main_arg32 m c
set_option maxHeartbeats 4000000 in
theorem rs3_main_arg1 : S3 m c (Proc.devRef .tc main_arg1) = R_main_arg1 m c := by
  show after c3 (S2 m c) (Proc.devRef .tc main_arg1) = _
  after_results_simp
  exact rs2_main_arg1 m c
set_option maxHeartbeats 4000000 in
theorem rs3_main_arg2 : S3 m c (Proc.devRef .tc main_arg2) = R_main_arg2 m c := by
  show after c3 (S2 m c) (Proc.devRef .tc main_arg2) = _
  after_results_simp
  exact rs2_main_arg2 m c
set_option maxHeartbeats 4000000 in
theorem rs4_main_arg0 : S4 m c (Proc.devRef .tc main_arg0) = R_main_arg0 m c := by
  show after c4 (S3 m c) (Proc.devRef .tc main_arg0) = _
  after_results_simp
  exact rs3_main_arg0 m c
set_option maxHeartbeats 4000000 in
theorem rs4_main_arg3 : S4 m c (Proc.devRef .tc main_arg3) = R_main_arg3 m c := by
  show after c4 (S3 m c) (Proc.devRef .tc main_arg3) = _
  after_results_simp
  exact rs3_main_arg3 m c
set_option maxHeartbeats 4000000 in
theorem rs4_main_arg4 : S4 m c (Proc.devRef .tc main_arg4) = R_main_arg4 m c := by
  show after c4 (S3 m c) (Proc.devRef .tc main_arg4) = _
  after_results_simp
  exact rs3_main_arg4 m c
set_option maxHeartbeats 4000000 in
theorem rs4_main_arg9 : S4 m c (Proc.devRef .tc main_arg9) = R_main_arg9 m c := by
  show after c4 (S3 m c) (Proc.devRef .tc main_arg9) = _
  after_results_simp
  exact rs3_main_arg9 m c
set_option maxHeartbeats 4000000 in
theorem rs4_main_arg7 : S4 m c (Proc.devRef .tc main_arg7) = R_main_arg7 m c := by
  show after c4 (S3 m c) (Proc.devRef .tc main_arg7) = _
  after_results_simp
  exact rs3_main_arg7 m c
set_option maxHeartbeats 4000000 in
theorem rs4_main_arg10 : S4 m c (Proc.devRef .tc main_arg10) = R_main_arg10 m c := by
  show after c4 (S3 m c) (Proc.devRef .tc main_arg10) = _
  after_results_simp
  exact rs3_main_arg10 m c
set_option maxHeartbeats 4000000 in
theorem rs4_main_arg5 : S4 m c (Proc.devRef .tc main_arg5) = R_main_arg5 m c := by
  show after c4 (S3 m c) (Proc.devRef .tc main_arg5) = _
  after_results_simp
  exact rs3_main_arg5 m c
set_option maxHeartbeats 4000000 in
theorem rs4_main_arg11 : S4 m c (Proc.devRef .tc main_arg11) = R_main_arg11 m c := by
  show after c4 (S3 m c) (Proc.devRef .tc main_arg11) = _
  after_results_simp
  exact rs3_main_arg11 m c
set_option maxHeartbeats 4000000 in
theorem rs4_main_arg8 : S4 m c (Proc.devRef .tc main_arg8) = R_main_arg8 m c := by
  show after c4 (S3 m c) (Proc.devRef .tc main_arg8) = _
  after_results_simp
  exact rs3_main_arg8 m c
set_option maxHeartbeats 4000000 in
theorem rs4_main_arg12 : S4 m c (Proc.devRef .tc main_arg12) = R_main_arg12 m c := by
  show after c4 (S3 m c) (Proc.devRef .tc main_arg12) = _
  after_results_simp
  exact rs3_main_arg12 m c
set_option maxHeartbeats 4000000 in
theorem rs4_main_arg6 : S4 m c (Proc.devRef .tc main_arg6) = R_main_arg6 m c := by
  show after c4 (S3 m c) (Proc.devRef .tc main_arg6) = _
  after_results_simp
  exact rs3_main_arg6 m c
set_option maxHeartbeats 4000000 in
theorem rs4_main_arg13 : S4 m c (Proc.devRef .tc main_arg13) = R_main_arg13 m c := by
  show after c4 (S3 m c) (Proc.devRef .tc main_arg13) = _
  after_results_simp
  exact rs3_main_arg13 m c
set_option maxHeartbeats 4000000 in
theorem rs4_main_v1 : S4 m c (Proc.devRef .tc main_v1) = R_main_v1 m c := by
  show after c4 (S3 m c) (Proc.devRef .tc main_v1) = _
  after_results_simp
  exact rs3_main_v1 m c
set_option maxHeartbeats 4000000 in
theorem rs4_main_v3 : S4 m c (Proc.devRef .tc main_v3) = R_main_v3 m c := by
  show after c4 (S3 m c) (Proc.devRef .tc main_v3) = _
  after_results_simp
  exact rs3_main_v3 m c
set_option maxHeartbeats 4000000 in
theorem rs4_main_v12 : S4 m c (Proc.devRef .tc main_v12) = R_main_v12 m c := by
  show after c4 (S3 m c) (Proc.devRef .tc main_v12) = _
  after_results_simp
  exact rs3_main_v12 m c
set_option maxHeartbeats 4000000 in
theorem rs4_main_arg17 : S4 m c (Proc.devRef .tc main_arg17) = R_main_arg17 m c := by
  show after c4 (S3 m c) (Proc.devRef .tc main_arg17) = _
  after_results_simp
  exact rs3_main_arg17 m c
set_option maxHeartbeats 4000000 in
theorem rs4_main_arg18 : S4 m c (Proc.devRef .tc main_arg18) = R_main_arg18 m c := by
  show after c4 (S3 m c) (Proc.devRef .tc main_arg18) = _
  after_results_simp
  exact rs3_main_arg18 m c
set_option maxHeartbeats 4000000 in
theorem rs4_main_v13 : S4 m c (Proc.devRef .tc main_v13) = R_main_v13 m c := by
  show after c4 (S3 m c) (Proc.devRef .tc main_v13) = _
  after_results_simp
  exact rs3_main_v13 m c
set_option maxHeartbeats 4000000 in
theorem rs4_main_arg25 : S4 m c (Proc.devRef .tc main_arg25) = R_main_arg25 m c := by
  show after c4 (S3 m c) (Proc.devRef .tc main_arg25) = _
  after_results_simp
  exact rs3_main_arg25 m c
set_option maxHeartbeats 4000000 in
theorem rs4_main_arg26 : S4 m c (Proc.devRef .tc main_arg26) = R_main_arg26 m c := by
  show after c4 (S3 m c) (Proc.devRef .tc main_arg26) = _
  after_results_simp
  exact rs3_main_arg26 m c
set_option maxHeartbeats 4000000 in
theorem rs4_main_arg14 : S4 m c (Proc.devRef .tc main_arg14) = R_main_arg14 m c := by
  show after c4 (S3 m c) (Proc.devRef .tc main_arg14) = _
  after_results_simp
  exact rs3_main_arg14 m c
set_option maxHeartbeats 4000000 in
theorem rs4_main_arg19 : S4 m c (Proc.devRef .tc main_arg19) = R_main_arg19 m c := by
  show after c4 (S3 m c) (Proc.devRef .tc main_arg19) = _
  after_results_simp
  exact rs3_main_arg19 m c
set_option maxHeartbeats 4000000 in
theorem rs4_main_arg20 : S4 m c (Proc.devRef .tc main_arg20) = R_main_arg20 m c := by
  show after c4 (S3 m c) (Proc.devRef .tc main_arg20) = _
  after_results_simp
  exact rs3_main_arg20 m c
set_option maxHeartbeats 4000000 in
theorem rs4_main_arg27 : S4 m c (Proc.devRef .tc main_arg27) = R_main_arg27 m c := by
  show after c4 (S3 m c) (Proc.devRef .tc main_arg27) = _
  after_results_simp
  exact rs3_main_arg27 m c
set_option maxHeartbeats 4000000 in
theorem rs4_main_arg28 : S4 m c (Proc.devRef .tc main_arg28) = R_main_arg28 m c := by
  show after c4 (S3 m c) (Proc.devRef .tc main_arg28) = _
  after_results_simp
  exact rs3_main_arg28 m c
set_option maxHeartbeats 4000000 in
theorem rs4_main_v25 : S4 m c (Proc.devRef .tc main_v25) = R_main_v25 m c := by
  show after c4 (S3 m c) (Proc.devRef .tc main_v25) = _
  after_results_simp
  exact rs3_main_v25 m c
set_option maxHeartbeats 4000000 in
theorem rs4_main_arg15 : S4 m c (Proc.devRef .tc main_arg15) = R_main_arg15 m c := by
  show after c4 (S3 m c) (Proc.devRef .tc main_arg15) = _
  after_results_simp
  exact rs3_main_arg15 m c
set_option maxHeartbeats 4000000 in
theorem rs4_main_arg21 : S4 m c (Proc.devRef .tc main_arg21) = R_main_arg21 m c := by
  show after c4 (S3 m c) (Proc.devRef .tc main_arg21) = _
  after_results_simp
  exact rs3_main_arg21 m c
set_option maxHeartbeats 4000000 in
theorem rs4_main_arg22 : S4 m c (Proc.devRef .tc main_arg22) = R_main_arg22 m c := by
  show after c4 (S3 m c) (Proc.devRef .tc main_arg22) = _
  after_results_simp
  exact rs3_main_arg22 m c
set_option maxHeartbeats 4000000 in
theorem rs4_main_arg29 : S4 m c (Proc.devRef .tc main_arg29) = R_main_arg29 m c := by
  show after c4 (S3 m c) (Proc.devRef .tc main_arg29) = _
  after_results_simp
  exact rs3_main_arg29 m c
set_option maxHeartbeats 4000000 in
theorem rs4_main_arg30 : S4 m c (Proc.devRef .tc main_arg30) = R_main_arg30 m c := by
  show after c4 (S3 m c) (Proc.devRef .tc main_arg30) = _
  after_results_simp
  exact rs3_main_arg30 m c
set_option maxHeartbeats 4000000 in
theorem rs4_main_arg16 : S4 m c (Proc.devRef .tc main_arg16) = R_main_arg16 m c := by
  show after c4 (S3 m c) (Proc.devRef .tc main_arg16) = _
  after_results_simp
  exact rs3_main_arg16 m c
set_option maxHeartbeats 4000000 in
theorem rs4_main_arg23 : S4 m c (Proc.devRef .tc main_arg23) = R_main_arg23 m c := by
  show after c4 (S3 m c) (Proc.devRef .tc main_arg23) = _
  after_results_simp
  exact rs3_main_arg23 m c
set_option maxHeartbeats 4000000 in
theorem rs4_main_arg24 : S4 m c (Proc.devRef .tc main_arg24) = R_main_arg24 m c := by
  show after c4 (S3 m c) (Proc.devRef .tc main_arg24) = _
  after_results_simp
  exact rs3_main_arg24 m c
set_option maxHeartbeats 4000000 in
theorem rs4_main_arg31 : S4 m c (Proc.devRef .tc main_arg31) = R_main_arg31 m c := by
  show after c4 (S3 m c) (Proc.devRef .tc main_arg31) = _
  after_results_simp
  exact rs3_main_arg31 m c
set_option maxHeartbeats 4000000 in
theorem rs4_main_arg32 : S4 m c (Proc.devRef .tc main_arg32) = R_main_arg32 m c := by
  show after c4 (S3 m c) (Proc.devRef .tc main_arg32) = _
  after_results_simp
  exact rs3_main_arg32 m c
set_option maxHeartbeats 4000000 in
theorem rs4_main_v80 : S4 m c (Proc.devRef .tc main_v80) = R_main_v80 m c := by
  show after c4 (S3 m c) (Proc.devRef .tc main_v80) = _
  after_results_simp
  finish_results
  rw [rs3_main_v3 m c, rs3_main_v56 m c, rs3_main_v58 m c, rs3_main_v1 m c, rs3_main_v12 m c, rs3_main_v55 m c, rs3_main_arg19 m c, rs3_main_arg20 m c, rs3_main_v13 m c, rs3_main_arg27 m c, rs3_main_arg28 m c]
  rfl
set_option maxHeartbeats 4000000 in
theorem rs4_main_arg1 : S4 m c (Proc.devRef .tc main_arg1) = R_main_arg1 m c := by
  show after c4 (S3 m c) (Proc.devRef .tc main_arg1) = _
  after_results_simp
  exact rs3_main_arg1 m c
set_option maxHeartbeats 4000000 in
theorem rs4_main_arg2 : S4 m c (Proc.devRef .tc main_arg2) = R_main_arg2 m c := by
  show after c4 (S3 m c) (Proc.devRef .tc main_arg2) = _
  after_results_simp
  exact rs3_main_arg2 m c

end Cert.ReferenceIdeal.RefTrace

end
-- ==== Proof.RefTrace3.lean ====
/-
  The reference program's buffer contents after each stretch of its operations: every buffer a later stretch reads, the
  result and the arguments hold their pure terms of the launch memory; a stretch gives a buffer it computes the
  operation's function of its operands and leaves every other buffer.
-/
import proofs.«159630_j86646670230227_1_alg».proof.Proof.RefTrace2

set_option maxRecDepth 16384

noncomputable section

namespace Cert.ReferenceIdeal.RefTrace

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

set_option maxHeartbeats 4000000 in
theorem rs5_main_arg0 : S5 m c (Proc.devRef .tc main_arg0) = R_main_arg0 m c := by
  show after c5 (S4 m c) (Proc.devRef .tc main_arg0) = _
  after_results_simp
  exact rs4_main_arg0 m c
set_option maxHeartbeats 4000000 in
theorem rs5_main_arg3 : S5 m c (Proc.devRef .tc main_arg3) = R_main_arg3 m c := by
  show after c5 (S4 m c) (Proc.devRef .tc main_arg3) = _
  after_results_simp
  exact rs4_main_arg3 m c
set_option maxHeartbeats 4000000 in
theorem rs5_main_arg4 : S5 m c (Proc.devRef .tc main_arg4) = R_main_arg4 m c := by
  show after c5 (S4 m c) (Proc.devRef .tc main_arg4) = _
  after_results_simp
  exact rs4_main_arg4 m c
set_option maxHeartbeats 4000000 in
theorem rs5_main_arg9 : S5 m c (Proc.devRef .tc main_arg9) = R_main_arg9 m c := by
  show after c5 (S4 m c) (Proc.devRef .tc main_arg9) = _
  after_results_simp
  exact rs4_main_arg9 m c
set_option maxHeartbeats 4000000 in
theorem rs5_main_arg7 : S5 m c (Proc.devRef .tc main_arg7) = R_main_arg7 m c := by
  show after c5 (S4 m c) (Proc.devRef .tc main_arg7) = _
  after_results_simp
  exact rs4_main_arg7 m c
set_option maxHeartbeats 4000000 in
theorem rs5_main_arg10 : S5 m c (Proc.devRef .tc main_arg10) = R_main_arg10 m c := by
  show after c5 (S4 m c) (Proc.devRef .tc main_arg10) = _
  after_results_simp
  exact rs4_main_arg10 m c
set_option maxHeartbeats 4000000 in
theorem rs5_main_arg5 : S5 m c (Proc.devRef .tc main_arg5) = R_main_arg5 m c := by
  show after c5 (S4 m c) (Proc.devRef .tc main_arg5) = _
  after_results_simp
  exact rs4_main_arg5 m c
set_option maxHeartbeats 4000000 in
theorem rs5_main_arg11 : S5 m c (Proc.devRef .tc main_arg11) = R_main_arg11 m c := by
  show after c5 (S4 m c) (Proc.devRef .tc main_arg11) = _
  after_results_simp
  exact rs4_main_arg11 m c
set_option maxHeartbeats 4000000 in
theorem rs5_main_arg8 : S5 m c (Proc.devRef .tc main_arg8) = R_main_arg8 m c := by
  show after c5 (S4 m c) (Proc.devRef .tc main_arg8) = _
  after_results_simp
  exact rs4_main_arg8 m c
set_option maxHeartbeats 4000000 in
theorem rs5_main_arg12 : S5 m c (Proc.devRef .tc main_arg12) = R_main_arg12 m c := by
  show after c5 (S4 m c) (Proc.devRef .tc main_arg12) = _
  after_results_simp
  exact rs4_main_arg12 m c
set_option maxHeartbeats 4000000 in
theorem rs5_main_arg6 : S5 m c (Proc.devRef .tc main_arg6) = R_main_arg6 m c := by
  show after c5 (S4 m c) (Proc.devRef .tc main_arg6) = _
  after_results_simp
  exact rs4_main_arg6 m c
set_option maxHeartbeats 4000000 in
theorem rs5_main_arg13 : S5 m c (Proc.devRef .tc main_arg13) = R_main_arg13 m c := by
  show after c5 (S4 m c) (Proc.devRef .tc main_arg13) = _
  after_results_simp
  exact rs4_main_arg13 m c
set_option maxHeartbeats 4000000 in
theorem rs5_main_v1 : S5 m c (Proc.devRef .tc main_v1) = R_main_v1 m c := by
  show after c5 (S4 m c) (Proc.devRef .tc main_v1) = _
  after_results_simp
  exact rs4_main_v1 m c
set_option maxHeartbeats 4000000 in
theorem rs5_main_v3 : S5 m c (Proc.devRef .tc main_v3) = R_main_v3 m c := by
  show after c5 (S4 m c) (Proc.devRef .tc main_v3) = _
  after_results_simp
  exact rs4_main_v3 m c
set_option maxHeartbeats 4000000 in
theorem rs5_main_v12 : S5 m c (Proc.devRef .tc main_v12) = R_main_v12 m c := by
  show after c5 (S4 m c) (Proc.devRef .tc main_v12) = _
  after_results_simp
  exact rs4_main_v12 m c
set_option maxHeartbeats 4000000 in
theorem rs5_main_arg17 : S5 m c (Proc.devRef .tc main_arg17) = R_main_arg17 m c := by
  show after c5 (S4 m c) (Proc.devRef .tc main_arg17) = _
  after_results_simp
  exact rs4_main_arg17 m c
set_option maxHeartbeats 4000000 in
theorem rs5_main_arg18 : S5 m c (Proc.devRef .tc main_arg18) = R_main_arg18 m c := by
  show after c5 (S4 m c) (Proc.devRef .tc main_arg18) = _
  after_results_simp
  exact rs4_main_arg18 m c
set_option maxHeartbeats 4000000 in
theorem rs5_main_v13 : S5 m c (Proc.devRef .tc main_v13) = R_main_v13 m c := by
  show after c5 (S4 m c) (Proc.devRef .tc main_v13) = _
  after_results_simp
  exact rs4_main_v13 m c
set_option maxHeartbeats 4000000 in
theorem rs5_main_arg25 : S5 m c (Proc.devRef .tc main_arg25) = R_main_arg25 m c := by
  show after c5 (S4 m c) (Proc.devRef .tc main_arg25) = _
  after_results_simp
  exact rs4_main_arg25 m c
set_option maxHeartbeats 4000000 in
theorem rs5_main_arg26 : S5 m c (Proc.devRef .tc main_arg26) = R_main_arg26 m c := by
  show after c5 (S4 m c) (Proc.devRef .tc main_arg26) = _
  after_results_simp
  exact rs4_main_arg26 m c
set_option maxHeartbeats 4000000 in
theorem rs5_main_arg14 : S5 m c (Proc.devRef .tc main_arg14) = R_main_arg14 m c := by
  show after c5 (S4 m c) (Proc.devRef .tc main_arg14) = _
  after_results_simp
  exact rs4_main_arg14 m c
set_option maxHeartbeats 4000000 in
theorem rs5_main_arg19 : S5 m c (Proc.devRef .tc main_arg19) = R_main_arg19 m c := by
  show after c5 (S4 m c) (Proc.devRef .tc main_arg19) = _
  after_results_simp
  exact rs4_main_arg19 m c
set_option maxHeartbeats 4000000 in
theorem rs5_main_arg20 : S5 m c (Proc.devRef .tc main_arg20) = R_main_arg20 m c := by
  show after c5 (S4 m c) (Proc.devRef .tc main_arg20) = _
  after_results_simp
  exact rs4_main_arg20 m c
set_option maxHeartbeats 4000000 in
theorem rs5_main_arg27 : S5 m c (Proc.devRef .tc main_arg27) = R_main_arg27 m c := by
  show after c5 (S4 m c) (Proc.devRef .tc main_arg27) = _
  after_results_simp
  exact rs4_main_arg27 m c
set_option maxHeartbeats 4000000 in
theorem rs5_main_arg28 : S5 m c (Proc.devRef .tc main_arg28) = R_main_arg28 m c := by
  show after c5 (S4 m c) (Proc.devRef .tc main_arg28) = _
  after_results_simp
  exact rs4_main_arg28 m c
set_option maxHeartbeats 4000000 in
theorem rs5_main_arg15 : S5 m c (Proc.devRef .tc main_arg15) = R_main_arg15 m c := by
  show after c5 (S4 m c) (Proc.devRef .tc main_arg15) = _
  after_results_simp
  exact rs4_main_arg15 m c
set_option maxHeartbeats 4000000 in
theorem rs5_main_v96 : S5 m c (Proc.devRef .tc main_v96) = R_main_v96 m c := by
  show after c5 (S4 m c) (Proc.devRef .tc main_v96) = _
  after_results_simp
  finish_results
  rw [rs4_main_v3 m c, rs4_main_v25 m c, rs4_main_arg15 m c, rs4_main_v1 m c]
  rfl
set_option maxHeartbeats 4000000 in
theorem rs5_main_arg21 : S5 m c (Proc.devRef .tc main_arg21) = R_main_arg21 m c := by
  show after c5 (S4 m c) (Proc.devRef .tc main_arg21) = _
  after_results_simp
  exact rs4_main_arg21 m c
set_option maxHeartbeats 4000000 in
theorem rs5_main_v85 : S5 m c (Proc.devRef .tc main_v85) = R_main_v85 m c := by
  show after c5 (S4 m c) (Proc.devRef .tc main_v85) = _
  after_results_simp
  finish_results
  rw [rs4_main_v25 m c]
  rfl
set_option maxHeartbeats 4000000 in
theorem rs5_main_arg22 : S5 m c (Proc.devRef .tc main_arg22) = R_main_arg22 m c := by
  show after c5 (S4 m c) (Proc.devRef .tc main_arg22) = _
  after_results_simp
  exact rs4_main_arg22 m c
set_option maxHeartbeats 4000000 in
theorem rs5_main_arg29 : S5 m c (Proc.devRef .tc main_arg29) = R_main_arg29 m c := by
  show after c5 (S4 m c) (Proc.devRef .tc main_arg29) = _
  after_results_simp
  exact rs4_main_arg29 m c
set_option maxHeartbeats 4000000 in
theorem rs5_main_arg30 : S5 m c (Proc.devRef .tc main_arg30) = R_main_arg30 m c := by
  show after c5 (S4 m c) (Proc.devRef .tc main_arg30) = _
  after_results_simp
  exact rs4_main_arg30 m c
set_option maxHeartbeats 4000000 in
theorem rs5_main_arg16 : S5 m c (Proc.devRef .tc main_arg16) = R_main_arg16 m c := by
  show after c5 (S4 m c) (Proc.devRef .tc main_arg16) = _
  after_results_simp
  exact rs4_main_arg16 m c
set_option maxHeartbeats 4000000 in
theorem rs5_main_arg23 : S5 m c (Proc.devRef .tc main_arg23) = R_main_arg23 m c := by
  show after c5 (S4 m c) (Proc.devRef .tc main_arg23) = _
  after_results_simp
  exact rs4_main_arg23 m c
set_option maxHeartbeats 4000000 in
theorem rs5_main_arg24 : S5 m c (Proc.devRef .tc main_arg24) = R_main_arg24 m c := by
  show after c5 (S4 m c) (Proc.devRef .tc main_arg24) = _
  after_results_simp
  exact rs4_main_arg24 m c
set_option maxHeartbeats 4000000 in
theorem rs5_main_arg31 : S5 m c (Proc.devRef .tc main_arg31) = R_main_arg31 m c := by
  show after c5 (S4 m c) (Proc.devRef .tc main_arg31) = _
  after_results_simp
  exact rs4_main_arg31 m c
set_option maxHeartbeats 4000000 in
theorem rs5_main_arg32 : S5 m c (Proc.devRef .tc main_arg32) = R_main_arg32 m c := by
  show after c5 (S4 m c) (Proc.devRef .tc main_arg32) = _
  after_results_simp
  exact rs4_main_arg32 m c
set_option maxHeartbeats 4000000 in
theorem rs5_main_v80 : S5 m c (Proc.devRef .tc main_v80) = R_main_v80 m c := by
  show after c5 (S4 m c) (Proc.devRef .tc main_v80) = _
  after_results_simp
  exact rs4_main_v80 m c
set_option maxHeartbeats 4000000 in
theorem rs5_main_arg1 : S5 m c (Proc.devRef .tc main_arg1) = R_main_arg1 m c := by
  show after c5 (S4 m c) (Proc.devRef .tc main_arg1) = _
  after_results_simp
  exact rs4_main_arg1 m c
set_option maxHeartbeats 4000000 in
theorem rs5_main_arg2 : S5 m c (Proc.devRef .tc main_arg2) = R_main_arg2 m c := by
  show after c5 (S4 m c) (Proc.devRef .tc main_arg2) = _
  after_results_simp
  exact rs4_main_arg2 m c
set_option maxHeartbeats 4000000 in
theorem rs6_main_arg0 : S6 m c (Proc.devRef .tc main_arg0) = R_main_arg0 m c := by
  show after c6 (S5 m c) (Proc.devRef .tc main_arg0) = _
  after_results_simp
  exact rs5_main_arg0 m c
set_option maxHeartbeats 4000000 in
theorem rs6_main_arg3 : S6 m c (Proc.devRef .tc main_arg3) = R_main_arg3 m c := by
  show after c6 (S5 m c) (Proc.devRef .tc main_arg3) = _
  after_results_simp
  exact rs5_main_arg3 m c
set_option maxHeartbeats 4000000 in
theorem rs6_main_arg4 : S6 m c (Proc.devRef .tc main_arg4) = R_main_arg4 m c := by
  show after c6 (S5 m c) (Proc.devRef .tc main_arg4) = _
  after_results_simp
  exact rs5_main_arg4 m c
set_option maxHeartbeats 4000000 in
theorem rs6_main_arg9 : S6 m c (Proc.devRef .tc main_arg9) = R_main_arg9 m c := by
  show after c6 (S5 m c) (Proc.devRef .tc main_arg9) = _
  after_results_simp
  exact rs5_main_arg9 m c
set_option maxHeartbeats 4000000 in
theorem rs6_main_arg7 : S6 m c (Proc.devRef .tc main_arg7) = R_main_arg7 m c := by
  show after c6 (S5 m c) (Proc.devRef .tc main_arg7) = _
  after_results_simp
  exact rs5_main_arg7 m c
set_option maxHeartbeats 4000000 in
theorem rs6_main_arg10 : S6 m c (Proc.devRef .tc main_arg10) = R_main_arg10 m c := by
  show after c6 (S5 m c) (Proc.devRef .tc main_arg10) = _
  after_results_simp
  exact rs5_main_arg10 m c
set_option maxHeartbeats 4000000 in
theorem rs6_main_arg5 : S6 m c (Proc.devRef .tc main_arg5) = R_main_arg5 m c := by
  show after c6 (S5 m c) (Proc.devRef .tc main_arg5) = _
  after_results_simp
  exact rs5_main_arg5 m c
set_option maxHeartbeats 4000000 in
theorem rs6_main_arg11 : S6 m c (Proc.devRef .tc main_arg11) = R_main_arg11 m c := by
  show after c6 (S5 m c) (Proc.devRef .tc main_arg11) = _
  after_results_simp
  exact rs5_main_arg11 m c
set_option maxHeartbeats 4000000 in
theorem rs6_main_arg8 : S6 m c (Proc.devRef .tc main_arg8) = R_main_arg8 m c := by
  show after c6 (S5 m c) (Proc.devRef .tc main_arg8) = _
  after_results_simp
  exact rs5_main_arg8 m c
set_option maxHeartbeats 4000000 in
theorem rs6_main_arg12 : S6 m c (Proc.devRef .tc main_arg12) = R_main_arg12 m c := by
  show after c6 (S5 m c) (Proc.devRef .tc main_arg12) = _
  after_results_simp
  exact rs5_main_arg12 m c
set_option maxHeartbeats 4000000 in
theorem rs6_main_arg6 : S6 m c (Proc.devRef .tc main_arg6) = R_main_arg6 m c := by
  show after c6 (S5 m c) (Proc.devRef .tc main_arg6) = _
  after_results_simp
  exact rs5_main_arg6 m c
set_option maxHeartbeats 4000000 in
theorem rs6_main_arg13 : S6 m c (Proc.devRef .tc main_arg13) = R_main_arg13 m c := by
  show after c6 (S5 m c) (Proc.devRef .tc main_arg13) = _
  after_results_simp
  exact rs5_main_arg13 m c
set_option maxHeartbeats 4000000 in
theorem rs6_main_v3 : S6 m c (Proc.devRef .tc main_v3) = R_main_v3 m c := by
  show after c6 (S5 m c) (Proc.devRef .tc main_v3) = _
  after_results_simp
  exact rs5_main_v3 m c
set_option maxHeartbeats 4000000 in
theorem rs6_main_v12 : S6 m c (Proc.devRef .tc main_v12) = R_main_v12 m c := by
  show after c6 (S5 m c) (Proc.devRef .tc main_v12) = _
  after_results_simp
  exact rs5_main_v12 m c
set_option maxHeartbeats 4000000 in
theorem rs6_main_arg17 : S6 m c (Proc.devRef .tc main_arg17) = R_main_arg17 m c := by
  show after c6 (S5 m c) (Proc.devRef .tc main_arg17) = _
  after_results_simp
  exact rs5_main_arg17 m c
set_option maxHeartbeats 4000000 in
theorem rs6_main_arg18 : S6 m c (Proc.devRef .tc main_arg18) = R_main_arg18 m c := by
  show after c6 (S5 m c) (Proc.devRef .tc main_arg18) = _
  after_results_simp
  exact rs5_main_arg18 m c
set_option maxHeartbeats 4000000 in
theorem rs6_main_v13 : S6 m c (Proc.devRef .tc main_v13) = R_main_v13 m c := by
  show after c6 (S5 m c) (Proc.devRef .tc main_v13) = _
  after_results_simp
  exact rs5_main_v13 m c
set_option maxHeartbeats 4000000 in
theorem rs6_main_arg25 : S6 m c (Proc.devRef .tc main_arg25) = R_main_arg25 m c := by
  show after c6 (S5 m c) (Proc.devRef .tc main_arg25) = _
  after_results_simp
  exact rs5_main_arg25 m c
set_option maxHeartbeats 4000000 in
theorem rs6_main_arg26 : S6 m c (Proc.devRef .tc main_arg26) = R_main_arg26 m c := by
  show after c6 (S5 m c) (Proc.devRef .tc main_arg26) = _
  after_results_simp
  exact rs5_main_arg26 m c
set_option maxHeartbeats 4000000 in
theorem rs6_main_arg14 : S6 m c (Proc.devRef .tc main_arg14) = R_main_arg14 m c := by
  show after c6 (S5 m c) (Proc.devRef .tc main_arg14) = _
  after_results_simp
  exact rs5_main_arg14 m c
set_option maxHeartbeats 4000000 in
theorem rs6_main_arg19 : S6 m c (Proc.devRef .tc main_arg19) = R_main_arg19 m c := by
  show after c6 (S5 m c) (Proc.devRef .tc main_arg19) = _
  after_results_simp
  exact rs5_main_arg19 m c
set_option maxHeartbeats 4000000 in
theorem rs6_main_arg20 : S6 m c (Proc.devRef .tc main_arg20) = R_main_arg20 m c := by
  show after c6 (S5 m c) (Proc.devRef .tc main_arg20) = _
  after_results_simp
  exact rs5_main_arg20 m c
set_option maxHeartbeats 4000000 in
theorem rs6_main_arg27 : S6 m c (Proc.devRef .tc main_arg27) = R_main_arg27 m c := by
  show after c6 (S5 m c) (Proc.devRef .tc main_arg27) = _
  after_results_simp
  exact rs5_main_arg27 m c
set_option maxHeartbeats 4000000 in
theorem rs6_main_arg28 : S6 m c (Proc.devRef .tc main_arg28) = R_main_arg28 m c := by
  show after c6 (S5 m c) (Proc.devRef .tc main_arg28) = _
  after_results_simp
  exact rs5_main_arg28 m c
set_option maxHeartbeats 4000000 in
theorem rs6_main_arg15 : S6 m c (Proc.devRef .tc main_arg15) = R_main_arg15 m c := by
  show after c6 (S5 m c) (Proc.devRef .tc main_arg15) = _
  after_results_simp
  exact rs5_main_arg15 m c
set_option maxHeartbeats 4000000 in
theorem rs6_main_arg21 : S6 m c (Proc.devRef .tc main_arg21) = R_main_arg21 m c := by
  show after c6 (S5 m c) (Proc.devRef .tc main_arg21) = _
  after_results_simp
  exact rs5_main_arg21 m c
set_option maxHeartbeats 4000000 in
theorem rs6_main_arg22 : S6 m c (Proc.devRef .tc main_arg22) = R_main_arg22 m c := by
  show after c6 (S5 m c) (Proc.devRef .tc main_arg22) = _
  after_results_simp
  exact rs5_main_arg22 m c
set_option maxHeartbeats 4000000 in
theorem rs6_main_arg29 : S6 m c (Proc.devRef .tc main_arg29) = R_main_arg29 m c := by
  show after c6 (S5 m c) (Proc.devRef .tc main_arg29) = _
  after_results_simp
  exact rs5_main_arg29 m c
set_option maxHeartbeats 4000000 in
theorem rs6_main_arg30 : S6 m c (Proc.devRef .tc main_arg30) = R_main_arg30 m c := by
  show after c6 (S5 m c) (Proc.devRef .tc main_arg30) = _
  after_results_simp
  exact rs5_main_arg30 m c
set_option maxHeartbeats 4000000 in
theorem rs6_main_arg16 : S6 m c (Proc.devRef .tc main_arg16) = R_main_arg16 m c := by
  show after c6 (S5 m c) (Proc.devRef .tc main_arg16) = _
  after_results_simp
  exact rs5_main_arg16 m c
set_option maxHeartbeats 4000000 in
theorem rs6_main_v118 : S6 m c (Proc.devRef .tc main_v118) = R_main_v118 m c := by
  show after c6 (S5 m c) (Proc.devRef .tc main_v118) = _
  after_results_simp
  finish_results
  rw [rs5_main_v96 m c, rs5_main_v12 m c, rs5_main_v85 m c, rs5_main_arg21 m c, rs5_main_arg22 m c, rs5_main_v13 m c, rs5_main_arg29 m c, rs5_main_arg30 m c, rs5_main_arg16 m c, rs5_main_v1 m c]
  rfl
set_option maxHeartbeats 4000000 in
theorem rs6_main_arg23 : S6 m c (Proc.devRef .tc main_arg23) = R_main_arg23 m c := by
  show after c6 (S5 m c) (Proc.devRef .tc main_arg23) = _
  after_results_simp
  exact rs5_main_arg23 m c
set_option maxHeartbeats 4000000 in
theorem rs6_main_v110 : S6 m c (Proc.devRef .tc main_v110) = R_main_v110 m c := by
  show after c6 (S5 m c) (Proc.devRef .tc main_v110) = _
  after_results_simp
  finish_results
  rw [rs5_main_v96 m c, rs5_main_v12 m c, rs5_main_v85 m c, rs5_main_arg21 m c, rs5_main_arg22 m c, rs5_main_v13 m c, rs5_main_arg29 m c, rs5_main_arg30 m c]
  rfl
set_option maxHeartbeats 4000000 in
theorem rs6_main_arg24 : S6 m c (Proc.devRef .tc main_arg24) = R_main_arg24 m c := by
  show after c6 (S5 m c) (Proc.devRef .tc main_arg24) = _
  after_results_simp
  exact rs5_main_arg24 m c
set_option maxHeartbeats 4000000 in
theorem rs6_main_arg31 : S6 m c (Proc.devRef .tc main_arg31) = R_main_arg31 m c := by
  show after c6 (S5 m c) (Proc.devRef .tc main_arg31) = _
  after_results_simp
  exact rs5_main_arg31 m c
set_option maxHeartbeats 4000000 in
theorem rs6_main_arg32 : S6 m c (Proc.devRef .tc main_arg32) = R_main_arg32 m c := by
  show after c6 (S5 m c) (Proc.devRef .tc main_arg32) = _
  after_results_simp
  exact rs5_main_arg32 m c
set_option maxHeartbeats 4000000 in
theorem rs6_main_v80 : S6 m c (Proc.devRef .tc main_v80) = R_main_v80 m c := by
  show after c6 (S5 m c) (Proc.devRef .tc main_v80) = _
  after_results_simp
  exact rs5_main_v80 m c
set_option maxHeartbeats 4000000 in
theorem rs6_main_arg1 : S6 m c (Proc.devRef .tc main_arg1) = R_main_arg1 m c := by
  show after c6 (S5 m c) (Proc.devRef .tc main_arg1) = _
  after_results_simp
  exact rs5_main_arg1 m c
set_option maxHeartbeats 4000000 in
theorem rs6_main_arg2 : S6 m c (Proc.devRef .tc main_arg2) = R_main_arg2 m c := by
  show after c6 (S5 m c) (Proc.devRef .tc main_arg2) = _
  after_results_simp
  exact rs5_main_arg2 m c

end Cert.ReferenceIdeal.RefTrace

end
-- ==== Proof.RefTrace4.lean ====
/-
  The reference program's buffer contents after each stretch of its operations: every buffer a later stretch reads, the
  result and the arguments hold their pure terms of the launch memory; a stretch gives a buffer it computes the
  operation's function of its operands and leaves every other buffer.
-/
import proofs.«159630_j86646670230227_1_alg».proof.Proof.RefTrace3

set_option maxRecDepth 16384

noncomputable section

namespace Cert.ReferenceIdeal.RefTrace

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

set_option maxHeartbeats 4000000 in
theorem rs7_main_arg0 : S7 m c (Proc.devRef .tc main_arg0) = R_main_arg0 m c := by
  show after c7 (S6 m c) (Proc.devRef .tc main_arg0) = _
  after_results_simp
  exact rs6_main_arg0 m c
set_option maxHeartbeats 4000000 in
theorem rs7_main_arg3 : S7 m c (Proc.devRef .tc main_arg3) = R_main_arg3 m c := by
  show after c7 (S6 m c) (Proc.devRef .tc main_arg3) = _
  after_results_simp
  exact rs6_main_arg3 m c
set_option maxHeartbeats 4000000 in
theorem rs7_main_arg4 : S7 m c (Proc.devRef .tc main_arg4) = R_main_arg4 m c := by
  show after c7 (S6 m c) (Proc.devRef .tc main_arg4) = _
  after_results_simp
  exact rs6_main_arg4 m c
set_option maxHeartbeats 4000000 in
theorem rs7_main_arg9 : S7 m c (Proc.devRef .tc main_arg9) = R_main_arg9 m c := by
  show after c7 (S6 m c) (Proc.devRef .tc main_arg9) = _
  after_results_simp
  exact rs6_main_arg9 m c
set_option maxHeartbeats 4000000 in
theorem rs7_main_arg7 : S7 m c (Proc.devRef .tc main_arg7) = R_main_arg7 m c := by
  show after c7 (S6 m c) (Proc.devRef .tc main_arg7) = _
  after_results_simp
  exact rs6_main_arg7 m c
set_option maxHeartbeats 4000000 in
theorem rs7_main_arg10 : S7 m c (Proc.devRef .tc main_arg10) = R_main_arg10 m c := by
  show after c7 (S6 m c) (Proc.devRef .tc main_arg10) = _
  after_results_simp
  exact rs6_main_arg10 m c
set_option maxHeartbeats 4000000 in
theorem rs7_main_arg5 : S7 m c (Proc.devRef .tc main_arg5) = R_main_arg5 m c := by
  show after c7 (S6 m c) (Proc.devRef .tc main_arg5) = _
  after_results_simp
  exact rs6_main_arg5 m c
set_option maxHeartbeats 4000000 in
theorem rs7_main_arg11 : S7 m c (Proc.devRef .tc main_arg11) = R_main_arg11 m c := by
  show after c7 (S6 m c) (Proc.devRef .tc main_arg11) = _
  after_results_simp
  exact rs6_main_arg11 m c
set_option maxHeartbeats 4000000 in
theorem rs7_main_arg8 : S7 m c (Proc.devRef .tc main_arg8) = R_main_arg8 m c := by
  show after c7 (S6 m c) (Proc.devRef .tc main_arg8) = _
  after_results_simp
  exact rs6_main_arg8 m c
set_option maxHeartbeats 4000000 in
theorem rs7_main_arg12 : S7 m c (Proc.devRef .tc main_arg12) = R_main_arg12 m c := by
  show after c7 (S6 m c) (Proc.devRef .tc main_arg12) = _
  after_results_simp
  exact rs6_main_arg12 m c
set_option maxHeartbeats 4000000 in
theorem rs7_main_arg6 : S7 m c (Proc.devRef .tc main_arg6) = R_main_arg6 m c := by
  show after c7 (S6 m c) (Proc.devRef .tc main_arg6) = _
  after_results_simp
  exact rs6_main_arg6 m c
set_option maxHeartbeats 4000000 in
theorem rs7_main_arg13 : S7 m c (Proc.devRef .tc main_arg13) = R_main_arg13 m c := by
  show after c7 (S6 m c) (Proc.devRef .tc main_arg13) = _
  after_results_simp
  exact rs6_main_arg13 m c
set_option maxHeartbeats 4000000 in
theorem rs7_main_arg17 : S7 m c (Proc.devRef .tc main_arg17) = R_main_arg17 m c := by
  show after c7 (S6 m c) (Proc.devRef .tc main_arg17) = _
  after_results_simp
  exact rs6_main_arg17 m c
set_option maxHeartbeats 4000000 in
theorem rs7_main_arg18 : S7 m c (Proc.devRef .tc main_arg18) = R_main_arg18 m c := by
  show after c7 (S6 m c) (Proc.devRef .tc main_arg18) = _
  after_results_simp
  exact rs6_main_arg18 m c
set_option maxHeartbeats 4000000 in
theorem rs7_main_arg25 : S7 m c (Proc.devRef .tc main_arg25) = R_main_arg25 m c := by
  show after c7 (S6 m c) (Proc.devRef .tc main_arg25) = _
  after_results_simp
  exact rs6_main_arg25 m c
set_option maxHeartbeats 4000000 in
theorem rs7_main_arg26 : S7 m c (Proc.devRef .tc main_arg26) = R_main_arg26 m c := by
  show after c7 (S6 m c) (Proc.devRef .tc main_arg26) = _
  after_results_simp
  exact rs6_main_arg26 m c
set_option maxHeartbeats 4000000 in
theorem rs7_main_arg14 : S7 m c (Proc.devRef .tc main_arg14) = R_main_arg14 m c := by
  show after c7 (S6 m c) (Proc.devRef .tc main_arg14) = _
  after_results_simp
  exact rs6_main_arg14 m c
set_option maxHeartbeats 4000000 in
theorem rs7_main_arg19 : S7 m c (Proc.devRef .tc main_arg19) = R_main_arg19 m c := by
  show after c7 (S6 m c) (Proc.devRef .tc main_arg19) = _
  after_results_simp
  exact rs6_main_arg19 m c
set_option maxHeartbeats 4000000 in
theorem rs7_main_arg20 : S7 m c (Proc.devRef .tc main_arg20) = R_main_arg20 m c := by
  show after c7 (S6 m c) (Proc.devRef .tc main_arg20) = _
  after_results_simp
  exact rs6_main_arg20 m c
set_option maxHeartbeats 4000000 in
theorem rs7_main_arg27 : S7 m c (Proc.devRef .tc main_arg27) = R_main_arg27 m c := by
  show after c7 (S6 m c) (Proc.devRef .tc main_arg27) = _
  after_results_simp
  exact rs6_main_arg27 m c
set_option maxHeartbeats 4000000 in
theorem rs7_main_arg28 : S7 m c (Proc.devRef .tc main_arg28) = R_main_arg28 m c := by
  show after c7 (S6 m c) (Proc.devRef .tc main_arg28) = _
  after_results_simp
  exact rs6_main_arg28 m c
set_option maxHeartbeats 4000000 in
theorem rs7_main_arg15 : S7 m c (Proc.devRef .tc main_arg15) = R_main_arg15 m c := by
  show after c7 (S6 m c) (Proc.devRef .tc main_arg15) = _
  after_results_simp
  exact rs6_main_arg15 m c
set_option maxHeartbeats 4000000 in
theorem rs7_main_arg21 : S7 m c (Proc.devRef .tc main_arg21) = R_main_arg21 m c := by
  show after c7 (S6 m c) (Proc.devRef .tc main_arg21) = _
  after_results_simp
  exact rs6_main_arg21 m c
set_option maxHeartbeats 4000000 in
theorem rs7_main_arg22 : S7 m c (Proc.devRef .tc main_arg22) = R_main_arg22 m c := by
  show after c7 (S6 m c) (Proc.devRef .tc main_arg22) = _
  after_results_simp
  exact rs6_main_arg22 m c
set_option maxHeartbeats 4000000 in
theorem rs7_main_arg29 : S7 m c (Proc.devRef .tc main_arg29) = R_main_arg29 m c := by
  show after c7 (S6 m c) (Proc.devRef .tc main_arg29) = _
  after_results_simp
  exact rs6_main_arg29 m c
set_option maxHeartbeats 4000000 in
theorem rs7_main_arg30 : S7 m c (Proc.devRef .tc main_arg30) = R_main_arg30 m c := by
  show after c7 (S6 m c) (Proc.devRef .tc main_arg30) = _
  after_results_simp
  exact rs6_main_arg30 m c
set_option maxHeartbeats 4000000 in
theorem rs7_main_arg16 : S7 m c (Proc.devRef .tc main_arg16) = R_main_arg16 m c := by
  show after c7 (S6 m c) (Proc.devRef .tc main_arg16) = _
  after_results_simp
  exact rs6_main_arg16 m c
set_option maxHeartbeats 4000000 in
theorem rs7_main_arg23 : S7 m c (Proc.devRef .tc main_arg23) = R_main_arg23 m c := by
  show after c7 (S6 m c) (Proc.devRef .tc main_arg23) = _
  after_results_simp
  exact rs6_main_arg23 m c
set_option maxHeartbeats 4000000 in
theorem rs7_main_arg24 : S7 m c (Proc.devRef .tc main_arg24) = R_main_arg24 m c := by
  show after c7 (S6 m c) (Proc.devRef .tc main_arg24) = _
  after_results_simp
  exact rs6_main_arg24 m c
set_option maxHeartbeats 4000000 in
theorem rs7_main_arg31 : S7 m c (Proc.devRef .tc main_arg31) = R_main_arg31 m c := by
  show after c7 (S6 m c) (Proc.devRef .tc main_arg31) = _
  after_results_simp
  exact rs6_main_arg31 m c
set_option maxHeartbeats 4000000 in
theorem rs7_main_arg32 : S7 m c (Proc.devRef .tc main_arg32) = R_main_arg32 m c := by
  show after c7 (S6 m c) (Proc.devRef .tc main_arg32) = _
  after_results_simp
  exact rs6_main_arg32 m c
set_option maxHeartbeats 4000000 in
theorem rs7_main_arg1 : S7 m c (Proc.devRef .tc main_arg1) = R_main_arg1 m c := by
  show after c7 (S6 m c) (Proc.devRef .tc main_arg1) = _
  after_results_simp
  exact rs6_main_arg1 m c
set_option maxHeartbeats 4000000 in
theorem rs7_main_v139 : S7 m c (Proc.devRef .tc main_v139) = R_main_v139 m c := by
  show after c7 (S6 m c) (Proc.devRef .tc main_v139) = _
  after_results_simp
  finish_results
  rw [rs6_main_v80 m c, rs6_main_v3 m c, rs6_main_v118 m c, rs6_main_v12 m c, rs6_main_v110 m c, rs6_main_arg23 m c, rs6_main_arg24 m c, rs6_main_v13 m c, rs6_main_arg31 m c, rs6_main_arg32 m c]
  rfl
set_option maxHeartbeats 4000000 in
theorem rs7_main_arg2 : S7 m c (Proc.devRef .tc main_arg2) = R_main_arg2 m c := by
  show after c7 (S6 m c) (Proc.devRef .tc main_arg2) = _
  after_results_simp
  exact rs6_main_arg2 m c
set_option maxHeartbeats 4000000 in
theorem rs7_main_v140 : S7 m c (Proc.devRef .tc main_v140) = R_main_v140 m c := by
  show after c7 (S6 m c) (Proc.devRef .tc main_v140) = _
  after_results_simp
  finish_results
  rw [rs6_main_v80 m c, rs6_main_v3 m c, rs6_main_v118 m c, rs6_main_v12 m c, rs6_main_v110 m c, rs6_main_arg23 m c, rs6_main_arg24 m c, rs6_main_v13 m c, rs6_main_arg31 m c, rs6_main_arg32 m c]
  rfl
set_option maxHeartbeats 4000000 in
theorem rs8_main_arg0 : S8 m c (Proc.devRef .tc main_arg0) = R_main_arg0 m c := by
  show after c8 (S7 m c) (Proc.devRef .tc main_arg0) = _
  after_results_simp
  exact rs7_main_arg0 m c
set_option maxHeartbeats 4000000 in
theorem rs8_main_arg3 : S8 m c (Proc.devRef .tc main_arg3) = R_main_arg3 m c := by
  show after c8 (S7 m c) (Proc.devRef .tc main_arg3) = _
  after_results_simp
  exact rs7_main_arg3 m c
set_option maxHeartbeats 4000000 in
theorem rs8_main_arg4 : S8 m c (Proc.devRef .tc main_arg4) = R_main_arg4 m c := by
  show after c8 (S7 m c) (Proc.devRef .tc main_arg4) = _
  after_results_simp
  exact rs7_main_arg4 m c
set_option maxHeartbeats 4000000 in
theorem rs8_main_arg9 : S8 m c (Proc.devRef .tc main_arg9) = R_main_arg9 m c := by
  show after c8 (S7 m c) (Proc.devRef .tc main_arg9) = _
  after_results_simp
  exact rs7_main_arg9 m c
set_option maxHeartbeats 4000000 in
theorem rs8_main_arg7 : S8 m c (Proc.devRef .tc main_arg7) = R_main_arg7 m c := by
  show after c8 (S7 m c) (Proc.devRef .tc main_arg7) = _
  after_results_simp
  exact rs7_main_arg7 m c
set_option maxHeartbeats 4000000 in
theorem rs8_main_arg10 : S8 m c (Proc.devRef .tc main_arg10) = R_main_arg10 m c := by
  show after c8 (S7 m c) (Proc.devRef .tc main_arg10) = _
  after_results_simp
  exact rs7_main_arg10 m c
set_option maxHeartbeats 4000000 in
theorem rs8_main_arg5 : S8 m c (Proc.devRef .tc main_arg5) = R_main_arg5 m c := by
  show after c8 (S7 m c) (Proc.devRef .tc main_arg5) = _
  after_results_simp
  exact rs7_main_arg5 m c
set_option maxHeartbeats 4000000 in
theorem rs8_main_arg11 : S8 m c (Proc.devRef .tc main_arg11) = R_main_arg11 m c := by
  show after c8 (S7 m c) (Proc.devRef .tc main_arg11) = _
  after_results_simp
  exact rs7_main_arg11 m c
set_option maxHeartbeats 4000000 in
theorem rs8_main_arg8 : S8 m c (Proc.devRef .tc main_arg8) = R_main_arg8 m c := by
  show after c8 (S7 m c) (Proc.devRef .tc main_arg8) = _
  after_results_simp
  exact rs7_main_arg8 m c
set_option maxHeartbeats 4000000 in
theorem rs8_main_arg12 : S8 m c (Proc.devRef .tc main_arg12) = R_main_arg12 m c := by
  show after c8 (S7 m c) (Proc.devRef .tc main_arg12) = _
  after_results_simp
  exact rs7_main_arg12 m c
set_option maxHeartbeats 4000000 in
theorem rs8_main_arg6 : S8 m c (Proc.devRef .tc main_arg6) = R_main_arg6 m c := by
  show after c8 (S7 m c) (Proc.devRef .tc main_arg6) = _
  after_results_simp
  exact rs7_main_arg6 m c
set_option maxHeartbeats 4000000 in
theorem rs8_main_arg13 : S8 m c (Proc.devRef .tc main_arg13) = R_main_arg13 m c := by
  show after c8 (S7 m c) (Proc.devRef .tc main_arg13) = _
  after_results_simp
  exact rs7_main_arg13 m c
set_option maxHeartbeats 4000000 in
theorem rs8_main_arg17 : S8 m c (Proc.devRef .tc main_arg17) = R_main_arg17 m c := by
  show after c8 (S7 m c) (Proc.devRef .tc main_arg17) = _
  after_results_simp
  exact rs7_main_arg17 m c
set_option maxHeartbeats 4000000 in
theorem rs8_main_arg18 : S8 m c (Proc.devRef .tc main_arg18) = R_main_arg18 m c := by
  show after c8 (S7 m c) (Proc.devRef .tc main_arg18) = _
  after_results_simp
  exact rs7_main_arg18 m c
set_option maxHeartbeats 4000000 in
theorem rs8_main_arg25 : S8 m c (Proc.devRef .tc main_arg25) = R_main_arg25 m c := by
  show after c8 (S7 m c) (Proc.devRef .tc main_arg25) = _
  after_results_simp
  exact rs7_main_arg25 m c
set_option maxHeartbeats 4000000 in
theorem rs8_main_arg26 : S8 m c (Proc.devRef .tc main_arg26) = R_main_arg26 m c := by
  show after c8 (S7 m c) (Proc.devRef .tc main_arg26) = _
  after_results_simp
  exact rs7_main_arg26 m c
set_option maxHeartbeats 4000000 in
theorem rs8_main_arg14 : S8 m c (Proc.devRef .tc main_arg14) = R_main_arg14 m c := by
  show after c8 (S7 m c) (Proc.devRef .tc main_arg14) = _
  after_results_simp
  exact rs7_main_arg14 m c
set_option maxHeartbeats 4000000 in
theorem rs8_main_arg19 : S8 m c (Proc.devRef .tc main_arg19) = R_main_arg19 m c := by
  show after c8 (S7 m c) (Proc.devRef .tc main_arg19) = _
  after_results_simp
  exact rs7_main_arg19 m c
set_option maxHeartbeats 4000000 in
theorem rs8_main_arg20 : S8 m c (Proc.devRef .tc main_arg20) = R_main_arg20 m c := by
  show after c8 (S7 m c) (Proc.devRef .tc main_arg20) = _
  after_results_simp
  exact rs7_main_arg20 m c
set_option maxHeartbeats 4000000 in
theorem rs8_main_arg27 : S8 m c (Proc.devRef .tc main_arg27) = R_main_arg27 m c := by
  show after c8 (S7 m c) (Proc.devRef .tc main_arg27) = _
  after_results_simp
  exact rs7_main_arg27 m c
set_option maxHeartbeats 4000000 in
theorem rs8_main_arg28 : S8 m c (Proc.devRef .tc main_arg28) = R_main_arg28 m c := by
  show after c8 (S7 m c) (Proc.devRef .tc main_arg28) = _
  after_results_simp
  exact rs7_main_arg28 m c
set_option maxHeartbeats 4000000 in
theorem rs8_main_arg15 : S8 m c (Proc.devRef .tc main_arg15) = R_main_arg15 m c := by
  show after c8 (S7 m c) (Proc.devRef .tc main_arg15) = _
  after_results_simp
  exact rs7_main_arg15 m c
set_option maxHeartbeats 4000000 in
theorem rs8_main_arg21 : S8 m c (Proc.devRef .tc main_arg21) = R_main_arg21 m c := by
  show after c8 (S7 m c) (Proc.devRef .tc main_arg21) = _
  after_results_simp
  exact rs7_main_arg21 m c
set_option maxHeartbeats 4000000 in
theorem rs8_main_arg22 : S8 m c (Proc.devRef .tc main_arg22) = R_main_arg22 m c := by
  show after c8 (S7 m c) (Proc.devRef .tc main_arg22) = _
  after_results_simp
  exact rs7_main_arg22 m c
set_option maxHeartbeats 4000000 in
theorem rs8_main_arg29 : S8 m c (Proc.devRef .tc main_arg29) = R_main_arg29 m c := by
  show after c8 (S7 m c) (Proc.devRef .tc main_arg29) = _
  after_results_simp
  exact rs7_main_arg29 m c
set_option maxHeartbeats 4000000 in
theorem rs8_main_arg30 : S8 m c (Proc.devRef .tc main_arg30) = R_main_arg30 m c := by
  show after c8 (S7 m c) (Proc.devRef .tc main_arg30) = _
  after_results_simp
  exact rs7_main_arg30 m c
set_option maxHeartbeats 4000000 in
theorem rs8_main_arg16 : S8 m c (Proc.devRef .tc main_arg16) = R_main_arg16 m c := by
  show after c8 (S7 m c) (Proc.devRef .tc main_arg16) = _
  after_results_simp
  exact rs7_main_arg16 m c
set_option maxHeartbeats 4000000 in
theorem rs8_main_arg23 : S8 m c (Proc.devRef .tc main_arg23) = R_main_arg23 m c := by
  show after c8 (S7 m c) (Proc.devRef .tc main_arg23) = _
  after_results_simp
  exact rs7_main_arg23 m c
set_option maxHeartbeats 4000000 in
theorem rs8_main_arg24 : S8 m c (Proc.devRef .tc main_arg24) = R_main_arg24 m c := by
  show after c8 (S7 m c) (Proc.devRef .tc main_arg24) = _
  after_results_simp
  exact rs7_main_arg24 m c
set_option maxHeartbeats 4000000 in
theorem rs8_main_arg31 : S8 m c (Proc.devRef .tc main_arg31) = R_main_arg31 m c := by
  show after c8 (S7 m c) (Proc.devRef .tc main_arg31) = _
  after_results_simp
  exact rs7_main_arg31 m c
set_option maxHeartbeats 4000000 in
theorem rs8_main_arg32 : S8 m c (Proc.devRef .tc main_arg32) = R_main_arg32 m c := by
  show after c8 (S7 m c) (Proc.devRef .tc main_arg32) = _
  after_results_simp
  exact rs7_main_arg32 m c
set_option maxHeartbeats 4000000 in
theorem rs8_main_arg1 : S8 m c (Proc.devRef .tc main_arg1) = R_main_arg1 m c := by
  show after c8 (S7 m c) (Proc.devRef .tc main_arg1) = _
  after_results_simp
  exact rs7_main_arg1 m c
set_option maxHeartbeats 4000000 in
theorem rs8_main_arg2 : S8 m c (Proc.devRef .tc main_arg2) = R_main_arg2 m c := by
  show after c8 (S7 m c) (Proc.devRef .tc main_arg2) = _
  after_results_simp
  exact rs7_main_arg2 m c
set_option maxHeartbeats 4000000 in
theorem rs8_main_v156 : S8 m c (Proc.devRef .tc main_v156) = R_main_v156 m c := by
  show after c8 (S7 m c) (Proc.devRef .tc main_v156) = _
  after_results_simp
  finish_results
  rw [rs7_main_v139 m c, rs7_main_arg1 m c, rs7_main_v140 m c, rs7_main_arg2 m c]
  rfl

end Cert.ReferenceIdeal.RefTrace

end
-- ==== Proof.RefRun.lean ====
/-
  The reference program's run read back: on every device, from any launch memory, every weakly fair execution of @main
  terminates with the result buffer at its pure term of the arguments and the arguments unchanged. The run of a
  straight line of host operations leaves each buffer at the fold of the operations' results over the launch contents;
  the fold is taken stretch by stretch.
-/
import proofs.«159630_j86646670230227_1_alg».proof.Proof.RefTrace4

set_option maxRecDepth 16384

noncomputable section

namespace Cert.ReferenceIdeal.RefTrace

open Cert.ReferenceIdeal Cert.ReferenceIdeal.Gen Idealize.ShloMosaic Idealize.ShloMosaic.TcCoe Idealize.SL.Sem Idealize.ShloMosaic.StableHlo

variable {F : FTy → Type} [FloatOps F]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., unary_bufs_sub .., unary_bufs_sub .., binary_bufs_sub .., binary_bufs_sub .., binary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., unary_bufs_sub .., unary_bufs_sub .., binary_bufs_sub .., binary_bufs_sub .., binary_bufs_sub .., unary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., unary_bufs_sub .., unary_bufs_sub .., binary_bufs_sub .., binary_bufs_sub .., binary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., unary_bufs_sub .., unary_bufs_sub .., binary_bufs_sub .., binary_bufs_sub .., binary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub ..⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v156) = R_main_v156 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32) :=
  (θ_run defs _ _).mono (fun _ h c => ⟨(h c main_v156).trans ((congrFun (after_ops m c) _).trans (rs8_main_v156 m c)),
      (h c main_arg0).trans ((congrFun (after_ops m c) _).trans (rs8_main_arg0 m c)),
      (h c main_arg1).trans ((congrFun (after_ops m c) _).trans (rs8_main_arg1 m c)),
      (h c main_arg2).trans ((congrFun (after_ops m c) _).trans (rs8_main_arg2 m c)),
      (h c main_arg3).trans ((congrFun (after_ops m c) _).trans (rs8_main_arg3 m c)),
      (h c main_arg4).trans ((congrFun (after_ops m c) _).trans (rs8_main_arg4 m c)),
      (h c main_arg5).trans ((congrFun (after_ops m c) _).trans (rs8_main_arg5 m c)),
      (h c main_arg6).trans ((congrFun (after_ops m c) _).trans (rs8_main_arg6 m c)),
      (h c main_arg7).trans ((congrFun (after_ops m c) _).trans (rs8_main_arg7 m c)),
      (h c main_arg8).trans ((congrFun (after_ops m c) _).trans (rs8_main_arg8 m c)),
      (h c main_arg9).trans ((congrFun (after_ops m c) _).trans (rs8_main_arg9 m c)),
      (h c main_arg10).trans ((congrFun (after_ops m c) _).trans (rs8_main_arg10 m c)),
      (h c main_arg11).trans ((congrFun (after_ops m c) _).trans (rs8_main_arg11 m c)),
      (h c main_arg12).trans ((congrFun (after_ops m c) _).trans (rs8_main_arg12 m c)),
      (h c main_arg13).trans ((congrFun (after_ops m c) _).trans (rs8_main_arg13 m c)),
      (h c main_arg14).trans ((congrFun (after_ops m c) _).trans (rs8_main_arg14 m c)),
      (h c main_arg15).trans ((congrFun (after_ops m c) _).trans (rs8_main_arg15 m c)),
      (h c main_arg16).trans ((congrFun (after_ops m c) _).trans (rs8_main_arg16 m c)),
      (h c main_arg17).trans ((congrFun (after_ops m c) _).trans (rs8_main_arg17 m c)),
      (h c main_arg18).trans ((congrFun (after_ops m c) _).trans (rs8_main_arg18 m c)),
      (h c main_arg19).trans ((congrFun (after_ops m c) _).trans (rs8_main_arg19 m c)),
      (h c main_arg20).trans ((congrFun (after_ops m c) _).trans (rs8_main_arg20 m c)),
      (h c main_arg21).trans ((congrFun (after_ops m c) _).trans (rs8_main_arg21 m c)),
      (h c main_arg22).trans ((congrFun (after_ops m c) _).trans (rs8_main_arg22 m c)),
      (h c main_arg23).trans ((congrFun (after_ops m c) _).trans (rs8_main_arg23 m c)),
      (h c main_arg24).trans ((congrFun (after_ops m c) _).trans (rs8_main_arg24 m c)),
      (h c main_arg25).trans ((congrFun (after_ops m c) _).trans (rs8_main_arg25 m c)),
      (h c main_arg26).trans ((congrFun (after_ops m c) _).trans (rs8_main_arg26 m c)),
      (h c main_arg27).trans ((congrFun (after_ops m c) _).trans (rs8_main_arg27 m c)),
      (h c main_arg28).trans ((congrFun (after_ops m c) _).trans (rs8_main_arg28 m c)),
      (h c main_arg29).trans ((congrFun (after_ops m c) _).trans (rs8_main_arg29 m c)),
      (h c main_arg30).trans ((congrFun (after_ops m c) _).trans (rs8_main_arg30 m c)),
      (h c main_arg31).trans ((congrFun (after_ops m c) _).trans (rs8_main_arg31 m c)),
      (h c main_arg32).trans ((congrFun (after_ops m c) _).trans (rs8_main_arg32 m c))⟩)
    (run_seq scopedRefs_eq scopedSems_eq defs main (fun _ => ops) main_eq (fun _ => ops_sub) m ρ)

/-- The result's term, its operands' terms unfolded, is one composition of the operations over the arguments. -/
theorem R_eq_tree (m : (ℓ : Loc nD τ sig) → Buf (Elt F) ℓ) (c : Dev nD) : R_main_v156 m c = resTree m c := rfl

end Cert.ReferenceIdeal.RefTrace

end
-- ==== Proof.RunVal.lean ====
/-
  The idealized kernel program's run with its RESULT named: from any launch memory every weakly fair execution of
  @main terminates, nothing faulting, the result buffer holding what the last boundary's contents give it and the
  argument arrays as launched. The contents at the last boundary are the fold of @main's fifteen segments from the
  launch memory: a stretch of host operations rewrites the buffers it computes, a kernel region its output arrays.
-/
import proofs.«159630_j86646670230227_1_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates with the result buffer at the last boundary's contents and the
    arguments unchanged: the segments' launch, the last thread state read against the final state. -/
theorem run_val : θ_run defs (onTc (τ := τ) (main (F := F))) ⟨m, fun _ => 0, ρ⟩ (fun r => ∀ c : Dev nD,
      r.2.mem ((c.tc : Thread nD τ).loc main_v100) = W15 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v100 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c),
       (h c _ (mem_uc main_arg21 (by decide))).trans (W15_main_arg21 m ρ c),
       (h c _ (mem_uc main_arg22 (by decide))).trans (W15_main_arg22 m ρ c),
       (h c _ (mem_uc main_arg23 (by decide))).trans (W15_main_arg23 m ρ c),
       (h c _ (mem_uc main_arg24 (by decide))).trans (W15_main_arg24 m ρ c),
       (h c _ (mem_uc main_arg25 (by decide))).trans (W15_main_arg25 m ρ c),
       (h c _ (mem_uc main_arg26 (by decide))).trans (W15_main_arg26 m ρ c),
       (h c _ (mem_uc main_arg27 (by decide))).trans (W15_main_arg27 m ρ c),
       (h c _ (mem_uc main_arg28 (by decide))).trans (W15_main_arg28 m ρ c),
       (h c _ (mem_uc main_arg29 (by decide))).trans (W15_main_arg29 m ρ c),
       (h c _ (mem_uc main_arg30 (by decide))).trans (W15_main_arg30 m ρ c),
       (h c _ (mem_uc main_arg31 (by decide))).trans (W15_main_arg31 m ρ c),
       (h c _ (mem_uc main_arg32 (by decide))).trans (W15_main_arg32 m ρ c)⟩)

end Cert.KernelIdeal.RunVal

end
-- ==== Proof.TraceDefs.lean ====
/-
  Every buffer of the idealized kernel program that its result depends on, as ONE pure term of the launch memory
  at the extended reals: an argument is what the launch memory holds; a host operation's result is the operation's
  function of its operands' terms; a kernel region's output array is the whole-array function of the region's input
  arrays that the region computes block by block (a projection x·wᵀ + b; row normalisation x / max(‖x‖, ε) and its
  product with a weight; the two fused layers, where the kernel's h·whᵀ + x̂·wxᵀ is the contraction of the
  concatenation [h | x̂] with the unsplit weight).
-/
import proofs.«159630_j86646670230227_1_alg».proof.Proof.Gen.KernelIdeal.Frame
import proofs.«159630_j86646670230227_1_alg».proof.Proof.Gen.ReferenceIdeal
import Idealize.ShloMosaic.PureOps.Ideal

set_option maxRecDepth 16384

noncomputable section

namespace Cert.KernelIdeal.Trace

open Cert.KernelIdeal Cert.KernelIdeal.Gen Idealize.ShloMosaic Idealize.ShloMosaic.TcCoe Idealize.SL.Sem Idealize.ShloMosaic.StableHlo

variable {F : FTy → Type} [FloatOps F]

/-- A projection on the host: x·wᵀ + b, rows of x against rows of w. -/
def projV (x : FVec F Cert.ReferenceIdeal.S40000x2048 .f32) (w : FVec F Cert.ReferenceIdeal.S128x2048 .f32) (b : FVec F Cert.ReferenceIdeal.S128 .f32) : FVec F Cert.ReferenceIdeal.S40000x128 .f32 :=
  addf (Host.dotGeneral Cert.ReferenceIdeal.dot_S40000x2048_S2048x128_S40000x128_1_0_0_1_n_n none x (transpose Cert.ReferenceIdeal.S2048x128 [1, 0] w Cert.ReferenceIdeal.Gen.transposes_S128x2048_S2048x128_1_0)) (broadcastInDim Cert.ReferenceIdeal.S40000x128 ![0, 1] Cert.ReferenceIdeal.Gen.bcast_S1x128_S40000x128_0_1 (broadcastInDim Cert.ReferenceIdeal.S1x128 ![1] Cert.ReferenceIdeal.Gen.bcast_S128_S1x128_1 b))
def projT (x : FVec F Cert.ReferenceIdeal.S40000x768 .f32) (w : FVec F Cert.ReferenceIdeal.S128x768 .f32) (b : FVec F Cert.ReferenceIdeal.S128 .f32) : FVec F Cert.ReferenceIdeal.S40000x128 .f32 :=
  addf (Host.dotGeneral Cert.ReferenceIdeal.dot_S40000x768_S768x128_S40000x128_1_0_0_1_n_n none x (transpose Cert.ReferenceIdeal.S768x128 [1, 0] w Cert.ReferenceIdeal.Gen.transposes_S128x768_S768x128_1_0)) (broadcastInDim Cert.ReferenceIdeal.S40000x128 ![0, 1] Cert.ReferenceIdeal.Gen.bcast_S1x128_S40000x128_0_1 (broadcastInDim Cert.ReferenceIdeal.S1x128 ![1] Cert.ReferenceIdeal.Gen.bcast_S128_S1x128_1 b))
/-- Row normalisation on the host: each row over the larger of its Euclidean norm and ε. -/
def rowNorm (x : FVec F Cert.ReferenceIdeal.S60000x128 .f32) : FVec F Cert.ReferenceIdeal.S60000x128 .f32 :=
  Host.divf x (broadcastInDim Cert.ReferenceIdeal.S60000x128 ![0, 1] Cert.ReferenceIdeal.Gen.bcast_S60000x1_S60000x128_0_1 (maximumf (Host.sqrt (broadcastInDim Cert.ReferenceIdeal.S60000x1 ![0] Cert.ReferenceIdeal.Gen.bcast_S60000_S60000x1_0 (Host.reduceAdd (mulf x x) (constant Cert.ReferenceIdeal.S_ .f32 0x00000000#32) Cert.ReferenceIdeal.Gen.reducesTo_S60000x128_S60000_d1 Cert.ReferenceIdeal.Gen.h_S_))) (broadcastInDim Cert.ReferenceIdeal.S60000x1 ![] Cert.ReferenceIdeal.Gen.bcast_S_S60000x1 (constant Cert.ReferenceIdeal.S_ .f32 0x2B8CBCCC#32))))
def dotW128 (x : FVec F Cert.ReferenceIdeal.S60000x128 .f32) (w : FVec F Cert.ReferenceIdeal.S128x128 .f32) : FVec F Cert.ReferenceIdeal.S60000x128 .f32 :=
  Host.dotGeneral Cert.ReferenceIdeal.dot_S60000x128_S128x128_S60000x128_1_0_0_1_n_n none x w
def dotW64 (x : FVec F Cert.ReferenceIdeal.S60000x64 .f32) (w : FVec F Cert.ReferenceIdeal.S64x64 .f32) : FVec F Cert.ReferenceIdeal.S60000x64 .f32 :=
  Host.dotGeneral Cert.ReferenceIdeal.dot_S60000x64_S64x64_S60000x64_1_0_0_1_n_n none x w
/-- The first fused layer on the host: [h | x·l0wᵀ + l0b + ego]·g0wᵀ + g0b. -/
def fused1 (x : FVec F Cert.ReferenceIdeal.S60000x128 .f32) (h0 : FVec F Cert.ReferenceIdeal.S60000x128 .f32) (ego : FVec F Cert.ReferenceIdeal.S60000x64 .f32) (l0w : FVec F Cert.ReferenceIdeal.S64x128 .f32) (l0b : FVec F Cert.ReferenceIdeal.S64 .f32) (g0w : FVec F Cert.ReferenceIdeal.S64x192 .f32) (g0b : FVec F Cert.ReferenceIdeal.S64 .f32) : FVec F Cert.ReferenceIdeal.S60000x64 .f32 :=
  addf (Host.dotGeneral Cert.ReferenceIdeal.dot_S60000x192_S192x64_S60000x64_1_0_0_1_n_n none (concatenate Cert.ReferenceIdeal.S60000x192 1 [⟨Cert.ReferenceIdeal.S60000x128, h0⟩, ⟨Cert.ReferenceIdeal.S60000x64, (addf (addf (Host.dotGeneral Cert.ReferenceIdeal.dot_S60000x128_S128x64_S60000x64_1_0_0_1_n_n none x (transpose Cert.ReferenceIdeal.S128x64 [1, 0] l0w Cert.ReferenceIdeal.Gen.transposes_S64x128_S128x64_1_0)) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 l0b))) ego)⟩] Cert.ReferenceIdeal.Gen.concatenates_S60000x128_S60000x64_S60000x192_d1) (transpose Cert.ReferenceIdeal.S192x64 [1, 0] g0w Cert.ReferenceIdeal.Gen.transposes_S64x192_S192x64_1_0)) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 g0b))
/-- The second fused layer on the host: [h | x·l1wᵀ + l1b + ego]·g1wᵀ + g1b. -/
def fused2 (x1 : FVec F Cert.ReferenceIdeal.S60000x64 .f32) (h1 : FVec F Cert.ReferenceIdeal.S60000x64 .f32) (ego : FVec F Cert.ReferenceIdeal.S60000x64 .f32) (l1w : FVec F Cert.ReferenceIdeal.S64x64 .f32) (l1b : FVec F Cert.ReferenceIdeal.S64 .f32) (g1w : FVec F Cert.ReferenceIdeal.S64x128 .f32) (g1b : FVec F Cert.ReferenceIdeal.S64 .f32) : FVec F Cert.ReferenceIdeal.S60000x64 .f32 :=
  addf (Host.dotGeneral Cert.ReferenceIdeal.dot_S60000x128_S128x64_S60000x64_1_0_0_1_n_n none (concatenate Cert.ReferenceIdeal.S60000x128 1 [⟨Cert.ReferenceIdeal.S60000x64, h1⟩, ⟨Cert.ReferenceIdeal.S60000x64, (addf (addf (Host.dotGeneral Cert.ReferenceIdeal.dot_S60000x64_S64x64_S60000x64_1_0_0_1_n_n none x1 (transpose Cert.ReferenceIdeal.S64x64 [1, 0] l1w Cert.ReferenceIdeal.Gen.transposes_S64x64_S64x64_1_0)) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 l1b))) ego)⟩] Cert.ReferenceIdeal.Gen.concatenates_S60000x64_S60000x64_S60000x128_d1) (transpose Cert.ReferenceIdeal.S128x64 [1, 0] g1w Cert.ReferenceIdeal.Gen.transposes_S64x128_S128x64_1_0)) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 g1b))

def T_main_arg0 (m : (ℓ : Loc nD τ sig) → Buf (Elt F) ℓ) (c : Dev nD) : Buf (Elt F) ((c : Thread nD τ).loc main_arg0) := m ((c : Thread nD τ).loc main_arg0)
def T_main_arg1 (m : (ℓ : Loc nD τ sig) → Buf (Elt F) ℓ) (c : Dev nD) : Buf (Elt F) ((c : Thread nD τ).loc main_arg1) := m ((c : Thread nD τ).loc main_arg1)
def T_main_arg2 (m : (ℓ : Loc nD τ sig) → Buf (Elt F) ℓ) (c : Dev nD) : Buf (Elt F) ((c : Thread nD τ).loc main_arg2) := m ((c : Thread nD τ).loc main_arg2)
def T_main_arg3 (m : (ℓ : Loc nD τ sig) → Buf (Elt F) ℓ) (c : Dev nD) : Buf (Elt F) ((c : Thread nD τ).loc main_arg3) := m ((c : Thread nD τ).loc main_arg3)
def T_main_arg4 (m : (ℓ : Loc nD τ sig) → Buf (Elt F) ℓ) (c : Dev nD) : Buf (Elt F) ((c : Thread nD τ).loc main_arg4) := m ((c : Thread nD τ).loc main_arg4)
def T_main_arg5 (m : (ℓ : Loc nD τ sig) → Buf (Elt F) ℓ) (c : Dev nD) : Buf (Elt F) ((c : Thread nD τ).loc main_arg5) := m ((c : Thread nD τ).loc main_arg5)
def T_main_arg6 (m : (ℓ : Loc nD τ sig) → Buf (Elt F) ℓ) (c : Dev nD) : Buf (Elt F) ((c : Thread nD τ).loc main_arg6) := m ((c : Thread nD τ).loc main_arg6)
def T_main_arg7 (m : (ℓ : Loc nD τ sig) → Buf (Elt F) ℓ) (c : Dev nD) : Buf (Elt F) ((c : Thread nD τ).loc main_arg7) := m ((c : Thread nD τ).loc main_arg7)
def T_main_arg8 (m : (ℓ : Loc nD τ sig) → Buf (Elt F) ℓ) (c : Dev nD) : Buf (Elt F) ((c : Thread nD τ).loc main_arg8) := m ((c : Thread nD τ).loc main_arg8)
def T_main_arg9 (m : (ℓ : Loc nD τ sig) → Buf (Elt F) ℓ) (c : Dev nD) : Buf (Elt F) ((c : Thread nD τ).loc main_arg9) := m ((c : Thread nD τ).loc main_arg9)
def T_main_arg10 (m : (ℓ : Loc nD τ sig) → Buf (Elt F) ℓ) (c : Dev nD) : Buf (Elt F) ((c : Thread nD τ).loc main_arg10) := m ((c : Thread nD τ).loc main_arg10)
def T_main_arg11 (m : (ℓ : Loc nD τ sig) → Buf (Elt F) ℓ) (c : Dev nD) : Buf (Elt F) ((c : Thread nD τ).loc main_arg11) := m ((c : Thread nD τ).loc main_arg11)
def T_main_arg12 (m : (ℓ : Loc nD τ sig) → Buf (Elt F) ℓ) (c : Dev nD) : Buf (Elt F) ((c : Thread nD τ).loc main_arg12) := m ((c : Thread nD τ).loc main_arg12)
def T_main_arg13 (m : (ℓ : Loc nD τ sig) → Buf (Elt F) ℓ) (c : Dev nD) : Buf (Elt F) ((c : Thread nD τ).loc main_arg13) := m ((c : Thread nD τ).loc main_arg13)
def T_main_arg14 (m : (ℓ : Loc nD τ sig) → Buf (Elt F) ℓ) (c : Dev nD) : Buf (Elt F) ((c : Thread nD τ).loc main_arg14) := m ((c : Thread nD τ).loc main_arg14)
def T_main_arg15 (m : (ℓ : Loc nD τ sig) → Buf (Elt F) ℓ) (c : Dev nD) : Buf (Elt F) ((c : Thread nD τ).loc main_arg15) := m ((c : Thread nD τ).loc main_arg15)
def T_main_arg16 (m : (ℓ : Loc nD τ sig) → Buf (Elt F) ℓ) (c : Dev nD) : Buf (Elt F) ((c : Thread nD τ).loc main_arg16) := m ((c : Thread nD τ).loc main_arg16)
def T_main_arg17 (m : (ℓ : Loc nD τ sig) → Buf (Elt F) ℓ) (c : Dev nD) : Buf (Elt F) ((c : Thread nD τ).loc main_arg17) := m ((c : Thread nD τ).loc main_arg17)
def T_main_arg18 (m : (ℓ : Loc nD τ sig) → Buf (Elt F) ℓ) (c : Dev nD) : Buf (Elt F) ((c : Thread nD τ).loc main_arg18) := m ((c : Thread nD τ).loc main_arg18)
def T_main_arg19 (m : (ℓ : Loc nD τ sig) → Buf (Elt F) ℓ) (c : Dev nD) : Buf (Elt F) ((c : Thread nD τ).loc main_arg19) := m ((c : Thread nD τ).loc main_arg19)
def T_main_arg20 (m : (ℓ : Loc nD τ sig) → Buf (Elt F) ℓ) (c : Dev nD) : Buf (Elt F) ((c : Thread nD τ).loc main_arg20) := m ((c : Thread nD τ).loc main_arg20)
def T_main_arg21 (m : (ℓ : Loc nD τ sig) → Buf (Elt F) ℓ) (c : Dev nD) : Buf (Elt F) ((c : Thread nD τ).loc main_arg21) := m ((c : Thread nD τ).loc main_arg21)
def T_main_arg22 (m : (ℓ : Loc nD τ sig) → Buf (Elt F) ℓ) (c : Dev nD) : Buf (Elt F) ((c : Thread nD τ).loc main_arg22) := m ((c : Thread nD τ).loc main_arg22)
def T_main_arg23 (m : (ℓ : Loc nD τ sig) → Buf (Elt F) ℓ) (c : Dev nD) : Buf (Elt F) ((c : Thread nD τ).loc main_arg23) := m ((c : Thread nD τ).loc main_arg23)
def T_main_arg24 (m : (ℓ : Loc nD τ sig) → Buf (Elt F) ℓ) (c : Dev nD) : Buf (Elt F) ((c : Thread nD τ).loc main_arg24) := m ((c : Thread nD τ).loc main_arg24)
def T_main_arg25 (m : (ℓ : Loc nD τ sig) → Buf (Elt F) ℓ) (c : Dev nD) : Buf (Elt F) ((c : Thread nD τ).loc main_arg25) := m ((c : Thread nD τ).loc main_arg25)
def T_main_arg26 (m : (ℓ : Loc nD τ sig) → Buf (Elt F) ℓ) (c : Dev nD) : Buf (Elt F) ((c : Thread nD τ).loc main_arg26) := m ((c : Thread nD τ).loc main_arg26)
def T_main_arg27 (m : (ℓ : Loc nD τ sig) → Buf (Elt F) ℓ) (c : Dev nD) : Buf (Elt F) ((c : Thread nD τ).loc main_arg27) := m ((c : Thread nD τ).loc main_arg27)
def T_main_arg28 (m : (ℓ : Loc nD τ sig) → Buf (Elt F) ℓ) (c : Dev nD) : Buf (Elt F) ((c : Thread nD τ).loc main_arg28) := m ((c : Thread nD τ).loc main_arg28)
def T_main_arg29 (m : (ℓ : Loc nD τ sig) → Buf (Elt F) ℓ) (c : Dev nD) : Buf (Elt F) ((c : Thread nD τ).loc main_arg29) := m ((c : Thread nD τ).loc main_arg29)
def T_main_arg30 (m : (ℓ : Loc nD τ sig) → Buf (Elt F) ℓ) (c : Dev nD) : Buf (Elt F) ((c : Thread nD τ).loc main_arg30) := m ((c : Thread nD τ).loc main_arg30)
def T_main_arg31 (m : (ℓ : Loc nD τ sig) → Buf (Elt F) ℓ) (c : Dev nD) : Buf (Elt F) ((c : Thread nD τ).loc main_arg31) := m ((c : Thread nD τ).loc main_arg31)
def T_main_arg32 (m : (ℓ : Loc nD τ sig) → Buf (Elt F) ℓ) (c : Dev nD) : Buf (Elt F) ((c : Thread nD τ).loc main_arg32) := m ((c : Thread nD τ).loc main_arg32)
def T_main_v0 (m : (ℓ : Loc nD τ sig) → Buf (Elt F) ℓ) (c : Dev nD) : Buf (Elt F) ((c : Thread nD τ).loc main_v0) := ((extractStridedSlice S1x1000000 ![0, 0] · slices_S2x1000000_S1x1000000_0_0) : (⟨S2x1000000, .i32⟩ : BufTy).Contents (Elt F) → (⟨S1x1000000, .i32⟩ : BufTy).Contents (Elt F)) (T_main_arg0 m c)
def T_main_v1 (m : (ℓ : Loc nD τ sig) → Buf (Elt F) ℓ) (c : Dev nD) : Buf (Elt F) ((c : Thread nD τ).loc main_v1) := shapeCast _ (T_main_v0 m c) shapeCasts_S1x1000000_S1000000
def T_main_v2 (m : (ℓ : Loc nD τ sig) → Buf (Elt F) ℓ) (c : Dev nD) : Buf (Elt F) ((c : Thread nD τ).loc main_v2) := ((extractStridedSlice S1x1000000 ![1, 0] · slices_S2x1000000_S1x1000000_1_0) : (⟨S2x1000000, .i32⟩ : BufTy).Contents (Elt F) → (⟨S1x1000000, .i32⟩ : BufTy).Contents (Elt F)) (T_main_arg0 m c)
def T_main_v3 (m : (ℓ : Loc nD τ sig) → Buf (Elt F) ℓ) (c : Dev nD) : Buf (Elt F) ((c : Thread nD τ).loc main_v3) := shapeCast _ (T_main_v2 m c) shapeCasts_S1x1000000_S1000000
def T_main_cst (m : (ℓ : Loc nD τ sig) → Buf (Elt F) ℓ) (c : Dev nD) : Buf (Elt F) ((c : Thread nD τ).loc main_cst) := (constant S_ .f32 0x3F800000#32)
def T_main_v4 (m : (ℓ : Loc nD τ sig) → Buf (Elt F) ℓ) (c : Dev nD) : Buf (Elt F) ((c : Thread nD τ).loc main_v4) := (broadcastInDim S1000000 ![] bcast_S_S1000000 : (⟨S_, .f32⟩ : BufTy).Contents (Elt F) → (⟨S1000000, .f32⟩ : BufTy).Contents (Elt F)) (T_main_cst m c)
def T_main_cst_0 (m : (ℓ : Loc nD τ sig) → Buf (Elt F) ℓ) (c : Dev nD) : Buf (Elt F) ((c : Thread nD τ).loc main_cst_0) := (constant S_ .f32 0x00000000#32)
def T_main_v5 (m : (ℓ : Loc nD τ sig) → Buf (Elt F) ℓ) (c : Dev nD) : Buf (Elt F) ((c : Thread nD τ).loc main_v5) := (broadcastInDim S60000 ![] bcast_S_S60000 : (⟨S_, .f32⟩ : BufTy).Contents (Elt F) → (⟨S60000, .f32⟩ : BufTy).Contents (Elt F)) (T_main_cst_0 m c)
def T_main_v6 (m : (ℓ : Loc nD τ sig) → Buf (Elt F) ℓ) (c : Dev nD) : Buf (Elt F) ((c : Thread nD τ).loc main_v6) := (broadcastInDim S1000000x1 ![0] bcast_S1000000_S1000000x1_0 : (⟨S1000000, .i32⟩ : BufTy).Contents (Elt F) → (⟨S1000000x1, .i32⟩ : BufTy).Contents (Elt F)) (T_main_v3 m c)
def T_main_v7 (m : (ℓ : Loc nD τ sig) → Buf (Elt F) ℓ) (c : Dev nD) : Buf (Elt F) ((c : Thread nD τ).loc main_v7) := ((fun x i u => Host.scatterAdd scatter_S60000_S1000000x1_S1000000_n_0_0_1 x i u) : (⟨S60000, .f32⟩ : BufTy).Contents (Elt F) → (⟨S1000000x1, .i32⟩ : BufTy).Contents (Elt F) → (⟨S1000000, .f32⟩ : BufTy).Contents (Elt F) → (⟨S60000, .f32⟩ : BufTy).Contents (Elt F)) (T_main_v5 m c) (T_main_v6 m c) (T_main_v4 m c)
def T_main_cst_1 (m : (ℓ : Loc nD τ sig) → Buf (Elt F) ℓ) (c : Dev nD) : Buf (Elt F) ((c : Thread nD τ).loc main_cst_1) := (constant S_ .f32 0x3F800000#32)
def T_main_v8 (m : (ℓ : Loc nD τ sig) → Buf (Elt F) ℓ) (c : Dev nD) : Buf (Elt F) ((c : Thread nD τ).loc main_v8) := (broadcastInDim S60000 ![] bcast_S_S60000 : (⟨S_, .f32⟩ : BufTy).Contents (Elt F) → (⟨S60000, .f32⟩ : BufTy).Contents (Elt F)) (T_main_cst_1 m c)
def T_main_v9 (m : (ℓ : Loc nD τ sig) → Buf (Elt F) ℓ) (c : Dev nD) : Buf (Elt F) ((c : Thread nD τ).loc main_v9) := (maximumf : (⟨S60000, .f32⟩ : BufTy).Contents (Elt F) → (⟨S60000, .f32⟩ : BufTy).Contents (Elt F) → (⟨S60000, .f32⟩ : BufTy).Contents (Elt F)) (T_main_v7 m c) (T_main_v8 m c)
def T_main_cst_2 (m : (ℓ : Loc nD τ sig) → Buf (Elt F) ℓ) (c : Dev nD) : Buf (Elt F) ((c : Thread nD τ).loc main_cst_2) := (constant S_ .f32 0x3F800000#32)
def T_main_v10 (m : (ℓ : Loc nD τ sig) → Buf (Elt F) ℓ) (c : Dev nD) : Buf (Elt F) ((c : Thread nD τ).loc main_v10) := (broadcastInDim S60000 ![] bcast_S_S60000 : (⟨S_, .f32⟩ : BufTy).Contents (Elt F) → (⟨S60000, .f32⟩ : BufTy).Contents (Elt F)) (T_main_cst_2 m c)
def T_main_v11 (m : (ℓ : Loc nD τ sig) → Buf (Elt F) ℓ) (c : Dev nD) : Buf (Elt F) ((c : Thread nD τ).loc main_v11) := (Host.divf : (⟨S60000, .f32⟩ : BufTy).Contents (Elt F) → (⟨S60000, .f32⟩ : BufTy).Contents (Elt F) → (⟨S60000, .f32⟩ : BufTy).Contents (Elt F)) (T_main_v10 m c) (T_main_v9 m c)
def T_main_v12 (m : (ℓ : Loc nD τ sig) → Buf (Elt F) ℓ) (c : Dev nD) : Buf (Elt F) ((c : Thread nD τ).loc main_v12) := (broadcastInDim S60000x1 ![0] bcast_S60000_S60000x1_0 : (⟨S60000, .f32⟩ : BufTy).Contents (Elt F) → (⟨S60000x1, .f32⟩ : BufTy).Contents (Elt F)) (T_main_v11 m c)
def T_main_v13 (m : (ℓ : Loc nD τ sig) → Buf (Elt F) ℓ) (c : Dev nD) : Buf (Elt F) ((c : Thread nD τ).loc main_v13) := ((fun a b => concatenate S60000x64 0 [⟨S20000x64, a⟩, ⟨S40000x64, b⟩] concatenates_S20000x64_S40000x64_S60000x64_d0) : (⟨S20000x64, .f32⟩ : BufTy).Contents (Elt F) → (⟨S40000x64, .f32⟩ : BufTy).Contents (Elt F) → (⟨S60000x64, .f32⟩ : BufTy).Contents (Elt F)) (T_main_arg3 m c) (T_main_arg4 m c)
def T_main_v14 (m : (ℓ : Loc nD τ sig) → Buf (Elt F) ℓ) (c : Dev nD) : Buf (Elt F) ((c : Thread nD τ).loc main_v14) := projV (T_main_arg7 m c) (T_main_arg9 m c) (T_main_arg10 m c)
def T_main_v15 (m : (ℓ : Loc nD τ sig) → Buf (Elt F) ℓ) (c : Dev nD) : Buf (Elt F) ((c : Thread nD τ).loc main_v15) := projT (T_main_arg8 m c) (T_main_arg11 m c) (T_main_arg12 m c)
def T_main_v16 (m : (ℓ : Loc nD τ sig) → Buf (Elt F) ℓ) (c : Dev nD) : Buf (Elt F) ((c : Thread nD τ).loc main_v16) := ((fun a b => concatenate S60000x128 0 [⟨S20000x128, a⟩, ⟨S40000x128, b⟩] concatenates_S20000x128_S40000x128_S60000x128_d0) : (⟨S20000x128, .f32⟩ : BufTy).Contents (Elt F) → (⟨S40000x128, .f32⟩ : BufTy).Contents (Elt F) → (⟨S60000x128, .f32⟩ : BufTy).Contents (Elt F)) (T_main_arg5 m c) (T_main_v14 m c)
def T_main_v17 (m : (ℓ : Loc nD τ sig) → Buf (Elt F) ℓ) (c : Dev nD) : Buf (Elt F) ((c : Thread nD τ).loc main_v17) := ((fun a b => concatenate S60000x128 0 [⟨S20000x128, a⟩, ⟨S40000x128, b⟩] concatenates_S20000x128_S40000x128_S60000x128_d0) : (⟨S20000x128, .f32⟩ : BufTy).Contents (Elt F) → (⟨S40000x128, .f32⟩ : BufTy).Contents (Elt F) → (⟨S60000x128, .f32⟩ : BufTy).Contents (Elt F)) (T_main_arg6 m c) (T_main_v15 m c)
def T_main_v18_0 (m : (ℓ : Loc nD τ sig) → Buf (Elt F) ℓ) (c : Dev nD) : Buf (Elt F) ((c : Thread nD τ).loc main_v18_0) := rowNorm (T_main_v16 m c)
def T_main_v18_1 (m : (ℓ : Loc nD τ sig) → Buf (Elt F) ℓ) (c : Dev nD) : Buf (Elt F) ((c : Thread nD τ).loc main_v18_1) := dotW128 (rowNorm (T_main_v16 m c)) (T_main_arg13 m c)
def T_main_c (m : (ℓ : Loc nD τ sig) → Buf (Elt F) ℓ) (c : Dev nD) : Buf (Elt F) ((c : Thread nD τ).loc main_c) := (constantI S_ 32 0#32)
def T_main_v19 (m : (ℓ : Loc nD τ sig) → Buf (Elt F) ℓ) (c : Dev nD) : Buf (Elt F) ((c : Thread nD τ).loc main_v19) := (broadcastInDim S1000000 ![] bcast_S_S1000000 : (⟨S_, .i32⟩ : BufTy).Contents (Elt F) → (⟨S1000000, .i32⟩ : BufTy).Contents (Elt F)) (T_main_c m c)
def T_main_v20 (m : (ℓ : Loc nD τ sig) → Buf (Elt F) ℓ) (c : Dev nD) : Buf (Elt F) ((c : Thread nD τ).loc main_v20) := (cmpi .slt : (⟨S1000000, .i32⟩ : BufTy).Contents (Elt F) → (⟨S1000000, .i32⟩ : BufTy).Contents (Elt F) → (⟨S1000000, .i1⟩ : BufTy).Contents (Elt F)) (T_main_v1 m c) (T_main_v19 m c)
def T_main_c_3 (m : (ℓ : Loc nD τ sig) → Buf (Elt F) ℓ) (c : Dev nD) : Buf (Elt F) ((c : Thread nD τ).loc main_c_3) := (constantI S_ 32 60000#32)
def T_main_v21 (m : (ℓ : Loc nD τ sig) → Buf (Elt F) ℓ) (c : Dev nD) : Buf (Elt F) ((c : Thread nD τ).loc main_v21) := (broadcastInDim S1000000 ![] bcast_S_S1000000 : (⟨S_, .i32⟩ : BufTy).Contents (Elt F) → (⟨S1000000, .i32⟩ : BufTy).Contents (Elt F)) (T_main_c_3 m c)
def T_main_v22 (m : (ℓ : Loc nD τ sig) → Buf (Elt F) ℓ) (c : Dev nD) : Buf (Elt F) ((c : Thread nD τ).loc main_v22) := (addi : (⟨S1000000, .i32⟩ : BufTy).Contents (Elt F) → (⟨S1000000, .i32⟩ : BufTy).Contents (Elt F) → (⟨S1000000, .i32⟩ : BufTy).Contents (Elt F)) (T_main_v1 m c) (T_main_v21 m c)
def T_main_v23 (m : (ℓ : Loc nD τ sig) → Buf (Elt F) ℓ) (c : Dev nD) : Buf (Elt F) ((c : Thread nD τ).loc main_v23) := (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (T_main_v20 m c) (T_main_v22 m c) (T_main_v1 m c)
def T_main_v24 (m : (ℓ : Loc nD τ sig) → Buf (Elt F) ℓ) (c : Dev nD) : Buf (Elt F) ((c : Thread nD τ).loc main_v24) := (broadcastInDim S1000000x1 ![0] bcast_S1000000_S1000000x1_0 : (⟨S1000000, .i32⟩ : BufTy).Contents (Elt F) → (⟨S1000000x1, .i32⟩ : BufTy).Contents (Elt F)) (T_main_v23 m c)
def T_main_v25 (m : (ℓ : Loc nD τ sig) → Buf (Elt F) ℓ) (c : Dev nD) : Buf (Elt F) ((c : Thread nD τ).loc main_v25) := ((fun x i => Host.gather gather_S60000x128_S1000000x1_S1000000x128_1_0_n_n_0_1_1128 x i) : (⟨S60000x128, .f32⟩ : BufTy).Contents (Elt F) → (⟨S1000000x1, .i32⟩ : BufTy).Contents (Elt F) → (⟨S1000000x128, .f32⟩ : BufTy).Contents (Elt F)) (T_main_v18_1 m c) (T_main_v24 m c)
def T_main_cst_4 (m : (ℓ : Loc nD τ sig) → Buf (Elt F) ℓ) (c : Dev nD) : Buf (Elt F) ((c : Thread nD τ).loc main_cst_4) := (constant S_ .f32 0x00000000#32)
def T_main_v26 (m : (ℓ : Loc nD τ sig) → Buf (Elt F) ℓ) (c : Dev nD) : Buf (Elt F) ((c : Thread nD τ).loc main_v26) := (broadcastInDim S60000x128 ![] bcast_S_S60000x128 : (⟨S_, .f32⟩ : BufTy).Contents (Elt F) → (⟨S60000x128, .f32⟩ : BufTy).Contents (Elt F)) (T_main_cst_4 m c)
def T_main_v27 (m : (ℓ : Loc nD τ sig) → Buf (Elt F) ℓ) (c : Dev nD) : Buf (Elt F) ((c : Thread nD τ).loc main_v27) := (broadcastInDim S1000000x1 ![0] bcast_S1000000_S1000000x1_0 : (⟨S1000000, .i32⟩ : BufTy).Contents (Elt F) → (⟨S1000000x1, .i32⟩ : BufTy).Contents (Elt F)) (T_main_v3 m c)
def T_main_v28 (m : (ℓ : Loc nD τ sig) → Buf (Elt F) ℓ) (c : Dev nD) : Buf (Elt F) ((c : Thread nD τ).loc main_v28) := ((fun x i u => Host.scatterAdd scatter_S60000x128_S1000000x1_S1000000x128_1_0_0_1 x i u) : (⟨S60000x128, .f32⟩ : BufTy).Contents (Elt F) → (⟨S1000000x1, .i32⟩ : BufTy).Contents (Elt F) → (⟨S1000000x128, .f32⟩ : BufTy).Contents (Elt F) → (⟨S60000x128, .f32⟩ : BufTy).Contents (Elt F)) (T_main_v26 m c) (T_main_v27 m c) (T_main_v25 m c)
def T_main_v29 (m : (ℓ : Loc nD τ sig) → Buf (Elt F) ℓ) (c : Dev nD) : Buf (Elt F) ((c : Thread nD τ).loc main_v29) := (broadcastInDim S60000x128 ![0, 1] bcast_S60000x1_S60000x128_0_1 : (⟨S60000x1, .f32⟩ : BufTy).Contents (Elt F) → (⟨S60000x128, .f32⟩ : BufTy).Contents (Elt F)) (T_main_v12 m c)
def T_main_v30 (m : (ℓ : Loc nD τ sig) → Buf (Elt F) ℓ) (c : Dev nD) : Buf (Elt F) ((c : Thread nD τ).loc main_v30) := (mulf : (⟨S60000x128, .f32⟩ : BufTy).Contents (Elt F) → (⟨S60000x128, .f32⟩ : BufTy).Contents (Elt F) → (⟨S60000x128, .f32⟩ : BufTy).Contents (Elt F)) (T_main_v28 m c) (T_main_v29 m c)
def T_main_v31 (m : (ℓ : Loc nD τ sig) → Buf (Elt F) ℓ) (c : Dev nD) : Buf (Elt F) ((c : Thread nD τ).loc main_v31) := ((extractStridedSlice S64x128 ![0, 0] · slices_S64x192_S64x128_0_0) : (⟨S64x192, .f32⟩ : BufTy).Contents (Elt F) → (⟨S64x128, .f32⟩ : BufTy).Contents (Elt F)) (T_main_arg25 m c)
def T_main_v32 (m : (ℓ : Loc nD τ sig) → Buf (Elt F) ℓ) (c : Dev nD) : Buf (Elt F) ((c : Thread nD τ).loc main_v32) := ((extractStridedSlice S64x64 ![0, 128] · slices_S64x192_S64x64_0_128) : (⟨S64x192, .f32⟩ : BufTy).Contents (Elt F) → (⟨S64x64, .f32⟩ : BufTy).Contents (Elt F)) (T_main_arg25 m c)
def T_main_v33_0 (m : (ℓ : Loc nD τ sig) → Buf (Elt F) ℓ) (c : Dev nD) : Buf (Elt F) ((c : Thread nD τ).loc main_v33_0) := fused1 (T_main_v18_0 m c) (T_main_v30 m c) (T_main_v13 m c) (T_main_arg17 m c) (T_main_arg18 m c) (T_main_arg25 m c) (T_main_arg26 m c)
def T_main_v33_1 (m : (ℓ : Loc nD τ sig) → Buf (Elt F) ℓ) (c : Dev nD) : Buf (Elt F) ((c : Thread nD τ).loc main_v33_1) := dotW64 (fused1 (T_main_v18_0 m c) (T_main_v30 m c) (T_main_v13 m c) (T_main_arg17 m c) (T_main_arg18 m c) (T_main_arg25 m c) (T_main_arg26 m c)) (T_main_arg14 m c)
def T_main_c_5 (m : (ℓ : Loc nD τ sig) → Buf (Elt F) ℓ) (c : Dev nD) : Buf (Elt F) ((c : Thread nD τ).loc main_c_5) := (constantI S_ 32 0#32)
def T_main_v34 (m : (ℓ : Loc nD τ sig) → Buf (Elt F) ℓ) (c : Dev nD) : Buf (Elt F) ((c : Thread nD τ).loc main_v34) := (broadcastInDim S1000000 ![] bcast_S_S1000000 : (⟨S_, .i32⟩ : BufTy).Contents (Elt F) → (⟨S1000000, .i32⟩ : BufTy).Contents (Elt F)) (T_main_c_5 m c)
def T_main_v35 (m : (ℓ : Loc nD τ sig) → Buf (Elt F) ℓ) (c : Dev nD) : Buf (Elt F) ((c : Thread nD τ).loc main_v35) := (cmpi .slt : (⟨S1000000, .i32⟩ : BufTy).Contents (Elt F) → (⟨S1000000, .i32⟩ : BufTy).Contents (Elt F) → (⟨S1000000, .i1⟩ : BufTy).Contents (Elt F)) (T_main_v1 m c) (T_main_v34 m c)
def T_main_c_6 (m : (ℓ : Loc nD τ sig) → Buf (Elt F) ℓ) (c : Dev nD) : Buf (Elt F) ((c : Thread nD τ).loc main_c_6) := (constantI S_ 32 60000#32)
def T_main_v36 (m : (ℓ : Loc nD τ sig) → Buf (Elt F) ℓ) (c : Dev nD) : Buf (Elt F) ((c : Thread nD τ).loc main_v36) := (broadcastInDim S1000000 ![] bcast_S_S1000000 : (⟨S_, .i32⟩ : BufTy).Contents (Elt F) → (⟨S1000000, .i32⟩ : BufTy).Contents (Elt F)) (T_main_c_6 m c)
def T_main_v37 (m : (ℓ : Loc nD τ sig) → Buf (Elt F) ℓ) (c : Dev nD) : Buf (Elt F) ((c : Thread nD τ).loc main_v37) := (addi : (⟨S1000000, .i32⟩ : BufTy).Contents (Elt F) → (⟨S1000000, .i32⟩ : BufTy).Contents (Elt F) → (⟨S1000000, .i32⟩ : BufTy).Contents (Elt F)) (T_main_v1 m c) (T_main_v36 m c)
def T_main_v38 (m : (ℓ : Loc nD τ sig) → Buf (Elt F) ℓ) (c : Dev nD) : Buf (Elt F) ((c : Thread nD τ).loc main_v38) := (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (T_main_v35 m c) (T_main_v37 m c) (T_main_v1 m c)
def T_main_v39 (m : (ℓ : Loc nD τ sig) → Buf (Elt F) ℓ) (c : Dev nD) : Buf (Elt F) ((c : Thread nD τ).loc main_v39) := (broadcastInDim S1000000x1 ![0] bcast_S1000000_S1000000x1_0 : (⟨S1000000, .i32⟩ : BufTy).Contents (Elt F) → (⟨S1000000x1, .i32⟩ : BufTy).Contents (Elt F)) (T_main_v38 m c)
def T_main_v40 (m : (ℓ : Loc nD τ sig) → Buf (Elt F) ℓ) (c : Dev nD) : Buf (Elt F) ((c : Thread nD τ).loc main_v40) := ((fun x i => Host.gather gather_S60000x64_S1000000x1_S1000000x64_1_0_n_n_0_1_164 x i) : (⟨S60000x64, .f32⟩ : BufTy).Contents (Elt F) → (⟨S1000000x1, .i32⟩ : BufTy).Contents (Elt F) → (⟨S1000000x64, .f32⟩ : BufTy).Contents (Elt F)) (T_main_v33_1 m c) (T_main_v39 m c)
def T_main_cst_7 (m : (ℓ : Loc nD τ sig) → Buf (Elt F) ℓ) (c : Dev nD) : Buf (Elt F) ((c : Thread nD τ).loc main_cst_7) := (constant S_ .f32 0x00000000#32)
def T_main_v41 (m : (ℓ : Loc nD τ sig) → Buf (Elt F) ℓ) (c : Dev nD) : Buf (Elt F) ((c : Thread nD τ).loc main_v41) := (broadcastInDim S60000x64 ![] bcast_S_S60000x64 : (⟨S_, .f32⟩ : BufTy).Contents (Elt F) → (⟨S60000x64, .f32⟩ : BufTy).Contents (Elt F)) (T_main_cst_7 m c)
def T_main_v42 (m : (ℓ : Loc nD τ sig) → Buf (Elt F) ℓ) (c : Dev nD) : Buf (Elt F) ((c : Thread nD τ).loc main_v42) := (broadcastInDim S1000000x1 ![0] bcast_S1000000_S1000000x1_0 : (⟨S1000000, .i32⟩ : BufTy).Contents (Elt F) → (⟨S1000000x1, .i32⟩ : BufTy).Contents (Elt F)) (T_main_v3 m c)
def T_main_v43 (m : (ℓ : Loc nD τ sig) → Buf (Elt F) ℓ) (c : Dev nD) : Buf (Elt F) ((c : Thread nD τ).loc main_v43) := ((fun x i u => Host.scatterAdd scatter_S60000x64_S1000000x1_S1000000x64_1_0_0_1 x i u) : (⟨S60000x64, .f32⟩ : BufTy).Contents (Elt F) → (⟨S1000000x1, .i32⟩ : BufTy).Contents (Elt F) → (⟨S1000000x64, .f32⟩ : BufTy).Contents (Elt F) → (⟨S60000x64, .f32⟩ : BufTy).Contents (Elt F)) (T_main_v41 m c) (T_main_v42 m c) (T_main_v40 m c)
def T_main_v44 (m : (ℓ : Loc nD τ sig) → Buf (Elt F) ℓ) (c : Dev nD) : Buf (Elt F) ((c : Thread nD τ).loc main_v44) := (broadcastInDim S60000x64 ![0, 1] bcast_S60000x1_S60000x64_0_1 : (⟨S60000x1, .f32⟩ : BufTy).Contents (Elt F) → (⟨S60000x64, .f32⟩ : BufTy).Contents (Elt F)) (T_main_v12 m c)
def T_main_v45 (m : (ℓ : Loc nD τ sig) → Buf (Elt F) ℓ) (c : Dev nD) : Buf (Elt F) ((c : Thread nD τ).loc main_v45) := (mulf : (⟨S60000x64, .f32⟩ : BufTy).Contents (Elt F) → (⟨S60000x64, .f32⟩ : BufTy).Contents (Elt F) → (⟨S60000x64, .f32⟩ : BufTy).Contents (Elt F)) (T_main_v43 m c) (T_main_v44 m c)
def T_main_v46 (m : (ℓ : Loc nD τ sig) → Buf (Elt F) ℓ) (c : Dev nD) : Buf (Elt F) ((c : Thread nD τ).loc main_v46) := ((extractStridedSlice S64x64 ![0, 0] · slices_S64x128_S64x64_0_0) : (⟨S64x128, .f32⟩ : BufTy).Contents (Elt F) → (⟨S64x64, .f32⟩ : BufTy).Contents (Elt F)) (T_main_arg27 m c)
def T_main_v47 (m : (ℓ : Loc nD τ sig) → Buf (Elt F) ℓ) (c : Dev nD) : Buf (Elt F) ((c : Thread nD τ).loc main_v47) := ((extractStridedSlice S64x64 ![0, 64] · slices_S64x128_S64x64_0_64) : (⟨S64x128, .f32⟩ : BufTy).Contents (Elt F) → (⟨S64x64, .f32⟩ : BufTy).Contents (Elt F)) (T_main_arg27 m c)
def T_main_v48 (m : (ℓ : Loc nD τ sig) → Buf (Elt F) ℓ) (c : Dev nD) : Buf (Elt F) ((c : Thread nD τ).loc main_v48) := fused2 (T_main_v33_0 m c) (T_main_v45 m c) (T_main_v13 m c) (T_main_arg19 m c) (T_main_arg20 m c) (T_main_arg27 m c) (T_main_arg28 m c)
def T_main_v49_0 (m : (ℓ : Loc nD τ sig) → Buf (Elt F) ℓ) (c : Dev nD) : Buf (Elt F) ((c : Thread nD τ).loc main_v49_0) := rowNorm (T_main_v17 m c)
def T_main_v49_1 (m : (ℓ : Loc nD τ sig) → Buf (Elt F) ℓ) (c : Dev nD) : Buf (Elt F) ((c : Thread nD τ).loc main_v49_1) := dotW128 (rowNorm (T_main_v17 m c)) (T_main_arg15 m c)
def T_main_c_8 (m : (ℓ : Loc nD τ sig) → Buf (Elt F) ℓ) (c : Dev nD) : Buf (Elt F) ((c : Thread nD τ).loc main_c_8) := (constantI S_ 32 0#32)
def T_main_v50 (m : (ℓ : Loc nD τ sig) → Buf (Elt F) ℓ) (c : Dev nD) : Buf (Elt F) ((c : Thread nD τ).loc main_v50) := (broadcastInDim S1000000 ![] bcast_S_S1000000 : (⟨S_, .i32⟩ : BufTy).Contents (Elt F) → (⟨S1000000, .i32⟩ : BufTy).Contents (Elt F)) (T_main_c_8 m c)
def T_main_v51 (m : (ℓ : Loc nD τ sig) → Buf (Elt F) ℓ) (c : Dev nD) : Buf (Elt F) ((c : Thread nD τ).loc main_v51) := (cmpi .slt : (⟨S1000000, .i32⟩ : BufTy).Contents (Elt F) → (⟨S1000000, .i32⟩ : BufTy).Contents (Elt F) → (⟨S1000000, .i1⟩ : BufTy).Contents (Elt F)) (T_main_v1 m c) (T_main_v50 m c)
def T_main_c_9 (m : (ℓ : Loc nD τ sig) → Buf (Elt F) ℓ) (c : Dev nD) : Buf (Elt F) ((c : Thread nD τ).loc main_c_9) := (constantI S_ 32 60000#32)
def T_main_v52 (m : (ℓ : Loc nD τ sig) → Buf (Elt F) ℓ) (c : Dev nD) : Buf (Elt F) ((c : Thread nD τ).loc main_v52) := (broadcastInDim S1000000 ![] bcast_S_S1000000 : (⟨S_, .i32⟩ : BufTy).Contents (Elt F) → (⟨S1000000, .i32⟩ : BufTy).Contents (Elt F)) (T_main_c_9 m c)
def T_main_v53 (m : (ℓ : Loc nD τ sig) → Buf (Elt F) ℓ) (c : Dev nD) : Buf (Elt F) ((c : Thread nD τ).loc main_v53) := (addi : (⟨S1000000, .i32⟩ : BufTy).Contents (Elt F) → (⟨S1000000, .i32⟩ : BufTy).Contents (Elt F) → (⟨S1000000, .i32⟩ : BufTy).Contents (Elt F)) (T_main_v1 m c) (T_main_v52 m c)
def T_main_v54 (m : (ℓ : Loc nD τ sig) → Buf (Elt F) ℓ) (c : Dev nD) : Buf (Elt F) ((c : Thread nD τ).loc main_v54) := (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (T_main_v51 m c) (T_main_v53 m c) (T_main_v1 m c)
def T_main_v55 (m : (ℓ : Loc nD τ sig) → Buf (Elt F) ℓ) (c : Dev nD) : Buf (Elt F) ((c : Thread nD τ).loc main_v55) := (broadcastInDim S1000000x1 ![0] bcast_S1000000_S1000000x1_0 : (⟨S1000000, .i32⟩ : BufTy).Contents (Elt F) → (⟨S1000000x1, .i32⟩ : BufTy).Contents (Elt F)) (T_main_v54 m c)
def T_main_v56 (m : (ℓ : Loc nD τ sig) → Buf (Elt F) ℓ) (c : Dev nD) : Buf (Elt F) ((c : Thread nD τ).loc main_v56) := ((fun x i => Host.gather gather_S60000x128_S1000000x1_S1000000x128_1_0_n_n_0_1_1128 x i) : (⟨S60000x128, .f32⟩ : BufTy).Contents (Elt F) → (⟨S1000000x1, .i32⟩ : BufTy).Contents (Elt F) → (⟨S1000000x128, .f32⟩ : BufTy).Contents (Elt F)) (T_main_v49_1 m c) (T_main_v55 m c)
def T_main_cst_10 (m : (ℓ : Loc nD τ sig) → Buf (Elt F) ℓ) (c : Dev nD) : Buf (Elt F) ((c : Thread nD τ).loc main_cst_10) := (constant S_ .f32 0x00000000#32)
def T_main_v57 (m : (ℓ : Loc nD τ sig) → Buf (Elt F) ℓ) (c : Dev nD) : Buf (Elt F) ((c : Thread nD τ).loc main_v57) := (broadcastInDim S60000x128 ![] bcast_S_S60000x128 : (⟨S_, .f32⟩ : BufTy).Contents (Elt F) → (⟨S60000x128, .f32⟩ : BufTy).Contents (Elt F)) (T_main_cst_10 m c)
def T_main_v58 (m : (ℓ : Loc nD τ sig) → Buf (Elt F) ℓ) (c : Dev nD) : Buf (Elt F) ((c : Thread nD τ).loc main_v58) := (broadcastInDim S1000000x1 ![0] bcast_S1000000_S1000000x1_0 : (⟨S1000000, .i32⟩ : BufTy).Contents (Elt F) → (⟨S1000000x1, .i32⟩ : BufTy).Contents (Elt F)) (T_main_v3 m c)
def T_main_v59 (m : (ℓ : Loc nD τ sig) → Buf (Elt F) ℓ) (c : Dev nD) : Buf (Elt F) ((c : Thread nD τ).loc main_v59) := ((fun x i u => Host.scatterAdd scatter_S60000x128_S1000000x1_S1000000x128_1_0_0_1 x i u) : (⟨S60000x128, .f32⟩ : BufTy).Contents (Elt F) → (⟨S1000000x1, .i32⟩ : BufTy).Contents (Elt F) → (⟨S1000000x128, .f32⟩ : BufTy).Contents (Elt F) → (⟨S60000x128, .f32⟩ : BufTy).Contents (Elt F)) (T_main_v57 m c) (T_main_v58 m c) (T_main_v56 m c)
def T_main_v60 (m : (ℓ : Loc nD τ sig) → Buf (Elt F) ℓ) (c : Dev nD) : Buf (Elt F) ((c : Thread nD τ).loc main_v60) := (broadcastInDim S60000x128 ![0, 1] bcast_S60000x1_S60000x128_0_1 : (⟨S60000x1, .f32⟩ : BufTy).Contents (Elt F) → (⟨S60000x128, .f32⟩ : BufTy).Contents (Elt F)) (T_main_v12 m c)
def T_main_v61 (m : (ℓ : Loc nD τ sig) → Buf (Elt F) ℓ) (c : Dev nD) : Buf (Elt F) ((c : Thread nD τ).loc main_v61) := (mulf : (⟨S60000x128, .f32⟩ : BufTy).Contents (Elt F) → (⟨S60000x128, .f32⟩ : BufTy).Contents (Elt F) → (⟨S60000x128, .f32⟩ : BufTy).Contents (Elt F)) (T_main_v59 m c) (T_main_v60 m c)
def T_main_v62 (m : (ℓ : Loc nD τ sig) → Buf (Elt F) ℓ) (c : Dev nD) : Buf (Elt F) ((c : Thread nD τ).loc main_v62) := ((extractStridedSlice S64x128 ![0, 0] · slices_S64x192_S64x128_0_0) : (⟨S64x192, .f32⟩ : BufTy).Contents (Elt F) → (⟨S64x128, .f32⟩ : BufTy).Contents (Elt F)) (T_main_arg29 m c)
def T_main_v63 (m : (ℓ : Loc nD τ sig) → Buf (Elt F) ℓ) (c : Dev nD) : Buf (Elt F) ((c : Thread nD τ).loc main_v63) := ((extractStridedSlice S64x64 ![0, 128] · slices_S64x192_S64x64_0_128) : (⟨S64x192, .f32⟩ : BufTy).Contents (Elt F) → (⟨S64x64, .f32⟩ : BufTy).Contents (Elt F)) (T_main_arg29 m c)
def T_main_v64_0 (m : (ℓ : Loc nD τ sig) → Buf (Elt F) ℓ) (c : Dev nD) : Buf (Elt F) ((c : Thread nD τ).loc main_v64_0) := fused1 (T_main_v49_0 m c) (T_main_v61 m c) (T_main_v13 m c) (T_main_arg21 m c) (T_main_arg22 m c) (T_main_arg29 m c) (T_main_arg30 m c)
def T_main_v64_1 (m : (ℓ : Loc nD τ sig) → Buf (Elt F) ℓ) (c : Dev nD) : Buf (Elt F) ((c : Thread nD τ).loc main_v64_1) := dotW64 (fused1 (T_main_v49_0 m c) (T_main_v61 m c) (T_main_v13 m c) (T_main_arg21 m c) (T_main_arg22 m c) (T_main_arg29 m c) (T_main_arg30 m c)) (T_main_arg16 m c)
def T_main_c_11 (m : (ℓ : Loc nD τ sig) → Buf (Elt F) ℓ) (c : Dev nD) : Buf (Elt F) ((c : Thread nD τ).loc main_c_11) := (constantI S_ 32 0#32)
def T_main_v65 (m : (ℓ : Loc nD τ sig) → Buf (Elt F) ℓ) (c : Dev nD) : Buf (Elt F) ((c : Thread nD τ).loc main_v65) := (broadcastInDim S1000000 ![] bcast_S_S1000000 : (⟨S_, .i32⟩ : BufTy).Contents (Elt F) → (⟨S1000000, .i32⟩ : BufTy).Contents (Elt F)) (T_main_c_11 m c)
def T_main_v66 (m : (ℓ : Loc nD τ sig) → Buf (Elt F) ℓ) (c : Dev nD) : Buf (Elt F) ((c : Thread nD τ).loc main_v66) := (cmpi .slt : (⟨S1000000, .i32⟩ : BufTy).Contents (Elt F) → (⟨S1000000, .i32⟩ : BufTy).Contents (Elt F) → (⟨S1000000, .i1⟩ : BufTy).Contents (Elt F)) (T_main_v1 m c) (T_main_v65 m c)
def T_main_c_12 (m : (ℓ : Loc nD τ sig) → Buf (Elt F) ℓ) (c : Dev nD) : Buf (Elt F) ((c : Thread nD τ).loc main_c_12) := (constantI S_ 32 60000#32)
def T_main_v67 (m : (ℓ : Loc nD τ sig) → Buf (Elt F) ℓ) (c : Dev nD) : Buf (Elt F) ((c : Thread nD τ).loc main_v67) := (broadcastInDim S1000000 ![] bcast_S_S1000000 : (⟨S_, .i32⟩ : BufTy).Contents (Elt F) → (⟨S1000000, .i32⟩ : BufTy).Contents (Elt F)) (T_main_c_12 m c)
def T_main_v68 (m : (ℓ : Loc nD τ sig) → Buf (Elt F) ℓ) (c : Dev nD) : Buf (Elt F) ((c : Thread nD τ).loc main_v68) := (addi : (⟨S1000000, .i32⟩ : BufTy).Contents (Elt F) → (⟨S1000000, .i32⟩ : BufTy).Contents (Elt F) → (⟨S1000000, .i32⟩ : BufTy).Contents (Elt F)) (T_main_v1 m c) (T_main_v67 m c)
def T_main_v69 (m : (ℓ : Loc nD τ sig) → Buf (Elt F) ℓ) (c : Dev nD) : Buf (Elt F) ((c : Thread nD τ).loc main_v69) := (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) (T_main_v66 m c) (T_main_v68 m c) (T_main_v1 m c)
def T_main_v70 (m : (ℓ : Loc nD τ sig) → Buf (Elt F) ℓ) (c : Dev nD) : Buf (Elt F) ((c : Thread nD τ).loc main_v70) := (broadcastInDim S1000000x1 ![0] bcast_S1000000_S1000000x1_0 : (⟨S1000000, .i32⟩ : BufTy).Contents (Elt F) → (⟨S1000000x1, .i32⟩ : BufTy).Contents (Elt F)) (T_main_v69 m c)
def T_main_v71 (m : (ℓ : Loc nD τ sig) → Buf (Elt F) ℓ) (c : Dev nD) : Buf (Elt F) ((c : Thread nD τ).loc main_v71) := ((fun x i => Host.gather gather_S60000x64_S1000000x1_S1000000x64_1_0_n_n_0_1_164 x i) : (⟨S60000x64, .f32⟩ : BufTy).Contents (Elt F) → (⟨S1000000x1, .i32⟩ : BufTy).Contents (Elt F) → (⟨S1000000x64, .f32⟩ : BufTy).Contents (Elt F)) (T_main_v64_1 m c) (T_main_v70 m c)
def T_main_cst_13 (m : (ℓ : Loc nD τ sig) → Buf (Elt F) ℓ) (c : Dev nD) : Buf (Elt F) ((c : Thread nD τ).loc main_cst_13) := (constant S_ .f32 0x00000000#32)
def T_main_v72 (m : (ℓ : Loc nD τ sig) → Buf (Elt F) ℓ) (c : Dev nD) : Buf (Elt F) ((c : Thread nD τ).loc main_v72) := (broadcastInDim S60000x64 ![] bcast_S_S60000x64 : (⟨S_, .f32⟩ : BufTy).Contents (Elt F) → (⟨S60000x64, .f32⟩ : BufTy).Contents (Elt F)) (T_main_cst_13 m c)
def T_main_v73 (m : (ℓ : Loc nD τ sig) → Buf (Elt F) ℓ) (c : Dev nD) : Buf (Elt F) ((c : Thread nD τ).loc main_v73) := (broadcastInDim S1000000x1 ![0] bcast_S1000000_S1000000x1_0 : (⟨S1000000, .i32⟩ : BufTy).Contents (Elt F) → (⟨S1000000x1, .i32⟩ : BufTy).Contents (Elt F)) (T_main_v3 m c)
def T_main_v74 (m : (ℓ : Loc nD τ sig) → Buf (Elt F) ℓ) (c : Dev nD) : Buf (Elt F) ((c : Thread nD τ).loc main_v74) := ((fun x i u => Host.scatterAdd scatter_S60000x64_S1000000x1_S1000000x64_1_0_0_1 x i u) : (⟨S60000x64, .f32⟩ : BufTy).Contents (Elt F) → (⟨S1000000x1, .i32⟩ : BufTy).Contents (Elt F) → (⟨S1000000x64, .f32⟩ : BufTy).Contents (Elt F) → (⟨S60000x64, .f32⟩ : BufTy).Contents (Elt F)) (T_main_v72 m c) (T_main_v73 m c) (T_main_v71 m c)
def T_main_v75 (m : (ℓ : Loc nD τ sig) → Buf (Elt F) ℓ) (c : Dev nD) : Buf (Elt F) ((c : Thread nD τ).loc main_v75) := (broadcastInDim S60000x64 ![0, 1] bcast_S60000x1_S60000x64_0_1 : (⟨S60000x1, .f32⟩ : BufTy).Contents (Elt F) → (⟨S60000x64, .f32⟩ : BufTy).Contents (Elt F)) (T_main_v12 m c)
def T_main_v76 (m : (ℓ : Loc nD τ sig) → Buf (Elt F) ℓ) (c : Dev nD) : Buf (Elt F) ((c : Thread nD τ).loc main_v76) := (mulf : (⟨S60000x64, .f32⟩ : BufTy).Contents (Elt F) → (⟨S60000x64, .f32⟩ : BufTy).Contents (Elt F) → (⟨S60000x64, .f32⟩ : BufTy).Contents (Elt F)) (T_main_v74 m c) (T_main_v75 m c)
def T_main_v77 (m : (ℓ : Loc nD τ sig) → Buf (Elt F) ℓ) (c : Dev nD) : Buf (Elt F) ((c : Thread nD τ).loc main_v77) := ((extractStridedSlice S64x64 ![0, 0] · slices_S64x128_S64x64_0_0) : (⟨S64x128, .f32⟩ : BufTy).Contents (Elt F) → (⟨S64x64, .f32⟩ : BufTy).Contents (Elt F)) (T_main_arg31 m c)
def T_main_v78 (m : (ℓ : Loc nD τ sig) → Buf (Elt F) ℓ) (c : Dev nD) : Buf (Elt F) ((c : Thread nD τ).loc main_v78) := ((extractStridedSlice S64x64 ![0, 64] · slices_S64x128_S64x64_0_64) : (⟨S64x128, .f32⟩ : BufTy).Contents (Elt F) → (⟨S64x64, .f32⟩ : BufTy).Contents (Elt F)) (T_main_arg31 m c)
def T_main_v79 (m : (ℓ : Loc nD τ sig) → Buf (Elt F) ℓ) (c : Dev nD) : Buf (Elt F) ((c : Thread nD τ).loc main_v79) := fused2 (T_main_v64_0 m c) (T_main_v76 m c) (T_main_v13 m c) (T_main_arg23 m c) (T_main_arg24 m c) (T_main_arg31 m c) (T_main_arg32 m c)
def T_main_v80 (m : (ℓ : Loc nD τ sig) → Buf (Elt F) ℓ) (c : Dev nD) : Buf (Elt F) ((c : Thread nD τ).loc main_v80) := (addf : (⟨S60000x64, .f32⟩ : BufTy).Contents (Elt F) → (⟨S60000x64, .f32⟩ : BufTy).Contents (Elt F) → (⟨S60000x64, .f32⟩ : BufTy).Contents (Elt F)) (T_main_v48 m c) (T_main_v79 m c)
def T_main_cst_14 (m : (ℓ : Loc nD τ sig) → Buf (Elt F) ℓ) (c : Dev nD) : Buf (Elt F) ((c : Thread nD τ).loc main_cst_14) := (constant S_ .f32 0x40000000#32)
def T_main_v81 (m : (ℓ : Loc nD τ sig) → Buf (Elt F) ℓ) (c : Dev nD) : Buf (Elt F) ((c : Thread nD τ).loc main_v81) := (broadcastInDim S60000x64 ![] bcast_S_S60000x64 : (⟨S_, .f32⟩ : BufTy).Contents (Elt F) → (⟨S60000x64, .f32⟩ : BufTy).Contents (Elt F)) (T_main_cst_14 m c)
def T_main_v82 (m : (ℓ : Loc nD τ sig) → Buf (Elt F) ℓ) (c : Dev nD) : Buf (Elt F) ((c : Thread nD τ).loc main_v82) := (Host.divf : (⟨S60000x64, .f32⟩ : BufTy).Contents (Elt F) → (⟨S60000x64, .f32⟩ : BufTy).Contents (Elt F) → (⟨S60000x64, .f32⟩ : BufTy).Contents (Elt F)) (T_main_v80 m c) (T_main_v81 m c)
def T_main_v83 (m : (ℓ : Loc nD τ sig) → Buf (Elt F) ℓ) (c : Dev nD) : Buf (Elt F) ((c : Thread nD τ).loc main_v83) := ((extractStridedSlice S20000x64 ![0, 0] · slices_S60000x64_S20000x64_0_0) : (⟨S60000x64, .f32⟩ : BufTy).Contents (Elt F) → (⟨S20000x64, .f32⟩ : BufTy).Contents (Elt F)) (T_main_v82 m c)
def T_main_v84 (m : (ℓ : Loc nD τ sig) → Buf (Elt F) ℓ) (c : Dev nD) : Buf (Elt F) ((c : Thread nD τ).loc main_v84) := ((extractStridedSlice S40000x64 ![20000, 0] · slices_S60000x64_S40000x64_20000_0) : (⟨S60000x64, .f32⟩ : BufTy).Contents (Elt F) → (⟨S40000x64, .f32⟩ : BufTy).Contents (Elt F)) (T_main_v82 m c)
def T_main_c_15 (m : (ℓ : Loc nD τ sig) → Buf (Elt F) ℓ) (c : Dev nD) : Buf (Elt F) ((c : Thread nD τ).loc main_c_15) := (constantI S_ 32 0#32)
def T_main_v85 (m : (ℓ : Loc nD τ sig) → Buf (Elt F) ℓ) (c : Dev nD) : Buf (Elt F) ((c : Thread nD τ).loc main_v85) := (broadcastInDim S8192 ![] bcast_S_S8192 : (⟨S_, .i32⟩ : BufTy).Contents (Elt F) → (⟨S8192, .i32⟩ : BufTy).Contents (Elt F)) (T_main_c_15 m c)
def T_main_v86 (m : (ℓ : Loc nD τ sig) → Buf (Elt F) ℓ) (c : Dev nD) : Buf (Elt F) ((c : Thread nD τ).loc main_v86) := (cmpi .slt : (⟨S8192, .i32⟩ : BufTy).Contents (Elt F) → (⟨S8192, .i32⟩ : BufTy).Contents (Elt F) → (⟨S8192, .i1⟩ : BufTy).Contents (Elt F)) (T_main_arg1 m c) (T_main_v85 m c)
def T_main_c_16 (m : (ℓ : Loc nD τ sig) → Buf (Elt F) ℓ) (c : Dev nD) : Buf (Elt F) ((c : Thread nD τ).loc main_c_16) := (constantI S_ 32 20000#32)
def T_main_v87 (m : (ℓ : Loc nD τ sig) → Buf (Elt F) ℓ) (c : Dev nD) : Buf (Elt F) ((c : Thread nD τ).loc main_v87) := (broadcastInDim S8192 ![] bcast_S_S8192 : (⟨S_, .i32⟩ : BufTy).Contents (Elt F) → (⟨S8192, .i32⟩ : BufTy).Contents (Elt F)) (T_main_c_16 m c)
def T_main_v88 (m : (ℓ : Loc nD τ sig) → Buf (Elt F) ℓ) (c : Dev nD) : Buf (Elt F) ((c : Thread nD τ).loc main_v88) := (addi : (⟨S8192, .i32⟩ : BufTy).Contents (Elt F) → (⟨S8192, .i32⟩ : BufTy).Contents (Elt F) → (⟨S8192, .i32⟩ : BufTy).Contents (Elt F)) (T_main_arg1 m c) (T_main_v87 m c)
def T_main_v89 (m : (ℓ : Loc nD τ sig) → Buf (Elt F) ℓ) (c : Dev nD) : Buf (Elt F) ((c : Thread nD τ).loc main_v89) := (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (T_main_v86 m c) (T_main_v88 m c) (T_main_arg1 m c)
def T_main_v90 (m : (ℓ : Loc nD τ sig) → Buf (Elt F) ℓ) (c : Dev nD) : Buf (Elt F) ((c : Thread nD τ).loc main_v90) := (broadcastInDim S8192x1 ![0] bcast_S8192_S8192x1_0 : (⟨S8192, .i32⟩ : BufTy).Contents (Elt F) → (⟨S8192x1, .i32⟩ : BufTy).Contents (Elt F)) (T_main_v89 m c)
def T_main_v91 (m : (ℓ : Loc nD τ sig) → Buf (Elt F) ℓ) (c : Dev nD) : Buf (Elt F) ((c : Thread nD τ).loc main_v91) := ((fun x i => Host.gather gather_S20000x64_S8192x1_S8192x64_1_0_n_n_0_1_164 x i) : (⟨S20000x64, .f32⟩ : BufTy).Contents (Elt F) → (⟨S8192x1, .i32⟩ : BufTy).Contents (Elt F) → (⟨S8192x64, .f32⟩ : BufTy).Contents (Elt F)) (T_main_v83 m c) (T_main_v90 m c)
def T_main_c_17 (m : (ℓ : Loc nD τ sig) → Buf (Elt F) ℓ) (c : Dev nD) : Buf (Elt F) ((c : Thread nD τ).loc main_c_17) := (constantI S_ 32 0#32)
def T_main_v92 (m : (ℓ : Loc nD τ sig) → Buf (Elt F) ℓ) (c : Dev nD) : Buf (Elt F) ((c : Thread nD τ).loc main_v92) := (broadcastInDim S8192 ![] bcast_S_S8192 : (⟨S_, .i32⟩ : BufTy).Contents (Elt F) → (⟨S8192, .i32⟩ : BufTy).Contents (Elt F)) (T_main_c_17 m c)
def T_main_v93 (m : (ℓ : Loc nD τ sig) → Buf (Elt F) ℓ) (c : Dev nD) : Buf (Elt F) ((c : Thread nD τ).loc main_v93) := (cmpi .slt : (⟨S8192, .i32⟩ : BufTy).Contents (Elt F) → (⟨S8192, .i32⟩ : BufTy).Contents (Elt F) → (⟨S8192, .i1⟩ : BufTy).Contents (Elt F)) (T_main_arg2 m c) (T_main_v92 m c)
def T_main_c_18 (m : (ℓ : Loc nD τ sig) → Buf (Elt F) ℓ) (c : Dev nD) : Buf (Elt F) ((c : Thread nD τ).loc main_c_18) := (constantI S_ 32 40000#32)
def T_main_v94 (m : (ℓ : Loc nD τ sig) → Buf (Elt F) ℓ) (c : Dev nD) : Buf (Elt F) ((c : Thread nD τ).loc main_v94) := (broadcastInDim S8192 ![] bcast_S_S8192 : (⟨S_, .i32⟩ : BufTy).Contents (Elt F) → (⟨S8192, .i32⟩ : BufTy).Contents (Elt F)) (T_main_c_18 m c)
def T_main_v95 (m : (ℓ : Loc nD τ sig) → Buf (Elt F) ℓ) (c : Dev nD) : Buf (Elt F) ((c : Thread nD τ).loc main_v95) := (addi : (⟨S8192, .i32⟩ : BufTy).Contents (Elt F) → (⟨S8192, .i32⟩ : BufTy).Contents (Elt F) → (⟨S8192, .i32⟩ : BufTy).Contents (Elt F)) (T_main_arg2 m c) (T_main_v94 m c)
def T_main_v96 (m : (ℓ : Loc nD τ sig) → Buf (Elt F) ℓ) (c : Dev nD) : Buf (Elt F) ((c : Thread nD τ).loc main_v96) := (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (T_main_v93 m c) (T_main_v95 m c) (T_main_arg2 m c)
def T_main_v97 (m : (ℓ : Loc nD τ sig) → Buf (Elt F) ℓ) (c : Dev nD) : Buf (Elt F) ((c : Thread nD τ).loc main_v97) := (broadcastInDim S8192x1 ![0] bcast_S8192_S8192x1_0 : (⟨S8192, .i32⟩ : BufTy).Contents (Elt F) → (⟨S8192x1, .i32⟩ : BufTy).Contents (Elt F)) (T_main_v96 m c)
def T_main_v98 (m : (ℓ : Loc nD τ sig) → Buf (Elt F) ℓ) (c : Dev nD) : Buf (Elt F) ((c : Thread nD τ).loc main_v98) := ((fun x i => Host.gather gather_S40000x64_S8192x1_S8192x64_1_0_n_n_0_1_164 x i) : (⟨S40000x64, .f32⟩ : BufTy).Contents (Elt F) → (⟨S8192x1, .i32⟩ : BufTy).Contents (Elt F) → (⟨S8192x64, .f32⟩ : BufTy).Contents (Elt F)) (T_main_v84 m c) (T_main_v97 m c)
def T_main_v99 (m : (ℓ : Loc nD τ sig) → Buf (Elt F) ℓ) (c : Dev nD) : Buf (Elt F) ((c : Thread nD τ).loc main_v99) := (mulf : (⟨S8192x64, .f32⟩ : BufTy).Contents (Elt F) → (⟨S8192x64, .f32⟩ : BufTy).Contents (Elt F) → (⟨S8192x64, .f32⟩ : BufTy).Contents (Elt F)) (T_main_v91 m c) (T_main_v98 m c)
def T_main_cst_19 (m : (ℓ : Loc nD τ sig) → Buf (Elt F) ℓ) (c : Dev nD) : Buf (Elt F) ((c : Thread nD τ).loc main_cst_19) := (constant S_ .f32 0x00000000#32)
def T_main_v100 (m : (ℓ : Loc nD τ sig) → Buf (Elt F) ℓ) (c : Dev nD) : Buf (Elt F) ((c : Thread nD τ).loc main_v100) := ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)) (T_main_v99 m c) (T_main_cst_19 m c)

end Cert.KernelIdeal.Trace

end
-- ==== Proof.ProjValueV.lean ====
/- The projection x ↦ x · wᵀ + b of a [40000, 2048] array x by a [128, 2048] weight w and a [128] bias b, computed
   block by block over 40 row blocks of 1000 rows, is the whole-array projection.
   At the extended reals both sides, read at an index (i, j), are (∑ k, x(i,k) · w(j,k)) + b(j): a block product
   accumulated into a zero splat is the plain sum over the contraction coordinate, as is the host's product; narrowing
   the operands is the identity; the transposed weight at (k, j) is the weight at (j, k); the bias cast to one row and
   laid along every row reads b(j). Block row r of grid point t is array row 1000·t + r (the printed index maps are
   decided once over the 40 points), the weight and bias blocks are the whole arrays, and the 40 output blocks cover
   the 40000 rows (row i lies in the block of point i / 1000), so the array left after the last point is the
   whole-array projection of the arrays the region is entered with. -/
import proofs.«159630_j86646670230227_1_alg».proof.Proof.Gen.KernelIdeal.Frame
import proofs.«159630_j86646670230227_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.ProjValueV

open Cert.KernelIdeal Cert.KernelIdeal.Gen

/-! ## The block product at an index -/

/-- Axis 0 of the left operand's index is the output row. -/
theorem lhs_0 (i : S1000x128.Idx) (q : dot_S1000x2048_S2048x128_S1000x128_1_0_0_1_n_n.contr.Idx) :
    (dot_S1000x2048_S2048x128_S1000x128_1_0_0_1_n_n.lhsIdx i q 0).val = (i 0).val := by
  unfold DotDims.lhsIdx
  rw [dif_neg (show ¬(0 : Fin S1000x2048.rank) ∈ dot_S1000x2048_S2048x128_S1000x128_1_0_0_1_n_n.lhsBatch by decide),
    dif_pos (show (0 : Fin S1000x2048.rank) ∈ dot_S1000x2048_S2048x128_S1000x128_1_0_0_1_n_n.lhsNonContracting by decide)]
  rfl
/-- Axis 1 of the left operand's index is the contraction coordinate. -/
theorem lhs_1 (i : S1000x128.Idx) (q : dot_S1000x2048_S2048x128_S1000x128_1_0_0_1_n_n.contr.Idx) :
    (dot_S1000x2048_S2048x128_S1000x128_1_0_0_1_n_n.lhsIdx i q 1).val = (q ⟨0, by decide⟩).val :=
  dot_S1000x2048_S2048x128_S1000x128_1_0_0_1_n_n.lhsIdx_val_of_single rfl i q
/-- Axis 0 of the right operand's index is the contraction coordinate. -/
theorem rhs_0 (i : S1000x128.Idx) (q : dot_S1000x2048_S2048x128_S1000x128_1_0_0_1_n_n.contr.Idx) :
    (dot_S1000x2048_S2048x128_S1000x128_1_0_0_1_n_n.rhsIdx i q 0).val = (q ⟨0, by decide⟩).val :=
  dot_S1000x2048_S2048x128_S1000x128_1_0_0_1_n_n.rhsIdx_val_of_single rfl i q
/-- Axis 1 of the right operand's index is the output column. -/
theorem rhs_1 (i : S1000x128.Idx) (q : dot_S1000x2048_S2048x128_S1000x128_1_0_0_1_n_n.contr.Idx) :
    (dot_S1000x2048_S2048x128_S1000x128_1_0_0_1_n_n.rhsIdx i q 1).val = (i 1).val := by
  unfold DotDims.rhsIdx
  rw [dif_neg (show ¬(1 : Fin S2048x128.rank) ∈ dot_S1000x2048_S2048x128_S1000x128_1_0_0_1_n_n.rhsBatch by decide),
    dif_pos (show (1 : Fin S2048x128.rank) ∈ dot_S1000x2048_S2048x128_S1000x128_1_0_0_1_n_n.rhsNonContracting by decide)]
  rfl

/-- The left operand's index of the block product at output (r, j) and contraction coordinate k is (r, k). -/
theorem lhsIdx_eq (r : Fin 1000) (j : Fin 128) (k : Fin 2048) :
    dot_S1000x2048_S2048x128_S1000x128_1_0_0_1_n_n.lhsIdx (ix2 r j)
      ((contrEquiv1 dot_S1000x2048_S2048x128_S1000x128_1_0_0_1_n_n 2048 rfl rfl).symm k) = ix2 r k := by
  have hk := contrEquiv1_symm_val dot_S1000x2048_S2048x128_S1000x128_1_0_0_1_n_n 2048 rfl rfl k
  exact funext fun a => Fin.ext (by
    match a with
    | ⟨0, _⟩ => exact lhs_0 _ _
    | ⟨1, _⟩ => exact (lhs_1 _ _).trans hk)

/-- The right operand's index there is (k, j). -/
theorem rhsIdx_eq (r : Fin 1000) (j : Fin 128) (k : Fin 2048) :
    dot_S1000x2048_S2048x128_S1000x128_1_0_0_1_n_n.rhsIdx (ix2 r j)
      ((contrEquiv1 dot_S1000x2048_S2048x128_S1000x128_1_0_0_1_n_n 2048 rfl rfl).symm k) = ix2 k j := by
  have hk := contrEquiv1_symm_val dot_S1000x2048_S2048x128_S1000x128_1_0_0_1_n_n 2048 rfl rfl k
  exact funext fun a => Fin.ext (by
    match a with
    | ⟨0, _⟩ => exact (rhs_0 _ _).trans hk
    | ⟨1, _⟩ => exact rhs_1 _ _)

/-- What the body stores, at (r, j): the r-th row of the x block against the j-th row of w, plus b(j). The product
    accumulates into a zero splat, so it is the plain sum; the narrowing of the operands is the identity on the
    extended reals; the transposed weight at (k, j) is the weight at (j, k); the bias is cast to one row and laid
    along every row. -/
theorem pay_apply (x0 : Vec Ideal S1000x2048 .f32) (x1 : Vec Ideal S128x2048 .f32) (x2 : Vec Ideal S128 .f32)
    (r : Fin 1000) (j : Fin 128) :
    k0_pay1 (F := Ideal) x0 x1 x2 (ix2 r j)
      = (∑ k : Fin 2048, (x0 (ix2 r k) : EReal) * x1 (ix2 j k)) + x2 (ix1 j) := by
  unfold k0_pay1
  dsimp only
  rw [addf_apply]
  simp only [matmul]
  rw [Ideal.matmul_constant_zero_apply,
    ← Equiv.sum_comp (contrEquiv1 dot_S1000x2048_S2048x128_S1000x128_1_0_0_1_n_n 2048 rfl rfl).symm,
    broadcastTo_1b_ab_apply, shapeCast_a_1a_apply]
  congr 1
  refine Finset.sum_congr rfl fun k _ => ?_
  rw [lhsIdx_eq, rhsIdx_eq, transpose_ix2_apply]
  rfl

/-! ## The whole-array projection, read at an index -/

/-- The whole-array projection: the product of x with the transposed weight, plus the bias laid along every row. -/
abbrev proj (x : (⟨Cert.ReferenceIdeal.S40000x2048, .f32⟩ : BufTy).Contents (Elt Ideal))
    (w : (⟨Cert.ReferenceIdeal.S128x2048, .f32⟩ : BufTy).Contents (Elt Ideal))
    (b : (⟨Cert.ReferenceIdeal.S128, .f32⟩ : BufTy).Contents (Elt Ideal)) :
    (⟨Cert.ReferenceIdeal.S40000x128, .f32⟩ : BufTy).Contents (Elt Ideal) :=
  addf (F := Ideal) (Host.dotGeneral (F := Ideal) (φ₁ := .f32) (φ₂ := .f32) Cert.ReferenceIdeal.dot_S40000x2048_S2048x128_S40000x128_1_0_0_1_n_n none x
      (transpose Cert.ReferenceIdeal.S2048x128 [1, 0] w Cert.ReferenceIdeal.Facts₀.transposes_S128x2048_S2048x128_1_0))
    (broadcastInDim Cert.ReferenceIdeal.S40000x128 ![0, 1] Cert.ReferenceIdeal.Facts₀.bcast_S1x128_S40000x128_0_1
      (broadcastInDim Cert.ReferenceIdeal.S1x128 ![1] Cert.ReferenceIdeal.Facts₀.bcast_S128_S1x128_1 b))

/-- Axis 0 of the left operand's index of the whole-array product is the output row. -/
theorem rlhs_0 (i : Cert.ReferenceIdeal.S40000x128.Idx) (q : Cert.ReferenceIdeal.dot_S40000x2048_S2048x128_S40000x128_1_0_0_1_n_n.contr.Idx) :
    (Cert.ReferenceIdeal.dot_S40000x2048_S2048x128_S40000x128_1_0_0_1_n_n.lhsIdx i q 0).val = (i 0).val := by
  unfold DotDims.lhsIdx
  rw [dif_neg (show ¬(0 : Fin Cert.ReferenceIdeal.S40000x2048.rank) ∈ Cert.ReferenceIdeal.dot_S40000x2048_S2048x128_S40000x128_1_0_0_1_n_n.lhsBatch by decide),
    dif_pos (show (0 : Fin Cert.ReferenceIdeal.S40000x2048.rank) ∈ Cert.ReferenceIdeal.dot_S40000x2048_S2048x128_S40000x128_1_0_0_1_n_n.lhsNonContracting by decide)]
  rfl
/-- Axis 1 of it is the contraction coordinate. -/
theorem rlhs_1 (i : Cert.ReferenceIdeal.S40000x128.Idx) (q : Cert.ReferenceIdeal.dot_S40000x2048_S2048x128_S40000x128_1_0_0_1_n_n.contr.Idx) :
    (Cert.ReferenceIdeal.dot_S40000x2048_S2048x128_S40000x128_1_0_0_1_n_n.lhsIdx i q 1).val = (q ⟨0, by decide⟩).val :=
  Cert.ReferenceIdeal.dot_S40000x2048_S2048x128_S40000x128_1_0_0_1_n_n.lhsIdx_val_of_single rfl i q
/-- Axis 0 of the right operand's index is the contraction coordinate. -/
theorem rrhs_0 (i : Cert.ReferenceIdeal.S40000x128.Idx) (q : Cert.ReferenceIdeal.dot_S40000x2048_S2048x128_S40000x128_1_0_0_1_n_n.contr.Idx) :
    (Cert.ReferenceIdeal.dot_S40000x2048_S2048x128_S40000x128_1_0_0_1_n_n.rhsIdx i q 0).val = (q ⟨0, by decide⟩).val :=
  Cert.ReferenceIdeal.dot_S40000x2048_S2048x128_S40000x128_1_0_0_1_n_n.rhsIdx_val_of_single rfl i q
/-- Axis 1 of it is the output column. -/
theorem rrhs_1 (i : Cert.ReferenceIdeal.S40000x128.Idx) (q : Cert.ReferenceIdeal.dot_S40000x2048_S2048x128_S40000x128_1_0_0_1_n_n.contr.Idx) :
    (Cert.ReferenceIdeal.dot_S40000x2048_S2048x128_S40000x128_1_0_0_1_n_n.rhsIdx i q 1).val = (i 1).val := by
  unfold DotDims.rhsIdx
  rw [dif_neg (show ¬(1 : Fin Cert.ReferenceIdeal.S2048x128.rank) ∈ Cert.ReferenceIdeal.dot_S40000x2048_S2048x128_S40000x128_1_0_0_1_n_n.rhsBatch by decide),
    dif_pos (show (1 : Fin Cert.ReferenceIdeal.S2048x128.rank) ∈ Cert.ReferenceIdeal.dot_S40000x2048_S2048x128_S40000x128_1_0_0_1_n_n.rhsNonContracting by decide)]
  rfl

/-- The left operand's index of the whole-array product at output (i, j) and contraction coordinate k is (i, k). -/
theorem rlhsIdx_eq (i : Fin 40000) (j : Fin 128) (k : Fin 2048) :
    Cert.ReferenceIdeal.dot_S40000x2048_S2048x128_S40000x128_1_0_0_1_n_n.lhsIdx (ix2 i j)
      ((contrEquiv1 Cert.ReferenceIdeal.dot_S40000x2048_S2048x128_S40000x128_1_0_0_1_n_n 2048 rfl rfl).symm k) = ix2 i k := by
  have hk := contrEquiv1_symm_val Cert.ReferenceIdeal.dot_S40000x2048_S2048x128_S40000x128_1_0_0_1_n_n 2048 rfl rfl k
  exact funext fun a => Fin.ext (by
    match a with
    | ⟨0, _⟩ => exact rlhs_0 _ _
    | ⟨1, _⟩ => exact (rlhs_1 _ _).trans hk)

/-- The right operand's index there is (k, j). -/
theorem rrhsIdx_eq (i : Fin 40000) (j : Fin 128) (k : Fin 2048) :
    Cert.ReferenceIdeal.dot_S40000x2048_S2048x128_S40000x128_1_0_0_1_n_n.rhsIdx (ix2 i j)
      ((contrEquiv1 Cert.ReferenceIdeal.dot_S40000x2048_S2048x128_S40000x128_1_0_0_1_n_n 2048 rfl rfl).symm k) = ix2 k j := by
  have hk := contrEquiv1_symm_val Cert.ReferenceIdeal.dot_S40000x2048_S2048x128_S40000x128_1_0_0_1_n_n 2048 rfl rfl k
  exact funext fun a => Fin.ext (by
    match a with
    | ⟨0, _⟩ => exact (rrhs_0 _ _).trans hk
    | ⟨1, _⟩ => exact rrhs_1 _ _)

/-- The bias broadcast to one row reads, at (0, j), the bias at j. -/
theorem bias_row_apply (b : (⟨Cert.ReferenceIdeal.S128, .f32⟩ : BufTy).Contents (Elt Ideal)) (u : Fin 1) (j : Fin 128) :
    broadcastInDim Cert.ReferenceIdeal.S1x128 ![1] Cert.ReferenceIdeal.Facts₀.bcast_S128_S1x128_1 b (ix2 u j) = b (ix1 j) :=
  broadcastInDim_apply ![1] Cert.ReferenceIdeal.Facts₀.bcast_S128_S1x128_1 b (ix2 u j) (ix1 j) (fun a => match a with
    | ⟨0, _⟩ => by show j.val = if (128 : Nat) = 1 then 0 else j.val; rw [if_neg (by decide)])

/-- The whole-array projection at (i, j): the host's product has no accumulator and is the plain sum; the transposed
    weight at (k, j) is the weight at (j, k); the bias row laid down the rows reads the bias at j. -/
theorem proj_apply (x : (⟨Cert.ReferenceIdeal.S40000x2048, .f32⟩ : BufTy).Contents (Elt Ideal))
    (w : (⟨Cert.ReferenceIdeal.S128x2048, .f32⟩ : BufTy).Contents (Elt Ideal))
    (b : (⟨Cert.ReferenceIdeal.S128, .f32⟩ : BufTy).Contents (Elt Ideal)) (i : Fin 40000) (j : Fin 128) :
    proj x w b (ix2 i j) = (∑ k : Fin 2048, (x (ix2 i k) : EReal) * w (ix2 j k)) + b (ix1 j) := by
  unfold proj
  rw [addf_apply]
  simp only [Host.dotGeneral]
  rw [Ideal.dotGeneral_apply,
    ← Equiv.sum_comp (contrEquiv1 Cert.ReferenceIdeal.dot_S40000x2048_S2048x128_S40000x128_1_0_0_1_n_n 2048 rfl rfl).symm,
    broadcastInDim_oneRow_apply, bias_row_apply]
  congr 1
  refine Finset.sum_congr rfl fun k _ => ?_
  rw [rlhsIdx_eq, rrhsIdx_eq, transpose_ix2_apply]

/-! ## One grid point -/

/-- One grid point, over variables: if the x block holds rows 1000·n … 1000·n + 999 of the array and the other two
    blocks are the whole weight and bias, then the stored block at (r, j) is the projection at (1000·n + r, j). -/
theorem point_eq (X : (⟨Cert.ReferenceIdeal.S40000x2048, .f32⟩ : BufTy).Contents (Elt Ideal))
    (W : (⟨Cert.ReferenceIdeal.S128x2048, .f32⟩ : BufTy).Contents (Elt Ideal))
    (B : (⟨Cert.ReferenceIdeal.S128, .f32⟩ : BufTy).Contents (Elt Ideal))
    (x0 : Vec Ideal S1000x2048 .f32) (x1 : Vec Ideal S128x2048 .f32) (x2 : Vec Ideal S128 .f32) (n : ℕ)
    (h0 : ∀ (r : Fin 1000) (k : Fin 2048) (i : Fin 40000), i.val = n * 1000 + r.val → x0 (ix2 r k) = X (ix2 i k))
    (h1 : ∀ (j : Fin 128) (k : Fin 2048), x1 (ix2 j k) = W (ix2 j k))
    (h2 : ∀ j : Fin 128, x2 (ix1 j) = B (ix1 j))
    (y : S1000x128.Idx) (i : S40000x128.Idx) (hi0 : (i 0).val = n * 1000 + (y 0).val) (hi1 : (i 1).val = (y 1).val) :
    k0_pay1 (F := Ideal) x0 x1 x2 y = proj X W B i := by
  obtain ⟨r, j, rfl⟩ : ∃ (r : Fin 1000) (j : Fin 128), y = ix2 r j := ⟨y 0, y 1, eq_ix2 y⟩
  obtain ⟨p, q, rfl⟩ : ∃ (p : Fin 40000) (q : Fin 128), i = ix2 p q := ⟨i 0, i 1, eq_ix2 i⟩
  obtain rfl : q = j := Fin.ext hi1
  rw [pay_apply, proj_apply]
  congr 1
  · exact Finset.sum_congr rfl fun k _ => by rw [h0 r k p hi0, h1]
  · exact h2 q

/-! ## From the blocks to the array -/

section Blocks
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 40 grid points: the x window and the output window are at block row t,
    block column 0; the weight and the bias windows stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What grid point t writes back is block t of the projection of the arrays as the region finds them. -/
theorem flushed_eq (c : Dev nD) (t : Fin cfg0.N) :
    (dat0 (F := Ideal) V c).flushed 3 t = ((cfg0.win 3).blk t).view.read (Elt Ideal)
      (proj (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz2]
  simp only [View.ld_unit_zero (S := S1000x2048) hz2, View.ld_unit_zero (S := S128x2048) hz2, View.ld_unit_zero (S := S128) hz1]
  obtain ⟨e00, e01, e10, e11, e20, e30, e31⟩ := idx_facts t
  funext y
  show k0_pay1 (F := Ideal) (iblk0 V c 0 t) (iblk0 V c 1 t) (iblk0 V c 2 t) y
    = proj (V c (Pipeline.arrRef spec0 0)) (V c (Pipeline.arrRef spec0 1)) (V c (Pipeline.arrRef spec0 2)) (((cfg0.win 3).blk t).view.emb y)
  refine point_eq _ _ _ _ _ _ t.val ?_ ?_ ?_ y _ ?_ ?_
  · intro r k i hi
    show V c (Pipeline.arrRef spec0 0) (((cfg0.win 0).blk t).view.emb (ix2 r k)) = V c (Pipeline.arrRef spec0 0) (ix2 i k)
    congr 1
    funext a; apply Fin.ext
    match a with
    | ⟨0, _⟩ => show win0_0.index t (0 : Fin 2) * 1000 + 1 * r.val = i.val; rw [e00, hi]; omega
    | ⟨1, _⟩ => show win0_0.index t (1 : Fin 2) * 2048 + 1 * k.val = k.val; rw [e01]; omega
  · intro j k
    show V c (Pipeline.arrRef spec0 1) (((cfg0.win 1).blk t).view.emb (ix2 j k)) = V c (Pipeline.arrRef spec0 1) (ix2 j k)
    congr 1
    funext a; apply Fin.ext
    match a with
    | ⟨0, _⟩ => show win0_1.index t (0 : Fin 2) * 128 + 1 * j.val = j.val; rw [e10]; omega
    | ⟨1, _⟩ => show win0_1.index t (1 : Fin 2) * 2048 + 1 * k.val = k.val; rw [e11]; omega
  · intro j
    show V c (Pipeline.arrRef spec0 2) (((cfg0.win 2).blk t).view.emb (ix1 j)) = V c (Pipeline.arrRef spec0 2) (ix1 j)
    congr 1
    funext a; apply Fin.ext
    match a with
    | ⟨0, _⟩ => show win0_2.index t (0 : Fin 1) * 128 + 1 * j.val = j.val; rw [e20]; omega
  · show win0_3.index t (0 : Fin 2) * 1000 + 1 * (y 0).val = t.val * 1000 + (y 0).val; rw [e30]; omega
  · show win0_3.index t (1 : Fin 2) * 128 + 1 * (y 1).val = (y 1).val; rw [e31]; omega

/-- An index of the array is in point t's block iff each coordinate is in the block's range on its axis. -/
theorem mem_blk (t : Fin cfg0.N) (i : S40000x128.Idx) :
    i ∈ ((cfg0.win 3).blk t).view.set ↔ ∀ a : Fin 2, win0_3.index t a * S1000x128.size a ≤ (i a).val
      ∧ (i a).val < win0_3.index t a * S1000x128.size a + S1000x128.size a := by
  show i ∈ ((View.whole main_v14).slice (win0_3.rect t)).set ↔ _
  rw [View.set_slice_whole, Rect.mem_set_unit]
  exact Iff.rfl

/-- The 40 blocks cover the array: row i is in the block of point i / 1000. -/
theorem cover (i : S40000x128.Idx) :
    ∃ t : Fin cfg0.N, (cfg0.win 3).flush t = true ∧ i ∈ ((cfg0.win 3).blk t).view.set := by
  have hi0 : (i 0).val < 40000 := (i 0).isLt
  have hi1 : (i 1).val < 128 := (i 1).isLt
  have hN : cfg0.N = 40 := N_0
  have ht : (i 0).val / 1000 < cfg0.N := by rw [hN]; omega
  obtain ⟨-, -, -, -, -, e30, e31⟩ := idx_facts ⟨(i 0).val / 1000, ht⟩
  refine ⟨⟨(i 0).val / 1000, ht⟩, flush0_3 _, ?_⟩
  rw [mem_blk]
  intro a
  match a with
  | ⟨0, _⟩ =>
    show win0_3.index ⟨(i 0).val / 1000, ht⟩ (0 : Fin 2) * 1000 ≤ (i 0).val
      ∧ (i 0).val < win0_3.index ⟨(i 0).val / 1000, ht⟩ (0 : Fin 2) * 1000 + 1000
    rw [e30]; show (i 0).val / 1000 * 1000 ≤ (i 0).val ∧ (i 0).val < (i 0).val / 1000 * 1000 + 1000; omega
  | ⟨1, _⟩ =>
    show win0_3.index ⟨(i 0).val / 1000, ht⟩ (1 : Fin 2) * 128 ≤ (i 1).val
      ∧ (i 1).val < win0_3.index ⟨(i 0).val / 1000, ht⟩ (1 : Fin 2) * 128 + 128
    rw [e31]; omega

/-- THE ARRAY the region leaves: the whole-array projection of the arrays as the region finds them. -/
theorem arrAt_eq (c : Dev nD) :
    (dat0 (F := Ideal) V c).arrAt 3 cfg0.N
      = addf (F := Ideal) (Host.dotGeneral (F := Ideal) (φ₁ := .f32) (φ₂ := .f32) Cert.ReferenceIdeal.dot_S40000x2048_S2048x128_S40000x128_1_0_0_1_n_n none
            (V c (Pipeline.arrRef spec0 0))
            (transpose Cert.ReferenceIdeal.S2048x128 [1, 0] (V c (Pipeline.arrRef spec0 1))
              Cert.ReferenceIdeal.Facts₀.transposes_S128x2048_S2048x128_1_0))
          (broadcastInDim Cert.ReferenceIdeal.S40000x128 ![0, 1] Cert.ReferenceIdeal.Facts₀.bcast_S1x128_S40000x128_0_1
            (broadcastInDim Cert.ReferenceIdeal.S1x128 ![1] Cert.ReferenceIdeal.Facts₀.bcast_S128_S1x128_1
              (V c (Pipeline.arrRef spec0 2)))) :=
  (dat0 V c).arrAt_eq_of_cover 3
    (proj (V c (Pipeline.arrRef spec0 0)) (V c (Pipeline.arrRef spec0 1)) (V c (Pipeline.arrRef spec0 2)))
    (fun t _ => flushed_eq V c t) cover

end Blocks

end Cert.KernelIdeal.ProjValueV

end
-- ==== Proof.ProjValueT.lean ====
/- The projection x ↦ x · wᵀ + b of a [40000, 768] array x by a [128, 768] weight w and a [128] bias b, computed
   block by block over 40 row blocks of 1000 rows, is the whole-array projection.
   At the extended reals both sides, read at an index (i, j), are (∑ k, x(i,k) · w(j,k)) + b(j): a block product
   accumulated into a zero splat is the plain sum over the contraction coordinate, as is the host's product; narrowing
   the operands is the identity; the transposed weight at (k, j) is the weight at (j, k); the bias cast to one row and
   laid along every row reads b(j). Block row r of grid point t is array row 1000·t + r (the printed index maps are
   decided once over the 40 points), the weight and bias blocks are the whole arrays, and the 40 output blocks cover
   the 40000 rows (row i lies in the block of point i / 1000), so the array left after the last point is the
   whole-array projection of the arrays the region is entered with. -/
import proofs.«159630_j86646670230227_1_alg».proof.Proof.Gen.KernelIdeal.Frame
import proofs.«159630_j86646670230227_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.ProjValueT

open Cert.KernelIdeal Cert.KernelIdeal.Gen

/-! ## The block product at an index -/

/-- Axis 0 of the left operand's index is the output row. -/
theorem lhs_0 (i : S1000x128.Idx) (q : dot_S1000x768_S768x128_S1000x128_1_0_0_1_n_n.contr.Idx) :
    (dot_S1000x768_S768x128_S1000x128_1_0_0_1_n_n.lhsIdx i q 0).val = (i 0).val := by
  unfold DotDims.lhsIdx
  rw [dif_neg (show ¬(0 : Fin S1000x768.rank) ∈ dot_S1000x768_S768x128_S1000x128_1_0_0_1_n_n.lhsBatch by decide),
    dif_pos (show (0 : Fin S1000x768.rank) ∈ dot_S1000x768_S768x128_S1000x128_1_0_0_1_n_n.lhsNonContracting by decide)]
  rfl
/-- Axis 1 of the left operand's index is the contraction coordinate. -/
theorem lhs_1 (i : S1000x128.Idx) (q : dot_S1000x768_S768x128_S1000x128_1_0_0_1_n_n.contr.Idx) :
    (dot_S1000x768_S768x128_S1000x128_1_0_0_1_n_n.lhsIdx i q 1).val = (q ⟨0, by decide⟩).val :=
  dot_S1000x768_S768x128_S1000x128_1_0_0_1_n_n.lhsIdx_val_of_single rfl i q
/-- Axis 0 of the right operand's index is the contraction coordinate. -/
theorem rhs_0 (i : S1000x128.Idx) (q : dot_S1000x768_S768x128_S1000x128_1_0_0_1_n_n.contr.Idx) :
    (dot_S1000x768_S768x128_S1000x128_1_0_0_1_n_n.rhsIdx i q 0).val = (q ⟨0, by decide⟩).val :=
  dot_S1000x768_S768x128_S1000x128_1_0_0_1_n_n.rhsIdx_val_of_single rfl i q
/-- Axis 1 of the right operand's index is the output column. -/
theorem rhs_1 (i : S1000x128.Idx) (q : dot_S1000x768_S768x128_S1000x128_1_0_0_1_n_n.contr.Idx) :
    (dot_S1000x768_S768x128_S1000x128_1_0_0_1_n_n.rhsIdx i q 1).val = (i 1).val := by
  unfold DotDims.rhsIdx
  rw [dif_neg (show ¬(1 : Fin S768x128.rank) ∈ dot_S1000x768_S768x128_S1000x128_1_0_0_1_n_n.rhsBatch by decide),
    dif_pos (show (1 : Fin S768x128.rank) ∈ dot_S1000x768_S768x128_S1000x128_1_0_0_1_n_n.rhsNonContracting by decide)]
  rfl

/-- The left operand's index of the block product at output (r, j) and contraction coordinate k is (r, k). -/
theorem lhsIdx_eq (r : Fin 1000) (j : Fin 128) (k : Fin 768) :
    dot_S1000x768_S768x128_S1000x128_1_0_0_1_n_n.lhsIdx (ix2 r j)
      ((contrEquiv1 dot_S1000x768_S768x128_S1000x128_1_0_0_1_n_n 768 rfl rfl).symm k) = ix2 r k := by
  have hk := contrEquiv1_symm_val dot_S1000x768_S768x128_S1000x128_1_0_0_1_n_n 768 rfl rfl k
  exact funext fun a => Fin.ext (by
    match a with
    | ⟨0, _⟩ => exact lhs_0 _ _
    | ⟨1, _⟩ => exact (lhs_1 _ _).trans hk)

/-- The right operand's index there is (k, j). -/
theorem rhsIdx_eq (r : Fin 1000) (j : Fin 128) (k : Fin 768) :
    dot_S1000x768_S768x128_S1000x128_1_0_0_1_n_n.rhsIdx (ix2 r j)
      ((contrEquiv1 dot_S1000x768_S768x128_S1000x128_1_0_0_1_n_n 768 rfl rfl).symm k) = ix2 k j := by
  have hk := contrEquiv1_symm_val dot_S1000x768_S768x128_S1000x128_1_0_0_1_n_n 768 rfl rfl k
  exact funext fun a => Fin.ext (by
    match a with
    | ⟨0, _⟩ => exact (rhs_0 _ _).trans hk
    | ⟨1, _⟩ => exact rhs_1 _ _)

/-- What the body stores, at (r, j): the r-th row of the x block against the j-th row of w, plus b(j). The product
    accumulates into a zero splat, so it is the plain sum; the narrowing of the operands is the identity on the
    extended reals; the transposed weight at (k, j) is the weight at (j, k); the bias is cast to one row and laid
    along every row. -/
theorem pay_apply (x0 : Vec Ideal S1000x768 .f32) (x1 : Vec Ideal S128x768 .f32) (x2 : Vec Ideal S128 .f32)
    (r : Fin 1000) (j : Fin 128) :
    k1_pay1 (F := Ideal) x0 x1 x2 (ix2 r j)
      = (∑ k : Fin 768, (x0 (ix2 r k) : EReal) * x1 (ix2 j k)) + x2 (ix1 j) := by
  unfold k1_pay1
  dsimp only
  rw [addf_apply]
  simp only [matmul]
  rw [Ideal.matmul_constant_zero_apply,
    ← Equiv.sum_comp (contrEquiv1 dot_S1000x768_S768x128_S1000x128_1_0_0_1_n_n 768 rfl rfl).symm,
    broadcastTo_1b_ab_apply, shapeCast_a_1a_apply]
  congr 1
  refine Finset.sum_congr rfl fun k _ => ?_
  rw [lhsIdx_eq, rhsIdx_eq, transpose_ix2_apply]
  rfl

/-! ## The whole-array projection, read at an index -/

/-- The whole-array projection: the product of x with the transposed weight, plus the bias laid along every row. -/
abbrev proj (x : (⟨Cert.ReferenceIdeal.S40000x768, .f32⟩ : BufTy).Contents (Elt Ideal))
    (w : (⟨Cert.ReferenceIdeal.S128x768, .f32⟩ : BufTy).Contents (Elt Ideal))
    (b : (⟨Cert.ReferenceIdeal.S128, .f32⟩ : BufTy).Contents (Elt Ideal)) :
    (⟨Cert.ReferenceIdeal.S40000x128, .f32⟩ : BufTy).Contents (Elt Ideal) :=
  addf (F := Ideal) (Host.dotGeneral (F := Ideal) (φ₁ := .f32) (φ₂ := .f32) Cert.ReferenceIdeal.dot_S40000x768_S768x128_S40000x128_1_0_0_1_n_n none x
      (transpose Cert.ReferenceIdeal.S768x128 [1, 0] w Cert.ReferenceIdeal.Facts₀.transposes_S128x768_S768x128_1_0))
    (broadcastInDim Cert.ReferenceIdeal.S40000x128 ![0, 1] Cert.ReferenceIdeal.Facts₀.bcast_S1x128_S40000x128_0_1
      (broadcastInDim Cert.ReferenceIdeal.S1x128 ![1] Cert.ReferenceIdeal.Facts₀.bcast_S128_S1x128_1 b))

/-- Axis 0 of the left operand's index of the whole-array product is the output row. -/
theorem rlhs_0 (i : Cert.ReferenceIdeal.S40000x128.Idx) (q : Cert.ReferenceIdeal.dot_S40000x768_S768x128_S40000x128_1_0_0_1_n_n.contr.Idx) :
    (Cert.ReferenceIdeal.dot_S40000x768_S768x128_S40000x128_1_0_0_1_n_n.lhsIdx i q 0).val = (i 0).val := by
  unfold DotDims.lhsIdx
  rw [dif_neg (show ¬(0 : Fin Cert.ReferenceIdeal.S40000x768.rank) ∈ Cert.ReferenceIdeal.dot_S40000x768_S768x128_S40000x128_1_0_0_1_n_n.lhsBatch by decide),
    dif_pos (show (0 : Fin Cert.ReferenceIdeal.S40000x768.rank) ∈ Cert.ReferenceIdeal.dot_S40000x768_S768x128_S40000x128_1_0_0_1_n_n.lhsNonContracting by decide)]
  rfl
/-- Axis 1 of it is the contraction coordinate. -/
theorem rlhs_1 (i : Cert.ReferenceIdeal.S40000x128.Idx) (q : Cert.ReferenceIdeal.dot_S40000x768_S768x128_S40000x128_1_0_0_1_n_n.contr.Idx) :
    (Cert.ReferenceIdeal.dot_S40000x768_S768x128_S40000x128_1_0_0_1_n_n.lhsIdx i q 1).val = (q ⟨0, by decide⟩).val :=
  Cert.ReferenceIdeal.dot_S40000x768_S768x128_S40000x128_1_0_0_1_n_n.lhsIdx_val_of_single rfl i q
/-- Axis 0 of the right operand's index is the contraction coordinate. -/
theorem rrhs_0 (i : Cert.ReferenceIdeal.S40000x128.Idx) (q : Cert.ReferenceIdeal.dot_S40000x768_S768x128_S40000x128_1_0_0_1_n_n.contr.Idx) :
    (Cert.ReferenceIdeal.dot_S40000x768_S768x128_S40000x128_1_0_0_1_n_n.rhsIdx i q 0).val = (q ⟨0, by decide⟩).val :=
  Cert.ReferenceIdeal.dot_S40000x768_S768x128_S40000x128_1_0_0_1_n_n.rhsIdx_val_of_single rfl i q
/-- Axis 1 of it is the output column. -/
theorem rrhs_1 (i : Cert.ReferenceIdeal.S40000x128.Idx) (q : Cert.ReferenceIdeal.dot_S40000x768_S768x128_S40000x128_1_0_0_1_n_n.contr.Idx) :
    (Cert.ReferenceIdeal.dot_S40000x768_S768x128_S40000x128_1_0_0_1_n_n.rhsIdx i q 1).val = (i 1).val := by
  unfold DotDims.rhsIdx
  rw [dif_neg (show ¬(1 : Fin Cert.ReferenceIdeal.S768x128.rank) ∈ Cert.ReferenceIdeal.dot_S40000x768_S768x128_S40000x128_1_0_0_1_n_n.rhsBatch by decide),
    dif_pos (show (1 : Fin Cert.ReferenceIdeal.S768x128.rank) ∈ Cert.ReferenceIdeal.dot_S40000x768_S768x128_S40000x128_1_0_0_1_n_n.rhsNonContracting by decide)]
  rfl

/-- The left operand's index of the whole-array product at output (i, j) and contraction coordinate k is (i, k). -/
theorem rlhsIdx_eq (i : Fin 40000) (j : Fin 128) (k : Fin 768) :
    Cert.ReferenceIdeal.dot_S40000x768_S768x128_S40000x128_1_0_0_1_n_n.lhsIdx (ix2 i j)
      ((contrEquiv1 Cert.ReferenceIdeal.dot_S40000x768_S768x128_S40000x128_1_0_0_1_n_n 768 rfl rfl).symm k) = ix2 i k := by
  have hk := contrEquiv1_symm_val Cert.ReferenceIdeal.dot_S40000x768_S768x128_S40000x128_1_0_0_1_n_n 768 rfl rfl k
  exact funext fun a => Fin.ext (by
    match a with
    | ⟨0, _⟩ => exact rlhs_0 _ _
    | ⟨1, _⟩ => exact (rlhs_1 _ _).trans hk)

/-- The right operand's index there is (k, j). -/
theorem rrhsIdx_eq (i : Fin 40000) (j : Fin 128) (k : Fin 768) :
    Cert.ReferenceIdeal.dot_S40000x768_S768x128_S40000x128_1_0_0_1_n_n.rhsIdx (ix2 i j)
      ((contrEquiv1 Cert.ReferenceIdeal.dot_S40000x768_S768x128_S40000x128_1_0_0_1_n_n 768 rfl rfl).symm k) = ix2 k j := by
  have hk := contrEquiv1_symm_val Cert.ReferenceIdeal.dot_S40000x768_S768x128_S40000x128_1_0_0_1_n_n 768 rfl rfl k
  exact funext fun a => Fin.ext (by
    match a with
    | ⟨0, _⟩ => exact (rrhs_0 _ _).trans hk
    | ⟨1, _⟩ => exact rrhs_1 _ _)

/-- The bias broadcast to one row reads, at (0, j), the bias at j. -/
theorem bias_row_apply (b : (⟨Cert.ReferenceIdeal.S128, .f32⟩ : BufTy).Contents (Elt Ideal)) (u : Fin 1) (j : Fin 128) :
    broadcastInDim Cert.ReferenceIdeal.S1x128 ![1] Cert.ReferenceIdeal.Facts₀.bcast_S128_S1x128_1 b (ix2 u j) = b (ix1 j) :=
  broadcastInDim_apply ![1] Cert.ReferenceIdeal.Facts₀.bcast_S128_S1x128_1 b (ix2 u j) (ix1 j) (fun a => match a with
    | ⟨0, _⟩ => by show j.val = if (128 : Nat) = 1 then 0 else j.val; rw [if_neg (by decide)])

/-- The whole-array projection at (i, j): the host's product has no accumulator and is the plain sum; the transposed
    weight at (k, j) is the weight at (j, k); the bias row laid down the rows reads the bias at j. -/
theorem proj_apply (x : (⟨Cert.ReferenceIdeal.S40000x768, .f32⟩ : BufTy).Contents (Elt Ideal))
    (w : (⟨Cert.ReferenceIdeal.S128x768, .f32⟩ : BufTy).Contents (Elt Ideal))
    (b : (⟨Cert.ReferenceIdeal.S128, .f32⟩ : BufTy).Contents (Elt Ideal)) (i : Fin 40000) (j : Fin 128) :
    proj x w b (ix2 i j) = (∑ k : Fin 768, (x (ix2 i k) : EReal) * w (ix2 j k)) + b (ix1 j) := by
  unfold proj
  rw [addf_apply]
  simp only [Host.dotGeneral]
  rw [Ideal.dotGeneral_apply,
    ← Equiv.sum_comp (contrEquiv1 Cert.ReferenceIdeal.dot_S40000x768_S768x128_S40000x128_1_0_0_1_n_n 768 rfl rfl).symm,
    broadcastInDim_oneRow_apply, bias_row_apply]
  congr 1
  refine Finset.sum_congr rfl fun k _ => ?_
  rw [rlhsIdx_eq, rrhsIdx_eq, transpose_ix2_apply]

/-! ## One grid point -/

/-- One grid point, over variables: if the x block holds rows 1000·n … 1000·n + 999 of the array and the other two
    blocks are the whole weight and bias, then the stored block at (r, j) is the projection at (1000·n + r, j). -/
theorem point_eq (X : (⟨Cert.ReferenceIdeal.S40000x768, .f32⟩ : BufTy).Contents (Elt Ideal))
    (W : (⟨Cert.ReferenceIdeal.S128x768, .f32⟩ : BufTy).Contents (Elt Ideal))
    (B : (⟨Cert.ReferenceIdeal.S128, .f32⟩ : BufTy).Contents (Elt Ideal))
    (x0 : Vec Ideal S1000x768 .f32) (x1 : Vec Ideal S128x768 .f32) (x2 : Vec Ideal S128 .f32) (n : ℕ)
    (h0 : ∀ (r : Fin 1000) (k : Fin 768) (i : Fin 40000), i.val = n * 1000 + r.val → x0 (ix2 r k) = X (ix2 i k))
    (h1 : ∀ (j : Fin 128) (k : Fin 768), x1 (ix2 j k) = W (ix2 j k))
    (h2 : ∀ j : Fin 128, x2 (ix1 j) = B (ix1 j))
    (y : S1000x128.Idx) (i : S40000x128.Idx) (hi0 : (i 0).val = n * 1000 + (y 0).val) (hi1 : (i 1).val = (y 1).val) :
    k1_pay1 (F := Ideal) x0 x1 x2 y = proj X W B i := by
  obtain ⟨r, j, rfl⟩ : ∃ (r : Fin 1000) (j : Fin 128), y = ix2 r j := ⟨y 0, y 1, eq_ix2 y⟩
  obtain ⟨p, q, rfl⟩ : ∃ (p : Fin 40000) (q : Fin 128), i = ix2 p q := ⟨i 0, i 1, eq_ix2 i⟩
  obtain rfl : q = j := Fin.ext hi1
  rw [pay_apply, proj_apply]
  congr 1
  · exact Finset.sum_congr rfl fun k _ => by rw [h0 r k p hi0, h1]
  · exact h2 q

/-! ## From the blocks to the array -/

section Blocks
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 40 grid points: the x window and the output window are at block row t,
    block column 0; the weight and the bias windows stay at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What grid point t writes back is block t of the projection of the arrays as the region finds them. -/
theorem flushed_eq (c : Dev nD) (t : Fin cfg1.N) :
    (dat1 (F := Ideal) V c).flushed 3 t = ((cfg1.win 3).blk t).view.read (Elt Ideal)
      (proj (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz2]
  simp only [View.ld_unit_zero (S := S1000x768) hz2, View.ld_unit_zero (S := S128x768) hz2, View.ld_unit_zero (S := S128) hz1]
  obtain ⟨e00, e01, e10, e11, e20, e30, e31⟩ := idx_facts t
  funext y
  show k1_pay1 (F := Ideal) (iblk1 V c 0 t) (iblk1 V c 1 t) (iblk1 V c 2 t) y
    = proj (V c (Pipeline.arrRef spec1 0)) (V c (Pipeline.arrRef spec1 1)) (V c (Pipeline.arrRef spec1 2)) (((cfg1.win 3).blk t).view.emb y)
  refine point_eq _ _ _ _ _ _ t.val ?_ ?_ ?_ y _ ?_ ?_
  · intro r k i hi
    show V c (Pipeline.arrRef spec1 0) (((cfg1.win 0).blk t).view.emb (ix2 r k)) = V c (Pipeline.arrRef spec1 0) (ix2 i k)
    congr 1
    funext a; apply Fin.ext
    match a with
    | ⟨0, _⟩ => show win1_0.index t (0 : Fin 2) * 1000 + 1 * r.val = i.val; rw [e00, hi]; omega
    | ⟨1, _⟩ => show win1_0.index t (1 : Fin 2) * 768 + 1 * k.val = k.val; rw [e01]; omega
  · intro j k
    show V c (Pipeline.arrRef spec1 1) (((cfg1.win 1).blk t).view.emb (ix2 j k)) = V c (Pipeline.arrRef spec1 1) (ix2 j k)
    congr 1
    funext a; apply Fin.ext
    match a with
    | ⟨0, _⟩ => show win1_1.index t (0 : Fin 2) * 128 + 1 * j.val = j.val; rw [e10]; omega
    | ⟨1, _⟩ => show win1_1.index t (1 : Fin 2) * 768 + 1 * k.val = k.val; rw [e11]; omega
  · intro j
    show V c (Pipeline.arrRef spec1 2) (((cfg1.win 2).blk t).view.emb (ix1 j)) = V c (Pipeline.arrRef spec1 2) (ix1 j)
    congr 1
    funext a; apply Fin.ext
    match a with
    | ⟨0, _⟩ => show win1_2.index t (0 : Fin 1) * 128 + 1 * j.val = j.val; rw [e20]; omega
  · show win1_3.index t (0 : Fin 2) * 1000 + 1 * (y 0).val = t.val * 1000 + (y 0).val; rw [e30]; omega
  · show win1_3.index t (1 : Fin 2) * 128 + 1 * (y 1).val = (y 1).val; rw [e31]; omega

/-- An index of the array is in point t's block iff each coordinate is in the block's range on its axis. -/
theorem mem_blk (t : Fin cfg1.N) (i : S40000x128.Idx) :
    i ∈ ((cfg1.win 3).blk t).view.set ↔ ∀ a : Fin 2, win1_3.index t a * S1000x128.size a ≤ (i a).val
      ∧ (i a).val < win1_3.index t a * S1000x128.size a + S1000x128.size a := by
  show i ∈ ((View.whole main_v15).slice (win1_3.rect t)).set ↔ _
  rw [View.set_slice_whole, Rect.mem_set_unit]
  exact Iff.rfl

/-- The 40 blocks cover the array: row i is in the block of point i / 1000. -/
theorem cover (i : S40000x128.Idx) :
    ∃ t : Fin cfg1.N, (cfg1.win 3).flush t = true ∧ i ∈ ((cfg1.win 3).blk t).view.set := by
  have hi0 : (i 0).val < 40000 := (i 0).isLt
  have hi1 : (i 1).val < 128 := (i 1).isLt
  have hN : cfg1.N = 40 := N_1
  have ht : (i 0).val / 1000 < cfg1.N := by rw [hN]; omega
  obtain ⟨-, -, -, -, -, e30, e31⟩ := idx_facts ⟨(i 0).val / 1000, ht⟩
  refine ⟨⟨(i 0).val / 1000, ht⟩, flush1_3 _, ?_⟩
  rw [mem_blk]
  intro a
  match a with
  | ⟨0, _⟩ =>
    show win1_3.index ⟨(i 0).val / 1000, ht⟩ (0 : Fin 2) * 1000 ≤ (i 0).val
      ∧ (i 0).val < win1_3.index ⟨(i 0).val / 1000, ht⟩ (0 : Fin 2) * 1000 + 1000
    rw [e30]; show (i 0).val / 1000 * 1000 ≤ (i 0).val ∧ (i 0).val < (i 0).val / 1000 * 1000 + 1000; omega
  | ⟨1, _⟩ =>
    show win1_3.index ⟨(i 0).val / 1000, ht⟩ (1 : Fin 2) * 128 ≤ (i 1).val
      ∧ (i 1).val < win1_3.index ⟨(i 0).val / 1000, ht⟩ (1 : Fin 2) * 128 + 128
    rw [e31]; omega

/-- THE ARRAY the region leaves: the whole-array projection of the arrays as the region finds them. -/
theorem arrAt_eq (c : Dev nD) :
    (dat1 (F := Ideal) V c).arrAt 3 cfg1.N
      = addf (F := Ideal) (Host.dotGeneral (F := Ideal) (φ₁ := .f32) (φ₂ := .f32) Cert.ReferenceIdeal.dot_S40000x768_S768x128_S40000x128_1_0_0_1_n_n none
            (V c (Pipeline.arrRef spec1 0))
            (transpose Cert.ReferenceIdeal.S768x128 [1, 0] (V c (Pipeline.arrRef spec1 1))
              Cert.ReferenceIdeal.Facts₀.transposes_S128x768_S768x128_1_0))
          (broadcastInDim Cert.ReferenceIdeal.S40000x128 ![0, 1] Cert.ReferenceIdeal.Facts₀.bcast_S1x128_S40000x128_0_1
            (broadcastInDim Cert.ReferenceIdeal.S1x128 ![1] Cert.ReferenceIdeal.Facts₀.bcast_S128_S1x128_1
              (V c (Pipeline.arrRef spec1 2)))) :=
  (dat1 V c).arrAt_eq_of_cover 3
    (proj (V c (Pipeline.arrRef spec1 0)) (V c (Pipeline.arrRef spec1 1)) (V c (Pipeline.arrRef spec1 2)))
    (fun t _ => flushed_eq V c t) cover

end Blocks

end Cert.KernelIdeal.ProjValueT

end
-- ==== Proof.Trace1.lean ====
/-
  The contents of the idealized kernel program's buffers at the boundaries between @main's segments (the launch, the first stretch of host operations, the two projection regions and the two concatenations):
  each buffer a later segment reads holds its pure term of the launch memory. A stretch of host operations
  gives a buffer it computes the operation's function of its operands and leaves every other buffer; a kernel region
  gives each output array the whole-array function of its input arrays and leaves its input arrays and every other buffer.
-/
import proofs.«159630_j86646670230227_1_alg».proof.Proof.Gen.KernelIdeal.Frame
import proofs.«159630_j86646670230227_1_alg».proof.Proof.Gen.ReferenceIdeal
import Idealize.ShloMosaic.PureOps.Ideal
import proofs.«159630_j86646670230227_1_alg».proof.Proof.TraceDefs
import proofs.«159630_j86646670230227_1_alg».proof.Proof.ProjValueV
import proofs.«159630_j86646670230227_1_alg».proof.Proof.ProjValueT
set_option maxRecDepth 16384

noncomputable section

namespace Cert.KernelIdeal.Trace

open Cert.KernelIdeal Cert.KernelIdeal.Gen Idealize.ShloMosaic Idealize.ShloMosaic.TcCoe Idealize.SL.Sem Idealize.ShloMosaic.StableHlo

/-- No operation of a stretch of host operations writes the buffer: the goal the library's lemma for an unwritten
    buffer leaves, one inequality of references per operation, each decided. -/
macro "keep_host" : tactic => `(tactic| (
  simp only [hostOps0, hostOps2, hostOps3, hostOps4, hostOps6, hostOps7, hostOps8, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

theorem at0_main_arg0 : W0 m ρ c (Proc.devRef .tc main_arg0) = T_main_arg0 m c := rfl
theorem at0_main_arg3 : W0 m ρ c (Proc.devRef .tc main_arg3) = T_main_arg3 m c := rfl
theorem at0_main_arg4 : W0 m ρ c (Proc.devRef .tc main_arg4) = T_main_arg4 m c := rfl
theorem at0_main_arg7 : W0 m ρ c (Proc.devRef .tc main_arg7) = T_main_arg7 m c := rfl
theorem at0_main_arg9 : W0 m ρ c (Proc.devRef .tc main_arg9) = T_main_arg9 m c := rfl
theorem at0_main_arg10 : W0 m ρ c (Proc.devRef .tc main_arg10) = T_main_arg10 m c := rfl
theorem at0_main_arg8 : W0 m ρ c (Proc.devRef .tc main_arg8) = T_main_arg8 m c := rfl
theorem at0_main_arg11 : W0 m ρ c (Proc.devRef .tc main_arg11) = T_main_arg11 m c := rfl
theorem at0_main_arg12 : W0 m ρ c (Proc.devRef .tc main_arg12) = T_main_arg12 m c := rfl
theorem at0_main_arg5 : W0 m ρ c (Proc.devRef .tc main_arg5) = T_main_arg5 m c := rfl
theorem at0_main_arg6 : W0 m ρ c (Proc.devRef .tc main_arg6) = T_main_arg6 m c := rfl
theorem at0_main_arg13 : W0 m ρ c (Proc.devRef .tc main_arg13) = T_main_arg13 m c := rfl
theorem at0_main_arg25 : W0 m ρ c (Proc.devRef .tc main_arg25) = T_main_arg25 m c := rfl
theorem at0_main_arg17 : W0 m ρ c (Proc.devRef .tc main_arg17) = T_main_arg17 m c := rfl
theorem at0_main_arg18 : W0 m ρ c (Proc.devRef .tc main_arg18) = T_main_arg18 m c := rfl
theorem at0_main_arg26 : W0 m ρ c (Proc.devRef .tc main_arg26) = T_main_arg26 m c := rfl
theorem at0_main_arg14 : W0 m ρ c (Proc.devRef .tc main_arg14) = T_main_arg14 m c := rfl
theorem at0_main_arg27 : W0 m ρ c (Proc.devRef .tc main_arg27) = T_main_arg27 m c := rfl
theorem at0_main_arg19 : W0 m ρ c (Proc.devRef .tc main_arg19) = T_main_arg19 m c := rfl
theorem at0_main_arg20 : W0 m ρ c (Proc.devRef .tc main_arg20) = T_main_arg20 m c := rfl
theorem at0_main_arg28 : W0 m ρ c (Proc.devRef .tc main_arg28) = T_main_arg28 m c := rfl
theorem at0_main_arg15 : W0 m ρ c (Proc.devRef .tc main_arg15) = T_main_arg15 m c := rfl
theorem at0_main_arg29 : W0 m ρ c (Proc.devRef .tc main_arg29) = T_main_arg29 m c := rfl
theorem at0_main_arg21 : W0 m ρ c (Proc.devRef .tc main_arg21) = T_main_arg21 m c := rfl
theorem at0_main_arg22 : W0 m ρ c (Proc.devRef .tc main_arg22) = T_main_arg22 m c := rfl
theorem at0_main_arg30 : W0 m ρ c (Proc.devRef .tc main_arg30) = T_main_arg30 m c := rfl
theorem at0_main_arg16 : W0 m ρ c (Proc.devRef .tc main_arg16) = T_main_arg16 m c := rfl
theorem at0_main_arg31 : W0 m ρ c (Proc.devRef .tc main_arg31) = T_main_arg31 m c := rfl
theorem at0_main_arg23 : W0 m ρ c (Proc.devRef .tc main_arg23) = T_main_arg23 m c := rfl
theorem at0_main_arg24 : W0 m ρ c (Proc.devRef .tc main_arg24) = T_main_arg24 m c := rfl
theorem at0_main_arg32 : W0 m ρ c (Proc.devRef .tc main_arg32) = T_main_arg32 m c := rfl
theorem at0_main_arg1 : W0 m ρ c (Proc.devRef .tc main_arg1) = T_main_arg1 m c := rfl
theorem at0_main_arg2 : W0 m ρ c (Proc.devRef .tc main_arg2) = T_main_arg2 m c := rfl
theorem at1_main_arg7 : W1 m ρ c (Proc.devRef .tc main_arg7) = T_main_arg7 m c := (StableHlo.after_of_forall_not_mem (b := Proc.devRef .tc main_arg7) hostOps0 (W0 m ρ c) (List.forall_iff_forall_mem.mp (by keep_host))).trans (at0_main_arg7 m ρ c)
theorem at1_main_arg9 : W1 m ρ c (Proc.devRef .tc main_arg9) = T_main_arg9 m c := (StableHlo.after_of_forall_not_mem (b := Proc.devRef .tc main_arg9) hostOps0 (W0 m ρ c) (List.forall_iff_forall_mem.mp (by keep_host))).trans (at0_main_arg9 m ρ c)
theorem at1_main_arg10 : W1 m ρ c (Proc.devRef .tc main_arg10) = T_main_arg10 m c := (StableHlo.after_of_forall_not_mem (b := Proc.devRef .tc main_arg10) hostOps0 (W0 m ρ c) (List.forall_iff_forall_mem.mp (by keep_host))).trans (at0_main_arg10 m ρ c)
theorem at1_main_arg8 : W1 m ρ c (Proc.devRef .tc main_arg8) = T_main_arg8 m c := (StableHlo.after_of_forall_not_mem (b := Proc.devRef .tc main_arg8) hostOps0 (W0 m ρ c) (List.forall_iff_forall_mem.mp (by keep_host))).trans (at0_main_arg8 m ρ c)
theorem at1_main_arg11 : W1 m ρ c (Proc.devRef .tc main_arg11) = T_main_arg11 m c := (StableHlo.after_of_forall_not_mem (b := Proc.devRef .tc main_arg11) hostOps0 (W0 m ρ c) (List.forall_iff_forall_mem.mp (by keep_host))).trans (at0_main_arg11 m ρ c)
theorem at1_main_arg12 : W1 m ρ c (Proc.devRef .tc main_arg12) = T_main_arg12 m c := (StableHlo.after_of_forall_not_mem (b := Proc.devRef .tc main_arg12) hostOps0 (W0 m ρ c) (List.forall_iff_forall_mem.mp (by keep_host))).trans (at0_main_arg12 m ρ c)
theorem at1_main_arg5 : W1 m ρ c (Proc.devRef .tc main_arg5) = T_main_arg5 m c := (StableHlo.after_of_forall_not_mem (b := Proc.devRef .tc main_arg5) hostOps0 (W0 m ρ c) (List.forall_iff_forall_mem.mp (by keep_host))).trans (at0_main_arg5 m ρ c)
theorem at1_main_arg6 : W1 m ρ c (Proc.devRef .tc main_arg6) = T_main_arg6 m c := (StableHlo.after_of_forall_not_mem (b := Proc.devRef .tc main_arg6) hostOps0 (W0 m ρ c) (List.forall_iff_forall_mem.mp (by keep_host))).trans (at0_main_arg6 m ρ c)
theorem at1_main_arg13 : W1 m ρ c (Proc.devRef .tc main_arg13) = T_main_arg13 m c := (StableHlo.after_of_forall_not_mem (b := Proc.devRef .tc main_arg13) hostOps0 (W0 m ρ c) (List.forall_iff_forall_mem.mp (by keep_host))).trans (at0_main_arg13 m ρ c)
theorem at1_main_v1 : W1 m ρ c (Proc.devRef .tc main_v1) = T_main_v1 m c := by
  show StableHlo.after hostOps0 (W0 m ρ c) (Proc.devRef .tc main_v1) = _
  after_results
  rw [at0_main_arg0 m ρ c]
  rfl
theorem at1_main_v3 : W1 m ρ c (Proc.devRef .tc main_v3) = T_main_v3 m c := by
  show StableHlo.after hostOps0 (W0 m ρ c) (Proc.devRef .tc main_v3) = _
  after_results
  rw [at0_main_arg0 m ρ c]
  rfl
theorem at1_main_v12 : W1 m ρ c (Proc.devRef .tc main_v12) = T_main_v12 m c := by
  show StableHlo.after hostOps0 (W0 m ρ c) (Proc.devRef .tc main_v12) = _
  after_results
  rw [at0_main_arg0 m ρ c]
  rfl
theorem at1_main_arg25 : W1 m ρ c (Proc.devRef .tc main_arg25) = T_main_arg25 m c := (StableHlo.after_of_forall_not_mem (b := Proc.devRef .tc main_arg25) hostOps0 (W0 m ρ c) (List.forall_iff_forall_mem.mp (by keep_host))).trans (at0_main_arg25 m ρ c)
theorem at1_main_v13 : W1 m ρ c (Proc.devRef .tc main_v13) = T_main_v13 m c := by
  show StableHlo.after hostOps0 (W0 m ρ c) (Proc.devRef .tc main_v13) = _
  after_results
  rw [at0_main_arg3 m ρ c, at0_main_arg4 m ρ c]
  rfl
theorem at1_main_arg17 : W1 m ρ c (Proc.devRef .tc main_arg17) = T_main_arg17 m c := (StableHlo.after_of_forall_not_mem (b := Proc.devRef .tc main_arg17) hostOps0 (W0 m ρ c) (List.forall_iff_forall_mem.mp (by keep_host))).trans (at0_main_arg17 m ρ c)
theorem at1_main_arg18 : W1 m ρ c (Proc.devRef .tc main_arg18) = T_main_arg18 m c := (StableHlo.after_of_forall_not_mem (b := Proc.devRef .tc main_arg18) hostOps0 (W0 m ρ c) (List.forall_iff_forall_mem.mp (by keep_host))).trans (at0_main_arg18 m ρ c)
theorem at1_main_arg26 : W1 m ρ c (Proc.devRef .tc main_arg26) = T_main_arg26 m c := (StableHlo.after_of_forall_not_mem (b := Proc.devRef .tc main_arg26) hostOps0 (W0 m ρ c) (List.forall_iff_forall_mem.mp (by keep_host))).trans (at0_main_arg26 m ρ c)
theorem at1_main_arg14 : W1 m ρ c (Proc.devRef .tc main_arg14) = T_main_arg14 m c := (StableHlo.after_of_forall_not_mem (b := Proc.devRef .tc main_arg14) hostOps0 (W0 m ρ c) (List.forall_iff_forall_mem.mp (by keep_host))).trans (at0_main_arg14 m ρ c)
theorem at1_main_arg27 : W1 m ρ c (Proc.devRef .tc main_arg27) = T_main_arg27 m c := (StableHlo.after_of_forall_not_mem (b := Proc.devRef .tc main_arg27) hostOps0 (W0 m ρ c) (List.forall_iff_forall_mem.mp (by keep_host))).trans (at0_main_arg27 m ρ c)
theorem at1_main_arg19 : W1 m ρ c (Proc.devRef .tc main_arg19) = T_main_arg19 m c := (StableHlo.after_of_forall_not_mem (b := Proc.devRef .tc main_arg19) hostOps0 (W0 m ρ c) (List.forall_iff_forall_mem.mp (by keep_host))).trans (at0_main_arg19 m ρ c)
theorem at1_main_arg20 : W1 m ρ c (Proc.devRef .tc main_arg20) = T_main_arg20 m c := (StableHlo.after_of_forall_not_mem (b := Proc.devRef .tc main_arg20) hostOps0 (W0 m ρ c) (List.forall_iff_forall_mem.mp (by keep_host))).trans (at0_main_arg20 m ρ c)
theorem at1_main_arg28 : W1 m ρ c (Proc.devRef .tc main_arg28) = T_main_arg28 m c := (StableHlo.after_of_forall_not_mem (b := Proc.devRef .tc main_arg28) hostOps0 (W0 m ρ c) (List.forall_iff_forall_mem.mp (by keep_host))).trans (at0_main_arg28 m ρ c)
theorem at1_main_arg15 : W1 m ρ c (Proc.devRef .tc main_arg15) = T_main_arg15 m c := (StableHlo.after_of_forall_not_mem (b := Proc.devRef .tc main_arg15) hostOps0 (W0 m ρ c) (List.forall_iff_forall_mem.mp (by keep_host))).trans (at0_main_arg15 m ρ c)
theorem at1_main_arg29 : W1 m ρ c (Proc.devRef .tc main_arg29) = T_main_arg29 m c := (StableHlo.after_of_forall_not_mem (b := Proc.devRef .tc main_arg29) hostOps0 (W0 m ρ c) (List.forall_iff_forall_mem.mp (by keep_host))).trans (at0_main_arg29 m ρ c)
theorem at1_main_arg21 : W1 m ρ c (Proc.devRef .tc main_arg21) = T_main_arg21 m c := (StableHlo.after_of_forall_not_mem (b := Proc.devRef .tc main_arg21) hostOps0 (W0 m ρ c) (List.forall_iff_forall_mem.mp (by keep_host))).trans (at0_main_arg21 m ρ c)
theorem at1_main_arg22 : W1 m ρ c (Proc.devRef .tc main_arg22) = T_main_arg22 m c := (StableHlo.after_of_forall_not_mem (b := Proc.devRef .tc main_arg22) hostOps0 (W0 m ρ c) (List.forall_iff_forall_mem.mp (by keep_host))).trans (at0_main_arg22 m ρ c)
theorem at1_main_arg30 : W1 m ρ c (Proc.devRef .tc main_arg30) = T_main_arg30 m c := (StableHlo.after_of_forall_not_mem (b := Proc.devRef .tc main_arg30) hostOps0 (W0 m ρ c) (List.forall_iff_forall_mem.mp (by keep_host))).trans (at0_main_arg30 m ρ c)
theorem at1_main_arg16 : W1 m ρ c (Proc.devRef .tc main_arg16) = T_main_arg16 m c := (StableHlo.after_of_forall_not_mem (b := Proc.devRef .tc main_arg16) hostOps0 (W0 m ρ c) (List.forall_iff_forall_mem.mp (by keep_host))).trans (at0_main_arg16 m ρ c)
theorem at1_main_arg31 : W1 m ρ c (Proc.devRef .tc main_arg31) = T_main_arg31 m c := (StableHlo.after_of_forall_not_mem (b := Proc.devRef .tc main_arg31) hostOps0 (W0 m ρ c) (List.forall_iff_forall_mem.mp (by keep_host))).trans (at0_main_arg31 m ρ c)
theorem at1_main_arg23 : W1 m ρ c (Proc.devRef .tc main_arg23) = T_main_arg23 m c := (StableHlo.after_of_forall_not_mem (b := Proc.devRef .tc main_arg23) hostOps0 (W0 m ρ c) (List.forall_iff_forall_mem.mp (by keep_host))).trans (at0_main_arg23 m ρ c)
theorem at1_main_arg24 : W1 m ρ c (Proc.devRef .tc main_arg24) = T_main_arg24 m c := (StableHlo.after_of_forall_not_mem (b := Proc.devRef .tc main_arg24) hostOps0 (W0 m ρ c) (List.forall_iff_forall_mem.mp (by keep_host))).trans (at0_main_arg24 m ρ c)
theorem at1_main_arg32 : W1 m ρ c (Proc.devRef .tc main_arg32) = T_main_arg32 m c := (StableHlo.after_of_forall_not_mem (b := Proc.devRef .tc main_arg32) hostOps0 (W0 m ρ c) (List.forall_iff_forall_mem.mp (by keep_host))).trans (at0_main_arg32 m ρ c)
theorem at1_main_arg1 : W1 m ρ c (Proc.devRef .tc main_arg1) = T_main_arg1 m c := (StableHlo.after_of_forall_not_mem (b := Proc.devRef .tc main_arg1) hostOps0 (W0 m ρ c) (List.forall_iff_forall_mem.mp (by keep_host))).trans (at0_main_arg1 m ρ c)
theorem at1_main_arg2 : W1 m ρ c (Proc.devRef .tc main_arg2) = T_main_arg2 m c := (StableHlo.after_of_forall_not_mem (b := Proc.devRef .tc main_arg2) hostOps0 (W0 m ρ c) (List.forall_iff_forall_mem.mp (by keep_host))).trans (at0_main_arg2 m ρ c)
theorem at2_main_arg8 : W2 m ρ c (Proc.devRef .tc main_arg8) = T_main_arg8 m c := (W2_of_ne m ρ c main_arg8 (by decide)).trans (at1_main_arg8 m ρ c)
theorem at2_main_arg11 : W2 m ρ c (Proc.devRef .tc main_arg11) = T_main_arg11 m c := (W2_of_ne m ρ c main_arg11 (by decide)).trans (at1_main_arg11 m ρ c)
theorem at2_main_arg12 : W2 m ρ c (Proc.devRef .tc main_arg12) = T_main_arg12 m c := (W2_of_ne m ρ c main_arg12 (by decide)).trans (at1_main_arg12 m ρ c)
theorem at2_main_arg5 : W2 m ρ c (Proc.devRef .tc main_arg5) = T_main_arg5 m c := (W2_of_ne m ρ c main_arg5 (by decide)).trans (at1_main_arg5 m ρ c)
theorem at2_main_v14 : W2 m ρ c (Proc.devRef .tc main_v14) = T_main_v14 m c := by
  have e0 : V1 m ρ c (Pipeline.arrRef spec0 0) = T_main_arg7 m c := at1_main_arg7 m ρ c
  have e1 : V1 m ρ c (Pipeline.arrRef spec0 1) = T_main_arg9 m c := at1_main_arg9 m ρ c
  have e2 : V1 m ρ c (Pipeline.arrRef spec0 2) = T_main_arg10 m c := at1_main_arg10 m ρ c
  refine (W2_arr m ρ c 3).trans ((Cert.KernelIdeal.ProjValueV.arrAt_eq (V1 m ρ) c).trans ?_)
  rw [e0, e1, e2]
  rfl
theorem at2_main_arg6 : W2 m ρ c (Proc.devRef .tc main_arg6) = T_main_arg6 m c := (W2_of_ne m ρ c main_arg6 (by decide)).trans (at1_main_arg6 m ρ c)
theorem at2_main_arg13 : W2 m ρ c (Proc.devRef .tc main_arg13) = T_main_arg13 m c := (W2_of_ne m ρ c main_arg13 (by decide)).trans (at1_main_arg13 m ρ c)
theorem at2_main_v1 : W2 m ρ c (Proc.devRef .tc main_v1) = T_main_v1 m c := (W2_of_ne m ρ c main_v1 (by decide)).trans (at1_main_v1 m ρ c)
theorem at2_main_v3 : W2 m ρ c (Proc.devRef .tc main_v3) = T_main_v3 m c := (W2_of_ne m ρ c main_v3 (by decide)).trans (at1_main_v3 m ρ c)
theorem at2_main_v12 : W2 m ρ c (Proc.devRef .tc main_v12) = T_main_v12 m c := (W2_of_ne m ρ c main_v12 (by decide)).trans (at1_main_v12 m ρ c)
theorem at2_main_arg25 : W2 m ρ c (Proc.devRef .tc main_arg25) = T_main_arg25 m c := (W2_of_ne m ρ c main_arg25 (by decide)).trans (at1_main_arg25 m ρ c)
theorem at2_main_v13 : W2 m ρ c (Proc.devRef .tc main_v13) = T_main_v13 m c := (W2_of_ne m ρ c main_v13 (by decide)).trans (at1_main_v13 m ρ c)
theorem at2_main_arg17 : W2 m ρ c (Proc.devRef .tc main_arg17) = T_main_arg17 m c := (W2_of_ne m ρ c main_arg17 (by decide)).trans (at1_main_arg17 m ρ c)
theorem at2_main_arg18 : W2 m ρ c (Proc.devRef .tc main_arg18) = T_main_arg18 m c := (W2_of_ne m ρ c main_arg18 (by decide)).trans (at1_main_arg18 m ρ c)
theorem at2_main_arg26 : W2 m ρ c (Proc.devRef .tc main_arg26) = T_main_arg26 m c := (W2_of_ne m ρ c main_arg26 (by decide)).trans (at1_main_arg26 m ρ c)
theorem at2_main_arg14 : W2 m ρ c (Proc.devRef .tc main_arg14) = T_main_arg14 m c := (W2_of_ne m ρ c main_arg14 (by decide)).trans (at1_main_arg14 m ρ c)
theorem at2_main_arg27 : W2 m ρ c (Proc.devRef .tc main_arg27) = T_main_arg27 m c := (W2_of_ne m ρ c main_arg27 (by decide)).trans (at1_main_arg27 m ρ c)
theorem at2_main_arg19 : W2 m ρ c (Proc.devRef .tc main_arg19) = T_main_arg19 m c := (W2_of_ne m ρ c main_arg19 (by decide)).trans (at1_main_arg19 m ρ c)
theorem at2_main_arg20 : W2 m ρ c (Proc.devRef .tc main_arg20) = T_main_arg20 m c := (W2_of_ne m ρ c main_arg20 (by decide)).trans (at1_main_arg20 m ρ c)
theorem at2_main_arg28 : W2 m ρ c (Proc.devRef .tc main_arg28) = T_main_arg28 m c := (W2_of_ne m ρ c main_arg28 (by decide)).trans (at1_main_arg28 m ρ c)
theorem at2_main_arg15 : W2 m ρ c (Proc.devRef .tc main_arg15) = T_main_arg15 m c := (W2_of_ne m ρ c main_arg15 (by decide)).trans (at1_main_arg15 m ρ c)
theorem at2_main_arg29 : W2 m ρ c (Proc.devRef .tc main_arg29) = T_main_arg29 m c := (W2_of_ne m ρ c main_arg29 (by decide)).trans (at1_main_arg29 m ρ c)
theorem at2_main_arg21 : W2 m ρ c (Proc.devRef .tc main_arg21) = T_main_arg21 m c := (W2_of_ne m ρ c main_arg21 (by decide)).trans (at1_main_arg21 m ρ c)
theorem at2_main_arg22 : W2 m ρ c (Proc.devRef .tc main_arg22) = T_main_arg22 m c := (W2_of_ne m ρ c main_arg22 (by decide)).trans (at1_main_arg22 m ρ c)
theorem at2_main_arg30 : W2 m ρ c (Proc.devRef .tc main_arg30) = T_main_arg30 m c := (W2_of_ne m ρ c main_arg30 (by decide)).trans (at1_main_arg30 m ρ c)
theorem at2_main_arg16 : W2 m ρ c (Proc.devRef .tc main_arg16) = T_main_arg16 m c := (W2_of_ne m ρ c main_arg16 (by decide)).trans (at1_main_arg16 m ρ c)
theorem at2_main_arg31 : W2 m ρ c (Proc.devRef .tc main_arg31) = T_main_arg31 m c := (W2_of_ne m ρ c main_arg31 (by decide)).trans (at1_main_arg31 m ρ c)
theorem at2_main_arg23 : W2 m ρ c (Proc.devRef .tc main_arg23) = T_main_arg23 m c := (W2_of_ne m ρ c main_arg23 (by decide)).trans (at1_main_arg23 m ρ c)
theorem at2_main_arg24 : W2 m ρ c (Proc.devRef .tc main_arg24) = T_main_arg24 m c := (W2_of_ne m ρ c main_arg24 (by decide)).trans (at1_main_arg24 m ρ c)
theorem at2_main_arg32 : W2 m ρ c (Proc.devRef .tc main_arg32) = T_main_arg32 m c := (W2_of_ne m ρ c main_arg32 (by decide)).trans (at1_main_arg32 m ρ c)
theorem at2_main_arg1 : W2 m ρ c (Proc.devRef .tc main_arg1) = T_main_arg1 m c := (W2_of_ne m ρ c main_arg1 (by decide)).trans (at1_main_arg1 m ρ c)
theorem at2_main_arg2 : W2 m ρ c (Proc.devRef .tc main_arg2) = T_main_arg2 m c := (W2_of_ne m ρ c main_arg2 (by decide)).trans (at1_main_arg2 m ρ c)
theorem at3_main_arg5 : W3 m ρ c (Proc.devRef .tc main_arg5) = T_main_arg5 m c := (W3_of_ne m ρ c main_arg5 (by decide)).trans (at2_main_arg5 m ρ c)
theorem at3_main_v14 : W3 m ρ c (Proc.devRef .tc main_v14) = T_main_v14 m c := (W3_of_ne m ρ c main_v14 (by decide)).trans (at2_main_v14 m ρ c)
theorem at3_main_arg6 : W3 m ρ c (Proc.devRef .tc main_arg6) = T_main_arg6 m c := (W3_of_ne m ρ c main_arg6 (by decide)).trans (at2_main_arg6 m ρ c)
theorem at3_main_v15 : W3 m ρ c (Proc.devRef .tc main_v15) = T_main_v15 m c := by
  have e0 : V2 m ρ c (Pipeline.arrRef spec1 0) = T_main_arg8 m c := at2_main_arg8 m ρ c
  have e1 : V2 m ρ c (Pipeline.arrRef spec1 1) = T_main_arg11 m c := at2_main_arg11 m ρ c
  have e2 : V2 m ρ c (Pipeline.arrRef spec1 2) = T_main_arg12 m c := at2_main_arg12 m ρ c
  refine (W3_arr m ρ c 3).trans ((Cert.KernelIdeal.ProjValueT.arrAt_eq (V2 m ρ) c).trans ?_)
  rw [e0, e1, e2]
  rfl
theorem at3_main_arg13 : W3 m ρ c (Proc.devRef .tc main_arg13) = T_main_arg13 m c := (W3_of_ne m ρ c main_arg13 (by decide)).trans (at2_main_arg13 m ρ c)
theorem at3_main_v1 : W3 m ρ c (Proc.devRef .tc main_v1) = T_main_v1 m c := (W3_of_ne m ρ c main_v1 (by decide)).trans (at2_main_v1 m ρ c)
theorem at3_main_v3 : W3 m ρ c (Proc.devRef .tc main_v3) = T_main_v3 m c := (W3_of_ne m ρ c main_v3 (by decide)).trans (at2_main_v3 m ρ c)
theorem at3_main_v12 : W3 m ρ c (Proc.devRef .tc main_v12) = T_main_v12 m c := (W3_of_ne m ρ c main_v12 (by decide)).trans (at2_main_v12 m ρ c)
theorem at3_main_arg25 : W3 m ρ c (Proc.devRef .tc main_arg25) = T_main_arg25 m c := (W3_of_ne m ρ c main_arg25 (by decide)).trans (at2_main_arg25 m ρ c)
theorem at3_main_v13 : W3 m ρ c (Proc.devRef .tc main_v13) = T_main_v13 m c := (W3_of_ne m ρ c main_v13 (by decide)).trans (at2_main_v13 m ρ c)
theorem at3_main_arg17 : W3 m ρ c (Proc.devRef .tc main_arg17) = T_main_arg17 m c := (W3_of_ne m ρ c main_arg17 (by decide)).trans (at2_main_arg17 m ρ c)
theorem at3_main_arg18 : W3 m ρ c (Proc.devRef .tc main_arg18) = T_main_arg18 m c := (W3_of_ne m ρ c main_arg18 (by decide)).trans (at2_main_arg18 m ρ c)
theorem at3_main_arg26 : W3 m ρ c (Proc.devRef .tc main_arg26) = T_main_arg26 m c := (W3_of_ne m ρ c main_arg26 (by decide)).trans (at2_main_arg26 m ρ c)
theorem at3_main_arg14 : W3 m ρ c (Proc.devRef .tc main_arg14) = T_main_arg14 m c := (W3_of_ne m ρ c main_arg14 (by decide)).trans (at2_main_arg14 m ρ c)
theorem at3_main_arg27 : W3 m ρ c (Proc.devRef .tc main_arg27) = T_main_arg27 m c := (W3_of_ne m ρ c main_arg27 (by decide)).trans (at2_main_arg27 m ρ c)
theorem at3_main_arg19 : W3 m ρ c (Proc.devRef .tc main_arg19) = T_main_arg19 m c := (W3_of_ne m ρ c main_arg19 (by decide)).trans (at2_main_arg19 m ρ c)
theorem at3_main_arg20 : W3 m ρ c (Proc.devRef .tc main_arg20) = T_main_arg20 m c := (W3_of_ne m ρ c main_arg20 (by decide)).trans (at2_main_arg20 m ρ c)
theorem at3_main_arg28 : W3 m ρ c (Proc.devRef .tc main_arg28) = T_main_arg28 m c := (W3_of_ne m ρ c main_arg28 (by decide)).trans (at2_main_arg28 m ρ c)
theorem at3_main_arg15 : W3 m ρ c (Proc.devRef .tc main_arg15) = T_main_arg15 m c := (W3_of_ne m ρ c main_arg15 (by decide)).trans (at2_main_arg15 m ρ c)
theorem at3_main_arg29 : W3 m ρ c (Proc.devRef .tc main_arg29) = T_main_arg29 m c := (W3_of_ne m ρ c main_arg29 (by decide)).trans (at2_main_arg29 m ρ c)
theorem at3_main_arg21 : W3 m ρ c (Proc.devRef .tc main_arg21) = T_main_arg21 m c := (W3_of_ne m ρ c main_arg21 (by decide)).trans (at2_main_arg21 m ρ c)
theorem at3_main_arg22 : W3 m ρ c (Proc.devRef .tc main_arg22) = T_main_arg22 m c := (W3_of_ne m ρ c main_arg22 (by decide)).trans (at2_main_arg22 m ρ c)
theorem at3_main_arg30 : W3 m ρ c (Proc.devRef .tc main_arg30) = T_main_arg30 m c := (W3_of_ne m ρ c main_arg30 (by decide)).trans (at2_main_arg30 m ρ c)
theorem at3_main_arg16 : W3 m ρ c (Proc.devRef .tc main_arg16) = T_main_arg16 m c := (W3_of_ne m ρ c main_arg16 (by decide)).trans (at2_main_arg16 m ρ c)
theorem at3_main_arg31 : W3 m ρ c (Proc.devRef .tc main_arg31) = T_main_arg31 m c := (W3_of_ne m ρ c main_arg31 (by decide)).trans (at2_main_arg31 m ρ c)
theorem at3_main_arg23 : W3 m ρ c (Proc.devRef .tc main_arg23) = T_main_arg23 m c := (W3_of_ne m ρ c main_arg23 (by decide)).trans (at2_main_arg23 m ρ c)
theorem at3_main_arg24 : W3 m ρ c (Proc.devRef .tc main_arg24) = T_main_arg24 m c := (W3_of_ne m ρ c main_arg24 (by decide)).trans (at2_main_arg24 m ρ c)
theorem at3_main_arg32 : W3 m ρ c (Proc.devRef .tc main_arg32) = T_main_arg32 m c := (W3_of_ne m ρ c main_arg32 (by decide)).trans (at2_main_arg32 m ρ c)
theorem at3_main_arg1 : W3 m ρ c (Proc.devRef .tc main_arg1) = T_main_arg1 m c := (W3_of_ne m ρ c main_arg1 (by decide)).trans (at2_main_arg1 m ρ c)
theorem at3_main_arg2 : W3 m ρ c (Proc.devRef .tc main_arg2) = T_main_arg2 m c := (W3_of_ne m ρ c main_arg2 (by decide)).trans (at2_main_arg2 m ρ c)
theorem at4_main_v16 : W4 m ρ c (Proc.devRef .tc main_v16) = T_main_v16 m c := by
  show StableHlo.after hostOps2 (W3 m ρ c) (Proc.devRef .tc main_v16) = _
  after_results
  rw [at3_main_arg5 m ρ c, at3_main_v14 m ρ c]
  rfl
theorem at4_main_arg13 : W4 m ρ c (Proc.devRef .tc main_arg13) = T_main_arg13 m c := (StableHlo.after_of_forall_not_mem (b := Proc.devRef .tc main_arg13) hostOps2 (W3 m ρ c) (List.forall_iff_forall_mem.mp (by keep_host))).trans (at3_main_arg13 m ρ c)
theorem at4_main_v1 : W4 m ρ c (Proc.devRef .tc main_v1) = T_main_v1 m c := (StableHlo.after_of_forall_not_mem (b := Proc.devRef .tc main_v1) hostOps2 (W3 m ρ c) (List.forall_iff_forall_mem.mp (by keep_host))).trans (at3_main_v1 m ρ c)
theorem at4_main_v3 : W4 m ρ c (Proc.devRef .tc main_v3) = T_main_v3 m c := (StableHlo.after_of_forall_not_mem (b := Proc.devRef .tc main_v3) hostOps2 (W3 m ρ c) (List.forall_iff_forall_mem.mp (by keep_host))).trans (at3_main_v3 m ρ c)
theorem at4_main_v12 : W4 m ρ c (Proc.devRef .tc main_v12) = T_main_v12 m c := (StableHlo.after_of_forall_not_mem (b := Proc.devRef .tc main_v12) hostOps2 (W3 m ρ c) (List.forall_iff_forall_mem.mp (by keep_host))).trans (at3_main_v12 m ρ c)
theorem at4_main_arg25 : W4 m ρ c (Proc.devRef .tc main_arg25) = T_main_arg25 m c := (StableHlo.after_of_forall_not_mem (b := Proc.devRef .tc main_arg25) hostOps2 (W3 m ρ c) (List.forall_iff_forall_mem.mp (by keep_host))).trans (at3_main_arg25 m ρ c)
theorem at4_main_v13 : W4 m ρ c (Proc.devRef .tc main_v13) = T_main_v13 m c := (StableHlo.after_of_forall_not_mem (b := Proc.devRef .tc main_v13) hostOps2 (W3 m ρ c) (List.forall_iff_forall_mem.mp (by keep_host))).trans (at3_main_v13 m ρ c)
theorem at4_main_arg17 : W4 m ρ c (Proc.devRef .tc main_arg17) = T_main_arg17 m c := (StableHlo.after_of_forall_not_mem (b := Proc.devRef .tc main_arg17) hostOps2 (W3 m ρ c) (List.forall_iff_forall_mem.mp (by keep_host))).trans (at3_main_arg17 m ρ c)
theorem at4_main_arg18 : W4 m ρ c (Proc.devRef .tc main_arg18) = T_main_arg18 m c := (StableHlo.after_of_forall_not_mem (b := Proc.devRef .tc main_arg18) hostOps2 (W3 m ρ c) (List.forall_iff_forall_mem.mp (by keep_host))).trans (at3_main_arg18 m ρ c)
theorem at4_main_arg26 : W4 m ρ c (Proc.devRef .tc main_arg26) = T_main_arg26 m c := (StableHlo.after_of_forall_not_mem (b := Proc.devRef .tc main_arg26) hostOps2 (W3 m ρ c) (List.forall_iff_forall_mem.mp (by keep_host))).trans (at3_main_arg26 m ρ c)
theorem at4_main_arg14 : W4 m ρ c (Proc.devRef .tc main_arg14) = T_main_arg14 m c := (StableHlo.after_of_forall_not_mem (b := Proc.devRef .tc main_arg14) hostOps2 (W3 m ρ c) (List.forall_iff_forall_mem.mp (by keep_host))).trans (at3_main_arg14 m ρ c)
theorem at4_main_arg27 : W4 m ρ c (Proc.devRef .tc main_arg27) = T_main_arg27 m c := (StableHlo.after_of_forall_not_mem (b := Proc.devRef .tc main_arg27) hostOps2 (W3 m ρ c) (List.forall_iff_forall_mem.mp (by keep_host))).trans (at3_main_arg27 m ρ c)
theorem at4_main_arg19 : W4 m ρ c (Proc.devRef .tc main_arg19) = T_main_arg19 m c := (StableHlo.after_of_forall_not_mem (b := Proc.devRef .tc main_arg19) hostOps2 (W3 m ρ c) (List.forall_iff_forall_mem.mp (by keep_host))).trans (at3_main_arg19 m ρ c)
theorem at4_main_arg20 : W4 m ρ c (Proc.devRef .tc main_arg20) = T_main_arg20 m c := (StableHlo.after_of_forall_not_mem (b := Proc.devRef .tc main_arg20) hostOps2 (W3 m ρ c) (List.forall_iff_forall_mem.mp (by keep_host))).trans (at3_main_arg20 m ρ c)
theorem at4_main_arg28 : W4 m ρ c (Proc.devRef .tc main_arg28) = T_main_arg28 m c := (StableHlo.after_of_forall_not_mem (b := Proc.devRef .tc main_arg28) hostOps2 (W3 m ρ c) (List.forall_iff_forall_mem.mp (by keep_host))).trans (at3_main_arg28 m ρ c)
theorem at4_main_v17 : W4 m ρ c (Proc.devRef .tc main_v17) = T_main_v17 m c := by
  show StableHlo.after hostOps2 (W3 m ρ c) (Proc.devRef .tc main_v17) = _
  after_results
  rw [at3_main_arg6 m ρ c, at3_main_v15 m ρ c]
  rfl
theorem at4_main_arg15 : W4 m ρ c (Proc.devRef .tc main_arg15) = T_main_arg15 m c := (StableHlo.after_of_forall_not_mem (b := Proc.devRef .tc main_arg15) hostOps2 (W3 m ρ c) (List.forall_iff_forall_mem.mp (by keep_host))).trans (at3_main_arg15 m ρ c)
theorem at4_main_arg29 : W4 m ρ c (Proc.devRef .tc main_arg29) = T_main_arg29 m c := (StableHlo.after_of_forall_not_mem (b := Proc.devRef .tc main_arg29) hostOps2 (W3 m ρ c) (List.forall_iff_forall_mem.mp (by keep_host))).trans (at3_main_arg29 m ρ c)
theorem at4_main_arg21 : W4 m ρ c (Proc.devRef .tc main_arg21) = T_main_arg21 m c := (StableHlo.after_of_forall_not_mem (b := Proc.devRef .tc main_arg21) hostOps2 (W3 m ρ c) (List.forall_iff_forall_mem.mp (by keep_host))).trans (at3_main_arg21 m ρ c)
theorem at4_main_arg22 : W4 m ρ c (Proc.devRef .tc main_arg22) = T_main_arg22 m c := (StableHlo.after_of_forall_not_mem (b := Proc.devRef .tc main_arg22) hostOps2 (W3 m ρ c) (List.forall_iff_forall_mem.mp (by keep_host))).trans (at3_main_arg22 m ρ c)
theorem at4_main_arg30 : W4 m ρ c (Proc.devRef .tc main_arg30) = T_main_arg30 m c := (StableHlo.after_of_forall_not_mem (b := Proc.devRef .tc main_arg30) hostOps2 (W3 m ρ c) (List.forall_iff_forall_mem.mp (by keep_host))).trans (at3_main_arg30 m ρ c)
theorem at4_main_arg16 : W4 m ρ c (Proc.devRef .tc main_arg16) = T_main_arg16 m c := (StableHlo.after_of_forall_not_mem (b := Proc.devRef .tc main_arg16) hostOps2 (W3 m ρ c) (List.forall_iff_forall_mem.mp (by keep_host))).trans (at3_main_arg16 m ρ c)
theorem at4_main_arg31 : W4 m ρ c (Proc.devRef .tc main_arg31) = T_main_arg31 m c := (StableHlo.after_of_forall_not_mem (b := Proc.devRef .tc main_arg31) hostOps2 (W3 m ρ c) (List.forall_iff_forall_mem.mp (by keep_host))).trans (at3_main_arg31 m ρ c)
theorem at4_main_arg23 : W4 m ρ c (Proc.devRef .tc main_arg23) = T_main_arg23 m c := (StableHlo.after_of_forall_not_mem (b := Proc.devRef .tc main_arg23) hostOps2 (W3 m ρ c) (List.forall_iff_forall_mem.mp (by keep_host))).trans (at3_main_arg23 m ρ c)
theorem at4_main_arg24 : W4 m ρ c (Proc.devRef .tc main_arg24) = T_main_arg24 m c := (StableHlo.after_of_forall_not_mem (b := Proc.devRef .tc main_arg24) hostOps2 (W3 m ρ c) (List.forall_iff_forall_mem.mp (by keep_host))).trans (at3_main_arg24 m ρ c)
theorem at4_main_arg32 : W4 m ρ c (Proc.devRef .tc main_arg32) = T_main_arg32 m c := (StableHlo.after_of_forall_not_mem (b := Proc.devRef .tc main_arg32) hostOps2 (W3 m ρ c) (List.forall_iff_forall_mem.mp (by keep_host))).trans (at3_main_arg32 m ρ c)
theorem at4_main_arg1 : W4 m ρ c (Proc.devRef .tc main_arg1) = T_main_arg1 m c := (StableHlo.after_of_forall_not_mem (b := Proc.devRef .tc main_arg1) hostOps2 (W3 m ρ c) (List.forall_iff_forall_mem.mp (by keep_host))).trans (at3_main_arg1 m ρ c)
theorem at4_main_arg2 : W4 m ρ c (Proc.devRef .tc main_arg2) = T_main_arg2 m c := (StableHlo.after_of_forall_not_mem (b := Proc.devRef .tc main_arg2) hostOps2 (W3 m ρ c) (List.forall_iff_forall_mem.mp (by keep_host))).trans (at3_main_arg2 m ρ c)

end Cert.KernelIdeal.Trace

end
-- ==== Proof.Stage1ValueV.lean ====
/-
  Region 2 (the first stage: row normalisation and a 128 × 128 projection, ten blocks of 6000 rows).

  For an input array `x : [60000, 128]` and a weight matrix `w : [128, 128]` the region leaves
    * in its first output   `y r j = x r j / max (sqrt (∑ₖ x r k · x r k)) ε`   (`ε` the f32 word 0x2B8CBCCC, never evaluated),
    * in its second output  `z r j = ∑ₖ y r k · w k j`.
  Each grid point `t` reads rows `6000·t … 6000·t + 5999` of `x` and the whole of `w`, and writes the same rows of both
  outputs; a row's result depends on that row of `x` only, so block `t` of the result is the result of block `t`.
  On the ideal values the kernel's lane sum is the plain sum of the 128 products, its roundings to bf16 before the matrix
  product are the identity, and its accumulator is zero; the reference's `reduce` adds the same 128 products to a zero
  initial value, and its `dot_general` is the same sum over the contraction coordinate. So both arrays are, index by
  index, the reference's whole-array terms applied to the region's two input arrays (`arr2_ref`, `arr3_ref`).
-/
import proofs.«159630_j86646670230227_1_alg».proof.Proof.Gen.KernelIdeal.Frame
import proofs.«159630_j86646670230227_1_alg».proof.Proof.Gen.ReferenceIdeal
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Stage1ValueV

open Idealize.ShloMosaic Idealize.ShloMosaic.ValueIdx Idealize.ShloMosaic.TcCoe Idealize.SL.Sem
open Idealize.ShloMosaic.Pipeline (Dat)
open Cert.KernelIdeal

/-- An `[a]` array cast to `[a, 1]` reads, at `(p, u)`, the operand at `p`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `(r, j)` of the row-normalised array: `x r j / max (sqrt (∑ₖ x r k · x r k)) ε`, `ε` the shared literal. -/
def rowNorm {n : ℕ} (x : (⟨2, ![n, 128]⟩ : Shape).Idx → EReal) (r : Fin n) (j : Fin 128) : EReal :=
  Ideal.div (x (ix2 r j))
    (max (Ideal.sqrt (∑ k : Fin 128, x (ix2 r k) * x (ix2 r k))) (Ideal.ofBits .f32 0x2B8CBCCC#32))

/-- The lane sum of a `[6000, 128]` block at row `r` is the sum over the 128 columns. -/
theorem laneSum_apply (y : FVec Ideal S6000x128 .f32) (hφ : FKind.Formats .f32)
    (hacc : (0x00000000#32 : BitVec 32) = 0x00000000#32) (r : Fin 6000) :
    multiReduction .add [1] S6000 y 0x00000000#32 Gen.reduces_S6000x128_S6000 hφ hacc (ix1 r) = ∑ k : Fin 128, y (ix2 r k) := by
  refine (Ideal.multiReduction_add_single y 0x00000000#32 Gen.reduces_S6000x128_S6000 hφ hacc (ix1 r)).trans ?_
  refine Finset.sum_congr rfl fun k _ => congrArg y (funext fun a => Fin.ext ?_)
  match a with
  | ⟨0, _⟩ => rfl
  | ⟨1, _⟩ => rfl

/-- The first payload of the stage-1 body at `(r, j)`: the block's row `r` normalised. -/
theorem pay1_apply (v0 : Vec Ideal S6000x128 .f32) (r : Fin 6000) (j : Fin 128) :
    Gen.k2_pay1 (F := Ideal) v0 (ix2 r j) = rowNorm v0 r j := by
  unfold Gen.k2_pay1 rowNorm
  rw [shapeCast_self]
  rw [divf_apply, broadcastTo_a1_ab_apply, maximumf_apply]
  show Ideal.div _ (max (Ideal.sqrt (shapeCast S6000x1 _ _ (ix2 r (0 : Fin 1)))) _) = _
  rw [shapeCast_a_a1_apply, laneSum_apply]
  rfl

/-- Row coordinate of the left operand's index in the block product. -/
theorem lhsK_0 (i : S6000x128.Idx) (q : dot_S6000x128_S128x128_S6000x128_1_0_0_1_n_n.contr.Idx) :
    (dot_S6000x128_S128x128_S6000x128_1_0_0_1_n_n.lhsIdx i q 0).val = (i 0).val := by
  unfold DotDims.lhsIdx
  rw [dif_neg (show ¬(0 : Fin S6000x128.rank) ∈ dot_S6000x128_S128x128_S6000x128_1_0_0_1_n_n.lhsBatch by decide), dif_pos (show (0 : Fin S6000x128.rank) ∈ dot_S6000x128_S128x128_S6000x128_1_0_0_1_n_n.lhsNonContracting by decide)]
  rfl

/-- Column coordinate of the right operand's index in the block product. -/
theorem rhsK_1 (i : S6000x128.Idx) (q : dot_S6000x128_S128x128_S6000x128_1_0_0_1_n_n.contr.Idx) :
    (dot_S6000x128_S128x128_S6000x128_1_0_0_1_n_n.rhsIdx i q 1).val = (i 1).val := by
  unfold DotDims.rhsIdx
  rw [dif_neg (show ¬(1 : Fin S128x128.rank) ∈ dot_S6000x128_S128x128_S6000x128_1_0_0_1_n_n.rhsBatch by decide), dif_pos (show (1 : Fin S128x128.rank) ∈ dot_S6000x128_S128x128_S6000x128_1_0_0_1_n_n.rhsNonContracting by decide)]
  rfl

/-- The second payload of the stage-1 body at `(r, j)`: row `r` of the normalised block times column `j` of the
    weight matrix, a sum over the 128 contraction coordinates (the roundings to bf16 are the identity on the ideal values,
    the accumulator is the zero splat). -/
theorem pay2_apply (v0 : Vec Ideal S6000x128 .f32) (v12 : Vec Ideal S128x128 .f32) (r : Fin 6000) (j : Fin 128) :
    Gen.k2_pay2 (F := Ideal) v0 v12 (ix2 r j) = ∑ k : Fin 128, rowNorm v0 r k * v12 (ix2 k j) := by
  unfold Gen.k2_pay2
  simp only [matmul]
  rw [Ideal.matmul_constant_zero_apply, ← Equiv.sum_comp (contrEquiv1 dot_S6000x128_S128x128_S6000x128_1_0_0_1_n_n 128 rfl rfl).symm]
  refine Finset.sum_congr rfl fun k _ => ?_
  have hk := contrEquiv1_symm_val dot_S6000x128_S128x128_S6000x128_1_0_0_1_n_n 128 rfl rfl k
  have el : dot_S6000x128_S128x128_S6000x128_1_0_0_1_n_n.lhsIdx (ix2 r j) ((contrEquiv1 dot_S6000x128_S128x128_S6000x128_1_0_0_1_n_n 128 rfl rfl).symm k) = ix2 r k := funext fun a => Fin.ext (by
    match a with
    | ⟨0, _⟩ => exact lhsK_0 _ _
    | ⟨1, _⟩ => exact (dot_S6000x128_S128x128_S6000x128_1_0_0_1_n_n.lhsIdx_val_of_single rfl _ _).trans hk)
  have er : dot_S6000x128_S128x128_S6000x128_1_0_0_1_n_n.rhsIdx (ix2 r j) ((contrEquiv1 dot_S6000x128_S128x128_S6000x128_1_0_0_1_n_n 128 rfl rfl).symm k) = ix2 k j := funext fun a => Fin.ext (by
    match a with
    | ⟨0, _⟩ => exact (dot_S6000x128_S128x128_S6000x128_1_0_0_1_n_n.rhsIdx_val_of_single rfl _ _).trans hk
    | ⟨1, _⟩ => exact rhsK_1 _ _)
  rw [el, er, truncf_apply, truncf_apply, pay1_apply]

/-! ## The reference's whole-array terms, read at an index -/

/-- The reference's row normalisation of a `[60000, 128]` array, as the composition of host operations it is printed as:
    `x / broadcast (max (sqrt (broadcast (reduce_add (x · x) 0))) (broadcast ε))`. -/
def hostRowNorm (x : FVec Ideal Cert.ReferenceIdeal.S60000x128 .f32) : FVec Ideal Cert.ReferenceIdeal.S60000x128 .f32 :=
  Host.divf (F := Ideal) x (broadcastInDim Cert.ReferenceIdeal.S60000x128 ![0, 1] Cert.ReferenceIdeal.Gen.bcast_S60000x1_S60000x128_0_1 (maximumf (Host.sqrt (F := Ideal) (broadcastInDim Cert.ReferenceIdeal.S60000x1 ![0] Cert.ReferenceIdeal.Gen.bcast_S60000_S60000x1_0 (Host.reduceAdd (F := Ideal) (mulf x x) (constant (F := Ideal) Cert.ReferenceIdeal.S_ .f32 0x00000000#32) Cert.ReferenceIdeal.Gen.reducesTo_S60000x128_S60000_d1 Cert.ReferenceIdeal.Gen.h_S_))) (broadcastInDim Cert.ReferenceIdeal.S60000x1 ![] Cert.ReferenceIdeal.Gen.bcast_S_S60000x1 (constant (F := Ideal) Cert.ReferenceIdeal.S_ .f32 0x2B8CBCCC#32))))

/-- `hostRowNorm` is, by definition, that composition. -/
theorem hostRowNorm_eq (x : FVec Ideal Cert.ReferenceIdeal.S60000x128 .f32) : hostRowNorm x =
  Host.divf (F := Ideal) x (broadcastInDim Cert.ReferenceIdeal.S60000x128 ![0, 1] Cert.ReferenceIdeal.Gen.bcast_S60000x1_S60000x128_0_1 (maximumf (Host.sqrt (F := Ideal) (broadcastInDim Cert.ReferenceIdeal.S60000x1 ![0] Cert.ReferenceIdeal.Gen.bcast_S60000_S60000x1_0 (Host.reduceAdd (F := Ideal) (mulf x x) (constant (F := Ideal) Cert.ReferenceIdeal.S_ .f32 0x00000000#32) Cert.ReferenceIdeal.Gen.reducesTo_S60000x128_S60000_d1 Cert.ReferenceIdeal.Gen.h_S_))) (broadcastInDim Cert.ReferenceIdeal.S60000x1 ![] Cert.ReferenceIdeal.Gen.bcast_S_S60000x1 (constant (F := Ideal) Cert.ReferenceIdeal.S_ .f32 0x2B8CBCCC#32)))) := rfl

/-- The host's sum over the columns of a `[60000, 128]` array at row `r`: the initial value plus the 128 entries. -/
theorem hostRowSum_apply (y : FVec Ideal Cert.ReferenceIdeal.S60000x128 .f32) (init : FVec Ideal Cert.ReferenceIdeal.S_ .f32) (r : Fin 60000) :
    Host.reduceAdd (F := Ideal) y init Cert.ReferenceIdeal.Gen.reducesTo_S60000x128_S60000_d1 Cert.ReferenceIdeal.Gen.h_S_ (ix1 r)
      = init (Shape.Idx.first Cert.ReferenceIdeal.Gen.h_S_) + ∑ k : Fin 128, y (ix2 r k) := by
  simp only [Host.reduceAdd, Ideal.hostReduceAdd_def]
  rw [Ideal.hostReduceAdd_single Cert.ReferenceIdeal.Gen.reducesTo_S60000x128_S60000_d1 (by decide)]
  refine congrArg (_ + ·) (Finset.sum_congr rfl fun k _ => ?_)
  exact congrArg y (funext fun a => Fin.ext (by match a with | ⟨0, _⟩ => rfl | ⟨1, _⟩ => rfl))

/-- The host's square root is pointwise. -/
theorem hostSqrt_apply {s : Shape} (y : FVec Ideal s .f32) (i : s.Idx) : Host.sqrt (F := Ideal) y i = Ideal.sqrt (y i) := rfl

/-- The reference's row normalisation at `(r, j)` is `rowNorm` there: its sum starts from the zero word. -/
theorem hostRowNorm_apply (x : FVec Ideal Cert.ReferenceIdeal.S60000x128 .f32) (r : Fin 60000) (j : Fin 128) :
    hostRowNorm x (ix2 r j) = rowNorm x r j := by
  unfold hostRowNorm rowNorm
  rw [hostDivf_apply]
  rw [broadcastInDim_apply _ Cert.ReferenceIdeal.Gen.bcast_S60000x1_S60000x128_0_1 _ (ix2 r j) (ix2 r (0 : Fin 1)) (fun a => match a with
    | ⟨0, _⟩ => by show r.val = if (60000 : Nat) = 1 then 0 else r.val; rw [if_neg (by decide)]
    | ⟨1, _⟩ => by show 0 = if (1 : Nat) = 1 then 0 else j.val; rw [if_pos rfl])]
  rw [maximumf_apply, hostSqrt_apply]
  rw [broadcastInDim_apply _ Cert.ReferenceIdeal.Gen.bcast_S60000_S60000x1_0 _ (ix2 r (0 : Fin 1)) (ix1 r) (fun a => match a with
    | ⟨0, _⟩ => by show r.val = if (60000 : Nat) = 1 then 0 else r.val; rw [if_neg (by decide)])]
  rw [broadcastInDim_scalar_apply, hostRowSum_apply, constant_apply, constant_apply, Ideal.ofBits_zero_f32, zero_add]
  rfl

/-- Row coordinate of the left operand's index in the reference's product. -/
theorem lhsR_0 (i : Cert.ReferenceIdeal.S60000x128.Idx) (q : Cert.ReferenceIdeal.dot_S60000x128_S128x128_S60000x128_1_0_0_1_n_n.contr.Idx) :
    (Cert.ReferenceIdeal.dot_S60000x128_S128x128_S60000x128_1_0_0_1_n_n.lhsIdx i q 0).val = (i 0).val := by
  unfold DotDims.lhsIdx
  rw [dif_neg (show ¬(0 : Fin Cert.ReferenceIdeal.S60000x128.rank) ∈ Cert.ReferenceIdeal.dot_S60000x128_S128x128_S60000x128_1_0_0_1_n_n.lhsBatch by decide), dif_pos (show (0 : Fin Cert.ReferenceIdeal.S60000x128.rank) ∈ Cert.ReferenceIdeal.dot_S60000x128_S128x128_S60000x128_1_0_0_1_n_n.lhsNonContracting by decide)]
  rfl

/-- Column coordinate of the right operand's index in the reference's product. -/
theorem rhsR_1 (i : Cert.ReferenceIdeal.S60000x128.Idx) (q : Cert.ReferenceIdeal.dot_S60000x128_S128x128_S60000x128_1_0_0_1_n_n.contr.Idx) :
    (Cert.ReferenceIdeal.dot_S60000x128_S128x128_S60000x128_1_0_0_1_n_n.rhsIdx i q 1).val = (i 1).val := by
  unfold DotDims.rhsIdx
  rw [dif_neg (show ¬(1 : Fin Cert.ReferenceIdeal.S128x128.rank) ∈ Cert.ReferenceIdeal.dot_S60000x128_S128x128_S60000x128_1_0_0_1_n_n.rhsBatch by decide), dif_pos (show (1 : Fin Cert.ReferenceIdeal.S128x128.rank) ∈ Cert.ReferenceIdeal.dot_S60000x128_S128x128_S60000x128_1_0_0_1_n_n.rhsNonContracting by decide)]
  rfl

/-- The reference's `[60000, 128] × [128, 128]` product at `(r, j)`: row `r` of the left operand times column `j` of the
    right one, a sum over the 128 contraction coordinates. -/
theorem hostDot_apply (a : FVec Ideal Cert.ReferenceIdeal.S60000x128 .f32) (w : FVec Ideal Cert.ReferenceIdeal.S128x128 .f32) (r : Fin 60000) (j : Fin 128) :
    Host.dotGeneral (F := Ideal) Cert.ReferenceIdeal.dot_S60000x128_S128x128_S60000x128_1_0_0_1_n_n none a w (ix2 r j) = ∑ k : Fin 128, a (ix2 r k) * w (ix2 k j) := by
  simp only [Host.dotGeneral]
  rw [Ideal.dotGeneral_apply, ← Equiv.sum_comp (contrEquiv1 Cert.ReferenceIdeal.dot_S60000x128_S128x128_S60000x128_1_0_0_1_n_n 128 rfl rfl).symm]
  refine Finset.sum_congr rfl fun k _ => ?_
  have hk := contrEquiv1_symm_val Cert.ReferenceIdeal.dot_S60000x128_S128x128_S60000x128_1_0_0_1_n_n 128 rfl rfl k
  have el : Cert.ReferenceIdeal.dot_S60000x128_S128x128_S60000x128_1_0_0_1_n_n.lhsIdx (ix2 r j) ((contrEquiv1 Cert.ReferenceIdeal.dot_S60000x128_S128x128_S60000x128_1_0_0_1_n_n 128 rfl rfl).symm k) = ix2 r k := funext fun a => Fin.ext (by
    match a with
    | ⟨0, _⟩ => exact lhsR_0 _ _
    | ⟨1, _⟩ => exact (Cert.ReferenceIdeal.dot_S60000x128_S128x128_S60000x128_1_0_0_1_n_n.lhsIdx_val_of_single rfl _ _).trans hk)
  have er : Cert.ReferenceIdeal.dot_S60000x128_S128x128_S60000x128_1_0_0_1_n_n.rhsIdx (ix2 r j) ((contrEquiv1 Cert.ReferenceIdeal.dot_S60000x128_S128x128_S60000x128_1_0_0_1_n_n 128 rfl rfl).symm k) = ix2 k j := funext fun a => Fin.ext (by
    match a with
    | ⟨0, _⟩ => exact (Cert.ReferenceIdeal.dot_S60000x128_S128x128_S60000x128_1_0_0_1_n_n.rhsIdx_val_of_single rfl _ _).trans hk
    | ⟨1, _⟩ => exact rhsR_1 _ _)
  rw [el, er]

/-! ## The two result arrays, index by index -/

/-- The row-normalised array. -/
def nrmArr (x : S60000x128.Idx → EReal) : S60000x128.Idx → EReal := fun i => rowNorm x (i 0) (i 1)

/-- The row-normalised array times the weight matrix. -/
def projArr (x : S60000x128.Idx → EReal) (w : S128x128.Idx → EReal) : S60000x128.Idx → EReal :=
  fun i => ∑ k : Fin 128, rowNorm x (i 0) k * w (ix2 k (i 1))

/-- `rowNorm` of a row depends on that row's 128 entries only. -/
theorem rowNorm_congr {n m : ℕ} (b : (⟨2, ![n, 128]⟩ : Shape).Idx → EReal) (x : (⟨2, ![m, 128]⟩ : Shape).Idx → EReal)
    (r : Fin n) (s : Fin m) (h : ∀ k : Fin 128, b (ix2 r k) = x (ix2 s k)) (j : Fin 128) :
    rowNorm b r j = rowNorm x s j := by
  unfold rowNorm
  rw [h j]
  exact congrArg (fun z => Ideal.div (x (ix2 s j)) (max (Ideal.sqrt z) (Ideal.ofBits .f32 0x2B8CBCCC#32)))
    (Finset.sum_congr rfl fun k _ => by rw [h k])

/-- The reference's normalisation term is the row-normalised array. -/
theorem nrmArr_eq_host (x : S60000x128.Idx → EReal) : nrmArr x = hostRowNorm x := funext fun i => by
  obtain ⟨r, j, rfl⟩ : ∃ (r : Fin 60000) (j : Fin 128), i = ix2 r j := ⟨i 0, i 1, eq_ix2 i⟩
  exact (hostRowNorm_apply x r j).symm

/-- The reference's product of its normalisation term with the weights is `projArr`. -/
theorem projArr_eq_host (x : S60000x128.Idx → EReal) (w : S128x128.Idx → EReal) :
    projArr x w = Host.dotGeneral (F := Ideal) (φ₁ := .f32) (φ₂ := .f32) Cert.ReferenceIdeal.dot_S60000x128_S128x128_S60000x128_1_0_0_1_n_n none (hostRowNorm x) w := funext fun i => by
  obtain ⟨r, j, rfl⟩ : ∃ (r : Fin 60000) (j : Fin 128), i = ix2 r j := ⟨i 0, i 1, eq_ix2 i⟩
  rw [hostDot_apply]
  show ∑ k : Fin 128, rowNorm x r k * w (ix2 k j) = _
  exact Finset.sum_congr rfl fun k _ => by rw [hostRowNorm_apply]

/-- If the block `b` is rows `6000·T …` of `x`, the first payload of `b` at `(p, q)` is the row-normalised array at
    `(6000·T + p, q)`. -/
theorem pay1_block (x : S60000x128.Idx → EReal) (b : Vec Ideal S6000x128 .f32) (T : ℕ)
    (hb : ∀ (p : Fin 6000) (k : Fin 128) (i : S60000x128.Idx), (i 0).val = T * 6000 + p.val → (i 1).val = k.val → b (ix2 p k) = x i)
    (p : Fin 6000) (q : Fin 128) (i : S60000x128.Idx) (h0 : (i 0).val = T * 6000 + p.val) (h1 : (i 1).val = q.val) :
    Gen.k2_pay1 (F := Ideal) b (ix2 p q) = nrmArr x i := by
  rw [pay1_apply]
  have e1 : q = i 1 := Fin.ext h1.symm
  subst e1
  exact rowNorm_congr b x p (i 0) (fun k => hb p k (ix2 (i 0) k) h0 rfl) (i 1)

/-- Likewise the second payload, the weight block being the whole weight matrix. -/
theorem pay2_block (x : S60000x128.Idx → EReal) (w : S128x128.Idx → EReal) (b : Vec Ideal S6000x128 .f32) (bw : Vec Ideal S128x128 .f32) (T : ℕ)
    (hb : ∀ (p : Fin 6000) (k : Fin 128) (i : S60000x128.Idx), (i 0).val = T * 6000 + p.val → (i 1).val = k.val → b (ix2 p k) = x i)
    (hw : ∀ k j : Fin 128, bw (ix2 k j) = w (ix2 k j))
    (p : Fin 6000) (q : Fin 128) (i : S60000x128.Idx) (h0 : (i 0).val = T * 6000 + p.val) (h1 : (i 1).val = q.val) :
    Gen.k2_pay2 (F := Ideal) b bw (ix2 p q) = projArr x w i := by
  rw [pay2_apply]
  have e1 : q = i 1 := Fin.ext h1.symm
  show _ = ∑ k : Fin 128, rowNorm x (i 0) k * w (ix2 k (i 1))
  exact Finset.sum_congr rfl fun k _ => by
    rw [rowNorm_congr b x p (i 0) (fun k => hb p k (ix2 (i 0) k) h0 rfl) k, hw k q, e1]

/-! ## From blocks to the arrays: region 2 -/

section Arrays

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten grid points: the row-block windows sit at block row `t`, column block 0;
    the weight window at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Every block row of the outputs is some point's. -/
theorem idx_onto : ∀ q0 : Fin 10, ∃ t : Fin cfg2.N, win2_2.index t = ![q0.val, 0] ∧ win2_3.index t = ![q0.val, 0] :=
  (by decide +kernel : ∀ q0 : Fin 10, ∃ t : Fin grid2.N, win2_2.index t = ![q0.val, 0] ∧ win2_3.index t = ![q0.val, 0])

/-- The input block at point `t` is rows `6000·t … 6000·t + 5999` of the input array. -/
theorem iblk0_apply (c : Dev nD) (t : Fin cfg2.N) (p : Fin 6000) (k : Fin 128) (i : S60000x128.Idx)
    (h0 : (i 0).val = t.val * 6000 + p.val) (h1 : (i 1).val = k.val) :
    (Gen.iblk2 V c 0 t : Vec Ideal S6000x128 .f32) (ix2 p k) = (V c (Pipeline.arrRef spec2 0) : S60000x128.Idx → EReal) i := by
  obtain ⟨e00, e01, -⟩ := idx_facts t
  unfold Gen.iblk2
  rw [View.read_apply]
  show (V c (Pipeline.arrRef spec2 0) : S60000x128.Idx → EReal) (((cfg2.win 0).blk t).view.emb (ix2 p k)) = _
  have h : ((cfg2.win 0).blk t).view.emb (ix2 p k) = i := by
    funext a; apply Fin.ext
    match a with
    | ⟨0, _⟩ => show win2_0.index t (0 : Fin 2) * 6000 + 1 * p.val = (i 0).val; omega
    | ⟨1, _⟩ => show win2_0.index t (1 : Fin 2) * 128 + 1 * k.val = (i 1).val; omega
  rw [h]

/-- The weight block at every point is the whole weight matrix. -/
theorem iblk1_apply (c : Dev nD) (t : Fin cfg2.N) (k j : Fin 128) :
    (Gen.iblk2 V c 1 t : Vec Ideal S128x128 .f32) (ix2 k j) = (V c (Pipeline.arrRef spec2 1) : S128x128.Idx → EReal) (ix2 k j) := by
  obtain ⟨-, -, e10, e11, -⟩ := idx_facts t
  unfold Gen.iblk2
  rw [View.read_apply]
  show (V c (Pipeline.arrRef spec2 1) : S128x128.Idx → EReal) (((cfg2.win 1).blk t).view.emb (ix2 k j)) = _
  have h : ((cfg2.win 1).blk t).view.emb (ix2 k j) = ix2 k j := by
    funext a; apply Fin.ext
    match a with
    | ⟨0, _⟩ => show win2_1.index t (0 : Fin 2) * 128 + 1 * k.val = k.val; omega
    | ⟨1, _⟩ => show win2_1.index t (1 : Fin 2) * 128 + 1 * j.val = j.val; omega
  rw [h]

/-- What point `t` writes back to the first output is block `t` of the row-normalised input array. -/
theorem flushed_nrm (c : Dev nD) (t : Fin cfg2.N) :
    (Gen.dat2 (F := Ideal) V c).flushed 2 t
      = ((cfg2.win 2).blk t).view.read (Elt Ideal) (nrmArr (V c (Pipeline.arrRef spec2 0))) := by
  show (cfg2.win 2).cut (grid2.coords t) ((Gen.dat2 (F := Ideal) V c).after 2 t) = _
  rw [Gen.after2_2]
  unfold Gen.out2_2
  rw [View.canon_unit_zero hz]
  simp only [View.ld_unit_zero (S := S6000x128) hz]
  obtain ⟨-, -, -, -, e20, e21, -⟩ := idx_facts t
  funext y
  show Gen.k2_pay1 (F := Ideal) (Gen.iblk2 V c 0 t) y = nrmArr (V c (Pipeline.arrRef spec2 0)) (((cfg2.win 2).blk t).view.emb y)
  obtain ⟨p, q, rfl⟩ : ∃ (p : Fin 6000) (q : Fin 128), y = ix2 p q := ⟨y 0, y 1, eq_ix2 y⟩
  refine pay1_block _ _ t.val (fun p k i h0 h1 => iblk0_apply V c t p k i h0 h1) p q _ ?_ ?_
  · show win2_2.index t (0 : Fin 2) * 6000 + 1 * p.val = t.val * 6000 + p.val; omega
  · show win2_2.index t (1 : Fin 2) * 128 + 1 * q.val = q.val; omega

/-- What point `t` writes back to the second output is block `t` of the normalised array times the weights. -/
theorem flushed_proj (c : Dev nD) (t : Fin cfg2.N) :
    (Gen.dat2 (F := Ideal) V c).flushed 3 t
      = ((cfg2.win 3).blk t).view.read (Elt Ideal) (projArr (V c (Pipeline.arrRef spec2 0)) (V c (Pipeline.arrRef spec2 1))) := by
  show (cfg2.win 3).cut (grid2.coords t) ((Gen.dat2 (F := Ideal) V c).after 3 t) = _
  rw [Gen.after2_3]
  unfold Gen.out2_3
  rw [View.canon_unit_zero hz]
  simp only [View.ld_unit_zero (S := S6000x128) hz, View.ld_unit_zero (S := S128x128) hz]
  obtain ⟨-, -, -, -, -, -, e30, e31⟩ := idx_facts t
  funext y
  show Gen.k2_pay2 (F := Ideal) (Gen.iblk2 V c 0 t) (Gen.iblk2 V c 1 t) y
    = projArr (V c (Pipeline.arrRef spec2 0)) (V c (Pipeline.arrRef spec2 1)) (((cfg2.win 3).blk t).view.emb y)
  obtain ⟨p, q, rfl⟩ : ∃ (p : Fin 6000) (q : Fin 128), y = ix2 p q := ⟨y 0, y 1, eq_ix2 y⟩
  refine pay2_block _ _ _ _ t.val (fun p k i h0 h1 => iblk0_apply V c t p k i h0 h1) (fun k j => iblk1_apply V c t k j) p q _ ?_ ?_
  · show win2_3.index t (0 : Fin 2) * 6000 + 1 * p.val = t.val * 6000 + p.val; omega
  · show win2_3.index t (1 : Fin 2) * 128 + 1 * q.val = q.val; omega

/-- An index of the first output array is in point `t`'s block iff each coordinate is in the block's range on its axis. -/
theorem mem_blk2 (t : Fin cfg2.N) (i : S60000x128.Idx) :
    i ∈ ((cfg2.win 2).blk t).view.set ↔ ∀ a : Fin 2, win2_2.index t a * S6000x128.size a ≤ (i a).val ∧ (i a).val < win2_2.index t a * S6000x128.size a + S6000x128.size a := by
  show i ∈ ((View.whole main_v18_0).slice (win2_2.rect t)).set ↔ _
  rw [View.set_slice_whole, Rect.mem_set_unit]
  exact Iff.rfl

/-- Likewise for the second output array. -/
theorem mem_blk3 (t : Fin cfg2.N) (i : S60000x128.Idx) :
    i ∈ ((cfg2.win 3).blk t).view.set ↔ ∀ a : Fin 2, win2_3.index t a * S6000x128.size a ≤ (i a).val ∧ (i a).val < win2_3.index t a * S6000x128.size a + S6000x128.size a := by
  show i ∈ ((View.whole main_v18_1).slice (win2_3.rect t)).set ↔ _
  rw [View.set_slice_whole, Rect.mem_set_unit]
  exact Iff.rfl

/-- Row `r` of the first output is covered by point `r / 6000`. -/
theorem cover2 (i : S60000x128.Idx) : ∃ t : Fin cfg2.N, (cfg2.win 2).flush t = true ∧ i ∈ ((cfg2.win 2).blk t).view.set := by
  have hi0 : (i 0).val < 60000 := (i 0).isLt
  have hi1 : (i 1).val < 128 := (i 1).isLt
  obtain ⟨t, ht, -⟩ := idx_onto ⟨(i 0).val / 6000, by omega⟩
  have q0 : win2_2.index t (0 : Fin 2) = (i 0).val / 6000 := congrFun ht 0
  have q1 : win2_2.index t (1 : Fin 2) = 0 := congrFun ht 1
  refine ⟨t, Gen.flush2_2 t, ?_⟩
  rw [mem_blk2]
  intro a
  match a with
  | ⟨0, _⟩ => show win2_2.index t (0 : Fin 2) * 6000 ≤ (i 0).val ∧ (i 0).val < win2_2.index t (0 : Fin 2) * 6000 + 6000; omega
  | ⟨1, _⟩ => show win2_2.index t (1 : Fin 2) * 128 ≤ (i 1).val ∧ (i 1).val < win2_2.index t (1 : Fin 2) * 128 + 128; omega

/-- Row `r` of the second output is covered by point `r / 6000`. -/
theorem cover3 (i : S60000x128.Idx) : ∃ t : Fin cfg2.N, (cfg2.win 3).flush t = true ∧ i ∈ ((cfg2.win 3).blk t).view.set := by
  have hi0 : (i 0).val < 60000 := (i 0).isLt
  have hi1 : (i 1).val < 128 := (i 1).isLt
  obtain ⟨t, -, ht⟩ := idx_onto ⟨(i 0).val / 6000, by omega⟩
  have q0 : win2_3.index t (0 : Fin 2) = (i 0).val / 6000 := congrFun ht 0
  have q1 : win2_3.index t (1 : Fin 2) = 0 := congrFun ht 1
  refine ⟨t, Gen.flush2_3 t, ?_⟩
  rw [mem_blk3]
  intro a
  match a with
  | ⟨0, _⟩ => show win2_3.index t (0 : Fin 2) * 6000 ≤ (i 0).val ∧ (i 0).val < win2_3.index t (0 : Fin 2) * 6000 + 6000; omega
  | ⟨1, _⟩ => show win2_3.index t (1 : Fin 2) * 128 ≤ (i 1).val ∧ (i 1).val < win2_3.index t (1 : Fin 2) * 128 + 128; omega

/-- The first output array after the region is the row-normalised input array. -/
theorem arr2_eq (c : Dev nD) :
    (Gen.dat2 (F := Ideal) V c).arrAt 2 cfg2.N = nrmArr (V c (Pipeline.arrRef spec2 0)) :=
  (Gen.dat2 (F := Ideal) V c).arrAt_eq_of_cover 2 (nrmArr (V c (Pipeline.arrRef spec2 0))) (fun t _ => flushed_nrm V c t) cover2

/-- The second output array after the region is the row-normalised input array times the weight matrix. -/
theorem arr3_eq (c : Dev nD) :
    (Gen.dat2 (F := Ideal) V c).arrAt 3 cfg2.N = projArr (V c (Pipeline.arrRef spec2 0)) (V c (Pipeline.arrRef spec2 1)) :=
  (Gen.dat2 (F := Ideal) V c).arrAt_eq_of_cover 3 (projArr (V c (Pipeline.arrRef spec2 0)) (V c (Pipeline.arrRef spec2 1))) (fun t _ => flushed_proj V c t) cover3

/-- THE FIRST OUTPUT, in the reference's words: the region leaves in it the reference's row normalisation of the
    region's input array. -/
theorem arr2_ref (c : Dev nD) :
    (Gen.dat2 (F := Ideal) V c).arrAt 2 cfg2.N
      = Host.divf (F := Ideal) (V c (Pipeline.arrRef spec2 0) : FVec Ideal Cert.ReferenceIdeal.S60000x128 .f32) (broadcastInDim Cert.ReferenceIdeal.S60000x128 ![0, 1] Cert.ReferenceIdeal.Gen.bcast_S60000x1_S60000x128_0_1 (maximumf (Host.sqrt (F := Ideal) (broadcastInDim Cert.ReferenceIdeal.S60000x1 ![0] Cert.ReferenceIdeal.Gen.bcast_S60000_S60000x1_0 (Host.reduceAdd (F := Ideal) (mulf (V c (Pipeline.arrRef spec2 0) : FVec Ideal Cert.ReferenceIdeal.S60000x128 .f32) (V c (Pipeline.arrRef spec2 0) : FVec Ideal Cert.ReferenceIdeal.S60000x128 .f32)) (constant (F := Ideal) Cert.ReferenceIdeal.S_ .f32 0x00000000#32) Cert.ReferenceIdeal.Gen.reducesTo_S60000x128_S60000_d1 Cert.ReferenceIdeal.Gen.h_S_))) (broadcastInDim Cert.ReferenceIdeal.S60000x1 ![] Cert.ReferenceIdeal.Gen.bcast_S_S60000x1 (constant (F := Ideal) Cert.ReferenceIdeal.S_ .f32 0x2B8CBCCC#32)))) :=
  (arr2_eq V c).trans (nrmArr_eq_host _)

/-- THE SECOND OUTPUT, in the reference's words: the reference's product of that normalisation with the region's weight
    array. -/
theorem arr3_ref (c : Dev nD) :
    (Gen.dat2 (F := Ideal) V c).arrAt 3 cfg2.N
      = Host.dotGeneral (F := Ideal) (φ₁ := .f32) (φ₂ := .f32) Cert.ReferenceIdeal.dot_S60000x128_S128x128_S60000x128_1_0_0_1_n_n none
          (Host.divf (F := Ideal) (V c (Pipeline.arrRef spec2 0) : FVec Ideal Cert.ReferenceIdeal.S60000x128 .f32) (broadcastInDim Cert.ReferenceIdeal.S60000x128 ![0, 1] Cert.ReferenceIdeal.Gen.bcast_S60000x1_S60000x128_0_1 (maximumf (Host.sqrt (F := Ideal) (broadcastInDim Cert.ReferenceIdeal.S60000x1 ![0] Cert.ReferenceIdeal.Gen.bcast_S60000_S60000x1_0 (Host.reduceAdd (F := Ideal) (mulf (V c (Pipeline.arrRef spec2 0) : FVec Ideal Cert.ReferenceIdeal.S60000x128 .f32) (V c (Pipeline.arrRef spec2 0) : FVec Ideal Cert.ReferenceIdeal.S60000x128 .f32)) (constant (F := Ideal) Cert.ReferenceIdeal.S_ .f32 0x00000000#32) Cert.ReferenceIdeal.Gen.reducesTo_S60000x128_S60000_d1 Cert.ReferenceIdeal.Gen.h_S_))) (broadcastInDim Cert.ReferenceIdeal.S60000x1 ![] Cert.ReferenceIdeal.Gen.bcast_S_S60000x1 (constant (F := Ideal) Cert.ReferenceIdeal.S_ .f32 0x2B8CBCCC#32)))))
          (V c (Pipeline.arrRef spec2 1) : FVec Ideal Cert.ReferenceIdeal.S128x128 .f32) :=
  (arr3_eq V c).trans (projArr_eq_host _ _)

end Arrays

end Cert.KernelIdeal.Stage1ValueV

end
-- ==== Proof.Trace2.lean ====
/-
  The contents of the idealized kernel program's buffers at the boundaries between @main's segments (the first modality's normalisation region and the message passing after it):
  each buffer a later segment reads holds its pure term of the launch memory. A stretch of host operations
  gives a buffer it computes the operation's function of its operands and leaves every other buffer; a kernel region
  gives each output array the whole-array function of its input arrays and leaves its input arrays and every other buffer.
-/
import proofs.«159630_j86646670230227_1_alg».proof.Proof.Gen.KernelIdeal.Frame
import proofs.«159630_j86646670230227_1_alg».proof.Proof.Gen.ReferenceIdeal
import Idealize.ShloMosaic.PureOps.Ideal
import proofs.«159630_j86646670230227_1_alg».proof.Proof.Trace1
import proofs.«159630_j86646670230227_1_alg».proof.Proof.Stage1ValueV
set_option maxRecDepth 16384

noncomputable section

namespace Cert.KernelIdeal.Trace

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem at5_main_v1 : W5 m ρ c (Proc.devRef .tc main_v1) = T_main_v1 m c := (W5_of_ne m ρ c main_v1 (by decide)).trans (at4_main_v1 m ρ c)
theorem at5_main_v18_1 : W5 m ρ c (Proc.devRef .tc main_v18_1) = T_main_v18_1 m c := by
  have e0 : V4 m ρ c (Pipeline.arrRef spec2 0) = T_main_v16 m c := at4_main_v16 m ρ c
  have e1 : V4 m ρ c (Pipeline.arrRef spec2 1) = T_main_arg13 m c := at4_main_arg13 m ρ c
  refine (W5_arr m ρ c 3).trans ((Cert.KernelIdeal.Stage1ValueV.arr3_ref (V4 m ρ) c).trans ?_)
  try rw [e0]
  try rw [e1]
  rfl
theorem at5_main_v3 : W5 m ρ c (Proc.devRef .tc main_v3) = T_main_v3 m c := (W5_of_ne m ρ c main_v3 (by decide)).trans (at4_main_v3 m ρ c)
theorem at5_main_v12 : W5 m ρ c (Proc.devRef .tc main_v12) = T_main_v12 m c := (W5_of_ne m ρ c main_v12 (by decide)).trans (at4_main_v12 m ρ c)
theorem at5_main_arg25 : W5 m ρ c (Proc.devRef .tc main_arg25) = T_main_arg25 m c := (W5_of_ne m ρ c main_arg25 (by decide)).trans (at4_main_arg25 m ρ c)
theorem at5_main_v18_0 : W5 m ρ c (Proc.devRef .tc main_v18_0) = T_main_v18_0 m c := by
  have e0 : V4 m ρ c (Pipeline.arrRef spec2 0) = T_main_v16 m c := at4_main_v16 m ρ c
  have e1 : V4 m ρ c (Pipeline.arrRef spec2 1) = T_main_arg13 m c := at4_main_arg13 m ρ c
  refine (W5_arr m ρ c 2).trans ((Cert.KernelIdeal.Stage1ValueV.arr2_ref (V4 m ρ) c).trans ?_)
  try rw [e0]
  try rw [e1]
  rfl
theorem at5_main_v13 : W5 m ρ c (Proc.devRef .tc main_v13) = T_main_v13 m c := (W5_of_ne m ρ c main_v13 (by decide)).trans (at4_main_v13 m ρ c)
theorem at5_main_arg17 : W5 m ρ c (Proc.devRef .tc main_arg17) = T_main_arg17 m c := (W5_of_ne m ρ c main_arg17 (by decide)).trans (at4_main_arg17 m ρ c)
theorem at5_main_arg18 : W5 m ρ c (Proc.devRef .tc main_arg18) = T_main_arg18 m c := (W5_of_ne m ρ c main_arg18 (by decide)).trans (at4_main_arg18 m ρ c)
theorem at5_main_arg26 : W5 m ρ c (Proc.devRef .tc main_arg26) = T_main_arg26 m c := (W5_of_ne m ρ c main_arg26 (by decide)).trans (at4_main_arg26 m ρ c)
theorem at5_main_arg14 : W5 m ρ c (Proc.devRef .tc main_arg14) = T_main_arg14 m c := (W5_of_ne m ρ c main_arg14 (by decide)).trans (at4_main_arg14 m ρ c)
theorem at5_main_arg27 : W5 m ρ c (Proc.devRef .tc main_arg27) = T_main_arg27 m c := (W5_of_ne m ρ c main_arg27 (by decide)).trans (at4_main_arg27 m ρ c)
theorem at5_main_arg19 : W5 m ρ c (Proc.devRef .tc main_arg19) = T_main_arg19 m c := (W5_of_ne m ρ c main_arg19 (by decide)).trans (at4_main_arg19 m ρ c)
theorem at5_main_arg20 : W5 m ρ c (Proc.devRef .tc main_arg20) = T_main_arg20 m c := (W5_of_ne m ρ c main_arg20 (by decide)).trans (at4_main_arg20 m ρ c)
theorem at5_main_arg28 : W5 m ρ c (Proc.devRef .tc main_arg28) = T_main_arg28 m c := (W5_of_ne m ρ c main_arg28 (by decide)).trans (at4_main_arg28 m ρ c)
theorem at5_main_v17 : W5 m ρ c (Proc.devRef .tc main_v17) = T_main_v17 m c := (W5_of_ne m ρ c main_v17 (by decide)).trans (at4_main_v17 m ρ c)
theorem at5_main_arg15 : W5 m ρ c (Proc.devRef .tc main_arg15) = T_main_arg15 m c := (W5_of_ne m ρ c main_arg15 (by decide)).trans (at4_main_arg15 m ρ c)
theorem at5_main_arg29 : W5 m ρ c (Proc.devRef .tc main_arg29) = T_main_arg29 m c := (W5_of_ne m ρ c main_arg29 (by decide)).trans (at4_main_arg29 m ρ c)
theorem at5_main_arg21 : W5 m ρ c (Proc.devRef .tc main_arg21) = T_main_arg21 m c := (W5_of_ne m ρ c main_arg21 (by decide)).trans (at4_main_arg21 m ρ c)
theorem at5_main_arg22 : W5 m ρ c (Proc.devRef .tc main_arg22) = T_main_arg22 m c := (W5_of_ne m ρ c main_arg22 (by decide)).trans (at4_main_arg22 m ρ c)
theorem at5_main_arg30 : W5 m ρ c (Proc.devRef .tc main_arg30) = T_main_arg30 m c := (W5_of_ne m ρ c main_arg30 (by decide)).trans (at4_main_arg30 m ρ c)
theorem at5_main_arg16 : W5 m ρ c (Proc.devRef .tc main_arg16) = T_main_arg16 m c := (W5_of_ne m ρ c main_arg16 (by decide)).trans (at4_main_arg16 m ρ c)
theorem at5_main_arg31 : W5 m ρ c (Proc.devRef .tc main_arg31) = T_main_arg31 m c := (W5_of_ne m ρ c main_arg31 (by decide)).trans (at4_main_arg31 m ρ c)
theorem at5_main_arg23 : W5 m ρ c (Proc.devRef .tc main_arg23) = T_main_arg23 m c := (W5_of_ne m ρ c main_arg23 (by decide)).trans (at4_main_arg23 m ρ c)
theorem at5_main_arg24 : W5 m ρ c (Proc.devRef .tc main_arg24) = T_main_arg24 m c := (W5_of_ne m ρ c main_arg24 (by decide)).trans (at4_main_arg24 m ρ c)
theorem at5_main_arg32 : W5 m ρ c (Proc.devRef .tc main_arg32) = T_main_arg32 m c := (W5_of_ne m ρ c main_arg32 (by decide)).trans (at4_main_arg32 m ρ c)
theorem at5_main_arg1 : W5 m ρ c (Proc.devRef .tc main_arg1) = T_main_arg1 m c := (W5_of_ne m ρ c main_arg1 (by decide)).trans (at4_main_arg1 m ρ c)
theorem at5_main_arg2 : W5 m ρ c (Proc.devRef .tc main_arg2) = T_main_arg2 m c := (W5_of_ne m ρ c main_arg2 (by decide)).trans (at4_main_arg2 m ρ c)
theorem at6_main_v1 : W6 m ρ c (Proc.devRef .tc main_v1) = T_main_v1 m c := (StableHlo.after_of_forall_not_mem (b := Proc.devRef .tc main_v1) hostOps3 (W5 m ρ c) (List.forall_iff_forall_mem.mp (by keep_host))).trans (at5_main_v1 m ρ c)
theorem at6_main_v3 : W6 m ρ c (Proc.devRef .tc main_v3) = T_main_v3 m c := (StableHlo.after_of_forall_not_mem (b := Proc.devRef .tc main_v3) hostOps3 (W5 m ρ c) (List.forall_iff_forall_mem.mp (by keep_host))).trans (at5_main_v3 m ρ c)
theorem at6_main_v12 : W6 m ρ c (Proc.devRef .tc main_v12) = T_main_v12 m c := (StableHlo.after_of_forall_not_mem (b := Proc.devRef .tc main_v12) hostOps3 (W5 m ρ c) (List.forall_iff_forall_mem.mp (by keep_host))).trans (at5_main_v12 m ρ c)
theorem at6_main_v18_0 : W6 m ρ c (Proc.devRef .tc main_v18_0) = T_main_v18_0 m c := (StableHlo.after_of_forall_not_mem (b := Proc.devRef .tc main_v18_0) hostOps3 (W5 m ρ c) (List.forall_iff_forall_mem.mp (by keep_host))).trans (at5_main_v18_0 m ρ c)
set_option maxHeartbeats 4000000 in
theorem at6_main_v30 : W6 m ρ c (Proc.devRef .tc main_v30) = T_main_v30 m c := by
  show StableHlo.after hostOps3 (W5 m ρ c) (Proc.devRef .tc main_v30) = _
  after_results_simp
  rw [at5_main_v3 m ρ c, at5_main_v18_1 m ρ c, at5_main_v1 m ρ c, at5_main_v12 m ρ c]
  rfl
theorem at6_main_v13 : W6 m ρ c (Proc.devRef .tc main_v13) = T_main_v13 m c := (StableHlo.after_of_forall_not_mem (b := Proc.devRef .tc main_v13) hostOps3 (W5 m ρ c) (List.forall_iff_forall_mem.mp (by keep_host))).trans (at5_main_v13 m ρ c)
theorem at6_main_arg17 : W6 m ρ c (Proc.devRef .tc main_arg17) = T_main_arg17 m c := (StableHlo.after_of_forall_not_mem (b := Proc.devRef .tc main_arg17) hostOps3 (W5 m ρ c) (List.forall_iff_forall_mem.mp (by keep_host))).trans (at5_main_arg17 m ρ c)
theorem at6_main_arg18 : W6 m ρ c (Proc.devRef .tc main_arg18) = T_main_arg18 m c := (StableHlo.after_of_forall_not_mem (b := Proc.devRef .tc main_arg18) hostOps3 (W5 m ρ c) (List.forall_iff_forall_mem.mp (by keep_host))).trans (at5_main_arg18 m ρ c)
set_option maxHeartbeats 4000000 in
theorem at6_main_v31 : W6 m ρ c (Proc.devRef .tc main_v31) = T_main_v31 m c := by
  show StableHlo.after hostOps3 (W5 m ρ c) (Proc.devRef .tc main_v31) = _
  after_results_simp
  rw [at5_main_arg25 m ρ c]
  rfl
set_option maxHeartbeats 4000000 in
theorem at6_main_v32 : W6 m ρ c (Proc.devRef .tc main_v32) = T_main_v32 m c := by
  show StableHlo.after hostOps3 (W5 m ρ c) (Proc.devRef .tc main_v32) = _
  after_results_simp
  rw [at5_main_arg25 m ρ c]
  rfl
theorem at6_main_arg26 : W6 m ρ c (Proc.devRef .tc main_arg26) = T_main_arg26 m c := (StableHlo.after_of_forall_not_mem (b := Proc.devRef .tc main_arg26) hostOps3 (W5 m ρ c) (List.forall_iff_forall_mem.mp (by keep_host))).trans (at5_main_arg26 m ρ c)
theorem at6_main_arg14 : W6 m ρ c (Proc.devRef .tc main_arg14) = T_main_arg14 m c := (StableHlo.after_of_forall_not_mem (b := Proc.devRef .tc main_arg14) hostOps3 (W5 m ρ c) (List.forall_iff_forall_mem.mp (by keep_host))).trans (at5_main_arg14 m ρ c)
theorem at6_main_arg27 : W6 m ρ c (Proc.devRef .tc main_arg27) = T_main_arg27 m c := (StableHlo.after_of_forall_not_mem (b := Proc.devRef .tc main_arg27) hostOps3 (W5 m ρ c) (List.forall_iff_forall_mem.mp (by keep_host))).trans (at5_main_arg27 m ρ c)
theorem at6_main_arg19 : W6 m ρ c (Proc.devRef .tc main_arg19) = T_main_arg19 m c := (StableHlo.after_of_forall_not_mem (b := Proc.devRef .tc main_arg19) hostOps3 (W5 m ρ c) (List.forall_iff_forall_mem.mp (by keep_host))).trans (at5_main_arg19 m ρ c)
theorem at6_main_arg20 : W6 m ρ c (Proc.devRef .tc main_arg20) = T_main_arg20 m c := (StableHlo.after_of_forall_not_mem (b := Proc.devRef .tc main_arg20) hostOps3 (W5 m ρ c) (List.forall_iff_forall_mem.mp (by keep_host))).trans (at5_main_arg20 m ρ c)
theorem at6_main_arg28 : W6 m ρ c (Proc.devRef .tc main_arg28) = T_main_arg28 m c := (StableHlo.after_of_forall_not_mem (b := Proc.devRef .tc main_arg28) hostOps3 (W5 m ρ c) (List.forall_iff_forall_mem.mp (by keep_host))).trans (at5_main_arg28 m ρ c)
theorem at6_main_v17 : W6 m ρ c (Proc.devRef .tc main_v17) = T_main_v17 m c := (StableHlo.after_of_forall_not_mem (b := Proc.devRef .tc main_v17) hostOps3 (W5 m ρ c) (List.forall_iff_forall_mem.mp (by keep_host))).trans (at5_main_v17 m ρ c)
theorem at6_main_arg15 : W6 m ρ c (Proc.devRef .tc main_arg15) = T_main_arg15 m c := (StableHlo.after_of_forall_not_mem (b := Proc.devRef .tc main_arg15) hostOps3 (W5 m ρ c) (List.forall_iff_forall_mem.mp (by keep_host))).trans (at5_main_arg15 m ρ c)
theorem at6_main_arg29 : W6 m ρ c (Proc.devRef .tc main_arg29) = T_main_arg29 m c := (StableHlo.after_of_forall_not_mem (b := Proc.devRef .tc main_arg29) hostOps3 (W5 m ρ c) (List.forall_iff_forall_mem.mp (by keep_host))).trans (at5_main_arg29 m ρ c)
theorem at6_main_arg21 : W6 m ρ c (Proc.devRef .tc main_arg21) = T_main_arg21 m c := (StableHlo.after_of_forall_not_mem (b := Proc.devRef .tc main_arg21) hostOps3 (W5 m ρ c) (List.forall_iff_forall_mem.mp (by keep_host))).trans (at5_main_arg21 m ρ c)
theorem at6_main_arg22 : W6 m ρ c (Proc.devRef .tc main_arg22) = T_main_arg22 m c := (StableHlo.after_of_forall_not_mem (b := Proc.devRef .tc main_arg22) hostOps3 (W5 m ρ c) (List.forall_iff_forall_mem.mp (by keep_host))).trans (at5_main_arg22 m ρ c)
theorem at6_main_arg30 : W6 m ρ c (Proc.devRef .tc main_arg30) = T_main_arg30 m c := (StableHlo.after_of_forall_not_mem (b := Proc.devRef .tc main_arg30) hostOps3 (W5 m ρ c) (List.forall_iff_forall_mem.mp (by keep_host))).trans (at5_main_arg30 m ρ c)
theorem at6_main_arg16 : W6 m ρ c (Proc.devRef .tc main_arg16) = T_main_arg16 m c := (StableHlo.after_of_forall_not_mem (b := Proc.devRef .tc main_arg16) hostOps3 (W5 m ρ c) (List.forall_iff_forall_mem.mp (by keep_host))).trans (at5_main_arg16 m ρ c)
theorem at6_main_arg31 : W6 m ρ c (Proc.devRef .tc main_arg31) = T_main_arg31 m c := (StableHlo.after_of_forall_not_mem (b := Proc.devRef .tc main_arg31) hostOps3 (W5 m ρ c) (List.forall_iff_forall_mem.mp (by keep_host))).trans (at5_main_arg31 m ρ c)
theorem at6_main_arg23 : W6 m ρ c (Proc.devRef .tc main_arg23) = T_main_arg23 m c := (StableHlo.after_of_forall_not_mem (b := Proc.devRef .tc main_arg23) hostOps3 (W5 m ρ c) (List.forall_iff_forall_mem.mp (by keep_host))).trans (at5_main_arg23 m ρ c)
theorem at6_main_arg24 : W6 m ρ c (Proc.devRef .tc main_arg24) = T_main_arg24 m c := (StableHlo.after_of_forall_not_mem (b := Proc.devRef .tc main_arg24) hostOps3 (W5 m ρ c) (List.forall_iff_forall_mem.mp (by keep_host))).trans (at5_main_arg24 m ρ c)
theorem at6_main_arg32 : W6 m ρ c (Proc.devRef .tc main_arg32) = T_main_arg32 m c := (StableHlo.after_of_forall_not_mem (b := Proc.devRef .tc main_arg32) hostOps3 (W5 m ρ c) (List.forall_iff_forall_mem.mp (by keep_host))).trans (at5_main_arg32 m ρ c)
theorem at6_main_arg1 : W6 m ρ c (Proc.devRef .tc main_arg1) = T_main_arg1 m c := (StableHlo.after_of_forall_not_mem (b := Proc.devRef .tc main_arg1) hostOps3 (W5 m ρ c) (List.forall_iff_forall_mem.mp (by keep_host))).trans (at5_main_arg1 m ρ c)
theorem at6_main_arg2 : W6 m ρ c (Proc.devRef .tc main_arg2) = T_main_arg2 m c := (StableHlo.after_of_forall_not_mem (b := Proc.devRef .tc main_arg2) hostOps3 (W5 m ρ c) (List.forall_iff_forall_mem.mp (by keep_host))).trans (at5_main_arg2 m ρ c)

end Cert.KernelIdeal.Trace

end
-- ==== Proof.Stage2ValueV.lean ====
/- The second stage of the network's layer, pallas_call region 3: what its two output arrays hold after the region.

   At each of the ten grid points the body takes the point's block of 6000 rows of the three row-blocked inputs
   (call them x, h0, ego) and the whole weights and biases (l0w [64,128], l0b [64], g0wh [64,128], g0wx [64,64], g0b [64],
   wp1 [64,64]), and forms
       xhat = x · l0wᵀ + l0b + ego                       (6000 × 64)
       x1   = h0 · g0whᵀ + xhat · g0wxᵀ + g0b            (two products into zero accumulators, added; 6000 × 64)
       msg1 = x1 · wp1                                    (6000 × 64)
   storing x1 and msg1 whole into the point's blocks of the two outputs. On the ideal values every change of float
   format is the identity and a product into a zero accumulator is the plain sum over the contracted index.

   The reference forms the same xhat on all 60000 rows, JOINS [h0 | xhat] along the columns (128 + 64 = 192 columns) and
   contracts the joined array with g0wᵀ, where g0w is the ONE [64, 192] weight whose column slices [0, 128) and
   [128, 192) are g0wh and g0wx; then adds g0b; then contracts with wp1.

   The one algebraic law between the two: a sum over 192 terms is the sum of its first 128 terms plus the sum of its
   last 64 (`sum_split`), so  Σ_{k<192} [h0 | xhat](i,k) · g0w(j,k) = Σ_{k<128} h0(i,k) · g0w(j,k) + Σ_{k<64} xhat(i,k) · g0w(j,128+k).
   It is an identity of additive commutative monoids: it holds in the extended reals with no finiteness hypothesis.

   The file, in order: the law; each product of the body and of the reference read at an index as a sum over the
   contracted index; the body's two stores at an index (`pay2_apply`, `pay1_is_msg`) and the reference's stages at an
   index (`xhatRef_apply`, `x1Ref_apply`), joined over variables of the literal block and array types (`pay2_is_x1`);
   each window's block at a grid point as rows 6000·t … 6000·t + 5999 of its array, or as its whole array
   (`blkW_apply`, `blkW_eq`, from the index maps decided over the grid); what each point writes back
   (`flushed9_eq`, `flushed10_eq`); the ten blocks tile the 60000 rows (`cover9`, `cover10`); and the two arrays
   after the region (`arr9`, `arr10`), stated with the reference's own whole-array terms applied to the region's
   input arrays, under the hypotheses that the two weight windows hold the two column slices of one [64, 192] array. -/
import proofs.«159630_j86646670230227_1_alg».proof.Proof.Gen.KernelIdeal.Frame
import proofs.«159630_j86646670230227_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage2ValueV

open Idealize.ShloMosaic Idealize.ShloMosaic.TcCoe Idealize.SL.Sem
open Idealize.ShloMosaic.ValueIdx
open Idealize.ShloMosaic.Pipeline (Dat)
open Cert.KernelIdeal Cert.KernelIdeal.Gen

/-- A sum of 192 terms is the sum of its first 128 terms plus the sum of its last 64. It holds in any additive commutative
    monoid, so in the extended reals with no finiteness hypothesis. -/
theorem sum_split (f : Fin 192 → EReal) :
    (∑ k : Fin 192, f k) = (∑ k : Fin 128, f ⟨k.val, by omega⟩) + (∑ k : Fin 64, f ⟨128 + k.val, by omega⟩) :=
  Fin.sum_univ_add (a := 128) (b := 64) f

theorem lhs_k128_0 (i : S6000x64.Idx) (q : dot_S6000x128_S128x64_S6000x64_1_0_0_1_n_n.contr.Idx) :
    (dot_S6000x128_S128x64_S6000x64_1_0_0_1_n_n.lhsIdx i q 0).val = (i 0).val := by
  unfold DotDims.lhsIdx
  rw [dif_neg (show ¬(0 : Fin S6000x128.rank) ∈ dot_S6000x128_S128x64_S6000x64_1_0_0_1_n_n.lhsBatch by decide), dif_pos (show (0 : Fin S6000x128.rank) ∈ dot_S6000x128_S128x64_S6000x64_1_0_0_1_n_n.lhsNonContracting by decide)]
  rfl
theorem lhs_k128_1 (i : S6000x64.Idx) (q : dot_S6000x128_S128x64_S6000x64_1_0_0_1_n_n.contr.Idx) :
    (dot_S6000x128_S128x64_S6000x64_1_0_0_1_n_n.lhsIdx i q 1).val = (q ⟨0, by decide⟩).val :=
  dot_S6000x128_S128x64_S6000x64_1_0_0_1_n_n.lhsIdx_val_of_single rfl i q
theorem rhs_k128_0 (i : S6000x64.Idx) (q : dot_S6000x128_S128x64_S6000x64_1_0_0_1_n_n.contr.Idx) :
    (dot_S6000x128_S128x64_S6000x64_1_0_0_1_n_n.rhsIdx i q 0).val = (q ⟨0, by decide⟩).val :=
  dot_S6000x128_S128x64_S6000x64_1_0_0_1_n_n.rhsIdx_val_of_single rfl i q
theorem rhs_k128_1 (i : S6000x64.Idx) (q : dot_S6000x128_S128x64_S6000x64_1_0_0_1_n_n.contr.Idx) :
    (dot_S6000x128_S128x64_S6000x64_1_0_0_1_n_n.rhsIdx i q 1).val = (i 1).val := by
  unfold DotDims.rhsIdx
  rw [dif_neg (show ¬(1 : Fin S128x64.rank) ∈ dot_S6000x128_S128x64_S6000x64_1_0_0_1_n_n.rhsBatch by decide), dif_pos (show (1 : Fin S128x64.rank) ∈ dot_S6000x128_S128x64_S6000x64_1_0_0_1_n_n.rhsNonContracting by decide)]
  rfl
/-- The operand indices of this contraction at output index `(i, j)` and contraction position `k` are `(i, k)` and `(k, j)`. -/
theorem idx_k128 (i : S6000x64.Idx) (k : Fin 128) :
    dot_S6000x128_S128x64_S6000x64_1_0_0_1_n_n.lhsIdx i ((contrEquiv1 dot_S6000x128_S128x64_S6000x64_1_0_0_1_n_n 128 rfl rfl).symm k) = ix2 (i 0) k
    ∧ dot_S6000x128_S128x64_S6000x64_1_0_0_1_n_n.rhsIdx i ((contrEquiv1 dot_S6000x128_S128x64_S6000x64_1_0_0_1_n_n 128 rfl rfl).symm k) = ix2 k (i 1) := by
  have hk := contrEquiv1_symm_val dot_S6000x128_S128x64_S6000x64_1_0_0_1_n_n 128 rfl rfl k
  refine ⟨funext fun a => Fin.ext ?_, funext fun a => Fin.ext ?_⟩
  · match a with
    | ⟨0, _⟩ => exact lhs_k128_0 _ _
    | ⟨1, _⟩ => exact (lhs_k128_1 _ _).trans hk
  · match a with
    | ⟨0, _⟩ => exact (rhs_k128_0 _ _).trans hk
    | ⟨1, _⟩ => exact rhs_k128_1 _ _

theorem lhs_k64_0 (i : S6000x64.Idx) (q : dot_S6000x64_S64x64_S6000x64_1_0_0_1_n_n.contr.Idx) :
    (dot_S6000x64_S64x64_S6000x64_1_0_0_1_n_n.lhsIdx i q 0).val = (i 0).val := by
  unfold DotDims.lhsIdx
  rw [dif_neg (show ¬(0 : Fin S6000x64.rank) ∈ dot_S6000x64_S64x64_S6000x64_1_0_0_1_n_n.lhsBatch by decide), dif_pos (show (0 : Fin S6000x64.rank) ∈ dot_S6000x64_S64x64_S6000x64_1_0_0_1_n_n.lhsNonContracting by decide)]
  rfl
theorem lhs_k64_1 (i : S6000x64.Idx) (q : dot_S6000x64_S64x64_S6000x64_1_0_0_1_n_n.contr.Idx) :
    (dot_S6000x64_S64x64_S6000x64_1_0_0_1_n_n.lhsIdx i q 1).val = (q ⟨0, by decide⟩).val :=
  dot_S6000x64_S64x64_S6000x64_1_0_0_1_n_n.lhsIdx_val_of_single rfl i q
theorem rhs_k64_0 (i : S6000x64.Idx) (q : dot_S6000x64_S64x64_S6000x64_1_0_0_1_n_n.contr.Idx) :
    (dot_S6000x64_S64x64_S6000x64_1_0_0_1_n_n.rhsIdx i q 0).val = (q ⟨0, by decide⟩).val :=
  dot_S6000x64_S64x64_S6000x64_1_0_0_1_n_n.rhsIdx_val_of_single rfl i q
theorem rhs_k64_1 (i : S6000x64.Idx) (q : dot_S6000x64_S64x64_S6000x64_1_0_0_1_n_n.contr.Idx) :
    (dot_S6000x64_S64x64_S6000x64_1_0_0_1_n_n.rhsIdx i q 1).val = (i 1).val := by
  unfold DotDims.rhsIdx
  rw [dif_neg (show ¬(1 : Fin S64x64.rank) ∈ dot_S6000x64_S64x64_S6000x64_1_0_0_1_n_n.rhsBatch by decide), dif_pos (show (1 : Fin S64x64.rank) ∈ dot_S6000x64_S64x64_S6000x64_1_0_0_1_n_n.rhsNonContracting by decide)]
  rfl
/-- The operand indices of this contraction at output index `(i, j)` and contraction position `k` are `(i, k)` and `(k, j)`. -/
theorem idx_k64 (i : S6000x64.Idx) (k : Fin 64) :
    dot_S6000x64_S64x64_S6000x64_1_0_0_1_n_n.lhsIdx i ((contrEquiv1 dot_S6000x64_S64x64_S6000x64_1_0_0_1_n_n 64 rfl rfl).symm k) = ix2 (i 0) k
    ∧ dot_S6000x64_S64x64_S6000x64_1_0_0_1_n_n.rhsIdx i ((contrEquiv1 dot_S6000x64_S64x64_S6000x64_1_0_0_1_n_n 64 rfl rfl).symm k) = ix2 k (i 1) := by
  have hk := contrEquiv1_symm_val dot_S6000x64_S64x64_S6000x64_1_0_0_1_n_n 64 rfl rfl k
  refine ⟨funext fun a => Fin.ext ?_, funext fun a => Fin.ext ?_⟩
  · match a with
    | ⟨0, _⟩ => exact lhs_k64_0 _ _
    | ⟨1, _⟩ => exact (lhs_k64_1 _ _).trans hk
  · match a with
    | ⟨0, _⟩ => exact (rhs_k64_0 _ _).trans hk
    | ⟨1, _⟩ => exact rhs_k64_1 _ _

/-- A 6000×128 by 128×64 product into a zero accumulator, at `(i, j)`, is the sum over `k` of left `(i, k)` times right `(k, j)`. -/
theorem mm128_apply (l : FVec Ideal S6000x128 .bf16) (r : FVec Ideal S128x64 .bf16) (i : Fin 6000) (j : Fin 64) :
    matmul dot_S6000x128_S128x64_S6000x64_1_0_0_1_n_n none l r (constant S6000x64 .f32 0x00000000#32) (ix2 i j)
      = ∑ k : Fin 128, l (ix2 i k) * r (ix2 k j) := by
  simp only [matmul]
  rw [Ideal.matmul_constant_zero_apply, ← Equiv.sum_comp (contrEquiv1 dot_S6000x128_S128x64_S6000x64_1_0_0_1_n_n 128 rfl rfl).symm]
  refine Finset.sum_congr rfl fun k _ => ?_
  obtain ⟨el, er⟩ := idx_k128 (ix2 i j) k
  rw [el, er]
  rfl

/-- A 6000×64 by 64×64 product into a zero accumulator, at `(i, j)`, is the sum over `k` of left `(i, k)` times right `(k, j)`. -/
theorem mm64_apply (l : FVec Ideal S6000x64 .bf16) (r : FVec Ideal S64x64 .bf16) (i : Fin 6000) (j : Fin 64) :
    matmul dot_S6000x64_S64x64_S6000x64_1_0_0_1_n_n none l r (constant S6000x64 .f32 0x00000000#32) (ix2 i j)
      = ∑ k : Fin 64, l (ix2 i k) * r (ix2 k j) := by
  simp only [matmul]
  rw [Ideal.matmul_constant_zero_apply, ← Equiv.sum_comp (contrEquiv1 dot_S6000x64_S64x64_S6000x64_1_0_0_1_n_n 64 rfl rfl).symm]
  refine Finset.sum_congr rfl fun k _ => ?_
  obtain ⟨el, er⟩ := idx_k64 (ix2 i j) k
  rw [el, er]
  rfl

/-- A [64] vector cast to [1, 64] and broadcast along 6000 rows reads, at `(r, j)`, the vector at `j`. -/
theorem bias_apply (b : Vec Ideal S64 .f32) (r : Fin 6000) (j : Fin 64) :
    broadcastTo S6000x64 (shapeCast S1x64 b shapeCasts_S64_S1x64) broadcasts_S1x64_S6000x64 (ix2 r j) = b (ix1 j) := by
  rw [broadcastTo_apply _ broadcasts_S1x64_S6000x64 (ix2 r j) (ix2 (0 : Fin 1) j) (fun a => by
    match a with
    | ⟨0, _⟩ => rfl
    | ⟨1, _⟩ => rfl)]
  exact shapeCast_a_1a_apply b shapeCasts_S64_S1x64 0 j

/-- A [64, 128] matrix transposed reads, at `(k, j)`, the matrix at `(j, k)`. -/
theorem tr128_apply (x : FVec Ideal S64x128 .bf16) (k : Fin 128) (j : Fin 64) :
    transpose S128x64 [1, 0] x transposes_S64x128_p1_0_S128x64 (ix2 k j) = x (ix2 j k) :=
  transpose_ix2_apply x _ k j

/-- A [64, 64] matrix transposed reads, at `(k, j)`, the matrix at `(j, k)`. -/
theorem tr64_apply (x : FVec Ideal S64x64 .bf16) (k j : Fin 64) :
    transpose S64x64 [1, 0] x transposes_S64x64_p1_0_S64x64 (ix2 k j) = x (ix2 j k) :=
  transpose_ix2_apply x _ k j

/-- THE BODY'S FIRST STORE at `(r, j)`, over variables of the block types. With
    `xhat (r, k) = Σ_{k' < 128} x0 (r, k') · x3 (k, k') + x4 k + x2 (r, k)` (the first linear layer, its bias, the residual), the
    stored value is `Σ_{k < 128} x1 (r, k) · x5 (j, k) + Σ_{k < 64} xhat (r, k) · x6 (j, k) + x7 j`: two products into zero
    accumulators, added, plus the second bias. The changes of float format are the identity on the ideal values. -/
theorem pay2_apply (x0 x1 : Vec Ideal S6000x128 .f32) (x2 : Vec Ideal S6000x64 .f32) (x3 : Vec Ideal S64x128 .f32)
    (x4 : Vec Ideal S64 .f32) (x5 : Vec Ideal S64x128 .f32) (x6 : Vec Ideal S64x64 .f32) (x7 : Vec Ideal S64 .f32)
    (r : Fin 6000) (j : Fin 64) :
    k3_pay2 x0 x1 x2 x3 x4 x5 x6 x7 (ix2 r j)
      = ((∑ k : Fin 128, x1 (ix2 r k) * x5 (ix2 j k))
          + (∑ k : Fin 64, (((∑ k' : Fin 128, x0 (ix2 r k') * x3 (ix2 k k')) + x4 (ix1 k)) + x2 (ix2 r k)) * x6 (ix2 j k)))
        + x7 (ix1 j) := by
  unfold k3_pay2
  simp only [shapeCast_self]
  simp only [addf_apply, mm128_apply, mm64_apply, truncf_apply]
  refine congrArg₂ (· + ·) (congrArg₂ (· + ·) ?_ ?_) ?_
  · exact Finset.sum_congr rfl fun k _ => congrArg (x1 (ix2 r k) * ·) (tr128_apply _ k j)
  · refine Finset.sum_congr rfl fun k _ => congrArg₂ (· * ·) (congrArg₂ (· + ·) (congrArg₂ (· + ·) ?_ ?_) rfl) (tr64_apply _ k j)
    · exact Finset.sum_congr rfl fun k' _ => congrArg (x0 (ix2 r k') * ·) (tr128_apply _ k' k)
    · exact bias_apply x4 r k
  · exact bias_apply x7 r j

/-! ## The reference's operations read at an index -/

theorem lhs_r128_0 (i : Cert.ReferenceIdeal.S60000x64.Idx) (q : Cert.ReferenceIdeal.dot_S60000x128_S128x64_S60000x64_1_0_0_1_n_n.contr.Idx) :
    (Cert.ReferenceIdeal.dot_S60000x128_S128x64_S60000x64_1_0_0_1_n_n.lhsIdx i q 0).val = (i 0).val := by
  unfold DotDims.lhsIdx
  rw [dif_neg (show ¬(0 : Fin Cert.ReferenceIdeal.S60000x128.rank) ∈ Cert.ReferenceIdeal.dot_S60000x128_S128x64_S60000x64_1_0_0_1_n_n.lhsBatch by decide), dif_pos (show (0 : Fin Cert.ReferenceIdeal.S60000x128.rank) ∈ Cert.ReferenceIdeal.dot_S60000x128_S128x64_S60000x64_1_0_0_1_n_n.lhsNonContracting by decide)]
  rfl
theorem lhs_r128_1 (i : Cert.ReferenceIdeal.S60000x64.Idx) (q : Cert.ReferenceIdeal.dot_S60000x128_S128x64_S60000x64_1_0_0_1_n_n.contr.Idx) :
    (Cert.ReferenceIdeal.dot_S60000x128_S128x64_S60000x64_1_0_0_1_n_n.lhsIdx i q 1).val = (q ⟨0, by decide⟩).val :=
  Cert.ReferenceIdeal.dot_S60000x128_S128x64_S60000x64_1_0_0_1_n_n.lhsIdx_val_of_single rfl i q
theorem rhs_r128_0 (i : Cert.ReferenceIdeal.S60000x64.Idx) (q : Cert.ReferenceIdeal.dot_S60000x128_S128x64_S60000x64_1_0_0_1_n_n.contr.Idx) :
    (Cert.ReferenceIdeal.dot_S60000x128_S128x64_S60000x64_1_0_0_1_n_n.rhsIdx i q 0).val = (q ⟨0, by decide⟩).val :=
  Cert.ReferenceIdeal.dot_S60000x128_S128x64_S60000x64_1_0_0_1_n_n.rhsIdx_val_of_single rfl i q
theorem rhs_r128_1 (i : Cert.ReferenceIdeal.S60000x64.Idx) (q : Cert.ReferenceIdeal.dot_S60000x128_S128x64_S60000x64_1_0_0_1_n_n.contr.Idx) :
    (Cert.ReferenceIdeal.dot_S60000x128_S128x64_S60000x64_1_0_0_1_n_n.rhsIdx i q 1).val = (i 1).val := by
  unfold DotDims.rhsIdx
  rw [dif_neg (show ¬(1 : Fin Cert.ReferenceIdeal.S128x64.rank) ∈ Cert.ReferenceIdeal.dot_S60000x128_S128x64_S60000x64_1_0_0_1_n_n.rhsBatch by decide), dif_pos (show (1 : Fin Cert.ReferenceIdeal.S128x64.rank) ∈ Cert.ReferenceIdeal.dot_S60000x128_S128x64_S60000x64_1_0_0_1_n_n.rhsNonContracting by decide)]
  rfl
/-- The operand indices of this contraction at output index `(i, j)` and contraction position `k` are `(i, k)` and `(k, j)`. -/
theorem idx_r128 (i : Cert.ReferenceIdeal.S60000x64.Idx) (k : Fin 128) :
    Cert.ReferenceIdeal.dot_S60000x128_S128x64_S60000x64_1_0_0_1_n_n.lhsIdx i ((contrEquiv1 Cert.ReferenceIdeal.dot_S60000x128_S128x64_S60000x64_1_0_0_1_n_n 128 rfl rfl).symm k) = ix2 (i 0) k
    ∧ Cert.ReferenceIdeal.dot_S60000x128_S128x64_S60000x64_1_0_0_1_n_n.rhsIdx i ((contrEquiv1 Cert.ReferenceIdeal.dot_S60000x128_S128x64_S60000x64_1_0_0_1_n_n 128 rfl rfl).symm k) = ix2 k (i 1) := by
  have hk := contrEquiv1_symm_val Cert.ReferenceIdeal.dot_S60000x128_S128x64_S60000x64_1_0_0_1_n_n 128 rfl rfl k
  refine ⟨funext fun a => Fin.ext ?_, funext fun a => Fin.ext ?_⟩
  · match a with
    | ⟨0, _⟩ => exact lhs_r128_0 _ _
    | ⟨1, _⟩ => exact (lhs_r128_1 _ _).trans hk
  · match a with
    | ⟨0, _⟩ => exact (rhs_r128_0 _ _).trans hk
    | ⟨1, _⟩ => exact rhs_r128_1 _ _

theorem lhs_r192_0 (i : Cert.ReferenceIdeal.S60000x64.Idx) (q : Cert.ReferenceIdeal.dot_S60000x192_S192x64_S60000x64_1_0_0_1_n_n.contr.Idx) :
    (Cert.ReferenceIdeal.dot_S60000x192_S192x64_S60000x64_1_0_0_1_n_n.lhsIdx i q 0).val = (i 0).val := by
  unfold DotDims.lhsIdx
  rw [dif_neg (show ¬(0 : Fin Cert.ReferenceIdeal.S60000x192.rank) ∈ Cert.ReferenceIdeal.dot_S60000x192_S192x64_S60000x64_1_0_0_1_n_n.lhsBatch by decide), dif_pos (show (0 : Fin Cert.ReferenceIdeal.S60000x192.rank) ∈ Cert.ReferenceIdeal.dot_S60000x192_S192x64_S60000x64_1_0_0_1_n_n.lhsNonContracting by decide)]
  rfl
theorem lhs_r192_1 (i : Cert.ReferenceIdeal.S60000x64.Idx) (q : Cert.ReferenceIdeal.dot_S60000x192_S192x64_S60000x64_1_0_0_1_n_n.contr.Idx) :
    (Cert.ReferenceIdeal.dot_S60000x192_S192x64_S60000x64_1_0_0_1_n_n.lhsIdx i q 1).val = (q ⟨0, by decide⟩).val :=
  Cert.ReferenceIdeal.dot_S60000x192_S192x64_S60000x64_1_0_0_1_n_n.lhsIdx_val_of_single rfl i q
theorem rhs_r192_0 (i : Cert.ReferenceIdeal.S60000x64.Idx) (q : Cert.ReferenceIdeal.dot_S60000x192_S192x64_S60000x64_1_0_0_1_n_n.contr.Idx) :
    (Cert.ReferenceIdeal.dot_S60000x192_S192x64_S60000x64_1_0_0_1_n_n.rhsIdx i q 0).val = (q ⟨0, by decide⟩).val :=
  Cert.ReferenceIdeal.dot_S60000x192_S192x64_S60000x64_1_0_0_1_n_n.rhsIdx_val_of_single rfl i q
theorem rhs_r192_1 (i : Cert.ReferenceIdeal.S60000x64.Idx) (q : Cert.ReferenceIdeal.dot_S60000x192_S192x64_S60000x64_1_0_0_1_n_n.contr.Idx) :
    (Cert.ReferenceIdeal.dot_S60000x192_S192x64_S60000x64_1_0_0_1_n_n.rhsIdx i q 1).val = (i 1).val := by
  unfold DotDims.rhsIdx
  rw [dif_neg (show ¬(1 : Fin Cert.ReferenceIdeal.S192x64.rank) ∈ Cert.ReferenceIdeal.dot_S60000x192_S192x64_S60000x64_1_0_0_1_n_n.rhsBatch by decide), dif_pos (show (1 : Fin Cert.ReferenceIdeal.S192x64.rank) ∈ Cert.ReferenceIdeal.dot_S60000x192_S192x64_S60000x64_1_0_0_1_n_n.rhsNonContracting by decide)]
  rfl
/-- The operand indices of this contraction at output index `(i, j)` and contraction position `k` are `(i, k)` and `(k, j)`. -/
theorem idx_r192 (i : Cert.ReferenceIdeal.S60000x64.Idx) (k : Fin 192) :
    Cert.ReferenceIdeal.dot_S60000x192_S192x64_S60000x64_1_0_0_1_n_n.lhsIdx i ((contrEquiv1 Cert.ReferenceIdeal.dot_S60000x192_S192x64_S60000x64_1_0_0_1_n_n 192 rfl rfl).symm k) = ix2 (i 0) k
    ∧ Cert.ReferenceIdeal.dot_S60000x192_S192x64_S60000x64_1_0_0_1_n_n.rhsIdx i ((contrEquiv1 Cert.ReferenceIdeal.dot_S60000x192_S192x64_S60000x64_1_0_0_1_n_n 192 rfl rfl).symm k) = ix2 k (i 1) := by
  have hk := contrEquiv1_symm_val Cert.ReferenceIdeal.dot_S60000x192_S192x64_S60000x64_1_0_0_1_n_n 192 rfl rfl k
  refine ⟨funext fun a => Fin.ext ?_, funext fun a => Fin.ext ?_⟩
  · match a with
    | ⟨0, _⟩ => exact lhs_r192_0 _ _
    | ⟨1, _⟩ => exact (lhs_r192_1 _ _).trans hk
  · match a with
    | ⟨0, _⟩ => exact (rhs_r192_0 _ _).trans hk
    | ⟨1, _⟩ => exact rhs_r192_1 _ _

theorem lhs_r64_0 (i : Cert.ReferenceIdeal.S60000x64.Idx) (q : Cert.ReferenceIdeal.dot_S60000x64_S64x64_S60000x64_1_0_0_1_n_n.contr.Idx) :
    (Cert.ReferenceIdeal.dot_S60000x64_S64x64_S60000x64_1_0_0_1_n_n.lhsIdx i q 0).val = (i 0).val := by
  unfold DotDims.lhsIdx
  rw [dif_neg (show ¬(0 : Fin Cert.ReferenceIdeal.S60000x64.rank) ∈ Cert.ReferenceIdeal.dot_S60000x64_S64x64_S60000x64_1_0_0_1_n_n.lhsBatch by decide), dif_pos (show (0 : Fin Cert.ReferenceIdeal.S60000x64.rank) ∈ Cert.ReferenceIdeal.dot_S60000x64_S64x64_S60000x64_1_0_0_1_n_n.lhsNonContracting by decide)]
  rfl
theorem lhs_r64_1 (i : Cert.ReferenceIdeal.S60000x64.Idx) (q : Cert.ReferenceIdeal.dot_S60000x64_S64x64_S60000x64_1_0_0_1_n_n.contr.Idx) :
    (Cert.ReferenceIdeal.dot_S60000x64_S64x64_S60000x64_1_0_0_1_n_n.lhsIdx i q 1).val = (q ⟨0, by decide⟩).val :=
  Cert.ReferenceIdeal.dot_S60000x64_S64x64_S60000x64_1_0_0_1_n_n.lhsIdx_val_of_single rfl i q
theorem rhs_r64_0 (i : Cert.ReferenceIdeal.S60000x64.Idx) (q : Cert.ReferenceIdeal.dot_S60000x64_S64x64_S60000x64_1_0_0_1_n_n.contr.Idx) :
    (Cert.ReferenceIdeal.dot_S60000x64_S64x64_S60000x64_1_0_0_1_n_n.rhsIdx i q 0).val = (q ⟨0, by decide⟩).val :=
  Cert.ReferenceIdeal.dot_S60000x64_S64x64_S60000x64_1_0_0_1_n_n.rhsIdx_val_of_single rfl i q
theorem rhs_r64_1 (i : Cert.ReferenceIdeal.S60000x64.Idx) (q : Cert.ReferenceIdeal.dot_S60000x64_S64x64_S60000x64_1_0_0_1_n_n.contr.Idx) :
    (Cert.ReferenceIdeal.dot_S60000x64_S64x64_S60000x64_1_0_0_1_n_n.rhsIdx i q 1).val = (i 1).val := by
  unfold DotDims.rhsIdx
  rw [dif_neg (show ¬(1 : Fin Cert.ReferenceIdeal.S64x64.rank) ∈ Cert.ReferenceIdeal.dot_S60000x64_S64x64_S60000x64_1_0_0_1_n_n.rhsBatch by decide), dif_pos (show (1 : Fin Cert.ReferenceIdeal.S64x64.rank) ∈ Cert.ReferenceIdeal.dot_S60000x64_S64x64_S60000x64_1_0_0_1_n_n.rhsNonContracting by decide)]
  rfl
/-- The operand indices of this contraction at output index `(i, j)` and contraction position `k` are `(i, k)` and `(k, j)`. -/
theorem idx_r64 (i : Cert.ReferenceIdeal.S60000x64.Idx) (k : Fin 64) :
    Cert.ReferenceIdeal.dot_S60000x64_S64x64_S60000x64_1_0_0_1_n_n.lhsIdx i ((contrEquiv1 Cert.ReferenceIdeal.dot_S60000x64_S64x64_S60000x64_1_0_0_1_n_n 64 rfl rfl).symm k) = ix2 (i 0) k
    ∧ Cert.ReferenceIdeal.dot_S60000x64_S64x64_S60000x64_1_0_0_1_n_n.rhsIdx i ((contrEquiv1 Cert.ReferenceIdeal.dot_S60000x64_S64x64_S60000x64_1_0_0_1_n_n 64 rfl rfl).symm k) = ix2 k (i 1) := by
  have hk := contrEquiv1_symm_val Cert.ReferenceIdeal.dot_S60000x64_S64x64_S60000x64_1_0_0_1_n_n 64 rfl rfl k
  refine ⟨funext fun a => Fin.ext ?_, funext fun a => Fin.ext ?_⟩
  · match a with
    | ⟨0, _⟩ => exact lhs_r64_0 _ _
    | ⟨1, _⟩ => exact (lhs_r64_1 _ _).trans hk
  · match a with
    | ⟨0, _⟩ => exact (rhs_r64_0 _ _).trans hk
    | ⟨1, _⟩ => exact rhs_r64_1 _ _

theorem rdot128_apply (l : FVec Ideal Cert.ReferenceIdeal.S60000x128 .f32) (r : FVec Ideal Cert.ReferenceIdeal.S128x64 .f32) (i : Fin 60000) (j : Fin 64) :
    Host.dotGeneral Cert.ReferenceIdeal.dot_S60000x128_S128x64_S60000x64_1_0_0_1_n_n none l r (ix2 i j) = ∑ k : Fin 128, l (ix2 i k) * r (ix2 k j) := by
  simp only [Host.dotGeneral]
  rw [Ideal.dotGeneral_apply, ← Equiv.sum_comp (contrEquiv1 Cert.ReferenceIdeal.dot_S60000x128_S128x64_S60000x64_1_0_0_1_n_n 128 rfl rfl).symm]
  refine Finset.sum_congr rfl fun k _ => ?_
  obtain ⟨el, er⟩ := idx_r128 (ix2 i j) k
  rw [el, er]
  rfl

theorem rdot192_apply (l : FVec Ideal Cert.ReferenceIdeal.S60000x192 .f32) (r : FVec Ideal Cert.ReferenceIdeal.S192x64 .f32) (i : Fin 60000) (j : Fin 64) :
    Host.dotGeneral Cert.ReferenceIdeal.dot_S60000x192_S192x64_S60000x64_1_0_0_1_n_n none l r (ix2 i j) = ∑ k : Fin 192, l (ix2 i k) * r (ix2 k j) := by
  simp only [Host.dotGeneral]
  rw [Ideal.dotGeneral_apply, ← Equiv.sum_comp (contrEquiv1 Cert.ReferenceIdeal.dot_S60000x192_S192x64_S60000x64_1_0_0_1_n_n 192 rfl rfl).symm]
  refine Finset.sum_congr rfl fun k _ => ?_
  obtain ⟨el, er⟩ := idx_r192 (ix2 i j) k
  rw [el, er]
  rfl

theorem rdot64_apply (l : FVec Ideal Cert.ReferenceIdeal.S60000x64 .f32) (r : FVec Ideal Cert.ReferenceIdeal.S64x64 .f32) (i : Fin 60000) (j : Fin 64) :
    Host.dotGeneral Cert.ReferenceIdeal.dot_S60000x64_S64x64_S60000x64_1_0_0_1_n_n none l r (ix2 i j) = ∑ k : Fin 64, l (ix2 i k) * r (ix2 k j) := by
  simp only [Host.dotGeneral]
  rw [Ideal.dotGeneral_apply, ← Equiv.sum_comp (contrEquiv1 Cert.ReferenceIdeal.dot_S60000x64_S64x64_S60000x64_1_0_0_1_n_n 64 rfl rfl).symm]
  refine Finset.sum_congr rfl fun k _ => ?_
  obtain ⟨el, er⟩ := idx_r64 (ix2 i j) k
  rw [el, er]
  rfl

/-- A [64] vector broadcast to [1, 64] and then along 60000 rows reads, at `(i, j)`, the vector at `j`. -/
theorem rbias_apply (b : FVec Ideal Cert.ReferenceIdeal.S64 .f32) (i : Fin 60000) (j : Fin 64) :
    broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 b) (ix2 i j) = b (ix1 j) := by
  rw [broadcastInDim_apply _ Cert.ReferenceIdeal.Gen.bcast_S1x64_S60000x64_0_1 _ (ix2 i j) (ix2 (0 : Fin 1) j) (fun a => by
    match a with
    | ⟨0, _⟩ => rfl
    | ⟨1, _⟩ => rfl)]
  exact broadcastInDim_apply _ Cert.ReferenceIdeal.Gen.bcast_S64_S1x64_1 b (ix2 (0 : Fin 1) j) (ix1 j) (fun a => by
    match a with
    | ⟨0, _⟩ => rfl)

/-- The [64, 128] weight transposed reads, at `(k, j)`, the weight at `(j, k)`. -/
theorem rtr128_apply (w : FVec Ideal Cert.ReferenceIdeal.S64x128 .f32) (k : Fin 128) (j : Fin 64) :
    transpose Cert.ReferenceIdeal.S128x64 [1, 0] w Cert.ReferenceIdeal.Gen.transposes_S64x128_S128x64_1_0 (ix2 k j) = w (ix2 j k) :=
  transpose_ix2_apply w _ k j

/-- The [64, 192] weight transposed reads, at `(k, j)`, the weight at `(j, k)`. -/
theorem rtr192_apply (w : FVec Ideal Cert.ReferenceIdeal.S64x192 .f32) (k : Fin 192) (j : Fin 64) :
    transpose Cert.ReferenceIdeal.S192x64 [1, 0] w Cert.ReferenceIdeal.Gen.transposes_S64x192_S192x64_1_0 (ix2 k j) = w (ix2 j k) :=
  transpose_ix2_apply w _ k j

/-- The joined array [a | b] (128 and 64 columns) reads `a` on its first 128 columns. -/
theorem cat_left (a : FVec Ideal Cert.ReferenceIdeal.S60000x128 .f32) (b : FVec Ideal Cert.ReferenceIdeal.S60000x64 .f32) (i : Fin 60000) (k : Fin 128) :
    concatenate Cert.ReferenceIdeal.S60000x192 1 [⟨Cert.ReferenceIdeal.S60000x128, a⟩, ⟨Cert.ReferenceIdeal.S60000x64, b⟩] Cert.ReferenceIdeal.Gen.concatenates_S60000x128_S60000x64_S60000x192_d1 (ix2 i (⟨k.val, by omega⟩ : Fin 192)) = a (ix2 i k) :=
  concatenate_pair_apply_left 1 a b _ (ix2 i (⟨k.val, by omega⟩ : Fin 192)) rfl (ix2 i k) (fun c => by
    match c with
    | ⟨0, _⟩ => rfl
    | ⟨1, _⟩ => rfl)

/-- The joined array [a | b] reads `b` on its last 64 columns, column `128 + k` at `b`'s column `k`. -/
theorem cat_right (a : FVec Ideal Cert.ReferenceIdeal.S60000x128 .f32) (b : FVec Ideal Cert.ReferenceIdeal.S60000x64 .f32) (i : Fin 60000) (k : Fin 64) :
    concatenate Cert.ReferenceIdeal.S60000x192 1 [⟨Cert.ReferenceIdeal.S60000x128, a⟩, ⟨Cert.ReferenceIdeal.S60000x64, b⟩] Cert.ReferenceIdeal.Gen.concatenates_S60000x128_S60000x64_S60000x192_d1 (ix2 i (⟨128 + k.val, by omega⟩ : Fin 192)) = b (ix2 i k) :=
  concatenate_pair_apply_right 1 a b _ (ix2 i (⟨128 + k.val, by omega⟩ : Fin 192)) rfl rfl (ix2 i k) (fun c hc => by
    match c with
    | ⟨0, _⟩ => rfl
    | ⟨1, _⟩ => exact absurd rfl hc) (by show k.val + 128 = 128 + k.val; omega)

/-- The reference's first stage: `x · l0wᵀ + l0b + ego`. -/
abbrev xhatRef (x : FVec Ideal Cert.ReferenceIdeal.S60000x128 .f32) (l0w : FVec Ideal Cert.ReferenceIdeal.S64x128 .f32) (l0b : FVec Ideal Cert.ReferenceIdeal.S64 .f32)
    (ego : FVec Ideal Cert.ReferenceIdeal.S60000x64 .f32) : FVec Ideal Cert.ReferenceIdeal.S60000x64 .f32 :=
  addf (addf (Host.dotGeneral Cert.ReferenceIdeal.dot_S60000x128_S128x64_S60000x64_1_0_0_1_n_n none x (transpose Cert.ReferenceIdeal.S128x64 [1, 0] l0w Cert.ReferenceIdeal.Gen.transposes_S64x128_S128x64_1_0)) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 l0b))) ego

/-- The reference's second stage: `[h0 | xhat] · g0wᵀ + g0b`, the contraction over the 192 joined columns. -/
abbrev x1Ref (x h0 : FVec Ideal Cert.ReferenceIdeal.S60000x128 .f32) (ego : FVec Ideal Cert.ReferenceIdeal.S60000x64 .f32) (l0w : FVec Ideal Cert.ReferenceIdeal.S64x128 .f32) (l0b : FVec Ideal Cert.ReferenceIdeal.S64 .f32)
    (g0w : FVec Ideal Cert.ReferenceIdeal.S64x192 .f32) (g0b : FVec Ideal Cert.ReferenceIdeal.S64 .f32) : FVec Ideal Cert.ReferenceIdeal.S60000x64 .f32 :=
  addf (Host.dotGeneral Cert.ReferenceIdeal.dot_S60000x192_S192x64_S60000x64_1_0_0_1_n_n none (concatenate Cert.ReferenceIdeal.S60000x192 1 [⟨Cert.ReferenceIdeal.S60000x128, h0⟩, ⟨Cert.ReferenceIdeal.S60000x64, addf (addf (Host.dotGeneral Cert.ReferenceIdeal.dot_S60000x128_S128x64_S60000x64_1_0_0_1_n_n none x (transpose Cert.ReferenceIdeal.S128x64 [1, 0] l0w Cert.ReferenceIdeal.Gen.transposes_S64x128_S128x64_1_0)) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 l0b))) ego⟩] Cert.ReferenceIdeal.Gen.concatenates_S60000x128_S60000x64_S60000x192_d1) (transpose Cert.ReferenceIdeal.S192x64 [1, 0] g0w Cert.ReferenceIdeal.Gen.transposes_S64x192_S192x64_1_0)) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 g0b))

theorem xhatRef_apply (x : FVec Ideal Cert.ReferenceIdeal.S60000x128 .f32) (l0w : FVec Ideal Cert.ReferenceIdeal.S64x128 .f32) (l0b : FVec Ideal Cert.ReferenceIdeal.S64 .f32)
    (ego : FVec Ideal Cert.ReferenceIdeal.S60000x64 .f32) (i : Fin 60000) (k : Fin 64) :
    xhatRef x l0w l0b ego (ix2 i k) = ((∑ k' : Fin 128, x (ix2 i k') * l0w (ix2 k k')) + l0b (ix1 k)) + ego (ix2 i k) := by
  refine congrArg₂ (· + ·) (congrArg₂ (· + ·) ?_ (rbias_apply l0b i k)) rfl
  exact (rdot128_apply _ _ i k).trans (Finset.sum_congr rfl fun k' _ => congrArg (x (ix2 i k') * ·) (rtr128_apply l0w k' k))

/-- THE LAW. The reference's second stage at `(i, j)`: the sum over the 192 joined columns splits at column 128 into the
    sum over `h0`'s columns against the first 128 columns of `g0w` and the sum over `xhat`'s against its last 64. -/
theorem x1Ref_apply (x h0 : FVec Ideal Cert.ReferenceIdeal.S60000x128 .f32) (ego : FVec Ideal Cert.ReferenceIdeal.S60000x64 .f32) (l0w : FVec Ideal Cert.ReferenceIdeal.S64x128 .f32) (l0b : FVec Ideal Cert.ReferenceIdeal.S64 .f32)
    (g0w : FVec Ideal Cert.ReferenceIdeal.S64x192 .f32) (g0b : FVec Ideal Cert.ReferenceIdeal.S64 .f32) (i : Fin 60000) (j : Fin 64) :
    x1Ref x h0 ego l0w l0b g0w g0b (ix2 i j)
      = ((∑ k : Fin 128, h0 (ix2 i k) * g0w (ix2 j (⟨k.val, by omega⟩ : Fin 192)))
          + (∑ k : Fin 64, xhatRef x l0w l0b ego (ix2 i k) * g0w (ix2 j (⟨128 + k.val, by omega⟩ : Fin 192))))
        + g0b (ix1 j) := by
  refine congrArg₂ (· + ·) ?_ (rbias_apply g0b i j)
  refine (rdot192_apply _ _ i j).trans ((sum_split _).trans (congrArg₂ (· + ·) ?_ ?_))
  · exact Finset.sum_congr rfl fun k _ => congrArg₂ (· * ·) (cat_left h0 _ i k) (rtr192_apply g0w _ j)
  · exact Finset.sum_congr rfl fun k _ => congrArg₂ (· * ·) (cat_right h0 _ i k) (rtr192_apply g0w _ j)

/-! ## The two weight windows as column slices of the one [64, 192] weight -/

/-- Columns `0 … 127` of the [64, 192] weight. -/
theorem wh_apply (g0w : Vec Ideal S64x192 .f32) (j : Fin 64) (k : Fin 128) :
    extractStridedSlice S64x128 ![0, 0] g0w slices_S64x192_S64x128_0_0 (ix2 j k) = g0w (ix2 j (⟨k.val, by omega⟩ : Fin 192)) :=
  extractStridedSlice_apply ![0, 0] g0w slices_S64x192_S64x128_0_0 (ix2 j k) (ix2 j (⟨k.val, by omega⟩ : Fin 192)) (fun a => match a with
    | ⟨0, _⟩ => by show j.val = 0 + j.val; omega
    | ⟨1, _⟩ => by show k.val = 0 + k.val; omega)

/-- Columns `128 … 191` of the [64, 192] weight. -/
theorem wx_apply (g0w : Vec Ideal S64x192 .f32) (j k : Fin 64) :
    extractStridedSlice S64x64 ![0, 128] g0w slices_S64x192_S64x64_0_128 (ix2 j k) = g0w (ix2 j (⟨128 + k.val, by omega⟩ : Fin 192)) :=
  extractStridedSlice_apply ![0, 128] g0w slices_S64x192_S64x64_0_128 (ix2 j k) (ix2 j (⟨128 + k.val, by omega⟩ : Fin 192)) (fun a => match a with
    | ⟨0, _⟩ => by show j.val = 0 + j.val; omega
    | ⟨1, _⟩ => by show 128 + k.val = 128 + k.val; omega)

/-! ## The body's stores against the reference, over variables of the literal block and array types -/

/-- THE FIRST STORE IS THE REFERENCE'S SECOND STAGE. Whenever the three row-blocked inputs are rows `ρ r` of their
    arrays, the weights and biases are the whole arrays, and the two weight windows are the two column slices of one
    [64, 192] weight, the body's first store at `(r, j)` is the reference's `[h0 | xhat] · g0wᵀ + g0b` at `(ρ r, j)`:
    both sides read at the index, the reference's sum over the 192 joined columns split at column 128. -/
theorem pay2_is_x1 (x0 x1 : Vec Ideal S6000x128 .f32) (x2 : Vec Ideal S6000x64 .f32) (x3 : Vec Ideal S64x128 .f32)
    (x4 : Vec Ideal S64 .f32) (x5 : Vec Ideal S64x128 .f32) (x6 : Vec Ideal S64x64 .f32) (x7 : Vec Ideal S64 .f32)
    (X H0 : FVec Ideal Cert.ReferenceIdeal.S60000x128 .f32) (EGO : FVec Ideal Cert.ReferenceIdeal.S60000x64 .f32) (L0W : FVec Ideal Cert.ReferenceIdeal.S64x128 .f32)
    (L0B : FVec Ideal Cert.ReferenceIdeal.S64 .f32) (G0W : FVec Ideal Cert.ReferenceIdeal.S64x192 .f32) (G0B : FVec Ideal Cert.ReferenceIdeal.S64 .f32)
    (ρ : Fin 6000 → Fin 60000)
    (e0 : ∀ r k, x0 (ix2 r k) = X (ix2 (ρ r) k)) (e1 : ∀ r k, x1 (ix2 r k) = H0 (ix2 (ρ r) k))
    (e2 : ∀ r k, x2 (ix2 r k) = EGO (ix2 (ρ r) k)) (e3 : x3 = L0W) (e4 : x4 = L0B)
    (e5 : ∀ (j : Fin 64) (k : Fin 128), x5 (ix2 j k) = G0W (ix2 j (⟨k.val, by omega⟩ : Fin 192)))
    (e6 : ∀ (j k : Fin 64), x6 (ix2 j k) = G0W (ix2 j (⟨128 + k.val, by omega⟩ : Fin 192)))
    (e7 : x7 = G0B) (r : Fin 6000) (j : Fin 64) :
    k3_pay2 x0 x1 x2 x3 x4 x5 x6 x7 (ix2 r j) = x1Ref X H0 EGO L0W L0B G0W G0B (ix2 (ρ r) j) := by
  subst e3 e4 e7
  rw [pay2_apply, x1Ref_apply]
  simp only [e0, e1, e2, e5, e6, xhatRef_apply]

/-- THE SECOND STORE IS THE REFERENCE'S PROJECTION of the second stage by the [64, 64] weight: a product into a zero
    accumulator of the first store (its change of float format the identity) with the weight, against the
    reference's contraction of its second stage with the same weight. -/
theorem pay1_is_msg (x0 x1 : Vec Ideal S6000x128 .f32) (x2 : Vec Ideal S6000x64 .f32) (x3 : Vec Ideal S64x128 .f32)
    (x4 : Vec Ideal S64 .f32) (x5 : Vec Ideal S64x128 .f32) (x6 : Vec Ideal S64x64 .f32) (x7 : Vec Ideal S64 .f32) (x8 : Vec Ideal S64x64 .f32)
    (X1 : FVec Ideal Cert.ReferenceIdeal.S60000x64 .f32) (WP : FVec Ideal Cert.ReferenceIdeal.S64x64 .f32) (ρ : Fin 6000 → Fin 60000)
    (e : ∀ r j, k3_pay2 x0 x1 x2 x3 x4 x5 x6 x7 (ix2 r j) = X1 (ix2 (ρ r) j)) (e8 : x8 = WP) (r : Fin 6000) (j : Fin 64) :
    k3_pay1 (k3_pay3 x0 x1 x2 x3 x4 x5 x6 x7) (k3_pay4 x8) (ix2 r j)
      = Host.dotGeneral Cert.ReferenceIdeal.dot_S60000x64_S64x64_S60000x64_1_0_0_1_n_n none X1 WP (ix2 (ρ r) j) := by
  subst e8
  unfold k3_pay1 k3_pay3 k3_pay4
  rw [rdot64_apply]
  refine (mm64_apply _ _ r j).trans (Finset.sum_congr rfl fun k _ => congrArg₂ (· * ·) ?_ rfl)
  exact e r k

/-! ## The blocks: each window's block at a grid point, read off its array -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided once over the ten grid points: the three row-blocked inputs and the two outputs
    are at block row `t`, block column 0; the six weight and bias windows are whole, at block 0 on every axis. -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ win3_4.index t (0 : Fin 1) = 0
    ∧ (win3_5.index t (0 : Fin 2) = 0 ∧ win3_5.index t (1 : Fin 2) = 0)
    ∧ (win3_6.index t (0 : Fin 2) = 0 ∧ win3_6.index t (1 : Fin 2) = 0)
    ∧ win3_7.index t (0 : Fin 1) = 0
    ∧ (win3_8.index t (0 : Fin 2) = 0 ∧ win3_8.index t (1 : Fin 2) = 0)
    ∧ (win3_9.index t (0 : Fin 2) = t.val ∧ win3_9.index t (1 : Fin 2) = 0)
    ∧ (win3_10.index t (0 : Fin 2) = t.val ∧ win3_10.index t (1 : Fin 2) = 0) :=
  (by decide +kernel : ∀ t : Fin grid3.N, _)

/-- Row `r` of the block at grid point `t` is row `6000 · t + r` of the array. -/
def rowOf (t : Fin cfg3.N) (r : Fin 6000) : Fin 60000 :=
  ⟨t.val * 6000 + r.val, by
    have h : t.val < 10 := lt_of_lt_of_eq t.isLt (N_3 : cfg3.N = 10)
    have hr : r.val < 6000 := r.isLt
    omega⟩

section Blocks
variable (V : (c : Dev nD) → (b : Ref sig .tc) → Buf (Elt Ideal) ((c : Thread nD τ).loc b))

/-! ## The region's input arrays, as the region finds them, at their literal types -/

/-- The array window 0 stages, at its literal type. -/
abbrev arr0 (c : Dev nD) : FVec Ideal Cert.ReferenceIdeal.S60000x128 .f32 := V c (Pipeline.arrRef spec3 0)
/-- The array window 1 stages, at its literal type. -/
abbrev arr1 (c : Dev nD) : FVec Ideal Cert.ReferenceIdeal.S60000x128 .f32 := V c (Pipeline.arrRef spec3 1)
/-- The array window 2 stages, at its literal type. -/
abbrev arr2 (c : Dev nD) : FVec Ideal Cert.ReferenceIdeal.S60000x64 .f32 := V c (Pipeline.arrRef spec3 2)
/-- The array window 3 stages, at its literal type. -/
abbrev arr3 (c : Dev nD) : FVec Ideal Cert.ReferenceIdeal.S64x128 .f32 := V c (Pipeline.arrRef spec3 3)
/-- The array window 4 stages, at its literal type. -/
abbrev arr4 (c : Dev nD) : FVec Ideal Cert.ReferenceIdeal.S64 .f32 := V c (Pipeline.arrRef spec3 4)
/-- The array window 5 stages, at its literal type. -/
abbrev arr5 (c : Dev nD) : FVec Ideal Cert.ReferenceIdeal.S64x128 .f32 := V c (Pipeline.arrRef spec3 5)
/-- The array window 6 stages, at its literal type. -/
abbrev arr6 (c : Dev nD) : FVec Ideal Cert.ReferenceIdeal.S64x64 .f32 := V c (Pipeline.arrRef spec3 6)
/-- The array window 7 stages, at its literal type. -/
abbrev arr7 (c : Dev nD) : FVec Ideal Cert.ReferenceIdeal.S64 .f32 := V c (Pipeline.arrRef spec3 7)
/-- The array window 8 stages, at its literal type. -/
abbrev arr8 (c : Dev nD) : FVec Ideal Cert.ReferenceIdeal.S64x64 .f32 := V c (Pipeline.arrRef spec3 8)

/-- Window 0's block at point `t`, at `(r, k)`, is its array at `(6000 · t + r, k)`. -/
theorem blk0_apply (c : Dev nD) (t : Fin cfg3.N) (r : Fin 6000) (k : Fin 128) :
    (iblk3 V c 0 t : Vec Ideal S6000x128 .f32) (ix2 r k) = arr0 V c (ix2 (rowOf t r) k) := by
  obtain ⟨⟨h0, h1⟩, -, -, -, -, -, -, -, -, -, -⟩ := idx_facts t
  unfold iblk3
  rw [View.read_apply]
  show V c (Pipeline.arrRef spec3 0) _ = V c (Pipeline.arrRef spec3 0) _
  congr 1
  funext a; apply Fin.ext
  match a with
  | ⟨0, _⟩ => show win3_0.index t (0 : Fin 2) * 6000 + 1 * r.val = t.val * 6000 + r.val; rw [h0]; omega
  | ⟨1, _⟩ => show win3_0.index t (1 : Fin 2) * 128 + 1 * k.val = k.val; rw [h1]; omega

/-- Window 1's block at point `t`, at `(r, k)`, is its array at `(6000 · t + r, k)`. -/
theorem blk1_apply (c : Dev nD) (t : Fin cfg3.N) (r : Fin 6000) (k : Fin 128) :
    (iblk3 V c 1 t : Vec Ideal S6000x128 .f32) (ix2 r k) = arr1 V c (ix2 (rowOf t r) k) := by
  obtain ⟨-, ⟨h0, h1⟩, -, -, -, -, -, -, -, -, -⟩ := idx_facts t
  unfold iblk3
  rw [View.read_apply]
  show V c (Pipeline.arrRef spec3 1) _ = V c (Pipeline.arrRef spec3 1) _
  congr 1
  funext a; apply Fin.ext
  match a with
  | ⟨0, _⟩ => show win3_1.index t (0 : Fin 2) * 6000 + 1 * r.val = t.val * 6000 + r.val; rw [h0]; omega
  | ⟨1, _⟩ => show win3_1.index t (1 : Fin 2) * 128 + 1 * k.val = k.val; rw [h1]; omega

/-- Window 2's block at point `t`, at `(r, k)`, is its array at `(6000 · t + r, k)`. -/
theorem blk2_apply (c : Dev nD) (t : Fin cfg3.N) (r : Fin 6000) (k : Fin 64) :
    (iblk3 V c 2 t : Vec Ideal S6000x64 .f32) (ix2 r k) = arr2 V c (ix2 (rowOf t r) k) := by
  obtain ⟨-, -, ⟨h0, h1⟩, -, -, -, -, -, -, -, -⟩ := idx_facts t
  unfold iblk3
  rw [View.read_apply]
  show V c (Pipeline.arrRef spec3 2) _ = V c (Pipeline.arrRef spec3 2) _
  congr 1
  funext a; apply Fin.ext
  match a with
  | ⟨0, _⟩ => show win3_2.index t (0 : Fin 2) * 6000 + 1 * r.val = t.val * 6000 + r.val; rw [h0]; omega
  | ⟨1, _⟩ => show win3_2.index t (1 : Fin 2) * 64 + 1 * k.val = k.val; rw [h1]; omega

/-- Window 3 is whole: its block at every point is its array. -/
theorem blk3_eq (c : Dev nD) (t : Fin cfg3.N) :
    (iblk3 V c 3 t : Vec Ideal S64x128 .f32) = arr3 V c := by
  obtain ⟨-, -, -, ⟨h0, h1⟩, -, -, -, -, -, -, -⟩ := idx_facts t
  funext y
  unfold iblk3
  rw [View.read_apply]
  show V c (Pipeline.arrRef spec3 3) _ = V c (Pipeline.arrRef spec3 3) y
  congr 1
  funext a; apply Fin.ext
  match a with
  | ⟨0, _⟩ => show win3_3.index t (0 : Fin 2) * 64 + 1 * (y 0).val = (y 0).val; rw [h0]; omega
  | ⟨1, _⟩ => show win3_3.index t (1 : Fin 2) * 128 + 1 * (y 1).val = (y 1).val; rw [h1]; omega

/-- Window 4 is whole: its block at every point is its array. -/
theorem blk4_eq (c : Dev nD) (t : Fin cfg3.N) :
    (iblk3 V c 4 t : Vec Ideal S64 .f32) = arr4 V c := by
  obtain ⟨-, -, -, -, h0, -, -, -, -, -, -⟩ := idx_facts t
  funext y
  unfold iblk3
  rw [View.read_apply]
  show V c (Pipeline.arrRef spec3 4) _ = V c (Pipeline.arrRef spec3 4) y
  congr 1
  funext a; apply Fin.ext
  match a with
  | ⟨0, _⟩ => show win3_4.index t (0 : Fin 1) * 64 + 1 * (y 0).val = (y 0).val; rw [h0]; omega

/-- Window 5 is whole: its block at every point is its array. -/
theorem blk5_eq (c : Dev nD) (t : Fin cfg3.N) :
    (iblk3 V c 5 t : Vec Ideal S64x128 .f32) = arr5 V c := by
  obtain ⟨-, -, -, -, -, ⟨h0, h1⟩, -, -, -, -, -⟩ := idx_facts t
  funext y
  unfold iblk3
  rw [View.read_apply]
  show V c (Pipeline.arrRef spec3 5) _ = V c (Pipeline.arrRef spec3 5) y
  congr 1
  funext a; apply Fin.ext
  match a with
  | ⟨0, _⟩ => show win3_5.index t (0 : Fin 2) * 64 + 1 * (y 0).val = (y 0).val; rw [h0]; omega
  | ⟨1, _⟩ => show win3_5.index t (1 : Fin 2) * 128 + 1 * (y 1).val = (y 1).val; rw [h1]; omega

/-- Window 6 is whole: its block at every point is its array. -/
theorem blk6_eq (c : Dev nD) (t : Fin cfg3.N) :
    (iblk3 V c 6 t : Vec Ideal S64x64 .f32) = arr6 V c := by
  obtain ⟨-, -, -, -, -, -, ⟨h0, h1⟩, -, -, -, -⟩ := idx_facts t
  funext y
  unfold iblk3
  rw [View.read_apply]
  show V c (Pipeline.arrRef spec3 6) _ = V c (Pipeline.arrRef spec3 6) y
  congr 1
  funext a; apply Fin.ext
  match a with
  | ⟨0, _⟩ => show win3_6.index t (0 : Fin 2) * 64 + 1 * (y 0).val = (y 0).val; rw [h0]; omega
  | ⟨1, _⟩ => show win3_6.index t (1 : Fin 2) * 64 + 1 * (y 1).val = (y 1).val; rw [h1]; omega

/-- Window 7 is whole: its block at every point is its array. -/
theorem blk7_eq (c : Dev nD) (t : Fin cfg3.N) :
    (iblk3 V c 7 t : Vec Ideal S64 .f32) = arr7 V c := by
  obtain ⟨-, -, -, -, -, -, -, h0, -, -, -⟩ := idx_facts t
  funext y
  unfold iblk3
  rw [View.read_apply]
  show V c (Pipeline.arrRef spec3 7) _ = V c (Pipeline.arrRef spec3 7) y
  congr 1
  funext a; apply Fin.ext
  match a with
  | ⟨0, _⟩ => show win3_7.index t (0 : Fin 1) * 64 + 1 * (y 0).val = (y 0).val; rw [h0]; omega

/-- Window 8 is whole: its block at every point is its array. -/
theorem blk8_eq (c : Dev nD) (t : Fin cfg3.N) :
    (iblk3 V c 8 t : Vec Ideal S64x64 .f32) = arr8 V c := by
  obtain ⟨-, -, -, -, -, -, -, -, ⟨h0, h1⟩, -, -⟩ := idx_facts t
  funext y
  unfold iblk3
  rw [View.read_apply]
  show V c (Pipeline.arrRef spec3 8) _ = V c (Pipeline.arrRef spec3 8) y
  congr 1
  funext a; apply Fin.ext
  match a with
  | ⟨0, _⟩ => show win3_8.index t (0 : Fin 2) * 64 + 1 * (y 0).val = (y 0).val; rw [h0]; omega
  | ⟨1, _⟩ => show win3_8.index t (1 : Fin 2) * 64 + 1 * (y 1).val = (y 1).val; rw [h1]; omega

/-! ## From blocks to the arrays -/

/-- An element `(r, q)` of output window 9's block at point `t` sits at `(6000 · t + r, q)` of its array. -/
theorem emb9 (t : Fin cfg3.N) (r : Fin 6000) (q : Fin 64) :
    ((cfg3.win 9).blk t).view.emb (ix2 r q) = ix2 (rowOf t r) q := by
  obtain ⟨-, -, -, -, -, -, -, -, -, ⟨h0, h1⟩, -⟩ := idx_facts t
  funext a; apply Fin.ext
  match a with
  | ⟨0, _⟩ => show win3_9.index t (0 : Fin 2) * 6000 + 1 * r.val = t.val * 6000 + r.val; rw [h0]; omega
  | ⟨1, _⟩ => show win3_9.index t (1 : Fin 2) * 64 + 1 * q.val = q.val; rw [h1]; omega

/-- An index of the array is in point `t`'s block iff each coordinate is in the block's range on its axis. -/
theorem mem_blk9 (t : Fin cfg3.N) (i : S60000x64.Idx) :
    i ∈ ((cfg3.win 9).blk t).view.set ↔ ∀ a : Fin 2, win3_9.index t a * S6000x64.size a ≤ (i a).val ∧ (i a).val < win3_9.index t a * S6000x64.size a + S6000x64.size a := by
  show i ∈ ((View.whole main_v33_0).slice (win3_9.rect t)).set ↔ _
  rw [View.set_slice_whole, Rect.mem_set_unit]
  exact Iff.rfl

/-- The blocks tile the array: row `i` is in the block of point `i / 6000`. -/
theorem cover9 (i : S60000x64.Idx) : ∃ t : Fin cfg3.N, (cfg3.win 9).flush t = true ∧ i ∈ ((cfg3.win 9).blk t).view.set := by
  have hi0 : (i 0).val < 60000 := (i 0).isLt
  have hi1 : (i 1).val < 64 := (i 1).isLt
  have ht : (i 0).val / 6000 < cfg3.N := by rw [show cfg3.N = 10 from N_3]; omega
  obtain ⟨-, -, -, -, -, -, -, -, -, ⟨h0, h1⟩, -⟩ := idx_facts ⟨(i 0).val / 6000, ht⟩
  refine ⟨⟨(i 0).val / 6000, ht⟩, flush3_9 _, ?_⟩
  rw [mem_blk9]
  intro a
  match a with
  | ⟨0, _⟩ =>
    show win3_9.index ⟨(i 0).val / 6000, ht⟩ (0 : Fin 2) * 6000 ≤ (i 0).val ∧ (i 0).val < win3_9.index ⟨(i 0).val / 6000, ht⟩ (0 : Fin 2) * 6000 + 6000
    rw [h0]; show (i 0).val / 6000 * 6000 ≤ (i 0).val ∧ (i 0).val < (i 0).val / 6000 * 6000 + 6000; omega
  | ⟨1, _⟩ =>
    show win3_9.index ⟨(i 0).val / 6000, ht⟩ (1 : Fin 2) * 64 ≤ (i 1).val ∧ (i 1).val < win3_9.index ⟨(i 0).val / 6000, ht⟩ (1 : Fin 2) * 64 + 64
    rw [h1]; omega

/-- An element `(r, q)` of output window 10's block at point `t` sits at `(6000 · t + r, q)` of its array. -/
theorem emb10 (t : Fin cfg3.N) (r : Fin 6000) (q : Fin 64) :
    ((cfg3.win 10).blk t).view.emb (ix2 r q) = ix2 (rowOf t r) q := by
  obtain ⟨-, -, -, -, -, -, -, -, -, -, ⟨h0, h1⟩⟩ := idx_facts t
  funext a; apply Fin.ext
  match a with
  | ⟨0, _⟩ => show win3_10.index t (0 : Fin 2) * 6000 + 1 * r.val = t.val * 6000 + r.val; rw [h0]; omega
  | ⟨1, _⟩ => show win3_10.index t (1 : Fin 2) * 64 + 1 * q.val = q.val; rw [h1]; omega

/-- An index of the array is in point `t`'s block iff each coordinate is in the block's range on its axis. -/
theorem mem_blk10 (t : Fin cfg3.N) (i : S60000x64.Idx) :
    i ∈ ((cfg3.win 10).blk t).view.set ↔ ∀ a : Fin 2, win3_10.index t a * S6000x64.size a ≤ (i a).val ∧ (i a).val < win3_10.index t a * S6000x64.size a + S6000x64.size a := by
  show i ∈ ((View.whole main_v33_1).slice (win3_10.rect t)).set ↔ _
  rw [View.set_slice_whole, Rect.mem_set_unit]
  exact Iff.rfl

/-- The blocks tile the array: row `i` is in the block of point `i / 6000`. -/
theorem cover10 (i : S60000x64.Idx) : ∃ t : Fin cfg3.N, (cfg3.win 10).flush t = true ∧ i ∈ ((cfg3.win 10).blk t).view.set := by
  have hi0 : (i 0).val < 60000 := (i 0).isLt
  have hi1 : (i 1).val < 64 := (i 1).isLt
  have ht : (i 0).val / 6000 < cfg3.N := by rw [show cfg3.N = 10 from N_3]; omega
  obtain ⟨-, -, -, -, -, -, -, -, -, -, ⟨h0, h1⟩⟩ := idx_facts ⟨(i 0).val / 6000, ht⟩
  refine ⟨⟨(i 0).val / 6000, ht⟩, flush3_10 _, ?_⟩
  rw [mem_blk10]
  intro a
  match a with
  | ⟨0, _⟩ =>
    show win3_10.index ⟨(i 0).val / 6000, ht⟩ (0 : Fin 2) * 6000 ≤ (i 0).val ∧ (i 0).val < win3_10.index ⟨(i 0).val / 6000, ht⟩ (0 : Fin 2) * 6000 + 6000
    rw [h0]; show (i 0).val / 6000 * 6000 ≤ (i 0).val ∧ (i 0).val < (i 0).val / 6000 * 6000 + 6000; omega
  | ⟨1, _⟩ =>
    show win3_10.index ⟨(i 0).val / 6000, ht⟩ (1 : Fin 2) * 64 ≤ (i 1).val ∧ (i 1).val < win3_10.index ⟨(i 0).val / 6000, ht⟩ (1 : Fin 2) * 64 + 64
    rw [h1]; omega

/-- The first store at a grid point, with the region's own blocks: the reference's second stage at the block's rows. -/
theorem store9_at (c : Dev nD) (g0w : Vec Ideal S64x192 .f32)
    (hwh : V c (Pipeline.arrRef spec3 5) = extractStridedSlice S64x128 ![0, 0] g0w slices_S64x192_S64x128_0_0)
    (hwx : V c (Pipeline.arrRef spec3 6) = extractStridedSlice S64x64 ![0, 128] g0w slices_S64x192_S64x64_0_128) (t : Fin cfg3.N) (r : Fin 6000) (q : Fin 64) :
    k3_pay2 (iblk3 V c 0 t) (iblk3 V c 1 t) (iblk3 V c 2 t) (iblk3 V c 3 t) (iblk3 V c 4 t) (iblk3 V c 5 t) (iblk3 V c 6 t) (iblk3 V c 7 t) (ix2 r q) = x1Ref (arr0 V c) (arr1 V c) (arr2 V c) (arr3 V c) (arr4 V c) g0w (arr7 V c) (ix2 (rowOf t r) q) :=
  pay2_is_x1 (iblk3 V c 0 t) (iblk3 V c 1 t) (iblk3 V c 2 t) (iblk3 V c 3 t) (iblk3 V c 4 t) (iblk3 V c 5 t) (iblk3 V c 6 t) (iblk3 V c 7 t) (arr0 V c) (arr1 V c) (arr2 V c) (arr3 V c) (arr4 V c) g0w (arr7 V c) (rowOf t)
    (blk0_apply V c t) (blk1_apply V c t) (blk2_apply V c t) (blk3_eq V c t) (blk4_eq V c t)
    (fun j k => by rw [blk5_eq V c t]; show V c (Pipeline.arrRef spec3 5) (ix2 j k) = _; rw [hwh]; exact wh_apply g0w j k)
    (fun j k => by rw [blk6_eq V c t]; show V c (Pipeline.arrRef spec3 6) (ix2 j k) = _; rw [hwx]; exact wx_apply g0w j k)
    (blk7_eq V c t) r q

/-- WHAT POINT `t` WRITES BACK through the first output window is block `t` of the reference's second stage. -/
theorem flushed9_eq (c : Dev nD) (g0w : Vec Ideal S64x192 .f32)
    (hwh : V c (Pipeline.arrRef spec3 5) = extractStridedSlice S64x128 ![0, 0] g0w slices_S64x192_S64x128_0_0)
    (hwx : V c (Pipeline.arrRef spec3 6) = extractStridedSlice S64x64 ![0, 128] g0w slices_S64x192_S64x64_0_128) (t : Fin cfg3.N) :
    (dat3 (F := Ideal) V c).flushed 9 t = ((cfg3.win 9).blk t).view.read (Elt Ideal) (x1Ref (arr0 V c) (arr1 V c) (arr2 V c) (arr3 V c) (arr4 V c) g0w (arr7 V c)) := by
  show (cfg3.win 9).cut (grid3.coords t) ((dat3 V c).after 9 t) = _
  rw [after3_9]
  unfold out3_9
  rw [View.canon_unit_zero hz2]
  simp only [View.ld_unit_zero (S := S6000x128) hz2, View.ld_unit_zero (S := S6000x64) hz2, View.ld_unit_zero (S := S64x128) hz2, View.ld_unit_zero (S := S64) hz1, View.ld_unit_zero (S := S64x64) hz2]
  funext y
  obtain ⟨r, q, rfl⟩ : ∃ (r : Fin 6000) (q : Fin 64), y = ix2 r q := ⟨y 0, y 1, eq_ix2 y⟩
  refine (store9_at V c g0w hwh hwx t r q).trans ?_
  rw [View.read_apply, emb9]
  rfl

/-- WHAT POINT `t` WRITES BACK through the second output window is block `t` of the reference's projection. -/
theorem flushed10_eq (c : Dev nD) (g0w : Vec Ideal S64x192 .f32)
    (hwh : V c (Pipeline.arrRef spec3 5) = extractStridedSlice S64x128 ![0, 0] g0w slices_S64x192_S64x128_0_0)
    (hwx : V c (Pipeline.arrRef spec3 6) = extractStridedSlice S64x64 ![0, 128] g0w slices_S64x192_S64x64_0_128) (t : Fin cfg3.N) :
    (dat3 (F := Ideal) V c).flushed 10 t = ((cfg3.win 10).blk t).view.read (Elt Ideal) (Host.dotGeneral (F := Ideal) (φ₁ := .f32) (φ₂ := .f32) Cert.ReferenceIdeal.dot_S60000x64_S64x64_S60000x64_1_0_0_1_n_n none (x1Ref (arr0 V c) (arr1 V c) (arr2 V c) (arr3 V c) (arr4 V c) g0w (arr7 V c)) (arr8 V c)) := by
  show (cfg3.win 10).cut (grid3.coords t) ((dat3 V c).after 10 t) = _
  rw [after3_10]
  unfold out3_10
  rw [View.canon_unit_zero hz2]
  simp only [View.ld_unit_zero (S := S6000x128) hz2, View.ld_unit_zero (S := S6000x64) hz2, View.ld_unit_zero (S := S64x128) hz2, View.ld_unit_zero (S := S64) hz1, View.ld_unit_zero (S := S64x64) hz2]
  funext y
  obtain ⟨r, q, rfl⟩ : ∃ (r : Fin 6000) (q : Fin 64), y = ix2 r q := ⟨y 0, y 1, eq_ix2 y⟩
  refine (pay1_is_msg (iblk3 V c 0 t) (iblk3 V c 1 t) (iblk3 V c 2 t) (iblk3 V c 3 t) (iblk3 V c 4 t) (iblk3 V c 5 t) (iblk3 V c 6 t) (iblk3 V c 7 t) (iblk3 V c 8 t) (x1Ref (arr0 V c) (arr1 V c) (arr2 V c) (arr3 V c) (arr4 V c) g0w (arr7 V c)) (arr8 V c) (rowOf t) (store9_at V c g0w hwh hwx t) (blk8_eq V c t) r q).trans ?_
  rw [View.read_apply, emb10]
  rfl

/-- THE FIRST OUTPUT ARRAY after the region is the reference's second stage `[h0 | xhat] · g0wᵀ + g0b` of the region's
    input arrays, `xhat = x · l0wᵀ + l0b + ego`, when the two weight windows are the column slices of `g0w`. -/
theorem arr9 (c : Dev nD) (g0w : Vec Ideal S64x192 .f32)
    (hwh : V c (Pipeline.arrRef spec3 5) = extractStridedSlice S64x128 ![0, 0] g0w slices_S64x192_S64x128_0_0)
    (hwx : V c (Pipeline.arrRef spec3 6) = extractStridedSlice S64x64 ![0, 128] g0w slices_S64x192_S64x64_0_128) :
    @Eq (FVec Ideal Cert.ReferenceIdeal.S60000x64 .f32) ((dat3 (F := Ideal) V c).arrAt 9 cfg3.N)
      (addf (Host.dotGeneral (F := Ideal) (φ₁ := .f32) (φ₂ := .f32) Cert.ReferenceIdeal.dot_S60000x192_S192x64_S60000x64_1_0_0_1_n_n none (concatenate Cert.ReferenceIdeal.S60000x192 1 [⟨Cert.ReferenceIdeal.S60000x128, (V c (Pipeline.arrRef spec3 1) : FVec Ideal Cert.ReferenceIdeal.S60000x128 .f32)⟩, ⟨Cert.ReferenceIdeal.S60000x64, addf (addf (Host.dotGeneral (F := Ideal) (φ₁ := .f32) (φ₂ := .f32) Cert.ReferenceIdeal.dot_S60000x128_S128x64_S60000x64_1_0_0_1_n_n none (V c (Pipeline.arrRef spec3 0) : FVec Ideal Cert.ReferenceIdeal.S60000x128 .f32) (transpose Cert.ReferenceIdeal.S128x64 [1, 0] (V c (Pipeline.arrRef spec3 3) : FVec Ideal Cert.ReferenceIdeal.S64x128 .f32) Cert.ReferenceIdeal.Gen.transposes_S64x128_S128x64_1_0)) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 (V c (Pipeline.arrRef spec3 4) : FVec Ideal Cert.ReferenceIdeal.S64 .f32)))) (V c (Pipeline.arrRef spec3 2) : FVec Ideal Cert.ReferenceIdeal.S60000x64 .f32)⟩] Cert.ReferenceIdeal.Gen.concatenates_S60000x128_S60000x64_S60000x192_d1) (transpose Cert.ReferenceIdeal.S192x64 [1, 0] g0w Cert.ReferenceIdeal.Gen.transposes_S64x192_S192x64_1_0)) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 (V c (Pipeline.arrRef spec3 7) : FVec Ideal Cert.ReferenceIdeal.S64 .f32)))) :=
  (dat3 (F := Ideal) V c).arrAt_eq_of_cover 9 (x1Ref (arr0 V c) (arr1 V c) (arr2 V c) (arr3 V c) (arr4 V c) g0w (arr7 V c)) (fun t _ => flushed9_eq V c g0w hwh hwx t) cover9

/-- THE SECOND OUTPUT ARRAY after the region is that second stage contracted with the [64, 64] projection weight. -/
theorem arr10 (c : Dev nD) (g0w : Vec Ideal S64x192 .f32)
    (hwh : V c (Pipeline.arrRef spec3 5) = extractStridedSlice S64x128 ![0, 0] g0w slices_S64x192_S64x128_0_0)
    (hwx : V c (Pipeline.arrRef spec3 6) = extractStridedSlice S64x64 ![0, 128] g0w slices_S64x192_S64x64_0_128) :
    @Eq (FVec Ideal Cert.ReferenceIdeal.S60000x64 .f32) ((dat3 (F := Ideal) V c).arrAt 10 cfg3.N)
      (Host.dotGeneral (F := Ideal) (φ₁ := .f32) (φ₂ := .f32) Cert.ReferenceIdeal.dot_S60000x64_S64x64_S60000x64_1_0_0_1_n_n none (addf (Host.dotGeneral (F := Ideal) (φ₁ := .f32) (φ₂ := .f32) Cert.ReferenceIdeal.dot_S60000x192_S192x64_S60000x64_1_0_0_1_n_n none (concatenate Cert.ReferenceIdeal.S60000x192 1 [⟨Cert.ReferenceIdeal.S60000x128, (V c (Pipeline.arrRef spec3 1) : FVec Ideal Cert.ReferenceIdeal.S60000x128 .f32)⟩, ⟨Cert.ReferenceIdeal.S60000x64, addf (addf (Host.dotGeneral (F := Ideal) (φ₁ := .f32) (φ₂ := .f32) Cert.ReferenceIdeal.dot_S60000x128_S128x64_S60000x64_1_0_0_1_n_n none (V c (Pipeline.arrRef spec3 0) : FVec Ideal Cert.ReferenceIdeal.S60000x128 .f32) (transpose Cert.ReferenceIdeal.S128x64 [1, 0] (V c (Pipeline.arrRef spec3 3) : FVec Ideal Cert.ReferenceIdeal.S64x128 .f32) Cert.ReferenceIdeal.Gen.transposes_S64x128_S128x64_1_0)) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 (V c (Pipeline.arrRef spec3 4) : FVec Ideal Cert.ReferenceIdeal.S64 .f32)))) (V c (Pipeline.arrRef spec3 2) : FVec Ideal Cert.ReferenceIdeal.S60000x64 .f32)⟩] Cert.ReferenceIdeal.Gen.concatenates_S60000x128_S60000x64_S60000x192_d1) (transpose Cert.ReferenceIdeal.S192x64 [1, 0] g0w Cert.ReferenceIdeal.Gen.transposes_S64x192_S192x64_1_0)) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 (V c (Pipeline.arrRef spec3 7) : FVec Ideal Cert.ReferenceIdeal.S64 .f32)))) (V c (Pipeline.arrRef spec3 8) : FVec Ideal Cert.ReferenceIdeal.S64x64 .f32)) :=
  (dat3 (F := Ideal) V c).arrAt_eq_of_cover 10 (Host.dotGeneral (F := Ideal) (φ₁ := .f32) (φ₂ := .f32) Cert.ReferenceIdeal.dot_S60000x64_S64x64_S60000x64_1_0_0_1_n_n none (x1Ref (arr0 V c) (arr1 V c) (arr2 V c) (arr3 V c) (arr4 V c) g0w (arr7 V c)) (arr8 V c)) (fun t _ => flushed10_eq V c g0w hwh hwx t) cover10

end Blocks

end Cert.KernelIdeal.Stage2ValueV

end
-- ==== Proof.Trace3.lean ====
/-
  The contents of the idealized kernel program's buffers at the boundaries between @main's segments (the first modality's first fused layer and the message passing after it):
  each buffer a later segment reads holds its pure term of the launch memory. A stretch of host operations
  gives a buffer it computes the operation's function of its operands and leaves every other buffer; a kernel region
  gives each output array the whole-array function of its input arrays and leaves its input arrays and every other buffer.
-/
import proofs.«159630_j86646670230227_1_alg».proof.Proof.Gen.KernelIdeal.Frame
import proofs.«159630_j86646670230227_1_alg».proof.Proof.Gen.ReferenceIdeal
import Idealize.ShloMosaic.PureOps.Ideal
import proofs.«159630_j86646670230227_1_alg».proof.Proof.Trace2
import proofs.«159630_j86646670230227_1_alg».proof.Proof.Stage2ValueV
set_option maxRecDepth 16384

noncomputable section

namespace Cert.KernelIdeal.Trace

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem at7_main_v1 : W7 m ρ c (Proc.devRef .tc main_v1) = T_main_v1 m c := (W7_of_ne m ρ c main_v1 (by decide)).trans (at6_main_v1 m ρ c)
theorem at7_main_v3 : W7 m ρ c (Proc.devRef .tc main_v3) = T_main_v3 m c := (W7_of_ne m ρ c main_v3 (by decide)).trans (at6_main_v3 m ρ c)
theorem at7_main_v12 : W7 m ρ c (Proc.devRef .tc main_v12) = T_main_v12 m c := (W7_of_ne m ρ c main_v12 (by decide)).trans (at6_main_v12 m ρ c)
theorem at7_main_v13 : W7 m ρ c (Proc.devRef .tc main_v13) = T_main_v13 m c := (W7_arr m ρ c 2).trans (((dat3 (V6 m ρ) c).arrAt_in 2 rfl _).trans ((A_eq3 (V6 m ρ) c 2).trans (at6_main_v13 m ρ c)))
set_option maxHeartbeats 4000000 in
theorem at7_main_v33_1 : W7 m ρ c (Proc.devRef .tc main_v33_1) = T_main_v33_1 m c := by
  have e0 : V6 m ρ c (Pipeline.arrRef spec3 0) = T_main_v18_0 m c := at6_main_v18_0 m ρ c
  have e1 : V6 m ρ c (Pipeline.arrRef spec3 1) = T_main_v30 m c := at6_main_v30 m ρ c
  have e2 : V6 m ρ c (Pipeline.arrRef spec3 2) = T_main_v13 m c := at6_main_v13 m ρ c
  have e3 : V6 m ρ c (Pipeline.arrRef spec3 3) = T_main_arg17 m c := at6_main_arg17 m ρ c
  have e4 : V6 m ρ c (Pipeline.arrRef spec3 4) = T_main_arg18 m c := at6_main_arg18 m ρ c
  have e5 : V6 m ρ c (Pipeline.arrRef spec3 5) = T_main_v31 m c := at6_main_v31 m ρ c
  have e6 : V6 m ρ c (Pipeline.arrRef spec3 6) = T_main_v32 m c := at6_main_v32 m ρ c
  have e7 : V6 m ρ c (Pipeline.arrRef spec3 7) = T_main_arg26 m c := at6_main_arg26 m ρ c
  have e8 : V6 m ρ c (Pipeline.arrRef spec3 8) = T_main_arg14 m c := at6_main_arg14 m ρ c
  refine (W7_arr m ρ c 10).trans ((Cert.KernelIdeal.Stage2ValueV.arr10 (V6 m ρ) c (T_main_arg25 m c) (at6_main_v31 m ρ c) (at6_main_v32 m ρ c)).trans ?_)
  show dotW64 (F := Ideal) (fused1 (F := Ideal) (V6 m ρ c (Pipeline.arrRef spec3 0)) (V6 m ρ c (Pipeline.arrRef spec3 1)) (V6 m ρ c (Pipeline.arrRef spec3 2)) (V6 m ρ c (Pipeline.arrRef spec3 3)) (V6 m ρ c (Pipeline.arrRef spec3 4)) (T_main_arg25 m c) (V6 m ρ c (Pipeline.arrRef spec3 7))) (V6 m ρ c (Pipeline.arrRef spec3 8)) = _
  exact congr (congrArg (dotW64 (F := Ideal)) (congr (congrFun (congr (congr (congr (congr (congrArg (fused1 (F := Ideal)) e0) e1) e2) e3) e4) (T_main_arg25 m c)) e7)) e8
theorem at7_main_arg27 : W7 m ρ c (Proc.devRef .tc main_arg27) = T_main_arg27 m c := (W7_of_ne m ρ c main_arg27 (by decide)).trans (at6_main_arg27 m ρ c)
set_option maxHeartbeats 4000000 in
theorem at7_main_v33_0 : W7 m ρ c (Proc.devRef .tc main_v33_0) = T_main_v33_0 m c := by
  have e0 : V6 m ρ c (Pipeline.arrRef spec3 0) = T_main_v18_0 m c := at6_main_v18_0 m ρ c
  have e1 : V6 m ρ c (Pipeline.arrRef spec3 1) = T_main_v30 m c := at6_main_v30 m ρ c
  have e2 : V6 m ρ c (Pipeline.arrRef spec3 2) = T_main_v13 m c := at6_main_v13 m ρ c
  have e3 : V6 m ρ c (Pipeline.arrRef spec3 3) = T_main_arg17 m c := at6_main_arg17 m ρ c
  have e4 : V6 m ρ c (Pipeline.arrRef spec3 4) = T_main_arg18 m c := at6_main_arg18 m ρ c
  have e5 : V6 m ρ c (Pipeline.arrRef spec3 5) = T_main_v31 m c := at6_main_v31 m ρ c
  have e6 : V6 m ρ c (Pipeline.arrRef spec3 6) = T_main_v32 m c := at6_main_v32 m ρ c
  have e7 : V6 m ρ c (Pipeline.arrRef spec3 7) = T_main_arg26 m c := at6_main_arg26 m ρ c
  have e8 : V6 m ρ c (Pipeline.arrRef spec3 8) = T_main_arg14 m c := at6_main_arg14 m ρ c
  refine (W7_arr m ρ c 9).trans ((Cert.KernelIdeal.Stage2ValueV.arr9 (V6 m ρ) c (T_main_arg25 m c) (at6_main_v31 m ρ c) (at6_main_v32 m ρ c)).trans ?_)
  show fused1 (F := Ideal) (V6 m ρ c (Pipeline.arrRef spec3 0)) (V6 m ρ c (Pipeline.arrRef spec3 1)) (V6 m ρ c (Pipeline.arrRef spec3 2)) (V6 m ρ c (Pipeline.arrRef spec3 3)) (V6 m ρ c (Pipeline.arrRef spec3 4)) (T_main_arg25 m c) (V6 m ρ c (Pipeline.arrRef spec3 7)) = _
  exact congr (congrFun (congr (congr (congr (congr (congrArg (fused1 (F := Ideal)) e0) e1) e2) e3) e4) (T_main_arg25 m c)) e7
theorem at7_main_arg19 : W7 m ρ c (Proc.devRef .tc main_arg19) = T_main_arg19 m c := (W7_of_ne m ρ c main_arg19 (by decide)).trans (at6_main_arg19 m ρ c)
theorem at7_main_arg20 : W7 m ρ c (Proc.devRef .tc main_arg20) = T_main_arg20 m c := (W7_of_ne m ρ c main_arg20 (by decide)).trans (at6_main_arg20 m ρ c)
theorem at7_main_arg28 : W7 m ρ c (Proc.devRef .tc main_arg28) = T_main_arg28 m c := (W7_of_ne m ρ c main_arg28 (by decide)).trans (at6_main_arg28 m ρ c)
theorem at7_main_v17 : W7 m ρ c (Proc.devRef .tc main_v17) = T_main_v17 m c := (W7_of_ne m ρ c main_v17 (by decide)).trans (at6_main_v17 m ρ c)
theorem at7_main_arg15 : W7 m ρ c (Proc.devRef .tc main_arg15) = T_main_arg15 m c := (W7_of_ne m ρ c main_arg15 (by decide)).trans (at6_main_arg15 m ρ c)
theorem at7_main_arg29 : W7 m ρ c (Proc.devRef .tc main_arg29) = T_main_arg29 m c := (W7_of_ne m ρ c main_arg29 (by decide)).trans (at6_main_arg29 m ρ c)
theorem at7_main_arg21 : W7 m ρ c (Proc.devRef .tc main_arg21) = T_main_arg21 m c := (W7_of_ne m ρ c main_arg21 (by decide)).trans (at6_main_arg21 m ρ c)
theorem at7_main_arg22 : W7 m ρ c (Proc.devRef .tc main_arg22) = T_main_arg22 m c := (W7_of_ne m ρ c main_arg22 (by decide)).trans (at6_main_arg22 m ρ c)
theorem at7_main_arg30 : W7 m ρ c (Proc.devRef .tc main_arg30) = T_main_arg30 m c := (W7_of_ne m ρ c main_arg30 (by decide)).trans (at6_main_arg30 m ρ c)
theorem at7_main_arg16 : W7 m ρ c (Proc.devRef .tc main_arg16) = T_main_arg16 m c := (W7_of_ne m ρ c main_arg16 (by decide)).trans (at6_main_arg16 m ρ c)
theorem at7_main_arg31 : W7 m ρ c (Proc.devRef .tc main_arg31) = T_main_arg31 m c := (W7_of_ne m ρ c main_arg31 (by decide)).trans (at6_main_arg31 m ρ c)
theorem at7_main_arg23 : W7 m ρ c (Proc.devRef .tc main_arg23) = T_main_arg23 m c := (W7_of_ne m ρ c main_arg23 (by decide)).trans (at6_main_arg23 m ρ c)
theorem at7_main_arg24 : W7 m ρ c (Proc.devRef .tc main_arg24) = T_main_arg24 m c := (W7_of_ne m ρ c main_arg24 (by decide)).trans (at6_main_arg24 m ρ c)
theorem at7_main_arg32 : W7 m ρ c (Proc.devRef .tc main_arg32) = T_main_arg32 m c := (W7_of_ne m ρ c main_arg32 (by decide)).trans (at6_main_arg32 m ρ c)
theorem at7_main_arg1 : W7 m ρ c (Proc.devRef .tc main_arg1) = T_main_arg1 m c := (W7_of_ne m ρ c main_arg1 (by decide)).trans (at6_main_arg1 m ρ c)
theorem at7_main_arg2 : W7 m ρ c (Proc.devRef .tc main_arg2) = T_main_arg2 m c := (W7_of_ne m ρ c main_arg2 (by decide)).trans (at6_main_arg2 m ρ c)
theorem at8_main_v1 : W8 m ρ c (Proc.devRef .tc main_v1) = T_main_v1 m c := (StableHlo.after_of_forall_not_mem (b := Proc.devRef .tc main_v1) hostOps4 (W7 m ρ c) (List.forall_iff_forall_mem.mp (by keep_host))).trans (at7_main_v1 m ρ c)
theorem at8_main_v3 : W8 m ρ c (Proc.devRef .tc main_v3) = T_main_v3 m c := (StableHlo.after_of_forall_not_mem (b := Proc.devRef .tc main_v3) hostOps4 (W7 m ρ c) (List.forall_iff_forall_mem.mp (by keep_host))).trans (at7_main_v3 m ρ c)
theorem at8_main_v12 : W8 m ρ c (Proc.devRef .tc main_v12) = T_main_v12 m c := (StableHlo.after_of_forall_not_mem (b := Proc.devRef .tc main_v12) hostOps4 (W7 m ρ c) (List.forall_iff_forall_mem.mp (by keep_host))).trans (at7_main_v12 m ρ c)
theorem at8_main_v13 : W8 m ρ c (Proc.devRef .tc main_v13) = T_main_v13 m c := (StableHlo.after_of_forall_not_mem (b := Proc.devRef .tc main_v13) hostOps4 (W7 m ρ c) (List.forall_iff_forall_mem.mp (by keep_host))).trans (at7_main_v13 m ρ c)
theorem at8_main_v33_0 : W8 m ρ c (Proc.devRef .tc main_v33_0) = T_main_v33_0 m c := (StableHlo.after_of_forall_not_mem (b := Proc.devRef .tc main_v33_0) hostOps4 (W7 m ρ c) (List.forall_iff_forall_mem.mp (by keep_host))).trans (at7_main_v33_0 m ρ c)
set_option maxHeartbeats 4000000 in
theorem at8_main_v45 : W8 m ρ c (Proc.devRef .tc main_v45) = T_main_v45 m c := by
  show StableHlo.after hostOps4 (W7 m ρ c) (Proc.devRef .tc main_v45) = _
  after_results_simp
  rw [at7_main_v3 m ρ c, at7_main_v33_1 m ρ c, at7_main_v1 m ρ c, at7_main_v12 m ρ c]
  rfl
theorem at8_main_arg19 : W8 m ρ c (Proc.devRef .tc main_arg19) = T_main_arg19 m c := (StableHlo.after_of_forall_not_mem (b := Proc.devRef .tc main_arg19) hostOps4 (W7 m ρ c) (List.forall_iff_forall_mem.mp (by keep_host))).trans (at7_main_arg19 m ρ c)
theorem at8_main_arg20 : W8 m ρ c (Proc.devRef .tc main_arg20) = T_main_arg20 m c := (StableHlo.after_of_forall_not_mem (b := Proc.devRef .tc main_arg20) hostOps4 (W7 m ρ c) (List.forall_iff_forall_mem.mp (by keep_host))).trans (at7_main_arg20 m ρ c)
set_option maxHeartbeats 4000000 in
theorem at8_main_v46 : W8 m ρ c (Proc.devRef .tc main_v46) = T_main_v46 m c := by
  show StableHlo.after hostOps4 (W7 m ρ c) (Proc.devRef .tc main_v46) = _
  after_results_simp
  rw [at7_main_arg27 m ρ c]
  rfl
set_option maxHeartbeats 4000000 in
theorem at8_main_v47 : W8 m ρ c (Proc.devRef .tc main_v47) = T_main_v47 m c := by
  show StableHlo.after hostOps4 (W7 m ρ c) (Proc.devRef .tc main_v47) = _
  after_results_simp
  rw [at7_main_arg27 m ρ c]
  rfl
theorem at8_main_arg28 : W8 m ρ c (Proc.devRef .tc main_arg28) = T_main_arg28 m c := (StableHlo.after_of_forall_not_mem (b := Proc.devRef .tc main_arg28) hostOps4 (W7 m ρ c) (List.forall_iff_forall_mem.mp (by keep_host))).trans (at7_main_arg28 m ρ c)
theorem at8_main_v17 : W8 m ρ c (Proc.devRef .tc main_v17) = T_main_v17 m c := (StableHlo.after_of_forall_not_mem (b := Proc.devRef .tc main_v17) hostOps4 (W7 m ρ c) (List.forall_iff_forall_mem.mp (by keep_host))).trans (at7_main_v17 m ρ c)
theorem at8_main_arg15 : W8 m ρ c (Proc.devRef .tc main_arg15) = T_main_arg15 m c := (StableHlo.after_of_forall_not_mem (b := Proc.devRef .tc main_arg15) hostOps4 (W7 m ρ c) (List.forall_iff_forall_mem.mp (by keep_host))).trans (at7_main_arg15 m ρ c)
theorem at8_main_arg29 : W8 m ρ c (Proc.devRef .tc main_arg29) = T_main_arg29 m c := (StableHlo.after_of_forall_not_mem (b := Proc.devRef .tc main_arg29) hostOps4 (W7 m ρ c) (List.forall_iff_forall_mem.mp (by keep_host))).trans (at7_main_arg29 m ρ c)
theorem at8_main_arg21 : W8 m ρ c (Proc.devRef .tc main_arg21) = T_main_arg21 m c := (StableHlo.after_of_forall_not_mem (b := Proc.devRef .tc main_arg21) hostOps4 (W7 m ρ c) (List.forall_iff_forall_mem.mp (by keep_host))).trans (at7_main_arg21 m ρ c)
theorem at8_main_arg22 : W8 m ρ c (Proc.devRef .tc main_arg22) = T_main_arg22 m c := (StableHlo.after_of_forall_not_mem (b := Proc.devRef .tc main_arg22) hostOps4 (W7 m ρ c) (List.forall_iff_forall_mem.mp (by keep_host))).trans (at7_main_arg22 m ρ c)
theorem at8_main_arg30 : W8 m ρ c (Proc.devRef .tc main_arg30) = T_main_arg30 m c := (StableHlo.after_of_forall_not_mem (b := Proc.devRef .tc main_arg30) hostOps4 (W7 m ρ c) (List.forall_iff_forall_mem.mp (by keep_host))).trans (at7_main_arg30 m ρ c)
theorem at8_main_arg16 : W8 m ρ c (Proc.devRef .tc main_arg16) = T_main_arg16 m c := (StableHlo.after_of_forall_not_mem (b := Proc.devRef .tc main_arg16) hostOps4 (W7 m ρ c) (List.forall_iff_forall_mem.mp (by keep_host))).trans (at7_main_arg16 m ρ c)
theorem at8_main_arg31 : W8 m ρ c (Proc.devRef .tc main_arg31) = T_main_arg31 m c := (StableHlo.after_of_forall_not_mem (b := Proc.devRef .tc main_arg31) hostOps4 (W7 m ρ c) (List.forall_iff_forall_mem.mp (by keep_host))).trans (at7_main_arg31 m ρ c)
theorem at8_main_arg23 : W8 m ρ c (Proc.devRef .tc main_arg23) = T_main_arg23 m c := (StableHlo.after_of_forall_not_mem (b := Proc.devRef .tc main_arg23) hostOps4 (W7 m ρ c) (List.forall_iff_forall_mem.mp (by keep_host))).trans (at7_main_arg23 m ρ c)
theorem at8_main_arg24 : W8 m ρ c (Proc.devRef .tc main_arg24) = T_main_arg24 m c := (StableHlo.after_of_forall_not_mem (b := Proc.devRef .tc main_arg24) hostOps4 (W7 m ρ c) (List.forall_iff_forall_mem.mp (by keep_host))).trans (at7_main_arg24 m ρ c)
theorem at8_main_arg32 : W8 m ρ c (Proc.devRef .tc main_arg32) = T_main_arg32 m c := (StableHlo.after_of_forall_not_mem (b := Proc.devRef .tc main_arg32) hostOps4 (W7 m ρ c) (List.forall_iff_forall_mem.mp (by keep_host))).trans (at7_main_arg32 m ρ c)
theorem at8_main_arg1 : W8 m ρ c (Proc.devRef .tc main_arg1) = T_main_arg1 m c := (StableHlo.after_of_forall_not_mem (b := Proc.devRef .tc main_arg1) hostOps4 (W7 m ρ c) (List.forall_iff_forall_mem.mp (by keep_host))).trans (at7_main_arg1 m ρ c)
theorem at8_main_arg2 : W8 m ρ c (Proc.devRef .tc main_arg2) = T_main_arg2 m c := (StableHlo.after_of_forall_not_mem (b := Proc.devRef .tc main_arg2) hostOps4 (W7 m ρ c) (List.forall_iff_forall_mem.mp (by keep_host))).trans (at7_main_arg2 m ρ c)

end Cert.KernelIdeal.Trace

end
-- ==== Proof.Stage3ValueV.lean ====
/- The value of the first stage-3 region (grid of 10 points, blocks of 6000 rows of [60000,64] arrays): the array it
   leaves is, entry by entry, the reference's [h1 | xhat]·g1wᵀ + g1b with xhat = x1·l1wᵀ + l1b + ego.
   The body computes, on rows 6000·t … 6000·t + 5999, h1·g1whᵀ + xhat·g1wxᵀ + g1b: two products into zero accumulators,
   added. Each product at an entry is the plain sum over the 64 contracted positions; each entry of a block depends only on
   the same row of the row-blocked inputs; the ten blocks cover the 60000 rows. The reference contracts the 128 joined
   columns of [h1 | xhat] with g1wᵀ; with g1wh, g1wx the two column halves of g1w the two agree by splitting the sum over
   128 positions at 64. -/
import proofs.«159630_j86646670230227_1_alg».proof.Proof.Gen.KernelIdeal.Frame
import proofs.«159630_j86646670230227_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.ReferenceIdeal.Stage3ValueV

open Cert.ReferenceIdeal

/-- A sum over 128 terms is the sum of its first 64 and of its last 64 terms. -/
theorem sum_split {M : Type*} [AddCommMonoid M] (f : Fin 128 → M) :
    ∑ k : Fin 128, f k = ∑ k : Fin 64, f ⟨k.val, by omega⟩ + ∑ k : Fin 64, f ⟨64 + k.val, by omega⟩ :=
  Fin.sum_univ_add (a := 64) (b := 64) f

/-! The operand indices of the two host products, [60000,64] × [64,64] and [60000,128] × [128,64] (each contracts the
    left operand's columns with the right operand's rows), coordinate by coordinate. -/
theorem lhsA_0 (i : S60000x64.Idx) (q : dot_S60000x64_S64x64_S60000x64_1_0_0_1_n_n.contr.Idx) :
    (dot_S60000x64_S64x64_S60000x64_1_0_0_1_n_n.lhsIdx i q 0).val = (i 0).val := by
  unfold DotDims.lhsIdx
  rw [dif_neg (show ¬(0 : Fin S60000x64.rank) ∈ dot_S60000x64_S64x64_S60000x64_1_0_0_1_n_n.lhsBatch by decide),
    dif_pos (show (0 : Fin S60000x64.rank) ∈ dot_S60000x64_S64x64_S60000x64_1_0_0_1_n_n.lhsNonContracting by decide)]
  rfl
theorem lhsA_1 (i : S60000x64.Idx) (q : dot_S60000x64_S64x64_S60000x64_1_0_0_1_n_n.contr.Idx) :
    (dot_S60000x64_S64x64_S60000x64_1_0_0_1_n_n.lhsIdx i q 1).val = (q ⟨0, by decide⟩).val :=
  dot_S60000x64_S64x64_S60000x64_1_0_0_1_n_n.lhsIdx_val_of_single rfl i q
theorem rhsA_0 (i : S60000x64.Idx) (q : dot_S60000x64_S64x64_S60000x64_1_0_0_1_n_n.contr.Idx) :
    (dot_S60000x64_S64x64_S60000x64_1_0_0_1_n_n.rhsIdx i q 0).val = (q ⟨0, by decide⟩).val :=
  dot_S60000x64_S64x64_S60000x64_1_0_0_1_n_n.rhsIdx_val_of_single rfl i q
theorem rhsA_1 (i : S60000x64.Idx) (q : dot_S60000x64_S64x64_S60000x64_1_0_0_1_n_n.contr.Idx) :
    (dot_S60000x64_S64x64_S60000x64_1_0_0_1_n_n.rhsIdx i q 1).val = (i 1).val := by
  unfold DotDims.rhsIdx
  rw [dif_neg (show ¬(1 : Fin S64x64.rank) ∈ dot_S60000x64_S64x64_S60000x64_1_0_0_1_n_n.rhsBatch by decide),
    dif_pos (show (1 : Fin S64x64.rank) ∈ dot_S60000x64_S64x64_S60000x64_1_0_0_1_n_n.rhsNonContracting by decide)]
  rfl
theorem lhsB_0 (i : S60000x64.Idx) (q : dot_S60000x128_S128x64_S60000x64_1_0_0_1_n_n.contr.Idx) :
    (dot_S60000x128_S128x64_S60000x64_1_0_0_1_n_n.lhsIdx i q 0).val = (i 0).val := by
  unfold DotDims.lhsIdx
  rw [dif_neg (show ¬(0 : Fin S60000x128.rank) ∈ dot_S60000x128_S128x64_S60000x64_1_0_0_1_n_n.lhsBatch by decide),
    dif_pos (show (0 : Fin S60000x128.rank) ∈ dot_S60000x128_S128x64_S60000x64_1_0_0_1_n_n.lhsNonContracting by decide)]
  rfl
theorem lhsB_1 (i : S60000x64.Idx) (q : dot_S60000x128_S128x64_S60000x64_1_0_0_1_n_n.contr.Idx) :
    (dot_S60000x128_S128x64_S60000x64_1_0_0_1_n_n.lhsIdx i q 1).val = (q ⟨0, by decide⟩).val :=
  dot_S60000x128_S128x64_S60000x64_1_0_0_1_n_n.lhsIdx_val_of_single rfl i q
theorem rhsB_0 (i : S60000x64.Idx) (q : dot_S60000x128_S128x64_S60000x64_1_0_0_1_n_n.contr.Idx) :
    (dot_S60000x128_S128x64_S60000x64_1_0_0_1_n_n.rhsIdx i q 0).val = (q ⟨0, by decide⟩).val :=
  dot_S60000x128_S128x64_S60000x64_1_0_0_1_n_n.rhsIdx_val_of_single rfl i q
theorem rhsB_1 (i : S60000x64.Idx) (q : dot_S60000x128_S128x64_S60000x64_1_0_0_1_n_n.contr.Idx) :
    (dot_S60000x128_S128x64_S60000x64_1_0_0_1_n_n.rhsIdx i q 1).val = (i 1).val := by
  unfold DotDims.rhsIdx
  rw [dif_neg (show ¬(1 : Fin S128x64.rank) ∈ dot_S60000x128_S128x64_S60000x64_1_0_0_1_n_n.rhsBatch by decide),
    dif_pos (show (1 : Fin S128x64.rank) ∈ dot_S60000x128_S128x64_S60000x64_1_0_0_1_n_n.rhsNonContracting by decide)]
  rfl

/-- The host's [60000,64] by [64,64]ᵀ product at (i, j): the sum over k of A(i,k) · W(j,k). -/
theorem dotA_apply (A : FVec Ideal S60000x64 .f32) (W : FVec Ideal S64x64 .f32) (i : Fin 60000) (j : Fin 64) :
    Host.dotGeneral dot_S60000x64_S64x64_S60000x64_1_0_0_1_n_n none A
        (transpose S64x64 [1, 0] W Facts₀.transposes_S64x64_S64x64_1_0) (ix2 i j)
      = ∑ k : Fin 64, A (ix2 i k) * W (ix2 j k) := by
  simp only [Host.dotGeneral]
  rw [Ideal.dotGeneral_apply,
    ← Equiv.sum_comp (contrEquiv1 dot_S60000x64_S64x64_S60000x64_1_0_0_1_n_n 64 rfl rfl).symm]
  refine Finset.sum_congr rfl fun k _ => ?_
  have hk := contrEquiv1_symm_val dot_S60000x64_S64x64_S60000x64_1_0_0_1_n_n 64 rfl rfl k
  congr 1
  · refine congrArg A (funext fun ax => Fin.ext ?_)
    match ax with
    | ⟨0, _⟩ => exact lhsA_0 _ _
    | ⟨1, _⟩ => exact (lhsA_1 _ _).trans hk
  · refine transpose_apply [1, 0] W Facts₀.transposes_S64x64_S64x64_1_0 _ (ix2 j k) (fun b => ?_)
    match b with
    | ⟨0, _⟩ => exact ((rhsA_0 _ _).trans hk).symm
    | ⟨1, _⟩ => exact (rhsA_1 (ix2 i j) _).symm

/-- The host's [60000,128] by [64,128]ᵀ product at (i, j): the sum over k of C(i,k) · W(j,k). -/
theorem dotB_apply (C : FVec Ideal S60000x128 .f32) (W : FVec Ideal S64x128 .f32) (i : Fin 60000) (j : Fin 64) :
    Host.dotGeneral dot_S60000x128_S128x64_S60000x64_1_0_0_1_n_n none C
        (transpose S128x64 [1, 0] W Facts₀.transposes_S64x128_S128x64_1_0) (ix2 i j)
      = ∑ k : Fin 128, C (ix2 i k) * W (ix2 j k) := by
  simp only [Host.dotGeneral]
  rw [Ideal.dotGeneral_apply,
    ← Equiv.sum_comp (contrEquiv1 dot_S60000x128_S128x64_S60000x64_1_0_0_1_n_n 128 rfl rfl).symm]
  refine Finset.sum_congr rfl fun k _ => ?_
  have hk := contrEquiv1_symm_val dot_S60000x128_S128x64_S60000x64_1_0_0_1_n_n 128 rfl rfl k
  congr 1
  · refine congrArg C (funext fun ax => Fin.ext ?_)
    match ax with
    | ⟨0, _⟩ => exact lhsB_0 _ _
    | ⟨1, _⟩ => exact (lhsB_1 _ _).trans hk
  · refine transpose_apply [1, 0] W Facts₀.transposes_S64x128_S128x64_1_0 _ (ix2 j k) (fun b => ?_)
    match b with
    | ⟨0, _⟩ => exact ((rhsB_0 _ _).trans hk).symm
    | ⟨1, _⟩ => exact (rhsB_1 (ix2 i j) _).symm

/-- A bias [64] broadcast to [1,64] and then over 60000 rows reads, at (i, j), the bias at j. -/
theorem bias_apply (b : FVec Ideal S64 .f32) (i : Fin 60000) (j : Fin 64) :
    broadcastInDim S60000x64 ![0, 1] Facts₀.bcast_S1x64_S60000x64_0_1
        (broadcastInDim S1x64 ![1] Facts₀.bcast_S64_S1x64_1 b) (ix2 i j) = b (ix1 j) := by
  rw [broadcastInDim_apply _ Facts₀.bcast_S1x64_S60000x64_0_1 _ (ix2 i j) (ix2 (0 : Fin 1) j) (fun a => match a with
      | ⟨0, _⟩ => by show 0 = if (1 : Nat) = 1 then 0 else i.val; rw [if_pos rfl]
      | ⟨1, _⟩ => by show j.val = if (64 : Nat) = 1 then 0 else j.val; rw [if_neg (by decide)]),
    broadcastInDim_apply _ Facts₀.bcast_S64_S1x64_1 b (ix2 (0 : Fin 1) j) (ix1 j) (fun a => match a with
      | ⟨0, _⟩ => by show j.val = if (64 : Nat) = 1 then 0 else j.val; rw [if_neg (by decide)])]

/-- Two [60000,64] arrays joined along the columns: a column below 64 reads the first array … -/
theorem cat_lo (A B : FVec Ideal S60000x64 .f32) (i : Fin 60000) (k : Fin 64) :
    concatenate S60000x128 1 [⟨S60000x64, A⟩, ⟨S60000x64, B⟩] Facts₀.concatenates_S60000x64_S60000x64_S60000x128_d1
        (ix2 i (⟨k.val, by omega⟩ : Fin 128)) = A (ix2 i k) :=
  concatenate_pair_apply_left 1 A B Facts₀.concatenates_S60000x64_S60000x64_S60000x128_d1 _ rfl (ix2 i k)
    (fun b => match b with
      | ⟨0, _⟩ => rfl
      | ⟨1, _⟩ => rfl)

/-- … and column 64 + k reads the second array at column k. -/
theorem cat_hi (A B : FVec Ideal S60000x64 .f32) (i : Fin 60000) (k : Fin 64) :
    concatenate S60000x128 1 [⟨S60000x64, A⟩, ⟨S60000x64, B⟩] Facts₀.concatenates_S60000x64_S60000x64_S60000x128_d1
        (ix2 i (⟨64 + k.val, by omega⟩ : Fin 128)) = B (ix2 i k) :=
  concatenate_pair_apply_right 1 A B Facts₀.concatenates_S60000x64_S60000x64_S60000x128_d1 _ rfl rfl (ix2 i k)
    (fun b => match b with
      | ⟨0, _⟩ => fun _ => rfl
      | ⟨1, _⟩ => fun h => absurd rfl h)
    (by show k.val + 64 = 64 + k.val; omega)

/-! ## The reference's term for this stage, and its entries -/

/-- xhat = x1·l1wᵀ + l1b + ego, as the reference writes it. -/
abbrev xhatRef (x1 : FVec Ideal S60000x64 .f32) (l1w : FVec Ideal S64x64 .f32) (l1b : FVec Ideal S64 .f32)
    (ego : FVec Ideal S60000x64 .f32) : FVec Ideal S60000x64 .f32 :=
  addf (addf (Host.dotGeneral dot_S60000x64_S64x64_S60000x64_1_0_0_1_n_n none x1
      (transpose S64x64 [1, 0] l1w Facts₀.transposes_S64x64_S64x64_1_0))
    (broadcastInDim S60000x64 ![0, 1] Facts₀.bcast_S1x64_S60000x64_0_1
      (broadcastInDim S1x64 ![1] Facts₀.bcast_S64_S1x64_1 l1b))) ego

/-- [h1 | xhat]·g1wᵀ + g1b, as the reference writes it. -/
abbrev stage3Ref (x1 h1 ego : FVec Ideal S60000x64 .f32) (l1w : FVec Ideal S64x64 .f32) (l1b : FVec Ideal S64 .f32)
    (g1w : FVec Ideal S64x128 .f32) (g1b : FVec Ideal S64 .f32) : FVec Ideal S60000x64 .f32 :=
  addf (Host.dotGeneral dot_S60000x128_S128x64_S60000x64_1_0_0_1_n_n none
      (concatenate S60000x128 1 [⟨S60000x64, h1⟩, ⟨S60000x64, xhatRef x1 l1w l1b ego⟩]
        Facts₀.concatenates_S60000x64_S60000x64_S60000x128_d1)
      (transpose S128x64 [1, 0] g1w Facts₀.transposes_S64x128_S128x64_1_0))
    (broadcastInDim S60000x64 ![0, 1] Facts₀.bcast_S1x64_S60000x64_0_1
      (broadcastInDim S1x64 ![1] Facts₀.bcast_S64_S1x64_1 g1b))

/-- xhat at (i, k). -/
theorem xhatRef_apply (x1 : FVec Ideal S60000x64 .f32) (l1w : FVec Ideal S64x64 .f32) (l1b : FVec Ideal S64 .f32)
    (ego : FVec Ideal S60000x64 .f32) (i : Fin 60000) (k : Fin 64) :
    xhatRef x1 l1w l1b ego (ix2 i k)
      = (∑ k' : Fin 64, x1 (ix2 i k') * l1w (ix2 k k') + l1b (ix1 k)) + ego (ix2 i k) := by
  unfold xhatRef
  rw [addf_apply, addf_apply, dotA_apply, bias_apply]

/-- The reference's entry (i, j): the contraction over the 128 joined columns, split at column 64 into the part over
    h1 against g1w's first 64 columns and the part over xhat against its last 64. -/
theorem stage3Ref_apply (x1 h1 ego : FVec Ideal S60000x64 .f32) (l1w : FVec Ideal S64x64 .f32) (l1b : FVec Ideal S64 .f32)
    (g1w : FVec Ideal S64x128 .f32) (g1b : FVec Ideal S64 .f32) (i : Fin 60000) (j : Fin 64) :
    stage3Ref x1 h1 ego l1w l1b g1w g1b (ix2 i j)
      = (∑ k : Fin 64, h1 (ix2 i k) * g1w (ix2 j (⟨k.val, by omega⟩ : Fin 128))
          + ∑ k : Fin 64, ((∑ k' : Fin 64, x1 (ix2 i k') * l1w (ix2 k k') + l1b (ix1 k)) + ego (ix2 i k))
              * g1w (ix2 j (⟨64 + k.val, by omega⟩ : Fin 128)))
        + g1b (ix1 j) := by
  unfold stage3Ref
  rw [addf_apply, dotB_apply, bias_apply, sum_split]
  refine congrArg (· + g1b (ix1 j)) (congrArg₂ (· + ·) (Finset.sum_congr rfl fun k _ => ?_)
    (Finset.sum_congr rfl fun k _ => ?_))
  · beta_reduce
    rw [cat_lo]
  · beta_reduce
    rw [cat_hi, xhatRef_apply]

end Cert.ReferenceIdeal.Stage3ValueV

namespace Cert.KernelIdeal.Stage3ValueV

open Cert.KernelIdeal Cert.KernelIdeal.Gen

/-! The operand indices of the block product [6000,64] × [64,64] → [6000,64] (contraction over the left operand's
    columns and the right operand's rows), coordinate by coordinate. -/
theorem lhsK_0 (i : S6000x64.Idx) (q : dot_S6000x64_S64x64_S6000x64_1_0_0_1_n_n.contr.Idx) :
    (dot_S6000x64_S64x64_S6000x64_1_0_0_1_n_n.lhsIdx i q 0).val = (i 0).val := by
  unfold DotDims.lhsIdx
  rw [dif_neg (show ¬(0 : Fin S6000x64.rank) ∈ dot_S6000x64_S64x64_S6000x64_1_0_0_1_n_n.lhsBatch by decide),
    dif_pos (show (0 : Fin S6000x64.rank) ∈ dot_S6000x64_S64x64_S6000x64_1_0_0_1_n_n.lhsNonContracting by decide)]
  rfl
theorem lhsK_1 (i : S6000x64.Idx) (q : dot_S6000x64_S64x64_S6000x64_1_0_0_1_n_n.contr.Idx) :
    (dot_S6000x64_S64x64_S6000x64_1_0_0_1_n_n.lhsIdx i q 1).val = (q ⟨0, by decide⟩).val :=
  dot_S6000x64_S64x64_S6000x64_1_0_0_1_n_n.lhsIdx_val_of_single rfl i q
theorem rhsK_0 (i : S6000x64.Idx) (q : dot_S6000x64_S64x64_S6000x64_1_0_0_1_n_n.contr.Idx) :
    (dot_S6000x64_S64x64_S6000x64_1_0_0_1_n_n.rhsIdx i q 0).val = (q ⟨0, by decide⟩).val :=
  dot_S6000x64_S64x64_S6000x64_1_0_0_1_n_n.rhsIdx_val_of_single rfl i q
theorem rhsK_1 (i : S6000x64.Idx) (q : dot_S6000x64_S64x64_S6000x64_1_0_0_1_n_n.contr.Idx) :
    (dot_S6000x64_S64x64_S6000x64_1_0_0_1_n_n.rhsIdx i q 1).val = (i 1).val := by
  unfold DotDims.rhsIdx
  rw [dif_neg (show ¬(1 : Fin S64x64.rank) ∈ dot_S6000x64_S64x64_S6000x64_1_0_0_1_n_n.rhsBatch by decide),
    dif_pos (show (1 : Fin S64x64.rank) ∈ dot_S6000x64_S64x64_S6000x64_1_0_0_1_n_n.rhsNonContracting by decide)]
  rfl

/-- A [6000,64] by [64,64]ᵀ product into a zero accumulator, at (r, j): the sum over k of a(r,k) · w(j,k). -/
theorem matmulT_apply (a : FVec Ideal S6000x64 .bf16) (w : FVec Ideal S64x64 .bf16) (r : Fin 6000) (j : Fin 64) :
    matmul dot_S6000x64_S64x64_S6000x64_1_0_0_1_n_n none a (transpose S64x64 [1, 0] w transposes_S64x64_p1_0_S64x64)
        (constant S6000x64 .f32 0x00000000#32) (ix2 r j)
      = ∑ k : Fin 64, a (ix2 r k) * w (ix2 j k) := by
  simp only [matmul]
  rw [Ideal.matmul_constant_zero_apply,
    ← Equiv.sum_comp (contrEquiv1 dot_S6000x64_S64x64_S6000x64_1_0_0_1_n_n 64 rfl rfl).symm]
  refine Finset.sum_congr rfl fun k _ => ?_
  have hk := contrEquiv1_symm_val dot_S6000x64_S64x64_S6000x64_1_0_0_1_n_n 64 rfl rfl k
  congr 1
  · refine congrArg a (funext fun ax => Fin.ext ?_)
    match ax with
    | ⟨0, _⟩ => exact lhsK_0 _ _
    | ⟨1, _⟩ => exact (lhsK_1 _ _).trans hk
  · refine transpose_apply [1, 0] w transposes_S64x64_p1_0_S64x64 _ (ix2 j k) (fun b => ?_)
    match b with
    | ⟨0, _⟩ => exact ((rhsK_0 _ _).trans hk).symm
    | ⟨1, _⟩ => exact (rhsK_1 (ix2 r j) _).symm

/-- A bias row [64] cast to [1,64] and broadcast over 6000 rows reads, at (r, j), the bias at j. -/
theorem bias_apply (b : Vec Ideal S64 .f32) (r : Fin 6000) (j : Fin 64) :
    broadcastTo S6000x64 (shapeCast S1x64 b shapeCasts_S64_S1x64) broadcasts_S1x64_S6000x64 (ix2 r j) = b (ix1 j) := by
  rw [broadcastTo_1b_ab_apply, shapeCast_a_1a_apply]

/-- The body's arithmetic at (r, j): h1·g1whᵀ + (x1·l1wᵀ + l1b + ego)·g1wxᵀ + g1b, every product a plain sum over the
    64 contracted positions, the format changes the identity on the extended reals. -/
theorem pay_apply (x0 x1 x2 : FVec Ideal S6000x64 .f32) (x3 : FVec Ideal S64x64 .f32) (x4 : FVec Ideal S64 .f32)
    (x5 x6 : FVec Ideal S64x64 .f32) (x7 : FVec Ideal S64 .f32) (r : Fin 6000) (j : Fin 64) :
    k4_pay1 x0 x1 x2 x3 x4 x5 x6 x7 (ix2 r j)
      = (∑ k : Fin 64, x1 (ix2 r k) * x5 (ix2 j k)
          + ∑ k : Fin 64, ((∑ k' : Fin 64, x0 (ix2 r k') * x3 (ix2 k k') + x4 (ix1 k)) + x2 (ix2 r k)) * x6 (ix2 j k))
        + x7 (ix1 j) := by
  unfold k4_pay1
  simp only [shapeCast_self]
  rw [addf_apply, addf_apply, matmulT_apply, matmulT_apply, bias_apply]
  refine congrArg (· + x7 (ix1 j)) (congrArg₂ (· + ·) rfl (Finset.sum_congr rfl fun k _ => ?_))
  rw [truncf_apply, addf_apply, addf_apply, matmulT_apply, bias_apply]
  rfl

/-! ## The region's result as one function of its input arrays, index by index -/

/-- Entry (i, j) of the result: Σ_k h1(i,k)·g1wh(j,k) + Σ_k xhat(i,k)·g1wx(j,k) + g1b(j), where
    xhat(i,k) = Σ_k' x1(i,k')·l1w(k,k') + l1b(k) + ego(i,k). -/
def specAt (X1 H1 EGO : FVec Ideal S60000x64 .f32) (L1W : FVec Ideal S64x64 .f32) (L1B : FVec Ideal S64 .f32)
    (GWH GWX : FVec Ideal S64x64 .f32) (G1B : FVec Ideal S64 .f32) (i : Fin 60000) (j : Fin 64) : Ideal .f32 :=
  (∑ k : Fin 64, H1 (ix2 i k) * GWH (ix2 j k)
    + ∑ k : Fin 64, ((∑ k' : Fin 64, X1 (ix2 i k') * L1W (ix2 k k') + L1B (ix1 k)) + EGO (ix2 i k)) * GWX (ix2 j k))
  + G1B (ix1 j)

/-- The whole [60000,64] result. -/
def spec (X1 H1 EGO : FVec Ideal S60000x64 .f32) (L1W : FVec Ideal S64x64 .f32) (L1B : FVec Ideal S64 .f32)
    (GWH GWX : FVec Ideal S64x64 .f32) (G1B : FVec Ideal S64 .f32) : FVec Ideal S60000x64 .f32 :=
  fun y => specAt X1 H1 EGO L1W L1B GWH GWX G1B (y 0) (y 1)

/-- Row r of block n (of the 10 blocks of 6000 rows) is row 6000·n + r of the array. -/
def rowOf (n : Nat) (hn : n < 10) (r : Fin 6000) : Fin 60000 := ⟨6000 * n + r.val, by have := r.isLt; omega⟩

/-- The body's result on block n of the three row-blocked inputs (and the whole weight and bias arrays) is block n
    of `spec`: each entry depends on row 6000·n + r of the inputs only. -/
theorem pay_rows (X1 H1 EGO : FVec Ideal S60000x64 .f32) (L1W : FVec Ideal S64x64 .f32) (L1B : FVec Ideal S64 .f32)
    (GWH GWX : FVec Ideal S64x64 .f32) (G1B : FVec Ideal S64 .f32) (n : Nat) (hn : n < 10) (y : S6000x64.Idx) :
    k4_pay1 (fun y : S6000x64.Idx => X1 (ix2 (rowOf n hn (y 0)) (y 1 : Fin 64)))
        (fun y : S6000x64.Idx => H1 (ix2 (rowOf n hn (y 0)) (y 1 : Fin 64)))
        (fun y : S6000x64.Idx => EGO (ix2 (rowOf n hn (y 0)) (y 1 : Fin 64))) L1W L1B GWH GWX G1B y
      = spec X1 H1 EGO L1W L1B GWH GWX G1B (ix2 (rowOf n hn (y 0)) (y 1 : Fin 64)) := by
  obtain ⟨r, j, rfl⟩ : ∃ (r : Fin 6000) (j : Fin 64), y = ix2 r j := ⟨y 0, y 1, eq_ix2 y⟩
  rw [pay_apply]
  rfl

/-! ## From blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: at point t the three row-blocked inputs and the output are at
    block (t, 0); the weight and bias windows stay at block 0. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 1) = 0
    ∧ win4_8.index t (0 : Fin 2) = t.val ∧ win4_8.index t (1 : Fin 2) = 0 :=
  (by decide +kernel : ∀ t : Fin grid4.N, _)

/-- Window 0's block at point t is rows 6000·t … 6000·t + 5999 of its array. -/
theorem rows0_eq (c : Dev nD) (t : Fin cfg4.N) (ht : t.val < 10) :
    (iblk4 V c 0 t : FVec Ideal S6000x64 .f32)
      = fun y : S6000x64.Idx => (V c (Pipeline.arrRef spec4 0) : FVec Ideal S60000x64 .f32) (ix2 (rowOf t.val ht (y 0)) (y 1 : Fin 64)) := by
  obtain ⟨f0, f1, f2, f3, f4, f5, f6, f7, f8, f9, f10, f11, f12, f13, f14, f15⟩ := idx_facts t
  funext y
  unfold iblk4
  rw [View.read_apply]
  show (V c (Pipeline.arrRef spec4 0) : FVec Ideal S60000x64 .f32) (((cfg4.win 0).blk t).view.emb y) = _
  refine congrArg (V c (Pipeline.arrRef spec4 0) : FVec Ideal S60000x64 .f32) (funext fun a => Fin.ext ?_)
  match a with
  | ⟨0, _⟩ => show win4_0.index t (0 : Fin 2) * 6000 + 1 * (y 0).val = 6000 * t.val + (y 0).val; rw [f0]; omega
  | ⟨1, _⟩ => show win4_0.index t (1 : Fin 2) * 64 + 1 * (y 1).val = (y 1).val; rw [f1]; omega

/-- Window 1's block at point t is rows 6000·t … 6000·t + 5999 of its array. -/
theorem rows1_eq (c : Dev nD) (t : Fin cfg4.N) (ht : t.val < 10) :
    (iblk4 V c 1 t : FVec Ideal S6000x64 .f32)
      = fun y : S6000x64.Idx => (V c (Pipeline.arrRef spec4 1) : FVec Ideal S60000x64 .f32) (ix2 (rowOf t.val ht (y 0)) (y 1 : Fin 64)) := by
  obtain ⟨f0, f1, f2, f3, f4, f5, f6, f7, f8, f9, f10, f11, f12, f13, f14, f15⟩ := idx_facts t
  funext y
  unfold iblk4
  rw [View.read_apply]
  show (V c (Pipeline.arrRef spec4 1) : FVec Ideal S60000x64 .f32) (((cfg4.win 1).blk t).view.emb y) = _
  refine congrArg (V c (Pipeline.arrRef spec4 1) : FVec Ideal S60000x64 .f32) (funext fun a => Fin.ext ?_)
  match a with
  | ⟨0, _⟩ => show win4_1.index t (0 : Fin 2) * 6000 + 1 * (y 0).val = 6000 * t.val + (y 0).val; rw [f2]; omega
  | ⟨1, _⟩ => show win4_1.index t (1 : Fin 2) * 64 + 1 * (y 1).val = (y 1).val; rw [f3]; omega

/-- Window 2's block at point t is rows 6000·t … 6000·t + 5999 of its array. -/
theorem rows2_eq (c : Dev nD) (t : Fin cfg4.N) (ht : t.val < 10) :
    (iblk4 V c 2 t : FVec Ideal S6000x64 .f32)
      = fun y : S6000x64.Idx => (V c (Pipeline.arrRef spec4 2) : FVec Ideal S60000x64 .f32) (ix2 (rowOf t.val ht (y 0)) (y 1 : Fin 64)) := by
  obtain ⟨f0, f1, f2, f3, f4, f5, f6, f7, f8, f9, f10, f11, f12, f13, f14, f15⟩ := idx_facts t
  funext y
  unfold iblk4
  rw [View.read_apply]
  show (V c (Pipeline.arrRef spec4 2) : FVec Ideal S60000x64 .f32) (((cfg4.win 2).blk t).view.emb y) = _
  refine congrArg (V c (Pipeline.arrRef spec4 2) : FVec Ideal S60000x64 .f32) (funext fun a => Fin.ext ?_)
  match a with
  | ⟨0, _⟩ => show win4_2.index t (0 : Fin 2) * 6000 + 1 * (y 0).val = 6000 * t.val + (y 0).val; rw [f4]; omega
  | ⟨1, _⟩ => show win4_2.index t (1 : Fin 2) * 64 + 1 * (y 1).val = (y 1).val; rw [f5]; omega

/-- Window 3 is its whole [64,64] array at every point. -/
theorem whole3_eq (c : Dev nD) (t : Fin cfg4.N) :
    (iblk4 V c 3 t : FVec Ideal S64x64 .f32) = (V c (Pipeline.arrRef spec4 3) : FVec Ideal S64x64 .f32) := by
  obtain ⟨f0, f1, f2, f3, f4, f5, f6, f7, f8, f9, f10, f11, f12, f13, f14, f15⟩ := idx_facts t
  funext y
  unfold iblk4
  rw [View.read_apply]
  show (V c (Pipeline.arrRef spec4 3) : FVec Ideal S64x64 .f32) (((cfg4.win 3).blk t).view.emb y) = _
  refine congrArg (V c (Pipeline.arrRef spec4 3) : FVec Ideal S64x64 .f32) (funext fun a => Fin.ext ?_)
  match a with
  | ⟨0, _⟩ => show win4_3.index t (0 : Fin 2) * 64 + 1 * (y 0).val = (y 0).val; rw [f6]; omega
  | ⟨1, _⟩ => show win4_3.index t (1 : Fin 2) * 64 + 1 * (y 1).val = (y 1).val; rw [f7]; omega

/-- Window 4 is its whole [64] array at every point. -/
theorem whole4_eq (c : Dev nD) (t : Fin cfg4.N) :
    (iblk4 V c 4 t : FVec Ideal S64 .f32) = (V c (Pipeline.arrRef spec4 4) : FVec Ideal S64 .f32) := by
  obtain ⟨f0, f1, f2, f3, f4, f5, f6, f7, f8, f9, f10, f11, f12, f13, f14, f15⟩ := idx_facts t
  funext y
  unfold iblk4
  rw [View.read_apply]
  show (V c (Pipeline.arrRef spec4 4) : FVec Ideal S64 .f32) (((cfg4.win 4).blk t).view.emb y) = _
  refine congrArg (V c (Pipeline.arrRef spec4 4) : FVec Ideal S64 .f32) (funext fun a => Fin.ext ?_)
  match a with
  | ⟨0, _⟩ => show win4_4.index t (0 : Fin 1) * 64 + 1 * (y 0).val = (y 0).val; rw [f8]; omega

/-- Window 5 is its whole [64,64] array at every point. -/
theorem whole5_eq (c : Dev nD) (t : Fin cfg4.N) :
    (iblk4 V c 5 t : FVec Ideal S64x64 .f32) = (V c (Pipeline.arrRef spec4 5) : FVec Ideal S64x64 .f32) := by
  obtain ⟨f0, f1, f2, f3, f4, f5, f6, f7, f8, f9, f10, f11, f12, f13, f14, f15⟩ := idx_facts t
  funext y
  unfold iblk4
  rw [View.read_apply]
  show (V c (Pipeline.arrRef spec4 5) : FVec Ideal S64x64 .f32) (((cfg4.win 5).blk t).view.emb y) = _
  refine congrArg (V c (Pipeline.arrRef spec4 5) : FVec Ideal S64x64 .f32) (funext fun a => Fin.ext ?_)
  match a with
  | ⟨0, _⟩ => show win4_5.index t (0 : Fin 2) * 64 + 1 * (y 0).val = (y 0).val; rw [f9]; omega
  | ⟨1, _⟩ => show win4_5.index t (1 : Fin 2) * 64 + 1 * (y 1).val = (y 1).val; rw [f10]; omega

/-- Window 6 is its whole [64,64] array at every point. -/
theorem whole6_eq (c : Dev nD) (t : Fin cfg4.N) :
    (iblk4 V c 6 t : FVec Ideal S64x64 .f32) = (V c (Pipeline.arrRef spec4 6) : FVec Ideal S64x64 .f32) := by
  obtain ⟨f0, f1, f2, f3, f4, f5, f6, f7, f8, f9, f10, f11, f12, f13, f14, f15⟩ := idx_facts t
  funext y
  unfold iblk4
  rw [View.read_apply]
  show (V c (Pipeline.arrRef spec4 6) : FVec Ideal S64x64 .f32) (((cfg4.win 6).blk t).view.emb y) = _
  refine congrArg (V c (Pipeline.arrRef spec4 6) : FVec Ideal S64x64 .f32) (funext fun a => Fin.ext ?_)
  match a with
  | ⟨0, _⟩ => show win4_6.index t (0 : Fin 2) * 64 + 1 * (y 0).val = (y 0).val; rw [f11]; omega
  | ⟨1, _⟩ => show win4_6.index t (1 : Fin 2) * 64 + 1 * (y 1).val = (y 1).val; rw [f12]; omega

/-- Window 7 is its whole [64] array at every point. -/
theorem whole7_eq (c : Dev nD) (t : Fin cfg4.N) :
    (iblk4 V c 7 t : FVec Ideal S64 .f32) = (V c (Pipeline.arrRef spec4 7) : FVec Ideal S64 .f32) := by
  obtain ⟨f0, f1, f2, f3, f4, f5, f6, f7, f8, f9, f10, f11, f12, f13, f14, f15⟩ := idx_facts t
  funext y
  unfold iblk4
  rw [View.read_apply]
  show (V c (Pipeline.arrRef spec4 7) : FVec Ideal S64 .f32) (((cfg4.win 7).blk t).view.emb y) = _
  refine congrArg (V c (Pipeline.arrRef spec4 7) : FVec Ideal S64 .f32) (funext fun a => Fin.ext ?_)
  match a with
  | ⟨0, _⟩ => show win4_7.index t (0 : Fin 1) * 64 + 1 * (y 0).val = (y 0).val; rw [f13]; omega

/-- The region's result as a function of the arrays the region finds. -/
abbrev specV (c : Dev nD) : FVec Ideal S60000x64 .f32 :=
  spec (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))
    (V c (Pipeline.arrRef spec4 6)) (V c (Pipeline.arrRef spec4 7))

/-- One whole-block store through the zero-offset rectangle leaves the body's payload of the loaded blocks. -/
theorem out8_eq (x0 x1 x2 : FVec Ideal S6000x64 .f32) (x3 : FVec Ideal S64x64 .f32) (x4 : FVec Ideal S64 .f32)
    (x5 x6 : FVec Ideal S64x64 .f32) (x7 : FVec Ideal S64 .f32) :
    out4_8 (F := Ideal) x0 x1 x2 x3 x4 x5 x6 x7 = k4_pay1 (F := Ideal) x0 x1 x2 x3 x4 x5 x6 x7 := by
  unfold out4_8
  rw [View.canon_unit_zero hz2]
  simp only [View.ld_unit_zero (S := S6000x64) hz2, View.ld_unit_zero (S := S64x64) hz2, View.ld_unit_zero (S := S64) hz1]

/-- What the body leaves in the output's buffer at point t: rows 6000·t … 6000·t + 5999 of `specV`. -/
theorem after8_eq (c : Dev nD) (t : Fin cfg4.N) (ht : t.val < 10) :
    ((dat4 V c).after 8 t : FVec Ideal S6000x64 .f32)
      = fun y : S6000x64.Idx => specV V c (ix2 (rowOf t.val ht (y 0)) (y 1 : Fin 64)) := by
  rw [after4_8, rows0_eq V c t ht, rows1_eq V c t ht, rows2_eq V c t ht, whole3_eq V c t, whole4_eq V c t, whole5_eq V c t,
    whole6_eq V c t, whole7_eq V c t, out8_eq]
  funext y
  exact pay_rows _ _ _ _ _ _ _ _ t.val ht y

/-- What point t writes back is block t of `specV`. -/
theorem flushed8 (c : Dev nD) (t : Fin cfg4.N) :
    (dat4 V c).flushed 8 t = ((cfg4.win 8).blk t).view.read (Elt Ideal) (specV V c) := by
  have ht : t.val < 10 := by have h : t.val < grid4.N := t.isLt; rw [N_4] at h; exact h
  obtain ⟨f0, f1, f2, f3, f4, f5, f6, f7, f8, f9, f10, f11, f12, f13, f14, f15⟩ := idx_facts t
  show (cfg4.win 8).cut (grid4.coords t) ((dat4 V c).after 8 t) = _
  rw [after8_eq V c t ht]
  funext y
  rw [View.read_apply]
  show specV V c (ix2 (rowOf t.val ht (y 0)) (y 1 : Fin 64)) = specV V c (((cfg4.win 8).blk t).view.emb y)
  refine congrArg (specV V c) (funext fun a => Fin.ext ?_)
  match a with
  | ⟨0, _⟩ => show 6000 * t.val + (y 0).val = win4_8.index t (0 : Fin 2) * 6000 + 1 * (y 0).val; rw [f14]; omega
  | ⟨1, _⟩ => show (y 1).val = win4_8.index t (1 : Fin 2) * 64 + 1 * (y 1).val; rw [f15]; omega

/-- An index of the output array is in point t's block iff each coordinate is in the block's range on its axis. -/
theorem mem_blk8 (t : Fin cfg4.N) (i : S60000x64.Idx) :
    i ∈ ((cfg4.win 8).blk t).view.set ↔ ∀ a : Fin 2, win4_8.index t a * S6000x64.size a ≤ (i a).val
      ∧ (i a).val < win4_8.index t a * S6000x64.size a + S6000x64.size a := by
  show i ∈ ((View.whole main_v48).slice (win4_8.rect t)).set ↔ _
  rw [View.set_slice_whole, Rect.mem_set_unit]
  exact Iff.rfl

/-- Every row i of the output is in the block of point i / 6000, which writes back. -/
theorem cover8 (i : S60000x64.Idx) :
    ∃ t : Fin cfg4.N, (cfg4.win 8).flush t = true ∧ i ∈ ((cfg4.win 8).blk t).view.set := by
  have hi0 : (i 0).val < 60000 := idx2_lt0 i
  have hi1 : (i 1).val < 64 := idx2_lt1 i
  have hN : grid4.N = 10 := N_4
  have hlt : (i 0).val / 6000 < grid4.N := by rw [hN]; omega
  obtain ⟨f0, f1, f2, f3, f4, f5, f6, f7, f8, f9, f10, f11, f12, f13, f14, f15⟩ := idx_facts ⟨(i 0).val / 6000, hlt⟩
  refine ⟨⟨(i 0).val / 6000, hlt⟩, flush4_8 _, ?_⟩
  rw [mem_blk8]
  intro a
  match a with
  | ⟨0, _⟩ =>
    show win4_8.index ⟨(i 0).val / 6000, hlt⟩ (0 : Fin 2) * 6000 ≤ (i 0).val
      ∧ (i 0).val < win4_8.index ⟨(i 0).val / 6000, hlt⟩ (0 : Fin 2) * 6000 + 6000
    rw [f14]; show (i 0).val / 6000 * 6000 ≤ (i 0).val ∧ (i 0).val < (i 0).val / 6000 * 6000 + 6000; omega
  | ⟨1, _⟩ =>
    show win4_8.index ⟨(i 0).val / 6000, hlt⟩ (1 : Fin 2) * 64 ≤ (i 1).val
      ∧ (i 1).val < win4_8.index ⟨(i 0).val / 6000, hlt⟩ (1 : Fin 2) * 64 + 64
    rw [f15]; omega

/-- The array the region leaves is `specV`. -/
theorem final8 (c : Dev nD) : (dat4 V c).arrAt 8 cfg4.N = specV V c :=
  (dat4 V c).arrAt_eq_of_cover 8 (specV V c) (fun t _ => flushed8 V c t) cover8

/-! ## The region's result is the reference's term -/

/-- With the two weight windows the two column halves of one [64,128] array g1w (columns 0 … 63 and 64 … 127),
    `spec` is the reference's term entry by entry: Σ_{k<128} [h1 | xhat](i,k)·g1w(j,k)
    = Σ_{k<64} h1(i,k)·g1w(j,k) + Σ_{k<64} xhat(i,k)·g1w(j,64+k), a finite sum split at 64, which holds in any additive
    commutative monoid and so in the extended reals with no finiteness hypothesis. -/
theorem spec_eq_ref (X1 H1 EGO : FVec Ideal S60000x64 .f32) (L1W : FVec Ideal S64x64 .f32) (L1B : FVec Ideal S64 .f32)
    (GWH GWX : FVec Ideal S64x64 .f32) (G1B : FVec Ideal S64 .f32) (g1w : FVec Ideal S64x128 .f32)
    (hwh : GWH = extractStridedSlice S64x64 ![0, 0] g1w Facts₀.slices_S64x128_S64x64_0_0)
    (hwx : GWX = extractStridedSlice S64x64 ![0, 64] g1w Facts₀.slices_S64x128_S64x64_0_64) :
    spec X1 H1 EGO L1W L1B GWH GWX G1B = Cert.ReferenceIdeal.Stage3ValueV.stage3Ref X1 H1 EGO L1W L1B g1w G1B := by
  subst hwh hwx
  funext y
  obtain ⟨i, j, rfl⟩ : ∃ (i : Fin 60000) (j : Fin 64), y = ix2 i j := ⟨y 0, y 1, eq_ix2 y⟩
  rw [Cert.ReferenceIdeal.Stage3ValueV.stage3Ref_apply]
  show specAt X1 H1 EGO L1W L1B _ _ G1B i j = _
  unfold specAt
  refine congrArg (· + G1B (ix1 j)) (congrArg₂ (· + ·) (Finset.sum_congr rfl fun k _ => ?_)
    (Finset.sum_congr rfl fun k _ => ?_))
  · rw [slice2_axis1_apply 0 g1w Facts₀.slices_S64x128_S64x64_0_0 j k ⟨k.val, by omega⟩ (Nat.zero_add _).symm]
  · rw [slice2_axis1_eq 64 g1w Facts₀.slices_S64x128_S64x64_0_64 j k]

/-- THE ARRAY THE REGION LEAVES is the reference's [h1 | x1·l1wᵀ + l1b + ego]·g1wᵀ + g1b of the arrays the region
    finds, when its two weight windows hold the two column halves of g1w. -/
theorem region4_value (c : Dev nD) (g1w : Vec Ideal S64x128 .f32)
    (hwh : V c (Pipeline.arrRef spec4 5) = extractStridedSlice S64x64 ![0, 0] g1w Facts₀.slices_S64x128_S64x64_0_0)
    (hwx : V c (Pipeline.arrRef spec4 6) = extractStridedSlice S64x64 ![0, 64] g1w Facts₀.slices_S64x128_S64x64_0_64) :
    (Gen.dat4 (F := Ideal) V c).arrAt 8 cfg4.N
      = addf (F := Ideal) (Host.dotGeneral (F := Ideal) (φ₁ := .f32) (φ₂ := .f32) Cert.ReferenceIdeal.dot_S60000x128_S128x64_S60000x64_1_0_0_1_n_n none
          (concatenate Cert.ReferenceIdeal.S60000x128 1
            [⟨Cert.ReferenceIdeal.S60000x64, (V c (Pipeline.arrRef spec4 1) : FVec Ideal Cert.ReferenceIdeal.S60000x64 .f32)⟩,
             ⟨Cert.ReferenceIdeal.S60000x64,
               addf (F := Ideal) (addf (F := Ideal)
                 (Host.dotGeneral (F := Ideal) (φ₁ := .f32) (φ₂ := .f32) Cert.ReferenceIdeal.dot_S60000x64_S64x64_S60000x64_1_0_0_1_n_n none
                   (V c (Pipeline.arrRef spec4 0) : FVec Ideal Cert.ReferenceIdeal.S60000x64 .f32)
                   (transpose Cert.ReferenceIdeal.S64x64 [1, 0]
                     (V c (Pipeline.arrRef spec4 3) : FVec Ideal Cert.ReferenceIdeal.S64x64 .f32)
                     Cert.ReferenceIdeal.Facts₀.transposes_S64x64_S64x64_1_0))
                 (broadcastInDim Cert.ReferenceIdeal.S60000x64 ![0, 1] Cert.ReferenceIdeal.Facts₀.bcast_S1x64_S60000x64_0_1
                   (broadcastInDim Cert.ReferenceIdeal.S1x64 ![1] Cert.ReferenceIdeal.Facts₀.bcast_S64_S1x64_1
                     (V c (Pipeline.arrRef spec4 4) : FVec Ideal Cert.ReferenceIdeal.S64 .f32))))
                 (V c (Pipeline.arrRef spec4 2) : FVec Ideal Cert.ReferenceIdeal.S60000x64 .f32)⟩]
            Cert.ReferenceIdeal.Facts₀.concatenates_S60000x64_S60000x64_S60000x128_d1)
          (transpose Cert.ReferenceIdeal.S128x64 [1, 0] (g1w : FVec Ideal Cert.ReferenceIdeal.S64x128 .f32)
            Cert.ReferenceIdeal.Facts₀.transposes_S64x128_S128x64_1_0))
        (broadcastInDim Cert.ReferenceIdeal.S60000x64 ![0, 1] Cert.ReferenceIdeal.Facts₀.bcast_S1x64_S60000x64_0_1
          (broadcastInDim Cert.ReferenceIdeal.S1x64 ![1] Cert.ReferenceIdeal.Facts₀.bcast_S64_S1x64_1
            (V c (Pipeline.arrRef spec4 7) : FVec Ideal Cert.ReferenceIdeal.S64 .f32))) :=
  (final8 V c).trans (spec_eq_ref _ _ _ _ _ _ _ _ g1w hwh hwx)

end Cert.KernelIdeal.Stage3ValueV

end
-- ==== Proof.Stage1ValueT.lean ====
/-
  Region 5 (the first stage: row normalisation and a 128 × 128 projection, ten blocks of 6000 rows).

  For an input array `x : [60000, 128]` and a weight matrix `w : [128, 128]` the region leaves
    * in its first output   `y r j = x r j / max (sqrt (∑ₖ x r k · x r k)) ε`   (`ε` the f32 word 0x2B8CBCCC, never evaluated),
    * in its second output  `z r j = ∑ₖ y r k · w k j`.
  Each grid point `t` reads rows `6000·t … 6000·t + 5999` of `x` and the whole of `w`, and writes the same rows of both
  outputs; a row's result depends on that row of `x` only, so block `t` of the result is the result of block `t`.
  On the ideal values the kernel's lane sum is the plain sum of the 128 products, its roundings to bf16 before the matrix
  product are the identity, and its accumulator is zero; the reference's `reduce` adds the same 128 products to a zero
  initial value, and its `dot_general` is the same sum over the contraction coordinate. So both arrays are, index by
  index, the reference's whole-array terms applied to the region's two input arrays (`arr2_ref`, `arr3_ref`).
-/
import proofs.«159630_j86646670230227_1_alg».proof.Proof.Gen.KernelIdeal.Frame
import proofs.«159630_j86646670230227_1_alg».proof.Proof.Gen.ReferenceIdeal
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Stage1ValueT

open Idealize.ShloMosaic Idealize.ShloMosaic.ValueIdx Idealize.ShloMosaic.TcCoe Idealize.SL.Sem
open Idealize.ShloMosaic.Pipeline (Dat)
open Cert.KernelIdeal

/-- An `[a]` array cast to `[a, 1]` reads, at `(p, u)`, the operand at `p`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `(r, j)` of the row-normalised array: `x r j / max (sqrt (∑ₖ x r k · x r k)) ε`, `ε` the shared literal. -/
def rowNorm {n : ℕ} (x : (⟨2, ![n, 128]⟩ : Shape).Idx → EReal) (r : Fin n) (j : Fin 128) : EReal :=
  Ideal.div (x (ix2 r j))
    (max (Ideal.sqrt (∑ k : Fin 128, x (ix2 r k) * x (ix2 r k))) (Ideal.ofBits .f32 0x2B8CBCCC#32))

/-- The lane sum of a `[6000, 128]` block at row `r` is the sum over the 128 columns. -/
theorem laneSum_apply (y : FVec Ideal S6000x128 .f32) (hφ : FKind.Formats .f32)
    (hacc : (0x00000000#32 : BitVec 32) = 0x00000000#32) (r : Fin 6000) :
    multiReduction .add [1] S6000 y 0x00000000#32 Gen.reduces_S6000x128_S6000 hφ hacc (ix1 r) = ∑ k : Fin 128, y (ix2 r k) := by
  refine (Ideal.multiReduction_add_single y 0x00000000#32 Gen.reduces_S6000x128_S6000 hφ hacc (ix1 r)).trans ?_
  refine Finset.sum_congr rfl fun k _ => congrArg y (funext fun a => Fin.ext ?_)
  match a with
  | ⟨0, _⟩ => rfl
  | ⟨1, _⟩ => rfl

/-- The first payload of the stage-1 body at `(r, j)`: the block's row `r` normalised. -/
theorem pay1_apply (v0 : Vec Ideal S6000x128 .f32) (r : Fin 6000) (j : Fin 128) :
    Gen.k5_pay1 (F := Ideal) v0 (ix2 r j) = rowNorm v0 r j := by
  unfold Gen.k5_pay1 rowNorm
  rw [shapeCast_self]
  rw [divf_apply, broadcastTo_a1_ab_apply, maximumf_apply]
  show Ideal.div _ (max (Ideal.sqrt (shapeCast S6000x1 _ _ (ix2 r (0 : Fin 1)))) _) = _
  rw [shapeCast_a_a1_apply, laneSum_apply]
  rfl

/-- Row coordinate of the left operand's index in the block product. -/
theorem lhsK_0 (i : S6000x128.Idx) (q : dot_S6000x128_S128x128_S6000x128_1_0_0_1_n_n.contr.Idx) :
    (dot_S6000x128_S128x128_S6000x128_1_0_0_1_n_n.lhsIdx i q 0).val = (i 0).val := by
  unfold DotDims.lhsIdx
  rw [dif_neg (show ¬(0 : Fin S6000x128.rank) ∈ dot_S6000x128_S128x128_S6000x128_1_0_0_1_n_n.lhsBatch by decide), dif_pos (show (0 : Fin S6000x128.rank) ∈ dot_S6000x128_S128x128_S6000x128_1_0_0_1_n_n.lhsNonContracting by decide)]
  rfl

/-- Column coordinate of the right operand's index in the block product. -/
theorem rhsK_1 (i : S6000x128.Idx) (q : dot_S6000x128_S128x128_S6000x128_1_0_0_1_n_n.contr.Idx) :
    (dot_S6000x128_S128x128_S6000x128_1_0_0_1_n_n.rhsIdx i q 1).val = (i 1).val := by
  unfold DotDims.rhsIdx
  rw [dif_neg (show ¬(1 : Fin S128x128.rank) ∈ dot_S6000x128_S128x128_S6000x128_1_0_0_1_n_n.rhsBatch by decide), dif_pos (show (1 : Fin S128x128.rank) ∈ dot_S6000x128_S128x128_S6000x128_1_0_0_1_n_n.rhsNonContracting by decide)]
  rfl

/-- The second payload of the stage-1 body at `(r, j)`: row `r` of the normalised block times column `j` of the
    weight matrix, a sum over the 128 contraction coordinates (the roundings to bf16 are the identity on the ideal values,
    the accumulator is the zero splat). -/
theorem pay2_apply (v0 : Vec Ideal S6000x128 .f32) (v12 : Vec Ideal S128x128 .f32) (r : Fin 6000) (j : Fin 128) :
    Gen.k5_pay2 (F := Ideal) v0 v12 (ix2 r j) = ∑ k : Fin 128, rowNorm v0 r k * v12 (ix2 k j) := by
  unfold Gen.k5_pay2
  simp only [matmul]
  rw [Ideal.matmul_constant_zero_apply, ← Equiv.sum_comp (contrEquiv1 dot_S6000x128_S128x128_S6000x128_1_0_0_1_n_n 128 rfl rfl).symm]
  refine Finset.sum_congr rfl fun k _ => ?_
  have hk := contrEquiv1_symm_val dot_S6000x128_S128x128_S6000x128_1_0_0_1_n_n 128 rfl rfl k
  have el : dot_S6000x128_S128x128_S6000x128_1_0_0_1_n_n.lhsIdx (ix2 r j) ((contrEquiv1 dot_S6000x128_S128x128_S6000x128_1_0_0_1_n_n 128 rfl rfl).symm k) = ix2 r k := funext fun a => Fin.ext (by
    match a with
    | ⟨0, _⟩ => exact lhsK_0 _ _
    | ⟨1, _⟩ => exact (dot_S6000x128_S128x128_S6000x128_1_0_0_1_n_n.lhsIdx_val_of_single rfl _ _).trans hk)
  have er : dot_S6000x128_S128x128_S6000x128_1_0_0_1_n_n.rhsIdx (ix2 r j) ((contrEquiv1 dot_S6000x128_S128x128_S6000x128_1_0_0_1_n_n 128 rfl rfl).symm k) = ix2 k j := funext fun a => Fin.ext (by
    match a with
    | ⟨0, _⟩ => exact (dot_S6000x128_S128x128_S6000x128_1_0_0_1_n_n.rhsIdx_val_of_single rfl _ _).trans hk
    | ⟨1, _⟩ => exact rhsK_1 _ _)
  rw [el, er, truncf_apply, truncf_apply, pay1_apply]

/-! ## The reference's whole-array terms, read at an index -/

/-- The reference's row normalisation of a `[60000, 128]` array, as the composition of host operations it is printed as:
    `x / broadcast (max (sqrt (broadcast (reduce_add (x · x) 0))) (broadcast ε))`. -/
def hostRowNorm (x : FVec Ideal Cert.ReferenceIdeal.S60000x128 .f32) : FVec Ideal Cert.ReferenceIdeal.S60000x128 .f32 :=
  Host.divf (F := Ideal) x (broadcastInDim Cert.ReferenceIdeal.S60000x128 ![0, 1] Cert.ReferenceIdeal.Gen.bcast_S60000x1_S60000x128_0_1 (maximumf (Host.sqrt (F := Ideal) (broadcastInDim Cert.ReferenceIdeal.S60000x1 ![0] Cert.ReferenceIdeal.Gen.bcast_S60000_S60000x1_0 (Host.reduceAdd (F := Ideal) (mulf x x) (constant (F := Ideal) Cert.ReferenceIdeal.S_ .f32 0x00000000#32) Cert.ReferenceIdeal.Gen.reducesTo_S60000x128_S60000_d1 Cert.ReferenceIdeal.Gen.h_S_))) (broadcastInDim Cert.ReferenceIdeal.S60000x1 ![] Cert.ReferenceIdeal.Gen.bcast_S_S60000x1 (constant (F := Ideal) Cert.ReferenceIdeal.S_ .f32 0x2B8CBCCC#32))))

/-- `hostRowNorm` is, by definition, that composition. -/
theorem hostRowNorm_eq (x : FVec Ideal Cert.ReferenceIdeal.S60000x128 .f32) : hostRowNorm x =
  Host.divf (F := Ideal) x (broadcastInDim Cert.ReferenceIdeal.S60000x128 ![0, 1] Cert.ReferenceIdeal.Gen.bcast_S60000x1_S60000x128_0_1 (maximumf (Host.sqrt (F := Ideal) (broadcastInDim Cert.ReferenceIdeal.S60000x1 ![0] Cert.ReferenceIdeal.Gen.bcast_S60000_S60000x1_0 (Host.reduceAdd (F := Ideal) (mulf x x) (constant (F := Ideal) Cert.ReferenceIdeal.S_ .f32 0x00000000#32) Cert.ReferenceIdeal.Gen.reducesTo_S60000x128_S60000_d1 Cert.ReferenceIdeal.Gen.h_S_))) (broadcastInDim Cert.ReferenceIdeal.S60000x1 ![] Cert.ReferenceIdeal.Gen.bcast_S_S60000x1 (constant (F := Ideal) Cert.ReferenceIdeal.S_ .f32 0x2B8CBCCC#32)))) := rfl

/-- The host's sum over the columns of a `[60000, 128]` array at row `r`: the initial value plus the 128 entries. -/
theorem hostRowSum_apply (y : FVec Ideal Cert.ReferenceIdeal.S60000x128 .f32) (init : FVec Ideal Cert.ReferenceIdeal.S_ .f32) (r : Fin 60000) :
    Host.reduceAdd (F := Ideal) y init Cert.ReferenceIdeal.Gen.reducesTo_S60000x128_S60000_d1 Cert.ReferenceIdeal.Gen.h_S_ (ix1 r)
      = init (Shape.Idx.first Cert.ReferenceIdeal.Gen.h_S_) + ∑ k : Fin 128, y (ix2 r k) := by
  simp only [Host.reduceAdd, Ideal.hostReduceAdd_def]
  rw [Ideal.hostReduceAdd_single Cert.ReferenceIdeal.Gen.reducesTo_S60000x128_S60000_d1 (by decide)]
  refine congrArg (_ + ·) (Finset.sum_congr rfl fun k _ => ?_)
  exact congrArg y (funext fun a => Fin.ext (by match a with | ⟨0, _⟩ => rfl | ⟨1, _⟩ => rfl))

/-- The host's square root is pointwise. -/
theorem hostSqrt_apply {s : Shape} (y : FVec Ideal s .f32) (i : s.Idx) : Host.sqrt (F := Ideal) y i = Ideal.sqrt (y i) := rfl

/-- The reference's row normalisation at `(r, j)` is `rowNorm` there: its sum starts from the zero word. -/
theorem hostRowNorm_apply (x : FVec Ideal Cert.ReferenceIdeal.S60000x128 .f32) (r : Fin 60000) (j : Fin 128) :
    hostRowNorm x (ix2 r j) = rowNorm x r j := by
  unfold hostRowNorm rowNorm
  rw [hostDivf_apply]
  rw [broadcastInDim_apply _ Cert.ReferenceIdeal.Gen.bcast_S60000x1_S60000x128_0_1 _ (ix2 r j) (ix2 r (0 : Fin 1)) (fun a => match a with
    | ⟨0, _⟩ => by show r.val = if (60000 : Nat) = 1 then 0 else r.val; rw [if_neg (by decide)]
    | ⟨1, _⟩ => by show 0 = if (1 : Nat) = 1 then 0 else j.val; rw [if_pos rfl])]
  rw [maximumf_apply, hostSqrt_apply]
  rw [broadcastInDim_apply _ Cert.ReferenceIdeal.Gen.bcast_S60000_S60000x1_0 _ (ix2 r (0 : Fin 1)) (ix1 r) (fun a => match a with
    | ⟨0, _⟩ => by show r.val = if (60000 : Nat) = 1 then 0 else r.val; rw [if_neg (by decide)])]
  rw [broadcastInDim_scalar_apply, hostRowSum_apply, constant_apply, constant_apply, Ideal.ofBits_zero_f32, zero_add]
  rfl

/-- Row coordinate of the left operand's index in the reference's product. -/
theorem lhsR_0 (i : Cert.ReferenceIdeal.S60000x128.Idx) (q : Cert.ReferenceIdeal.dot_S60000x128_S128x128_S60000x128_1_0_0_1_n_n.contr.Idx) :
    (Cert.ReferenceIdeal.dot_S60000x128_S128x128_S60000x128_1_0_0_1_n_n.lhsIdx i q 0).val = (i 0).val := by
  unfold DotDims.lhsIdx
  rw [dif_neg (show ¬(0 : Fin Cert.ReferenceIdeal.S60000x128.rank) ∈ Cert.ReferenceIdeal.dot_S60000x128_S128x128_S60000x128_1_0_0_1_n_n.lhsBatch by decide), dif_pos (show (0 : Fin Cert.ReferenceIdeal.S60000x128.rank) ∈ Cert.ReferenceIdeal.dot_S60000x128_S128x128_S60000x128_1_0_0_1_n_n.lhsNonContracting by decide)]
  rfl

/-- Column coordinate of the right operand's index in the reference's product. -/
theorem rhsR_1 (i : Cert.ReferenceIdeal.S60000x128.Idx) (q : Cert.ReferenceIdeal.dot_S60000x128_S128x128_S60000x128_1_0_0_1_n_n.contr.Idx) :
    (Cert.ReferenceIdeal.dot_S60000x128_S128x128_S60000x128_1_0_0_1_n_n.rhsIdx i q 1).val = (i 1).val := by
  unfold DotDims.rhsIdx
  rw [dif_neg (show ¬(1 : Fin Cert.ReferenceIdeal.S128x128.rank) ∈ Cert.ReferenceIdeal.dot_S60000x128_S128x128_S60000x128_1_0_0_1_n_n.rhsBatch by decide), dif_pos (show (1 : Fin Cert.ReferenceIdeal.S128x128.rank) ∈ Cert.ReferenceIdeal.dot_S60000x128_S128x128_S60000x128_1_0_0_1_n_n.rhsNonContracting by decide)]
  rfl

/-- The reference's `[60000, 128] × [128, 128]` product at `(r, j)`: row `r` of the left operand times column `j` of the
    right one, a sum over the 128 contraction coordinates. -/
theorem hostDot_apply (a : FVec Ideal Cert.ReferenceIdeal.S60000x128 .f32) (w : FVec Ideal Cert.ReferenceIdeal.S128x128 .f32) (r : Fin 60000) (j : Fin 128) :
    Host.dotGeneral (F := Ideal) Cert.ReferenceIdeal.dot_S60000x128_S128x128_S60000x128_1_0_0_1_n_n none a w (ix2 r j) = ∑ k : Fin 128, a (ix2 r k) * w (ix2 k j) := by
  simp only [Host.dotGeneral]
  rw [Ideal.dotGeneral_apply, ← Equiv.sum_comp (contrEquiv1 Cert.ReferenceIdeal.dot_S60000x128_S128x128_S60000x128_1_0_0_1_n_n 128 rfl rfl).symm]
  refine Finset.sum_congr rfl fun k _ => ?_
  have hk := contrEquiv1_symm_val Cert.ReferenceIdeal.dot_S60000x128_S128x128_S60000x128_1_0_0_1_n_n 128 rfl rfl k
  have el : Cert.ReferenceIdeal.dot_S60000x128_S128x128_S60000x128_1_0_0_1_n_n.lhsIdx (ix2 r j) ((contrEquiv1 Cert.ReferenceIdeal.dot_S60000x128_S128x128_S60000x128_1_0_0_1_n_n 128 rfl rfl).symm k) = ix2 r k := funext fun a => Fin.ext (by
    match a with
    | ⟨0, _⟩ => exact lhsR_0 _ _
    | ⟨1, _⟩ => exact (Cert.ReferenceIdeal.dot_S60000x128_S128x128_S60000x128_1_0_0_1_n_n.lhsIdx_val_of_single rfl _ _).trans hk)
  have er : Cert.ReferenceIdeal.dot_S60000x128_S128x128_S60000x128_1_0_0_1_n_n.rhsIdx (ix2 r j) ((contrEquiv1 Cert.ReferenceIdeal.dot_S60000x128_S128x128_S60000x128_1_0_0_1_n_n 128 rfl rfl).symm k) = ix2 k j := funext fun a => Fin.ext (by
    match a with
    | ⟨0, _⟩ => exact (Cert.ReferenceIdeal.dot_S60000x128_S128x128_S60000x128_1_0_0_1_n_n.rhsIdx_val_of_single rfl _ _).trans hk
    | ⟨1, _⟩ => exact rhsR_1 _ _)
  rw [el, er]

/-! ## The two result arrays, index by index -/

/-- The row-normalised array. -/
def nrmArr (x : S60000x128.Idx → EReal) : S60000x128.Idx → EReal := fun i => rowNorm x (i 0) (i 1)

/-- The row-normalised array times the weight matrix. -/
def projArr (x : S60000x128.Idx → EReal) (w : S128x128.Idx → EReal) : S60000x128.Idx → EReal :=
  fun i => ∑ k : Fin 128, rowNorm x (i 0) k * w (ix2 k (i 1))

/-- `rowNorm` of a row depends on that row's 128 entries only. -/
theorem rowNorm_congr {n m : ℕ} (b : (⟨2, ![n, 128]⟩ : Shape).Idx → EReal) (x : (⟨2, ![m, 128]⟩ : Shape).Idx → EReal)
    (r : Fin n) (s : Fin m) (h : ∀ k : Fin 128, b (ix2 r k) = x (ix2 s k)) (j : Fin 128) :
    rowNorm b r j = rowNorm x s j := by
  unfold rowNorm
  rw [h j]
  exact congrArg (fun z => Ideal.div (x (ix2 s j)) (max (Ideal.sqrt z) (Ideal.ofBits .f32 0x2B8CBCCC#32)))
    (Finset.sum_congr rfl fun k _ => by rw [h k])

/-- The reference's normalisation term is the row-normalised array. -/
theorem nrmArr_eq_host (x : S60000x128.Idx → EReal) : nrmArr x = hostRowNorm x := funext fun i => by
  obtain ⟨r, j, rfl⟩ : ∃ (r : Fin 60000) (j : Fin 128), i = ix2 r j := ⟨i 0, i 1, eq_ix2 i⟩
  exact (hostRowNorm_apply x r j).symm

/-- The reference's product of its normalisation term with the weights is `projArr`. -/
theorem projArr_eq_host (x : S60000x128.Idx → EReal) (w : S128x128.Idx → EReal) :
    projArr x w = Host.dotGeneral (F := Ideal) (φ₁ := .f32) (φ₂ := .f32) Cert.ReferenceIdeal.dot_S60000x128_S128x128_S60000x128_1_0_0_1_n_n none (hostRowNorm x) w := funext fun i => by
  obtain ⟨r, j, rfl⟩ : ∃ (r : Fin 60000) (j : Fin 128), i = ix2 r j := ⟨i 0, i 1, eq_ix2 i⟩
  rw [hostDot_apply]
  show ∑ k : Fin 128, rowNorm x r k * w (ix2 k j) = _
  exact Finset.sum_congr rfl fun k _ => by rw [hostRowNorm_apply]

/-- If the block `b` is rows `6000·T …` of `x`, the first payload of `b` at `(p, q)` is the row-normalised array at
    `(6000·T + p, q)`. -/
theorem pay1_block (x : S60000x128.Idx → EReal) (b : Vec Ideal S6000x128 .f32) (T : ℕ)
    (hb : ∀ (p : Fin 6000) (k : Fin 128) (i : S60000x128.Idx), (i 0).val = T * 6000 + p.val → (i 1).val = k.val → b (ix2 p k) = x i)
    (p : Fin 6000) (q : Fin 128) (i : S60000x128.Idx) (h0 : (i 0).val = T * 6000 + p.val) (h1 : (i 1).val = q.val) :
    Gen.k5_pay1 (F := Ideal) b (ix2 p q) = nrmArr x i := by
  rw [pay1_apply]
  have e1 : q = i 1 := Fin.ext h1.symm
  subst e1
  exact rowNorm_congr b x p (i 0) (fun k => hb p k (ix2 (i 0) k) h0 rfl) (i 1)

/-- Likewise the second payload, the weight block being the whole weight matrix. -/
theorem pay2_block (x : S60000x128.Idx → EReal) (w : S128x128.Idx → EReal) (b : Vec Ideal S6000x128 .f32) (bw : Vec Ideal S128x128 .f32) (T : ℕ)
    (hb : ∀ (p : Fin 6000) (k : Fin 128) (i : S60000x128.Idx), (i 0).val = T * 6000 + p.val → (i 1).val = k.val → b (ix2 p k) = x i)
    (hw : ∀ k j : Fin 128, bw (ix2 k j) = w (ix2 k j))
    (p : Fin 6000) (q : Fin 128) (i : S60000x128.Idx) (h0 : (i 0).val = T * 6000 + p.val) (h1 : (i 1).val = q.val) :
    Gen.k5_pay2 (F := Ideal) b bw (ix2 p q) = projArr x w i := by
  rw [pay2_apply]
  have e1 : q = i 1 := Fin.ext h1.symm
  show _ = ∑ k : Fin 128, rowNorm x (i 0) k * w (ix2 k (i 1))
  exact Finset.sum_congr rfl fun k _ => by
    rw [rowNorm_congr b x p (i 0) (fun k => hb p k (ix2 (i 0) k) h0 rfl) k, hw k q, e1]

/-! ## From blocks to the arrays: region 5 -/

section Arrays

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten grid points: the row-block windows sit at block row `t`, column block 0;
    the weight window at block (0, 0). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- Every block row of the outputs is some point's. -/
theorem idx_onto : ∀ q0 : Fin 10, ∃ t : Fin cfg5.N, win5_2.index t = ![q0.val, 0] ∧ win5_3.index t = ![q0.val, 0] :=
  (by decide +kernel : ∀ q0 : Fin 10, ∃ t : Fin grid5.N, win5_2.index t = ![q0.val, 0] ∧ win5_3.index t = ![q0.val, 0])

/-- The input block at point `t` is rows `6000·t … 6000·t + 5999` of the input array. -/
theorem iblk0_apply (c : Dev nD) (t : Fin cfg5.N) (p : Fin 6000) (k : Fin 128) (i : S60000x128.Idx)
    (h0 : (i 0).val = t.val * 6000 + p.val) (h1 : (i 1).val = k.val) :
    (Gen.iblk5 V c 0 t : Vec Ideal S6000x128 .f32) (ix2 p k) = (V c (Pipeline.arrRef spec5 0) : S60000x128.Idx → EReal) i := by
  obtain ⟨e00, e01, -⟩ := idx_facts t
  unfold Gen.iblk5
  rw [View.read_apply]
  show (V c (Pipeline.arrRef spec5 0) : S60000x128.Idx → EReal) (((cfg5.win 0).blk t).view.emb (ix2 p k)) = _
  have h : ((cfg5.win 0).blk t).view.emb (ix2 p k) = i := by
    funext a; apply Fin.ext
    match a with
    | ⟨0, _⟩ => show win5_0.index t (0 : Fin 2) * 6000 + 1 * p.val = (i 0).val; omega
    | ⟨1, _⟩ => show win5_0.index t (1 : Fin 2) * 128 + 1 * k.val = (i 1).val; omega
  rw [h]

/-- The weight block at every point is the whole weight matrix. -/
theorem iblk1_apply (c : Dev nD) (t : Fin cfg5.N) (k j : Fin 128) :
    (Gen.iblk5 V c 1 t : Vec Ideal S128x128 .f32) (ix2 k j) = (V c (Pipeline.arrRef spec5 1) : S128x128.Idx → EReal) (ix2 k j) := by
  obtain ⟨-, -, e10, e11, -⟩ := idx_facts t
  unfold Gen.iblk5
  rw [View.read_apply]
  show (V c (Pipeline.arrRef spec5 1) : S128x128.Idx → EReal) (((cfg5.win 1).blk t).view.emb (ix2 k j)) = _
  have h : ((cfg5.win 1).blk t).view.emb (ix2 k j) = ix2 k j := by
    funext a; apply Fin.ext
    match a with
    | ⟨0, _⟩ => show win5_1.index t (0 : Fin 2) * 128 + 1 * k.val = k.val; omega
    | ⟨1, _⟩ => show win5_1.index t (1 : Fin 2) * 128 + 1 * j.val = j.val; omega
  rw [h]

/-- What point `t` writes back to the first output is block `t` of the row-normalised input array. -/
theorem flushed_nrm (c : Dev nD) (t : Fin cfg5.N) :
    (Gen.dat5 (F := Ideal) V c).flushed 2 t
      = ((cfg5.win 2).blk t).view.read (Elt Ideal) (nrmArr (V c (Pipeline.arrRef spec5 0))) := by
  show (cfg5.win 2).cut (grid5.coords t) ((Gen.dat5 (F := Ideal) V c).after 2 t) = _
  rw [Gen.after5_2]
  unfold Gen.out5_2
  rw [View.canon_unit_zero hz]
  simp only [View.ld_unit_zero (S := S6000x128) hz]
  obtain ⟨-, -, -, -, e20, e21, -⟩ := idx_facts t
  funext y
  show Gen.k5_pay1 (F := Ideal) (Gen.iblk5 V c 0 t) y = nrmArr (V c (Pipeline.arrRef spec5 0)) (((cfg5.win 2).blk t).view.emb y)
  obtain ⟨p, q, rfl⟩ : ∃ (p : Fin 6000) (q : Fin 128), y = ix2 p q := ⟨y 0, y 1, eq_ix2 y⟩
  refine pay1_block _ _ t.val (fun p k i h0 h1 => iblk0_apply V c t p k i h0 h1) p q _ ?_ ?_
  · show win5_2.index t (0 : Fin 2) * 6000 + 1 * p.val = t.val * 6000 + p.val; omega
  · show win5_2.index t (1 : Fin 2) * 128 + 1 * q.val = q.val; omega

/-- What point `t` writes back to the second output is block `t` of the normalised array times the weights. -/
theorem flushed_proj (c : Dev nD) (t : Fin cfg5.N) :
    (Gen.dat5 (F := Ideal) V c).flushed 3 t
      = ((cfg5.win 3).blk t).view.read (Elt Ideal) (projArr (V c (Pipeline.arrRef spec5 0)) (V c (Pipeline.arrRef spec5 1))) := by
  show (cfg5.win 3).cut (grid5.coords t) ((Gen.dat5 (F := Ideal) V c).after 3 t) = _
  rw [Gen.after5_3]
  unfold Gen.out5_3
  rw [View.canon_unit_zero hz]
  simp only [View.ld_unit_zero (S := S6000x128) hz, View.ld_unit_zero (S := S128x128) hz]
  obtain ⟨-, -, -, -, -, -, e30, e31⟩ := idx_facts t
  funext y
  show Gen.k5_pay2 (F := Ideal) (Gen.iblk5 V c 0 t) (Gen.iblk5 V c 1 t) y
    = projArr (V c (Pipeline.arrRef spec5 0)) (V c (Pipeline.arrRef spec5 1)) (((cfg5.win 3).blk t).view.emb y)
  obtain ⟨p, q, rfl⟩ : ∃ (p : Fin 6000) (q : Fin 128), y = ix2 p q := ⟨y 0, y 1, eq_ix2 y⟩
  refine pay2_block _ _ _ _ t.val (fun p k i h0 h1 => iblk0_apply V c t p k i h0 h1) (fun k j => iblk1_apply V c t k j) p q _ ?_ ?_
  · show win5_3.index t (0 : Fin 2) * 6000 + 1 * p.val = t.val * 6000 + p.val; omega
  · show win5_3.index t (1 : Fin 2) * 128 + 1 * q.val = q.val; omega

/-- An index of the first output array is in point `t`'s block iff each coordinate is in the block's range on its axis. -/
theorem mem_blk2 (t : Fin cfg5.N) (i : S60000x128.Idx) :
    i ∈ ((cfg5.win 2).blk t).view.set ↔ ∀ a : Fin 2, win5_2.index t a * S6000x128.size a ≤ (i a).val ∧ (i a).val < win5_2.index t a * S6000x128.size a + S6000x128.size a := by
  show i ∈ ((View.whole main_v49_0).slice (win5_2.rect t)).set ↔ _
  rw [View.set_slice_whole, Rect.mem_set_unit]
  exact Iff.rfl

/-- Likewise for the second output array. -/
theorem mem_blk3 (t : Fin cfg5.N) (i : S60000x128.Idx) :
    i ∈ ((cfg5.win 3).blk t).view.set ↔ ∀ a : Fin 2, win5_3.index t a * S6000x128.size a ≤ (i a).val ∧ (i a).val < win5_3.index t a * S6000x128.size a + S6000x128.size a := by
  show i ∈ ((View.whole main_v49_1).slice (win5_3.rect t)).set ↔ _
  rw [View.set_slice_whole, Rect.mem_set_unit]
  exact Iff.rfl

/-- Row `r` of the first output is covered by point `r / 6000`. -/
theorem cover2 (i : S60000x128.Idx) : ∃ t : Fin cfg5.N, (cfg5.win 2).flush t = true ∧ i ∈ ((cfg5.win 2).blk t).view.set := by
  have hi0 : (i 0).val < 60000 := (i 0).isLt
  have hi1 : (i 1).val < 128 := (i 1).isLt
  obtain ⟨t, ht, -⟩ := idx_onto ⟨(i 0).val / 6000, by omega⟩
  have q0 : win5_2.index t (0 : Fin 2) = (i 0).val / 6000 := congrFun ht 0
  have q1 : win5_2.index t (1 : Fin 2) = 0 := congrFun ht 1
  refine ⟨t, Gen.flush5_2 t, ?_⟩
  rw [mem_blk2]
  intro a
  match a with
  | ⟨0, _⟩ => show win5_2.index t (0 : Fin 2) * 6000 ≤ (i 0).val ∧ (i 0).val < win5_2.index t (0 : Fin 2) * 6000 + 6000; omega
  | ⟨1, _⟩ => show win5_2.index t (1 : Fin 2) * 128 ≤ (i 1).val ∧ (i 1).val < win5_2.index t (1 : Fin 2) * 128 + 128; omega

/-- Row `r` of the second output is covered by point `r / 6000`. -/
theorem cover3 (i : S60000x128.Idx) : ∃ t : Fin cfg5.N, (cfg5.win 3).flush t = true ∧ i ∈ ((cfg5.win 3).blk t).view.set := by
  have hi0 : (i 0).val < 60000 := (i 0).isLt
  have hi1 : (i 1).val < 128 := (i 1).isLt
  obtain ⟨t, -, ht⟩ := idx_onto ⟨(i 0).val / 6000, by omega⟩
  have q0 : win5_3.index t (0 : Fin 2) = (i 0).val / 6000 := congrFun ht 0
  have q1 : win5_3.index t (1 : Fin 2) = 0 := congrFun ht 1
  refine ⟨t, Gen.flush5_3 t, ?_⟩
  rw [mem_blk3]
  intro a
  match a with
  | ⟨0, _⟩ => show win5_3.index t (0 : Fin 2) * 6000 ≤ (i 0).val ∧ (i 0).val < win5_3.index t (0 : Fin 2) * 6000 + 6000; omega
  | ⟨1, _⟩ => show win5_3.index t (1 : Fin 2) * 128 ≤ (i 1).val ∧ (i 1).val < win5_3.index t (1 : Fin 2) * 128 + 128; omega

/-- The first output array after the region is the row-normalised input array. -/
theorem arr2_eq (c : Dev nD) :
    (Gen.dat5 (F := Ideal) V c).arrAt 2 cfg5.N = nrmArr (V c (Pipeline.arrRef spec5 0)) :=
  (Gen.dat5 (F := Ideal) V c).arrAt_eq_of_cover 2 (nrmArr (V c (Pipeline.arrRef spec5 0))) (fun t _ => flushed_nrm V c t) cover2

/-- The second output array after the region is the row-normalised input array times the weight matrix. -/
theorem arr3_eq (c : Dev nD) :
    (Gen.dat5 (F := Ideal) V c).arrAt 3 cfg5.N = projArr (V c (Pipeline.arrRef spec5 0)) (V c (Pipeline.arrRef spec5 1)) :=
  (Gen.dat5 (F := Ideal) V c).arrAt_eq_of_cover 3 (projArr (V c (Pipeline.arrRef spec5 0)) (V c (Pipeline.arrRef spec5 1))) (fun t _ => flushed_proj V c t) cover3

/-- THE FIRST OUTPUT, in the reference's words: the region leaves in it the reference's row normalisation of the
    region's input array. -/
theorem arr2_ref (c : Dev nD) :
    (Gen.dat5 (F := Ideal) V c).arrAt 2 cfg5.N
      = Host.divf (F := Ideal) (V c (Pipeline.arrRef spec5 0) : FVec Ideal Cert.ReferenceIdeal.S60000x128 .f32) (broadcastInDim Cert.ReferenceIdeal.S60000x128 ![0, 1] Cert.ReferenceIdeal.Gen.bcast_S60000x1_S60000x128_0_1 (maximumf (Host.sqrt (F := Ideal) (broadcastInDim Cert.ReferenceIdeal.S60000x1 ![0] Cert.ReferenceIdeal.Gen.bcast_S60000_S60000x1_0 (Host.reduceAdd (F := Ideal) (mulf (V c (Pipeline.arrRef spec5 0) : FVec Ideal Cert.ReferenceIdeal.S60000x128 .f32) (V c (Pipeline.arrRef spec5 0) : FVec Ideal Cert.ReferenceIdeal.S60000x128 .f32)) (constant (F := Ideal) Cert.ReferenceIdeal.S_ .f32 0x00000000#32) Cert.ReferenceIdeal.Gen.reducesTo_S60000x128_S60000_d1 Cert.ReferenceIdeal.Gen.h_S_))) (broadcastInDim Cert.ReferenceIdeal.S60000x1 ![] Cert.ReferenceIdeal.Gen.bcast_S_S60000x1 (constant (F := Ideal) Cert.ReferenceIdeal.S_ .f32 0x2B8CBCCC#32)))) :=
  (arr2_eq V c).trans (nrmArr_eq_host _)

/-- THE SECOND OUTPUT, in the reference's words: the reference's product of that normalisation with the region's weight
    array. -/
theorem arr3_ref (c : Dev nD) :
    (Gen.dat5 (F := Ideal) V c).arrAt 3 cfg5.N
      = Host.dotGeneral (F := Ideal) (φ₁ := .f32) (φ₂ := .f32) Cert.ReferenceIdeal.dot_S60000x128_S128x128_S60000x128_1_0_0_1_n_n none
          (Host.divf (F := Ideal) (V c (Pipeline.arrRef spec5 0) : FVec Ideal Cert.ReferenceIdeal.S60000x128 .f32) (broadcastInDim Cert.ReferenceIdeal.S60000x128 ![0, 1] Cert.ReferenceIdeal.Gen.bcast_S60000x1_S60000x128_0_1 (maximumf (Host.sqrt (F := Ideal) (broadcastInDim Cert.ReferenceIdeal.S60000x1 ![0] Cert.ReferenceIdeal.Gen.bcast_S60000_S60000x1_0 (Host.reduceAdd (F := Ideal) (mulf (V c (Pipeline.arrRef spec5 0) : FVec Ideal Cert.ReferenceIdeal.S60000x128 .f32) (V c (Pipeline.arrRef spec5 0) : FVec Ideal Cert.ReferenceIdeal.S60000x128 .f32)) (constant (F := Ideal) Cert.ReferenceIdeal.S_ .f32 0x00000000#32) Cert.ReferenceIdeal.Gen.reducesTo_S60000x128_S60000_d1 Cert.ReferenceIdeal.Gen.h_S_))) (broadcastInDim Cert.ReferenceIdeal.S60000x1 ![] Cert.ReferenceIdeal.Gen.bcast_S_S60000x1 (constant (F := Ideal) Cert.ReferenceIdeal.S_ .f32 0x2B8CBCCC#32)))))
          (V c (Pipeline.arrRef spec5 1) : FVec Ideal Cert.ReferenceIdeal.S128x128 .f32) :=
  (arr3_eq V c).trans (projArr_eq_host _ _)

end Arrays

end Cert.KernelIdeal.Stage1ValueT

end
-- ==== Proof.Trace4.lean ====
/-
  The contents of the idealized kernel program's buffers at the boundaries between @main's segments (the first modality's second fused layer, the second modality's normalisation region and the message passing after it):
  each buffer a later segment reads holds its pure term of the launch memory. A stretch of host operations
  gives a buffer it computes the operation's function of its operands and leaves every other buffer; a kernel region
  gives each output array the whole-array function of its input arrays and leaves its input arrays and every other buffer.
-/
import proofs.«159630_j86646670230227_1_alg».proof.Proof.Gen.KernelIdeal.Frame
import proofs.«159630_j86646670230227_1_alg».proof.Proof.Gen.ReferenceIdeal
import Idealize.ShloMosaic.PureOps.Ideal
import proofs.«159630_j86646670230227_1_alg».proof.Proof.Trace3
import proofs.«159630_j86646670230227_1_alg».proof.Proof.Stage3ValueV
import proofs.«159630_j86646670230227_1_alg».proof.Proof.Stage1ValueT
set_option maxRecDepth 16384

noncomputable section

namespace Cert.KernelIdeal.Trace

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem at9_main_v1 : W9 m ρ c (Proc.devRef .tc main_v1) = T_main_v1 m c := (W9_of_ne m ρ c main_v1 (by decide)).trans (at8_main_v1 m ρ c)
theorem at9_main_v3 : W9 m ρ c (Proc.devRef .tc main_v3) = T_main_v3 m c := (W9_of_ne m ρ c main_v3 (by decide)).trans (at8_main_v3 m ρ c)
theorem at9_main_v12 : W9 m ρ c (Proc.devRef .tc main_v12) = T_main_v12 m c := (W9_of_ne m ρ c main_v12 (by decide)).trans (at8_main_v12 m ρ c)
theorem at9_main_v13 : W9 m ρ c (Proc.devRef .tc main_v13) = T_main_v13 m c := (W9_arr m ρ c 2).trans (((dat4 (V8 m ρ) c).arrAt_in 2 rfl _).trans ((A_eq4 (V8 m ρ) c 2).trans (at8_main_v13 m ρ c)))
theorem at9_main_v17 : W9 m ρ c (Proc.devRef .tc main_v17) = T_main_v17 m c := (W9_of_ne m ρ c main_v17 (by decide)).trans (at8_main_v17 m ρ c)
theorem at9_main_arg15 : W9 m ρ c (Proc.devRef .tc main_arg15) = T_main_arg15 m c := (W9_of_ne m ρ c main_arg15 (by decide)).trans (at8_main_arg15 m ρ c)
theorem at9_main_arg29 : W9 m ρ c (Proc.devRef .tc main_arg29) = T_main_arg29 m c := (W9_of_ne m ρ c main_arg29 (by decide)).trans (at8_main_arg29 m ρ c)
theorem at9_main_arg21 : W9 m ρ c (Proc.devRef .tc main_arg21) = T_main_arg21 m c := (W9_of_ne m ρ c main_arg21 (by decide)).trans (at8_main_arg21 m ρ c)
theorem at9_main_arg22 : W9 m ρ c (Proc.devRef .tc main_arg22) = T_main_arg22 m c := (W9_of_ne m ρ c main_arg22 (by decide)).trans (at8_main_arg22 m ρ c)
theorem at9_main_arg30 : W9 m ρ c (Proc.devRef .tc main_arg30) = T_main_arg30 m c := (W9_of_ne m ρ c main_arg30 (by decide)).trans (at8_main_arg30 m ρ c)
theorem at9_main_arg16 : W9 m ρ c (Proc.devRef .tc main_arg16) = T_main_arg16 m c := (W9_of_ne m ρ c main_arg16 (by decide)).trans (at8_main_arg16 m ρ c)
theorem at9_main_arg31 : W9 m ρ c (Proc.devRef .tc main_arg31) = T_main_arg31 m c := (W9_of_ne m ρ c main_arg31 (by decide)).trans (at8_main_arg31 m ρ c)
theorem at9_main_arg23 : W9 m ρ c (Proc.devRef .tc main_arg23) = T_main_arg23 m c := (W9_of_ne m ρ c main_arg23 (by decide)).trans (at8_main_arg23 m ρ c)
theorem at9_main_arg24 : W9 m ρ c (Proc.devRef .tc main_arg24) = T_main_arg24 m c := (W9_of_ne m ρ c main_arg24 (by decide)).trans (at8_main_arg24 m ρ c)
theorem at9_main_arg32 : W9 m ρ c (Proc.devRef .tc main_arg32) = T_main_arg32 m c := (W9_of_ne m ρ c main_arg32 (by decide)).trans (at8_main_arg32 m ρ c)
set_option maxHeartbeats 4000000 in
theorem at9_main_v48 : W9 m ρ c (Proc.devRef .tc main_v48) = T_main_v48 m c := by
  have e0 : V8 m ρ c (Pipeline.arrRef spec4 0) = T_main_v33_0 m c := at8_main_v33_0 m ρ c
  have e1 : V8 m ρ c (Pipeline.arrRef spec4 1) = T_main_v45 m c := at8_main_v45 m ρ c
  have e2 : V8 m ρ c (Pipeline.arrRef spec4 2) = T_main_v13 m c := at8_main_v13 m ρ c
  have e3 : V8 m ρ c (Pipeline.arrRef spec4 3) = T_main_arg19 m c := at8_main_arg19 m ρ c
  have e4 : V8 m ρ c (Pipeline.arrRef spec4 4) = T_main_arg20 m c := at8_main_arg20 m ρ c
  have e5 : V8 m ρ c (Pipeline.arrRef spec4 5) = T_main_v46 m c := at8_main_v46 m ρ c
  have e6 : V8 m ρ c (Pipeline.arrRef spec4 6) = T_main_v47 m c := at8_main_v47 m ρ c
  have e7 : V8 m ρ c (Pipeline.arrRef spec4 7) = T_main_arg28 m c := at8_main_arg28 m ρ c
  refine (W9_arr m ρ c 8).trans ((Cert.KernelIdeal.Stage3ValueV.region4_value (V8 m ρ) c (T_main_arg27 m c) (at8_main_v46 m ρ c) (at8_main_v47 m ρ c)).trans ?_)
  show fused2 (F := Ideal) (V8 m ρ c (Pipeline.arrRef spec4 0)) (V8 m ρ c (Pipeline.arrRef spec4 1)) (V8 m ρ c (Pipeline.arrRef spec4 2)) (V8 m ρ c (Pipeline.arrRef spec4 3)) (V8 m ρ c (Pipeline.arrRef spec4 4)) (T_main_arg27 m c) (V8 m ρ c (Pipeline.arrRef spec4 7)) = _
  exact congr (congrFun (congr (congr (congr (congr (congrArg (fused2 (F := Ideal)) e0) e1) e2) e3) e4) (T_main_arg27 m c)) e7
theorem at9_main_arg1 : W9 m ρ c (Proc.devRef .tc main_arg1) = T_main_arg1 m c := (W9_of_ne m ρ c main_arg1 (by decide)).trans (at8_main_arg1 m ρ c)
theorem at9_main_arg2 : W9 m ρ c (Proc.devRef .tc main_arg2) = T_main_arg2 m c := (W9_of_ne m ρ c main_arg2 (by decide)).trans (at8_main_arg2 m ρ c)
theorem at10_main_v1 : W10 m ρ c (Proc.devRef .tc main_v1) = T_main_v1 m c := (W10_of_ne m ρ c main_v1 (by decide)).trans (at9_main_v1 m ρ c)
theorem at10_main_v3 : W10 m ρ c (Proc.devRef .tc main_v3) = T_main_v3 m c := (W10_of_ne m ρ c main_v3 (by decide)).trans (at9_main_v3 m ρ c)
theorem at10_main_v12 : W10 m ρ c (Proc.devRef .tc main_v12) = T_main_v12 m c := (W10_of_ne m ρ c main_v12 (by decide)).trans (at9_main_v12 m ρ c)
theorem at10_main_v13 : W10 m ρ c (Proc.devRef .tc main_v13) = T_main_v13 m c := (W10_of_ne m ρ c main_v13 (by decide)).trans (at9_main_v13 m ρ c)
set_option maxHeartbeats 4000000 in
theorem at10_main_v49_1 : W10 m ρ c (Proc.devRef .tc main_v49_1) = T_main_v49_1 m c := by
  have e0 : V9 m ρ c (Pipeline.arrRef spec5 0) = T_main_v17 m c := at9_main_v17 m ρ c
  have e1 : V9 m ρ c (Pipeline.arrRef spec5 1) = T_main_arg15 m c := at9_main_arg15 m ρ c
  refine (W10_arr m ρ c 3).trans ((Cert.KernelIdeal.Stage1ValueT.arr3_ref (V9 m ρ) c).trans ?_)
  show dotW128 (F := Ideal) (rowNorm (F := Ideal) (V9 m ρ c (Pipeline.arrRef spec5 0))) (V9 m ρ c (Pipeline.arrRef spec5 1)) = _
  exact congr (congrArg (dotW128 (F := Ideal)) (congrArg (rowNorm (F := Ideal)) e0)) e1
theorem at10_main_arg29 : W10 m ρ c (Proc.devRef .tc main_arg29) = T_main_arg29 m c := (W10_of_ne m ρ c main_arg29 (by decide)).trans (at9_main_arg29 m ρ c)
set_option maxHeartbeats 4000000 in
theorem at10_main_v49_0 : W10 m ρ c (Proc.devRef .tc main_v49_0) = T_main_v49_0 m c := by
  have e0 : V9 m ρ c (Pipeline.arrRef spec5 0) = T_main_v17 m c := at9_main_v17 m ρ c
  have e1 : V9 m ρ c (Pipeline.arrRef spec5 1) = T_main_arg15 m c := at9_main_arg15 m ρ c
  refine (W10_arr m ρ c 2).trans ((Cert.KernelIdeal.Stage1ValueT.arr2_ref (V9 m ρ) c).trans ?_)
  show rowNorm (F := Ideal) (V9 m ρ c (Pipeline.arrRef spec5 0)) = _
  exact congrArg (rowNorm (F := Ideal)) e0
theorem at10_main_arg21 : W10 m ρ c (Proc.devRef .tc main_arg21) = T_main_arg21 m c := (W10_of_ne m ρ c main_arg21 (by decide)).trans (at9_main_arg21 m ρ c)
theorem at10_main_arg22 : W10 m ρ c (Proc.devRef .tc main_arg22) = T_main_arg22 m c := (W10_of_ne m ρ c main_arg22 (by decide)).trans (at9_main_arg22 m ρ c)
theorem at10_main_arg30 : W10 m ρ c (Proc.devRef .tc main_arg30) = T_main_arg30 m c := (W10_of_ne m ρ c main_arg30 (by decide)).trans (at9_main_arg30 m ρ c)
theorem at10_main_arg16 : W10 m ρ c (Proc.devRef .tc main_arg16) = T_main_arg16 m c := (W10_of_ne m ρ c main_arg16 (by decide)).trans (at9_main_arg16 m ρ c)
theorem at10_main_arg31 : W10 m ρ c (Proc.devRef .tc main_arg31) = T_main_arg31 m c := (W10_of_ne m ρ c main_arg31 (by decide)).trans (at9_main_arg31 m ρ c)
theorem at10_main_arg23 : W10 m ρ c (Proc.devRef .tc main_arg23) = T_main_arg23 m c := (W10_of_ne m ρ c main_arg23 (by decide)).trans (at9_main_arg23 m ρ c)
theorem at10_main_arg24 : W10 m ρ c (Proc.devRef .tc main_arg24) = T_main_arg24 m c := (W10_of_ne m ρ c main_arg24 (by decide)).trans (at9_main_arg24 m ρ c)
theorem at10_main_arg32 : W10 m ρ c (Proc.devRef .tc main_arg32) = T_main_arg32 m c := (W10_of_ne m ρ c main_arg32 (by decide)).trans (at9_main_arg32 m ρ c)
theorem at10_main_v48 : W10 m ρ c (Proc.devRef .tc main_v48) = T_main_v48 m c := (W10_of_ne m ρ c main_v48 (by decide)).trans (at9_main_v48 m ρ c)
theorem at10_main_arg1 : W10 m ρ c (Proc.devRef .tc main_arg1) = T_main_arg1 m c := (W10_of_ne m ρ c main_arg1 (by decide)).trans (at9_main_arg1 m ρ c)
theorem at10_main_arg2 : W10 m ρ c (Proc.devRef .tc main_arg2) = T_main_arg2 m c := (W10_of_ne m ρ c main_arg2 (by decide)).trans (at9_main_arg2 m ρ c)
theorem at11_main_v1 : W11 m ρ c (Proc.devRef .tc main_v1) = T_main_v1 m c := (StableHlo.after_of_forall_not_mem (b := Proc.devRef .tc main_v1) hostOps6 (W10 m ρ c) (List.forall_iff_forall_mem.mp (by keep_host))).trans (at10_main_v1 m ρ c)
theorem at11_main_v3 : W11 m ρ c (Proc.devRef .tc main_v3) = T_main_v3 m c := (StableHlo.after_of_forall_not_mem (b := Proc.devRef .tc main_v3) hostOps6 (W10 m ρ c) (List.forall_iff_forall_mem.mp (by keep_host))).trans (at10_main_v3 m ρ c)
theorem at11_main_v12 : W11 m ρ c (Proc.devRef .tc main_v12) = T_main_v12 m c := (StableHlo.after_of_forall_not_mem (b := Proc.devRef .tc main_v12) hostOps6 (W10 m ρ c) (List.forall_iff_forall_mem.mp (by keep_host))).trans (at10_main_v12 m ρ c)
theorem at11_main_v13 : W11 m ρ c (Proc.devRef .tc main_v13) = T_main_v13 m c := (StableHlo.after_of_forall_not_mem (b := Proc.devRef .tc main_v13) hostOps6 (W10 m ρ c) (List.forall_iff_forall_mem.mp (by keep_host))).trans (at10_main_v13 m ρ c)
theorem at11_main_v49_0 : W11 m ρ c (Proc.devRef .tc main_v49_0) = T_main_v49_0 m c := (StableHlo.after_of_forall_not_mem (b := Proc.devRef .tc main_v49_0) hostOps6 (W10 m ρ c) (List.forall_iff_forall_mem.mp (by keep_host))).trans (at10_main_v49_0 m ρ c)
set_option maxHeartbeats 4000000 in
theorem at11_main_v61 : W11 m ρ c (Proc.devRef .tc main_v61) = T_main_v61 m c := by
  show StableHlo.after hostOps6 (W10 m ρ c) (Proc.devRef .tc main_v61) = _
  after_results_simp
  rw [at10_main_v3 m ρ c, at10_main_v49_1 m ρ c, at10_main_v1 m ρ c, at10_main_v12 m ρ c]
  rfl
theorem at11_main_arg21 : W11 m ρ c (Proc.devRef .tc main_arg21) = T_main_arg21 m c := (StableHlo.after_of_forall_not_mem (b := Proc.devRef .tc main_arg21) hostOps6 (W10 m ρ c) (List.forall_iff_forall_mem.mp (by keep_host))).trans (at10_main_arg21 m ρ c)
theorem at11_main_arg22 : W11 m ρ c (Proc.devRef .tc main_arg22) = T_main_arg22 m c := (StableHlo.after_of_forall_not_mem (b := Proc.devRef .tc main_arg22) hostOps6 (W10 m ρ c) (List.forall_iff_forall_mem.mp (by keep_host))).trans (at10_main_arg22 m ρ c)
set_option maxHeartbeats 4000000 in
theorem at11_main_v62 : W11 m ρ c (Proc.devRef .tc main_v62) = T_main_v62 m c := by
  show StableHlo.after hostOps6 (W10 m ρ c) (Proc.devRef .tc main_v62) = _
  after_results_simp
  rw [at10_main_arg29 m ρ c]
  rfl
set_option maxHeartbeats 4000000 in
theorem at11_main_v63 : W11 m ρ c (Proc.devRef .tc main_v63) = T_main_v63 m c := by
  show StableHlo.after hostOps6 (W10 m ρ c) (Proc.devRef .tc main_v63) = _
  after_results_simp
  rw [at10_main_arg29 m ρ c]
  rfl
theorem at11_main_arg30 : W11 m ρ c (Proc.devRef .tc main_arg30) = T_main_arg30 m c := (StableHlo.after_of_forall_not_mem (b := Proc.devRef .tc main_arg30) hostOps6 (W10 m ρ c) (List.forall_iff_forall_mem.mp (by keep_host))).trans (at10_main_arg30 m ρ c)
theorem at11_main_arg16 : W11 m ρ c (Proc.devRef .tc main_arg16) = T_main_arg16 m c := (StableHlo.after_of_forall_not_mem (b := Proc.devRef .tc main_arg16) hostOps6 (W10 m ρ c) (List.forall_iff_forall_mem.mp (by keep_host))).trans (at10_main_arg16 m ρ c)
theorem at11_main_arg31 : W11 m ρ c (Proc.devRef .tc main_arg31) = T_main_arg31 m c := (StableHlo.after_of_forall_not_mem (b := Proc.devRef .tc main_arg31) hostOps6 (W10 m ρ c) (List.forall_iff_forall_mem.mp (by keep_host))).trans (at10_main_arg31 m ρ c)
theorem at11_main_arg23 : W11 m ρ c (Proc.devRef .tc main_arg23) = T_main_arg23 m c := (StableHlo.after_of_forall_not_mem (b := Proc.devRef .tc main_arg23) hostOps6 (W10 m ρ c) (List.forall_iff_forall_mem.mp (by keep_host))).trans (at10_main_arg23 m ρ c)
theorem at11_main_arg24 : W11 m ρ c (Proc.devRef .tc main_arg24) = T_main_arg24 m c := (StableHlo.after_of_forall_not_mem (b := Proc.devRef .tc main_arg24) hostOps6 (W10 m ρ c) (List.forall_iff_forall_mem.mp (by keep_host))).trans (at10_main_arg24 m ρ c)
theorem at11_main_arg32 : W11 m ρ c (Proc.devRef .tc main_arg32) = T_main_arg32 m c := (StableHlo.after_of_forall_not_mem (b := Proc.devRef .tc main_arg32) hostOps6 (W10 m ρ c) (List.forall_iff_forall_mem.mp (by keep_host))).trans (at10_main_arg32 m ρ c)
theorem at11_main_v48 : W11 m ρ c (Proc.devRef .tc main_v48) = T_main_v48 m c := (StableHlo.after_of_forall_not_mem (b := Proc.devRef .tc main_v48) hostOps6 (W10 m ρ c) (List.forall_iff_forall_mem.mp (by keep_host))).trans (at10_main_v48 m ρ c)
theorem at11_main_arg1 : W11 m ρ c (Proc.devRef .tc main_arg1) = T_main_arg1 m c := (StableHlo.after_of_forall_not_mem (b := Proc.devRef .tc main_arg1) hostOps6 (W10 m ρ c) (List.forall_iff_forall_mem.mp (by keep_host))).trans (at10_main_arg1 m ρ c)
theorem at11_main_arg2 : W11 m ρ c (Proc.devRef .tc main_arg2) = T_main_arg2 m c := (StableHlo.after_of_forall_not_mem (b := Proc.devRef .tc main_arg2) hostOps6 (W10 m ρ c) (List.forall_iff_forall_mem.mp (by keep_host))).trans (at10_main_arg2 m ρ c)

end Cert.KernelIdeal.Trace

end
-- ==== Proof.Stage2ValueT.lean ====
/- The second stage of the network's layer, pallas_call region 6: what its two output arrays hold after the region.

   At each of the ten grid points the body takes the point's block of 6000 rows of the three row-blocked inputs
   (call them x, h0, ego) and the whole weights and biases (l0w [64,128], l0b [64], g0wh [64,128], g0wx [64,64], g0b [64],
   wp1 [64,64]), and forms
       xhat = x · l0wᵀ + l0b + ego                       (6000 × 64)
       x1   = h0 · g0whᵀ + xhat · g0wxᵀ + g0b            (two products into zero accumulators, added; 6000 × 64)
       msg1 = x1 · wp1                                    (6000 × 64)
   storing x1 and msg1 whole into the point's blocks of the two outputs. On the ideal values every change of float
   format is the identity and a product into a zero accumulator is the plain sum over the contracted index.

   The reference forms the same xhat on all 60000 rows, JOINS [h0 | xhat] along the columns (128 + 64 = 192 columns) and
   contracts the joined array with g0wᵀ, where g0w is the ONE [64, 192] weight whose column slices [0, 128) and
   [128, 192) are g0wh and g0wx; then adds g0b; then contracts with wp1.

   The one algebraic law between the two: a sum over 192 terms is the sum of its first 128 terms plus the sum of its
   last 64 (`sum_split`), so  Σ_{k<192} [h0 | xhat](i,k) · g0w(j,k) = Σ_{k<128} h0(i,k) · g0w(j,k) + Σ_{k<64} xhat(i,k) · g0w(j,128+k).
   It is an identity of additive commutative monoids: it holds in the extended reals with no finiteness hypothesis.

   The file, in order: the law; each product of the body and of the reference read at an index as a sum over the
   contracted index; the body's two stores at an index (`pay2_apply`, `pay1_is_msg`) and the reference's stages at an
   index (`xhatRef_apply`, `x1Ref_apply`), joined over variables of the literal block and array types (`pay2_is_x1`);
   each window's block at a grid point as rows 6000·t … 6000·t + 5999 of its array, or as its whole array
   (`blkW_apply`, `blkW_eq`, from the index maps decided over the grid); what each point writes back
   (`flushed9_eq`, `flushed10_eq`); the ten blocks tile the 60000 rows (`cover9`, `cover10`); and the two arrays
   after the region (`arr9`, `arr10`), stated with the reference's own whole-array terms applied to the region's
   input arrays, under the hypotheses that the two weight windows hold the two column slices of one [64, 192] array. -/
import proofs.«159630_j86646670230227_1_alg».proof.Proof.Gen.KernelIdeal.Frame
import proofs.«159630_j86646670230227_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage2ValueT

open Idealize.ShloMosaic Idealize.ShloMosaic.TcCoe Idealize.SL.Sem
open Idealize.ShloMosaic.ValueIdx
open Idealize.ShloMosaic.Pipeline (Dat)
open Cert.KernelIdeal Cert.KernelIdeal.Gen

/-- A sum of 192 terms is the sum of its first 128 terms plus the sum of its last 64. It holds in any additive commutative
    monoid, so in the extended reals with no finiteness hypothesis. -/
theorem sum_split (f : Fin 192 → EReal) :
    (∑ k : Fin 192, f k) = (∑ k : Fin 128, f ⟨k.val, by omega⟩) + (∑ k : Fin 64, f ⟨128 + k.val, by omega⟩) :=
  Fin.sum_univ_add (a := 128) (b := 64) f

theorem lhs_k128_0 (i : S6000x64.Idx) (q : dot_S6000x128_S128x64_S6000x64_1_0_0_1_n_n.contr.Idx) :
    (dot_S6000x128_S128x64_S6000x64_1_0_0_1_n_n.lhsIdx i q 0).val = (i 0).val := by
  unfold DotDims.lhsIdx
  rw [dif_neg (show ¬(0 : Fin S6000x128.rank) ∈ dot_S6000x128_S128x64_S6000x64_1_0_0_1_n_n.lhsBatch by decide), dif_pos (show (0 : Fin S6000x128.rank) ∈ dot_S6000x128_S128x64_S6000x64_1_0_0_1_n_n.lhsNonContracting by decide)]
  rfl
theorem lhs_k128_1 (i : S6000x64.Idx) (q : dot_S6000x128_S128x64_S6000x64_1_0_0_1_n_n.contr.Idx) :
    (dot_S6000x128_S128x64_S6000x64_1_0_0_1_n_n.lhsIdx i q 1).val = (q ⟨0, by decide⟩).val :=
  dot_S6000x128_S128x64_S6000x64_1_0_0_1_n_n.lhsIdx_val_of_single rfl i q
theorem rhs_k128_0 (i : S6000x64.Idx) (q : dot_S6000x128_S128x64_S6000x64_1_0_0_1_n_n.contr.Idx) :
    (dot_S6000x128_S128x64_S6000x64_1_0_0_1_n_n.rhsIdx i q 0).val = (q ⟨0, by decide⟩).val :=
  dot_S6000x128_S128x64_S6000x64_1_0_0_1_n_n.rhsIdx_val_of_single rfl i q
theorem rhs_k128_1 (i : S6000x64.Idx) (q : dot_S6000x128_S128x64_S6000x64_1_0_0_1_n_n.contr.Idx) :
    (dot_S6000x128_S128x64_S6000x64_1_0_0_1_n_n.rhsIdx i q 1).val = (i 1).val := by
  unfold DotDims.rhsIdx
  rw [dif_neg (show ¬(1 : Fin S128x64.rank) ∈ dot_S6000x128_S128x64_S6000x64_1_0_0_1_n_n.rhsBatch by decide), dif_pos (show (1 : Fin S128x64.rank) ∈ dot_S6000x128_S128x64_S6000x64_1_0_0_1_n_n.rhsNonContracting by decide)]
  rfl
/-- The operand indices of this contraction at output index `(i, j)` and contraction position `k` are `(i, k)` and `(k, j)`. -/
theorem idx_k128 (i : S6000x64.Idx) (k : Fin 128) :
    dot_S6000x128_S128x64_S6000x64_1_0_0_1_n_n.lhsIdx i ((contrEquiv1 dot_S6000x128_S128x64_S6000x64_1_0_0_1_n_n 128 rfl rfl).symm k) = ix2 (i 0) k
    ∧ dot_S6000x128_S128x64_S6000x64_1_0_0_1_n_n.rhsIdx i ((contrEquiv1 dot_S6000x128_S128x64_S6000x64_1_0_0_1_n_n 128 rfl rfl).symm k) = ix2 k (i 1) := by
  have hk := contrEquiv1_symm_val dot_S6000x128_S128x64_S6000x64_1_0_0_1_n_n 128 rfl rfl k
  refine ⟨funext fun a => Fin.ext ?_, funext fun a => Fin.ext ?_⟩
  · match a with
    | ⟨0, _⟩ => exact lhs_k128_0 _ _
    | ⟨1, _⟩ => exact (lhs_k128_1 _ _).trans hk
  · match a with
    | ⟨0, _⟩ => exact (rhs_k128_0 _ _).trans hk
    | ⟨1, _⟩ => exact rhs_k128_1 _ _

theorem lhs_k64_0 (i : S6000x64.Idx) (q : dot_S6000x64_S64x64_S6000x64_1_0_0_1_n_n.contr.Idx) :
    (dot_S6000x64_S64x64_S6000x64_1_0_0_1_n_n.lhsIdx i q 0).val = (i 0).val := by
  unfold DotDims.lhsIdx
  rw [dif_neg (show ¬(0 : Fin S6000x64.rank) ∈ dot_S6000x64_S64x64_S6000x64_1_0_0_1_n_n.lhsBatch by decide), dif_pos (show (0 : Fin S6000x64.rank) ∈ dot_S6000x64_S64x64_S6000x64_1_0_0_1_n_n.lhsNonContracting by decide)]
  rfl
theorem lhs_k64_1 (i : S6000x64.Idx) (q : dot_S6000x64_S64x64_S6000x64_1_0_0_1_n_n.contr.Idx) :
    (dot_S6000x64_S64x64_S6000x64_1_0_0_1_n_n.lhsIdx i q 1).val = (q ⟨0, by decide⟩).val :=
  dot_S6000x64_S64x64_S6000x64_1_0_0_1_n_n.lhsIdx_val_of_single rfl i q
theorem rhs_k64_0 (i : S6000x64.Idx) (q : dot_S6000x64_S64x64_S6000x64_1_0_0_1_n_n.contr.Idx) :
    (dot_S6000x64_S64x64_S6000x64_1_0_0_1_n_n.rhsIdx i q 0).val = (q ⟨0, by decide⟩).val :=
  dot_S6000x64_S64x64_S6000x64_1_0_0_1_n_n.rhsIdx_val_of_single rfl i q
theorem rhs_k64_1 (i : S6000x64.Idx) (q : dot_S6000x64_S64x64_S6000x64_1_0_0_1_n_n.contr.Idx) :
    (dot_S6000x64_S64x64_S6000x64_1_0_0_1_n_n.rhsIdx i q 1).val = (i 1).val := by
  unfold DotDims.rhsIdx
  rw [dif_neg (show ¬(1 : Fin S64x64.rank) ∈ dot_S6000x64_S64x64_S6000x64_1_0_0_1_n_n.rhsBatch by decide), dif_pos (show (1 : Fin S64x64.rank) ∈ dot_S6000x64_S64x64_S6000x64_1_0_0_1_n_n.rhsNonContracting by decide)]
  rfl
/-- The operand indices of this contraction at output index `(i, j)` and contraction position `k` are `(i, k)` and `(k, j)`. -/
theorem idx_k64 (i : S6000x64.Idx) (k : Fin 64) :
    dot_S6000x64_S64x64_S6000x64_1_0_0_1_n_n.lhsIdx i ((contrEquiv1 dot_S6000x64_S64x64_S6000x64_1_0_0_1_n_n 64 rfl rfl).symm k) = ix2 (i 0) k
    ∧ dot_S6000x64_S64x64_S6000x64_1_0_0_1_n_n.rhsIdx i ((contrEquiv1 dot_S6000x64_S64x64_S6000x64_1_0_0_1_n_n 64 rfl rfl).symm k) = ix2 k (i 1) := by
  have hk := contrEquiv1_symm_val dot_S6000x64_S64x64_S6000x64_1_0_0_1_n_n 64 rfl rfl k
  refine ⟨funext fun a => Fin.ext ?_, funext fun a => Fin.ext ?_⟩
  · match a with
    | ⟨0, _⟩ => exact lhs_k64_0 _ _
    | ⟨1, _⟩ => exact (lhs_k64_1 _ _).trans hk
  · match a with
    | ⟨0, _⟩ => exact (rhs_k64_0 _ _).trans hk
    | ⟨1, _⟩ => exact rhs_k64_1 _ _

/-- A 6000×128 by 128×64 product into a zero accumulator, at `(i, j)`, is the sum over `k` of left `(i, k)` times right `(k, j)`. -/
theorem mm128_apply (l : FVec Ideal S6000x128 .bf16) (r : FVec Ideal S128x64 .bf16) (i : Fin 6000) (j : Fin 64) :
    matmul dot_S6000x128_S128x64_S6000x64_1_0_0_1_n_n none l r (constant S6000x64 .f32 0x00000000#32) (ix2 i j)
      = ∑ k : Fin 128, l (ix2 i k) * r (ix2 k j) := by
  simp only [matmul]
  rw [Ideal.matmul_constant_zero_apply, ← Equiv.sum_comp (contrEquiv1 dot_S6000x128_S128x64_S6000x64_1_0_0_1_n_n 128 rfl rfl).symm]
  refine Finset.sum_congr rfl fun k _ => ?_
  obtain ⟨el, er⟩ := idx_k128 (ix2 i j) k
  rw [el, er]
  rfl

/-- A 6000×64 by 64×64 product into a zero accumulator, at `(i, j)`, is the sum over `k` of left `(i, k)` times right `(k, j)`. -/
theorem mm64_apply (l : FVec Ideal S6000x64 .bf16) (r : FVec Ideal S64x64 .bf16) (i : Fin 6000) (j : Fin 64) :
    matmul dot_S6000x64_S64x64_S6000x64_1_0_0_1_n_n none l r (constant S6000x64 .f32 0x00000000#32) (ix2 i j)
      = ∑ k : Fin 64, l (ix2 i k) * r (ix2 k j) := by
  simp only [matmul]
  rw [Ideal.matmul_constant_zero_apply, ← Equiv.sum_comp (contrEquiv1 dot_S6000x64_S64x64_S6000x64_1_0_0_1_n_n 64 rfl rfl).symm]
  refine Finset.sum_congr rfl fun k _ => ?_
  obtain ⟨el, er⟩ := idx_k64 (ix2 i j) k
  rw [el, er]
  rfl

/-- A [64] vector cast to [1, 64] and broadcast along 6000 rows reads, at `(r, j)`, the vector at `j`. -/
theorem bias_apply (b : Vec Ideal S64 .f32) (r : Fin 6000) (j : Fin 64) :
    broadcastTo S6000x64 (shapeCast S1x64 b shapeCasts_S64_S1x64) broadcasts_S1x64_S6000x64 (ix2 r j) = b (ix1 j) := by
  rw [broadcastTo_apply _ broadcasts_S1x64_S6000x64 (ix2 r j) (ix2 (0 : Fin 1) j) (fun a => by
    match a with
    | ⟨0, _⟩ => rfl
    | ⟨1, _⟩ => rfl)]
  exact shapeCast_a_1a_apply b shapeCasts_S64_S1x64 0 j

/-- A [64, 128] matrix transposed reads, at `(k, j)`, the matrix at `(j, k)`. -/
theorem tr128_apply (x : FVec Ideal S64x128 .bf16) (k : Fin 128) (j : Fin 64) :
    transpose S128x64 [1, 0] x transposes_S64x128_p1_0_S128x64 (ix2 k j) = x (ix2 j k) :=
  transpose_ix2_apply x _ k j

/-- A [64, 64] matrix transposed reads, at `(k, j)`, the matrix at `(j, k)`. -/
theorem tr64_apply (x : FVec Ideal S64x64 .bf16) (k j : Fin 64) :
    transpose S64x64 [1, 0] x transposes_S64x64_p1_0_S64x64 (ix2 k j) = x (ix2 j k) :=
  transpose_ix2_apply x _ k j

/-- THE BODY'S FIRST STORE at `(r, j)`, over variables of the block types. With
    `xhat (r, k) = Σ_{k' < 128} x0 (r, k') · x3 (k, k') + x4 k + x2 (r, k)` (the first linear layer, its bias, the residual), the
    stored value is `Σ_{k < 128} x1 (r, k) · x5 (j, k) + Σ_{k < 64} xhat (r, k) · x6 (j, k) + x7 j`: two products into zero
    accumulators, added, plus the second bias. The changes of float format are the identity on the ideal values. -/
theorem pay2_apply (x0 x1 : Vec Ideal S6000x128 .f32) (x2 : Vec Ideal S6000x64 .f32) (x3 : Vec Ideal S64x128 .f32)
    (x4 : Vec Ideal S64 .f32) (x5 : Vec Ideal S64x128 .f32) (x6 : Vec Ideal S64x64 .f32) (x7 : Vec Ideal S64 .f32)
    (r : Fin 6000) (j : Fin 64) :
    k6_pay2 x0 x1 x2 x3 x4 x5 x6 x7 (ix2 r j)
      = ((∑ k : Fin 128, x1 (ix2 r k) * x5 (ix2 j k))
          + (∑ k : Fin 64, (((∑ k' : Fin 128, x0 (ix2 r k') * x3 (ix2 k k')) + x4 (ix1 k)) + x2 (ix2 r k)) * x6 (ix2 j k)))
        + x7 (ix1 j) := by
  unfold k6_pay2
  simp only [shapeCast_self]
  simp only [addf_apply, mm128_apply, mm64_apply, truncf_apply]
  refine congrArg₂ (· + ·) (congrArg₂ (· + ·) ?_ ?_) ?_
  · exact Finset.sum_congr rfl fun k _ => congrArg (x1 (ix2 r k) * ·) (tr128_apply _ k j)
  · refine Finset.sum_congr rfl fun k _ => congrArg₂ (· * ·) (congrArg₂ (· + ·) (congrArg₂ (· + ·) ?_ ?_) rfl) (tr64_apply _ k j)
    · exact Finset.sum_congr rfl fun k' _ => congrArg (x0 (ix2 r k') * ·) (tr128_apply _ k' k)
    · exact bias_apply x4 r k
  · exact bias_apply x7 r j

/-! ## The reference's operations read at an index -/

theorem lhs_r128_0 (i : Cert.ReferenceIdeal.S60000x64.Idx) (q : Cert.ReferenceIdeal.dot_S60000x128_S128x64_S60000x64_1_0_0_1_n_n.contr.Idx) :
    (Cert.ReferenceIdeal.dot_S60000x128_S128x64_S60000x64_1_0_0_1_n_n.lhsIdx i q 0).val = (i 0).val := by
  unfold DotDims.lhsIdx
  rw [dif_neg (show ¬(0 : Fin Cert.ReferenceIdeal.S60000x128.rank) ∈ Cert.ReferenceIdeal.dot_S60000x128_S128x64_S60000x64_1_0_0_1_n_n.lhsBatch by decide), dif_pos (show (0 : Fin Cert.ReferenceIdeal.S60000x128.rank) ∈ Cert.ReferenceIdeal.dot_S60000x128_S128x64_S60000x64_1_0_0_1_n_n.lhsNonContracting by decide)]
  rfl
theorem lhs_r128_1 (i : Cert.ReferenceIdeal.S60000x64.Idx) (q : Cert.ReferenceIdeal.dot_S60000x128_S128x64_S60000x64_1_0_0_1_n_n.contr.Idx) :
    (Cert.ReferenceIdeal.dot_S60000x128_S128x64_S60000x64_1_0_0_1_n_n.lhsIdx i q 1).val = (q ⟨0, by decide⟩).val :=
  Cert.ReferenceIdeal.dot_S60000x128_S128x64_S60000x64_1_0_0_1_n_n.lhsIdx_val_of_single rfl i q
theorem rhs_r128_0 (i : Cert.ReferenceIdeal.S60000x64.Idx) (q : Cert.ReferenceIdeal.dot_S60000x128_S128x64_S60000x64_1_0_0_1_n_n.contr.Idx) :
    (Cert.ReferenceIdeal.dot_S60000x128_S128x64_S60000x64_1_0_0_1_n_n.rhsIdx i q 0).val = (q ⟨0, by decide⟩).val :=
  Cert.ReferenceIdeal.dot_S60000x128_S128x64_S60000x64_1_0_0_1_n_n.rhsIdx_val_of_single rfl i q
theorem rhs_r128_1 (i : Cert.ReferenceIdeal.S60000x64.Idx) (q : Cert.ReferenceIdeal.dot_S60000x128_S128x64_S60000x64_1_0_0_1_n_n.contr.Idx) :
    (Cert.ReferenceIdeal.dot_S60000x128_S128x64_S60000x64_1_0_0_1_n_n.rhsIdx i q 1).val = (i 1).val := by
  unfold DotDims.rhsIdx
  rw [dif_neg (show ¬(1 : Fin Cert.ReferenceIdeal.S128x64.rank) ∈ Cert.ReferenceIdeal.dot_S60000x128_S128x64_S60000x64_1_0_0_1_n_n.rhsBatch by decide), dif_pos (show (1 : Fin Cert.ReferenceIdeal.S128x64.rank) ∈ Cert.ReferenceIdeal.dot_S60000x128_S128x64_S60000x64_1_0_0_1_n_n.rhsNonContracting by decide)]
  rfl
/-- The operand indices of this contraction at output index `(i, j)` and contraction position `k` are `(i, k)` and `(k, j)`. -/
theorem idx_r128 (i : Cert.ReferenceIdeal.S60000x64.Idx) (k : Fin 128) :
    Cert.ReferenceIdeal.dot_S60000x128_S128x64_S60000x64_1_0_0_1_n_n.lhsIdx i ((contrEquiv1 Cert.ReferenceIdeal.dot_S60000x128_S128x64_S60000x64_1_0_0_1_n_n 128 rfl rfl).symm k) = ix2 (i 0) k
    ∧ Cert.ReferenceIdeal.dot_S60000x128_S128x64_S60000x64_1_0_0_1_n_n.rhsIdx i ((contrEquiv1 Cert.ReferenceIdeal.dot_S60000x128_S128x64_S60000x64_1_0_0_1_n_n 128 rfl rfl).symm k) = ix2 k (i 1) := by
  have hk := contrEquiv1_symm_val Cert.ReferenceIdeal.dot_S60000x128_S128x64_S60000x64_1_0_0_1_n_n 128 rfl rfl k
  refine ⟨funext fun a => Fin.ext ?_, funext fun a => Fin.ext ?_⟩
  · match a with
    | ⟨0, _⟩ => exact lhs_r128_0 _ _
    | ⟨1, _⟩ => exact (lhs_r128_1 _ _).trans hk
  · match a with
    | ⟨0, _⟩ => exact (rhs_r128_0 _ _).trans hk
    | ⟨1, _⟩ => exact rhs_r128_1 _ _

theorem lhs_r192_0 (i : Cert.ReferenceIdeal.S60000x64.Idx) (q : Cert.ReferenceIdeal.dot_S60000x192_S192x64_S60000x64_1_0_0_1_n_n.contr.Idx) :
    (Cert.ReferenceIdeal.dot_S60000x192_S192x64_S60000x64_1_0_0_1_n_n.lhsIdx i q 0).val = (i 0).val := by
  unfold DotDims.lhsIdx
  rw [dif_neg (show ¬(0 : Fin Cert.ReferenceIdeal.S60000x192.rank) ∈ Cert.ReferenceIdeal.dot_S60000x192_S192x64_S60000x64_1_0_0_1_n_n.lhsBatch by decide), dif_pos (show (0 : Fin Cert.ReferenceIdeal.S60000x192.rank) ∈ Cert.ReferenceIdeal.dot_S60000x192_S192x64_S60000x64_1_0_0_1_n_n.lhsNonContracting by decide)]
  rfl
theorem lhs_r192_1 (i : Cert.ReferenceIdeal.S60000x64.Idx) (q : Cert.ReferenceIdeal.dot_S60000x192_S192x64_S60000x64_1_0_0_1_n_n.contr.Idx) :
    (Cert.ReferenceIdeal.dot_S60000x192_S192x64_S60000x64_1_0_0_1_n_n.lhsIdx i q 1).val = (q ⟨0, by decide⟩).val :=
  Cert.ReferenceIdeal.dot_S60000x192_S192x64_S60000x64_1_0_0_1_n_n.lhsIdx_val_of_single rfl i q
theorem rhs_r192_0 (i : Cert.ReferenceIdeal.S60000x64.Idx) (q : Cert.ReferenceIdeal.dot_S60000x192_S192x64_S60000x64_1_0_0_1_n_n.contr.Idx) :
    (Cert.ReferenceIdeal.dot_S60000x192_S192x64_S60000x64_1_0_0_1_n_n.rhsIdx i q 0).val = (q ⟨0, by decide⟩).val :=
  Cert.ReferenceIdeal.dot_S60000x192_S192x64_S60000x64_1_0_0_1_n_n.rhsIdx_val_of_single rfl i q
theorem rhs_r192_1 (i : Cert.ReferenceIdeal.S60000x64.Idx) (q : Cert.ReferenceIdeal.dot_S60000x192_S192x64_S60000x64_1_0_0_1_n_n.contr.Idx) :
    (Cert.ReferenceIdeal.dot_S60000x192_S192x64_S60000x64_1_0_0_1_n_n.rhsIdx i q 1).val = (i 1).val := by
  unfold DotDims.rhsIdx
  rw [dif_neg (show ¬(1 : Fin Cert.ReferenceIdeal.S192x64.rank) ∈ Cert.ReferenceIdeal.dot_S60000x192_S192x64_S60000x64_1_0_0_1_n_n.rhsBatch by decide), dif_pos (show (1 : Fin Cert.ReferenceIdeal.S192x64.rank) ∈ Cert.ReferenceIdeal.dot_S60000x192_S192x64_S60000x64_1_0_0_1_n_n.rhsNonContracting by decide)]
  rfl
/-- The operand indices of this contraction at output index `(i, j)` and contraction position `k` are `(i, k)` and `(k, j)`. -/
theorem idx_r192 (i : Cert.ReferenceIdeal.S60000x64.Idx) (k : Fin 192) :
    Cert.ReferenceIdeal.dot_S60000x192_S192x64_S60000x64_1_0_0_1_n_n.lhsIdx i ((contrEquiv1 Cert.ReferenceIdeal.dot_S60000x192_S192x64_S60000x64_1_0_0_1_n_n 192 rfl rfl).symm k) = ix2 (i 0) k
    ∧ Cert.ReferenceIdeal.dot_S60000x192_S192x64_S60000x64_1_0_0_1_n_n.rhsIdx i ((contrEquiv1 Cert.ReferenceIdeal.dot_S60000x192_S192x64_S60000x64_1_0_0_1_n_n 192 rfl rfl).symm k) = ix2 k (i 1) := by
  have hk := contrEquiv1_symm_val Cert.ReferenceIdeal.dot_S60000x192_S192x64_S60000x64_1_0_0_1_n_n 192 rfl rfl k
  refine ⟨funext fun a => Fin.ext ?_, funext fun a => Fin.ext ?_⟩
  · match a with
    | ⟨0, _⟩ => exact lhs_r192_0 _ _
    | ⟨1, _⟩ => exact (lhs_r192_1 _ _).trans hk
  · match a with
    | ⟨0, _⟩ => exact (rhs_r192_0 _ _).trans hk
    | ⟨1, _⟩ => exact rhs_r192_1 _ _

theorem lhs_r64_0 (i : Cert.ReferenceIdeal.S60000x64.Idx) (q : Cert.ReferenceIdeal.dot_S60000x64_S64x64_S60000x64_1_0_0_1_n_n.contr.Idx) :
    (Cert.ReferenceIdeal.dot_S60000x64_S64x64_S60000x64_1_0_0_1_n_n.lhsIdx i q 0).val = (i 0).val := by
  unfold DotDims.lhsIdx
  rw [dif_neg (show ¬(0 : Fin Cert.ReferenceIdeal.S60000x64.rank) ∈ Cert.ReferenceIdeal.dot_S60000x64_S64x64_S60000x64_1_0_0_1_n_n.lhsBatch by decide), dif_pos (show (0 : Fin Cert.ReferenceIdeal.S60000x64.rank) ∈ Cert.ReferenceIdeal.dot_S60000x64_S64x64_S60000x64_1_0_0_1_n_n.lhsNonContracting by decide)]
  rfl
theorem lhs_r64_1 (i : Cert.ReferenceIdeal.S60000x64.Idx) (q : Cert.ReferenceIdeal.dot_S60000x64_S64x64_S60000x64_1_0_0_1_n_n.contr.Idx) :
    (Cert.ReferenceIdeal.dot_S60000x64_S64x64_S60000x64_1_0_0_1_n_n.lhsIdx i q 1).val = (q ⟨0, by decide⟩).val :=
  Cert.ReferenceIdeal.dot_S60000x64_S64x64_S60000x64_1_0_0_1_n_n.lhsIdx_val_of_single rfl i q
theorem rhs_r64_0 (i : Cert.ReferenceIdeal.S60000x64.Idx) (q : Cert.ReferenceIdeal.dot_S60000x64_S64x64_S60000x64_1_0_0_1_n_n.contr.Idx) :
    (Cert.ReferenceIdeal.dot_S60000x64_S64x64_S60000x64_1_0_0_1_n_n.rhsIdx i q 0).val = (q ⟨0, by decide⟩).val :=
  Cert.ReferenceIdeal.dot_S60000x64_S64x64_S60000x64_1_0_0_1_n_n.rhsIdx_val_of_single rfl i q
theorem rhs_r64_1 (i : Cert.ReferenceIdeal.S60000x64.Idx) (q : Cert.ReferenceIdeal.dot_S60000x64_S64x64_S60000x64_1_0_0_1_n_n.contr.Idx) :
    (Cert.ReferenceIdeal.dot_S60000x64_S64x64_S60000x64_1_0_0_1_n_n.rhsIdx i q 1).val = (i 1).val := by
  unfold DotDims.rhsIdx
  rw [dif_neg (show ¬(1 : Fin Cert.ReferenceIdeal.S64x64.rank) ∈ Cert.ReferenceIdeal.dot_S60000x64_S64x64_S60000x64_1_0_0_1_n_n.rhsBatch by decide), dif_pos (show (1 : Fin Cert.ReferenceIdeal.S64x64.rank) ∈ Cert.ReferenceIdeal.dot_S60000x64_S64x64_S60000x64_1_0_0_1_n_n.rhsNonContracting by decide)]
  rfl
/-- The operand indices of this contraction at output index `(i, j)` and contraction position `k` are `(i, k)` and `(k, j)`. -/
theorem idx_r64 (i : Cert.ReferenceIdeal.S60000x64.Idx) (k : Fin 64) :
    Cert.ReferenceIdeal.dot_S60000x64_S64x64_S60000x64_1_0_0_1_n_n.lhsIdx i ((contrEquiv1 Cert.ReferenceIdeal.dot_S60000x64_S64x64_S60000x64_1_0_0_1_n_n 64 rfl rfl).symm k) = ix2 (i 0) k
    ∧ Cert.ReferenceIdeal.dot_S60000x64_S64x64_S60000x64_1_0_0_1_n_n.rhsIdx i ((contrEquiv1 Cert.ReferenceIdeal.dot_S60000x64_S64x64_S60000x64_1_0_0_1_n_n 64 rfl rfl).symm k) = ix2 k (i 1) := by
  have hk := contrEquiv1_symm_val Cert.ReferenceIdeal.dot_S60000x64_S64x64_S60000x64_1_0_0_1_n_n 64 rfl rfl k
  refine ⟨funext fun a => Fin.ext ?_, funext fun a => Fin.ext ?_⟩
  · match a with
    | ⟨0, _⟩ => exact lhs_r64_0 _ _
    | ⟨1, _⟩ => exact (lhs_r64_1 _ _).trans hk
  · match a with
    | ⟨0, _⟩ => exact (rhs_r64_0 _ _).trans hk
    | ⟨1, _⟩ => exact rhs_r64_1 _ _

theorem rdot128_apply (l : FVec Ideal Cert.ReferenceIdeal.S60000x128 .f32) (r : FVec Ideal Cert.ReferenceIdeal.S128x64 .f32) (i : Fin 60000) (j : Fin 64) :
    Host.dotGeneral Cert.ReferenceIdeal.dot_S60000x128_S128x64_S60000x64_1_0_0_1_n_n none l r (ix2 i j) = ∑ k : Fin 128, l (ix2 i k) * r (ix2 k j) := by
  simp only [Host.dotGeneral]
  rw [Ideal.dotGeneral_apply, ← Equiv.sum_comp (contrEquiv1 Cert.ReferenceIdeal.dot_S60000x128_S128x64_S60000x64_1_0_0_1_n_n 128 rfl rfl).symm]
  refine Finset.sum_congr rfl fun k _ => ?_
  obtain ⟨el, er⟩ := idx_r128 (ix2 i j) k
  rw [el, er]
  rfl

theorem rdot192_apply (l : FVec Ideal Cert.ReferenceIdeal.S60000x192 .f32) (r : FVec Ideal Cert.ReferenceIdeal.S192x64 .f32) (i : Fin 60000) (j : Fin 64) :
    Host.dotGeneral Cert.ReferenceIdeal.dot_S60000x192_S192x64_S60000x64_1_0_0_1_n_n none l r (ix2 i j) = ∑ k : Fin 192, l (ix2 i k) * r (ix2 k j) := by
  simp only [Host.dotGeneral]
  rw [Ideal.dotGeneral_apply, ← Equiv.sum_comp (contrEquiv1 Cert.ReferenceIdeal.dot_S60000x192_S192x64_S60000x64_1_0_0_1_n_n 192 rfl rfl).symm]
  refine Finset.sum_congr rfl fun k _ => ?_
  obtain ⟨el, er⟩ := idx_r192 (ix2 i j) k
  rw [el, er]
  rfl

theorem rdot64_apply (l : FVec Ideal Cert.ReferenceIdeal.S60000x64 .f32) (r : FVec Ideal Cert.ReferenceIdeal.S64x64 .f32) (i : Fin 60000) (j : Fin 64) :
    Host.dotGeneral Cert.ReferenceIdeal.dot_S60000x64_S64x64_S60000x64_1_0_0_1_n_n none l r (ix2 i j) = ∑ k : Fin 64, l (ix2 i k) * r (ix2 k j) := by
  simp only [Host.dotGeneral]
  rw [Ideal.dotGeneral_apply, ← Equiv.sum_comp (contrEquiv1 Cert.ReferenceIdeal.dot_S60000x64_S64x64_S60000x64_1_0_0_1_n_n 64 rfl rfl).symm]
  refine Finset.sum_congr rfl fun k _ => ?_
  obtain ⟨el, er⟩ := idx_r64 (ix2 i j) k
  rw [el, er]
  rfl

/-- A [64] vector broadcast to [1, 64] and then along 60000 rows reads, at `(i, j)`, the vector at `j`. -/
theorem rbias_apply (b : FVec Ideal Cert.ReferenceIdeal.S64 .f32) (i : Fin 60000) (j : Fin 64) :
    broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 b) (ix2 i j) = b (ix1 j) := by
  rw [broadcastInDim_apply _ Cert.ReferenceIdeal.Gen.bcast_S1x64_S60000x64_0_1 _ (ix2 i j) (ix2 (0 : Fin 1) j) (fun a => by
    match a with
    | ⟨0, _⟩ => rfl
    | ⟨1, _⟩ => rfl)]
  exact broadcastInDim_apply _ Cert.ReferenceIdeal.Gen.bcast_S64_S1x64_1 b (ix2 (0 : Fin 1) j) (ix1 j) (fun a => by
    match a with
    | ⟨0, _⟩ => rfl)

/-- The [64, 128] weight transposed reads, at `(k, j)`, the weight at `(j, k)`. -/
theorem rtr128_apply (w : FVec Ideal Cert.ReferenceIdeal.S64x128 .f32) (k : Fin 128) (j : Fin 64) :
    transpose Cert.ReferenceIdeal.S128x64 [1, 0] w Cert.ReferenceIdeal.Gen.transposes_S64x128_S128x64_1_0 (ix2 k j) = w (ix2 j k) :=
  transpose_ix2_apply w _ k j

/-- The [64, 192] weight transposed reads, at `(k, j)`, the weight at `(j, k)`. -/
theorem rtr192_apply (w : FVec Ideal Cert.ReferenceIdeal.S64x192 .f32) (k : Fin 192) (j : Fin 64) :
    transpose Cert.ReferenceIdeal.S192x64 [1, 0] w Cert.ReferenceIdeal.Gen.transposes_S64x192_S192x64_1_0 (ix2 k j) = w (ix2 j k) :=
  transpose_ix2_apply w _ k j

/-- The joined array [a | b] (128 and 64 columns) reads `a` on its first 128 columns. -/
theorem cat_left (a : FVec Ideal Cert.ReferenceIdeal.S60000x128 .f32) (b : FVec Ideal Cert.ReferenceIdeal.S60000x64 .f32) (i : Fin 60000) (k : Fin 128) :
    concatenate Cert.ReferenceIdeal.S60000x192 1 [⟨Cert.ReferenceIdeal.S60000x128, a⟩, ⟨Cert.ReferenceIdeal.S60000x64, b⟩] Cert.ReferenceIdeal.Gen.concatenates_S60000x128_S60000x64_S60000x192_d1 (ix2 i (⟨k.val, by omega⟩ : Fin 192)) = a (ix2 i k) :=
  concatenate_pair_apply_left 1 a b _ (ix2 i (⟨k.val, by omega⟩ : Fin 192)) rfl (ix2 i k) (fun c => by
    match c with
    | ⟨0, _⟩ => rfl
    | ⟨1, _⟩ => rfl)

/-- The joined array [a | b] reads `b` on its last 64 columns, column `128 + k` at `b`'s column `k`. -/
theorem cat_right (a : FVec Ideal Cert.ReferenceIdeal.S60000x128 .f32) (b : FVec Ideal Cert.ReferenceIdeal.S60000x64 .f32) (i : Fin 60000) (k : Fin 64) :
    concatenate Cert.ReferenceIdeal.S60000x192 1 [⟨Cert.ReferenceIdeal.S60000x128, a⟩, ⟨Cert.ReferenceIdeal.S60000x64, b⟩] Cert.ReferenceIdeal.Gen.concatenates_S60000x128_S60000x64_S60000x192_d1 (ix2 i (⟨128 + k.val, by omega⟩ : Fin 192)) = b (ix2 i k) :=
  concatenate_pair_apply_right 1 a b _ (ix2 i (⟨128 + k.val, by omega⟩ : Fin 192)) rfl rfl (ix2 i k) (fun c hc => by
    match c with
    | ⟨0, _⟩ => rfl
    | ⟨1, _⟩ => exact absurd rfl hc) (by show k.val + 128 = 128 + k.val; omega)

/-- The reference's first stage: `x · l0wᵀ + l0b + ego`. -/
abbrev xhatRef (x : FVec Ideal Cert.ReferenceIdeal.S60000x128 .f32) (l0w : FVec Ideal Cert.ReferenceIdeal.S64x128 .f32) (l0b : FVec Ideal Cert.ReferenceIdeal.S64 .f32)
    (ego : FVec Ideal Cert.ReferenceIdeal.S60000x64 .f32) : FVec Ideal Cert.ReferenceIdeal.S60000x64 .f32 :=
  addf (addf (Host.dotGeneral Cert.ReferenceIdeal.dot_S60000x128_S128x64_S60000x64_1_0_0_1_n_n none x (transpose Cert.ReferenceIdeal.S128x64 [1, 0] l0w Cert.ReferenceIdeal.Gen.transposes_S64x128_S128x64_1_0)) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 l0b))) ego

/-- The reference's second stage: `[h0 | xhat] · g0wᵀ + g0b`, the contraction over the 192 joined columns. -/
abbrev x1Ref (x h0 : FVec Ideal Cert.ReferenceIdeal.S60000x128 .f32) (ego : FVec Ideal Cert.ReferenceIdeal.S60000x64 .f32) (l0w : FVec Ideal Cert.ReferenceIdeal.S64x128 .f32) (l0b : FVec Ideal Cert.ReferenceIdeal.S64 .f32)
    (g0w : FVec Ideal Cert.ReferenceIdeal.S64x192 .f32) (g0b : FVec Ideal Cert.ReferenceIdeal.S64 .f32) : FVec Ideal Cert.ReferenceIdeal.S60000x64 .f32 :=
  addf (Host.dotGeneral Cert.ReferenceIdeal.dot_S60000x192_S192x64_S60000x64_1_0_0_1_n_n none (concatenate Cert.ReferenceIdeal.S60000x192 1 [⟨Cert.ReferenceIdeal.S60000x128, h0⟩, ⟨Cert.ReferenceIdeal.S60000x64, addf (addf (Host.dotGeneral Cert.ReferenceIdeal.dot_S60000x128_S128x64_S60000x64_1_0_0_1_n_n none x (transpose Cert.ReferenceIdeal.S128x64 [1, 0] l0w Cert.ReferenceIdeal.Gen.transposes_S64x128_S128x64_1_0)) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 l0b))) ego⟩] Cert.ReferenceIdeal.Gen.concatenates_S60000x128_S60000x64_S60000x192_d1) (transpose Cert.ReferenceIdeal.S192x64 [1, 0] g0w Cert.ReferenceIdeal.Gen.transposes_S64x192_S192x64_1_0)) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 g0b))

theorem xhatRef_apply (x : FVec Ideal Cert.ReferenceIdeal.S60000x128 .f32) (l0w : FVec Ideal Cert.ReferenceIdeal.S64x128 .f32) (l0b : FVec Ideal Cert.ReferenceIdeal.S64 .f32)
    (ego : FVec Ideal Cert.ReferenceIdeal.S60000x64 .f32) (i : Fin 60000) (k : Fin 64) :
    xhatRef x l0w l0b ego (ix2 i k) = ((∑ k' : Fin 128, x (ix2 i k') * l0w (ix2 k k')) + l0b (ix1 k)) + ego (ix2 i k) := by
  refine congrArg₂ (· + ·) (congrArg₂ (· + ·) ?_ (rbias_apply l0b i k)) rfl
  exact (rdot128_apply _ _ i k).trans (Finset.sum_congr rfl fun k' _ => congrArg (x (ix2 i k') * ·) (rtr128_apply l0w k' k))

/-- THE LAW. The reference's second stage at `(i, j)`: the sum over the 192 joined columns splits at column 128 into the
    sum over `h0`'s columns against the first 128 columns of `g0w` and the sum over `xhat`'s against its last 64. -/
theorem x1Ref_apply (x h0 : FVec Ideal Cert.ReferenceIdeal.S60000x128 .f32) (ego : FVec Ideal Cert.ReferenceIdeal.S60000x64 .f32) (l0w : FVec Ideal Cert.ReferenceIdeal.S64x128 .f32) (l0b : FVec Ideal Cert.ReferenceIdeal.S64 .f32)
    (g0w : FVec Ideal Cert.ReferenceIdeal.S64x192 .f32) (g0b : FVec Ideal Cert.ReferenceIdeal.S64 .f32) (i : Fin 60000) (j : Fin 64) :
    x1Ref x h0 ego l0w l0b g0w g0b (ix2 i j)
      = ((∑ k : Fin 128, h0 (ix2 i k) * g0w (ix2 j (⟨k.val, by omega⟩ : Fin 192)))
          + (∑ k : Fin 64, xhatRef x l0w l0b ego (ix2 i k) * g0w (ix2 j (⟨128 + k.val, by omega⟩ : Fin 192))))
        + g0b (ix1 j) := by
  refine congrArg₂ (· + ·) ?_ (rbias_apply g0b i j)
  refine (rdot192_apply _ _ i j).trans ((sum_split _).trans (congrArg₂ (· + ·) ?_ ?_))
  · exact Finset.sum_congr rfl fun k _ => congrArg₂ (· * ·) (cat_left h0 _ i k) (rtr192_apply g0w _ j)
  · exact Finset.sum_congr rfl fun k _ => congrArg₂ (· * ·) (cat_right h0 _ i k) (rtr192_apply g0w _ j)

/-! ## The two weight windows as column slices of the one [64, 192] weight -/

/-- Columns `0 … 127` of the [64, 192] weight. -/
theorem wh_apply (g0w : Vec Ideal S64x192 .f32) (j : Fin 64) (k : Fin 128) :
    extractStridedSlice S64x128 ![0, 0] g0w slices_S64x192_S64x128_0_0 (ix2 j k) = g0w (ix2 j (⟨k.val, by omega⟩ : Fin 192)) :=
  extractStridedSlice_apply ![0, 0] g0w slices_S64x192_S64x128_0_0 (ix2 j k) (ix2 j (⟨k.val, by omega⟩ : Fin 192)) (fun a => match a with
    | ⟨0, _⟩ => by show j.val = 0 + j.val; omega
    | ⟨1, _⟩ => by show k.val = 0 + k.val; omega)

/-- Columns `128 … 191` of the [64, 192] weight. -/
theorem wx_apply (g0w : Vec Ideal S64x192 .f32) (j k : Fin 64) :
    extractStridedSlice S64x64 ![0, 128] g0w slices_S64x192_S64x64_0_128 (ix2 j k) = g0w (ix2 j (⟨128 + k.val, by omega⟩ : Fin 192)) :=
  extractStridedSlice_apply ![0, 128] g0w slices_S64x192_S64x64_0_128 (ix2 j k) (ix2 j (⟨128 + k.val, by omega⟩ : Fin 192)) (fun a => match a with
    | ⟨0, _⟩ => by show j.val = 0 + j.val; omega
    | ⟨1, _⟩ => by show 128 + k.val = 128 + k.val; omega)

/-! ## The body's stores against the reference, over variables of the literal block and array types -/

/-- THE FIRST STORE IS THE REFERENCE'S SECOND STAGE. Whenever the three row-blocked inputs are rows `ρ r` of their
    arrays, the weights and biases are the whole arrays, and the two weight windows are the two column slices of one
    [64, 192] weight, the body's first store at `(r, j)` is the reference's `[h0 | xhat] · g0wᵀ + g0b` at `(ρ r, j)`:
    both sides read at the index, the reference's sum over the 192 joined columns split at column 128. -/
theorem pay2_is_x1 (x0 x1 : Vec Ideal S6000x128 .f32) (x2 : Vec Ideal S6000x64 .f32) (x3 : Vec Ideal S64x128 .f32)
    (x4 : Vec Ideal S64 .f32) (x5 : Vec Ideal S64x128 .f32) (x6 : Vec Ideal S64x64 .f32) (x7 : Vec Ideal S64 .f32)
    (X H0 : FVec Ideal Cert.ReferenceIdeal.S60000x128 .f32) (EGO : FVec Ideal Cert.ReferenceIdeal.S60000x64 .f32) (L0W : FVec Ideal Cert.ReferenceIdeal.S64x128 .f32)
    (L0B : FVec Ideal Cert.ReferenceIdeal.S64 .f32) (G0W : FVec Ideal Cert.ReferenceIdeal.S64x192 .f32) (G0B : FVec Ideal Cert.ReferenceIdeal.S64 .f32)
    (ρ : Fin 6000 → Fin 60000)
    (e0 : ∀ r k, x0 (ix2 r k) = X (ix2 (ρ r) k)) (e1 : ∀ r k, x1 (ix2 r k) = H0 (ix2 (ρ r) k))
    (e2 : ∀ r k, x2 (ix2 r k) = EGO (ix2 (ρ r) k)) (e3 : x3 = L0W) (e4 : x4 = L0B)
    (e5 : ∀ (j : Fin 64) (k : Fin 128), x5 (ix2 j k) = G0W (ix2 j (⟨k.val, by omega⟩ : Fin 192)))
    (e6 : ∀ (j k : Fin 64), x6 (ix2 j k) = G0W (ix2 j (⟨128 + k.val, by omega⟩ : Fin 192)))
    (e7 : x7 = G0B) (r : Fin 6000) (j : Fin 64) :
    k6_pay2 x0 x1 x2 x3 x4 x5 x6 x7 (ix2 r j) = x1Ref X H0 EGO L0W L0B G0W G0B (ix2 (ρ r) j) := by
  subst e3 e4 e7
  rw [pay2_apply, x1Ref_apply]
  simp only [e0, e1, e2, e5, e6, xhatRef_apply]

/-- THE SECOND STORE IS THE REFERENCE'S PROJECTION of the second stage by the [64, 64] weight: a product into a zero
    accumulator of the first store (its change of float format the identity) with the weight, against the
    reference's contraction of its second stage with the same weight. -/
theorem pay1_is_msg (x0 x1 : Vec Ideal S6000x128 .f32) (x2 : Vec Ideal S6000x64 .f32) (x3 : Vec Ideal S64x128 .f32)
    (x4 : Vec Ideal S64 .f32) (x5 : Vec Ideal S64x128 .f32) (x6 : Vec Ideal S64x64 .f32) (x7 : Vec Ideal S64 .f32) (x8 : Vec Ideal S64x64 .f32)
    (X1 : FVec Ideal Cert.ReferenceIdeal.S60000x64 .f32) (WP : FVec Ideal Cert.ReferenceIdeal.S64x64 .f32) (ρ : Fin 6000 → Fin 60000)
    (e : ∀ r j, k6_pay2 x0 x1 x2 x3 x4 x5 x6 x7 (ix2 r j) = X1 (ix2 (ρ r) j)) (e8 : x8 = WP) (r : Fin 6000) (j : Fin 64) :
    k6_pay1 (k6_pay3 x0 x1 x2 x3 x4 x5 x6 x7) (k6_pay4 x8) (ix2 r j)
      = Host.dotGeneral Cert.ReferenceIdeal.dot_S60000x64_S64x64_S60000x64_1_0_0_1_n_n none X1 WP (ix2 (ρ r) j) := by
  subst e8
  unfold k6_pay1 k6_pay3 k6_pay4
  rw [rdot64_apply]
  refine (mm64_apply _ _ r j).trans (Finset.sum_congr rfl fun k _ => congrArg₂ (· * ·) ?_ rfl)
  exact e r k

/-! ## The blocks: each window's block at a grid point, read off its array -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided once over the ten grid points: the three row-blocked inputs and the two outputs
    are at block row `t`, block column 0; the six weight and bias windows are whole, at block 0 on every axis. -/
theorem idx_facts : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = t.val ∧ win6_2.index t (1 : Fin 2) = 0)
    ∧ (win6_3.index t (0 : Fin 2) = 0 ∧ win6_3.index t (1 : Fin 2) = 0)
    ∧ win6_4.index t (0 : Fin 1) = 0
    ∧ (win6_5.index t (0 : Fin 2) = 0 ∧ win6_5.index t (1 : Fin 2) = 0)
    ∧ (win6_6.index t (0 : Fin 2) = 0 ∧ win6_6.index t (1 : Fin 2) = 0)
    ∧ win6_7.index t (0 : Fin 1) = 0
    ∧ (win6_8.index t (0 : Fin 2) = 0 ∧ win6_8.index t (1 : Fin 2) = 0)
    ∧ (win6_9.index t (0 : Fin 2) = t.val ∧ win6_9.index t (1 : Fin 2) = 0)
    ∧ (win6_10.index t (0 : Fin 2) = t.val ∧ win6_10.index t (1 : Fin 2) = 0) :=
  (by decide +kernel : ∀ t : Fin grid6.N, _)

/-- Row `r` of the block at grid point `t` is row `6000 · t + r` of the array. -/
def rowOf (t : Fin cfg6.N) (r : Fin 6000) : Fin 60000 :=
  ⟨t.val * 6000 + r.val, by
    have h : t.val < 10 := lt_of_lt_of_eq t.isLt (N_6 : cfg6.N = 10)
    have hr : r.val < 6000 := r.isLt
    omega⟩

section Blocks
variable (V : (c : Dev nD) → (b : Ref sig .tc) → Buf (Elt Ideal) ((c : Thread nD τ).loc b))

/-! ## The region's input arrays, as the region finds them, at their literal types -/

/-- The array window 0 stages, at its literal type. -/
abbrev arr0 (c : Dev nD) : FVec Ideal Cert.ReferenceIdeal.S60000x128 .f32 := V c (Pipeline.arrRef spec6 0)
/-- The array window 1 stages, at its literal type. -/
abbrev arr1 (c : Dev nD) : FVec Ideal Cert.ReferenceIdeal.S60000x128 .f32 := V c (Pipeline.arrRef spec6 1)
/-- The array window 2 stages, at its literal type. -/
abbrev arr2 (c : Dev nD) : FVec Ideal Cert.ReferenceIdeal.S60000x64 .f32 := V c (Pipeline.arrRef spec6 2)
/-- The array window 3 stages, at its literal type. -/
abbrev arr3 (c : Dev nD) : FVec Ideal Cert.ReferenceIdeal.S64x128 .f32 := V c (Pipeline.arrRef spec6 3)
/-- The array window 4 stages, at its literal type. -/
abbrev arr4 (c : Dev nD) : FVec Ideal Cert.ReferenceIdeal.S64 .f32 := V c (Pipeline.arrRef spec6 4)
/-- The array window 5 stages, at its literal type. -/
abbrev arr5 (c : Dev nD) : FVec Ideal Cert.ReferenceIdeal.S64x128 .f32 := V c (Pipeline.arrRef spec6 5)
/-- The array window 6 stages, at its literal type. -/
abbrev arr6 (c : Dev nD) : FVec Ideal Cert.ReferenceIdeal.S64x64 .f32 := V c (Pipeline.arrRef spec6 6)
/-- The array window 7 stages, at its literal type. -/
abbrev arr7 (c : Dev nD) : FVec Ideal Cert.ReferenceIdeal.S64 .f32 := V c (Pipeline.arrRef spec6 7)
/-- The array window 8 stages, at its literal type. -/
abbrev arr8 (c : Dev nD) : FVec Ideal Cert.ReferenceIdeal.S64x64 .f32 := V c (Pipeline.arrRef spec6 8)

/-- Window 0's block at point `t`, at `(r, k)`, is its array at `(6000 · t + r, k)`. -/
theorem blk0_apply (c : Dev nD) (t : Fin cfg6.N) (r : Fin 6000) (k : Fin 128) :
    (iblk6 V c 0 t : Vec Ideal S6000x128 .f32) (ix2 r k) = arr0 V c (ix2 (rowOf t r) k) := by
  obtain ⟨⟨h0, h1⟩, -, -, -, -, -, -, -, -, -, -⟩ := idx_facts t
  unfold iblk6
  rw [View.read_apply]
  show V c (Pipeline.arrRef spec6 0) _ = V c (Pipeline.arrRef spec6 0) _
  congr 1
  funext a; apply Fin.ext
  match a with
  | ⟨0, _⟩ => show win6_0.index t (0 : Fin 2) * 6000 + 1 * r.val = t.val * 6000 + r.val; rw [h0]; omega
  | ⟨1, _⟩ => show win6_0.index t (1 : Fin 2) * 128 + 1 * k.val = k.val; rw [h1]; omega

/-- Window 1's block at point `t`, at `(r, k)`, is its array at `(6000 · t + r, k)`. -/
theorem blk1_apply (c : Dev nD) (t : Fin cfg6.N) (r : Fin 6000) (k : Fin 128) :
    (iblk6 V c 1 t : Vec Ideal S6000x128 .f32) (ix2 r k) = arr1 V c (ix2 (rowOf t r) k) := by
  obtain ⟨-, ⟨h0, h1⟩, -, -, -, -, -, -, -, -, -⟩ := idx_facts t
  unfold iblk6
  rw [View.read_apply]
  show V c (Pipeline.arrRef spec6 1) _ = V c (Pipeline.arrRef spec6 1) _
  congr 1
  funext a; apply Fin.ext
  match a with
  | ⟨0, _⟩ => show win6_1.index t (0 : Fin 2) * 6000 + 1 * r.val = t.val * 6000 + r.val; rw [h0]; omega
  | ⟨1, _⟩ => show win6_1.index t (1 : Fin 2) * 128 + 1 * k.val = k.val; rw [h1]; omega

/-- Window 2's block at point `t`, at `(r, k)`, is its array at `(6000 · t + r, k)`. -/
theorem blk2_apply (c : Dev nD) (t : Fin cfg6.N) (r : Fin 6000) (k : Fin 64) :
    (iblk6 V c 2 t : Vec Ideal S6000x64 .f32) (ix2 r k) = arr2 V c (ix2 (rowOf t r) k) := by
  obtain ⟨-, -, ⟨h0, h1⟩, -, -, -, -, -, -, -, -⟩ := idx_facts t
  unfold iblk6
  rw [View.read_apply]
  show V c (Pipeline.arrRef spec6 2) _ = V c (Pipeline.arrRef spec6 2) _
  congr 1
  funext a; apply Fin.ext
  match a with
  | ⟨0, _⟩ => show win6_2.index t (0 : Fin 2) * 6000 + 1 * r.val = t.val * 6000 + r.val; rw [h0]; omega
  | ⟨1, _⟩ => show win6_2.index t (1 : Fin 2) * 64 + 1 * k.val = k.val; rw [h1]; omega

/-- Window 3 is whole: its block at every point is its array. -/
theorem blk3_eq (c : Dev nD) (t : Fin cfg6.N) :
    (iblk6 V c 3 t : Vec Ideal S64x128 .f32) = arr3 V c := by
  obtain ⟨-, -, -, ⟨h0, h1⟩, -, -, -, -, -, -, -⟩ := idx_facts t
  funext y
  unfold iblk6
  rw [View.read_apply]
  show V c (Pipeline.arrRef spec6 3) _ = V c (Pipeline.arrRef spec6 3) y
  congr 1
  funext a; apply Fin.ext
  match a with
  | ⟨0, _⟩ => show win6_3.index t (0 : Fin 2) * 64 + 1 * (y 0).val = (y 0).val; rw [h0]; omega
  | ⟨1, _⟩ => show win6_3.index t (1 : Fin 2) * 128 + 1 * (y 1).val = (y 1).val; rw [h1]; omega

/-- Window 4 is whole: its block at every point is its array. -/
theorem blk4_eq (c : Dev nD) (t : Fin cfg6.N) :
    (iblk6 V c 4 t : Vec Ideal S64 .f32) = arr4 V c := by
  obtain ⟨-, -, -, -, h0, -, -, -, -, -, -⟩ := idx_facts t
  funext y
  unfold iblk6
  rw [View.read_apply]
  show V c (Pipeline.arrRef spec6 4) _ = V c (Pipeline.arrRef spec6 4) y
  congr 1
  funext a; apply Fin.ext
  match a with
  | ⟨0, _⟩ => show win6_4.index t (0 : Fin 1) * 64 + 1 * (y 0).val = (y 0).val; rw [h0]; omega

/-- Window 5 is whole: its block at every point is its array. -/
theorem blk5_eq (c : Dev nD) (t : Fin cfg6.N) :
    (iblk6 V c 5 t : Vec Ideal S64x128 .f32) = arr5 V c := by
  obtain ⟨-, -, -, -, -, ⟨h0, h1⟩, -, -, -, -, -⟩ := idx_facts t
  funext y
  unfold iblk6
  rw [View.read_apply]
  show V c (Pipeline.arrRef spec6 5) _ = V c (Pipeline.arrRef spec6 5) y
  congr 1
  funext a; apply Fin.ext
  match a with
  | ⟨0, _⟩ => show win6_5.index t (0 : Fin 2) * 64 + 1 * (y 0).val = (y 0).val; rw [h0]; omega
  | ⟨1, _⟩ => show win6_5.index t (1 : Fin 2) * 128 + 1 * (y 1).val = (y 1).val; rw [h1]; omega

/-- Window 6 is whole: its block at every point is its array. -/
theorem blk6_eq (c : Dev nD) (t : Fin cfg6.N) :
    (iblk6 V c 6 t : Vec Ideal S64x64 .f32) = arr6 V c := by
  obtain ⟨-, -, -, -, -, -, ⟨h0, h1⟩, -, -, -, -⟩ := idx_facts t
  funext y
  unfold iblk6
  rw [View.read_apply]
  show V c (Pipeline.arrRef spec6 6) _ = V c (Pipeline.arrRef spec6 6) y
  congr 1
  funext a; apply Fin.ext
  match a with
  | ⟨0, _⟩ => show win6_6.index t (0 : Fin 2) * 64 + 1 * (y 0).val = (y 0).val; rw [h0]; omega
  | ⟨1, _⟩ => show win6_6.index t (1 : Fin 2) * 64 + 1 * (y 1).val = (y 1).val; rw [h1]; omega

/-- Window 7 is whole: its block at every point is its array. -/
theorem blk7_eq (c : Dev nD) (t : Fin cfg6.N) :
    (iblk6 V c 7 t : Vec Ideal S64 .f32) = arr7 V c := by
  obtain ⟨-, -, -, -, -, -, -, h0, -, -, -⟩ := idx_facts t
  funext y
  unfold iblk6
  rw [View.read_apply]
  show V c (Pipeline.arrRef spec6 7) _ = V c (Pipeline.arrRef spec6 7) y
  congr 1
  funext a; apply Fin.ext
  match a with
  | ⟨0, _⟩ => show win6_7.index t (0 : Fin 1) * 64 + 1 * (y 0).val = (y 0).val; rw [h0]; omega

/-- Window 8 is whole: its block at every point is its array. -/
theorem blk8_eq (c : Dev nD) (t : Fin cfg6.N) :
    (iblk6 V c 8 t : Vec Ideal S64x64 .f32) = arr8 V c := by
  obtain ⟨-, -, -, -, -, -, -, -, ⟨h0, h1⟩, -, -⟩ := idx_facts t
  funext y
  unfold iblk6
  rw [View.read_apply]
  show V c (Pipeline.arrRef spec6 8) _ = V c (Pipeline.arrRef spec6 8) y
  congr 1
  funext a; apply Fin.ext
  match a with
  | ⟨0, _⟩ => show win6_8.index t (0 : Fin 2) * 64 + 1 * (y 0).val = (y 0).val; rw [h0]; omega
  | ⟨1, _⟩ => show win6_8.index t (1 : Fin 2) * 64 + 1 * (y 1).val = (y 1).val; rw [h1]; omega

/-! ## From blocks to the arrays -/

/-- An element `(r, q)` of output window 9's block at point `t` sits at `(6000 · t + r, q)` of its array. -/
theorem emb9 (t : Fin cfg6.N) (r : Fin 6000) (q : Fin 64) :
    ((cfg6.win 9).blk t).view.emb (ix2 r q) = ix2 (rowOf t r) q := by
  obtain ⟨-, -, -, -, -, -, -, -, -, ⟨h0, h1⟩, -⟩ := idx_facts t
  funext a; apply Fin.ext
  match a with
  | ⟨0, _⟩ => show win6_9.index t (0 : Fin 2) * 6000 + 1 * r.val = t.val * 6000 + r.val; rw [h0]; omega
  | ⟨1, _⟩ => show win6_9.index t (1 : Fin 2) * 64 + 1 * q.val = q.val; rw [h1]; omega

/-- An index of the array is in point `t`'s block iff each coordinate is in the block's range on its axis. -/
theorem mem_blk9 (t : Fin cfg6.N) (i : S60000x64.Idx) :
    i ∈ ((cfg6.win 9).blk t).view.set ↔ ∀ a : Fin 2, win6_9.index t a * S6000x64.size a ≤ (i a).val ∧ (i a).val < win6_9.index t a * S6000x64.size a + S6000x64.size a := by
  show i ∈ ((View.whole main_v64_0).slice (win6_9.rect t)).set ↔ _
  rw [View.set_slice_whole, Rect.mem_set_unit]
  exact Iff.rfl

/-- The blocks tile the array: row `i` is in the block of point `i / 6000`. -/
theorem cover9 (i : S60000x64.Idx) : ∃ t : Fin cfg6.N, (cfg6.win 9).flush t = true ∧ i ∈ ((cfg6.win 9).blk t).view.set := by
  have hi0 : (i 0).val < 60000 := (i 0).isLt
  have hi1 : (i 1).val < 64 := (i 1).isLt
  have ht : (i 0).val / 6000 < cfg6.N := by rw [show cfg6.N = 10 from N_6]; omega
  obtain ⟨-, -, -, -, -, -, -, -, -, ⟨h0, h1⟩, -⟩ := idx_facts ⟨(i 0).val / 6000, ht⟩
  refine ⟨⟨(i 0).val / 6000, ht⟩, flush6_9 _, ?_⟩
  rw [mem_blk9]
  intro a
  match a with
  | ⟨0, _⟩ =>
    show win6_9.index ⟨(i 0).val / 6000, ht⟩ (0 : Fin 2) * 6000 ≤ (i 0).val ∧ (i 0).val < win6_9.index ⟨(i 0).val / 6000, ht⟩ (0 : Fin 2) * 6000 + 6000
    rw [h0]; show (i 0).val / 6000 * 6000 ≤ (i 0).val ∧ (i 0).val < (i 0).val / 6000 * 6000 + 6000; omega
  | ⟨1, _⟩ =>
    show win6_9.index ⟨(i 0).val / 6000, ht⟩ (1 : Fin 2) * 64 ≤ (i 1).val ∧ (i 1).val < win6_9.index ⟨(i 0).val / 6000, ht⟩ (1 : Fin 2) * 64 + 64
    rw [h1]; omega

/-- An element `(r, q)` of output window 10's block at point `t` sits at `(6000 · t + r, q)` of its array. -/
theorem emb10 (t : Fin cfg6.N) (r : Fin 6000) (q : Fin 64) :
    ((cfg6.win 10).blk t).view.emb (ix2 r q) = ix2 (rowOf t r) q := by
  obtain ⟨-, -, -, -, -, -, -, -, -, -, ⟨h0, h1⟩⟩ := idx_facts t
  funext a; apply Fin.ext
  match a with
  | ⟨0, _⟩ => show win6_10.index t (0 : Fin 2) * 6000 + 1 * r.val = t.val * 6000 + r.val; rw [h0]; omega
  | ⟨1, _⟩ => show win6_10.index t (1 : Fin 2) * 64 + 1 * q.val = q.val; rw [h1]; omega

/-- An index of the array is in point `t`'s block iff each coordinate is in the block's range on its axis. -/
theorem mem_blk10 (t : Fin cfg6.N) (i : S60000x64.Idx) :
    i ∈ ((cfg6.win 10).blk t).view.set ↔ ∀ a : Fin 2, win6_10.index t a * S6000x64.size a ≤ (i a).val ∧ (i a).val < win6_10.index t a * S6000x64.size a + S6000x64.size a := by
  show i ∈ ((View.whole main_v64_1).slice (win6_10.rect t)).set ↔ _
  rw [View.set_slice_whole, Rect.mem_set_unit]
  exact Iff.rfl

/-- The blocks tile the array: row `i` is in the block of point `i / 6000`. -/
theorem cover10 (i : S60000x64.Idx) : ∃ t : Fin cfg6.N, (cfg6.win 10).flush t = true ∧ i ∈ ((cfg6.win 10).blk t).view.set := by
  have hi0 : (i 0).val < 60000 := (i 0).isLt
  have hi1 : (i 1).val < 64 := (i 1).isLt
  have ht : (i 0).val / 6000 < cfg6.N := by rw [show cfg6.N = 10 from N_6]; omega
  obtain ⟨-, -, -, -, -, -, -, -, -, -, ⟨h0, h1⟩⟩ := idx_facts ⟨(i 0).val / 6000, ht⟩
  refine ⟨⟨(i 0).val / 6000, ht⟩, flush6_10 _, ?_⟩
  rw [mem_blk10]
  intro a
  match a with
  | ⟨0, _⟩ =>
    show win6_10.index ⟨(i 0).val / 6000, ht⟩ (0 : Fin 2) * 6000 ≤ (i 0).val ∧ (i 0).val < win6_10.index ⟨(i 0).val / 6000, ht⟩ (0 : Fin 2) * 6000 + 6000
    rw [h0]; show (i 0).val / 6000 * 6000 ≤ (i 0).val ∧ (i 0).val < (i 0).val / 6000 * 6000 + 6000; omega
  | ⟨1, _⟩ =>
    show win6_10.index ⟨(i 0).val / 6000, ht⟩ (1 : Fin 2) * 64 ≤ (i 1).val ∧ (i 1).val < win6_10.index ⟨(i 0).val / 6000, ht⟩ (1 : Fin 2) * 64 + 64
    rw [h1]; omega

/-- The first store at a grid point, with the region's own blocks: the reference's second stage at the block's rows. -/
theorem store9_at (c : Dev nD) (g0w : Vec Ideal S64x192 .f32)
    (hwh : V c (Pipeline.arrRef spec6 5) = extractStridedSlice S64x128 ![0, 0] g0w slices_S64x192_S64x128_0_0)
    (hwx : V c (Pipeline.arrRef spec6 6) = extractStridedSlice S64x64 ![0, 128] g0w slices_S64x192_S64x64_0_128) (t : Fin cfg6.N) (r : Fin 6000) (q : Fin 64) :
    k6_pay2 (iblk6 V c 0 t) (iblk6 V c 1 t) (iblk6 V c 2 t) (iblk6 V c 3 t) (iblk6 V c 4 t) (iblk6 V c 5 t) (iblk6 V c 6 t) (iblk6 V c 7 t) (ix2 r q) = x1Ref (arr0 V c) (arr1 V c) (arr2 V c) (arr3 V c) (arr4 V c) g0w (arr7 V c) (ix2 (rowOf t r) q) :=
  pay2_is_x1 (iblk6 V c 0 t) (iblk6 V c 1 t) (iblk6 V c 2 t) (iblk6 V c 3 t) (iblk6 V c 4 t) (iblk6 V c 5 t) (iblk6 V c 6 t) (iblk6 V c 7 t) (arr0 V c) (arr1 V c) (arr2 V c) (arr3 V c) (arr4 V c) g0w (arr7 V c) (rowOf t)
    (blk0_apply V c t) (blk1_apply V c t) (blk2_apply V c t) (blk3_eq V c t) (blk4_eq V c t)
    (fun j k => by rw [blk5_eq V c t]; show V c (Pipeline.arrRef spec6 5) (ix2 j k) = _; rw [hwh]; exact wh_apply g0w j k)
    (fun j k => by rw [blk6_eq V c t]; show V c (Pipeline.arrRef spec6 6) (ix2 j k) = _; rw [hwx]; exact wx_apply g0w j k)
    (blk7_eq V c t) r q

/-- WHAT POINT `t` WRITES BACK through the first output window is block `t` of the reference's second stage. -/
theorem flushed9_eq (c : Dev nD) (g0w : Vec Ideal S64x192 .f32)
    (hwh : V c (Pipeline.arrRef spec6 5) = extractStridedSlice S64x128 ![0, 0] g0w slices_S64x192_S64x128_0_0)
    (hwx : V c (Pipeline.arrRef spec6 6) = extractStridedSlice S64x64 ![0, 128] g0w slices_S64x192_S64x64_0_128) (t : Fin cfg6.N) :
    (dat6 (F := Ideal) V c).flushed 9 t = ((cfg6.win 9).blk t).view.read (Elt Ideal) (x1Ref (arr0 V c) (arr1 V c) (arr2 V c) (arr3 V c) (arr4 V c) g0w (arr7 V c)) := by
  show (cfg6.win 9).cut (grid6.coords t) ((dat6 V c).after 9 t) = _
  rw [after6_9]
  unfold out6_9
  rw [View.canon_unit_zero hz2]
  simp only [View.ld_unit_zero (S := S6000x128) hz2, View.ld_unit_zero (S := S6000x64) hz2, View.ld_unit_zero (S := S64x128) hz2, View.ld_unit_zero (S := S64) hz1, View.ld_unit_zero (S := S64x64) hz2]
  funext y
  obtain ⟨r, q, rfl⟩ : ∃ (r : Fin 6000) (q : Fin 64), y = ix2 r q := ⟨y 0, y 1, eq_ix2 y⟩
  refine (store9_at V c g0w hwh hwx t r q).trans ?_
  rw [View.read_apply, emb9]
  rfl

/-- WHAT POINT `t` WRITES BACK through the second output window is block `t` of the reference's projection. -/
theorem flushed10_eq (c : Dev nD) (g0w : Vec Ideal S64x192 .f32)
    (hwh : V c (Pipeline.arrRef spec6 5) = extractStridedSlice S64x128 ![0, 0] g0w slices_S64x192_S64x128_0_0)
    (hwx : V c (Pipeline.arrRef spec6 6) = extractStridedSlice S64x64 ![0, 128] g0w slices_S64x192_S64x64_0_128) (t : Fin cfg6.N) :
    (dat6 (F := Ideal) V c).flushed 10 t = ((cfg6.win 10).blk t).view.read (Elt Ideal) (Host.dotGeneral (F := Ideal) (φ₁ := .f32) (φ₂ := .f32) Cert.ReferenceIdeal.dot_S60000x64_S64x64_S60000x64_1_0_0_1_n_n none (x1Ref (arr0 V c) (arr1 V c) (arr2 V c) (arr3 V c) (arr4 V c) g0w (arr7 V c)) (arr8 V c)) := by
  show (cfg6.win 10).cut (grid6.coords t) ((dat6 V c).after 10 t) = _
  rw [after6_10]
  unfold out6_10
  rw [View.canon_unit_zero hz2]
  simp only [View.ld_unit_zero (S := S6000x128) hz2, View.ld_unit_zero (S := S6000x64) hz2, View.ld_unit_zero (S := S64x128) hz2, View.ld_unit_zero (S := S64) hz1, View.ld_unit_zero (S := S64x64) hz2]
  funext y
  obtain ⟨r, q, rfl⟩ : ∃ (r : Fin 6000) (q : Fin 64), y = ix2 r q := ⟨y 0, y 1, eq_ix2 y⟩
  refine (pay1_is_msg (iblk6 V c 0 t) (iblk6 V c 1 t) (iblk6 V c 2 t) (iblk6 V c 3 t) (iblk6 V c 4 t) (iblk6 V c 5 t) (iblk6 V c 6 t) (iblk6 V c 7 t) (iblk6 V c 8 t) (x1Ref (arr0 V c) (arr1 V c) (arr2 V c) (arr3 V c) (arr4 V c) g0w (arr7 V c)) (arr8 V c) (rowOf t) (store9_at V c g0w hwh hwx t) (blk8_eq V c t) r q).trans ?_
  rw [View.read_apply, emb10]
  rfl

/-- THE FIRST OUTPUT ARRAY after the region is the reference's second stage `[h0 | xhat] · g0wᵀ + g0b` of the region's
    input arrays, `xhat = x · l0wᵀ + l0b + ego`, when the two weight windows are the column slices of `g0w`. -/
theorem arr9 (c : Dev nD) (g0w : Vec Ideal S64x192 .f32)
    (hwh : V c (Pipeline.arrRef spec6 5) = extractStridedSlice S64x128 ![0, 0] g0w slices_S64x192_S64x128_0_0)
    (hwx : V c (Pipeline.arrRef spec6 6) = extractStridedSlice S64x64 ![0, 128] g0w slices_S64x192_S64x64_0_128) :
    @Eq (FVec Ideal Cert.ReferenceIdeal.S60000x64 .f32) ((dat6 (F := Ideal) V c).arrAt 9 cfg6.N)
      (addf (Host.dotGeneral (F := Ideal) (φ₁ := .f32) (φ₂ := .f32) Cert.ReferenceIdeal.dot_S60000x192_S192x64_S60000x64_1_0_0_1_n_n none (concatenate Cert.ReferenceIdeal.S60000x192 1 [⟨Cert.ReferenceIdeal.S60000x128, (V c (Pipeline.arrRef spec6 1) : FVec Ideal Cert.ReferenceIdeal.S60000x128 .f32)⟩, ⟨Cert.ReferenceIdeal.S60000x64, addf (addf (Host.dotGeneral (F := Ideal) (φ₁ := .f32) (φ₂ := .f32) Cert.ReferenceIdeal.dot_S60000x128_S128x64_S60000x64_1_0_0_1_n_n none (V c (Pipeline.arrRef spec6 0) : FVec Ideal Cert.ReferenceIdeal.S60000x128 .f32) (transpose Cert.ReferenceIdeal.S128x64 [1, 0] (V c (Pipeline.arrRef spec6 3) : FVec Ideal Cert.ReferenceIdeal.S64x128 .f32) Cert.ReferenceIdeal.Gen.transposes_S64x128_S128x64_1_0)) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 (V c (Pipeline.arrRef spec6 4) : FVec Ideal Cert.ReferenceIdeal.S64 .f32)))) (V c (Pipeline.arrRef spec6 2) : FVec Ideal Cert.ReferenceIdeal.S60000x64 .f32)⟩] Cert.ReferenceIdeal.Gen.concatenates_S60000x128_S60000x64_S60000x192_d1) (transpose Cert.ReferenceIdeal.S192x64 [1, 0] g0w Cert.ReferenceIdeal.Gen.transposes_S64x192_S192x64_1_0)) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 (V c (Pipeline.arrRef spec6 7) : FVec Ideal Cert.ReferenceIdeal.S64 .f32)))) :=
  (dat6 (F := Ideal) V c).arrAt_eq_of_cover 9 (x1Ref (arr0 V c) (arr1 V c) (arr2 V c) (arr3 V c) (arr4 V c) g0w (arr7 V c)) (fun t _ => flushed9_eq V c g0w hwh hwx t) cover9

/-- THE SECOND OUTPUT ARRAY after the region is that second stage contracted with the [64, 64] projection weight. -/
theorem arr10 (c : Dev nD) (g0w : Vec Ideal S64x192 .f32)
    (hwh : V c (Pipeline.arrRef spec6 5) = extractStridedSlice S64x128 ![0, 0] g0w slices_S64x192_S64x128_0_0)
    (hwx : V c (Pipeline.arrRef spec6 6) = extractStridedSlice S64x64 ![0, 128] g0w slices_S64x192_S64x64_0_128) :
    @Eq (FVec Ideal Cert.ReferenceIdeal.S60000x64 .f32) ((dat6 (F := Ideal) V c).arrAt 10 cfg6.N)
      (Host.dotGeneral (F := Ideal) (φ₁ := .f32) (φ₂ := .f32) Cert.ReferenceIdeal.dot_S60000x64_S64x64_S60000x64_1_0_0_1_n_n none (addf (Host.dotGeneral (F := Ideal) (φ₁ := .f32) (φ₂ := .f32) Cert.ReferenceIdeal.dot_S60000x192_S192x64_S60000x64_1_0_0_1_n_n none (concatenate Cert.ReferenceIdeal.S60000x192 1 [⟨Cert.ReferenceIdeal.S60000x128, (V c (Pipeline.arrRef spec6 1) : FVec Ideal Cert.ReferenceIdeal.S60000x128 .f32)⟩, ⟨Cert.ReferenceIdeal.S60000x64, addf (addf (Host.dotGeneral (F := Ideal) (φ₁ := .f32) (φ₂ := .f32) Cert.ReferenceIdeal.dot_S60000x128_S128x64_S60000x64_1_0_0_1_n_n none (V c (Pipeline.arrRef spec6 0) : FVec Ideal Cert.ReferenceIdeal.S60000x128 .f32) (transpose Cert.ReferenceIdeal.S128x64 [1, 0] (V c (Pipeline.arrRef spec6 3) : FVec Ideal Cert.ReferenceIdeal.S64x128 .f32) Cert.ReferenceIdeal.Gen.transposes_S64x128_S128x64_1_0)) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 (V c (Pipeline.arrRef spec6 4) : FVec Ideal Cert.ReferenceIdeal.S64 .f32)))) (V c (Pipeline.arrRef spec6 2) : FVec Ideal Cert.ReferenceIdeal.S60000x64 .f32)⟩] Cert.ReferenceIdeal.Gen.concatenates_S60000x128_S60000x64_S60000x192_d1) (transpose Cert.ReferenceIdeal.S192x64 [1, 0] g0w Cert.ReferenceIdeal.Gen.transposes_S64x192_S192x64_1_0)) (broadcastInDim Cert.ReferenceIdeal.S60000x64 ![0, 1] Cert.ReferenceIdeal.Gen.bcast_S1x64_S60000x64_0_1 (broadcastInDim Cert.ReferenceIdeal.S1x64 ![1] Cert.ReferenceIdeal.Gen.bcast_S64_S1x64_1 (V c (Pipeline.arrRef spec6 7) : FVec Ideal Cert.ReferenceIdeal.S64 .f32)))) (V c (Pipeline.arrRef spec6 8) : FVec Ideal Cert.ReferenceIdeal.S64x64 .f32)) :=
  (dat6 (F := Ideal) V c).arrAt_eq_of_cover 10 (Host.dotGeneral (F := Ideal) (φ₁ := .f32) (φ₂ := .f32) Cert.ReferenceIdeal.dot_S60000x64_S64x64_S60000x64_1_0_0_1_n_n none (x1Ref (arr0 V c) (arr1 V c) (arr2 V c) (arr3 V c) (arr4 V c) g0w (arr7 V c)) (arr8 V c)) (fun t _ => flushed10_eq V c g0w hwh hwx t) cover10

end Blocks

end Cert.KernelIdeal.Stage2ValueT

end
-- ==== Proof.Trace5.lean ====
/-
  The contents of the idealized kernel program's buffers at the boundaries between @main's segments (the second modality's first fused layer and the message passing after it):
  each buffer a later segment reads holds its pure term of the launch memory. A stretch of host operations
  gives a buffer it computes the operation's function of its operands and leaves every other buffer; a kernel region
  gives each output array the whole-array function of its input arrays and leaves its input arrays and every other buffer.
-/
import proofs.«159630_j86646670230227_1_alg».proof.Proof.Gen.KernelIdeal.Frame
import proofs.«159630_j86646670230227_1_alg».proof.Proof.Gen.ReferenceIdeal
import Idealize.ShloMosaic.PureOps.Ideal
import proofs.«159630_j86646670230227_1_alg».proof.Proof.Trace4
import proofs.«159630_j86646670230227_1_alg».proof.Proof.Stage2ValueT
set_option maxRecDepth 16384

noncomputable section

namespace Cert.KernelIdeal.Trace

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem at12_main_v1 : W12 m ρ c (Proc.devRef .tc main_v1) = T_main_v1 m c := (W12_of_ne m ρ c main_v1 (by decide)).trans (at11_main_v1 m ρ c)
theorem at12_main_v3 : W12 m ρ c (Proc.devRef .tc main_v3) = T_main_v3 m c := (W12_of_ne m ρ c main_v3 (by decide)).trans (at11_main_v3 m ρ c)
theorem at12_main_v12 : W12 m ρ c (Proc.devRef .tc main_v12) = T_main_v12 m c := (W12_of_ne m ρ c main_v12 (by decide)).trans (at11_main_v12 m ρ c)
theorem at12_main_v13 : W12 m ρ c (Proc.devRef .tc main_v13) = T_main_v13 m c := (W12_arr m ρ c 2).trans (((dat6 (V11 m ρ) c).arrAt_in 2 rfl _).trans ((A_eq6 (V11 m ρ) c 2).trans (at11_main_v13 m ρ c)))
set_option maxHeartbeats 4000000 in
theorem at12_main_v64_1 : W12 m ρ c (Proc.devRef .tc main_v64_1) = T_main_v64_1 m c := by
  have e0 : V11 m ρ c (Pipeline.arrRef spec6 0) = T_main_v49_0 m c := at11_main_v49_0 m ρ c
  have e1 : V11 m ρ c (Pipeline.arrRef spec6 1) = T_main_v61 m c := at11_main_v61 m ρ c
  have e2 : V11 m ρ c (Pipeline.arrRef spec6 2) = T_main_v13 m c := at11_main_v13 m ρ c
  have e3 : V11 m ρ c (Pipeline.arrRef spec6 3) = T_main_arg21 m c := at11_main_arg21 m ρ c
  have e4 : V11 m ρ c (Pipeline.arrRef spec6 4) = T_main_arg22 m c := at11_main_arg22 m ρ c
  have e5 : V11 m ρ c (Pipeline.arrRef spec6 5) = T_main_v62 m c := at11_main_v62 m ρ c
  have e6 : V11 m ρ c (Pipeline.arrRef spec6 6) = T_main_v63 m c := at11_main_v63 m ρ c
  have e7 : V11 m ρ c (Pipeline.arrRef spec6 7) = T_main_arg30 m c := at11_main_arg30 m ρ c
  have e8 : V11 m ρ c (Pipeline.arrRef spec6 8) = T_main_arg16 m c := at11_main_arg16 m ρ c
  refine (W12_arr m ρ c 10).trans ((Cert.KernelIdeal.Stage2ValueT.arr10 (V11 m ρ) c (T_main_arg29 m c) (at11_main_v62 m ρ c) (at11_main_v63 m ρ c)).trans ?_)
  show dotW64 (F := Ideal) (fused1 (F := Ideal) (V11 m ρ c (Pipeline.arrRef spec6 0)) (V11 m ρ c (Pipeline.arrRef spec6 1)) (V11 m ρ c (Pipeline.arrRef spec6 2)) (V11 m ρ c (Pipeline.arrRef spec6 3)) (V11 m ρ c (Pipeline.arrRef spec6 4)) (T_main_arg29 m c) (V11 m ρ c (Pipeline.arrRef spec6 7))) (V11 m ρ c (Pipeline.arrRef spec6 8)) = _
  exact congr (congrArg (dotW64 (F := Ideal)) (congr (congrFun (congr (congr (congr (congr (congrArg (fused1 (F := Ideal)) e0) e1) e2) e3) e4) (T_main_arg29 m c)) e7)) e8
theorem at12_main_arg31 : W12 m ρ c (Proc.devRef .tc main_arg31) = T_main_arg31 m c := (W12_of_ne m ρ c main_arg31 (by decide)).trans (at11_main_arg31 m ρ c)
set_option maxHeartbeats 4000000 in
theorem at12_main_v64_0 : W12 m ρ c (Proc.devRef .tc main_v64_0) = T_main_v64_0 m c := by
  have e0 : V11 m ρ c (Pipeline.arrRef spec6 0) = T_main_v49_0 m c := at11_main_v49_0 m ρ c
  have e1 : V11 m ρ c (Pipeline.arrRef spec6 1) = T_main_v61 m c := at11_main_v61 m ρ c
  have e2 : V11 m ρ c (Pipeline.arrRef spec6 2) = T_main_v13 m c := at11_main_v13 m ρ c
  have e3 : V11 m ρ c (Pipeline.arrRef spec6 3) = T_main_arg21 m c := at11_main_arg21 m ρ c
  have e4 : V11 m ρ c (Pipeline.arrRef spec6 4) = T_main_arg22 m c := at11_main_arg22 m ρ c
  have e5 : V11 m ρ c (Pipeline.arrRef spec6 5) = T_main_v62 m c := at11_main_v62 m ρ c
  have e6 : V11 m ρ c (Pipeline.arrRef spec6 6) = T_main_v63 m c := at11_main_v63 m ρ c
  have e7 : V11 m ρ c (Pipeline.arrRef spec6 7) = T_main_arg30 m c := at11_main_arg30 m ρ c
  have e8 : V11 m ρ c (Pipeline.arrRef spec6 8) = T_main_arg16 m c := at11_main_arg16 m ρ c
  refine (W12_arr m ρ c 9).trans ((Cert.KernelIdeal.Stage2ValueT.arr9 (V11 m ρ) c (T_main_arg29 m c) (at11_main_v62 m ρ c) (at11_main_v63 m ρ c)).trans ?_)
  show fused1 (F := Ideal) (V11 m ρ c (Pipeline.arrRef spec6 0)) (V11 m ρ c (Pipeline.arrRef spec6 1)) (V11 m ρ c (Pipeline.arrRef spec6 2)) (V11 m ρ c (Pipeline.arrRef spec6 3)) (V11 m ρ c (Pipeline.arrRef spec6 4)) (T_main_arg29 m c) (V11 m ρ c (Pipeline.arrRef spec6 7)) = _
  exact congr (congrFun (congr (congr (congr (congr (congrArg (fused1 (F := Ideal)) e0) e1) e2) e3) e4) (T_main_arg29 m c)) e7
theorem at12_main_arg23 : W12 m ρ c (Proc.devRef .tc main_arg23) = T_main_arg23 m c := (W12_of_ne m ρ c main_arg23 (by decide)).trans (at11_main_arg23 m ρ c)
theorem at12_main_arg24 : W12 m ρ c (Proc.devRef .tc main_arg24) = T_main_arg24 m c := (W12_of_ne m ρ c main_arg24 (by decide)).trans (at11_main_arg24 m ρ c)
theorem at12_main_arg32 : W12 m ρ c (Proc.devRef .tc main_arg32) = T_main_arg32 m c := (W12_of_ne m ρ c main_arg32 (by decide)).trans (at11_main_arg32 m ρ c)
theorem at12_main_v48 : W12 m ρ c (Proc.devRef .tc main_v48) = T_main_v48 m c := (W12_of_ne m ρ c main_v48 (by decide)).trans (at11_main_v48 m ρ c)
theorem at12_main_arg1 : W12 m ρ c (Proc.devRef .tc main_arg1) = T_main_arg1 m c := (W12_of_ne m ρ c main_arg1 (by decide)).trans (at11_main_arg1 m ρ c)
theorem at12_main_arg2 : W12 m ρ c (Proc.devRef .tc main_arg2) = T_main_arg2 m c := (W12_of_ne m ρ c main_arg2 (by decide)).trans (at11_main_arg2 m ρ c)
theorem at13_main_v13 : W13 m ρ c (Proc.devRef .tc main_v13) = T_main_v13 m c := (StableHlo.after_of_forall_not_mem (b := Proc.devRef .tc main_v13) hostOps7 (W12 m ρ c) (List.forall_iff_forall_mem.mp (by keep_host))).trans (at12_main_v13 m ρ c)
theorem at13_main_v64_0 : W13 m ρ c (Proc.devRef .tc main_v64_0) = T_main_v64_0 m c := (StableHlo.after_of_forall_not_mem (b := Proc.devRef .tc main_v64_0) hostOps7 (W12 m ρ c) (List.forall_iff_forall_mem.mp (by keep_host))).trans (at12_main_v64_0 m ρ c)
set_option maxHeartbeats 4000000 in
theorem at13_main_v76 : W13 m ρ c (Proc.devRef .tc main_v76) = T_main_v76 m c := by
  show StableHlo.after hostOps7 (W12 m ρ c) (Proc.devRef .tc main_v76) = _
  after_results_simp
  rw [at12_main_v3 m ρ c, at12_main_v64_1 m ρ c, at12_main_v1 m ρ c, at12_main_v12 m ρ c]
  rfl
theorem at13_main_arg23 : W13 m ρ c (Proc.devRef .tc main_arg23) = T_main_arg23 m c := (StableHlo.after_of_forall_not_mem (b := Proc.devRef .tc main_arg23) hostOps7 (W12 m ρ c) (List.forall_iff_forall_mem.mp (by keep_host))).trans (at12_main_arg23 m ρ c)
theorem at13_main_arg24 : W13 m ρ c (Proc.devRef .tc main_arg24) = T_main_arg24 m c := (StableHlo.after_of_forall_not_mem (b := Proc.devRef .tc main_arg24) hostOps7 (W12 m ρ c) (List.forall_iff_forall_mem.mp (by keep_host))).trans (at12_main_arg24 m ρ c)
set_option maxHeartbeats 4000000 in
theorem at13_main_v77 : W13 m ρ c (Proc.devRef .tc main_v77) = T_main_v77 m c := by
  show StableHlo.after hostOps7 (W12 m ρ c) (Proc.devRef .tc main_v77) = _
  after_results_simp
  rw [at12_main_arg31 m ρ c]
  rfl
set_option maxHeartbeats 4000000 in
theorem at13_main_v78 : W13 m ρ c (Proc.devRef .tc main_v78) = T_main_v78 m c := by
  show StableHlo.after hostOps7 (W12 m ρ c) (Proc.devRef .tc main_v78) = _
  after_results_simp
  rw [at12_main_arg31 m ρ c]
  rfl
theorem at13_main_arg32 : W13 m ρ c (Proc.devRef .tc main_arg32) = T_main_arg32 m c := (StableHlo.after_of_forall_not_mem (b := Proc.devRef .tc main_arg32) hostOps7 (W12 m ρ c) (List.forall_iff_forall_mem.mp (by keep_host))).trans (at12_main_arg32 m ρ c)
theorem at13_main_v48 : W13 m ρ c (Proc.devRef .tc main_v48) = T_main_v48 m c := (StableHlo.after_of_forall_not_mem (b := Proc.devRef .tc main_v48) hostOps7 (W12 m ρ c) (List.forall_iff_forall_mem.mp (by keep_host))).trans (at12_main_v48 m ρ c)
theorem at13_main_arg1 : W13 m ρ c (Proc.devRef .tc main_arg1) = T_main_arg1 m c := (StableHlo.after_of_forall_not_mem (b := Proc.devRef .tc main_arg1) hostOps7 (W12 m ρ c) (List.forall_iff_forall_mem.mp (by keep_host))).trans (at12_main_arg1 m ρ c)
theorem at13_main_arg2 : W13 m ρ c (Proc.devRef .tc main_arg2) = T_main_arg2 m c := (StableHlo.after_of_forall_not_mem (b := Proc.devRef .tc main_arg2) hostOps7 (W12 m ρ c) (List.forall_iff_forall_mem.mp (by keep_host))).trans (at12_main_arg2 m ρ c)

end Cert.KernelIdeal.Trace

end
-- ==== Proof.Stage3ValueT.lean ====
/- The value of the second stage-3 region (grid of 10 points, blocks of 6000 rows of [60000,64] arrays): the array it
   leaves is, entry by entry, the reference's [h1 | xhat]·g1wᵀ + g1b with xhat = x1·l1wᵀ + l1b + ego.
   The body computes, on rows 6000·t … 6000·t + 5999, h1·g1whᵀ + xhat·g1wxᵀ + g1b: two products into zero accumulators,
   added. Each product at an entry is the plain sum over the 64 contracted positions; each entry of a block depends only on
   the same row of the row-blocked inputs; the ten blocks cover the 60000 rows. The reference contracts the 128 joined
   columns of [h1 | xhat] with g1wᵀ; with g1wh, g1wx the two column halves of g1w the two agree by splitting the sum over
   128 positions at 64. -/
import proofs.«159630_j86646670230227_1_alg».proof.Proof.Gen.KernelIdeal.Frame
import proofs.«159630_j86646670230227_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.ReferenceIdeal.Stage3ValueT

open Cert.ReferenceIdeal

/-- A sum over 128 terms is the sum of its first 64 and of its last 64 terms. -/
theorem sum_split {M : Type*} [AddCommMonoid M] (f : Fin 128 → M) :
    ∑ k : Fin 128, f k = ∑ k : Fin 64, f ⟨k.val, by omega⟩ + ∑ k : Fin 64, f ⟨64 + k.val, by omega⟩ :=
  Fin.sum_univ_add (a := 64) (b := 64) f

/-! The operand indices of the two host products, [60000,64] × [64,64] and [60000,128] × [128,64] (each contracts the
    left operand's columns with the right operand's rows), coordinate by coordinate. -/
theorem lhsA_0 (i : S60000x64.Idx) (q : dot_S60000x64_S64x64_S60000x64_1_0_0_1_n_n.contr.Idx) :
    (dot_S60000x64_S64x64_S60000x64_1_0_0_1_n_n.lhsIdx i q 0).val = (i 0).val := by
  unfold DotDims.lhsIdx
  rw [dif_neg (show ¬(0 : Fin S60000x64.rank) ∈ dot_S60000x64_S64x64_S60000x64_1_0_0_1_n_n.lhsBatch by decide),
    dif_pos (show (0 : Fin S60000x64.rank) ∈ dot_S60000x64_S64x64_S60000x64_1_0_0_1_n_n.lhsNonContracting by decide)]
  rfl
theorem lhsA_1 (i : S60000x64.Idx) (q : dot_S60000x64_S64x64_S60000x64_1_0_0_1_n_n.contr.Idx) :
    (dot_S60000x64_S64x64_S60000x64_1_0_0_1_n_n.lhsIdx i q 1).val = (q ⟨0, by decide⟩).val :=
  dot_S60000x64_S64x64_S60000x64_1_0_0_1_n_n.lhsIdx_val_of_single rfl i q
theorem rhsA_0 (i : S60000x64.Idx) (q : dot_S60000x64_S64x64_S60000x64_1_0_0_1_n_n.contr.Idx) :
    (dot_S60000x64_S64x64_S60000x64_1_0_0_1_n_n.rhsIdx i q 0).val = (q ⟨0, by decide⟩).val :=
  dot_S60000x64_S64x64_S60000x64_1_0_0_1_n_n.rhsIdx_val_of_single rfl i q
theorem rhsA_1 (i : S60000x64.Idx) (q : dot_S60000x64_S64x64_S60000x64_1_0_0_1_n_n.contr.Idx) :
    (dot_S60000x64_S64x64_S60000x64_1_0_0_1_n_n.rhsIdx i q 1).val = (i 1).val := by
  unfold DotDims.rhsIdx
  rw [dif_neg (show ¬(1 : Fin S64x64.rank) ∈ dot_S60000x64_S64x64_S60000x64_1_0_0_1_n_n.rhsBatch by decide),
    dif_pos (show (1 : Fin S64x64.rank) ∈ dot_S60000x64_S64x64_S60000x64_1_0_0_1_n_n.rhsNonContracting by decide)]
  rfl
theorem lhsB_0 (i : S60000x64.Idx) (q : dot_S60000x128_S128x64_S60000x64_1_0_0_1_n_n.contr.Idx) :
    (dot_S60000x128_S128x64_S60000x64_1_0_0_1_n_n.lhsIdx i q 0).val = (i 0).val := by
  unfold DotDims.lhsIdx
  rw [dif_neg (show ¬(0 : Fin S60000x128.rank) ∈ dot_S60000x128_S128x64_S60000x64_1_0_0_1_n_n.lhsBatch by decide),
    dif_pos (show (0 : Fin S60000x128.rank) ∈ dot_S60000x128_S128x64_S60000x64_1_0_0_1_n_n.lhsNonContracting by decide)]
  rfl
theorem lhsB_1 (i : S60000x64.Idx) (q : dot_S60000x128_S128x64_S60000x64_1_0_0_1_n_n.contr.Idx) :
    (dot_S60000x128_S128x64_S60000x64_1_0_0_1_n_n.lhsIdx i q 1).val = (q ⟨0, by decide⟩).val :=
  dot_S60000x128_S128x64_S60000x64_1_0_0_1_n_n.lhsIdx_val_of_single rfl i q
theorem rhsB_0 (i : S60000x64.Idx) (q : dot_S60000x128_S128x64_S60000x64_1_0_0_1_n_n.contr.Idx) :
    (dot_S60000x128_S128x64_S60000x64_1_0_0_1_n_n.rhsIdx i q 0).val = (q ⟨0, by decide⟩).val :=
  dot_S60000x128_S128x64_S60000x64_1_0_0_1_n_n.rhsIdx_val_of_single rfl i q
theorem rhsB_1 (i : S60000x64.Idx) (q : dot_S60000x128_S128x64_S60000x64_1_0_0_1_n_n.contr.Idx) :
    (dot_S60000x128_S128x64_S60000x64_1_0_0_1_n_n.rhsIdx i q 1).val = (i 1).val := by
  unfold DotDims.rhsIdx
  rw [dif_neg (show ¬(1 : Fin S128x64.rank) ∈ dot_S60000x128_S128x64_S60000x64_1_0_0_1_n_n.rhsBatch by decide),
    dif_pos (show (1 : Fin S128x64.rank) ∈ dot_S60000x128_S128x64_S60000x64_1_0_0_1_n_n.rhsNonContracting by decide)]
  rfl

/-- The host's [60000,64] by [64,64]ᵀ product at (i, j): the sum over k of A(i,k) · W(j,k). -/
theorem dotA_apply (A : FVec Ideal S60000x64 .f32) (W : FVec Ideal S64x64 .f32) (i : Fin 60000) (j : Fin 64) :
    Host.dotGeneral dot_S60000x64_S64x64_S60000x64_1_0_0_1_n_n none A
        (transpose S64x64 [1, 0] W Facts₀.transposes_S64x64_S64x64_1_0) (ix2 i j)
      = ∑ k : Fin 64, A (ix2 i k) * W (ix2 j k) := by
  simp only [Host.dotGeneral]
  rw [Ideal.dotGeneral_apply,
    ← Equiv.sum_comp (contrEquiv1 dot_S60000x64_S64x64_S60000x64_1_0_0_1_n_n 64 rfl rfl).symm]
  refine Finset.sum_congr rfl fun k _ => ?_
  have hk := contrEquiv1_symm_val dot_S60000x64_S64x64_S60000x64_1_0_0_1_n_n 64 rfl rfl k
  congr 1
  · refine congrArg A (funext fun ax => Fin.ext ?_)
    match ax with
    | ⟨0, _⟩ => exact lhsA_0 _ _
    | ⟨1, _⟩ => exact (lhsA_1 _ _).trans hk
  · refine transpose_apply [1, 0] W Facts₀.transposes_S64x64_S64x64_1_0 _ (ix2 j k) (fun b => ?_)
    match b with
    | ⟨0, _⟩ => exact ((rhsA_0 _ _).trans hk).symm
    | ⟨1, _⟩ => exact (rhsA_1 (ix2 i j) _).symm

/-- The host's [60000,128] by [64,128]ᵀ product at (i, j): the sum over k of C(i,k) · W(j,k). -/
theorem dotB_apply (C : FVec Ideal S60000x128 .f32) (W : FVec Ideal S64x128 .f32) (i : Fin 60000) (j : Fin 64) :
    Host.dotGeneral dot_S60000x128_S128x64_S60000x64_1_0_0_1_n_n none C
        (transpose S128x64 [1, 0] W Facts₀.transposes_S64x128_S128x64_1_0) (ix2 i j)
      = ∑ k : Fin 128, C (ix2 i k) * W (ix2 j k) := by
  simp only [Host.dotGeneral]
  rw [Ideal.dotGeneral_apply,
    ← Equiv.sum_comp (contrEquiv1 dot_S60000x128_S128x64_S60000x64_1_0_0_1_n_n 128 rfl rfl).symm]
  refine Finset.sum_congr rfl fun k _ => ?_
  have hk := contrEquiv1_symm_val dot_S60000x128_S128x64_S60000x64_1_0_0_1_n_n 128 rfl rfl k
  congr 1
  · refine congrArg C (funext fun ax => Fin.ext ?_)
    match ax with
    | ⟨0, _⟩ => exact lhsB_0 _ _
    | ⟨1, _⟩ => exact (lhsB_1 _ _).trans hk
  · refine transpose_apply [1, 0] W Facts₀.transposes_S64x128_S128x64_1_0 _ (ix2 j k) (fun b => ?_)
    match b with
    | ⟨0, _⟩ => exact ((rhsB_0 _ _).trans hk).symm
    | ⟨1, _⟩ => exact (rhsB_1 (ix2 i j) _).symm

/-- A bias [64] broadcast to [1,64] and then over 60000 rows reads, at (i, j), the bias at j. -/
theorem bias_apply (b : FVec Ideal S64 .f32) (i : Fin 60000) (j : Fin 64) :
    broadcastInDim S60000x64 ![0, 1] Facts₀.bcast_S1x64_S60000x64_0_1
        (broadcastInDim S1x64 ![1] Facts₀.bcast_S64_S1x64_1 b) (ix2 i j) = b (ix1 j) := by
  rw [broadcastInDim_apply _ Facts₀.bcast_S1x64_S60000x64_0_1 _ (ix2 i j) (ix2 (0 : Fin 1) j) (fun a => match a with
      | ⟨0, _⟩ => by show 0 = if (1 : Nat) = 1 then 0 else i.val; rw [if_pos rfl]
      | ⟨1, _⟩ => by show j.val = if (64 : Nat) = 1 then 0 else j.val; rw [if_neg (by decide)]),
    broadcastInDim_apply _ Facts₀.bcast_S64_S1x64_1 b (ix2 (0 : Fin 1) j) (ix1 j) (fun a => match a with
      | ⟨0, _⟩ => by show j.val = if (64 : Nat) = 1 then 0 else j.val; rw [if_neg (by decide)])]

/-- Two [60000,64] arrays joined along the columns: a column below 64 reads the first array … -/
theorem cat_lo (A B : FVec Ideal S60000x64 .f32) (i : Fin 60000) (k : Fin 64) :
    concatenate S60000x128 1 [⟨S60000x64, A⟩, ⟨S60000x64, B⟩] Facts₀.concatenates_S60000x64_S60000x64_S60000x128_d1
        (ix2 i (⟨k.val, by omega⟩ : Fin 128)) = A (ix2 i k) :=
  concatenate_pair_apply_left 1 A B Facts₀.concatenates_S60000x64_S60000x64_S60000x128_d1 _ rfl (ix2 i k)
    (fun b => match b with
      | ⟨0, _⟩ => rfl
      | ⟨1, _⟩ => rfl)

/-- … and column 64 + k reads the second array at column k. -/
theorem cat_hi (A B : FVec Ideal S60000x64 .f32) (i : Fin 60000) (k : Fin 64) :
    concatenate S60000x128 1 [⟨S60000x64, A⟩, ⟨S60000x64, B⟩] Facts₀.concatenates_S60000x64_S60000x64_S60000x128_d1
        (ix2 i (⟨64 + k.val, by omega⟩ : Fin 128)) = B (ix2 i k) :=
  concatenate_pair_apply_right 1 A B Facts₀.concatenates_S60000x64_S60000x64_S60000x128_d1 _ rfl rfl (ix2 i k)
    (fun b => match b with
      | ⟨0, _⟩ => fun _ => rfl
      | ⟨1, _⟩ => fun h => absurd rfl h)
    (by show k.val + 64 = 64 + k.val; omega)

/-! ## The reference's term for this stage, and its entries -/

/-- xhat = x1·l1wᵀ + l1b + ego, as the reference writes it. -/
abbrev xhatRef (x1 : FVec Ideal S60000x64 .f32) (l1w : FVec Ideal S64x64 .f32) (l1b : FVec Ideal S64 .f32)
    (ego : FVec Ideal S60000x64 .f32) : FVec Ideal S60000x64 .f32 :=
  addf (addf (Host.dotGeneral dot_S60000x64_S64x64_S60000x64_1_0_0_1_n_n none x1
      (transpose S64x64 [1, 0] l1w Facts₀.transposes_S64x64_S64x64_1_0))
    (broadcastInDim S60000x64 ![0, 1] Facts₀.bcast_S1x64_S60000x64_0_1
      (broadcastInDim S1x64 ![1] Facts₀.bcast_S64_S1x64_1 l1b))) ego

/-- [h1 | xhat]·g1wᵀ + g1b, as the reference writes it. -/
abbrev stage3Ref (x1 h1 ego : FVec Ideal S60000x64 .f32) (l1w : FVec Ideal S64x64 .f32) (l1b : FVec Ideal S64 .f32)
    (g1w : FVec Ideal S64x128 .f32) (g1b : FVec Ideal S64 .f32) : FVec Ideal S60000x64 .f32 :=
  addf (Host.dotGeneral dot_S60000x128_S128x64_S60000x64_1_0_0_1_n_n none
      (concatenate S60000x128 1 [⟨S60000x64, h1⟩, ⟨S60000x64, xhatRef x1 l1w l1b ego⟩]
        Facts₀.concatenates_S60000x64_S60000x64_S60000x128_d1)
      (transpose S128x64 [1, 0] g1w Facts₀.transposes_S64x128_S128x64_1_0))
    (broadcastInDim S60000x64 ![0, 1] Facts₀.bcast_S1x64_S60000x64_0_1
      (broadcastInDim S1x64 ![1] Facts₀.bcast_S64_S1x64_1 g1b))

/-- xhat at (i, k). -/
theorem xhatRef_apply (x1 : FVec Ideal S60000x64 .f32) (l1w : FVec Ideal S64x64 .f32) (l1b : FVec Ideal S64 .f32)
    (ego : FVec Ideal S60000x64 .f32) (i : Fin 60000) (k : Fin 64) :
    xhatRef x1 l1w l1b ego (ix2 i k)
      = (∑ k' : Fin 64, x1 (ix2 i k') * l1w (ix2 k k') + l1b (ix1 k)) + ego (ix2 i k) := by
  unfold xhatRef
  rw [addf_apply, addf_apply, dotA_apply, bias_apply]

/-- The reference's entry (i, j): the contraction over the 128 joined columns, split at column 64 into the part over
    h1 against g1w's first 64 columns and the part over xhat against its last 64. -/
theorem stage3Ref_apply (x1 h1 ego : FVec Ideal S60000x64 .f32) (l1w : FVec Ideal S64x64 .f32) (l1b : FVec Ideal S64 .f32)
    (g1w : FVec Ideal S64x128 .f32) (g1b : FVec Ideal S64 .f32) (i : Fin 60000) (j : Fin 64) :
    stage3Ref x1 h1 ego l1w l1b g1w g1b (ix2 i j)
      = (∑ k : Fin 64, h1 (ix2 i k) * g1w (ix2 j (⟨k.val, by omega⟩ : Fin 128))
          + ∑ k : Fin 64, ((∑ k' : Fin 64, x1 (ix2 i k') * l1w (ix2 k k') + l1b (ix1 k)) + ego (ix2 i k))
              * g1w (ix2 j (⟨64 + k.val, by omega⟩ : Fin 128)))
        + g1b (ix1 j) := by
  unfold stage3Ref
  rw [addf_apply, dotB_apply, bias_apply, sum_split]
  refine congrArg (· + g1b (ix1 j)) (congrArg₂ (· + ·) (Finset.sum_congr rfl fun k _ => ?_)
    (Finset.sum_congr rfl fun k _ => ?_))
  · beta_reduce
    rw [cat_lo]
  · beta_reduce
    rw [cat_hi, xhatRef_apply]

end Cert.ReferenceIdeal.Stage3ValueT

namespace Cert.KernelIdeal.Stage3ValueT

open Cert.KernelIdeal Cert.KernelIdeal.Gen

/-! The operand indices of the block product [6000,64] × [64,64] → [6000,64] (contraction over the left operand's
    columns and the right operand's rows), coordinate by coordinate. -/
theorem lhsK_0 (i : S6000x64.Idx) (q : dot_S6000x64_S64x64_S6000x64_1_0_0_1_n_n.contr.Idx) :
    (dot_S6000x64_S64x64_S6000x64_1_0_0_1_n_n.lhsIdx i q 0).val = (i 0).val := by
  unfold DotDims.lhsIdx
  rw [dif_neg (show ¬(0 : Fin S6000x64.rank) ∈ dot_S6000x64_S64x64_S6000x64_1_0_0_1_n_n.lhsBatch by decide),
    dif_pos (show (0 : Fin S6000x64.rank) ∈ dot_S6000x64_S64x64_S6000x64_1_0_0_1_n_n.lhsNonContracting by decide)]
  rfl
theorem lhsK_1 (i : S6000x64.Idx) (q : dot_S6000x64_S64x64_S6000x64_1_0_0_1_n_n.contr.Idx) :
    (dot_S6000x64_S64x64_S6000x64_1_0_0_1_n_n.lhsIdx i q 1).val = (q ⟨0, by decide⟩).val :=
  dot_S6000x64_S64x64_S6000x64_1_0_0_1_n_n.lhsIdx_val_of_single rfl i q
theorem rhsK_0 (i : S6000x64.Idx) (q : dot_S6000x64_S64x64_S6000x64_1_0_0_1_n_n.contr.Idx) :
    (dot_S6000x64_S64x64_S6000x64_1_0_0_1_n_n.rhsIdx i q 0).val = (q ⟨0, by decide⟩).val :=
  dot_S6000x64_S64x64_S6000x64_1_0_0_1_n_n.rhsIdx_val_of_single rfl i q
theorem rhsK_1 (i : S6000x64.Idx) (q : dot_S6000x64_S64x64_S6000x64_1_0_0_1_n_n.contr.Idx) :
    (dot_S6000x64_S64x64_S6000x64_1_0_0_1_n_n.rhsIdx i q 1).val = (i 1).val := by
  unfold DotDims.rhsIdx
  rw [dif_neg (show ¬(1 : Fin S64x64.rank) ∈ dot_S6000x64_S64x64_S6000x64_1_0_0_1_n_n.rhsBatch by decide),
    dif_pos (show (1 : Fin S64x64.rank) ∈ dot_S6000x64_S64x64_S6000x64_1_0_0_1_n_n.rhsNonContracting by decide)]
  rfl

/-- A [6000,64] by [64,64]ᵀ product into a zero accumulator, at (r, j): the sum over k of a(r,k) · w(j,k). -/
theorem matmulT_apply (a : FVec Ideal S6000x64 .bf16) (w : FVec Ideal S64x64 .bf16) (r : Fin 6000) (j : Fin 64) :
    matmul dot_S6000x64_S64x64_S6000x64_1_0_0_1_n_n none a (transpose S64x64 [1, 0] w transposes_S64x64_p1_0_S64x64)
        (constant S6000x64 .f32 0x00000000#32) (ix2 r j)
      = ∑ k : Fin 64, a (ix2 r k) * w (ix2 j k) := by
  simp only [matmul]
  rw [Ideal.matmul_constant_zero_apply,
    ← Equiv.sum_comp (contrEquiv1 dot_S6000x64_S64x64_S6000x64_1_0_0_1_n_n 64 rfl rfl).symm]
  refine Finset.sum_congr rfl fun k _ => ?_
  have hk := contrEquiv1_symm_val dot_S6000x64_S64x64_S6000x64_1_0_0_1_n_n 64 rfl rfl k
  congr 1
  · refine congrArg a (funext fun ax => Fin.ext ?_)
    match ax with
    | ⟨0, _⟩ => exact lhsK_0 _ _
    | ⟨1, _⟩ => exact (lhsK_1 _ _).trans hk
  · refine transpose_apply [1, 0] w transposes_S64x64_p1_0_S64x64 _ (ix2 j k) (fun b => ?_)
    match b with
    | ⟨0, _⟩ => exact ((rhsK_0 _ _).trans hk).symm
    | ⟨1, _⟩ => exact (rhsK_1 (ix2 r j) _).symm

/-- A bias row [64] cast to [1,64] and broadcast over 6000 rows reads, at (r, j), the bias at j. -/
theorem bias_apply (b : Vec Ideal S64 .f32) (r : Fin 6000) (j : Fin 64) :
    broadcastTo S6000x64 (shapeCast S1x64 b shapeCasts_S64_S1x64) broadcasts_S1x64_S6000x64 (ix2 r j) = b (ix1 j) := by
  rw [broadcastTo_1b_ab_apply, shapeCast_a_1a_apply]

/-- The body's arithmetic at (r, j): h1·g1whᵀ + (x1·l1wᵀ + l1b + ego)·g1wxᵀ + g1b, every product a plain sum over the
    64 contracted positions, the format changes the identity on the extended reals. -/
theorem pay_apply (x0 x1 x2 : FVec Ideal S6000x64 .f32) (x3 : FVec Ideal S64x64 .f32) (x4 : FVec Ideal S64 .f32)
    (x5 x6 : FVec Ideal S64x64 .f32) (x7 : FVec Ideal S64 .f32) (r : Fin 6000) (j : Fin 64) :
    k7_pay1 x0 x1 x2 x3 x4 x5 x6 x7 (ix2 r j)
      = (∑ k : Fin 64, x1 (ix2 r k) * x5 (ix2 j k)
          + ∑ k : Fin 64, ((∑ k' : Fin 64, x0 (ix2 r k') * x3 (ix2 k k') + x4 (ix1 k)) + x2 (ix2 r k)) * x6 (ix2 j k))
        + x7 (ix1 j) := by
  unfold k7_pay1
  simp only [shapeCast_self]
  rw [addf_apply, addf_apply, matmulT_apply, matmulT_apply, bias_apply]
  refine congrArg (· + x7 (ix1 j)) (congrArg₂ (· + ·) rfl (Finset.sum_congr rfl fun k _ => ?_))
  rw [truncf_apply, addf_apply, addf_apply, matmulT_apply, bias_apply]
  rfl

/-! ## The region's result as one function of its input arrays, index by index -/

/-- Entry (i, j) of the result: Σ_k h1(i,k)·g1wh(j,k) + Σ_k xhat(i,k)·g1wx(j,k) + g1b(j), where
    xhat(i,k) = Σ_k' x1(i,k')·l1w(k,k') + l1b(k) + ego(i,k). -/
def specAt (X1 H1 EGO : FVec Ideal S60000x64 .f32) (L1W : FVec Ideal S64x64 .f32) (L1B : FVec Ideal S64 .f32)
    (GWH GWX : FVec Ideal S64x64 .f32) (G1B : FVec Ideal S64 .f32) (i : Fin 60000) (j : Fin 64) : Ideal .f32 :=
  (∑ k : Fin 64, H1 (ix2 i k) * GWH (ix2 j k)
    + ∑ k : Fin 64, ((∑ k' : Fin 64, X1 (ix2 i k') * L1W (ix2 k k') + L1B (ix1 k)) + EGO (ix2 i k)) * GWX (ix2 j k))
  + G1B (ix1 j)

/-- The whole [60000,64] result. -/
def spec (X1 H1 EGO : FVec Ideal S60000x64 .f32) (L1W : FVec Ideal S64x64 .f32) (L1B : FVec Ideal S64 .f32)
    (GWH GWX : FVec Ideal S64x64 .f32) (G1B : FVec Ideal S64 .f32) : FVec Ideal S60000x64 .f32 :=
  fun y => specAt X1 H1 EGO L1W L1B GWH GWX G1B (y 0) (y 1)

/-- Row r of block n (of the 10 blocks of 6000 rows) is row 6000·n + r of the array. -/
def rowOf (n : Nat) (hn : n < 10) (r : Fin 6000) : Fin 60000 := ⟨6000 * n + r.val, by have := r.isLt; omega⟩

/-- The body's result on block n of the three row-blocked inputs (and the whole weight and bias arrays) is block n
    of `spec`: each entry depends on row 6000·n + r of the inputs only. -/
theorem pay_rows (X1 H1 EGO : FVec Ideal S60000x64 .f32) (L1W : FVec Ideal S64x64 .f32) (L1B : FVec Ideal S64 .f32)
    (GWH GWX : FVec Ideal S64x64 .f32) (G1B : FVec Ideal S64 .f32) (n : Nat) (hn : n < 10) (y : S6000x64.Idx) :
    k7_pay1 (fun y : S6000x64.Idx => X1 (ix2 (rowOf n hn (y 0)) (y 1 : Fin 64)))
        (fun y : S6000x64.Idx => H1 (ix2 (rowOf n hn (y 0)) (y 1 : Fin 64)))
        (fun y : S6000x64.Idx => EGO (ix2 (rowOf n hn (y 0)) (y 1 : Fin 64))) L1W L1B GWH GWX G1B y
      = spec X1 H1 EGO L1W L1B GWH GWX G1B (ix2 (rowOf n hn (y 0)) (y 1 : Fin 64)) := by
  obtain ⟨r, j, rfl⟩ : ∃ (r : Fin 6000) (j : Fin 64), y = ix2 r j := ⟨y 0, y 1, eq_ix2 y⟩
  rw [pay_apply]
  rfl

/-! ## From blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: at point t the three row-blocked inputs and the output are at
    block (t, 0); the weight and bias windows stay at block 0. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 1) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 1) = 0
    ∧ win7_8.index t (0 : Fin 2) = t.val ∧ win7_8.index t (1 : Fin 2) = 0 :=
  (by decide +kernel : ∀ t : Fin grid7.N, _)

/-- Window 0's block at point t is rows 6000·t … 6000·t + 5999 of its array. -/
theorem rows0_eq (c : Dev nD) (t : Fin cfg7.N) (ht : t.val < 10) :
    (iblk7 V c 0 t : FVec Ideal S6000x64 .f32)
      = fun y : S6000x64.Idx => (V c (Pipeline.arrRef spec7 0) : FVec Ideal S60000x64 .f32) (ix2 (rowOf t.val ht (y 0)) (y 1 : Fin 64)) := by
  obtain ⟨f0, f1, f2, f3, f4, f5, f6, f7, f8, f9, f10, f11, f12, f13, f14, f15⟩ := idx_facts t
  funext y
  unfold iblk7
  rw [View.read_apply]
  show (V c (Pipeline.arrRef spec7 0) : FVec Ideal S60000x64 .f32) (((cfg7.win 0).blk t).view.emb y) = _
  refine congrArg (V c (Pipeline.arrRef spec7 0) : FVec Ideal S60000x64 .f32) (funext fun a => Fin.ext ?_)
  match a with
  | ⟨0, _⟩ => show win7_0.index t (0 : Fin 2) * 6000 + 1 * (y 0).val = 6000 * t.val + (y 0).val; rw [f0]; omega
  | ⟨1, _⟩ => show win7_0.index t (1 : Fin 2) * 64 + 1 * (y 1).val = (y 1).val; rw [f1]; omega

/-- Window 1's block at point t is rows 6000·t … 6000·t + 5999 of its array. -/
theorem rows1_eq (c : Dev nD) (t : Fin cfg7.N) (ht : t.val < 10) :
    (iblk7 V c 1 t : FVec Ideal S6000x64 .f32)
      = fun y : S6000x64.Idx => (V c (Pipeline.arrRef spec7 1) : FVec Ideal S60000x64 .f32) (ix2 (rowOf t.val ht (y 0)) (y 1 : Fin 64)) := by
  obtain ⟨f0, f1, f2, f3, f4, f5, f6, f7, f8, f9, f10, f11, f12, f13, f14, f15⟩ := idx_facts t
  funext y
  unfold iblk7
  rw [View.read_apply]
  show (V c (Pipeline.arrRef spec7 1) : FVec Ideal S60000x64 .f32) (((cfg7.win 1).blk t).view.emb y) = _
  refine congrArg (V c (Pipeline.arrRef spec7 1) : FVec Ideal S60000x64 .f32) (funext fun a => Fin.ext ?_)
  match a with
  | ⟨0, _⟩ => show win7_1.index t (0 : Fin 2) * 6000 + 1 * (y 0).val = 6000 * t.val + (y 0).val; rw [f2]; omega
  | ⟨1, _⟩ => show win7_1.index t (1 : Fin 2) * 64 + 1 * (y 1).val = (y 1).val; rw [f3]; omega

/-- Window 2's block at point t is rows 6000·t … 6000·t + 5999 of its array. -/
theorem rows2_eq (c : Dev nD) (t : Fin cfg7.N) (ht : t.val < 10) :
    (iblk7 V c 2 t : FVec Ideal S6000x64 .f32)
      = fun y : S6000x64.Idx => (V c (Pipeline.arrRef spec7 2) : FVec Ideal S60000x64 .f32) (ix2 (rowOf t.val ht (y 0)) (y 1 : Fin 64)) := by
  obtain ⟨f0, f1, f2, f3, f4, f5, f6, f7, f8, f9, f10, f11, f12, f13, f14, f15⟩ := idx_facts t
  funext y
  unfold iblk7
  rw [View.read_apply]
  show (V c (Pipeline.arrRef spec7 2) : FVec Ideal S60000x64 .f32) (((cfg7.win 2).blk t).view.emb y) = _
  refine congrArg (V c (Pipeline.arrRef spec7 2) : FVec Ideal S60000x64 .f32) (funext fun a => Fin.ext ?_)
  match a with
  | ⟨0, _⟩ => show win7_2.index t (0 : Fin 2) * 6000 + 1 * (y 0).val = 6000 * t.val + (y 0).val; rw [f4]; omega
  | ⟨1, _⟩ => show win7_2.index t (1 : Fin 2) * 64 + 1 * (y 1).val = (y 1).val; rw [f5]; omega

/-- Window 3 is its whole [64,64] array at every point. -/
theorem whole3_eq (c : Dev nD) (t : Fin cfg7.N) :
    (iblk7 V c 3 t : FVec Ideal S64x64 .f32) = (V c (Pipeline.arrRef spec7 3) : FVec Ideal S64x64 .f32) := by
  obtain ⟨f0, f1, f2, f3, f4, f5, f6, f7, f8, f9, f10, f11, f12, f13, f14, f15⟩ := idx_facts t
  funext y
  unfold iblk7
  rw [View.read_apply]
  show (V c (Pipeline.arrRef spec7 3) : FVec Ideal S64x64 .f32) (((cfg7.win 3).blk t).view.emb y) = _
  refine congrArg (V c (Pipeline.arrRef spec7 3) : FVec Ideal S64x64 .f32) (funext fun a => Fin.ext ?_)
  match a with
  | ⟨0, _⟩ => show win7_3.index t (0 : Fin 2) * 64 + 1 * (y 0).val = (y 0).val; rw [f6]; omega
  | ⟨1, _⟩ => show win7_3.index t (1 : Fin 2) * 64 + 1 * (y 1).val = (y 1).val; rw [f7]; omega

/-- Window 4 is its whole [64] array at every point. -/
theorem whole4_eq (c : Dev nD) (t : Fin cfg7.N) :
    (iblk7 V c 4 t : FVec Ideal S64 .f32) = (V c (Pipeline.arrRef spec7 4) : FVec Ideal S64 .f32) := by
  obtain ⟨f0, f1, f2, f3, f4, f5, f6, f7, f8, f9, f10, f11, f12, f13, f14, f15⟩ := idx_facts t
  funext y
  unfold iblk7
  rw [View.read_apply]
  show (V c (Pipeline.arrRef spec7 4) : FVec Ideal S64 .f32) (((cfg7.win 4).blk t).view.emb y) = _
  refine congrArg (V c (Pipeline.arrRef spec7 4) : FVec Ideal S64 .f32) (funext fun a => Fin.ext ?_)
  match a with
  | ⟨0, _⟩ => show win7_4.index t (0 : Fin 1) * 64 + 1 * (y 0).val = (y 0).val; rw [f8]; omega

/-- Window 5 is its whole [64,64] array at every point. -/
theorem whole5_eq (c : Dev nD) (t : Fin cfg7.N) :
    (iblk7 V c 5 t : FVec Ideal S64x64 .f32) = (V c (Pipeline.arrRef spec7 5) : FVec Ideal S64x64 .f32) := by
  obtain ⟨f0, f1, f2, f3, f4, f5, f6, f7, f8, f9, f10, f11, f12, f13, f14, f15⟩ := idx_facts t
  funext y
  unfold iblk7
  rw [View.read_apply]
  show (V c (Pipeline.arrRef spec7 5) : FVec Ideal S64x64 .f32) (((cfg7.win 5).blk t).view.emb y) = _
  refine congrArg (V c (Pipeline.arrRef spec7 5) : FVec Ideal S64x64 .f32) (funext fun a => Fin.ext ?_)
  match a with
  | ⟨0, _⟩ => show win7_5.index t (0 : Fin 2) * 64 + 1 * (y 0).val = (y 0).val; rw [f9]; omega
  | ⟨1, _⟩ => show win7_5.index t (1 : Fin 2) * 64 + 1 * (y 1).val = (y 1).val; rw [f10]; omega

/-- Window 6 is its whole [64,64] array at every point. -/
theorem whole6_eq (c : Dev nD) (t : Fin cfg7.N) :
    (iblk7 V c 6 t : FVec Ideal S64x64 .f32) = (V c (Pipeline.arrRef spec7 6) : FVec Ideal S64x64 .f32) := by
  obtain ⟨f0, f1, f2, f3, f4, f5, f6, f7, f8, f9, f10, f11, f12, f13, f14, f15⟩ := idx_facts t
  funext y
  unfold iblk7
  rw [View.read_apply]
  show (V c (Pipeline.arrRef spec7 6) : FVec Ideal S64x64 .f32) (((cfg7.win 6).blk t).view.emb y) = _
  refine congrArg (V c (Pipeline.arrRef spec7 6) : FVec Ideal S64x64 .f32) (funext fun a => Fin.ext ?_)
  match a with
  | ⟨0, _⟩ => show win7_6.index t (0 : Fin 2) * 64 + 1 * (y 0).val = (y 0).val; rw [f11]; omega
  | ⟨1, _⟩ => show win7_6.index t (1 : Fin 2) * 64 + 1 * (y 1).val = (y 1).val; rw [f12]; omega

/-- Window 7 is its whole [64] array at every point. -/
theorem whole7_eq (c : Dev nD) (t : Fin cfg7.N) :
    (iblk7 V c 7 t : FVec Ideal S64 .f32) = (V c (Pipeline.arrRef spec7 7) : FVec Ideal S64 .f32) := by
  obtain ⟨f0, f1, f2, f3, f4, f5, f6, f7, f8, f9, f10, f11, f12, f13, f14, f15⟩ := idx_facts t
  funext y
  unfold iblk7
  rw [View.read_apply]
  show (V c (Pipeline.arrRef spec7 7) : FVec Ideal S64 .f32) (((cfg7.win 7).blk t).view.emb y) = _
  refine congrArg (V c (Pipeline.arrRef spec7 7) : FVec Ideal S64 .f32) (funext fun a => Fin.ext ?_)
  match a with
  | ⟨0, _⟩ => show win7_7.index t (0 : Fin 1) * 64 + 1 * (y 0).val = (y 0).val; rw [f13]; omega

/-- The region's result as a function of the arrays the region finds. -/
abbrev specV (c : Dev nD) : FVec Ideal S60000x64 .f32 :=
  spec (V c (Pipeline.arrRef spec7 0)) (V c (Pipeline.arrRef spec7 1)) (V c (Pipeline.arrRef spec7 2))
    (V c (Pipeline.arrRef spec7 3)) (V c (Pipeline.arrRef spec7 4)) (V c (Pipeline.arrRef spec7 5))
    (V c (Pipeline.arrRef spec7 6)) (V c (Pipeline.arrRef spec7 7))

/-- One whole-block store through the zero-offset rectangle leaves the body's payload of the loaded blocks. -/
theorem out8_eq (x0 x1 x2 : FVec Ideal S6000x64 .f32) (x3 : FVec Ideal S64x64 .f32) (x4 : FVec Ideal S64 .f32)
    (x5 x6 : FVec Ideal S64x64 .f32) (x7 : FVec Ideal S64 .f32) :
    out7_8 (F := Ideal) x0 x1 x2 x3 x4 x5 x6 x7 = k7_pay1 (F := Ideal) x0 x1 x2 x3 x4 x5 x6 x7 := by
  unfold out7_8
  rw [View.canon_unit_zero hz2]
  simp only [View.ld_unit_zero (S := S6000x64) hz2, View.ld_unit_zero (S := S64x64) hz2, View.ld_unit_zero (S := S64) hz1]

/-- What the body leaves in the output's buffer at point t: rows 6000·t … 6000·t + 5999 of `specV`. -/
theorem after8_eq (c : Dev nD) (t : Fin cfg7.N) (ht : t.val < 10) :
    ((dat7 V c).after 8 t : FVec Ideal S6000x64 .f32)
      = fun y : S6000x64.Idx => specV V c (ix2 (rowOf t.val ht (y 0)) (y 1 : Fin 64)) := by
  rw [after7_8, rows0_eq V c t ht, rows1_eq V c t ht, rows2_eq V c t ht, whole3_eq V c t, whole4_eq V c t, whole5_eq V c t,
    whole6_eq V c t, whole7_eq V c t, out8_eq]
  funext y
  exact pay_rows _ _ _ _ _ _ _ _ t.val ht y

/-- What point t writes back is block t of `specV`. -/
theorem flushed8 (c : Dev nD) (t : Fin cfg7.N) :
    (dat7 V c).flushed 8 t = ((cfg7.win 8).blk t).view.read (Elt Ideal) (specV V c) := by
  have ht : t.val < 10 := by have h : t.val < grid7.N := t.isLt; rw [N_7] at h; exact h
  obtain ⟨f0, f1, f2, f3, f4, f5, f6, f7, f8, f9, f10, f11, f12, f13, f14, f15⟩ := idx_facts t
  show (cfg7.win 8).cut (grid7.coords t) ((dat7 V c).after 8 t) = _
  rw [after8_eq V c t ht]
  funext y
  rw [View.read_apply]
  show specV V c (ix2 (rowOf t.val ht (y 0)) (y 1 : Fin 64)) = specV V c (((cfg7.win 8).blk t).view.emb y)
  refine congrArg (specV V c) (funext fun a => Fin.ext ?_)
  match a with
  | ⟨0, _⟩ => show 6000 * t.val + (y 0).val = win7_8.index t (0 : Fin 2) * 6000 + 1 * (y 0).val; rw [f14]; omega
  | ⟨1, _⟩ => show (y 1).val = win7_8.index t (1 : Fin 2) * 64 + 1 * (y 1).val; rw [f15]; omega

/-- An index of the output array is in point t's block iff each coordinate is in the block's range on its axis. -/
theorem mem_blk8 (t : Fin cfg7.N) (i : S60000x64.Idx) :
    i ∈ ((cfg7.win 8).blk t).view.set ↔ ∀ a : Fin 2, win7_8.index t a * S6000x64.size a ≤ (i a).val
      ∧ (i a).val < win7_8.index t a * S6000x64.size a + S6000x64.size a := by
  show i ∈ ((View.whole main_v79).slice (win7_8.rect t)).set ↔ _
  rw [View.set_slice_whole, Rect.mem_set_unit]
  exact Iff.rfl

/-- Every row i of the output is in the block of point i / 6000, which writes back. -/
theorem cover8 (i : S60000x64.Idx) :
    ∃ t : Fin cfg7.N, (cfg7.win 8).flush t = true ∧ i ∈ ((cfg7.win 8).blk t).view.set := by
  have hi0 : (i 0).val < 60000 := idx2_lt0 i
  have hi1 : (i 1).val < 64 := idx2_lt1 i
  have hN : grid7.N = 10 := N_7
  have hlt : (i 0).val / 6000 < grid7.N := by rw [hN]; omega
  obtain ⟨f0, f1, f2, f3, f4, f5, f6, f7, f8, f9, f10, f11, f12, f13, f14, f15⟩ := idx_facts ⟨(i 0).val / 6000, hlt⟩
  refine ⟨⟨(i 0).val / 6000, hlt⟩, flush7_8 _, ?_⟩
  rw [mem_blk8]
  intro a
  match a with
  | ⟨0, _⟩ =>
    show win7_8.index ⟨(i 0).val / 6000, hlt⟩ (0 : Fin 2) * 6000 ≤ (i 0).val
      ∧ (i 0).val < win7_8.index ⟨(i 0).val / 6000, hlt⟩ (0 : Fin 2) * 6000 + 6000
    rw [f14]; show (i 0).val / 6000 * 6000 ≤ (i 0).val ∧ (i 0).val < (i 0).val / 6000 * 6000 + 6000; omega
  | ⟨1, _⟩ =>
    show win7_8.index ⟨(i 0).val / 6000, hlt⟩ (1 : Fin 2) * 64 ≤ (i 1).val
      ∧ (i 1).val < win7_8.index ⟨(i 0).val / 6000, hlt⟩ (1 : Fin 2) * 64 + 64
    rw [f15]; omega

/-- The array the region leaves is `specV`. -/
theorem final8 (c : Dev nD) : (dat7 V c).arrAt 8 cfg7.N = specV V c :=
  (dat7 V c).arrAt_eq_of_cover 8 (specV V c) (fun t _ => flushed8 V c t) cover8

/-! ## The region's result is the reference's term -/

/-- With the two weight windows the two column halves of one [64,128] array g1w (columns 0 … 63 and 64 … 127),
    `spec` is the reference's term entry by entry: Σ_{k<128} [h1 | xhat](i,k)·g1w(j,k)
    = Σ_{k<64} h1(i,k)·g1w(j,k) + Σ_{k<64} xhat(i,k)·g1w(j,64+k), a finite sum split at 64, which holds in any additive
    commutative monoid and so in the extended reals with no finiteness hypothesis. -/
theorem spec_eq_ref (X1 H1 EGO : FVec Ideal S60000x64 .f32) (L1W : FVec Ideal S64x64 .f32) (L1B : FVec Ideal S64 .f32)
    (GWH GWX : FVec Ideal S64x64 .f32) (G1B : FVec Ideal S64 .f32) (g1w : FVec Ideal S64x128 .f32)
    (hwh : GWH = extractStridedSlice S64x64 ![0, 0] g1w Facts₀.slices_S64x128_S64x64_0_0)
    (hwx : GWX = extractStridedSlice S64x64 ![0, 64] g1w Facts₀.slices_S64x128_S64x64_0_64) :
    spec X1 H1 EGO L1W L1B GWH GWX G1B = Cert.ReferenceIdeal.Stage3ValueT.stage3Ref X1 H1 EGO L1W L1B g1w G1B := by
  subst hwh hwx
  funext y
  obtain ⟨i, j, rfl⟩ : ∃ (i : Fin 60000) (j : Fin 64), y = ix2 i j := ⟨y 0, y 1, eq_ix2 y⟩
  rw [Cert.ReferenceIdeal.Stage3ValueT.stage3Ref_apply]
  show specAt X1 H1 EGO L1W L1B _ _ G1B i j = _
  unfold specAt
  refine congrArg (· + G1B (ix1 j)) (congrArg₂ (· + ·) (Finset.sum_congr rfl fun k _ => ?_)
    (Finset.sum_congr rfl fun k _ => ?_))
  · rw [slice2_axis1_apply 0 g1w Facts₀.slices_S64x128_S64x64_0_0 j k ⟨k.val, by omega⟩ (Nat.zero_add _).symm]
  · rw [slice2_axis1_eq 64 g1w Facts₀.slices_S64x128_S64x64_0_64 j k]

/-- THE ARRAY THE REGION LEAVES is the reference's [h1 | x1·l1wᵀ + l1b + ego]·g1wᵀ + g1b of the arrays the region
    finds, when its two weight windows hold the two column halves of g1w. -/
theorem region7_value (c : Dev nD) (g1w : Vec Ideal S64x128 .f32)
    (hwh : V c (Pipeline.arrRef spec7 5) = extractStridedSlice S64x64 ![0, 0] g1w Facts₀.slices_S64x128_S64x64_0_0)
    (hwx : V c (Pipeline.arrRef spec7 6) = extractStridedSlice S64x64 ![0, 64] g1w Facts₀.slices_S64x128_S64x64_0_64) :
    (Gen.dat7 (F := Ideal) V c).arrAt 8 cfg7.N
      = addf (F := Ideal) (Host.dotGeneral (F := Ideal) (φ₁ := .f32) (φ₂ := .f32) Cert.ReferenceIdeal.dot_S60000x128_S128x64_S60000x64_1_0_0_1_n_n none
          (concatenate Cert.ReferenceIdeal.S60000x128 1
            [⟨Cert.ReferenceIdeal.S60000x64, (V c (Pipeline.arrRef spec7 1) : FVec Ideal Cert.ReferenceIdeal.S60000x64 .f32)⟩,
             ⟨Cert.ReferenceIdeal.S60000x64,
               addf (F := Ideal) (addf (F := Ideal)
                 (Host.dotGeneral (F := Ideal) (φ₁ := .f32) (φ₂ := .f32) Cert.ReferenceIdeal.dot_S60000x64_S64x64_S60000x64_1_0_0_1_n_n none
                   (V c (Pipeline.arrRef spec7 0) : FVec Ideal Cert.ReferenceIdeal.S60000x64 .f32)
                   (transpose Cert.ReferenceIdeal.S64x64 [1, 0]
                     (V c (Pipeline.arrRef spec7 3) : FVec Ideal Cert.ReferenceIdeal.S64x64 .f32)
                     Cert.ReferenceIdeal.Facts₀.transposes_S64x64_S64x64_1_0))
                 (broadcastInDim Cert.ReferenceIdeal.S60000x64 ![0, 1] Cert.ReferenceIdeal.Facts₀.bcast_S1x64_S60000x64_0_1
                   (broadcastInDim Cert.ReferenceIdeal.S1x64 ![1] Cert.ReferenceIdeal.Facts₀.bcast_S64_S1x64_1
                     (V c (Pipeline.arrRef spec7 4) : FVec Ideal Cert.ReferenceIdeal.S64 .f32))))
                 (V c (Pipeline.arrRef spec7 2) : FVec Ideal Cert.ReferenceIdeal.S60000x64 .f32)⟩]
            Cert.ReferenceIdeal.Facts₀.concatenates_S60000x64_S60000x64_S60000x128_d1)
          (transpose Cert.ReferenceIdeal.S128x64 [1, 0] (g1w : FVec Ideal Cert.ReferenceIdeal.S64x128 .f32)
            Cert.ReferenceIdeal.Facts₀.transposes_S64x128_S128x64_1_0))
        (broadcastInDim Cert.ReferenceIdeal.S60000x64 ![0, 1] Cert.ReferenceIdeal.Facts₀.bcast_S1x64_S60000x64_0_1
          (broadcastInDim Cert.ReferenceIdeal.S1x64 ![1] Cert.ReferenceIdeal.Facts₀.bcast_S64_S1x64_1
            (V c (Pipeline.arrRef spec7 7) : FVec Ideal Cert.ReferenceIdeal.S64 .f32))) :=
  (final8 V c).trans (spec_eq_ref _ _ _ _ _ _ _ _ g1w hwh hwx)

end Cert.KernelIdeal.Stage3ValueT

end
-- ==== Proof.Trace6.lean ====
/-
  The contents of the idealized kernel program's buffers at the boundaries between @main's segments (the second modality's second fused layer and the closing stretch of host operations):
  each buffer a later segment reads holds its pure term of the launch memory. A stretch of host operations
  gives a buffer it computes the operation's function of its operands and leaves every other buffer; a kernel region
  gives each output array the whole-array function of its input arrays and leaves its input arrays and every other buffer.
-/
import proofs.«159630_j86646670230227_1_alg».proof.Proof.Gen.KernelIdeal.Frame
import proofs.«159630_j86646670230227_1_alg».proof.Proof.Gen.ReferenceIdeal
import Idealize.ShloMosaic.PureOps.Ideal
import proofs.«159630_j86646670230227_1_alg».proof.Proof.Trace5
import proofs.«159630_j86646670230227_1_alg».proof.Proof.Stage3ValueT
set_option maxRecDepth 16384

noncomputable section

namespace Cert.KernelIdeal.Trace

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem at14_main_v48 : W14 m ρ c (Proc.devRef .tc main_v48) = T_main_v48 m c := (W14_of_ne m ρ c main_v48 (by decide)).trans (at13_main_v48 m ρ c)
set_option maxHeartbeats 4000000 in
theorem at14_main_v79 : W14 m ρ c (Proc.devRef .tc main_v79) = T_main_v79 m c := by
  have e0 : V13 m ρ c (Pipeline.arrRef spec7 0) = T_main_v64_0 m c := at13_main_v64_0 m ρ c
  have e1 : V13 m ρ c (Pipeline.arrRef spec7 1) = T_main_v76 m c := at13_main_v76 m ρ c
  have e2 : V13 m ρ c (Pipeline.arrRef spec7 2) = T_main_v13 m c := at13_main_v13 m ρ c
  have e3 : V13 m ρ c (Pipeline.arrRef spec7 3) = T_main_arg23 m c := at13_main_arg23 m ρ c
  have e4 : V13 m ρ c (Pipeline.arrRef spec7 4) = T_main_arg24 m c := at13_main_arg24 m ρ c
  have e5 : V13 m ρ c (Pipeline.arrRef spec7 5) = T_main_v77 m c := at13_main_v77 m ρ c
  have e6 : V13 m ρ c (Pipeline.arrRef spec7 6) = T_main_v78 m c := at13_main_v78 m ρ c
  have e7 : V13 m ρ c (Pipeline.arrRef spec7 7) = T_main_arg32 m c := at13_main_arg32 m ρ c
  refine (W14_arr m ρ c 8).trans ((Cert.KernelIdeal.Stage3ValueT.region7_value (V13 m ρ) c (T_main_arg31 m c) (at13_main_v77 m ρ c) (at13_main_v78 m ρ c)).trans ?_)
  show fused2 (F := Ideal) (V13 m ρ c (Pipeline.arrRef spec7 0)) (V13 m ρ c (Pipeline.arrRef spec7 1)) (V13 m ρ c (Pipeline.arrRef spec7 2)) (V13 m ρ c (Pipeline.arrRef spec7 3)) (V13 m ρ c (Pipeline.arrRef spec7 4)) (T_main_arg31 m c) (V13 m ρ c (Pipeline.arrRef spec7 7)) = _
  exact congr (congrFun (congr (congr (congr (congr (congrArg (fused2 (F := Ideal)) e0) e1) e2) e3) e4) (T_main_arg31 m c)) e7
theorem at14_main_arg1 : W14 m ρ c (Proc.devRef .tc main_arg1) = T_main_arg1 m c := (W14_of_ne m ρ c main_arg1 (by decide)).trans (at13_main_arg1 m ρ c)
theorem at14_main_arg2 : W14 m ρ c (Proc.devRef .tc main_arg2) = T_main_arg2 m c := (W14_of_ne m ρ c main_arg2 (by decide)).trans (at13_main_arg2 m ρ c)
set_option maxHeartbeats 4000000 in
theorem at15_main_v100 : W15 m ρ c (Proc.devRef .tc main_v100) = T_main_v100 m c := by
  show StableHlo.after hostOps8 (W14 m ρ c) (Proc.devRef .tc main_v100) = _
  after_results_simp
  rw [at14_main_v48 m ρ c, at14_main_v79 m ρ c, at14_main_arg1 m ρ c, at14_main_arg2 m ρ c]
  rfl

end Cert.KernelIdeal.Trace

end
-- ==== Proof.Bridge.lean ====
/-
  The two idealized programs compute one function of the arguments. The kernel program's result buffer ends at its
  pure term of the launch memory (the run with the result named, then the boundary contents traced back to the launch);
  the reference's run ends at its composed term; with the arguments agreeing the two terms are the same composition of
  the same operations — the kernel regions' whole-array functions are spelt as the reference spells them.
-/
import proofs.«159630_j86646670230227_1_alg».proof.Defs
import proofs.«159630_j86646670230227_1_alg».proof.Proof.Gen.Kernel.Frame
import proofs.«159630_j86646670230227_1_alg».proof.Proof.Gen.Pre_finite_inputs
import proofs.«159630_j86646670230227_1_alg».proof.Proof.RefRun
import proofs.«159630_j86646670230227_1_alg».proof.Proof.RunVal
import proofs.«159630_j86646670230227_1_alg».proof.Proof.Trace6

set_option maxRecDepth 16384

noncomputable section

namespace Cert.Proof.Bridge

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefTrace.run (F := Ideal) m ρ)

/-- The ideal pass applied no rewrite: nothing to preserve. -/
theorem preserves : Cert.preserves_Kernel_KernelIdeal := trivial

set_option maxHeartbeats 8000000 in
/-- The reference's composed term, at arguments that agree with the kernel program's, is the kernel program's term:
    the same operations in the same order, the kernel regions' outputs being the reference's own sub-terms. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (h25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (h26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (h27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (h28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28))
    (h29 : m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29))
    (h30 : m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30))
    (h31 : m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31))
    (h32 : m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) :
    Cert.ReferenceIdeal.RefTrace.R_main_v156 m' c = Cert.KernelIdeal.Trace.T_main_v100 m c := by
  rw [Cert.ReferenceIdeal.RefTrace.R_eq_tree]
  unfold Cert.ReferenceIdeal.RefTrace.resTree
  rw [h0, h1, h2, h3, h4, h5, h6, h7, h8, h9, h10, h11, h12, h13, h14, h15, h16, h17, h18, h19, h20, h21, h22, h23, h24, h25, h26, h27, h28, h29, h30, h31, h32]
  rfl

theorem algebraic : Cert.algebraic_KernelIdeal_ReferenceIdeal := by
  intro m ρ m' ρ' _ hagree
  refine ⟨fun c => Cert.KernelIdeal.Trace.T_main_v100 m c, ?_, ?_⟩
  · exact (θ_run (Cert.KernelIdeal.defs (F := Ideal)) _ _).mono
      (fun r h c => ⟨(h c).1.trans (Cert.KernelIdeal.Trace.at15_main_v100 m ρ c), (h c).2⟩)
      (Cert.KernelIdeal.RunVal.run_val (F := Ideal) m ρ)
  · refine (θ_run Cert.ReferenceIdeal.defs _ _).mono (fun _ h c => ⟨(h c).1.trans ?_, (h c).2⟩)
      (Cert.ReferenceIdeal.RefTrace.run (F := Ideal) m' ρ')
    exact result_eq m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2.1 (hagree c).2.2.2.2.2.2.2.2.2.2.2.2.2.2.2.2.2.2.2.2.1 (hagree c).2.2.2.2.2.2.2.2.2.2.2.2.2.2.2.2.2.2.2.2.2.1 (hagree c).2.2.2.2.2.2.2.2.2.2.2.2.2.2.2.2.2.2.2.2.2.2.1 (hagree c).2.2.2.2.2.2.2.2.2.2.2.2.2.2.2.2.2.2.2.2.2.2.2.1 (hagree c).2.2.2.2.2.2.2.2.2.2.2.2.2.2.2.2.2.2.2.2.2.2.2.2.1 (hagree c).2.2.2.2.2.2.2.2.2.2.2.2.2.2.2.2.2.2.2.2.2.2.2.2.2.1 (hagree c).2.2.2.2.2.2.2.2.2.2.2.2.2.2.2.2.2.2.2.2.2.2.2.2.2.2.1 (hagree c).2.2.2.2.2.2.2.2.2.2.2.2.2.2.2.2.2.2.2.2.2.2.2.2.2.2.2.1 (hagree c).2.2.2.2.2.2.2.2.2.2.2.2.2.2.2.2.2.2.2.2.2.2.2.2.2.2.2.2.1 (hagree c).2.2.2.2.2.2.2.2.2.2.2.2.2.2.2.2.2.2.2.2.2.2.2.2.2.2.2.2.2.1 (hagree c).2.2.2.2.2.2.2.2.2.2.2.2.2.2.2.2.2.2.2.2.2.2.2.2.2.2.2.2.2.2.1 (hagree c).2.2.2.2.2.2.2.2.2.2.2.2.2.2.2.2.2.2.2.2.2.2.2.2.2.2.2.2.2.2.2.1 (hagree c).2.2.2.2.2.2.2.2.2.2.2.2.2.2.2.2.2.2.2.2.2.2.2.2.2.2.2.2.2.2.2.2

end Cert.Proof.Bridge

end
-- ==== Proof.lean ====
/-
  The certificate of a two-modality graph convolution: 33 arguments (an edge list, two index vectors, embedding
  tables, feature matrices and the layers' weights and biases) to one vector of 8192 scores. The kernel program runs
  eight blocked regions — two feature projections x·wᵀ + b, and per modality a row normalisation x / max(‖x‖, ε) with
  its message product, and two fused layers — among stretches of host operations (degree counts, gathers and
  scatter-adds along the edges, concatenations, the final averaged product); the reference computes the same on the
  host alone. At the extended reals the two are ONE composition of the same operations: a region's blocks tile its
  output array and each block is the whole-array function restricted to its rows; a product into a zero accumulator is
  the plain sum; and the fused layers' h·whᵀ + x̂·wxᵀ is the contraction of the concatenation [h | x̂] with the unsplit
  weight, a finite sum split in two. The three frames are the generated frames and the reference's run; the ideal pass
  applied no rewrite.
-/
import proofs.«159630_j86646670230227_1_alg».proof.Defs
import proofs.«159630_j86646670230227_1_alg».proof.Proof.Gen.Kernel
import proofs.«159630_j86646670230227_1_alg».proof.Proof.Gen.Kernel.Skeleton
import proofs.«159630_j86646670230227_1_alg».proof.Proof.Gen.Kernel.Launch
import proofs.«159630_j86646670230227_1_alg».proof.Proof.Gen.Kernel.Points
import proofs.«159630_j86646670230227_1_alg».proof.Proof.Gen.Kernel.Frame
import proofs.«159630_j86646670230227_1_alg».proof.Proof.Gen.KernelIdeal
import proofs.«159630_j86646670230227_1_alg».proof.Proof.Gen.KernelIdeal.Skeleton
import proofs.«159630_j86646670230227_1_alg».proof.Proof.Gen.KernelIdeal.Launch
import proofs.«159630_j86646670230227_1_alg».proof.Proof.Gen.KernelIdeal.Points
import proofs.«159630_j86646670230227_1_alg».proof.Proof.Gen.KernelIdeal.Frame
import proofs.«159630_j86646670230227_1_alg».proof.Proof.Gen.ReferenceIdeal
import proofs.«159630_j86646670230227_1_alg».proof.Proof.Gen.Pre_finite_inputs
import proofs.«159630_j86646670230227_1_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Bridge.frame_k, Bridge.frame_ki, Bridge.frame_ri, Bridge.preserves, Bridge.algebraic⟩

end Cert.Proof

end
